-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.truncf_extf.Statement Cert.KernelIdeal.S2000x512 .f32 .bf16
  ∧ IdealRules.truncf_extf.Statement Cert.KernelIdeal.S512x1024 .f32 .bf16
  ∧ IdealRules.truncf_extf.Statement Cert.KernelIdeal.S2000x512 .f32 .bf16
  ∧ IdealRules.truncf_extf.Statement Cert.KernelIdeal.S512x256 .f32 .bf16
  ∧ IdealRules.truncf_extf.Statement Cert.KernelIdeal.S2000x512 .f32 .bf16
  ∧ IdealRules.truncf_extf.Statement Cert.KernelIdeal.S512x256 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x2000 .f32 .bf16
  ∧ IdealRules.truncf_extf.Statement Cert.KernelIdeal.S2000x256 .f32 .bf16
  ∧ IdealRules.truncf_extf.Statement Cert.KernelIdeal.S256x2000 .f32 .bf16
  ∧ IdealRules.truncf_extf.Statement Cert.KernelIdeal.S2000x512 .f32 .bf16
  ∧ IdealRules.truncf_extf.Statement Cert.KernelIdeal.S512x512 .f32 .bf16
  ∧ IdealRules.truncf_extf.Statement Cert.KernelIdeal.S2000x256 .f32 .bf16
  ∧ IdealRules.truncf_extf.Statement Cert.KernelIdeal.S256x256 .f32 .bf16
  ∧ IdealRules.truncf_extf.Statement Cert.KernelIdeal.S2000x256 .f32 .bf16
  ∧ IdealRules.truncf_extf.Statement Cert.KernelIdeal.S256x2000 .f32 .bf16
  ∧ IdealRules.truncf_extf.Statement Cert.KernelIdeal.S2000x256 .f32 .bf16
  ∧ IdealRules.truncf_extf.Statement Cert.KernelIdeal.S256x2000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v140)) (v2 : (c : Dev Cert.KernelIdeal.nD) → Buf (Elt Ideal) ((c.tc : Thread Cert.KernelIdeal.nD Cert.KernelIdeal.τ).loc Cert.KernelIdeal.main_v229)) (v3 : (c : Dev Cert.KernelIdeal.nD) → Buf (Elt Ideal) ((c.tc : Thread Cert.KernelIdeal.nD Cert.KernelIdeal.τ).loc Cert.KernelIdeal.main_v230)) (v4 : (c : Dev Cert.KernelIdeal.nD) → Buf (Elt Ideal) ((c.tc : Thread Cert.KernelIdeal.nD Cert.KernelIdeal.τ).loc Cert.KernelIdeal.main_v315)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v140) = v1 c
          ∧ r.2.mem ((c.tc : Thread Cert.KernelIdeal.nD Cert.KernelIdeal.τ).loc Cert.KernelIdeal.main_v229) = v2 c
          ∧ r.2.mem ((c.tc : Thread Cert.KernelIdeal.nD Cert.KernelIdeal.τ).loc Cert.KernelIdeal.main_v230) = v3 c
          ∧ r.2.mem ((c.tc : Thread Cert.KernelIdeal.nD Cert.KernelIdeal.τ).loc Cert.KernelIdeal.main_v315) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_v276) = v2 c
          ∧ r.2.mem ((c.tc : Thread Cert.ReferenceIdeal.nD Cert.ReferenceIdeal.τ).loc Cert.ReferenceIdeal.main_v280) = v3 c
          ∧ r.2.mem ((c.tc : Thread Cert.ReferenceIdeal.nD Cert.ReferenceIdeal.τ).loc Cert.ReferenceIdeal.main_v376) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S320000 : Shape := ⟨1, ![320000]⟩
abbrev S_ : Shape := ⟨0, ![]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x256 : Shape := ⟨2, ![256, 256]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  reducesTo_S_S_d : S_.ReducesTo [] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part5 {F : FTy → Type} [FloatOps F] (main_arg6 : FVec F S_ .f32) (main_v81 : IVec S_ 1) (main_v83 : IVec S_ 1) : IVec S_ 1 :=
  let main_v84 : IVec S_ 1 := andi main_v81 main_v83
  let main_cst_34 : FVec F S_ .f32 := constant S_ .f32 0x00000000#32
  let main_v85 : IVec S_ 1 := cmpf .une main_arg6 main_cst_34
  let main_c_35 : IVec S_ 1 := constantI S_ 1 1#1
  let main_v86 : IVec S_ 1 := (fun x v => Host.reduce IntOp.andi x v reducesTo_S_S_d h_S_) main_v85 main_c_35
  let main_v87 : IVec S_ 1 := andi main_v84 main_v86
  main_v87

def fn_part4 {F : FTy → Type} [FloatOps F] (main_arg5 : FVec F S_ .f32) (main_arg6 : FVec F S_ .f32) (main_arg19 : FVec F S256x256 .f32) (main_arg20 : FVec F S256 .f32) (main_v66 : IVec S_ 1) (main_v67 : FVec F S256 .f32) : IVec S_ 1 :=
  let main_cst_26 : FVec F S_ .f32 := constant S_ .f32 0x7F800000#32
  let main_v68 : FVec F S256 .f32 := broadcastInDim S256 ![] bcast_S_S256 main_cst_26
  let main_v69 : IVec S256 1 := cmpf .olt main_v67 main_v68
  let main_c_27 : IVec S_ 1 := constantI S_ 1 1#1
  let main_v70 : IVec S_ 1 := (fun x v => Host.reduce IntOp.andi x v reducesTo_S256_S_d0 h_S_) main_v69 main_c_27
  let main_v71 : IVec S_ 1 := andi main_v66 main_v70
  let main_v72 : FVec F S256x256 .f32 := Host.absf main_arg19
  let main_cst_28 : FVec F S_ .f32 := constant S_ .f32 0x7F800000#32
  let main_v73 : FVec F S256x256 .f32 := broadcastInDim S256x256 ![] bcast_S_S256x256 main_cst_28
  let main_v74 : IVec S256x256 1 := cmpf .olt main_v72 main_v73
  let main_c_29 : IVec S_ 1 := constantI S_ 1 1#1
  let main_v75 : IVec S_ 1 := (fun x v => Host.reduce IntOp.andi x v reducesTo_S256x256_S_d0_1 h_S_) main_v74 main_c_29
  let main_v76 : IVec S_ 1 := andi main_v71 main_v75
  let main_v77 : FVec F S256 .f32 := Host.absf main_arg20
  let main_cst_30 : FVec F S_ .f32 := constant S_ .f32 0x7F800000#32
  let main_v78 : FVec F S256 .f32 := broadcastInDim S256 ![] bcast_S_S256 main_cst_30
  let main_v79 : IVec S256 1 := cmpf .olt main_v77 main_v78
  let main_c_31 : IVec S_ 1 := constantI S_ 1 1#1
  let main_v80 : IVec S_ 1 := (fun x v => Host.reduce IntOp.andi x v reducesTo_S256_S_d0 h_S_) main_v79 main_c_31
  let main_v81 : IVec S_ 1 := andi main_v76 main_v80
  let main_cst_32 : FVec F S_ .f32 := constant S_ .f32 0x00000000#32
  let main_v82 : IVec S_ 1 := cmpf .une main_arg5 main_cst_32
  let main_c_33 : IVec S_ 1 := constantI S_ 1 1#1
  let main_v83 : IVec S_ 1 := (fun x v => Host.reduce IntOp.andi x v reducesTo_S_S_d h_S_) main_v82 main_c_33
  fn_part5 (F := F) main_arg6 main_v81 main_v83

def fn_part3 {F : FTy → Type} [FloatOps F] (main_arg5 : FVec F S_ .f32) (main_arg6 : FVec F S_ .f32) (main_arg15 : FVec F S512x256 .f32) (main_arg16 : FVec F S256 .f32) (main_arg17 : FVec F S512x256 .f32) (main_arg18 : FVec F S256 .f32) (main_arg19 : FVec F S256x256 .f32) (main_arg20 : FVec F S256 .f32) (main_v46 : IVec S_ 1) (main_v49 : IVec S256 1) (main_c_19 : IVec S_ 1) : IVec S_ 1 :=
  let main_v50 : IVec S_ 1 := (fun x v => Host.reduce IntOp.andi x v reducesTo_S256_S_d0 h_S_) main_v49 main_c_19
  let main_v51 : IVec S_ 1 := andi main_v46 main_v50
  let main_v52 : FVec F S512x256 .f32 := Host.absf main_arg15
  let main_cst_20 : FVec F S_ .f32 := constant S_ .f32 0x7F800000#32
  let main_v53 : FVec F S512x256 .f32 := broadcastInDim S512x256 ![] bcast_S_S512x256 main_cst_20
  let main_v54 : IVec S512x256 1 := cmpf .olt main_v52 main_v53
  let main_c_21 : IVec S_ 1 := constantI S_ 1 1#1
  let main_v55 : IVec S_ 1 := (fun x v => Host.reduce IntOp.andi x v reducesTo_S512x256_S_d0_1 h_S_) main_v54 main_c_21
  let main_v56 : IVec S_ 1 := andi main_v51 main_v55
  let main_v57 : FVec F S256 .f32 := Host.absf main_arg16
  let main_cst_22 : FVec F S_ .f32 := constant S_ .f32 0x7F800000#32
  let main_v58 : FVec F S256 .f32 := broadcastInDim S256 ![] bcast_S_S256 main_cst_22
  let main_v59 : IVec S256 1 := cmpf .olt main_v57 main_v58
  let main_c_23 : IVec S_ 1 := constantI S_ 1 1#1
  let main_v60 : IVec S_ 1 := (fun x v => Host.reduce IntOp.andi x v reducesTo_S256_S_d0 h_S_) main_v59 main_c_23
  let main_v61 : IVec S_ 1 := andi main_v56 main_v60
  let main_v62 : FVec F S512x256 .f32 := Host.absf main_arg17
  let main_cst_24 : FVec F S_ .f32 := constant S_ .f32 0x7F800000#32
  let main_v63 : FVec F S512x256 .f32 := broadcastInDim S512x256 ![] bcast_S_S512x256 main_cst_24
  let main_v64 : IVec S512x256 1 := cmpf .olt main_v62 main_v63
  let main_c_25 : IVec S_ 1 := constantI S_ 1 1#1
  let main_v65 : IVec S_ 1 := (fun x v => Host.reduce IntOp.andi x v reducesTo_S512x256_S_d0_1 h_S_) main_v64 main_c_25
  let main_v66 : IVec S_ 1 := andi main_v61 main_v65
  let main_v67 : FVec F S256 .f32 := Host.absf main_arg18
  fn_part4 (F := F) main_arg5 main_arg6 main_arg19 main_arg20 main_v66 main_v67

def fn_part2 {F : FTy → Type} [FloatOps F] (main_arg5 : FVec F S_ .f32) (main_arg6 : FVec F S_ .f32) (main_arg12 : FVec F S512 .f32) (main_arg13 : FVec F S512x256 .f32) (main_arg14 : FVec F S256 .f32) (main_arg15 : FVec F S512x256 .f32) (main_arg16 : FVec F S256 .f32) (main_arg17 : FVec F S512x256 .f32) (main_arg18 : FVec F S256 .f32) (main_arg19 : FVec F S256x256 .f32) (main_arg20 : FVec F S256 .f32) (main_v31 : IVec S_ 1) (main_v32 : FVec F S512x512 .f32) (main_cst_12 : FVec F S_ .f32) : IVec S_ 1 :=
  let main_v33 : FVec F S512x512 .f32 := broadcastInDim S512x512 ![] bcast_S_S512x512 main_cst_12
  let main_v34 : IVec S512x512 1 := cmpf .olt main_v32 main_v33
  let main_c_13 : IVec S_ 1 := constantI S_ 1 1#1
  let main_v35 : IVec S_ 1 := (fun x v => Host.reduce IntOp.andi x v reducesTo_S512x512_S_d0_1 h_S_) main_v34 main_c_13
  let main_v36 : IVec S_ 1 := andi main_v31 main_v35
  let main_v37 : FVec F S512 .f32 := Host.absf main_arg12
  let main_cst_14 : FVec F S_ .f32 := constant S_ .f32 0x7F800000#32
  let main_v38 : FVec F S512 .f32 := broadcastInDim S512 ![] bcast_S_S512 main_cst_14
  let main_v39 : IVec S512 1 := cmpf .olt main_v37 main_v38
  let main_c_15 : IVec S_ 1 := constantI S_ 1 1#1
  let main_v40 : IVec S_ 1 := (fun x v => Host.reduce IntOp.andi x v reducesTo_S512_S_d0 h_S_) main_v39 main_c_15
  let main_v41 : IVec S_ 1 := andi main_v36 main_v40
  let main_v42 : FVec F S512x256 .f32 := Host.absf main_arg13
  let main_cst_16 : FVec F S_ .f32 := constant S_ .f32 0x7F800000#32
  let main_v43 : FVec F S512x256 .f32 := broadcastInDim S512x256 ![] bcast_S_S512x256 main_cst_16
  let main_v44 : IVec S512x256 1 := cmpf .olt main_v42 main_v43
  let main_c_17 : IVec S_ 1 := constantI S_ 1 1#1
  let main_v45 : IVec S_ 1 := (fun x v => Host.reduce IntOp.andi x v reducesTo_S512x256_S_d0_1 h_S_) main_v44 main_c_17
  let main_v46 : IVec S_ 1 := andi main_v41 main_v45
  let main_v47 : FVec F S256 .f32 := Host.absf main_arg14
  let main_cst_18 : FVec F S_ .f32 := constant S_ .f32 0x7F800000#32
  let main_v48 : FVec F S256 .f32 := broadcastInDim S256 ![] bcast_S_S256 main_cst_18
  let main_v49 : IVec S256 1 := cmpf .olt main_v47 main_v48
  let main_c_19 : IVec S_ 1 := constantI S_ 1 1#1
  fn_part3 (F := F) main_arg5 main_arg6 main_arg15 main_arg16 main_arg17 main_arg18 main_arg19 main_arg20 main_v46 main_v49 main_c_19

def fn_part1 {F : FTy → Type} [FloatOps F] (main_arg5 : FVec F S_ .f32) (main_arg6 : FVec F S_ .f32) (main_arg8 : FVec F S512 .f32) (main_arg9 : FVec F S512x256 .f32) (main_arg10 : FVec F S256 .f32) (main_arg11 : FVec F S512x512 .f32) (main_arg12 : FVec F S512 .f32) (main_arg13 : FVec F S512x256 .f32) (main_arg14 : FVec F S256 .f32) (main_arg15 : FVec F S512x256 .f32) (main_arg16 : FVec F S256 .f32) (main_arg17 : FVec F S512x256 .f32) (main_arg18 : FVec F S256 .f32) (main_arg19 : FVec F S256x256 .f32) (main_arg20 : FVec F S256 .f32) (main_v11 : IVec S_ 1) (main_v15 : IVec S_ 1) : IVec S_ 1 :=
  let main_v16 : IVec S_ 1 := andi main_v11 main_v15
  let main_v17 : FVec F S512 .f32 := Host.absf main_arg8
  let main_cst_6 : FVec F S_ .f32 := constant S_ .f32 0x7F800000#32
  let main_v18 : FVec F S512 .f32 := broadcastInDim S512 ![] bcast_S_S512 main_cst_6
  let main_v19 : IVec S512 1 := cmpf .olt main_v17 main_v18
  let main_c_7 : IVec S_ 1 := constantI S_ 1 1#1
  let main_v20 : IVec S_ 1 := (fun x v => Host.reduce IntOp.andi x v reducesTo_S512_S_d0 h_S_) main_v19 main_c_7
  let main_v21 : IVec S_ 1 := andi main_v16 main_v20
  let main_v22 : FVec F S512x256 .f32 := Host.absf main_arg9
  let main_cst_8 : FVec F S_ .f32 := constant S_ .f32 0x7F800000#32
  let main_v23 : FVec F S512x256 .f32 := broadcastInDim S512x256 ![] bcast_S_S512x256 main_cst_8
  let main_v24 : IVec S512x256 1 := cmpf .olt main_v22 main_v23
  let main_c_9 : IVec S_ 1 := constantI S_ 1 1#1
  let main_v25 : IVec S_ 1 := (fun x v => Host.reduce IntOp.andi x v reducesTo_S512x256_S_d0_1 h_S_) main_v24 main_c_9
  let main_v26 : IVec S_ 1 := andi main_v21 main_v25
  let main_v27 : FVec F S256 .f32 := Host.absf main_arg10
  let main_cst_10 : FVec F S_ .f32 := constant S_ .f32 0x7F800000#32
  let main_v28 : FVec F S256 .f32 := broadcastInDim S256 ![] bcast_S_S256 main_cst_10
  let main_v29 : IVec S256 1 := cmpf .olt main_v27 main_v28
  let main_c_11 : IVec S_ 1 := constantI S_ 1 1#1
  let main_v30 : IVec S_ 1 := (fun x v => Host.reduce IntOp.andi x v reducesTo_S256_S_d0 h_S_) main_v29 main_c_11
  let main_v31 : IVec S_ 1 := andi main_v26 main_v30
  let main_v32 : FVec F S512x512 .f32 := Host.absf main_arg11
  let main_cst_12 : FVec F S_ .f32 := constant S_ .f32 0x7F800000#32
  fn_part2 (F := F) main_arg5 main_arg6 main_arg12 main_arg13 main_arg14 main_arg15 main_arg16 main_arg17 main_arg18 main_arg19 main_arg20 main_v31 main_v32 main_cst_12

def fn {F : FTy → Type} [FloatOps F] (main_arg0 : FVec F S10000x512 .f32) (main_arg1 : IVec S320000 32) (main_arg2 : IVec S320000 32) (main_arg3 : IVec S320000 32) (main_arg4 : IVec S320000 32) (main_arg5 : FVec F S_ .f32) (main_arg6 : FVec F S_ .f32) (main_arg7 : FVec F S512x512 .f32) (main_arg8 : FVec F S512 .f32) (main_arg9 : FVec F S512x256 .f32) (main_arg10 : FVec F S256 .f32) (main_arg11 : FVec F S512x512 .f32) (main_arg12 : FVec F S512 .f32) (main_arg13 : FVec F S512x256 .f32) (main_arg14 : FVec F S256 .f32) (main_arg15 : FVec F S512x256 .f32) (main_arg16 : FVec F S256 .f32) (main_arg17 : FVec F S512x256 .f32) (main_arg18 : FVec F S256 .f32) (main_arg19 : FVec F S256x256 .f32) (main_arg20 : FVec F S256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S_ .f32 := Host.absf main_arg5
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg6
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_v12 : FVec F S512x512 .f32 := Host.absf main_arg7
  let main_cst_4 : FVec F S_ .f32 := constant S_ .f32 0x7F800000#32
  let main_v13 : FVec F S512x512 .f32 := broadcastInDim S512x512 ![] bcast_S_S512x512 main_cst_4
  let main_v14 : IVec S512x512 1 := cmpf .olt main_v12 main_v13
  let main_c_5 : IVec S_ 1 := constantI S_ 1 1#1
  let main_v15 : IVec S_ 1 := (fun x v => Host.reduce IntOp.andi x v reducesTo_S512x512_S_d0_1 h_S_) main_v14 main_c_5
  fn_part1 (F := F) main_arg5 main_arg6 main_arg8 main_arg9 main_arg10 main_arg11 main_arg12 main_arg13 main_arg14 main_arg15 main_arg16 main_arg17 main_arg18 main_arg19 main_arg20 main_v11 main_v15
-- ==== Kernel.lean ====
abbrev S10000x512 : Shape := ⟨2, ![10000, 512]⟩
abbrev S320000 : Shape := ⟨1, ![320000]⟩
abbrev S_ : Shape := ⟨0, ![]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S512x1024 : Shape := ⟨2, ![512, 1024]⟩
abbrev S1024 : Shape := ⟨1, ![1024]⟩
abbrev S1x1024 : Shape := ⟨2, ![1, 1024]⟩
abbrev S10000x1024 : Shape := ⟨2, ![10000, 1024]⟩
abbrev S2000x512 : Shape := ⟨2, ![2000, 512]⟩
abbrev S2000x1024 : Shape := ⟨2, ![2000, 1024]⟩
abbrev S10000 : Shape := ⟨1, ![10000]⟩
abbrev S320000x1 : Shape := ⟨2, ![320000, 1]⟩
abbrev S10000x1 : Shape := ⟨2, ![10000, 1]⟩
abbrev S320000x512 : Shape := ⟨2, ![320000, 512]⟩
abbrev S1x512 : Shape := ⟨2, ![1, 512]⟩
abbrev S1x256 : Shape := ⟨2, ![1, 256]⟩
abbrev S10000x256 : Shape := ⟨2, ![10000, 256]⟩
abbrev S2000x256 : Shape := ⟨2, ![2000, 256]⟩
abbrev S320000x256 : Shape := ⟨2, ![320000, 256]⟩
abbrev S2000x1 : Shape := ⟨2, ![2000, 1]⟩
abbrev S256x2000 : Shape := ⟨2, ![256, 2000]⟩
abbrev S2000x2000 : Shape := ⟨2, ![2000, 2000]⟩
abbrev S2000 : Shape := ⟨1, ![2000]⟩

abbrev nBuf : Space → Nat
  | .hbm => 439
  | .vmem => 54
  | .smem => 0
  | _ => 0

abbrev hbmTy0_0 (i : Nat) : BufTy := match i % 128 with
  | 0 => ⟨S10000x512, .f32⟩
  | 1 => ⟨S320000, .i32⟩
  | 2 => ⟨S320000, .i32⟩
  | 3 => ⟨S320000, .i32⟩
  | 4 => ⟨S320000, .i32⟩
  | 5 => ⟨S_, .f32⟩
  | 6 => ⟨S_, .f32⟩
  | 7 => ⟨S512x512, .f32⟩
  | 8 => ⟨S512, .f32⟩
  | 9 => ⟨S512x256, .f32⟩
  | 10 => ⟨S256, .f32⟩
  | 11 => ⟨S512x512, .f32⟩
  | 12 => ⟨S512, .f32⟩
  | 13 => ⟨S512x256, .f32⟩
  | 14 => ⟨S256, .f32⟩
  | 15 => ⟨S512x256, .f32⟩
  | 16 => ⟨S256, .f32⟩
  | 17 => ⟨S512x256, .f32⟩
  | 18 => ⟨S256, .f32⟩
  | 19 => ⟨S256x256, .f32⟩
  | 20 => ⟨S256, .f32⟩
  | 21 => ⟨S512x1024, .f32⟩
  | 22 => ⟨S_, .f32⟩
  | 23 => ⟨S1024, .f32⟩
  | 24 => ⟨S1x1024, .f32⟩
  | 25 => ⟨S10000x1024, .f32⟩
  | 26 => ⟨S10000x512, .f32⟩
  | 27 => ⟨S10000x512, .f32⟩
  | 28 => ⟨S_, .f32⟩
  | 29 => ⟨S320000, .f32⟩
  | 30 => ⟨S_, .f32⟩
  | 31 => ⟨S10000, .f32⟩
  | 32 => ⟨S320000x1, .i32⟩
  | 33 => ⟨S10000, .f32⟩
  | 34 => ⟨S_, .f32⟩
  | 35 => ⟨S10000, .f32⟩
  | 36 => ⟨S320000x1, .i32⟩
  | 37 => ⟨S10000, .f32⟩
  | 38 => ⟨S_, .f32⟩
  | 39 => ⟨S10000, .f32⟩
  | 40 => ⟨S10000, .i1⟩
  | 41 => ⟨S_, .f32⟩
  | 42 => ⟨S10000, .f32⟩
  | 43 => ⟨S10000, .f32⟩
  | 44 => ⟨S_, .f32⟩
  | 45 => ⟨S_, .f32⟩
  | 46 => ⟨S10000, .f32⟩
  | 47 => ⟨S10000, .f32⟩
  | 48 => ⟨S_, .f32⟩
  | 49 => ⟨S10000, .f32⟩
  | 50 => ⟨S10000, .i1⟩
  | 51 => ⟨S_, .f32⟩
  | 52 => ⟨S10000, .f32⟩
  | 53 => ⟨S10000, .f32⟩
  | 54 => ⟨S_, .f32⟩
  | 55 => ⟨S_, .f32⟩
  | 56 => ⟨S10000, .f32⟩
  | 57 => ⟨S10000, .f32⟩
  | 58 => ⟨S10000x1, .f32⟩
  | 59 => ⟨S10000x512, .f32⟩
  | 60 => ⟨S10000x512, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000x512, .f32⟩
  | 70 => ⟨S_, .f32⟩
  | 71 => ⟨S10000x512, .f32⟩
  | 72 => ⟨S320000x1, .i32⟩
  | 73 => ⟨S10000x512, .f32⟩
  | 74 => ⟨S10000x1, .f32⟩
  | 75 => ⟨S10000x512, .f32⟩
  | 76 => ⟨S10000x512, .f32⟩
  | 77 => ⟨S1x512, .f32⟩
  | 78 => ⟨S10000x512, .f32⟩
  | 79 => ⟨S10000x512, .f32⟩
  | 80 => ⟨S10000x1, .f32⟩
  | 81 => ⟨S10000x512, .f32⟩
  | 82 => ⟨S10000x512, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x512, .f32⟩
  | 92 => ⟨S_, .f32⟩
  | 93 => ⟨S10000x512, .f32⟩
  | 94 => ⟨S320000x1, .i32⟩
  | 95 => ⟨S10000x512, .f32⟩
  | 96 => ⟨S10000x1, .f32⟩
  | 97 => ⟨S10000x512, .f32⟩
  | 98 => ⟨S10000x512, .f32⟩
  | 99 => ⟨S1x512, .f32⟩
  | 100 => ⟨S10000x512, .f32⟩
  | 101 => ⟨S10000x512, .f32⟩
  | 102 => ⟨S_, .f32⟩
  | 103 => ⟨S10000x512, .f32⟩
  | 104 => ⟨S10000x512, .f32⟩
  | 105 => ⟨S_, .f32⟩
  | 106 => ⟨S10000x512, .f32⟩
  | 107 => ⟨S10000x512, .f32⟩
  | 108 => ⟨S_, .f32⟩
  | 109 => ⟨S256, .f32⟩
  | 110 => ⟨S1x256, .f32⟩
  | 111 => ⟨S10000x256, .f32⟩
  | 112 => ⟨S_, .f32⟩
  | 113 => ⟨S320000, .f32⟩
  | 114 => ⟨S_, .f32⟩
  | 115 => ⟨S10000, .f32⟩
  | 116 => ⟨S320000x1, .i32⟩
  | 117 => ⟨S10000, .f32⟩
  | 118 => ⟨S_, .f32⟩
  | 119 => ⟨S10000, .f32⟩
  | 120 => ⟨S320000x1, .i32⟩
  | 121 => ⟨S10000, .f32⟩
  | 122 => ⟨S_, .f32⟩
  | 123 => ⟨S10000, .f32⟩
  | 124 => ⟨S10000, .i1⟩
  | 125 => ⟨S_, .f32⟩
  | 126 => ⟨S10000, .f32⟩
  | 127 => ⟨S10000, .f32⟩
  | _ => ⟨S10000x512, .f32⟩

abbrev hbmTy0_1 (i : Nat) : BufTy := match i % 128 with
  | 0 => ⟨S_, .f32⟩
  | 1 => ⟨S_, .f32⟩
  | 2 => ⟨S10000, .f32⟩
  | 3 => ⟨S10000, .f32⟩
  | 4 => ⟨S_, .f32⟩
  | 5 => ⟨S10000, .f32⟩
  | 6 => ⟨S10000, .i1⟩
  | 7 => ⟨S_, .f32⟩
  | 8 => ⟨S10000, .f32⟩
  | 9 => ⟨S10000, .f32⟩
  | 10 => ⟨S_, .f32⟩
  | 11 => ⟨S_, .f32⟩
  | 12 => ⟨S10000, .f32⟩
  | 13 => ⟨S10000, .f32⟩
  | 14 => ⟨S10000x1, .f32⟩
  | 15 => ⟨S10000x256, .f32⟩
  | 16 => ⟨S10000x256, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S320000x256, .f32⟩
  | 26 => ⟨S_, .f32⟩
  | 27 => ⟨S10000x256, .f32⟩
  | 28 => ⟨S320000x1, .i32⟩
  | 29 => ⟨S10000x256, .f32⟩
  | 30 => ⟨S10000x1, .f32⟩
  | 31 => ⟨S10000x256, .f32⟩
  | 32 => ⟨S10000x256, .f32⟩
  | 33 => ⟨S1x256, .f32⟩
  | 34 => ⟨S10000x256, .f32⟩
  | 35 => ⟨S10000x256, .f32⟩
  | 36 => ⟨S_, .f32⟩
  | 37 => ⟨S256, .f32⟩
  | 38 => ⟨S1x256, .f32⟩
  | 39 => ⟨S10000x256, .f32⟩
  | 40 => ⟨S_, .f32⟩
  | 41 => ⟨S320000, .f32⟩
  | 42 => ⟨S_, .f32⟩
  | 43 => ⟨S10000, .f32⟩
  | 44 => ⟨S320000x1, .i32⟩
  | 45 => ⟨S10000, .f32⟩
  | 46 => ⟨S_, .f32⟩
  | 47 => ⟨S10000, .f32⟩
  | 48 => ⟨S320000x1, .i32⟩
  | 49 => ⟨S10000, .f32⟩
  | 50 => ⟨S_, .f32⟩
  | 51 => ⟨S10000, .f32⟩
  | 52 => ⟨S10000, .i1⟩
  | 53 => ⟨S_, .f32⟩
  | 54 => ⟨S10000, .f32⟩
  | 55 => ⟨S10000, .f32⟩
  | 56 => ⟨S_, .f32⟩
  | 57 => ⟨S_, .f32⟩
  | 58 => ⟨S10000, .f32⟩
  | 59 => ⟨S10000, .f32⟩
  | 60 => ⟨S_, .f32⟩
  | 61 => ⟨S10000, .f32⟩
  | 62 => ⟨S10000, .i1⟩
  | 63 => ⟨S_, .f32⟩
  | 64 => ⟨S10000, .f32⟩
  | 65 => ⟨S10000, .f32⟩
  | 66 => ⟨S_, .f32⟩
  | 67 => ⟨S_, .f32⟩
  | 68 => ⟨S10000, .f32⟩
  | 69 => ⟨S10000, .f32⟩
  | 70 => ⟨S10000x1, .f32⟩
  | 71 => ⟨S10000x256, .f32⟩
  | 72 => ⟨S10000x256, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x256, .f32⟩
  | 82 => ⟨S_, .f32⟩
  | 83 => ⟨S10000x256, .f32⟩
  | 84 => ⟨S320000x1, .i32⟩
  | 85 => ⟨S10000x256, .f32⟩
  | 86 => ⟨S10000x1, .f32⟩
  | 87 => ⟨S10000x256, .f32⟩
  | 88 => ⟨S10000x256, .f32⟩
  | 89 => ⟨S1x256, .f32⟩
  | 90 => ⟨S10000x256, .f32⟩
  | 91 => ⟨S10000x256, .f32⟩
  | 92 => ⟨S1x256, .f32⟩
  | 93 => ⟨S10000x256, .f32⟩
  | 94 => ⟨S10000x256, .f32⟩
  | 95 => ⟨S_, .f32⟩
  | 96 => ⟨S10000, .f32⟩
  | 97 => ⟨S10000x1, .f32⟩
  | 98 => ⟨S10000x1, .f32⟩
  | 99 => ⟨S_, .f32⟩
  | 100 => ⟨S10000x1, .f32⟩
  | 101 => ⟨S10000x1, .f32⟩
  | 102 => ⟨S10000x256, .f32⟩
  | 103 => ⟨S10000x256, .f32⟩
  | 104 => ⟨S10000x256, .f32⟩
  | 105 => ⟨S_, .f32⟩
  | 106 => ⟨S10000, .f32⟩
  | 107 => ⟨S10000x1, .f32⟩
  | 108 => ⟨S10000x1, .f32⟩
  | 109 => ⟨S_, .f32⟩
  | 110 => ⟨S10000x1, .f32⟩
  | 111 => ⟨S10000x1, .f32⟩
  | 112 => ⟨S10000x256, .f32⟩
  | 113 => ⟨S10000x256, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S320000x256, .f32⟩
  | 123 => ⟨S_, .i32⟩
  | 124 => ⟨S320000, .i32⟩
  | 125 => ⟨S320000, .i1⟩
  | 126 => ⟨S_, .i32⟩
  | 127 => ⟨S320000, .i32⟩
  | _ => ⟨S10000x512, .f32⟩

abbrev hbmTy0_2 (i : Nat) : BufTy := match i % 128 with
  | 0 => ⟨S320000, .i32⟩
  | 1 => ⟨S320000, .i32⟩
  | 2 => ⟨S320000x1, .i32⟩
  | 3 => ⟨S320000x256, .f32⟩
  | 4 => ⟨S320000x256, .f32⟩
  | 5 => ⟨S_, .f32⟩
  | 6 => ⟨S320000, .f32⟩
  | 7 => ⟨S320000, .f32⟩
  | 8 => ⟨S320000, .f32⟩
  | 9 => ⟨S_, .f32⟩
  | 10 => ⟨S320000, .f32⟩
  | 11 => ⟨S_, .f32⟩
  | 12 => ⟨S10000, .f32⟩
  | 13 => ⟨S320000x1, .i32⟩
  | 14 => ⟨S10000, .f32⟩
  | 15 => ⟨S_, .f32⟩
  | 16 => ⟨S10000, .f32⟩
  | 17 => ⟨S10000, .f32⟩
  | 18 => ⟨S_, .f32⟩
  | 19 => ⟨S10000, .f32⟩
  | 20 => ⟨S320000x1, .i32⟩
  | 21 => ⟨S10000, .f32⟩
  | 22 => ⟨S10000, .f32⟩
  | 23 => ⟨S10000x256, .f32⟩
  | 24 => ⟨S_, .f32⟩
  | 25 => ⟨S10000, .f32⟩
  | 26 => ⟨S10000x1, .f32⟩
  | 27 => ⟨S10000x1, .f32⟩
  | 28 => ⟨S_, .f32⟩
  | 29 => ⟨S10000x1, .f32⟩
  | 30 => ⟨S10000x1, .f32⟩
  | 31 => ⟨S10000x256, .f32⟩
  | 32 => ⟨S10000x256, .f32⟩
  | 33 => ⟨S10000x256, .f32⟩
  | 34 => ⟨S_, .f32⟩
  | 35 => ⟨S10000, .f32⟩
  | 36 => ⟨S10000x1, .f32⟩
  | 37 => ⟨S10000x1, .f32⟩
  | 38 => ⟨S_, .f32⟩
  | 39 => ⟨S10000x1, .f32⟩
  | 40 => ⟨S10000x1, .f32⟩
  | 41 => ⟨S10000x256, .f32⟩
  | 42 => ⟨S10000x256, .f32⟩
  | 43 => ⟨S10000x256, .f32⟩
  | 44 => ⟨S10000x256, .f32⟩
  | 45 => ⟨S10000x1, .f32⟩
  | 46 => ⟨S10000, .f32⟩
  | 47 => ⟨S_, .i32⟩
  | 48 => ⟨S320000, .i32⟩
  | 49 => ⟨S320000, .i1⟩
  | 50 => ⟨S_, .i32⟩
  | 51 => ⟨S320000, .i32⟩
  | 52 => ⟨S320000, .i32⟩
  | 53 => ⟨S320000, .i32⟩
  | 54 => ⟨S320000x1, .i32⟩
  | 55 => ⟨S320000, .f32⟩
  | 56 => ⟨S320000, .f32⟩
  | 57 => ⟨S320000, .f32⟩
  | 58 => ⟨S320000, .f32⟩
  | 59 => ⟨S_, .f32⟩
  | 60 => ⟨S10000, .f32⟩
  | 61 => ⟨S320000x1, .i32⟩
  | 62 => ⟨S10000, .f32⟩
  | 63 => ⟨S10000, .f32⟩
  | 64 => ⟨S10000, .f32⟩
  | 65 => ⟨S10000, .f32⟩
  | 66 => ⟨S_, .f32⟩
  | 67 => ⟨S_, .f32⟩
  | 68 => ⟨S_, .f32⟩
  | 69 => ⟨S_, .f32⟩
  | 70 => ⟨S512x512, .f32⟩
  | 71 => ⟨S512, .f32⟩
  | 72 => ⟨S1x512, .f32⟩
  | 73 => ⟨S10000x512, .f32⟩
  | 74 => ⟨S10000x256, .f32⟩
  | 75 => ⟨S10000x256, .f32⟩
  | 76 => ⟨S1x256, .f32⟩
  | 77 => ⟨S10000x256, .f32⟩
  | 78 => ⟨S10000x256, .f32⟩
  | 79 => ⟨S_, .f32⟩
  | 80 => ⟨S10000, .f32⟩
  | 81 => ⟨S10000x1, .f32⟩
  | 82 => ⟨S10000x1, .f32⟩
  | 83 => ⟨S_, .f32⟩
  | 84 => ⟨S10000x1, .f32⟩
  | 85 => ⟨S10000x1, .f32⟩
  | 86 => ⟨S10000x256, .f32⟩
  | 87 => ⟨S10000x256, .f32⟩
  | 88 => ⟨S10000x256, .f32⟩
  | 89 => ⟨S_, .f32⟩
  | 90 => ⟨S10000, .f32⟩
  | 91 => ⟨S10000x1, .f32⟩
  | 92 => ⟨S10000x1, .f32⟩
  | 93 => ⟨S_, .f32⟩
  | 94 => ⟨S10000x1, .f32⟩
  | 95 => ⟨S10000x1, .f32⟩
  | 96 => ⟨S10000x256, .f32⟩
  | 97 => ⟨S10000x256, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000x256, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000x256, .f32⟩
  | 116 => ⟨S320000x256, .f32⟩
  | 117 => ⟨S_, .f32⟩
  | 118 => ⟨S320000, .f32⟩
  | 119 => ⟨S320000, .f32⟩
  | 120 => ⟨S320000, .f32⟩
  | 121 => ⟨S_, .f32⟩
  | 122 => ⟨S320000, .f32⟩
  | 123 => ⟨S_, .f32⟩
  | 124 => ⟨S10000, .f32⟩
  | 125 => ⟨S320000x1, .i32⟩
  | 126 => ⟨S10000, .f32⟩
  | 127 => ⟨S_, .f32⟩
  | _ => ⟨S10000x512, .f32⟩

abbrev hbmTy0_3 (i : Nat) : BufTy := match i % 128 with
  | 0 => ⟨S10000, .f32⟩
  | 1 => ⟨S10000, .f32⟩
  | 2 => ⟨S_, .f32⟩
  | 3 => ⟨S10000, .f32⟩
  | 4 => ⟨S320000x1, .i32⟩
  | 5 => ⟨S10000, .f32⟩
  | 6 => ⟨S10000, .f32⟩
  | 7 => ⟨S10000x256, .f32⟩
  | 8 => ⟨S_, .f32⟩
  | 9 => ⟨S10000, .f32⟩
  | 10 => ⟨S10000x1, .f32⟩
  | 11 => ⟨S10000x1, .f32⟩
  | 12 => ⟨S_, .f32⟩
  | 13 => ⟨S10000x1, .f32⟩
  | 14 => ⟨S10000x1, .f32⟩
  | 15 => ⟨S10000x256, .f32⟩
  | 16 => ⟨S10000x256, .f32⟩
  | 17 => ⟨S10000x256, .f32⟩
  | 18 => ⟨S_, .f32⟩
  | 19 => ⟨S10000, .f32⟩
  | 20 => ⟨S10000x1, .f32⟩
  | 21 => ⟨S10000x1, .f32⟩
  | 22 => ⟨S_, .f32⟩
  | 23 => ⟨S10000x1, .f32⟩
  | 24 => ⟨S10000x1, .f32⟩
  | 25 => ⟨S10000x256, .f32⟩
  | 26 => ⟨S10000x256, .f32⟩
  | 27 => ⟨S10000x256, .f32⟩
  | 28 => ⟨S10000x256, .f32⟩
  | 29 => ⟨S10000x1, .f32⟩
  | 30 => ⟨S10000, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000, .f32⟩
  | 40 => ⟨S320000, .f32⟩
  | 41 => ⟨S320000, .f32⟩
  | 42 => ⟨S320000, .f32⟩
  | 43 => ⟨S_, .f32⟩
  | 44 => ⟨S10000, .f32⟩
  | 45 => ⟨S320000x1, .i32⟩
  | 46 => ⟨S10000, .f32⟩
  | 47 => ⟨S10000, .f32⟩
  | 48 => ⟨S10000, .f32⟩
  | 49 => ⟨S10000, .f32⟩
  | 50 => ⟨S_, .f32⟩
  | 51 => ⟨S_, .f32⟩
  | 52 => ⟨S_, .f32⟩
  | 53 => ⟨S_, .f32⟩
  | 54 => ⟨S_, .f32⟩
  | _ => ⟨S10000x512, .f32⟩

abbrev hbmTy (i : Nat) : BufTy := match i / 128 with
  | 0 => hbmTy0_0 i
  | 1 => hbmTy0_1 i
  | 2 => hbmTy0_2 i
  | 3 => hbmTy0_3 i
  | _ => ⟨S10000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x1024, .f32⟩
  | .local _ .vmem, ⟨3, _⟩ => ⟨S1x1024, .f32⟩
  | .local _ .vmem, ⟨4, _⟩ => ⟨S2000x1024, .f32⟩
  | .local _ .vmem, ⟨5, _⟩ => ⟨S2000x1024, .f32⟩
  | .local _ .vmem, ⟨6, _⟩ => ⟨S2000x512, .f32⟩
  | .local _ .vmem, ⟨7, _⟩ => ⟨S2000x512, .f32⟩
  | .local _ .vmem, ⟨8, _⟩ => ⟨S512x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x512, .f32⟩
  | .local _ .vmem, ⟨13, _⟩ => ⟨S2000x512, .f32⟩
  | .local _ .vmem, ⟨14, _⟩ => ⟨S512x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x1, .f32⟩
  | .local _ .vmem, ⟨31, _⟩ => ⟨S2000x1, .f32⟩
  | .local _ .vmem, ⟨32, _⟩ => ⟨S2000x1, .f32⟩
  | .local _ .vmem, ⟨33, _⟩ => ⟨S2000x512, .f32⟩
  | .local _ .vmem, ⟨34, _⟩ => ⟨S2000x512, .f32⟩
  | .local _ .vmem, ⟨35, _⟩ => ⟨S512x512, .f32⟩
  | .local _ .vmem, ⟨36, _⟩ => ⟨S1x512, .f32⟩
  | .local _ .vmem, ⟨37, _⟩ => ⟨S2000x512, .f32⟩
  | .local _ .vmem, ⟨38, _⟩ => ⟨S2000x512, .f32⟩
  | .local _ .vmem, ⟨39, _⟩ => ⟨S2000x256, .f32⟩
  | .local _ .vmem, ⟨40, _⟩ => ⟨S2000x256, .f32⟩
  | .local _ .vmem, ⟨41, _⟩ => ⟨S256x256, .f32⟩
  | .local _ .vmem, ⟨42, _⟩ => ⟨S1x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x1, .f32⟩
  | .local _ .vmem, ⟨52, _⟩ => ⟨S2000x1, .f32⟩
  | .local _ .vmem, ⟨53, _⟩ => ⟨S2000x1, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_cst_1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_3 : Ref sig .tc := ⟨.hbm, 38, rfl⟩
abbrev main_v13 : Ref sig .tc := ⟨.hbm, 39, rfl⟩
abbrev main_v14 : Ref sig .tc := ⟨.hbm, 40, rfl⟩
abbrev main_cst_4 : Ref sig .tc := ⟨.hbm, 41, rfl⟩
abbrev main_v15 : Ref sig .tc := ⟨.hbm, 42, rfl⟩
abbrev main_v16 : Ref sig .tc := ⟨.hbm, 43, rfl⟩
abbrev main_cst_5 : Ref sig .tc := ⟨.hbm, 44, rfl⟩
abbrev main_call0_v0 : Ref sig .tc := ⟨.hbm, 45, rfl⟩
abbrev main_call0_v1 : Ref sig .tc := ⟨.hbm, 46, rfl⟩
abbrev main_v17 : Ref sig .tc := ⟨.hbm, 47, rfl⟩
abbrev main_cst_6 : Ref sig .tc := ⟨.hbm, 48, rfl⟩
abbrev main_v18 : Ref sig .tc := ⟨.hbm, 49, rfl⟩
abbrev main_v19 : Ref sig .tc := ⟨.hbm, 50, rfl⟩
abbrev main_cst_7 : Ref sig .tc := ⟨.hbm, 51, rfl⟩
abbrev main_v20 : Ref sig .tc := ⟨.hbm, 52, rfl⟩
abbrev main_v21 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c : Ref sig .tc := ⟨.hbm, 61, rfl⟩
abbrev main_v26 : Ref sig .tc := ⟨.hbm, 62, rfl⟩
abbrev main_v27 : Ref sig .tc := ⟨.hbm, 63, rfl⟩
abbrev main_c_9 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_10 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_11 : Ref sig .tc := ⟨.hbm, 83, rfl⟩
abbrev main_v45 : Ref sig .tc := ⟨.hbm, 84, rfl⟩
abbrev main_v46 : Ref sig .tc := ⟨.hbm, 85, rfl⟩
abbrev main_c_12 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_13 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_call2_cst : Ref sig .tc := ⟨.hbm, 102, rfl⟩
abbrev main_call2_v0 : Ref sig .tc := ⟨.hbm, 103, rfl⟩
abbrev main_v61 : Ref sig .tc := ⟨.hbm, 104, rfl⟩
abbrev main_call3_cst : Ref sig .tc := ⟨.hbm, 105, rfl⟩
abbrev main_call3_v0 : Ref sig .tc := ⟨.hbm, 106, rfl⟩
abbrev main_v62 : Ref sig .tc := ⟨.hbm, 107, rfl⟩
abbrev main_cst_14 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_15 : Ref sig .tc := ⟨.hbm, 112, rfl⟩
abbrev main_v66 : Ref sig .tc := ⟨.hbm, 113, rfl⟩
abbrev main_cst_16 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_17 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_18 : Ref sig .tc := ⟨.hbm, 122, rfl⟩
abbrev main_v73 : Ref sig .tc := ⟨.hbm, 123, rfl⟩
abbrev main_v74 : Ref sig .tc := ⟨.hbm, 124, rfl⟩
abbrev main_cst_19 : Ref sig .tc := ⟨.hbm, 125, rfl⟩
abbrev main_v75 : Ref sig .tc := ⟨.hbm, 126, rfl⟩
abbrev main_v76 : Ref sig .tc := ⟨.hbm, 127, rfl⟩
abbrev main_cst_20 : Ref sig .tc := ⟨.hbm, 128, rfl⟩
abbrev main_call4_v0 : Ref sig .tc := ⟨.hbm, 129, rfl⟩
abbrev main_call4_v1 : Ref sig .tc := ⟨.hbm, 130, rfl⟩
abbrev main_v77 : Ref sig .tc := ⟨.hbm, 131, rfl⟩
abbrev main_cst_21 : Ref sig .tc := ⟨.hbm, 132, rfl⟩
abbrev main_v78 : Ref sig .tc := ⟨.hbm, 133, rfl⟩
abbrev main_v79 : Ref sig .tc := ⟨.hbm, 134, rfl⟩
abbrev main_cst_22 : Ref sig .tc := ⟨.hbm, 135, rfl⟩
abbrev main_v80 : Ref sig .tc := ⟨.hbm, 136, rfl⟩
abbrev main_v81 : Ref sig .tc := ⟨.hbm, 137, rfl⟩
abbrev main_cst_23 : Ref sig .tc := ⟨.hbm, 138, rfl⟩
abbrev main_call5_v0 : Ref sig .tc := ⟨.hbm, 139, rfl⟩
abbrev main_call5_v1 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_c_24 : Ref sig .tc := ⟨.hbm, 145, rfl⟩
abbrev main_v86 : Ref sig .tc := ⟨.hbm, 146, rfl⟩
abbrev main_v87 : Ref sig .tc := ⟨.hbm, 147, rfl⟩
abbrev main_c_25 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_26 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_27 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_28 : Ref sig .tc := ⟨.hbm, 168, rfl⟩
abbrev main_v105 : Ref sig .tc := ⟨.hbm, 169, rfl⟩
abbrev main_cst_29 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_cst_30 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_31 : Ref sig .tc := ⟨.hbm, 178, rfl⟩
abbrev main_v112 : Ref sig .tc := ⟨.hbm, 179, rfl⟩
abbrev main_v113 : Ref sig .tc := ⟨.hbm, 180, rfl⟩
abbrev main_cst_32 : Ref sig .tc := ⟨.hbm, 181, rfl⟩
abbrev main_v114 : Ref sig .tc := ⟨.hbm, 182, rfl⟩
abbrev main_v115 : Ref sig .tc := ⟨.hbm, 183, rfl⟩
abbrev main_cst_33 : Ref sig .tc := ⟨.hbm, 184, rfl⟩
abbrev main_call6_v0 : Ref sig .tc := ⟨.hbm, 185, rfl⟩
abbrev main_call6_v1 : Ref sig .tc := ⟨.hbm, 186, rfl⟩
abbrev main_v116 : Ref sig .tc := ⟨.hbm, 187, rfl⟩
abbrev main_cst_34 : Ref sig .tc := ⟨.hbm, 188, rfl⟩
abbrev main_v117 : Ref sig .tc := ⟨.hbm, 189, rfl⟩
abbrev main_v118 : Ref sig .tc := ⟨.hbm, 190, rfl⟩
abbrev main_cst_35 : Ref sig .tc := ⟨.hbm, 191, rfl⟩
abbrev main_v119 : Ref sig .tc := ⟨.hbm, 192, rfl⟩
abbrev main_v120 : Ref sig .tc := ⟨.hbm, 193, rfl⟩
abbrev main_cst_36 : Ref sig .tc := ⟨.hbm, 194, rfl⟩
abbrev main_call7_v0 : Ref sig .tc := ⟨.hbm, 195, rfl⟩
abbrev main_call7_v1 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_c_37 : Ref sig .tc := ⟨.hbm, 201, rfl⟩
abbrev main_v125 : Ref sig .tc := ⟨.hbm, 202, rfl⟩
abbrev main_v126 : Ref sig .tc := ⟨.hbm, 203, rfl⟩
abbrev main_c_38 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_cst_39 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_cst_40 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_cst_41 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_cst_42 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_cst_43 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_c_44 : Ref sig .tc := ⟨.hbm, 242, rfl⟩
abbrev main_v159 : Ref sig .tc := ⟨.hbm, 243, rfl⟩
abbrev main_v160 : Ref sig .tc := ⟨.hbm, 244, rfl⟩
abbrev main_c_45 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_c_46 : Ref sig .tc := ⟨.hbm, 251, rfl⟩
abbrev main_v166 : Ref sig .tc := ⟨.hbm, 252, rfl⟩
abbrev main_v167 : Ref sig .tc := ⟨.hbm, 253, rfl⟩
abbrev main_c_47 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_cst_48 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_cst_49 : Ref sig .tc := ⟨.hbm, 265, rfl⟩
abbrev main_v177 : Ref sig .tc := ⟨.hbm, 266, rfl⟩
abbrev main_cst_50 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_cst_51 : Ref sig .tc := ⟨.hbm, 271, rfl⟩
abbrev main_v181 : Ref sig .tc := ⟨.hbm, 272, rfl⟩
abbrev main_v182 : Ref sig .tc := ⟨.hbm, 273, rfl⟩
abbrev main_cst_52 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_cst_53 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_cst_54 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_cst_55 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_cst_56 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_c_57 : Ref sig .tc := ⟨.hbm, 303, rfl⟩
abbrev main_v207 : Ref sig .tc := ⟨.hbm, 304, rfl⟩
abbrev main_v208 : Ref sig .tc := ⟨.hbm, 305, rfl⟩
abbrev main_c_58 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_cst_59 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_cst_60 : Ref sig .tc := ⟨.hbm, 322, rfl⟩
abbrev main_v223 : Ref sig .tc := ⟨.hbm, 323, rfl⟩
abbrev main_cst_61 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_cst_62 : Ref sig .tc := ⟨.hbm, 335, rfl⟩
abbrev main_v234 : Ref sig .tc := ⟨.hbm, 336, rfl⟩
abbrev main_v235 : Ref sig .tc := ⟨.hbm, 337, rfl⟩
abbrev main_v236 : Ref sig .tc := ⟨.hbm, 338, rfl⟩
abbrev main_cst_63 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_cst_64 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_cst_65 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_v248 : Ref sig .tc := ⟨.hbm, 353, rfl⟩
abbrev main_c_66 : Ref sig .tc := ⟨.hbm, 354, rfl⟩
abbrev main_v249 : Ref sig .tc := ⟨.hbm, 355, rfl⟩
abbrev main_v250 : Ref sig .tc := ⟨.hbm, 356, rfl⟩
abbrev main_c_67 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_c_68 : Ref sig .tc := ⟨.hbm, 363, rfl⟩
abbrev main_v256 : Ref sig .tc := ⟨.hbm, 364, rfl⟩
abbrev main_v257 : Ref sig .tc := ⟨.hbm, 365, rfl⟩
abbrev main_c_69 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_cst_70 : Ref sig .tc := ⟨.hbm, 373, rfl⟩
abbrev main_v264 : Ref sig .tc := ⟨.hbm, 374, rfl⟩
abbrev main_v265 : Ref sig .tc := ⟨.hbm, 375, rfl⟩
abbrev main_v266 : Ref sig .tc := ⟨.hbm, 376, rfl⟩
abbrev main_cst_71 : Ref sig .tc := ⟨.hbm, 377, rfl⟩
abbrev main_v267 : Ref sig .tc := ⟨.hbm, 378, rfl⟩
abbrev main_cst_72 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_cst_73 : Ref sig .tc := ⟨.hbm, 383, rfl⟩
abbrev main_v271 : Ref sig .tc := ⟨.hbm, 384, rfl⟩
abbrev main_v272 : Ref sig .tc := ⟨.hbm, 385, rfl⟩
abbrev main_cst_74 : Ref sig .tc := ⟨.hbm, 386, rfl⟩
abbrev main_v273 : Ref sig .tc := ⟨.hbm, 387, rfl⟩
abbrev main_v274 : Ref sig .tc := ⟨.hbm, 388, rfl⟩
abbrev main_v275 : Ref sig .tc := ⟨.hbm, 389, rfl⟩
abbrev main_v276 : Ref sig .tc := ⟨.hbm, 390, rfl⟩
abbrev main_v277 : Ref sig .tc := ⟨.hbm, 391, rfl⟩
abbrev main_cst_75 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_cst_76 : Ref sig .tc := ⟨.hbm, 396, rfl⟩
abbrev main_v281 : Ref sig .tc := ⟨.hbm, 397, rfl⟩
abbrev main_v282 : Ref sig .tc := ⟨.hbm, 398, rfl⟩
abbrev main_v283 : Ref sig .tc := ⟨.hbm, 399, rfl⟩
abbrev main_v284 : Ref sig .tc := ⟨.hbm, 400, rfl⟩
abbrev main_v285 : Ref sig .tc := ⟨.hbm, 401, rfl⟩
abbrev main_cst_77 : Ref sig .tc := ⟨.hbm, 402, rfl⟩
abbrev main_v286 : Ref sig .tc := ⟨.hbm, 403, rfl⟩
abbrev main_v287 : Ref sig .tc := ⟨.hbm, 404, rfl⟩
abbrev main_v288 : Ref sig .tc := ⟨.hbm, 405, rfl⟩
abbrev main_cst_78 : Ref sig .tc := ⟨.hbm, 406, rfl⟩
abbrev main_v289 : Ref sig .tc := ⟨.hbm, 407, rfl⟩
abbrev main_v290 : Ref sig .tc := ⟨.hbm, 408, rfl⟩
abbrev main_v291 : Ref sig .tc := ⟨.hbm, 409, rfl⟩
abbrev main_v292 : Ref sig .tc := ⟨.hbm, 410, rfl⟩
abbrev main_v293 : Ref sig .tc := ⟨.hbm, 411, rfl⟩
abbrev main_v294 : Ref sig .tc := ⟨.hbm, 412, rfl⟩
abbrev main_v295 : Ref sig .tc := ⟨.hbm, 413, rfl⟩
abbrev main_v296 : Ref sig .tc := ⟨.hbm, 414, rfl⟩
abbrev main_c_79 : Ref sig .tc := ⟨.hbm, 415, rfl⟩
abbrev main_v297 : Ref sig .tc := ⟨.hbm, 416, rfl⟩
abbrev main_v298 : Ref sig .tc := ⟨.hbm, 417, rfl⟩
abbrev main_c_80 : Ref sig .tc := ⟨.hbm, 418, rfl⟩
abbrev main_v299 : Ref sig .tc := ⟨.hbm, 419, rfl⟩
abbrev main_v300 : Ref sig .tc := ⟨.hbm, 420, rfl⟩
abbrev main_v301 : Ref sig .tc := ⟨.hbm, 421, rfl⟩
abbrev main_v302 : Ref sig .tc := ⟨.hbm, 422, rfl⟩
abbrev main_v303 : Ref sig .tc := ⟨.hbm, 423, rfl⟩
abbrev main_v304 : Ref sig .tc := ⟨.hbm, 424, rfl⟩
abbrev main_v305 : Ref sig .tc := ⟨.hbm, 425, rfl⟩
abbrev main_v306 : Ref sig .tc := ⟨.hbm, 426, rfl⟩
abbrev main_cst_81 : Ref sig .tc := ⟨.hbm, 427, rfl⟩
abbrev main_v307 : Ref sig .tc := ⟨.hbm, 428, rfl⟩
abbrev main_v308 : Ref sig .tc := ⟨.hbm, 429, rfl⟩
abbrev main_v309 : Ref sig .tc := ⟨.hbm, 430, rfl⟩
abbrev main_v310 : Ref sig .tc := ⟨.hbm, 431, rfl⟩
abbrev main_v311 : Ref sig .tc := ⟨.hbm, 432, rfl⟩
abbrev main_v312 : Ref sig .tc := ⟨.hbm, 433, rfl⟩
abbrev main_cst_82 : Ref sig .tc := ⟨.hbm, 434, rfl⟩
abbrev main_v313 : Ref sig .tc := ⟨.hbm, 435, rfl⟩
abbrev main_cst_83 : Ref sig .tc := ⟨.hbm, 436, rfl⟩
abbrev main_v314 : Ref sig .tc := ⟨.hbm, 437, rfl⟩
abbrev main_v315 : Ref sig .tc := ⟨.hbm, 438, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_scratch0 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc7_stg3_0 : Ref sig .tc := ⟨.vmem, 51, rfl⟩
abbrev cc7_stg3_1 : Ref sig .tc := ⟨.vmem, 52, rfl⟩
abbrev cc7_scratch0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem3_0 : DmaSem sig := 42
abbrev cc6_sem3_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem2_1 : DmaSem sig := 49
abbrev cc7_sem3_0 : DmaSem sig := 50
abbrev cc7_sem3_1 : DmaSem sig := 51

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![5, 5], ![false, false]⟩

def k4_cond2 (i : grid4.Coords) : BitVec 1 :=
  let arg1 : BitVec 32 := BitVec.ofNat 32 (i 1).val
  let c4_i32 : BitVec 32 := 4#32
  let v47 : BitVec 1 := Scalar.cmpi .eq arg1 c4_i32
  let v48 : BitVec 32 := Scalar.extui v47
  let c0_i32_16 : BitVec 32 := 0#32
  let v49 : BitVec 1 := Scalar.cmpi .ne v48 c0_i32_16
  v49

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S2000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![5, 5], ![false, false]⟩

def k7_cond2 (i : grid7.Coords) : BitVec 1 :=
  let arg1 : BitVec 32 := BitVec.ofNat 32 (i 1).val
  let c4_i32 : BitVec 32 := 4#32
  let v47 : BitVec 1 := Scalar.cmpi .eq arg1 c4_i32
  let v48 : BitVec 32 := Scalar.extui v47
  let c0_i32_16 : BitVec 32 := 0#32
  let v49 : BitVec 1 := Scalar.cmpi .ne v48 c0_i32_16
  v49

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2000x256 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S2000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

class Facts₀ : Prop where
  concatenates_S512x512_S512x512_S512x1024_d1 : Shape.Concatenates [S512x512, S512x512] S512x1024 1
  bcast_S_S1024 : S_.BroadcastsInDim S1024 (![] : Fin 0 → Fin S1024.rank)
  shapeCasts_S1024_S1x1024 : S1024.ShapeCasts S1x1024
  inb_S2000x512_S2000x512_0_0 : ∀ a, (![0, 0] : Fin 2 → Nat) a + S2000x512.size a ≤ S2000x512.size a
  h_S2000x512 : 0 < S2000x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  slices_S10000x1024_S10000x512_0_0 : S10000x1024.Slices ![0, 0] S10000x512
  slices_S10000x1024_S10000x512_0_512 : S10000x1024.Slices ![0, 512] S10000x512
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S256 : S_.BroadcastsInDim S256 (![] : Fin 0 → Fin S256.rank)
  shapeCasts_S256_S1x256 : S256.ShapeCasts S1x256
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  reducesTo_S10000x256_S10000_d1 : S10000x256.ReducesTo [1] S10000
  h_S_ : 0 < S_.numel
  bcast_S_S10000x1 : S_.BroadcastsInDim S10000x1 (![] : Fin 0 → Fin S10000x1.rank)
  reducesTo_S320000x256_S320000_d1 : S320000x256.ReducesTo [1] S320000
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  transposes_S2000x256_p1_0_S256x2000 : S2000x256.Transposes [1, 0] S256x2000
  reduces_S2000x2000_S2000 : S2000x2000.Reduces [1] S2000
  shapeCasts_S2000_S2000x1 : S2000.ShapeCasts S2000x1
  shapeCasts_S10000x1_S10000 : S10000x1.ShapeCasts S10000
  reducesTo_S10000_S_d0 : S10000.ReducesTo [0] S_
  concatenates_S512x256_S512x256_S512x512_d1 : Shape.Concatenates [S512x256, S512x256] S512x512 1
  concatenates_S256_S256_S512_d0 : Shape.Concatenates [S256, S256] S512 0
  shapeCasts_S512_S1x512 : S512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S10000x512_S10000x256_0_0 : S10000x512.Slices ![0, 0] S10000x256
  slices_S10000x512_S10000x256_0_256 : S10000x512.Slices ![0, 256] S10000x256
  dot_S2000x512_S512x1024_S2000x1024_1_0_0_1_n_n_wf : DotDims.WF S2000x512 S512x1024 S2000x1024 [1] [0] [0] [1] [] []
  scatter_S10000_S320000x1_S320000_n_0_0_1_wf : ScatterDims.WF S10000 S320000x1 S320000 [] [0] [0] 1
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S2000x512_S512x256_S2000x256_1_0_0_1_n_n_wf : DotDims.WF S2000x512 S512x256 S2000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S2000x256_S256x256_S2000x256_1_0_0_1_n_n_wf : DotDims.WF S2000x256 S256x256 S2000x256 [1] [0] [0] [1] [] []
  dot_S2000x256_S256x2000_S2000x2000_1_0_0_1_n_n_wf : DotDims.WF S2000x256 S256x2000 S2000x2000 [1] [0] [0] [1] [] []
  gather_S10000_S320000x1_S320000_n_0_n_n_0_1_1_wf : GatherDims.WF S10000 S320000x1 S320000 [] [0] [] [0] [] 1 ![1]
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1024.size a ≤ S10000x1024.size a
  hwx0_3 : ∀ i : grid0.Coords, EltTy.bits .f32 = 32 ∨ (Rect.block (s := S10000x1024) S2000x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .f32 = 32 ∨ (Rect.block (s := S10000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S512x256.size a
  hwx1_1 : ∀ i : grid1.Coords, EltTy.bits .f32 = 32 ∨ (Rect.block (s := S512x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S10000x256.size a
  hwx1_3 : ∀ i : grid1.Coords, EltTy.bits .f32 = 32 ∨ (Rect.block (s := S10000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S10000x512.size a
  hwx2_0 : ∀ i : grid2.Coords, EltTy.bits .f32 = 32 ∨ (Rect.block (s := S10000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S10000x256.size a
  hwx2_3 : ∀ i : grid2.Coords, EltTy.bits .f32 = 32 ∨ (Rect.block (s := S10000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S10000x256.size a
  hwx3_0 : ∀ i : grid3.Coords, EltTy.bits .f32 = 32 ∨ (Rect.block (s := S10000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S10000x256.size a
  hwx3_3 : ∀ i : grid3.Coords, EltTy.bits .f32 = 32 ∨ (Rect.block (s := S10000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S10000x256.size a
  hwx4_0 : ∀ i : grid4.Coords, EltTy.bits .f32 = 32 ∨ (Rect.block (s := S10000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S10000x256.size a
  hwx4_1 : ∀ i : grid4.Coords, EltTy.bits .f32 = 32 ∨ (Rect.block (s := S10000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S10000x256.size a
  hwx4_2 : ∀ i : grid4.Coords, EltTy.bits .f32 = 32 ∨ (Rect.block (s := S10000x256) S2000x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S10000x1.size a
  hwx4_3 : ∀ i : grid4.Coords, EltTy.bits .f32 = 32 ∨ (Rect.block (s := S10000x1) S2000x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S10000x512.size a
  hwx5_0 : ∀ i : grid5.Coords, EltTy.bits .f32 = 32 ∨ (Rect.block (s := S10000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S512x512.size a
  hwx5_1 : ∀ i : grid5.Coords, EltTy.bits .f32 = 32 ∨ (Rect.block (s := S512x512) S512x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x512.size a ≤ S10000x512.size a
  hwx5_3 : ∀ i : grid5.Coords, EltTy.bits .f32 = 32 ∨ (Rect.block (s := S10000x512) S2000x512.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S10000x256.size a
  hwx6_0 : ∀ i : grid6.Coords, EltTy.bits .f32 = 32 ∨ (Rect.block (s := S10000x256) S2000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x256.size a ≤ S10000x256.size a
  hwx6_3 : ∀ i : grid6.Coords, EltTy.bits .f32 = 32 ∨ (Rect.block (s := S10000x256) S2000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S10000x256.size a
  hwx7_0 : ∀ i : grid7.Coords, EltTy.bits .f32 = 32 ∨ (Rect.block (s := S10000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S10000x256.size a
  hwx7_1 : ∀ i : grid7.Coords, EltTy.bits .f32 = 32 ∨ (Rect.block (s := S10000x256) S2000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x256.size a ≤ S10000x256.size a
  hwx7_2 : ∀ i : grid7.Coords, EltTy.bits .f32 = 32 ∨ (Rect.block (s := S10000x256) S2000x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x1.size a ≤ S10000x1.size a
  hwx7_3 : ∀ i : grid7.Coords, EltTy.bits .f32 = 32 ∨ (Rect.block (s := S10000x1) S2000x1.size (cc7_transform_3 i) (hinb7_3 i)).WholeWords (EltTy.packing .f32)

variable [Facts₀]

def dot_S2000x512_S512x1024_S2000x1024_1_0_0_1_n_n : DotDims S2000x512 S512x1024 S2000x1024 where
  lhsContracting := [1]
  rhsContracting := [0]
  lhsNonContracting := [0]
  rhsNonContracting := [1]
  lhsBatch := []
  rhsBatch := []
  wf := dot_S2000x512_S512x1024_S2000x1024_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x2000_S2000x2000_1_0_0_1_n_n : DotDims S2000x256 S256x2000 S2000x2000 where
  lhsContracting := [1]
  rhsContracting := [0]
  lhsNonContracting := [0]
  rhsNonContracting := [1]
  lhsBatch := []
  rhsBatch := []
  wf := dot_S2000x256_S256x2000_S2000x2000_1_0_0_1_n_n_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v61) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S512x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v103) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v104) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v101) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg19) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v141) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v142) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v204) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v194) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v202) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v205) S2000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_arg0) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v225) S512x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v227) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v228) S2000x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v229) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg19) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v231) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v232) S2000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v294) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v284) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v292) S2000x256.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v295) S2000x1.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

class Facts : Prop extends Facts₀ where

variable [Facts]
-- ==== ReferenceIdeal.lean ====
abbrev S10000x512 : Shape := ⟨2, ![10000, 512]⟩
abbrev S320000 : Shape := ⟨1, ![320000]⟩
abbrev S_ : Shape := ⟨0, ![]⟩
abbrev S512x512 : Shape := ⟨2, ![512, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S10000 : Shape := ⟨1, ![10000]⟩
abbrev S320000x1 : Shape := ⟨2, ![320000, 1]⟩
abbrev S320000x512 : Shape := ⟨2, ![320000, 512]⟩
abbrev S10000x1 : Shape := ⟨2, ![10000, 1]⟩
abbrev S1x512 : Shape := ⟨2, ![1, 512]⟩
abbrev S10000x256 : Shape := ⟨2, ![10000, 256]⟩
abbrev S320000x256 : Shape := ⟨2, ![320000, 256]⟩
abbrev S1x256 : Shape := ⟨2, ![1, 256]⟩
abbrev S256x10000 : Shape := ⟨2, ![256, 10000]⟩
abbrev S10000x10000 : Shape := ⟨2, ![10000, 10000]⟩

abbrev nBuf : Space → Nat
  | .hbm => 522
  | .vmem => 0
  | .smem => 0
  | _ => 0

abbrev hbmTy0_0 (i : Nat) : BufTy := match i % 128 with
  | 0 => ⟨S10000x512, .f32⟩
  | 1 => ⟨S320000, .i32⟩
  | 2 => ⟨S320000, .i32⟩
  | 3 => ⟨S320000, .i32⟩
  | 4 => ⟨S320000, .i32⟩
  | 5 => ⟨S_, .f32⟩
  | 6 => ⟨S_, .f32⟩
  | 7 => ⟨S512x512, .f32⟩
  | 8 => ⟨S512, .f32⟩
  | 9 => ⟨S512x256, .f32⟩
  | 10 => ⟨S256, .f32⟩
  | 11 => ⟨S512x512, .f32⟩
  | 12 => ⟨S512, .f32⟩
  | 13 => ⟨S512x256, .f32⟩
  | 14 => ⟨S256, .f32⟩
  | 15 => ⟨S512x256, .f32⟩
  | 16 => ⟨S256, .f32⟩
  | 17 => ⟨S512x256, .f32⟩
  | 18 => ⟨S256, .f32⟩
  | 19 => ⟨S256x256, .f32⟩
  | 20 => ⟨S256, .f32⟩
  | 21 => ⟨S_, .f32⟩
  | 22 => ⟨S320000, .f32⟩
  | 23 => ⟨S_, .f32⟩
  | 24 => ⟨S10000, .f32⟩
  | 25 => ⟨S320000x1, .i32⟩
  | 26 => ⟨S10000, .f32⟩
  | 27 => ⟨S_, .f32⟩
  | 28 => ⟨S10000, .f32⟩
  | 29 => ⟨S320000x1, .i32⟩
  | 30 => ⟨S10000, .f32⟩
  | 31 => ⟨S_, .f32⟩
  | 32 => ⟨S10000, .f32⟩
  | 33 => ⟨S10000, .i1⟩
  | 34 => ⟨S_, .f32⟩
  | 35 => ⟨S10000, .f32⟩
  | 36 => ⟨S10000, .f32⟩
  | 37 => ⟨S_, .f32⟩
  | 38 => ⟨S_, .f32⟩
  | 39 => ⟨S10000, .f32⟩
  | 40 => ⟨S10000, .f32⟩
  | 41 => ⟨S_, .f32⟩
  | 42 => ⟨S10000, .f32⟩
  | 43 => ⟨S10000, .i1⟩
  | 44 => ⟨S_, .f32⟩
  | 45 => ⟨S10000, .f32⟩
  | 46 => ⟨S10000, .f32⟩
  | 47 => ⟨S_, .f32⟩
  | 48 => ⟨S_, .f32⟩
  | 49 => ⟨S10000, .f32⟩
  | 50 => ⟨S10000, .f32⟩
  | 51 => ⟨S10000x512, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x512, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S320000, .f32⟩
  | 70 => ⟨S320000x1, .f32⟩
  | 71 => ⟨S320000x512, .f32⟩
  | 72 => ⟨S320000x512, .f32⟩
  | 73 => ⟨S_, .f32⟩
  | 74 => ⟨S10000x512, .f32⟩
  | 75 => ⟨S320000x1, .i32⟩
  | 76 => ⟨S10000x512, .f32⟩
  | 77 => ⟨S10000x1, .f32⟩
  | 78 => ⟨S10000x512, .f32⟩
  | 79 => ⟨S10000x512, .f32⟩
  | 80 => ⟨S1x512, .f32⟩
  | 81 => ⟨S10000x512, .f32⟩
  | 82 => ⟨S10000x512, .f32⟩
  | 83 => ⟨S_, .f32⟩
  | 84 => ⟨S10000x512, .f32⟩
  | 85 => ⟨S10000x512, .f32⟩
  | 86 => ⟨S_, .f32⟩
  | 87 => ⟨S320000, .f32⟩
  | 88 => ⟨S_, .f32⟩
  | 89 => ⟨S10000, .f32⟩
  | 90 => ⟨S320000x1, .i32⟩
  | 91 => ⟨S10000, .f32⟩
  | 92 => ⟨S_, .f32⟩
  | 93 => ⟨S10000, .f32⟩
  | 94 => ⟨S320000x1, .i32⟩
  | 95 => ⟨S10000, .f32⟩
  | 96 => ⟨S_, .f32⟩
  | 97 => ⟨S10000, .f32⟩
  | 98 => ⟨S10000, .i1⟩
  | 99 => ⟨S_, .f32⟩
  | 100 => ⟨S10000, .f32⟩
  | 101 => ⟨S10000, .f32⟩
  | 102 => ⟨S_, .f32⟩
  | 103 => ⟨S_, .f32⟩
  | 104 => ⟨S10000, .f32⟩
  | 105 => ⟨S10000, .f32⟩
  | 106 => ⟨S_, .f32⟩
  | 107 => ⟨S10000, .f32⟩
  | 108 => ⟨S10000, .i1⟩
  | 109 => ⟨S_, .f32⟩
  | 110 => ⟨S10000, .f32⟩
  | 111 => ⟨S10000, .f32⟩
  | 112 => ⟨S_, .f32⟩
  | 113 => ⟨S_, .f32⟩
  | 114 => ⟨S10000, .f32⟩
  | 115 => ⟨S10000, .f32⟩
  | 116 => ⟨S10000x256, .f32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S320000x256, .f32⟩
  | 126 => ⟨S_, .i32⟩
  | 127 => ⟨S320000, .i32⟩
  | _ => ⟨S10000x512, .f32⟩

abbrev hbmTy0_1 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S320000, .f32⟩
  | 7 => ⟨S320000x1, .f32⟩
  | 8 => ⟨S320000x256, .f32⟩
  | 9 => ⟨S320000x256, .f32⟩
  | 10 => ⟨S_, .f32⟩
  | 11 => ⟨S10000x256, .f32⟩
  | 12 => ⟨S320000x1, .i32⟩
  | 13 => ⟨S10000x256, .f32⟩
  | 14 => ⟨S10000x1, .f32⟩
  | 15 => ⟨S10000x256, .f32⟩
  | 16 => ⟨S10000x256, .f32⟩
  | 17 => ⟨S1x256, .f32⟩
  | 18 => ⟨S10000x256, .f32⟩
  | 19 => ⟨S10000x256, .f32⟩
  | 20 => ⟨S_, .f32⟩
  | 21 => ⟨S320000, .f32⟩
  | 22 => ⟨S_, .f32⟩
  | 23 => ⟨S10000, .f32⟩
  | 24 => ⟨S320000x1, .i32⟩
  | 25 => ⟨S10000, .f32⟩
  | 26 => ⟨S_, .f32⟩
  | 27 => ⟨S10000, .f32⟩
  | 28 => ⟨S320000x1, .i32⟩
  | 29 => ⟨S10000, .f32⟩
  | 30 => ⟨S_, .f32⟩
  | 31 => ⟨S10000, .f32⟩
  | 32 => ⟨S10000, .i1⟩
  | 33 => ⟨S_, .f32⟩
  | 34 => ⟨S10000, .f32⟩
  | 35 => ⟨S10000, .f32⟩
  | 36 => ⟨S_, .f32⟩
  | 37 => ⟨S_, .f32⟩
  | 38 => ⟨S10000, .f32⟩
  | 39 => ⟨S10000, .f32⟩
  | 40 => ⟨S_, .f32⟩
  | 41 => ⟨S10000, .f32⟩
  | 42 => ⟨S10000, .i1⟩
  | 43 => ⟨S_, .f32⟩
  | 44 => ⟨S10000, .f32⟩
  | 45 => ⟨S10000, .f32⟩
  | 46 => ⟨S_, .f32⟩
  | 47 => ⟨S_, .f32⟩
  | 48 => ⟨S10000, .f32⟩
  | 49 => ⟨S10000, .f32⟩
  | 50 => ⟨S10000x512, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x512, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000, .f32⟩
  | 69 => ⟨S320000x1, .f32⟩
  | 70 => ⟨S320000x512, .f32⟩
  | 71 => ⟨S320000x512, .f32⟩
  | 72 => ⟨S_, .f32⟩
  | 73 => ⟨S10000x512, .f32⟩
  | 74 => ⟨S320000x1, .i32⟩
  | 75 => ⟨S10000x512, .f32⟩
  | 76 => ⟨S10000x1, .f32⟩
  | 77 => ⟨S10000x512, .f32⟩
  | 78 => ⟨S10000x512, .f32⟩
  | 79 => ⟨S1x512, .f32⟩
  | 80 => ⟨S10000x512, .f32⟩
  | 81 => ⟨S10000x512, .f32⟩
  | 82 => ⟨S_, .f32⟩
  | 83 => ⟨S10000x512, .f32⟩
  | 84 => ⟨S10000x512, .f32⟩
  | 85 => ⟨S_, .f32⟩
  | 86 => ⟨S320000, .f32⟩
  | 87 => ⟨S_, .f32⟩
  | 88 => ⟨S10000, .f32⟩
  | 89 => ⟨S320000x1, .i32⟩
  | 90 => ⟨S10000, .f32⟩
  | 91 => ⟨S_, .f32⟩
  | 92 => ⟨S10000, .f32⟩
  | 93 => ⟨S320000x1, .i32⟩
  | 94 => ⟨S10000, .f32⟩
  | 95 => ⟨S_, .f32⟩
  | 96 => ⟨S10000, .f32⟩
  | 97 => ⟨S10000, .i1⟩
  | 98 => ⟨S_, .f32⟩
  | 99 => ⟨S10000, .f32⟩
  | 100 => ⟨S10000, .f32⟩
  | 101 => ⟨S_, .f32⟩
  | 102 => ⟨S_, .f32⟩
  | 103 => ⟨S10000, .f32⟩
  | 104 => ⟨S10000, .f32⟩
  | 105 => ⟨S_, .f32⟩
  | 106 => ⟨S10000, .f32⟩
  | 107 => ⟨S10000, .i1⟩
  | 108 => ⟨S_, .f32⟩
  | 109 => ⟨S10000, .f32⟩
  | 110 => ⟨S10000, .f32⟩
  | 111 => ⟨S_, .f32⟩
  | 112 => ⟨S_, .f32⟩
  | 113 => ⟨S10000, .f32⟩
  | 114 => ⟨S10000, .f32⟩
  | 115 => ⟨S10000x256, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x256, .f32⟩
  | 125 => ⟨S_, .i32⟩
  | 126 => ⟨S320000, .i32⟩
  | 127 => ⟨S320000, .i1⟩
  | _ => ⟨S10000x512, .f32⟩

abbrev hbmTy0_2 (i : Nat) : BufTy := match i % 128 with
  | 0 => ⟨S_, .i32⟩
  | 1 => ⟨S320000, .i32⟩
  | 2 => ⟨S320000, .i32⟩
  | 3 => ⟨S320000, .i32⟩
  | 4 => ⟨S320000x1, .i32⟩
  | 5 => ⟨S320000, .f32⟩
  | 6 => ⟨S320000x1, .f32⟩
  | 7 => ⟨S320000x256, .f32⟩
  | 8 => ⟨S320000x256, .f32⟩
  | 9 => ⟨S_, .f32⟩
  | 10 => ⟨S10000x256, .f32⟩
  | 11 => ⟨S320000x1, .i32⟩
  | 12 => ⟨S10000x256, .f32⟩
  | 13 => ⟨S10000x1, .f32⟩
  | 14 => ⟨S10000x256, .f32⟩
  | 15 => ⟨S10000x256, .f32⟩
  | 16 => ⟨S1x256, .f32⟩
  | 17 => ⟨S10000x256, .f32⟩
  | 18 => ⟨S10000x256, .f32⟩
  | 19 => ⟨S10000x256, .f32⟩
  | 20 => ⟨S1x256, .f32⟩
  | 21 => ⟨S10000x256, .f32⟩
  | 22 => ⟨S10000x256, .f32⟩
  | 23 => ⟨S10000x256, .f32⟩
  | 24 => ⟨S_, .f32⟩
  | 25 => ⟨S10000, .f32⟩
  | 26 => ⟨S10000x1, .f32⟩
  | 27 => ⟨S10000x1, .f32⟩
  | 28 => ⟨S_, .f32⟩
  | 29 => ⟨S10000x1, .f32⟩
  | 30 => ⟨S10000x1, .f32⟩
  | 31 => ⟨S10000x256, .f32⟩
  | 32 => ⟨S10000x256, .f32⟩
  | 33 => ⟨S10000x256, .f32⟩
  | 34 => ⟨S_, .f32⟩
  | 35 => ⟨S10000, .f32⟩
  | 36 => ⟨S10000x1, .f32⟩
  | 37 => ⟨S10000x1, .f32⟩
  | 38 => ⟨S_, .f32⟩
  | 39 => ⟨S10000x1, .f32⟩
  | 40 => ⟨S10000x1, .f32⟩
  | 41 => ⟨S10000x256, .f32⟩
  | 42 => ⟨S10000x256, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x256, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000x256, .f32⟩
  | 61 => ⟨S320000x256, .f32⟩
  | 62 => ⟨S_, .f32⟩
  | 63 => ⟨S320000, .f32⟩
  | 64 => ⟨S320000, .f32⟩
  | 65 => ⟨S320000, .f32⟩
  | 66 => ⟨S_, .f32⟩
  | 67 => ⟨S320000, .f32⟩
  | 68 => ⟨S_, .f32⟩
  | 69 => ⟨S10000, .f32⟩
  | 70 => ⟨S320000x1, .i32⟩
  | 71 => ⟨S10000, .f32⟩
  | 72 => ⟨S_, .f32⟩
  | 73 => ⟨S10000, .f32⟩
  | 74 => ⟨S10000, .f32⟩
  | 75 => ⟨S_, .f32⟩
  | 76 => ⟨S10000, .f32⟩
  | 77 => ⟨S320000x1, .i32⟩
  | 78 => ⟨S10000, .f32⟩
  | 79 => ⟨S10000, .f32⟩
  | 80 => ⟨S10000x256, .f32⟩
  | 81 => ⟨S_, .f32⟩
  | 82 => ⟨S10000, .f32⟩
  | 83 => ⟨S10000x1, .f32⟩
  | 84 => ⟨S10000x1, .f32⟩
  | 85 => ⟨S_, .f32⟩
  | 86 => ⟨S10000x1, .f32⟩
  | 87 => ⟨S10000x1, .f32⟩
  | 88 => ⟨S10000x256, .f32⟩
  | 89 => ⟨S10000x256, .f32⟩
  | 90 => ⟨S10000x256, .f32⟩
  | 91 => ⟨S_, .f32⟩
  | 92 => ⟨S10000, .f32⟩
  | 93 => ⟨S10000x1, .f32⟩
  | 94 => ⟨S10000x1, .f32⟩
  | 95 => ⟨S_, .f32⟩
  | 96 => ⟨S10000x1, .f32⟩
  | 97 => ⟨S10000x1, .f32⟩
  | 98 => ⟨S10000x256, .f32⟩
  | 99 => ⟨S10000x256, .f32⟩
  | 100 => ⟨S256x10000, .f32⟩
  | 101 => ⟨S10000x10000, .f32⟩
  | 102 => ⟨S10000x10000, .f32⟩
  | 103 => ⟨S10000x10000, .f32⟩
  | 104 => ⟨S10000x10000, .f32⟩
  | 105 => ⟨S_, .f32⟩
  | 106 => ⟨S10000, .f32⟩
  | 107 => ⟨S256x10000, .f32⟩
  | 108 => ⟨S10000x10000, .f32⟩
  | 109 => ⟨S10000x10000, .f32⟩
  | 110 => ⟨S10000x10000, .f32⟩
  | 111 => ⟨S10000x10000, .f32⟩
  | 112 => ⟨S_, .f32⟩
  | 113 => ⟨S10000, .f32⟩
  | 114 => ⟨S10000, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000, .f32⟩
  | 124 => ⟨S320000, .f32⟩
  | 125 => ⟨S320000, .f32⟩
  | 126 => ⟨S320000, .f32⟩
  | 127 => ⟨S_, .f32⟩
  | _ => ⟨S10000x512, .f32⟩

abbrev hbmTy0_3 (i : Nat) : BufTy := match i % 128 with
  | 0 => ⟨S10000, .f32⟩
  | 1 => ⟨S320000x1, .i32⟩
  | 2 => ⟨S10000, .f32⟩
  | 3 => ⟨S10000, .f32⟩
  | 4 => ⟨S10000, .f32⟩
  | 5 => ⟨S10000, .f32⟩
  | 6 => ⟨S_, .f32⟩
  | 7 => ⟨S_, .f32⟩
  | 8 => ⟨S_, .f32⟩
  | 9 => ⟨S_, .f32⟩
  | 10 => ⟨S10000x256, .f32⟩
  | 11 => ⟨S1x256, .f32⟩
  | 12 => ⟨S10000x256, .f32⟩
  | 13 => ⟨S10000x256, .f32⟩
  | 14 => ⟨S10000x256, .f32⟩
  | 15 => ⟨S1x256, .f32⟩
  | 16 => ⟨S10000x256, .f32⟩
  | 17 => ⟨S10000x256, .f32⟩
  | 18 => ⟨S10000x256, .f32⟩
  | 19 => ⟨S1x256, .f32⟩
  | 20 => ⟨S10000x256, .f32⟩
  | 21 => ⟨S10000x256, .f32⟩
  | 22 => ⟨S10000x256, .f32⟩
  | 23 => ⟨S_, .f32⟩
  | 24 => ⟨S10000, .f32⟩
  | 25 => ⟨S10000x1, .f32⟩
  | 26 => ⟨S10000x1, .f32⟩
  | 27 => ⟨S_, .f32⟩
  | 28 => ⟨S10000x1, .f32⟩
  | 29 => ⟨S10000x1, .f32⟩
  | 30 => ⟨S10000x256, .f32⟩
  | 31 => ⟨S10000x256, .f32⟩
  | 32 => ⟨S10000x256, .f32⟩
  | 33 => ⟨S_, .f32⟩
  | 34 => ⟨S10000, .f32⟩
  | 35 => ⟨S10000x1, .f32⟩
  | 36 => ⟨S10000x1, .f32⟩
  | 37 => ⟨S_, .f32⟩
  | 38 => ⟨S10000x1, .f32⟩
  | 39 => ⟨S10000x1, .f32⟩
  | 40 => ⟨S10000x256, .f32⟩
  | 41 => ⟨S10000x256, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000x256, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x256, .f32⟩
  | 60 => ⟨S320000x256, .f32⟩
  | 61 => ⟨S_, .f32⟩
  | 62 => ⟨S320000, .f32⟩
  | 63 => ⟨S320000, .f32⟩
  | 64 => ⟨S320000, .f32⟩
  | 65 => ⟨S_, .f32⟩
  | 66 => ⟨S320000, .f32⟩
  | 67 => ⟨S_, .f32⟩
  | 68 => ⟨S10000, .f32⟩
  | 69 => ⟨S320000x1, .i32⟩
  | 70 => ⟨S10000, .f32⟩
  | 71 => ⟨S_, .f32⟩
  | 72 => ⟨S10000, .f32⟩
  | 73 => ⟨S10000, .f32⟩
  | 74 => ⟨S_, .f32⟩
  | 75 => ⟨S10000, .f32⟩
  | 76 => ⟨S320000x1, .i32⟩
  | 77 => ⟨S10000, .f32⟩
  | 78 => ⟨S10000, .f32⟩
  | 79 => ⟨S10000x256, .f32⟩
  | 80 => ⟨S_, .f32⟩
  | 81 => ⟨S10000, .f32⟩
  | 82 => ⟨S10000x1, .f32⟩
  | 83 => ⟨S10000x1, .f32⟩
  | 84 => ⟨S_, .f32⟩
  | 85 => ⟨S10000x1, .f32⟩
  | 86 => ⟨S10000x1, .f32⟩
  | 87 => ⟨S10000x256, .f32⟩
  | 88 => ⟨S10000x256, .f32⟩
  | 89 => ⟨S10000x256, .f32⟩
  | 90 => ⟨S_, .f32⟩
  | 91 => ⟨S10000, .f32⟩
  | 92 => ⟨S10000x1, .f32⟩
  | 93 => ⟨S10000x1, .f32⟩
  | 94 => ⟨S_, .f32⟩
  | 95 => ⟨S10000x1, .f32⟩
  | 96 => ⟨S10000x1, .f32⟩
  | 97 => ⟨S10000x256, .f32⟩
  | 98 => ⟨S10000x256, .f32⟩
  | 99 => ⟨S256x10000, .f32⟩
  | 100 => ⟨S10000x10000, .f32⟩
  | 101 => ⟨S10000x10000, .f32⟩
  | 102 => ⟨S10000x10000, .f32⟩
  | 103 => ⟨S10000x10000, .f32⟩
  | 104 => ⟨S_, .f32⟩
  | 105 => ⟨S10000, .f32⟩
  | 106 => ⟨S256x10000, .f32⟩
  | 107 => ⟨S10000x10000, .f32⟩
  | 108 => ⟨S10000x10000, .f32⟩
  | 109 => ⟨S10000x10000, .f32⟩
  | 110 => ⟨S10000x10000, .f32⟩
  | 111 => ⟨S_, .f32⟩
  | 112 => ⟨S10000, .f32⟩
  | 113 => ⟨S10000, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S320000, .f32⟩
  | 123 => ⟨S320000, .f32⟩
  | 124 => ⟨S320000, .f32⟩
  | 125 => ⟨S320000, .f32⟩
  | 126 => ⟨S_, .f32⟩
  | 127 => ⟨S10000, .f32⟩
  | _ => ⟨S10000x512, .f32⟩

abbrev hbmTy0_4 (i : Nat) : BufTy := match i % 128 with
  | 0 => ⟨S320000x1, .i32⟩
  | 1 => ⟨S10000, .f32⟩
  | 2 => ⟨S10000, .f32⟩
  | 3 => ⟨S10000, .f32⟩
  | 4 => ⟨S10000, .f32⟩
  | 5 => ⟨S_, .f32⟩
  | 6 => ⟨S_, .f32⟩
  | 7 => ⟨S_, .f32⟩
  | 8 => ⟨S_, .f32⟩
  | 9 => ⟨S_, .f32⟩
  | _ => ⟨S10000x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_2 : Ref sig .tc := ⟨.hbm, 31, rfl⟩
abbrev main_v7 : Ref sig .tc := ⟨.hbm, 32, rfl⟩
abbrev main_v8 : Ref sig .tc := ⟨.hbm, 33, rfl⟩
abbrev main_cst_3 : Ref sig .tc := ⟨.hbm, 34, rfl⟩
abbrev main_v9 : Ref sig .tc := ⟨.hbm, 35, rfl⟩
abbrev main_v10 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v11 : Ref sig .tc := ⟨.hbm, 40, rfl⟩
abbrev main_cst_5 : Ref sig .tc := ⟨.hbm, 41, rfl⟩
abbrev main_v12 : Ref sig .tc := ⟨.hbm, 42, rfl⟩
abbrev main_v13 : Ref sig .tc := ⟨.hbm, 43, rfl⟩
abbrev main_cst_6 : Ref sig .tc := ⟨.hbm, 44, rfl⟩
abbrev main_v14 : Ref sig .tc := ⟨.hbm, 45, rfl⟩
abbrev main_v15 : Ref sig .tc := ⟨.hbm, 46, rfl⟩
abbrev main_cst_7 : Ref sig .tc := ⟨.hbm, 47, rfl⟩
abbrev main_call1_v0 : Ref sig .tc := ⟨.hbm, 48, rfl⟩
abbrev main_call1_v1 : Ref sig .tc := ⟨.hbm, 49, rfl⟩
abbrev main_v16 : Ref sig .tc := ⟨.hbm, 50, rfl⟩
abbrev main_v17 : Ref sig .tc := ⟨.hbm, 51, rfl⟩
abbrev main_c : Ref sig .tc := ⟨.hbm, 52, rfl⟩
abbrev main_v18 : Ref sig .tc := ⟨.hbm, 53, rfl⟩
abbrev main_v19 : Ref sig .tc := ⟨.hbm, 54, rfl⟩
abbrev main_c_8 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_9 : Ref sig .tc := ⟨.hbm, 61, rfl⟩
abbrev main_v25 : Ref sig .tc := ⟨.hbm, 62, rfl⟩
abbrev main_v26 : Ref sig .tc := ⟨.hbm, 63, rfl⟩
abbrev main_c_10 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_11 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_call2_cst : Ref sig .tc := ⟨.hbm, 83, rfl⟩
abbrev main_call2_v0 : Ref sig .tc := ⟨.hbm, 84, rfl⟩
abbrev main_v44 : Ref sig .tc := ⟨.hbm, 85, rfl⟩
abbrev main_cst_12 : Ref sig .tc := ⟨.hbm, 86, rfl⟩
abbrev main_v45 : Ref sig .tc := ⟨.hbm, 87, rfl⟩
abbrev main_cst_13 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_14 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_15 : Ref sig .tc := ⟨.hbm, 96, rfl⟩
abbrev main_v52 : Ref sig .tc := ⟨.hbm, 97, rfl⟩
abbrev main_v53 : Ref sig .tc := ⟨.hbm, 98, rfl⟩
abbrev main_cst_16 : Ref sig .tc := ⟨.hbm, 99, rfl⟩
abbrev main_v54 : Ref sig .tc := ⟨.hbm, 100, rfl⟩
abbrev main_v55 : Ref sig .tc := ⟨.hbm, 101, rfl⟩
abbrev main_cst_17 : Ref sig .tc := ⟨.hbm, 102, rfl⟩
abbrev main_call3_v0 : Ref sig .tc := ⟨.hbm, 103, rfl⟩
abbrev main_call3_v1 : Ref sig .tc := ⟨.hbm, 104, rfl⟩
abbrev main_v56 : Ref sig .tc := ⟨.hbm, 105, rfl⟩
abbrev main_cst_18 : Ref sig .tc := ⟨.hbm, 106, rfl⟩
abbrev main_v57 : Ref sig .tc := ⟨.hbm, 107, rfl⟩
abbrev main_v58 : Ref sig .tc := ⟨.hbm, 108, rfl⟩
abbrev main_cst_19 : Ref sig .tc := ⟨.hbm, 109, rfl⟩
abbrev main_v59 : Ref sig .tc := ⟨.hbm, 110, rfl⟩
abbrev main_v60 : Ref sig .tc := ⟨.hbm, 111, rfl⟩
abbrev main_cst_20 : Ref sig .tc := ⟨.hbm, 112, rfl⟩
abbrev main_call4_v0 : Ref sig .tc := ⟨.hbm, 113, rfl⟩
abbrev main_call4_v1 : Ref sig .tc := ⟨.hbm, 114, rfl⟩
abbrev main_v61 : Ref sig .tc := ⟨.hbm, 115, rfl⟩
abbrev main_v62 : Ref sig .tc := ⟨.hbm, 116, rfl⟩
abbrev main_c_21 : Ref sig .tc := ⟨.hbm, 117, rfl⟩
abbrev main_v63 : Ref sig .tc := ⟨.hbm, 118, rfl⟩
abbrev main_v64 : Ref sig .tc := ⟨.hbm, 119, rfl⟩
abbrev main_c_22 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_c_23 : Ref sig .tc := ⟨.hbm, 126, rfl⟩
abbrev main_v70 : Ref sig .tc := ⟨.hbm, 127, rfl⟩
abbrev main_v71 : Ref sig .tc := ⟨.hbm, 128, rfl⟩
abbrev main_c_24 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_25 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_26 : Ref sig .tc := ⟨.hbm, 148, rfl⟩
abbrev main_v89 : Ref sig .tc := ⟨.hbm, 149, rfl⟩
abbrev main_cst_27 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_28 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_29 : Ref sig .tc := ⟨.hbm, 158, rfl⟩
abbrev main_v96 : Ref sig .tc := ⟨.hbm, 159, rfl⟩
abbrev main_v97 : Ref sig .tc := ⟨.hbm, 160, rfl⟩
abbrev main_cst_30 : Ref sig .tc := ⟨.hbm, 161, rfl⟩
abbrev main_v98 : Ref sig .tc := ⟨.hbm, 162, rfl⟩
abbrev main_v99 : Ref sig .tc := ⟨.hbm, 163, rfl⟩
abbrev main_cst_31 : Ref sig .tc := ⟨.hbm, 164, rfl⟩
abbrev main_call5_v0 : Ref sig .tc := ⟨.hbm, 165, rfl⟩
abbrev main_call5_v1 : Ref sig .tc := ⟨.hbm, 166, rfl⟩
abbrev main_v100 : Ref sig .tc := ⟨.hbm, 167, rfl⟩
abbrev main_cst_32 : Ref sig .tc := ⟨.hbm, 168, rfl⟩
abbrev main_v101 : Ref sig .tc := ⟨.hbm, 169, rfl⟩
abbrev main_v102 : Ref sig .tc := ⟨.hbm, 170, rfl⟩
abbrev main_cst_33 : Ref sig .tc := ⟨.hbm, 171, rfl⟩
abbrev main_v103 : Ref sig .tc := ⟨.hbm, 172, rfl⟩
abbrev main_v104 : Ref sig .tc := ⟨.hbm, 173, rfl⟩
abbrev main_cst_34 : Ref sig .tc := ⟨.hbm, 174, rfl⟩
abbrev main_call6_v0 : Ref sig .tc := ⟨.hbm, 175, rfl⟩
abbrev main_call6_v1 : Ref sig .tc := ⟨.hbm, 176, rfl⟩
abbrev main_v105 : Ref sig .tc := ⟨.hbm, 177, rfl⟩
abbrev main_v106 : Ref sig .tc := ⟨.hbm, 178, rfl⟩
abbrev main_c_35 : Ref sig .tc := ⟨.hbm, 179, rfl⟩
abbrev main_v107 : Ref sig .tc := ⟨.hbm, 180, rfl⟩
abbrev main_v108 : Ref sig .tc := ⟨.hbm, 181, rfl⟩
abbrev main_c_36 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_c_37 : Ref sig .tc := ⟨.hbm, 188, rfl⟩
abbrev main_v114 : Ref sig .tc := ⟨.hbm, 189, rfl⟩
abbrev main_v115 : Ref sig .tc := ⟨.hbm, 190, rfl⟩
abbrev main_c_38 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_39 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_call7_cst : Ref sig .tc := ⟨.hbm, 210, rfl⟩
abbrev main_call7_v0 : Ref sig .tc := ⟨.hbm, 211, rfl⟩
abbrev main_v133 : Ref sig .tc := ⟨.hbm, 212, rfl⟩
abbrev main_cst_40 : Ref sig .tc := ⟨.hbm, 213, rfl⟩
abbrev main_v134 : Ref sig .tc := ⟨.hbm, 214, rfl⟩
abbrev main_cst_41 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_cst_42 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_cst_43 : Ref sig .tc := ⟨.hbm, 223, rfl⟩
abbrev main_v141 : Ref sig .tc := ⟨.hbm, 224, rfl⟩
abbrev main_v142 : Ref sig .tc := ⟨.hbm, 225, rfl⟩
abbrev main_cst_44 : Ref sig .tc := ⟨.hbm, 226, rfl⟩
abbrev main_v143 : Ref sig .tc := ⟨.hbm, 227, rfl⟩
abbrev main_v144 : Ref sig .tc := ⟨.hbm, 228, rfl⟩
abbrev main_cst_45 : Ref sig .tc := ⟨.hbm, 229, rfl⟩
abbrev main_call8_v0 : Ref sig .tc := ⟨.hbm, 230, rfl⟩
abbrev main_call8_v1 : Ref sig .tc := ⟨.hbm, 231, rfl⟩
abbrev main_v145 : Ref sig .tc := ⟨.hbm, 232, rfl⟩
abbrev main_cst_46 : Ref sig .tc := ⟨.hbm, 233, rfl⟩
abbrev main_v146 : Ref sig .tc := ⟨.hbm, 234, rfl⟩
abbrev main_v147 : Ref sig .tc := ⟨.hbm, 235, rfl⟩
abbrev main_cst_47 : Ref sig .tc := ⟨.hbm, 236, rfl⟩
abbrev main_v148 : Ref sig .tc := ⟨.hbm, 237, rfl⟩
abbrev main_v149 : Ref sig .tc := ⟨.hbm, 238, rfl⟩
abbrev main_cst_48 : Ref sig .tc := ⟨.hbm, 239, rfl⟩
abbrev main_call9_v0 : Ref sig .tc := ⟨.hbm, 240, rfl⟩
abbrev main_call9_v1 : Ref sig .tc := ⟨.hbm, 241, rfl⟩
abbrev main_v150 : Ref sig .tc := ⟨.hbm, 242, rfl⟩
abbrev main_v151 : Ref sig .tc := ⟨.hbm, 243, rfl⟩
abbrev main_c_49 : Ref sig .tc := ⟨.hbm, 244, rfl⟩
abbrev main_v152 : Ref sig .tc := ⟨.hbm, 245, rfl⟩
abbrev main_v153 : Ref sig .tc := ⟨.hbm, 246, rfl⟩
abbrev main_c_50 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_c_51 : Ref sig .tc := ⟨.hbm, 253, rfl⟩
abbrev main_v159 : Ref sig .tc := ⟨.hbm, 254, rfl⟩
abbrev main_v160 : Ref sig .tc := ⟨.hbm, 255, rfl⟩
abbrev main_c_52 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_cst_53 : Ref sig .tc := ⟨.hbm, 265, rfl⟩
abbrev main_v169 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_cst_54 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_cst_55 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_cst_56 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_cst_57 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_c_58 : Ref sig .tc := ⟨.hbm, 299, rfl⟩
abbrev main_v198 : Ref sig .tc := ⟨.hbm, 300, rfl⟩
abbrev main_v199 : Ref sig .tc := ⟨.hbm, 301, rfl⟩
abbrev main_c_59 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_v203 : Ref sig .tc := ⟨.hbm, 306, rfl⟩
abbrev main_v204 : Ref sig .tc := ⟨.hbm, 307, rfl⟩
abbrev main_c_60 : Ref sig .tc := ⟨.hbm, 308, rfl⟩
abbrev main_v205 : Ref sig .tc := ⟨.hbm, 309, rfl⟩
abbrev main_v206 : Ref sig .tc := ⟨.hbm, 310, rfl⟩
abbrev main_c_61 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_v212 : Ref sig .tc := ⟨.hbm, 317, rfl⟩
abbrev main_cst_62 : Ref sig .tc := ⟨.hbm, 318, rfl⟩
abbrev main_v213 : Ref sig .tc := ⟨.hbm, 319, rfl⟩
abbrev main_v214 : Ref sig .tc := ⟨.hbm, 320, rfl⟩
abbrev main_v215 : Ref sig .tc := ⟨.hbm, 321, rfl⟩
abbrev main_cst_63 : Ref sig .tc := ⟨.hbm, 322, rfl⟩
abbrev main_v216 : Ref sig .tc := ⟨.hbm, 323, rfl⟩
abbrev main_cst_64 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_cst_65 : Ref sig .tc := ⟨.hbm, 328, rfl⟩
abbrev main_v220 : Ref sig .tc := ⟨.hbm, 329, rfl⟩
abbrev main_v221 : Ref sig .tc := ⟨.hbm, 330, rfl⟩
abbrev main_cst_66 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_cst_67 : Ref sig .tc := ⟨.hbm, 337, rfl⟩
abbrev main_v227 : Ref sig .tc := ⟨.hbm, 338, rfl⟩
abbrev main_v228 : Ref sig .tc := ⟨.hbm, 339, rfl⟩
abbrev main_v229 : Ref sig .tc := ⟨.hbm, 340, rfl⟩
abbrev main_cst_68 : Ref sig .tc := ⟨.hbm, 341, rfl⟩
abbrev main_v230 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_v234 : Ref sig .tc := ⟨.hbm, 346, rfl⟩
abbrev main_cst_69 : Ref sig .tc := ⟨.hbm, 347, rfl⟩
abbrev main_v235 : Ref sig .tc := ⟨.hbm, 348, rfl⟩
abbrev main_v236 : Ref sig .tc := ⟨.hbm, 349, rfl⟩
abbrev main_v237 : Ref sig .tc := ⟨.hbm, 350, rfl⟩
abbrev main_cst_70 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_cst_71 : Ref sig .tc := ⟨.hbm, 361, rfl⟩
abbrev main_v247 : Ref sig .tc := ⟨.hbm, 362, rfl⟩
abbrev main_v248 : Ref sig .tc := ⟨.hbm, 363, rfl⟩
abbrev main_v249 : Ref sig .tc := ⟨.hbm, 364, rfl⟩
abbrev main_v250 : Ref sig .tc := ⟨.hbm, 365, rfl⟩
abbrev main_v251 : Ref sig .tc := ⟨.hbm, 366, rfl⟩
abbrev main_v252 : Ref sig .tc := ⟨.hbm, 367, rfl⟩
abbrev main_cst_72 : Ref sig .tc := ⟨.hbm, 368, rfl⟩
abbrev main_v253 : Ref sig .tc := ⟨.hbm, 369, rfl⟩
abbrev main_v254 : Ref sig .tc := ⟨.hbm, 370, rfl⟩
abbrev main_c_73 : Ref sig .tc := ⟨.hbm, 371, rfl⟩
abbrev main_v255 : Ref sig .tc := ⟨.hbm, 372, rfl⟩
abbrev main_v256 : Ref sig .tc := ⟨.hbm, 373, rfl⟩
abbrev main_c_74 : Ref sig .tc := ⟨.hbm, 374, rfl⟩
abbrev main_v257 : Ref sig .tc := ⟨.hbm, 375, rfl⟩
abbrev main_v258 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_v264 : Ref sig .tc := ⟨.hbm, 382, rfl⟩
abbrev main_cst_75 : Ref sig .tc := ⟨.hbm, 383, rfl⟩
abbrev main_v265 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_cst_76 : Ref sig .tc := ⟨.hbm, 390, rfl⟩
abbrev main_v271 : Ref sig .tc := ⟨.hbm, 391, rfl⟩
abbrev main_cst_77 : Ref sig .tc := ⟨.hbm, 392, rfl⟩
abbrev main_v272 : Ref sig .tc := ⟨.hbm, 393, rfl⟩
abbrev main_v273 : Ref sig .tc := ⟨.hbm, 394, rfl⟩
abbrev main_v274 : Ref sig .tc := ⟨.hbm, 395, rfl⟩
abbrev main_v275 : Ref sig .tc := ⟨.hbm, 396, rfl⟩
abbrev main_v276 : Ref sig .tc := ⟨.hbm, 397, rfl⟩
abbrev main_v277 : Ref sig .tc := ⟨.hbm, 398, rfl⟩
abbrev main_v278 : Ref sig .tc := ⟨.hbm, 399, rfl⟩
abbrev main_v279 : Ref sig .tc := ⟨.hbm, 400, rfl⟩
abbrev main_v280 : Ref sig .tc := ⟨.hbm, 401, rfl⟩
abbrev main_v281 : Ref sig .tc := ⟨.hbm, 402, rfl⟩
abbrev main_v282 : Ref sig .tc := ⟨.hbm, 403, rfl⟩
abbrev main_v283 : Ref sig .tc := ⟨.hbm, 404, rfl⟩
abbrev main_v284 : Ref sig .tc := ⟨.hbm, 405, rfl⟩
abbrev main_v285 : Ref sig .tc := ⟨.hbm, 406, rfl⟩
abbrev main_cst_78 : Ref sig .tc := ⟨.hbm, 407, rfl⟩
abbrev main_v286 : Ref sig .tc := ⟨.hbm, 408, rfl⟩
abbrev main_v287 : Ref sig .tc := ⟨.hbm, 409, rfl⟩
abbrev main_v288 : Ref sig .tc := ⟨.hbm, 410, rfl⟩
abbrev main_cst_79 : Ref sig .tc := ⟨.hbm, 411, rfl⟩
abbrev main_v289 : Ref sig .tc := ⟨.hbm, 412, rfl⟩
abbrev main_v290 : Ref sig .tc := ⟨.hbm, 413, rfl⟩
abbrev main_v291 : Ref sig .tc := ⟨.hbm, 414, rfl⟩
abbrev main_v292 : Ref sig .tc := ⟨.hbm, 415, rfl⟩
abbrev main_v293 : Ref sig .tc := ⟨.hbm, 416, rfl⟩
abbrev main_cst_80 : Ref sig .tc := ⟨.hbm, 417, rfl⟩
abbrev main_v294 : Ref sig .tc := ⟨.hbm, 418, rfl⟩
abbrev main_v295 : Ref sig .tc := ⟨.hbm, 419, rfl⟩
abbrev main_v296 : Ref sig .tc := ⟨.hbm, 420, rfl⟩
abbrev main_cst_81 : Ref sig .tc := ⟨.hbm, 421, rfl⟩
abbrev main_v297 : Ref sig .tc := ⟨.hbm, 422, rfl⟩
abbrev main_v298 : Ref sig .tc := ⟨.hbm, 423, rfl⟩
abbrev main_v299 : Ref sig .tc := ⟨.hbm, 424, rfl⟩
abbrev main_v300 : Ref sig .tc := ⟨.hbm, 425, rfl⟩
abbrev main_c_82 : Ref sig .tc := ⟨.hbm, 426, rfl⟩
abbrev main_v301 : Ref sig .tc := ⟨.hbm, 427, rfl⟩
abbrev main_v302 : Ref sig .tc := ⟨.hbm, 428, rfl⟩
abbrev main_c_83 : Ref sig .tc := ⟨.hbm, 429, rfl⟩
abbrev main_v303 : Ref sig .tc := ⟨.hbm, 430, rfl⟩
abbrev main_v304 : Ref sig .tc := ⟨.hbm, 431, rfl⟩
abbrev main_v305 : Ref sig .tc := ⟨.hbm, 432, rfl⟩
abbrev main_v306 : Ref sig .tc := ⟨.hbm, 433, rfl⟩
abbrev main_v307 : Ref sig .tc := ⟨.hbm, 434, rfl⟩
abbrev main_c_84 : Ref sig .tc := ⟨.hbm, 435, rfl⟩
abbrev main_v308 : Ref sig .tc := ⟨.hbm, 436, rfl⟩
abbrev main_v309 : Ref sig .tc := ⟨.hbm, 437, rfl⟩
abbrev main_c_85 : Ref sig .tc := ⟨.hbm, 438, rfl⟩
abbrev main_v310 : Ref sig .tc := ⟨.hbm, 439, rfl⟩
abbrev main_v311 : Ref sig .tc := ⟨.hbm, 440, rfl⟩
abbrev main_v312 : Ref sig .tc := ⟨.hbm, 441, rfl⟩
abbrev main_v313 : Ref sig .tc := ⟨.hbm, 442, rfl⟩
abbrev main_v314 : Ref sig .tc := ⟨.hbm, 443, rfl⟩
abbrev main_v315 : Ref sig .tc := ⟨.hbm, 444, rfl⟩
abbrev main_cst_86 : Ref sig .tc := ⟨.hbm, 445, rfl⟩
abbrev main_v316 : Ref sig .tc := ⟨.hbm, 446, rfl⟩
abbrev main_v317 : Ref sig .tc := ⟨.hbm, 447, rfl⟩
abbrev main_v318 : Ref sig .tc := ⟨.hbm, 448, rfl⟩
abbrev main_cst_87 : Ref sig .tc := ⟨.hbm, 449, rfl⟩
abbrev main_v319 : Ref sig .tc := ⟨.hbm, 450, rfl⟩
abbrev main_cst_88 : Ref sig .tc := ⟨.hbm, 451, rfl⟩
abbrev main_v320 : Ref sig .tc := ⟨.hbm, 452, rfl⟩
abbrev main_v321 : Ref sig .tc := ⟨.hbm, 453, rfl⟩
abbrev main_v322 : Ref sig .tc := ⟨.hbm, 454, rfl⟩
abbrev main_cst_89 : Ref sig .tc := ⟨.hbm, 455, rfl⟩
abbrev main_v323 : Ref sig .tc := ⟨.hbm, 456, rfl⟩
abbrev main_v324 : Ref sig .tc := ⟨.hbm, 457, rfl⟩
abbrev main_cst_90 : Ref sig .tc := ⟨.hbm, 458, rfl⟩
abbrev main_v325 : Ref sig .tc := ⟨.hbm, 459, rfl⟩
abbrev main_v326 : Ref sig .tc := ⟨.hbm, 460, rfl⟩
abbrev main_v327 : Ref sig .tc := ⟨.hbm, 461, rfl⟩
abbrev main_v328 : Ref sig .tc := ⟨.hbm, 462, rfl⟩
abbrev main_v329 : Ref sig .tc := ⟨.hbm, 463, rfl⟩
abbrev main_cst_91 : Ref sig .tc := ⟨.hbm, 464, rfl⟩
abbrev main_v330 : Ref sig .tc := ⟨.hbm, 465, rfl⟩
abbrev main_v331 : Ref sig .tc := ⟨.hbm, 466, rfl⟩
abbrev main_v332 : Ref sig .tc := ⟨.hbm, 467, rfl⟩
abbrev main_cst_92 : Ref sig .tc := ⟨.hbm, 468, rfl⟩
abbrev main_v333 : Ref sig .tc := ⟨.hbm, 469, rfl⟩
abbrev main_v334 : Ref sig .tc := ⟨.hbm, 470, rfl⟩
abbrev main_v335 : Ref sig .tc := ⟨.hbm, 471, rfl⟩
abbrev main_v336 : Ref sig .tc := ⟨.hbm, 472, rfl⟩
abbrev main_v337 : Ref sig .tc := ⟨.hbm, 473, rfl⟩
abbrev main_cst_93 : Ref sig .tc := ⟨.hbm, 474, rfl⟩
abbrev main_v338 : Ref sig .tc := ⟨.hbm, 475, rfl⟩
abbrev main_v339 : Ref sig .tc := ⟨.hbm, 476, rfl⟩
abbrev main_v340 : Ref sig .tc := ⟨.hbm, 477, rfl⟩
abbrev main_cst_94 : Ref sig .tc := ⟨.hbm, 478, rfl⟩
abbrev main_v341 : Ref sig .tc := ⟨.hbm, 479, rfl⟩
abbrev main_v342 : Ref sig .tc := ⟨.hbm, 480, rfl⟩
abbrev main_v343 : Ref sig .tc := ⟨.hbm, 481, rfl⟩
abbrev main_v344 : Ref sig .tc := ⟨.hbm, 482, rfl⟩
abbrev main_v345 : Ref sig .tc := ⟨.hbm, 483, rfl⟩
abbrev main_v346 : Ref sig .tc := ⟨.hbm, 484, rfl⟩
abbrev main_v347 : Ref sig .tc := ⟨.hbm, 485, rfl⟩
abbrev main_v348 : Ref sig .tc := ⟨.hbm, 486, rfl⟩
abbrev main_v349 : Ref sig .tc := ⟨.hbm, 487, rfl⟩
abbrev main_cst_95 : Ref sig .tc := ⟨.hbm, 488, rfl⟩
abbrev main_v350 : Ref sig .tc := ⟨.hbm, 489, rfl⟩
abbrev main_v351 : Ref sig .tc := ⟨.hbm, 490, rfl⟩
abbrev main_v352 : Ref sig .tc := ⟨.hbm, 491, rfl⟩
abbrev main_v353 : Ref sig .tc := ⟨.hbm, 492, rfl⟩
abbrev main_v354 : Ref sig .tc := ⟨.hbm, 493, rfl⟩
abbrev main_v355 : Ref sig .tc := ⟨.hbm, 494, rfl⟩
abbrev main_cst_96 : Ref sig .tc := ⟨.hbm, 495, rfl⟩
abbrev main_v356 : Ref sig .tc := ⟨.hbm, 496, rfl⟩
abbrev main_v357 : Ref sig .tc := ⟨.hbm, 497, rfl⟩
abbrev main_c_97 : Ref sig .tc := ⟨.hbm, 498, rfl⟩
abbrev main_v358 : Ref sig .tc := ⟨.hbm, 499, rfl⟩
abbrev main_v359 : Ref sig .tc := ⟨.hbm, 500, rfl⟩
abbrev main_c_98 : Ref sig .tc := ⟨.hbm, 501, rfl⟩
abbrev main_v360 : Ref sig .tc := ⟨.hbm, 502, rfl⟩
abbrev main_v361 : Ref sig .tc := ⟨.hbm, 503, rfl⟩
abbrev main_v362 : Ref sig .tc := ⟨.hbm, 504, rfl⟩
abbrev main_v363 : Ref sig .tc := ⟨.hbm, 505, rfl⟩
abbrev main_v364 : Ref sig .tc := ⟨.hbm, 506, rfl⟩
abbrev main_v365 : Ref sig .tc := ⟨.hbm, 507, rfl⟩
abbrev main_v366 : Ref sig .tc := ⟨.hbm, 508, rfl⟩
abbrev main_v367 : Ref sig .tc := ⟨.hbm, 509, rfl⟩
abbrev main_cst_99 : Ref sig .tc := ⟨.hbm, 510, rfl⟩
abbrev main_v368 : Ref sig .tc := ⟨.hbm, 511, rfl⟩
abbrev main_v369 : Ref sig .tc := ⟨.hbm, 512, rfl⟩
abbrev main_v370 : Ref sig .tc := ⟨.hbm, 513, rfl⟩
abbrev main_v371 : Ref sig .tc := ⟨.hbm, 514, rfl⟩
abbrev main_v372 : Ref sig .tc := ⟨.hbm, 515, rfl⟩
abbrev main_v373 : Ref sig .tc := ⟨.hbm, 516, rfl⟩
abbrev main_cst_100 : Ref sig .tc := ⟨.hbm, 517, rfl⟩
abbrev main_v374 : Ref sig .tc := ⟨.hbm, 518, rfl⟩
abbrev main_cst_101 : Ref sig .tc := ⟨.hbm, 519, rfl⟩
abbrev main_v375 : Ref sig .tc := ⟨.hbm, 520, rfl⟩
abbrev main_v376 : Ref sig .tc := ⟨.hbm, 521, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S320000x1_S320000x512_0_1 : S320000x1.BroadcastsInDim S320000x512 (![0, 1] : Fin 2 → Fin S320000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S10000_d1 : S10000x256.ReducesTo [1] S10000
  h_S_ : 0 < S_.numel
  bcast_S_S10000x1 : S_.BroadcastsInDim S10000x1 (![] : Fin 0 → Fin S10000x1.rank)
  reducesTo_S320000x256_S320000_d1 : S320000x256.ReducesTo [1] S320000
  transposes_S10000x256_S256x10000_1_0 : S10000x256.Transposes [1, 0] S256x10000
  bcast_S_S10000x10000 : S_.BroadcastsInDim S10000x10000 (![] : Fin 0 → Fin S10000x10000.rank)
  reducesTo_S10000x10000_S10000_d1 : S10000x10000.ReducesTo [1] S10000
  reducesTo_S10000_S_d0 : S10000.ReducesTo [0] S_
  scatter_S10000_S320000x1_S320000_n_0_0_1_wf : ScatterDims.WF S10000 S320000x1 S320000 [] [0] [0] 1
  dot_S10000x512_S512x512_S10000x512_1_0_0_1_n_n_wf : DotDims.WF S10000x512 S512x512 S10000x512 [1] [0] [0] [1] [] []
  gather_S10000x512_S320000x1_S320000x512_1_0_n_n_0_1_1512_wf : GatherDims.WF S10000x512 S320000x1 S320000x512 [1] [0] [] [0] [] 1 ![1, 512]
  gather_S10000_S320000x1_S320000_n_0_n_n_0_1_1_wf : GatherDims.WF S10000 S320000x1 S320000 [] [0] [] [0] [] 1 ![1]
  scatter_S10000x512_S320000x1_S320000x512_1_0_0_1_wf : ScatterDims.WF S10000x512 S320000x1 S320000x512 [1] [0] [0] 1
  dot_S10000x512_S512x256_S10000x256_1_0_0_1_n_n_wf : DotDims.WF S10000x512 S512x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x256_S10000x256_1_0_0_1_n_n_wf : DotDims.WF S10000x256 S256x256 S10000x256 [1] [0] [0] [1] [] []
  dot_S10000x256_S256x10000_S10000x10000_1_0_0_1_n_n_wf : DotDims.WF S10000x256 S256x10000 S10000x10000 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x256_S256x10000_S10000x10000_1_0_0_1_n_n : DotDims S10000x256 S256x10000 S10000x10000 where
  lhsContracting := [1]
  rhsContracting := [0]
  lhsNonContracting := [0]
  rhsNonContracting := [1]
  lhsBatch := []
  rhsBatch := []
  wf := dot_S10000x256_S256x10000_S10000x10000_1_0_0_1_n_n_wf

class Facts : Prop extends Facts₀ where

variable [Facts]
-- ==== Proof.Preserves.lean ====
/-
  The idealized kernel differs from the kernel as printed only where a value narrowed to bf16 is widened back
  to f32: each of the kernel's dense products splits an f32 operand x into its bf16 rounding and the residual
  x - widen(narrow x), and the idealization reads widen(narrow x) as x. On the extended reals a change of float
  format is the identity, so every one of the twenty sites (two per matmul region, four per reduction region) is
  the rule's own statement at that site's shape.
-/
import proofs.«175488_j3908420240157_2_alg».proof.Defs

noncomputable section

namespace Cert.Proof.Parts

open Idealize.ShloMosaic

/-- One conjunct per widened-back operand, in the order the idealization met them; each is the
    round-trip rule at its shape, from f32 through bf16. -/
theorem preserves : Cert.preserves_Kernel_KernelIdeal :=
  ⟨
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16⟩

end Cert.Proof.Parts

end
-- ==== Proof.RefFrame.lean ====
/-
  The reference is a straight-line host program: 501 operations, each writing one result buffer of its own and reading buffers
  written before it or arguments. It launches no kernel, so every weakly fair execution is the operations in order: it ends,
  faults nowhere, and leaves every buffer at the fold of the operations over the launch memory. No operation's result buffer
  is an argument of @main, so the fold leaves each argument at its launch contents: the argument arrays end as they began.
-/
import proofs.«175488_j3908420240157_2_alg».proof.Defs
import proofs.«175488_j3908420240157_2_alg».proof.Proof.Gen.ReferenceIdeal
import proofs.«175488_j3908420240157_2_alg».proof.Proof.Gen.Pre_finite_inputs
import proofs.«175488_j3908420240157_2_alg».proof.Proof.RefOpsP

set_option maxRecDepth 65536

noncomputable section

namespace Cert.Proof.Parts

open Cert.ReferenceIdeal Cert.ReferenceIdeal.Gen Cert.ReferenceIdeal.OpsP
open Idealize.ShloMosaic Idealize.ShloMosaic.TcCoe Idealize.SL.Sem Idealize.ShloMosaic.StableHlo

variable {F : FTy → Type} [FloatOps F]

set_option maxHeartbeats 0 in
/-- No operation of the reference allocates a buffer. -/
theorem ref_ops_fresh : (ops : List (HloOp τ sig (Elt F))).Forall fun op => op.fresh = ∅ := by
  simp only [List.Forall]; repeat' constructor

/-- The 501 result buffers, in the operations' order. -/
abbrev ref_ops_W : List (Ref sig .tc) := [main_cst, main_v0, main_cst_0, main_v1, main_v2, main_v3, main_cst_1, main_v4, main_v5, main_v6, main_cst_2, main_v7, main_v8, main_cst_3, main_v9, main_v10, main_cst_4, main_call0_v0, main_call0_v1, main_v11, main_cst_5, main_v12, main_v13, main_cst_6, main_v14, main_v15, main_cst_7, main_call1_v0, main_call1_v1, main_v16, main_v17, main_c, main_v18, main_v19, main_c_8, main_v20, main_v21, main_v22, main_v23, main_v24, main_c_9, main_v25, main_v26, main_c_10, main_v27, main_v28, main_v29, main_v30, main_v31, main_v32, main_v33, main_v34, main_cst_11, main_v35, main_v36, main_v37, main_v38, main_v39, main_v40, main_v41, main_v42, main_v43, main_call2_cst, main_call2_v0, main_v44, main_cst_12, main_v45, main_cst_13, main_v46, main_v47, main_v48, main_cst_14, main_v49, main_v50, main_v51, main_cst_15, main_v52, main_v53, main_cst_16, main_v54, main_v55, main_cst_17, main_call3_v0, main_call3_v1, main_v56, main_cst_18, main_v57, main_v58, main_cst_19, main_v59, main_v60, main_cst_20, main_call4_v0, main_call4_v1, main_v61, main_v62, main_c_21, main_v63, main_v64, main_c_22, main_v65, main_v66, main_v67, main_v68, main_v69, main_c_23, main_v70, main_v71, main_c_24, main_v72, main_v73, main_v74, main_v75, main_v76, main_v77, main_v78, main_v79, main_cst_25, main_v80, main_v81, main_v82, main_v83, main_v84, main_v85, main_v86, main_v87, main_v88, main_cst_26, main_v89, main_cst_27, main_v90, main_v91, main_v92, main_cst_28, main_v93, main_v94, main_v95, main_cst_29, main_v96, main_v97, main_cst_30, main_v98, main_v99, main_cst_31, main_call5_v0, main_call5_v1, main_v100, main_cst_32, main_v101, main_v102, main_cst_33, main_v103, main_v104, main_cst_34, main_call6_v0, main_call6_v1, main_v105, main_v106, main_c_35, main_v107, main_v108, main_c_36, main_v109, main_v110, main_v111, main_v112, main_v113, main_c_37, main_v114, main_v115, main_c_38, main_v116, main_v117, main_v118, main_v119, main_v120, main_v121, main_v122, main_v123, main_cst_39, main_v124, main_v125, main_v126, main_v127, main_v128, main_v129, main_v130, main_v131, main_v132, main_call7_cst, main_call7_v0, main_v133, main_cst_40, main_v134, main_cst_41, main_v135, main_v136, main_v137, main_cst_42, main_v138, main_v139, main_v140, main_cst_43, main_v141, main_v142, main_cst_44, main_v143, main_v144, main_cst_45, main_call8_v0, main_call8_v1, main_v145, main_cst_46, main_v146, main_v147, main_cst_47, main_v148, main_v149, main_cst_48, main_call9_v0, main_call9_v1, main_v150, main_v151, main_c_49, main_v152, main_v153, main_c_50, main_v154, main_v155, main_v156, main_v157, main_v158, main_c_51, main_v159, main_v160, main_c_52, main_v161, main_v162, main_v163, main_v164, main_v165, main_v166, main_v167, main_v168, main_cst_53, main_v169, main_v170, main_v171, main_v172, main_v173, main_v174, main_v175, main_v176, main_v177, main_v178, main_v179, main_v180, main_v181, main_v182, main_cst_54, main_v183, main_v184, main_v185, main_cst_55, main_v186, main_v187, main_v188, main_v189, main_v190, main_cst_56, main_v191, main_v192, main_v193, main_cst_57, main_v194, main_v195, main_v196, main_v197, main_c_58, main_v198, main_v199, main_c_59, main_v200, main_v201, main_v202, main_v203, main_v204, main_c_60, main_v205, main_v206, main_c_61, main_v207, main_v208, main_v209, main_v210, main_v211, main_v212, main_cst_62, main_v213, main_v214, main_v215, main_cst_63, main_v216, main_cst_64, main_v217, main_v218, main_v219, main_cst_65, main_v220, main_v221, main_cst_66, main_v222, main_v223, main_v224, main_v225, main_v226, main_cst_67, main_v227, main_v228, main_v229, main_cst_68, main_v230, main_v231, main_v232, main_v233, main_v234, main_cst_69, main_v235, main_v236, main_v237, main_cst_70, main_v238, main_v239, main_v240, main_v241, main_v242, main_v243, main_v244, main_v245, main_v246, main_cst_71, main_v247, main_v248, main_v249, main_v250, main_v251, main_v252, main_cst_72, main_v253, main_v254, main_c_73, main_v255, main_v256, main_c_74, main_v257, main_v258, main_v259, main_v260, main_v261, main_v262, main_v263, main_v264, main_cst_75, main_v265, main_v266, main_v267, main_v268, main_v269, main_v270, main_cst_76, main_v271, main_cst_77, main_v272, main_v273, main_v274, main_v275, main_v276, main_v277, main_v278, main_v279, main_v280, main_v281, main_v282, main_v283, main_v284, main_v285, main_cst_78, main_v286, main_v287, main_v288, main_cst_79, main_v289, main_v290, main_v291, main_v292, main_v293, main_cst_80, main_v294, main_v295, main_v296, main_cst_81, main_v297, main_v298, main_v299, main_v300, main_c_82, main_v301, main_v302, main_c_83, main_v303, main_v304, main_v305, main_v306, main_v307, main_c_84, main_v308, main_v309, main_c_85, main_v310, main_v311, main_v312, main_v313, main_v314, main_v315, main_cst_86, main_v316, main_v317, main_v318, main_cst_87, main_v319, main_cst_88, main_v320, main_v321, main_v322, main_cst_89, main_v323, main_v324, main_cst_90, main_v325, main_v326, main_v327, main_v328, main_v329, main_cst_91, main_v330, main_v331, main_v332, main_cst_92, main_v333, main_v334, main_v335, main_v336, main_v337, main_cst_93, main_v338, main_v339, main_v340, main_cst_94, main_v341, main_v342, main_v343, main_v344, main_v345, main_v346, main_v347, main_v348, main_v349, main_cst_95, main_v350, main_v351, main_v352, main_v353, main_v354, main_v355, main_cst_96, main_v356, main_v357, main_c_97, main_v358, main_v359, main_c_98, main_v360, main_v361, main_v362, main_v363, main_v364, main_v365, main_v366, main_v367, main_cst_99, main_v368, main_v369, main_v370, main_v371, main_v372, main_v373, main_cst_100, main_v374, main_cst_101, main_v375, main_v376]

set_option maxHeartbeats 0 in
/-- Each operation writes its own result buffer only. -/
theorem ref_ops_writes : (ops : List (HloOp τ sig (Elt F))).Forall fun op => op.writes ⊆ (ref_ops_W.map (Proc.devRef (τ := τ) .tc)).toFinset := by
  simp only [List.Forall]
  repeat' apply And.intro
  all_goals (simp only [nullary_writes, unary_writes, binary_writes, ternary_writes, quaternary_writes, reshape_writes, binaryIndexed_writes, unaryIndexed_writes, nary_writes, Finset.singleton_subset_iff, List.mem_toFinset]; exact List.mem_map_of_mem (by decide))

set_option maxHeartbeats 0 in
/-- The reference's run: every buffer ends at the fold of the operations over the launch contents. -/
theorem ref_run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ op h => (List.forall_iff_forall_mem.mp ref_ops_fresh) op h)

set_option maxHeartbeats 0 in
/-- The reference's frame: it runs to the end, and each argument array, written by no operation, ends as launched. -/
theorem frame_ref : Cert.frame_ReferenceIdeal := fun m ρ _ =>
  (θ_run Cert.ReferenceIdeal.defs _ _).mono (fun _ h c =>
    ⟨(h c main_arg0).trans (after_of_writes_sub ops _ ref_ops_writes (by decide)),
     (h c main_arg1).trans (after_of_writes_sub ops _ ref_ops_writes (by decide)),
     (h c main_arg2).trans (after_of_writes_sub ops _ ref_ops_writes (by decide)),
     (h c main_arg3).trans (after_of_writes_sub ops _ ref_ops_writes (by decide)),
     (h c main_arg4).trans (after_of_writes_sub ops _ ref_ops_writes (by decide)),
     (h c main_arg5).trans (after_of_writes_sub ops _ ref_ops_writes (by decide)),
     (h c main_arg6).trans (after_of_writes_sub ops _ ref_ops_writes (by decide)),
     (h c main_arg7).trans (after_of_writes_sub ops _ ref_ops_writes (by decide)),
     (h c main_arg8).trans (after_of_writes_sub ops _ ref_ops_writes (by decide)),
     (h c main_arg9).trans (after_of_writes_sub ops _ ref_ops_writes (by decide)),
     (h c main_arg10).trans (after_of_writes_sub ops _ ref_ops_writes (by decide)),
     (h c main_arg11).trans (after_of_writes_sub ops _ ref_ops_writes (by decide)),
     (h c main_arg12).trans (after_of_writes_sub ops _ ref_ops_writes (by decide)),
     (h c main_arg13).trans (after_of_writes_sub ops _ ref_ops_writes (by decide)),
     (h c main_arg14).trans (after_of_writes_sub ops _ ref_ops_writes (by decide)),
     (h c main_arg15).trans (after_of_writes_sub ops _ ref_ops_writes (by decide)),
     (h c main_arg16).trans (after_of_writes_sub ops _ ref_ops_writes (by decide)),
     (h c main_arg17).trans (after_of_writes_sub ops _ ref_ops_writes (by decide)),
     (h c main_arg18).trans (after_of_writes_sub ops _ ref_ops_writes (by decide)),
     (h c main_arg19).trans (after_of_writes_sub ops _ ref_ops_writes (by decide)),
     (h c main_arg20).trans (after_of_writes_sub ops _ ref_ops_writes (by decide))⟩)
    (ref_run (F := Ideal) m ρ)

end Cert.Proof.Parts

end
-- ==== Proof.KI.Chain.lean ====
/- What every unscoped buffer of a core holds between two items of @main, as a chain of valuations: the launch memory;
   after a stretch of host operations, the fold of those operations over the valuation before it; after a kernel region, the
   valuation before it with the one array the region's output window writes back replaced by contents left unknown here.
   Each stretch writes only its own result buffers (listed), so a buffer outside every list — every argument of @main —
   holds its launch contents in every valuation of the chain. -/
import proofs.«175488_j3908420240157_2_alg».proof.Proof.Gen.KernelIdeal.Launch
import Idealize.ShloMosaic.Lib.Pipeline.Frame
import Idealize.ShloMosaic.Lib.Pipeline.Regions

set_option maxRecDepth 8192

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## What each stretch of host operations writes -/

/-- No operation of `hostOps0` allocates a buffer. -/
theorem hostOps0_fresh : (hostOps0 : List (HloOp τ sig (Elt F))).Forall fun op => op.fresh = ∅ := by
  simp only [List.Forall]; repeat' constructor
/-- The 4 buffers `hostOps0` writes, in order. -/
abbrev hostOps0_W : List (Ref sig .tc) := [main_v0, main_cst, main_v1, main_v2]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1` allocates a buffer. -/
theorem hostOps1_fresh : (hostOps1 : List (HloOp τ sig (Elt F))).Forall fun op => op.fresh = ∅ := by
  simp only [List.Forall]; repeat' constructor
/-- The 19 buffers `hostOps1` writes, in order. -/
abbrev hostOps1_W : List (Ref sig .tc) := [main_v4, main_v5, main_cst_0, main_v6, main_cst_1, main_v7, main_v8, main_v9, main_cst_2, main_v10, main_v11, main_v12, main_cst_3, main_v13, main_v14, main_cst_4, main_v15, main_v16, main_cst_5]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_1` allocates a buffer. -/
theorem hostOps1_1_fresh : (hostOps1_1 : List (HloOp τ sig (Elt F))).Forall fun op => op.fresh = ∅ := by
  simp only [List.Forall]; repeat' constructor
/-- The 3 buffers `hostOps1_1` writes, in order. -/
abbrev hostOps1_1_W : List (Ref sig .tc) := [main_call0_v0, main_call0_v1, main_v17]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_2` allocates a buffer. -/
theorem hostOps1_2_fresh : (hostOps1_2 : List (HloOp τ sig (Elt F))).Forall fun op => op.fresh = ∅ := by
  simp only [List.Forall]; repeat' constructor
/-- The 7 buffers `hostOps1_2` writes, in order. -/
abbrev hostOps1_2_W : List (Ref sig .tc) := [main_cst_6, main_v18, main_v19, main_cst_7, main_v20, main_v21, main_cst_8]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_3` allocates a buffer. -/
theorem hostOps1_3_fresh : (hostOps1_3 : List (HloOp τ sig (Elt F))).Forall fun op => op.fresh = ∅ := by
  simp only [List.Forall]; repeat' constructor
/-- The 3 buffers `hostOps1_3` writes, in order. -/
abbrev hostOps1_3_W : List (Ref sig .tc) := [main_call1_v0, main_call1_v1, main_v22]
theorem hostOps1_3_writes : (hostOps1_3 : List (HloOp τ sig (Elt F))).Forall fun op => op.writes ⊆ (hostOps1_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_4` allocates a buffer. -/
theorem hostOps1_4_fresh : (hostOps1_4 : List (HloOp τ sig (Elt F))).Forall fun op => op.fresh = ∅ := by
  simp only [List.Forall]; repeat' constructor
/-- The 44 buffers `hostOps1_4` writes, in order. -/
abbrev hostOps1_4_W : List (Ref sig .tc) := [main_v23, main_v24, main_v25, main_c, main_v26, main_v27, main_c_9, main_v28, main_v29, main_v30, main_v31, main_v32, main_cst_10, main_v33, main_v34, main_v35, main_v36, main_v37, main_v38, main_v39, main_v40, main_v41, main_v42, main_v43, main_v44, main_c_11, main_v45, main_v46, main_c_12, main_v47, main_v48, main_v49, main_v50, main_v51, main_cst_13, main_v52, main_v53, main_v54, main_v55, main_v56, main_v57, main_v58, main_v59, main_v60]
theorem hostOps1_4_writes : (hostOps1_4 : List (HloOp τ sig (Elt F))).Forall fun op => op.writes ⊆ (hostOps1_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_5` allocates a buffer. -/
theorem hostOps1_5_fresh : (hostOps1_5 : List (HloOp τ sig (Elt F))).Forall fun op => op.fresh = ∅ := by
  simp only [List.Forall]; repeat' constructor
/-- The 3 buffers `hostOps1_5` writes, in order. -/
abbrev hostOps1_5_W : List (Ref sig .tc) := [main_call2_cst, main_call2_v0, main_v61]
theorem hostOps1_5_writes : (hostOps1_5 : List (HloOp τ sig (Elt F))).Forall fun op => op.writes ⊆ (hostOps1_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_6` allocates a buffer. -/
theorem hostOps1_6_fresh : (hostOps1_6 : List (HloOp τ sig (Elt F))).Forall fun op => op.fresh = ∅ := by
  simp only [List.Forall]; repeat' constructor
/-- The 3 buffers `hostOps1_6` writes, in order. -/
abbrev hostOps1_6_W : List (Ref sig .tc) := [main_call3_cst, main_call3_v0, main_v62]
theorem hostOps1_6_writes : (hostOps1_6 : List (HloOp τ sig (Elt F))).Forall fun op => op.writes ⊆ (hostOps1_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_7` allocates a buffer. -/
theorem hostOps1_7_fresh : (hostOps1_7 : List (HloOp τ sig (Elt F))).Forall fun op => op.fresh = ∅ := by
  simp only [List.Forall]; repeat' constructor
/-- The 3 buffers `hostOps1_7` writes, in order. -/
abbrev hostOps1_7_W : List (Ref sig .tc) := [main_cst_14, main_v63, main_v64]
theorem hostOps1_7_writes : (hostOps1_7 : List (HloOp τ sig (Elt F))).Forall fun op => op.writes ⊆ (hostOps1_7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2` allocates a buffer. -/
theorem hostOps2_fresh : (hostOps2 : List (HloOp τ sig (Elt F))).Forall fun op => op.fresh = ∅ := by
  simp only [List.Forall]; repeat' constructor
/-- The 17 buffers `hostOps2` writes, in order. -/
abbrev hostOps2_W : List (Ref sig .tc) := [main_cst_15, main_v66, main_cst_16, main_v67, main_v68, main_v69, main_cst_17, main_v70, main_v71, main_v72, main_cst_18, main_v73, main_v74, main_cst_19, main_v75, main_v76, main_cst_20]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_1` allocates a buffer. -/
theorem hostOps2_1_fresh : (hostOps2_1 : List (HloOp τ sig (Elt F))).Forall fun op => op.fresh = ∅ := by
  simp only [List.Forall]; repeat' constructor
/-- The 3 buffers `hostOps2_1` writes, in order. -/
abbrev hostOps2_1_W : List (Ref sig .tc) := [main_call4_v0, main_call4_v1, main_v77]
theorem hostOps2_1_writes : (hostOps2_1 : List (HloOp τ sig (Elt F))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_2` allocates a buffer. -/
theorem hostOps2_2_fresh : (hostOps2_2 : List (HloOp τ sig (Elt F))).Forall fun op => op.fresh = ∅ := by
  simp only [List.Forall]; repeat' constructor
/-- The 7 buffers `hostOps2_2` writes, in order. -/
abbrev hostOps2_2_W : List (Ref sig .tc) := [main_cst_21, main_v78, main_v79, main_cst_22, main_v80, main_v81, main_cst_23]
theorem hostOps2_2_writes : (hostOps2_2 : List (HloOp τ sig (Elt F))).Forall fun op => op.writes ⊆ (hostOps2_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_3` allocates a buffer. -/
theorem hostOps2_3_fresh : (hostOps2_3 : List (HloOp τ sig (Elt F))).Forall fun op => op.fresh = ∅ := by
  simp only [List.Forall]; repeat' constructor
/-- The 3 buffers `hostOps2_3` writes, in order. -/
abbrev hostOps2_3_W : List (Ref sig .tc) := [main_call5_v0, main_call5_v1, main_v82]
theorem hostOps2_3_writes : (hostOps2_3 : List (HloOp τ sig (Elt F))).Forall fun op => op.writes ⊆ (hostOps2_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_4` allocates a buffer. -/
theorem hostOps2_4_fresh : (hostOps2_4 : List (HloOp τ sig (Elt F))).Forall fun op => op.fresh = ∅ := by
  simp only [List.Forall]; repeat' constructor
/-- The 25 buffers `hostOps2_4` writes, in order. -/
abbrev hostOps2_4_W : List (Ref sig .tc) := [main_v83, main_v84, main_v85, main_c_24, main_v86, main_v87, main_c_25, main_v88, main_v89, main_v90, main_v91, main_v92, main_cst_26, main_v93, main_v94, main_v95, main_v96, main_v97, main_v98, main_v99, main_v100, main_v101, main_cst_27, main_v102, main_v103]
theorem hostOps2_4_writes : (hostOps2_4 : List (HloOp τ sig (Elt F))).Forall fun op => op.writes ⊆ (hostOps2_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3` allocates a buffer. -/
theorem hostOps3_fresh : (hostOps3 : List (HloOp τ sig (Elt F))).Forall fun op => op.fresh = ∅ := by
  simp only [List.Forall]; repeat' constructor
/-- The 17 buffers `hostOps3` writes, in order. -/
abbrev hostOps3_W : List (Ref sig .tc) := [main_cst_28, main_v105, main_cst_29, main_v106, main_v107, main_v108, main_cst_30, main_v109, main_v110, main_v111, main_cst_31, main_v112, main_v113, main_cst_32, main_v114, main_v115, main_cst_33]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_1` allocates a buffer. -/
theorem hostOps3_1_fresh : (hostOps3_1 : List (HloOp τ sig (Elt F))).Forall fun op => op.fresh = ∅ := by
  simp only [List.Forall]; repeat' constructor
/-- The 3 buffers `hostOps3_1` writes, in order. -/
abbrev hostOps3_1_W : List (Ref sig .tc) := [main_call6_v0, main_call6_v1, main_v116]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_2` allocates a buffer. -/
theorem hostOps3_2_fresh : (hostOps3_2 : List (HloOp τ sig (Elt F))).Forall fun op => op.fresh = ∅ := by
  simp only [List.Forall]; repeat' constructor
/-- The 7 buffers `hostOps3_2` writes, in order. -/
abbrev hostOps3_2_W : List (Ref sig .tc) := [main_cst_34, main_v117, main_v118, main_cst_35, main_v119, main_v120, main_cst_36]
theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_3` allocates a buffer. -/
theorem hostOps3_3_fresh : (hostOps3_3 : List (HloOp τ sig (Elt F))).Forall fun op => op.fresh = ∅ := by
  simp only [List.Forall]; repeat' constructor
/-- The 3 buffers `hostOps3_3` writes, in order. -/
abbrev hostOps3_3_W : List (Ref sig .tc) := [main_call7_v0, main_call7_v1, main_v121]
theorem hostOps3_3_writes : (hostOps3_3 : List (HloOp τ sig (Elt F))).Forall fun op => op.writes ⊆ (hostOps3_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_4` allocates a buffer. -/
theorem hostOps3_4_fresh : (hostOps3_4 : List (HloOp τ sig (Elt F))).Forall fun op => op.fresh = ∅ := by
  simp only [List.Forall]; repeat' constructor
/-- The 23 buffers `hostOps3_4` writes, in order. -/
abbrev hostOps3_4_W : List (Ref sig .tc) := [main_v122, main_v123, main_v124, main_c_37, main_v125, main_v126, main_c_38, main_v127, main_v128, main_v129, main_v130, main_v131, main_cst_39, main_v132, main_v133, main_v134, main_v135, main_v136, main_v137, main_v138, main_v139, main_v140, main_v141]
theorem hostOps3_4_writes : (hostOps3_4 : List (HloOp τ sig (Elt F))).Forall fun op => op.writes ⊆ (hostOps3_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4` allocates a buffer. -/
theorem hostOps4_fresh : (hostOps4 : List (HloOp τ sig (Elt F))).Forall fun op => op.fresh = ∅ := by
  simp only [List.Forall]; repeat' constructor
/-- The 79 buffers `hostOps4` writes, in order. -/
abbrev hostOps4_W : List (Ref sig .tc) := [main_v143, main_cst_40, main_v144, main_v145, main_v146, main_cst_41, main_v147, main_v148, main_v149, main_v150, main_v151, main_cst_42, main_v152, main_v153, main_v154, main_cst_43, main_v155, main_v156, main_v157, main_v158, main_c_44, main_v159, main_v160, main_c_45, main_v161, main_v162, main_v163, main_v164, main_v165, main_c_46, main_v166, main_v167, main_c_47, main_v168, main_v169, main_v170, main_v171, main_v172, main_v173, main_cst_48, main_v174, main_v175, main_v176, main_cst_49, main_v177, main_cst_50, main_v178, main_v179, main_v180, main_cst_51, main_v181, main_v182, main_cst_52, main_v183, main_v184, main_v185, main_v186, main_v187, main_cst_53, main_v188, main_v189, main_v190, main_cst_54, main_v191, main_v192, main_v193, main_v194, main_v195, main_cst_55, main_v196, main_v197, main_v198, main_cst_56, main_v199, main_v200, main_v201, main_v202, main_v203, main_v204]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps5` allocates a buffer. -/
theorem hostOps5_fresh : (hostOps5 : List (HloOp τ sig (Elt F))).Forall fun op => op.fresh = ∅ := by
  simp only [List.Forall]; repeat' constructor
/-- The 27 buffers `hostOps5` writes, in order. -/
abbrev hostOps5_W : List (Ref sig .tc) := [main_v206, main_c_57, main_v207, main_v208, main_c_58, main_v209, main_v210, main_v211, main_v212, main_v213, main_v214, main_v215, main_v216, main_cst_59, main_v217, main_v218, main_v219, main_v220, main_v221, main_v222, main_cst_60, main_v223, main_cst_61, main_v224, main_v225, main_v226, main_v227]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6` allocates a buffer. -/
theorem hostOps6_fresh : (hostOps6 : List (HloOp τ sig (Elt F))).Forall fun op => op.fresh = ∅ := by
  simp only [List.Forall]; repeat' constructor
/-- The 3 buffers `hostOps6` writes, in order. -/
abbrev hostOps6_W : List (Ref sig .tc) := [main_v229, main_v230, main_v231]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps7` allocates a buffer. -/
theorem hostOps7_fresh : (hostOps7 : List (HloOp τ sig (Elt F))).Forall fun op => op.fresh = ∅ := by
  simp only [List.Forall]; repeat' constructor
/-- The 79 buffers `hostOps7` writes, in order. -/
abbrev hostOps7_W : List (Ref sig .tc) := [main_v233, main_cst_62, main_v234, main_v235, main_v236, main_cst_63, main_v237, main_v238, main_v239, main_v240, main_v241, main_cst_64, main_v242, main_v243, main_v244, main_cst_65, main_v245, main_v246, main_v247, main_v248, main_c_66, main_v249, main_v250, main_c_67, main_v251, main_v252, main_v253, main_v254, main_v255, main_c_68, main_v256, main_v257, main_c_69, main_v258, main_v259, main_v260, main_v261, main_v262, main_v263, main_cst_70, main_v264, main_v265, main_v266, main_cst_71, main_v267, main_cst_72, main_v268, main_v269, main_v270, main_cst_73, main_v271, main_v272, main_cst_74, main_v273, main_v274, main_v275, main_v276, main_v277, main_cst_75, main_v278, main_v279, main_v280, main_cst_76, main_v281, main_v282, main_v283, main_v284, main_v285, main_cst_77, main_v286, main_v287, main_v288, main_cst_78, main_v289, main_v290, main_v291, main_v292, main_v293, main_v294]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8` allocates a buffer. -/
theorem hostOps8_fresh : (hostOps8 : List (HloOp τ sig (Elt F))).Forall fun op => op.fresh = ∅ := by
  simp only [List.Forall]; repeat' constructor
/-- The 25 buffers `hostOps8` writes, in order. -/
abbrev hostOps8_W : List (Ref sig .tc) := [main_v296, main_c_79, main_v297, main_v298, main_c_80, main_v299, main_v300, main_v301, main_v302, main_v303, main_v304, main_v305, main_v306, main_cst_81, main_v307, main_v308, main_v309, main_v310, main_v311, main_v312, main_cst_82, main_v313, main_cst_83, main_v314, main_v315]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The valuations between items -/

-- the launch memory, and what each region leaves in the array its output window writes back, per core: the unknowns of the chain
variable (m : (ℓ : Loc nD τ sig) → Buf (Elt F) ℓ)
  (o0 : (c : Dev nD) → Buf (Elt F) ((c : Thread nD τ).loc main_v3))
  (o1 : (c : Dev nD) → Buf (Elt F) ((c : Thread nD τ).loc main_v65))
  (o2 : (c : Dev nD) → Buf (Elt F) ((c : Thread nD τ).loc main_v104))
  (o3 : (c : Dev nD) → Buf (Elt F) ((c : Thread nD τ).loc main_v142))
  (o4 : (c : Dev nD) → Buf (Elt F) ((c : Thread nD τ).loc main_v205))
  (o5 : (c : Dev nD) → Buf (Elt F) ((c : Thread nD τ).loc main_v228))
  (o6 : (c : Dev nD) → Buf (Elt F) ((c : Thread nD τ).loc main_v232))
  (o7 : (c : Dev nD) → Buf (Elt F) ((c : Thread nD τ).loc main_v295))

/-- Core `c`'s unscoped buffers at launch. -/
abbrev W0 (c : Dev nD) : Valuation τ sig (Elt F) := fun b => m (c, b)
/-- after item 0, the host stretch `hostOps0`. -/
abbrev W1 (c : Dev nD) : Valuation τ sig (Elt F) := StableHlo.after hostOps0 (W0 m c)
/-- after item 1, kernel region 0, which may change `main_v3`. -/
abbrev W2 (c : Dev nD) : Valuation τ sig (Elt F) := Function.update (W1 m c) main_v3 (o0 c)
/-- after item 2, the host stretch `hostOps1`. -/
abbrev W3 (c : Dev nD) : Valuation τ sig (Elt F) := StableHlo.after hostOps1 (W2 m o0 c)
/-- after item 3, the host stretch `hostOps1_1`. -/
abbrev W4 (c : Dev nD) : Valuation τ sig (Elt F) := StableHlo.after hostOps1_1 (W3 m o0 c)
/-- after item 4, the host stretch `hostOps1_2`. -/
abbrev W5 (c : Dev nD) : Valuation τ sig (Elt F) := StableHlo.after hostOps1_2 (W4 m o0 c)
/-- after item 5, the host stretch `hostOps1_3`. -/
abbrev W6 (c : Dev nD) : Valuation τ sig (Elt F) := StableHlo.after hostOps1_3 (W5 m o0 c)
/-- after item 6, the host stretch `hostOps1_4`. -/
abbrev W7 (c : Dev nD) : Valuation τ sig (Elt F) := StableHlo.after hostOps1_4 (W6 m o0 c)
/-- after item 7, the host stretch `hostOps1_5`. -/
abbrev W8 (c : Dev nD) : Valuation τ sig (Elt F) := StableHlo.after hostOps1_5 (W7 m o0 c)
/-- after item 8, the host stretch `hostOps1_6`. -/
abbrev W9 (c : Dev nD) : Valuation τ sig (Elt F) := StableHlo.after hostOps1_6 (W8 m o0 c)
/-- after item 9, the host stretch `hostOps1_7`. -/
abbrev W10 (c : Dev nD) : Valuation τ sig (Elt F) := StableHlo.after hostOps1_7 (W9 m o0 c)
/-- after item 10, kernel region 1, which may change `main_v65`. -/
abbrev W11 (c : Dev nD) : Valuation τ sig (Elt F) := Function.update (W10 m o0 c) main_v65 (o1 c)
/-- after item 11, the host stretch `hostOps2`. -/
abbrev W12 (c : Dev nD) : Valuation τ sig (Elt F) := StableHlo.after hostOps2 (W11 m o0 o1 c)
/-- after item 12, the host stretch `hostOps2_1`. -/
abbrev W13 (c : Dev nD) : Valuation τ sig (Elt F) := StableHlo.after hostOps2_1 (W12 m o0 o1 c)
/-- after item 13, the host stretch `hostOps2_2`. -/
abbrev W14 (c : Dev nD) : Valuation τ sig (Elt F) := StableHlo.after hostOps2_2 (W13 m o0 o1 c)
/-- after item 14, the host stretch `hostOps2_3`. -/
abbrev W15 (c : Dev nD) : Valuation τ sig (Elt F) := StableHlo.after hostOps2_3 (W14 m o0 o1 c)
/-- after item 15, the host stretch `hostOps2_4`. -/
abbrev W16 (c : Dev nD) : Valuation τ sig (Elt F) := StableHlo.after hostOps2_4 (W15 m o0 o1 c)
/-- after item 16, kernel region 2, which may change `main_v104`. -/
abbrev W17 (c : Dev nD) : Valuation τ sig (Elt F) := Function.update (W16 m o0 o1 c) main_v104 (o2 c)
/-- after item 17, the host stretch `hostOps3`. -/
abbrev W18 (c : Dev nD) : Valuation τ sig (Elt F) := StableHlo.after hostOps3 (W17 m o0 o1 o2 c)
/-- after item 18, the host stretch `hostOps3_1`. -/
abbrev W19 (c : Dev nD) : Valuation τ sig (Elt F) := StableHlo.after hostOps3_1 (W18 m o0 o1 o2 c)
/-- after item 19, the host stretch `hostOps3_2`. -/
abbrev W20 (c : Dev nD) : Valuation τ sig (Elt F) := StableHlo.after hostOps3_2 (W19 m o0 o1 o2 c)
/-- after item 20, the host stretch `hostOps3_3`. -/
abbrev W21 (c : Dev nD) : Valuation τ sig (Elt F) := StableHlo.after hostOps3_3 (W20 m o0 o1 o2 c)
/-- after item 21, the host stretch `hostOps3_4`. -/
abbrev W22 (c : Dev nD) : Valuation τ sig (Elt F) := StableHlo.after hostOps3_4 (W21 m o0 o1 o2 c)
/-- after item 22, kernel region 3, which may change `main_v142`. -/
abbrev W23 (c : Dev nD) : Valuation τ sig (Elt F) := Function.update (W22 m o0 o1 o2 c) main_v142 (o3 c)
/-- after item 23, the host stretch `hostOps4`. -/
abbrev W24 (c : Dev nD) : Valuation τ sig (Elt F) := StableHlo.after hostOps4 (W23 m o0 o1 o2 o3 c)
/-- after item 24, kernel region 4, which may change `main_v205`. -/
abbrev W25 (c : Dev nD) : Valuation τ sig (Elt F) := Function.update (W24 m o0 o1 o2 o3 c) main_v205 (o4 c)
/-- after item 25, the host stretch `hostOps5`. -/
abbrev W26 (c : Dev nD) : Valuation τ sig (Elt F) := StableHlo.after hostOps5 (W25 m o0 o1 o2 o3 o4 c)
/-- after item 26, kernel region 5, which may change `main_v228`. -/
abbrev W27 (c : Dev nD) : Valuation τ sig (Elt F) := Function.update (W26 m o0 o1 o2 o3 o4 c) main_v228 (o5 c)
/-- after item 27, the host stretch `hostOps6`. -/
abbrev W28 (c : Dev nD) : Valuation τ sig (Elt F) := StableHlo.after hostOps6 (W27 m o0 o1 o2 o3 o4 o5 c)
/-- after item 28, kernel region 6, which may change `main_v232`. -/
abbrev W29 (c : Dev nD) : Valuation τ sig (Elt F) := Function.update (W28 m o0 o1 o2 o3 o4 o5 c) main_v232 (o6 c)
/-- after item 29, the host stretch `hostOps7`. -/
abbrev W30 (c : Dev nD) : Valuation τ sig (Elt F) := StableHlo.after hostOps7 (W29 m o0 o1 o2 o3 o4 o5 o6 c)
/-- after item 30, kernel region 7, which may change `main_v295`. -/
abbrev W31 (c : Dev nD) : Valuation τ sig (Elt F) := Function.update (W30 m o0 o1 o2 o3 o4 o5 o6 c) main_v295 (o7 c)
/-- after item 31, the host stretch `hostOps8`. -/
abbrev W32 (c : Dev nD) : Valuation τ sig (Elt F) := StableHlo.after hostOps8 (W31 m o0 o1 o2 o3 o4 o5 o6 o7 c)

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v3] : List (Ref sig .tc))) : W2 m o0 c r = W1 m c r := by
  simp only [W2, Function.update_of_ne (StableHlo.devRef_ne_of_ne (List.ne_of_not_mem_cons h) : (Proc.devRef .tc r : DevRef τ sig) ≠ Proc.devRef .tc main_v3)]
theorem W3_of (c : Dev nD) (r : Ref sig .tc) (h : r ∉ hostOps1_W) : W3 m o0 c r = W2 m o0 c r :=
  StableHlo.after_of_writes_sub hostOps1 _ hostOps1_writes h
theorem W4_of (c : Dev nD) (r : Ref sig .tc) (h : r ∉ hostOps1_1_W) : W4 m o0 c r = W3 m o0 c r :=
  StableHlo.after_of_writes_sub hostOps1_1 _ hostOps1_1_writes h
theorem W5_of (c : Dev nD) (r : Ref sig .tc) (h : r ∉ hostOps1_2_W) : W5 m o0 c r = W4 m o0 c r :=
  StableHlo.after_of_writes_sub hostOps1_2 _ hostOps1_2_writes h
theorem W6_of (c : Dev nD) (r : Ref sig .tc) (h : r ∉ hostOps1_3_W) : W6 m o0 c r = W5 m o0 c r :=
  StableHlo.after_of_writes_sub hostOps1_3 _ hostOps1_3_writes h
theorem W7_of (c : Dev nD) (r : Ref sig .tc) (h : r ∉ hostOps1_4_W) : W7 m o0 c r = W6 m o0 c r :=
  StableHlo.after_of_writes_sub hostOps1_4 _ hostOps1_4_writes h
theorem W8_of (c : Dev nD) (r : Ref sig .tc) (h : r ∉ hostOps1_5_W) : W8 m o0 c r = W7 m o0 c r :=
  StableHlo.after_of_writes_sub hostOps1_5 _ hostOps1_5_writes h
theorem W9_of (c : Dev nD) (r : Ref sig .tc) (h : r ∉ hostOps1_6_W) : W9 m o0 c r = W8 m o0 c r :=
  StableHlo.after_of_writes_sub hostOps1_6 _ hostOps1_6_writes h
theorem W10_of (c : Dev nD) (r : Ref sig .tc) (h : r ∉ hostOps1_7_W) : W10 m o0 c r = W9 m o0 c r :=
  StableHlo.after_of_writes_sub hostOps1_7 _ hostOps1_7_writes h
theorem W11_of (c : Dev nD) (r : Ref sig .tc) (h : r ∉ ([main_v65] : List (Ref sig .tc))) : W11 m o0 o1 c r = W10 m o0 c r := by
  simp only [W11, Function.update_of_ne (StableHlo.devRef_ne_of_ne (List.ne_of_not_mem_cons h) : (Proc.devRef .tc r : DevRef τ sig) ≠ Proc.devRef .tc main_v65)]
theorem W12_of (c : Dev nD) (r : Ref sig .tc) (h : r ∉ hostOps2_W) : W12 m o0 o1 c r = W11 m o0 o1 c r :=
  StableHlo.after_of_writes_sub hostOps2 _ hostOps2_writes h
theorem W13_of (c : Dev nD) (r : Ref sig .tc) (h : r ∉ hostOps2_1_W) : W13 m o0 o1 c r = W12 m o0 o1 c r :=
  StableHlo.after_of_writes_sub hostOps2_1 _ hostOps2_1_writes h
theorem W14_of (c : Dev nD) (r : Ref sig .tc) (h : r ∉ hostOps2_2_W) : W14 m o0 o1 c r = W13 m o0 o1 c r :=
  StableHlo.after_of_writes_sub hostOps2_2 _ hostOps2_2_writes h
theorem W15_of (c : Dev nD) (r : Ref sig .tc) (h : r ∉ hostOps2_3_W) : W15 m o0 o1 c r = W14 m o0 o1 c r :=
  StableHlo.after_of_writes_sub hostOps2_3 _ hostOps2_3_writes h
theorem W16_of (c : Dev nD) (r : Ref sig .tc) (h : r ∉ hostOps2_4_W) : W16 m o0 o1 c r = W15 m o0 o1 c r :=
  StableHlo.after_of_writes_sub hostOps2_4 _ hostOps2_4_writes h
theorem W17_of (c : Dev nD) (r : Ref sig .tc) (h : r ∉ ([main_v104] : List (Ref sig .tc))) : W17 m o0 o1 o2 c r = W16 m o0 o1 c r := by
  simp only [W17, Function.update_of_ne (StableHlo.devRef_ne_of_ne (List.ne_of_not_mem_cons h) : (Proc.devRef .tc r : DevRef τ sig) ≠ Proc.devRef .tc main_v104)]
theorem W18_of (c : Dev nD) (r : Ref sig .tc) (h : r ∉ hostOps3_W) : W18 m o0 o1 o2 c r = W17 m o0 o1 o2 c r :=
  StableHlo.after_of_writes_sub hostOps3 _ hostOps3_writes h
theorem W19_of (c : Dev nD) (r : Ref sig .tc) (h : r ∉ hostOps3_1_W) : W19 m o0 o1 o2 c r = W18 m o0 o1 o2 c r :=
  StableHlo.after_of_writes_sub hostOps3_1 _ hostOps3_1_writes h
theorem W20_of (c : Dev nD) (r : Ref sig .tc) (h : r ∉ hostOps3_2_W) : W20 m o0 o1 o2 c r = W19 m o0 o1 o2 c r :=
  StableHlo.after_of_writes_sub hostOps3_2 _ hostOps3_2_writes h
theorem W21_of (c : Dev nD) (r : Ref sig .tc) (h : r ∉ hostOps3_3_W) : W21 m o0 o1 o2 c r = W20 m o0 o1 o2 c r :=
  StableHlo.after_of_writes_sub hostOps3_3 _ hostOps3_3_writes h
theorem W22_of (c : Dev nD) (r : Ref sig .tc) (h : r ∉ hostOps3_4_W) : W22 m o0 o1 o2 c r = W21 m o0 o1 o2 c r :=
  StableHlo.after_of_writes_sub hostOps3_4 _ hostOps3_4_writes h
theorem W23_of (c : Dev nD) (r : Ref sig .tc) (h : r ∉ ([main_v142] : List (Ref sig .tc))) : W23 m o0 o1 o2 o3 c r = W22 m o0 o1 o2 c r := by
  simp only [W23, Function.update_of_ne (StableHlo.devRef_ne_of_ne (List.ne_of_not_mem_cons h) : (Proc.devRef .tc r : DevRef τ sig) ≠ Proc.devRef .tc main_v142)]
theorem W24_of (c : Dev nD) (r : Ref sig .tc) (h : r ∉ hostOps4_W) : W24 m o0 o1 o2 o3 c r = W23 m o0 o1 o2 o3 c r :=
  StableHlo.after_of_writes_sub hostOps4 _ hostOps4_writes h
theorem W25_of (c : Dev nD) (r : Ref sig .tc) (h : r ∉ ([main_v205] : List (Ref sig .tc))) : W25 m o0 o1 o2 o3 o4 c r = W24 m o0 o1 o2 o3 c r := by
  simp only [W25, Function.update_of_ne (StableHlo.devRef_ne_of_ne (List.ne_of_not_mem_cons h) : (Proc.devRef .tc r : DevRef τ sig) ≠ Proc.devRef .tc main_v205)]
theorem W26_of (c : Dev nD) (r : Ref sig .tc) (h : r ∉ hostOps5_W) : W26 m o0 o1 o2 o3 o4 c r = W25 m o0 o1 o2 o3 o4 c r :=
  StableHlo.after_of_writes_sub hostOps5 _ hostOps5_writes h
theorem W27_of (c : Dev nD) (r : Ref sig .tc) (h : r ∉ ([main_v228] : List (Ref sig .tc))) : W27 m o0 o1 o2 o3 o4 o5 c r = W26 m o0 o1 o2 o3 o4 c r := by
  simp only [W27, Function.update_of_ne (StableHlo.devRef_ne_of_ne (List.ne_of_not_mem_cons h) : (Proc.devRef .tc r : DevRef τ sig) ≠ Proc.devRef .tc main_v228)]
theorem W28_of (c : Dev nD) (r : Ref sig .tc) (h : r ∉ hostOps6_W) : W28 m o0 o1 o2 o3 o4 o5 c r = W27 m o0 o1 o2 o3 o4 o5 c r :=
  StableHlo.after_of_writes_sub hostOps6 _ hostOps6_writes h
theorem W29_of (c : Dev nD) (r : Ref sig .tc) (h : r ∉ ([main_v232] : List (Ref sig .tc))) : W29 m o0 o1 o2 o3 o4 o5 o6 c r = W28 m o0 o1 o2 o3 o4 o5 c r := by
  simp only [W29, Function.update_of_ne (StableHlo.devRef_ne_of_ne (List.ne_of_not_mem_cons h) : (Proc.devRef .tc r : DevRef τ sig) ≠ Proc.devRef .tc main_v232)]
theorem W30_of (c : Dev nD) (r : Ref sig .tc) (h : r ∉ hostOps7_W) : W30 m o0 o1 o2 o3 o4 o5 o6 c r = W29 m o0 o1 o2 o3 o4 o5 o6 c r :=
  StableHlo.after_of_writes_sub hostOps7 _ hostOps7_writes h
theorem W31_of (c : Dev nD) (r : Ref sig .tc) (h : r ∉ ([main_v295] : List (Ref sig .tc))) : W31 m o0 o1 o2 o3 o4 o5 o6 o7 c r = W30 m o0 o1 o2 o3 o4 o5 o6 c r := by
  simp only [W31, Function.update_of_ne (StableHlo.devRef_ne_of_ne (List.ne_of_not_mem_cons h) : (Proc.devRef .tc r : DevRef τ sig) ≠ Proc.devRef .tc main_v295)]
theorem W32_of (c : Dev nD) (r : Ref sig .tc) (h : r ∉ hostOps8_W) : W32 m o0 o1 o2 o3 o4 o5 o6 o7 c r = W31 m o0 o1 o2 o3 o4 o5 o6 o7 c r :=
  StableHlo.after_of_writes_sub hostOps8 _ hostOps8_writes h

/-! ## No item writes an argument -/

/-- `main_arg0` reaches the end as launched. -/
theorem W32_main_arg0 (c : Dev nD) : W32 m o0 o1 o2 o3 o4 o5 o6 o7 c main_arg0 = m ((c : Thread nD τ).loc main_arg0) :=
  (W32_of m o0 o1 o2 o3 o4 o5 o6 o7 c main_arg0 (by decide)).trans <|
  (W31_of m o0 o1 o2 o3 o4 o5 o6 o7 c main_arg0 (by decide)).trans <|
  (W30_of m o0 o1 o2 o3 o4 o5 o6 c main_arg0 (by decide)).trans <|
  (W29_of m o0 o1 o2 o3 o4 o5 o6 c main_arg0 (by decide)).trans <|
  (W28_of m o0 o1 o2 o3 o4 o5 c main_arg0 (by decide)).trans <|
  (W27_of m o0 o1 o2 o3 o4 o5 c main_arg0 (by decide)).trans <|
  (W26_of m o0 o1 o2 o3 o4 c main_arg0 (by decide)).trans <|
  (W25_of m o0 o1 o2 o3 o4 c main_arg0 (by decide)).trans <|
  (W24_of m o0 o1 o2 o3 c main_arg0 (by decide)).trans <|
  (W23_of m o0 o1 o2 o3 c main_arg0 (by decide)).trans <|
  (W22_of m o0 o1 o2 c main_arg0 (by decide)).trans <|
  (W21_of m o0 o1 o2 c main_arg0 (by decide)).trans <|
  (W20_of m o0 o1 o2 c main_arg0 (by decide)).trans <|
  (W19_of m o0 o1 o2 c main_arg0 (by decide)).trans <|
  (W18_of m o0 o1 o2 c main_arg0 (by decide)).trans <|
  (W17_of m o0 o1 o2 c main_arg0 (by decide)).trans <|
  (W16_of m o0 o1 c main_arg0 (by decide)).trans <|
  (W15_of m o0 o1 c main_arg0 (by decide)).trans <|
  (W14_of m o0 o1 c main_arg0 (by decide)).trans <|
  (W13_of m o0 o1 c main_arg0 (by decide)).trans <|
  (W12_of m o0 o1 c main_arg0 (by decide)).trans <|
  (W11_of m o0 o1 c main_arg0 (by decide)).trans <|
  (W10_of m o0 c main_arg0 (by decide)).trans <|
  (W9_of m o0 c main_arg0 (by decide)).trans <|
  (W8_of m o0 c main_arg0 (by decide)).trans <|
  (W7_of m o0 c main_arg0 (by decide)).trans <|
  (W6_of m o0 c main_arg0 (by decide)).trans <|
  (W5_of m o0 c main_arg0 (by decide)).trans <|
  (W4_of m o0 c main_arg0 (by decide)).trans <|
  (W3_of m o0 c main_arg0 (by decide)).trans <|
  (W2_of m o0 c main_arg0 (by decide)).trans <|
  (W1_of m c main_arg0 (by decide)).trans rfl
/-- `main_arg1` reaches the end as launched. -/
theorem W32_main_arg1 (c : Dev nD) : W32 m o0 o1 o2 o3 o4 o5 o6 o7 c main_arg1 = m ((c : Thread nD τ).loc main_arg1) :=
  (W32_of m o0 o1 o2 o3 o4 o5 o6 o7 c main_arg1 (by decide)).trans <|
  (W31_of m o0 o1 o2 o3 o4 o5 o6 o7 c main_arg1 (by decide)).trans <|
  (W30_of m o0 o1 o2 o3 o4 o5 o6 c main_arg1 (by decide)).trans <|
  (W29_of m o0 o1 o2 o3 o4 o5 o6 c main_arg1 (by decide)).trans <|
  (W28_of m o0 o1 o2 o3 o4 o5 c main_arg1 (by decide)).trans <|
  (W27_of m o0 o1 o2 o3 o4 o5 c main_arg1 (by decide)).trans <|
  (W26_of m o0 o1 o2 o3 o4 c main_arg1 (by decide)).trans <|
  (W25_of m o0 o1 o2 o3 o4 c main_arg1 (by decide)).trans <|
  (W24_of m o0 o1 o2 o3 c main_arg1 (by decide)).trans <|
  (W23_of m o0 o1 o2 o3 c main_arg1 (by decide)).trans <|
  (W22_of m o0 o1 o2 c main_arg1 (by decide)).trans <|
  (W21_of m o0 o1 o2 c main_arg1 (by decide)).trans <|
  (W20_of m o0 o1 o2 c main_arg1 (by decide)).trans <|
  (W19_of m o0 o1 o2 c main_arg1 (by decide)).trans <|
  (W18_of m o0 o1 o2 c main_arg1 (by decide)).trans <|
  (W17_of m o0 o1 o2 c main_arg1 (by decide)).trans <|
  (W16_of m o0 o1 c main_arg1 (by decide)).trans <|
  (W15_of m o0 o1 c main_arg1 (by decide)).trans <|
  (W14_of m o0 o1 c main_arg1 (by decide)).trans <|
  (W13_of m o0 o1 c main_arg1 (by decide)).trans <|
  (W12_of m o0 o1 c main_arg1 (by decide)).trans <|
  (W11_of m o0 o1 c main_arg1 (by decide)).trans <|
  (W10_of m o0 c main_arg1 (by decide)).trans <|
  (W9_of m o0 c main_arg1 (by decide)).trans <|
  (W8_of m o0 c main_arg1 (by decide)).trans <|
  (W7_of m o0 c main_arg1 (by decide)).trans <|
  (W6_of m o0 c main_arg1 (by decide)).trans <|
  (W5_of m o0 c main_arg1 (by decide)).trans <|
  (W4_of m o0 c main_arg1 (by decide)).trans <|
  (W3_of m o0 c main_arg1 (by decide)).trans <|
  (W2_of m o0 c main_arg1 (by decide)).trans <|
  (W1_of m c main_arg1 (by decide)).trans rfl
/-- `main_arg2` reaches the end as launched. -/
theorem W32_main_arg2 (c : Dev nD) : W32 m o0 o1 o2 o3 o4 o5 o6 o7 c main_arg2 = m ((c : Thread nD τ).loc main_arg2) :=
  (W32_of m o0 o1 o2 o3 o4 o5 o6 o7 c main_arg2 (by decide)).trans <|
  (W31_of m o0 o1 o2 o3 o4 o5 o6 o7 c main_arg2 (by decide)).trans <|
  (W30_of m o0 o1 o2 o3 o4 o5 o6 c main_arg2 (by decide)).trans <|
  (W29_of m o0 o1 o2 o3 o4 o5 o6 c main_arg2 (by decide)).trans <|
  (W28_of m o0 o1 o2 o3 o4 o5 c main_arg2 (by decide)).trans <|
  (W27_of m o0 o1 o2 o3 o4 o5 c main_arg2 (by decide)).trans <|
  (W26_of m o0 o1 o2 o3 o4 c main_arg2 (by decide)).trans <|
  (W25_of m o0 o1 o2 o3 o4 c main_arg2 (by decide)).trans <|
  (W24_of m o0 o1 o2 o3 c main_arg2 (by decide)).trans <|
  (W23_of m o0 o1 o2 o3 c main_arg2 (by decide)).trans <|
  (W22_of m o0 o1 o2 c main_arg2 (by decide)).trans <|
  (W21_of m o0 o1 o2 c main_arg2 (by decide)).trans <|
  (W20_of m o0 o1 o2 c main_arg2 (by decide)).trans <|
  (W19_of m o0 o1 o2 c main_arg2 (by decide)).trans <|
  (W18_of m o0 o1 o2 c main_arg2 (by decide)).trans <|
  (W17_of m o0 o1 o2 c main_arg2 (by decide)).trans <|
  (W16_of m o0 o1 c main_arg2 (by decide)).trans <|
  (W15_of m o0 o1 c main_arg2 (by decide)).trans <|
  (W14_of m o0 o1 c main_arg2 (by decide)).trans <|
  (W13_of m o0 o1 c main_arg2 (by decide)).trans <|
  (W12_of m o0 o1 c main_arg2 (by decide)).trans <|
  (W11_of m o0 o1 c main_arg2 (by decide)).trans <|
  (W10_of m o0 c main_arg2 (by decide)).trans <|
  (W9_of m o0 c main_arg2 (by decide)).trans <|
  (W8_of m o0 c main_arg2 (by decide)).trans <|
  (W7_of m o0 c main_arg2 (by decide)).trans <|
  (W6_of m o0 c main_arg2 (by decide)).trans <|
  (W5_of m o0 c main_arg2 (by decide)).trans <|
  (W4_of m o0 c main_arg2 (by decide)).trans <|
  (W3_of m o0 c main_arg2 (by decide)).trans <|
  (W2_of m o0 c main_arg2 (by decide)).trans <|
  (W1_of m c main_arg2 (by decide)).trans rfl
/-- `main_arg3` reaches the end as launched. -/
theorem W32_main_arg3 (c : Dev nD) : W32 m o0 o1 o2 o3 o4 o5 o6 o7 c main_arg3 = m ((c : Thread nD τ).loc main_arg3) :=
  (W32_of m o0 o1 o2 o3 o4 o5 o6 o7 c main_arg3 (by decide)).trans <|
  (W31_of m o0 o1 o2 o3 o4 o5 o6 o7 c main_arg3 (by decide)).trans <|
  (W30_of m o0 o1 o2 o3 o4 o5 o6 c main_arg3 (by decide)).trans <|
  (W29_of m o0 o1 o2 o3 o4 o5 o6 c main_arg3 (by decide)).trans <|
  (W28_of m o0 o1 o2 o3 o4 o5 c main_arg3 (by decide)).trans <|
  (W27_of m o0 o1 o2 o3 o4 o5 c main_arg3 (by decide)).trans <|
  (W26_of m o0 o1 o2 o3 o4 c main_arg3 (by decide)).trans <|
  (W25_of m o0 o1 o2 o3 o4 c main_arg3 (by decide)).trans <|
  (W24_of m o0 o1 o2 o3 c main_arg3 (by decide)).trans <|
  (W23_of m o0 o1 o2 o3 c main_arg3 (by decide)).trans <|
  (W22_of m o0 o1 o2 c main_arg3 (by decide)).trans <|
  (W21_of m o0 o1 o2 c main_arg3 (by decide)).trans <|
  (W20_of m o0 o1 o2 c main_arg3 (by decide)).trans <|
  (W19_of m o0 o1 o2 c main_arg3 (by decide)).trans <|
  (W18_of m o0 o1 o2 c main_arg3 (by decide)).trans <|
  (W17_of m o0 o1 o2 c main_arg3 (by decide)).trans <|
  (W16_of m o0 o1 c main_arg3 (by decide)).trans <|
  (W15_of m o0 o1 c main_arg3 (by decide)).trans <|
  (W14_of m o0 o1 c main_arg3 (by decide)).trans <|
  (W13_of m o0 o1 c main_arg3 (by decide)).trans <|
  (W12_of m o0 o1 c main_arg3 (by decide)).trans <|
  (W11_of m o0 o1 c main_arg3 (by decide)).trans <|
  (W10_of m o0 c main_arg3 (by decide)).trans <|
  (W9_of m o0 c main_arg3 (by decide)).trans <|
  (W8_of m o0 c main_arg3 (by decide)).trans <|
  (W7_of m o0 c main_arg3 (by decide)).trans <|
  (W6_of m o0 c main_arg3 (by decide)).trans <|
  (W5_of m o0 c main_arg3 (by decide)).trans <|
  (W4_of m o0 c main_arg3 (by decide)).trans <|
  (W3_of m o0 c main_arg3 (by decide)).trans <|
  (W2_of m o0 c main_arg3 (by decide)).trans <|
  (W1_of m c main_arg3 (by decide)).trans rfl
/-- `main_arg4` reaches the end as launched. -/
theorem W32_main_arg4 (c : Dev nD) : W32 m o0 o1 o2 o3 o4 o5 o6 o7 c main_arg4 = m ((c : Thread nD τ).loc main_arg4) :=
  (W32_of m o0 o1 o2 o3 o4 o5 o6 o7 c main_arg4 (by decide)).trans <|
  (W31_of m o0 o1 o2 o3 o4 o5 o6 o7 c main_arg4 (by decide)).trans <|
  (W30_of m o0 o1 o2 o3 o4 o5 o6 c main_arg4 (by decide)).trans <|
  (W29_of m o0 o1 o2 o3 o4 o5 o6 c main_arg4 (by decide)).trans <|
  (W28_of m o0 o1 o2 o3 o4 o5 c main_arg4 (by decide)).trans <|
  (W27_of m o0 o1 o2 o3 o4 o5 c main_arg4 (by decide)).trans <|
  (W26_of m o0 o1 o2 o3 o4 c main_arg4 (by decide)).trans <|
  (W25_of m o0 o1 o2 o3 o4 c main_arg4 (by decide)).trans <|
  (W24_of m o0 o1 o2 o3 c main_arg4 (by decide)).trans <|
  (W23_of m o0 o1 o2 o3 c main_arg4 (by decide)).trans <|
  (W22_of m o0 o1 o2 c main_arg4 (by decide)).trans <|
  (W21_of m o0 o1 o2 c main_arg4 (by decide)).trans <|
  (W20_of m o0 o1 o2 c main_arg4 (by decide)).trans <|
  (W19_of m o0 o1 o2 c main_arg4 (by decide)).trans <|
  (W18_of m o0 o1 o2 c main_arg4 (by decide)).trans <|
  (W17_of m o0 o1 o2 c main_arg4 (by decide)).trans <|
  (W16_of m o0 o1 c main_arg4 (by decide)).trans <|
  (W15_of m o0 o1 c main_arg4 (by decide)).trans <|
  (W14_of m o0 o1 c main_arg4 (by decide)).trans <|
  (W13_of m o0 o1 c main_arg4 (by decide)).trans <|
  (W12_of m o0 o1 c main_arg4 (by decide)).trans <|
  (W11_of m o0 o1 c main_arg4 (by decide)).trans <|
  (W10_of m o0 c main_arg4 (by decide)).trans <|
  (W9_of m o0 c main_arg4 (by decide)).trans <|
  (W8_of m o0 c main_arg4 (by decide)).trans <|
  (W7_of m o0 c main_arg4 (by decide)).trans <|
  (W6_of m o0 c main_arg4 (by decide)).trans <|
  (W5_of m o0 c main_arg4 (by decide)).trans <|
  (W4_of m o0 c main_arg4 (by decide)).trans <|
  (W3_of m o0 c main_arg4 (by decide)).trans <|
  (W2_of m o0 c main_arg4 (by decide)).trans <|
  (W1_of m c main_arg4 (by decide)).trans rfl
/-- `main_arg5` reaches the end as launched. -/
theorem W32_main_arg5 (c : Dev nD) : W32 m o0 o1 o2 o3 o4 o5 o6 o7 c main_arg5 = m ((c : Thread nD τ).loc main_arg5) :=
  (W32_of m o0 o1 o2 o3 o4 o5 o6 o7 c main_arg5 (by decide)).trans <|
  (W31_of m o0 o1 o2 o3 o4 o5 o6 o7 c main_arg5 (by decide)).trans <|
  (W30_of m o0 o1 o2 o3 o4 o5 o6 c main_arg5 (by decide)).trans <|
  (W29_of m o0 o1 o2 o3 o4 o5 o6 c main_arg5 (by decide)).trans <|
  (W28_of m o0 o1 o2 o3 o4 o5 c main_arg5 (by decide)).trans <|
  (W27_of m o0 o1 o2 o3 o4 o5 c main_arg5 (by decide)).trans <|
  (W26_of m o0 o1 o2 o3 o4 c main_arg5 (by decide)).trans <|
  (W25_of m o0 o1 o2 o3 o4 c main_arg5 (by decide)).trans <|
  (W24_of m o0 o1 o2 o3 c main_arg5 (by decide)).trans <|
  (W23_of m o0 o1 o2 o3 c main_arg5 (by decide)).trans <|
  (W22_of m o0 o1 o2 c main_arg5 (by decide)).trans <|
  (W21_of m o0 o1 o2 c main_arg5 (by decide)).trans <|
  (W20_of m o0 o1 o2 c main_arg5 (by decide)).trans <|
  (W19_of m o0 o1 o2 c main_arg5 (by decide)).trans <|
  (W18_of m o0 o1 o2 c main_arg5 (by decide)).trans <|
  (W17_of m o0 o1 o2 c main_arg5 (by decide)).trans <|
  (W16_of m o0 o1 c main_arg5 (by decide)).trans <|
  (W15_of m o0 o1 c main_arg5 (by decide)).trans <|
  (W14_of m o0 o1 c main_arg5 (by decide)).trans <|
  (W13_of m o0 o1 c main_arg5 (by decide)).trans <|
  (W12_of m o0 o1 c main_arg5 (by decide)).trans <|
  (W11_of m o0 o1 c main_arg5 (by decide)).trans <|
  (W10_of m o0 c main_arg5 (by decide)).trans <|
  (W9_of m o0 c main_arg5 (by decide)).trans <|
  (W8_of m o0 c main_arg5 (by decide)).trans <|
  (W7_of m o0 c main_arg5 (by decide)).trans <|
  (W6_of m o0 c main_arg5 (by decide)).trans <|
  (W5_of m o0 c main_arg5 (by decide)).trans <|
  (W4_of m o0 c main_arg5 (by decide)).trans <|
  (W3_of m o0 c main_arg5 (by decide)).trans <|
  (W2_of m o0 c main_arg5 (by decide)).trans <|
  (W1_of m c main_arg5 (by decide)).trans rfl
/-- `main_arg6` reaches the end as launched. -/
theorem W32_main_arg6 (c : Dev nD) : W32 m o0 o1 o2 o3 o4 o5 o6 o7 c main_arg6 = m ((c : Thread nD τ).loc main_arg6) :=
  (W32_of m o0 o1 o2 o3 o4 o5 o6 o7 c main_arg6 (by decide)).trans <|
  (W31_of m o0 o1 o2 o3 o4 o5 o6 o7 c main_arg6 (by decide)).trans <|
  (W30_of m o0 o1 o2 o3 o4 o5 o6 c main_arg6 (by decide)).trans <|
  (W29_of m o0 o1 o2 o3 o4 o5 o6 c main_arg6 (by decide)).trans <|
  (W28_of m o0 o1 o2 o3 o4 o5 c main_arg6 (by decide)).trans <|
  (W27_of m o0 o1 o2 o3 o4 o5 c main_arg6 (by decide)).trans <|
  (W26_of m o0 o1 o2 o3 o4 c main_arg6 (by decide)).trans <|
  (W25_of m o0 o1 o2 o3 o4 c main_arg6 (by decide)).trans <|
  (W24_of m o0 o1 o2 o3 c main_arg6 (by decide)).trans <|
  (W23_of m o0 o1 o2 o3 c main_arg6 (by decide)).trans <|
  (W22_of m o0 o1 o2 c main_arg6 (by decide)).trans <|
  (W21_of m o0 o1 o2 c main_arg6 (by decide)).trans <|
  (W20_of m o0 o1 o2 c main_arg6 (by decide)).trans <|
  (W19_of m o0 o1 o2 c main_arg6 (by decide)).trans <|
  (W18_of m o0 o1 o2 c main_arg6 (by decide)).trans <|
  (W17_of m o0 o1 o2 c main_arg6 (by decide)).trans <|
  (W16_of m o0 o1 c main_arg6 (by decide)).trans <|
  (W15_of m o0 o1 c main_arg6 (by decide)).trans <|
  (W14_of m o0 o1 c main_arg6 (by decide)).trans <|
  (W13_of m o0 o1 c main_arg6 (by decide)).trans <|
  (W12_of m o0 o1 c main_arg6 (by decide)).trans <|
  (W11_of m o0 o1 c main_arg6 (by decide)).trans <|
  (W10_of m o0 c main_arg6 (by decide)).trans <|
  (W9_of m o0 c main_arg6 (by decide)).trans <|
  (W8_of m o0 c main_arg6 (by decide)).trans <|
  (W7_of m o0 c main_arg6 (by decide)).trans <|
  (W6_of m o0 c main_arg6 (by decide)).trans <|
  (W5_of m o0 c main_arg6 (by decide)).trans <|
  (W4_of m o0 c main_arg6 (by decide)).trans <|
  (W3_of m o0 c main_arg6 (by decide)).trans <|
  (W2_of m o0 c main_arg6 (by decide)).trans <|
  (W1_of m c main_arg6 (by decide)).trans rfl
/-- `main_arg7` reaches the end as launched. -/
theorem W32_main_arg7 (c : Dev nD) : W32 m o0 o1 o2 o3 o4 o5 o6 o7 c main_arg7 = m ((c : Thread nD τ).loc main_arg7) :=
  (W32_of m o0 o1 o2 o3 o4 o5 o6 o7 c main_arg7 (by decide)).trans <|
  (W31_of m o0 o1 o2 o3 o4 o5 o6 o7 c main_arg7 (by decide)).trans <|
  (W30_of m o0 o1 o2 o3 o4 o5 o6 c main_arg7 (by decide)).trans <|
  (W29_of m o0 o1 o2 o3 o4 o5 o6 c main_arg7 (by decide)).trans <|
  (W28_of m o0 o1 o2 o3 o4 o5 c main_arg7 (by decide)).trans <|
  (W27_of m o0 o1 o2 o3 o4 o5 c main_arg7 (by decide)).trans <|
  (W26_of m o0 o1 o2 o3 o4 c main_arg7 (by decide)).trans <|
  (W25_of m o0 o1 o2 o3 o4 c main_arg7 (by decide)).trans <|
  (W24_of m o0 o1 o2 o3 c main_arg7 (by decide)).trans <|
  (W23_of m o0 o1 o2 o3 c main_arg7 (by decide)).trans <|
  (W22_of m o0 o1 o2 c main_arg7 (by decide)).trans <|
  (W21_of m o0 o1 o2 c main_arg7 (by decide)).trans <|
  (W20_of m o0 o1 o2 c main_arg7 (by decide)).trans <|
  (W19_of m o0 o1 o2 c main_arg7 (by decide)).trans <|
  (W18_of m o0 o1 o2 c main_arg7 (by decide)).trans <|
  (W17_of m o0 o1 o2 c main_arg7 (by decide)).trans <|
  (W16_of m o0 o1 c main_arg7 (by decide)).trans <|
  (W15_of m o0 o1 c main_arg7 (by decide)).trans <|
  (W14_of m o0 o1 c main_arg7 (by decide)).trans <|
  (W13_of m o0 o1 c main_arg7 (by decide)).trans <|
  (W12_of m o0 o1 c main_arg7 (by decide)).trans <|
  (W11_of m o0 o1 c main_arg7 (by decide)).trans <|
  (W10_of m o0 c main_arg7 (by decide)).trans <|
  (W9_of m o0 c main_arg7 (by decide)).trans <|
  (W8_of m o0 c main_arg7 (by decide)).trans <|
  (W7_of m o0 c main_arg7 (by decide)).trans <|
  (W6_of m o0 c main_arg7 (by decide)).trans <|
  (W5_of m o0 c main_arg7 (by decide)).trans <|
  (W4_of m o0 c main_arg7 (by decide)).trans <|
  (W3_of m o0 c main_arg7 (by decide)).trans <|
  (W2_of m o0 c main_arg7 (by decide)).trans <|
  (W1_of m c main_arg7 (by decide)).trans rfl
/-- `main_arg8` reaches the end as launched. -/
theorem W32_main_arg8 (c : Dev nD) : W32 m o0 o1 o2 o3 o4 o5 o6 o7 c main_arg8 = m ((c : Thread nD τ).loc main_arg8) :=
  (W32_of m o0 o1 o2 o3 o4 o5 o6 o7 c main_arg8 (by decide)).trans <|
  (W31_of m o0 o1 o2 o3 o4 o5 o6 o7 c main_arg8 (by decide)).trans <|
  (W30_of m o0 o1 o2 o3 o4 o5 o6 c main_arg8 (by decide)).trans <|
  (W29_of m o0 o1 o2 o3 o4 o5 o6 c main_arg8 (by decide)).trans <|
  (W28_of m o0 o1 o2 o3 o4 o5 c main_arg8 (by decide)).trans <|
  (W27_of m o0 o1 o2 o3 o4 o5 c main_arg8 (by decide)).trans <|
  (W26_of m o0 o1 o2 o3 o4 c main_arg8 (by decide)).trans <|
  (W25_of m o0 o1 o2 o3 o4 c main_arg8 (by decide)).trans <|
  (W24_of m o0 o1 o2 o3 c main_arg8 (by decide)).trans <|
  (W23_of m o0 o1 o2 o3 c main_arg8 (by decide)).trans <|
  (W22_of m o0 o1 o2 c main_arg8 (by decide)).trans <|
  (W21_of m o0 o1 o2 c main_arg8 (by decide)).trans <|
  (W20_of m o0 o1 o2 c main_arg8 (by decide)).trans <|
  (W19_of m o0 o1 o2 c main_arg8 (by decide)).trans <|
  (W18_of m o0 o1 o2 c main_arg8 (by decide)).trans <|
  (W17_of m o0 o1 o2 c main_arg8 (by decide)).trans <|
  (W16_of m o0 o1 c main_arg8 (by decide)).trans <|
  (W15_of m o0 o1 c main_arg8 (by decide)).trans <|
  (W14_of m o0 o1 c main_arg8 (by decide)).trans <|
  (W13_of m o0 o1 c main_arg8 (by decide)).trans <|
  (W12_of m o0 o1 c main_arg8 (by decide)).trans <|
  (W11_of m o0 o1 c main_arg8 (by decide)).trans <|
  (W10_of m o0 c main_arg8 (by decide)).trans <|
  (W9_of m o0 c main_arg8 (by decide)).trans <|
  (W8_of m o0 c main_arg8 (by decide)).trans <|
  (W7_of m o0 c main_arg8 (by decide)).trans <|
  (W6_of m o0 c main_arg8 (by decide)).trans <|
  (W5_of m o0 c main_arg8 (by decide)).trans <|
  (W4_of m o0 c main_arg8 (by decide)).trans <|
  (W3_of m o0 c main_arg8 (by decide)).trans <|
  (W2_of m o0 c main_arg8 (by decide)).trans <|
  (W1_of m c main_arg8 (by decide)).trans rfl
/-- `main_arg9` reaches the end as launched. -/
theorem W32_main_arg9 (c : Dev nD) : W32 m o0 o1 o2 o3 o4 o5 o6 o7 c main_arg9 = m ((c : Thread nD τ).loc main_arg9) :=
  (W32_of m o0 o1 o2 o3 o4 o5 o6 o7 c main_arg9 (by decide)).trans <|
  (W31_of m o0 o1 o2 o3 o4 o5 o6 o7 c main_arg9 (by decide)).trans <|
  (W30_of m o0 o1 o2 o3 o4 o5 o6 c main_arg9 (by decide)).trans <|
  (W29_of m o0 o1 o2 o3 o4 o5 o6 c main_arg9 (by decide)).trans <|
  (W28_of m o0 o1 o2 o3 o4 o5 c main_arg9 (by decide)).trans <|
  (W27_of m o0 o1 o2 o3 o4 o5 c main_arg9 (by decide)).trans <|
  (W26_of m o0 o1 o2 o3 o4 c main_arg9 (by decide)).trans <|
  (W25_of m o0 o1 o2 o3 o4 c main_arg9 (by decide)).trans <|
  (W24_of m o0 o1 o2 o3 c main_arg9 (by decide)).trans <|
  (W23_of m o0 o1 o2 o3 c main_arg9 (by decide)).trans <|
  (W22_of m o0 o1 o2 c main_arg9 (by decide)).trans <|
  (W21_of m o0 o1 o2 c main_arg9 (by decide)).trans <|
  (W20_of m o0 o1 o2 c main_arg9 (by decide)).trans <|
  (W19_of m o0 o1 o2 c main_arg9 (by decide)).trans <|
  (W18_of m o0 o1 o2 c main_arg9 (by decide)).trans <|
  (W17_of m o0 o1 o2 c main_arg9 (by decide)).trans <|
  (W16_of m o0 o1 c main_arg9 (by decide)).trans <|
  (W15_of m o0 o1 c main_arg9 (by decide)).trans <|
  (W14_of m o0 o1 c main_arg9 (by decide)).trans <|
  (W13_of m o0 o1 c main_arg9 (by decide)).trans <|
  (W12_of m o0 o1 c main_arg9 (by decide)).trans <|
  (W11_of m o0 o1 c main_arg9 (by decide)).trans <|
  (W10_of m o0 c main_arg9 (by decide)).trans <|
  (W9_of m o0 c main_arg9 (by decide)).trans <|
  (W8_of m o0 c main_arg9 (by decide)).trans <|
  (W7_of m o0 c main_arg9 (by decide)).trans <|
  (W6_of m o0 c main_arg9 (by decide)).trans <|
  (W5_of m o0 c main_arg9 (by decide)).trans <|
  (W4_of m o0 c main_arg9 (by decide)).trans <|
  (W3_of m o0 c main_arg9 (by decide)).trans <|
  (W2_of m o0 c main_arg9 (by decide)).trans <|
  (W1_of m c main_arg9 (by decide)).trans rfl
/-- `main_arg10` reaches the end as launched. -/
theorem W32_main_arg10 (c : Dev nD) : W32 m o0 o1 o2 o3 o4 o5 o6 o7 c main_arg10 = m ((c : Thread nD τ).loc main_arg10) :=
  (W32_of m o0 o1 o2 o3 o4 o5 o6 o7 c main_arg10 (by decide)).trans <|
  (W31_of m o0 o1 o2 o3 o4 o5 o6 o7 c main_arg10 (by decide)).trans <|
  (W30_of m o0 o1 o2 o3 o4 o5 o6 c main_arg10 (by decide)).trans <|
  (W29_of m o0 o1 o2 o3 o4 o5 o6 c main_arg10 (by decide)).trans <|
  (W28_of m o0 o1 o2 o3 o4 o5 c main_arg10 (by decide)).trans <|
  (W27_of m o0 o1 o2 o3 o4 o5 c main_arg10 (by decide)).trans <|
  (W26_of m o0 o1 o2 o3 o4 c main_arg10 (by decide)).trans <|
  (W25_of m o0 o1 o2 o3 o4 c main_arg10 (by decide)).trans <|
  (W24_of m o0 o1 o2 o3 c main_arg10 (by decide)).trans <|
  (W23_of m o0 o1 o2 o3 c main_arg10 (by decide)).trans <|
  (W22_of m o0 o1 o2 c main_arg10 (by decide)).trans <|
  (W21_of m o0 o1 o2 c main_arg10 (by decide)).trans <|
  (W20_of m o0 o1 o2 c main_arg10 (by decide)).trans <|
  (W19_of m o0 o1 o2 c main_arg10 (by decide)).trans <|
  (W18_of m o0 o1 o2 c main_arg10 (by decide)).trans <|
  (W17_of m o0 o1 o2 c main_arg10 (by decide)).trans <|
  (W16_of m o0 o1 c main_arg10 (by decide)).trans <|
  (W15_of m o0 o1 c main_arg10 (by decide)).trans <|
  (W14_of m o0 o1 c main_arg10 (by decide)).trans <|
  (W13_of m o0 o1 c main_arg10 (by decide)).trans <|
  (W12_of m o0 o1 c main_arg10 (by decide)).trans <|
  (W11_of m o0 o1 c main_arg10 (by decide)).trans <|
  (W10_of m o0 c main_arg10 (by decide)).trans <|
  (W9_of m o0 c main_arg10 (by decide)).trans <|
  (W8_of m o0 c main_arg10 (by decide)).trans <|
  (W7_of m o0 c main_arg10 (by decide)).trans <|
  (W6_of m o0 c main_arg10 (by decide)).trans <|
  (W5_of m o0 c main_arg10 (by decide)).trans <|
  (W4_of m o0 c main_arg10 (by decide)).trans <|
  (W3_of m o0 c main_arg10 (by decide)).trans <|
  (W2_of m o0 c main_arg10 (by decide)).trans <|
  (W1_of m c main_arg10 (by decide)).trans rfl
/-- `main_arg11` reaches the end as launched. -/
theorem W32_main_arg11 (c : Dev nD) : W32 m o0 o1 o2 o3 o4 o5 o6 o7 c main_arg11 = m ((c : Thread nD τ).loc main_arg11) :=
  (W32_of m o0 o1 o2 o3 o4 o5 o6 o7 c main_arg11 (by decide)).trans <|
  (W31_of m o0 o1 o2 o3 o4 o5 o6 o7 c main_arg11 (by decide)).trans <|
  (W30_of m o0 o1 o2 o3 o4 o5 o6 c main_arg11 (by decide)).trans <|
  (W29_of m o0 o1 o2 o3 o4 o5 o6 c main_arg11 (by decide)).trans <|
  (W28_of m o0 o1 o2 o3 o4 o5 c main_arg11 (by decide)).trans <|
  (W27_of m o0 o1 o2 o3 o4 o5 c main_arg11 (by decide)).trans <|
  (W26_of m o0 o1 o2 o3 o4 c main_arg11 (by decide)).trans <|
  (W25_of m o0 o1 o2 o3 o4 c main_arg11 (by decide)).trans <|
  (W24_of m o0 o1 o2 o3 c main_arg11 (by decide)).trans <|
  (W23_of m o0 o1 o2 o3 c main_arg11 (by decide)).trans <|
  (W22_of m o0 o1 o2 c main_arg11 (by decide)).trans <|
  (W21_of m o0 o1 o2 c main_arg11 (by decide)).trans <|
  (W20_of m o0 o1 o2 c main_arg11 (by decide)).trans <|
  (W19_of m o0 o1 o2 c main_arg11 (by decide)).trans <|
  (W18_of m o0 o1 o2 c main_arg11 (by decide)).trans <|
  (W17_of m o0 o1 o2 c main_arg11 (by decide)).trans <|
  (W16_of m o0 o1 c main_arg11 (by decide)).trans <|
  (W15_of m o0 o1 c main_arg11 (by decide)).trans <|
  (W14_of m o0 o1 c main_arg11 (by decide)).trans <|
  (W13_of m o0 o1 c main_arg11 (by decide)).trans <|
  (W12_of m o0 o1 c main_arg11 (by decide)).trans <|
  (W11_of m o0 o1 c main_arg11 (by decide)).trans <|
  (W10_of m o0 c main_arg11 (by decide)).trans <|
  (W9_of m o0 c main_arg11 (by decide)).trans <|
  (W8_of m o0 c main_arg11 (by decide)).trans <|
  (W7_of m o0 c main_arg11 (by decide)).trans <|
  (W6_of m o0 c main_arg11 (by decide)).trans <|
  (W5_of m o0 c main_arg11 (by decide)).trans <|
  (W4_of m o0 c main_arg11 (by decide)).trans <|
  (W3_of m o0 c main_arg11 (by decide)).trans <|
  (W2_of m o0 c main_arg11 (by decide)).trans <|
  (W1_of m c main_arg11 (by decide)).trans rfl
/-- `main_arg12` reaches the end as launched. -/
theorem W32_main_arg12 (c : Dev nD) : W32 m o0 o1 o2 o3 o4 o5 o6 o7 c main_arg12 = m ((c : Thread nD τ).loc main_arg12) :=
  (W32_of m o0 o1 o2 o3 o4 o5 o6 o7 c main_arg12 (by decide)).trans <|
  (W31_of m o0 o1 o2 o3 o4 o5 o6 o7 c main_arg12 (by decide)).trans <|
  (W30_of m o0 o1 o2 o3 o4 o5 o6 c main_arg12 (by decide)).trans <|
  (W29_of m o0 o1 o2 o3 o4 o5 o6 c main_arg12 (by decide)).trans <|
  (W28_of m o0 o1 o2 o3 o4 o5 c main_arg12 (by decide)).trans <|
  (W27_of m o0 o1 o2 o3 o4 o5 c main_arg12 (by decide)).trans <|
  (W26_of m o0 o1 o2 o3 o4 c main_arg12 (by decide)).trans <|
  (W25_of m o0 o1 o2 o3 o4 c main_arg12 (by decide)).trans <|
  (W24_of m o0 o1 o2 o3 c main_arg12 (by decide)).trans <|
  (W23_of m o0 o1 o2 o3 c main_arg12 (by decide)).trans <|
  (W22_of m o0 o1 o2 c main_arg12 (by decide)).trans <|
  (W21_of m o0 o1 o2 c main_arg12 (by decide)).trans <|
  (W20_of m o0 o1 o2 c main_arg12 (by decide)).trans <|
  (W19_of m o0 o1 o2 c main_arg12 (by decide)).trans <|
  (W18_of m o0 o1 o2 c main_arg12 (by decide)).trans <|
  (W17_of m o0 o1 o2 c main_arg12 (by decide)).trans <|
  (W16_of m o0 o1 c main_arg12 (by decide)).trans <|
  (W15_of m o0 o1 c main_arg12 (by decide)).trans <|
  (W14_of m o0 o1 c main_arg12 (by decide)).trans <|
  (W13_of m o0 o1 c main_arg12 (by decide)).trans <|
  (W12_of m o0 o1 c main_arg12 (by decide)).trans <|
  (W11_of m o0 o1 c main_arg12 (by decide)).trans <|
  (W10_of m o0 c main_arg12 (by decide)).trans <|
  (W9_of m o0 c main_arg12 (by decide)).trans <|
  (W8_of m o0 c main_arg12 (by decide)).trans <|
  (W7_of m o0 c main_arg12 (by decide)).trans <|
  (W6_of m o0 c main_arg12 (by decide)).trans <|
  (W5_of m o0 c main_arg12 (by decide)).trans <|
  (W4_of m o0 c main_arg12 (by decide)).trans <|
  (W3_of m o0 c main_arg12 (by decide)).trans <|
  (W2_of m o0 c main_arg12 (by decide)).trans <|
  (W1_of m c main_arg12 (by decide)).trans rfl
/-- `main_arg13` reaches the end as launched. -/
theorem W32_main_arg13 (c : Dev nD) : W32 m o0 o1 o2 o3 o4 o5 o6 o7 c main_arg13 = m ((c : Thread nD τ).loc main_arg13) :=
  (W32_of m o0 o1 o2 o3 o4 o5 o6 o7 c main_arg13 (by decide)).trans <|
  (W31_of m o0 o1 o2 o3 o4 o5 o6 o7 c main_arg13 (by decide)).trans <|
  (W30_of m o0 o1 o2 o3 o4 o5 o6 c main_arg13 (by decide)).trans <|
  (W29_of m o0 o1 o2 o3 o4 o5 o6 c main_arg13 (by decide)).trans <|
  (W28_of m o0 o1 o2 o3 o4 o5 c main_arg13 (by decide)).trans <|
  (W27_of m o0 o1 o2 o3 o4 o5 c main_arg13 (by decide)).trans <|
  (W26_of m o0 o1 o2 o3 o4 c main_arg13 (by decide)).trans <|
  (W25_of m o0 o1 o2 o3 o4 c main_arg13 (by decide)).trans <|
  (W24_of m o0 o1 o2 o3 c main_arg13 (by decide)).trans <|
  (W23_of m o0 o1 o2 o3 c main_arg13 (by decide)).trans <|
  (W22_of m o0 o1 o2 c main_arg13 (by decide)).trans <|
  (W21_of m o0 o1 o2 c main_arg13 (by decide)).trans <|
  (W20_of m o0 o1 o2 c main_arg13 (by decide)).trans <|
  (W19_of m o0 o1 o2 c main_arg13 (by decide)).trans <|
  (W18_of m o0 o1 o2 c main_arg13 (by decide)).trans <|
  (W17_of m o0 o1 o2 c main_arg13 (by decide)).trans <|
  (W16_of m o0 o1 c main_arg13 (by decide)).trans <|
  (W15_of m o0 o1 c main_arg13 (by decide)).trans <|
  (W14_of m o0 o1 c main_arg13 (by decide)).trans <|
  (W13_of m o0 o1 c main_arg13 (by decide)).trans <|
  (W12_of m o0 o1 c main_arg13 (by decide)).trans <|
  (W11_of m o0 o1 c main_arg13 (by decide)).trans <|
  (W10_of m o0 c main_arg13 (by decide)).trans <|
  (W9_of m o0 c main_arg13 (by decide)).trans <|
  (W8_of m o0 c main_arg13 (by decide)).trans <|
  (W7_of m o0 c main_arg13 (by decide)).trans <|
  (W6_of m o0 c main_arg13 (by decide)).trans <|
  (W5_of m o0 c main_arg13 (by decide)).trans <|
  (W4_of m o0 c main_arg13 (by decide)).trans <|
  (W3_of m o0 c main_arg13 (by decide)).trans <|
  (W2_of m o0 c main_arg13 (by decide)).trans <|
  (W1_of m c main_arg13 (by decide)).trans rfl
/-- `main_arg14` reaches the end as launched. -/
theorem W32_main_arg14 (c : Dev nD) : W32 m o0 o1 o2 o3 o4 o5 o6 o7 c main_arg14 = m ((c : Thread nD τ).loc main_arg14) :=
  (W32_of m o0 o1 o2 o3 o4 o5 o6 o7 c main_arg14 (by decide)).trans <|
  (W31_of m o0 o1 o2 o3 o4 o5 o6 o7 c main_arg14 (by decide)).trans <|
  (W30_of m o0 o1 o2 o3 o4 o5 o6 c main_arg14 (by decide)).trans <|
  (W29_of m o0 o1 o2 o3 o4 o5 o6 c main_arg14 (by decide)).trans <|
  (W28_of m o0 o1 o2 o3 o4 o5 c main_arg14 (by decide)).trans <|
  (W27_of m o0 o1 o2 o3 o4 o5 c main_arg14 (by decide)).trans <|
  (W26_of m o0 o1 o2 o3 o4 c main_arg14 (by decide)).trans <|
  (W25_of m o0 o1 o2 o3 o4 c main_arg14 (by decide)).trans <|
  (W24_of m o0 o1 o2 o3 c main_arg14 (by decide)).trans <|
  (W23_of m o0 o1 o2 o3 c main_arg14 (by decide)).trans <|
  (W22_of m o0 o1 o2 c main_arg14 (by decide)).trans <|
  (W21_of m o0 o1 o2 c main_arg14 (by decide)).trans <|
  (W20_of m o0 o1 o2 c main_arg14 (by decide)).trans <|
  (W19_of m o0 o1 o2 c main_arg14 (by decide)).trans <|
  (W18_of m o0 o1 o2 c main_arg14 (by decide)).trans <|
  (W17_of m o0 o1 o2 c main_arg14 (by decide)).trans <|
  (W16_of m o0 o1 c main_arg14 (by decide)).trans <|
  (W15_of m o0 o1 c main_arg14 (by decide)).trans <|
  (W14_of m o0 o1 c main_arg14 (by decide)).trans <|
  (W13_of m o0 o1 c main_arg14 (by decide)).trans <|
  (W12_of m o0 o1 c main_arg14 (by decide)).trans <|
  (W11_of m o0 o1 c main_arg14 (by decide)).trans <|
  (W10_of m o0 c main_arg14 (by decide)).trans <|
  (W9_of m o0 c main_arg14 (by decide)).trans <|
  (W8_of m o0 c main_arg14 (by decide)).trans <|
  (W7_of m o0 c main_arg14 (by decide)).trans <|
  (W6_of m o0 c main_arg14 (by decide)).trans <|
  (W5_of m o0 c main_arg14 (by decide)).trans <|
  (W4_of m o0 c main_arg14 (by decide)).trans <|
  (W3_of m o0 c main_arg14 (by decide)).trans <|
  (W2_of m o0 c main_arg14 (by decide)).trans <|
  (W1_of m c main_arg14 (by decide)).trans rfl
/-- `main_arg15` reaches the end as launched. -/
theorem W32_main_arg15 (c : Dev nD) : W32 m o0 o1 o2 o3 o4 o5 o6 o7 c main_arg15 = m ((c : Thread nD τ).loc main_arg15) :=
  (W32_of m o0 o1 o2 o3 o4 o5 o6 o7 c main_arg15 (by decide)).trans <|
  (W31_of m o0 o1 o2 o3 o4 o5 o6 o7 c main_arg15 (by decide)).trans <|
  (W30_of m o0 o1 o2 o3 o4 o5 o6 c main_arg15 (by decide)).trans <|
  (W29_of m o0 o1 o2 o3 o4 o5 o6 c main_arg15 (by decide)).trans <|
  (W28_of m o0 o1 o2 o3 o4 o5 c main_arg15 (by decide)).trans <|
  (W27_of m o0 o1 o2 o3 o4 o5 c main_arg15 (by decide)).trans <|
  (W26_of m o0 o1 o2 o3 o4 c main_arg15 (by decide)).trans <|
  (W25_of m o0 o1 o2 o3 o4 c main_arg15 (by decide)).trans <|
  (W24_of m o0 o1 o2 o3 c main_arg15 (by decide)).trans <|
  (W23_of m o0 o1 o2 o3 c main_arg15 (by decide)).trans <|
  (W22_of m o0 o1 o2 c main_arg15 (by decide)).trans <|
  (W21_of m o0 o1 o2 c main_arg15 (by decide)).trans <|
  (W20_of m o0 o1 o2 c main_arg15 (by decide)).trans <|
  (W19_of m o0 o1 o2 c main_arg15 (by decide)).trans <|
  (W18_of m o0 o1 o2 c main_arg15 (by decide)).trans <|
  (W17_of m o0 o1 o2 c main_arg15 (by decide)).trans <|
  (W16_of m o0 o1 c main_arg15 (by decide)).trans <|
  (W15_of m o0 o1 c main_arg15 (by decide)).trans <|
  (W14_of m o0 o1 c main_arg15 (by decide)).trans <|
  (W13_of m o0 o1 c main_arg15 (by decide)).trans <|
  (W12_of m o0 o1 c main_arg15 (by decide)).trans <|
  (W11_of m o0 o1 c main_arg15 (by decide)).trans <|
  (W10_of m o0 c main_arg15 (by decide)).trans <|
  (W9_of m o0 c main_arg15 (by decide)).trans <|
  (W8_of m o0 c main_arg15 (by decide)).trans <|
  (W7_of m o0 c main_arg15 (by decide)).trans <|
  (W6_of m o0 c main_arg15 (by decide)).trans <|
  (W5_of m o0 c main_arg15 (by decide)).trans <|
  (W4_of m o0 c main_arg15 (by decide)).trans <|
  (W3_of m o0 c main_arg15 (by decide)).trans <|
  (W2_of m o0 c main_arg15 (by decide)).trans <|
  (W1_of m c main_arg15 (by decide)).trans rfl
/-- `main_arg16` reaches the end as launched. -/
theorem W32_main_arg16 (c : Dev nD) : W32 m o0 o1 o2 o3 o4 o5 o6 o7 c main_arg16 = m ((c : Thread nD τ).loc main_arg16) :=
  (W32_of m o0 o1 o2 o3 o4 o5 o6 o7 c main_arg16 (by decide)).trans <|
  (W31_of m o0 o1 o2 o3 o4 o5 o6 o7 c main_arg16 (by decide)).trans <|
  (W30_of m o0 o1 o2 o3 o4 o5 o6 c main_arg16 (by decide)).trans <|
  (W29_of m o0 o1 o2 o3 o4 o5 o6 c main_arg16 (by decide)).trans <|
  (W28_of m o0 o1 o2 o3 o4 o5 c main_arg16 (by decide)).trans <|
  (W27_of m o0 o1 o2 o3 o4 o5 c main_arg16 (by decide)).trans <|
  (W26_of m o0 o1 o2 o3 o4 c main_arg16 (by decide)).trans <|
  (W25_of m o0 o1 o2 o3 o4 c main_arg16 (by decide)).trans <|
  (W24_of m o0 o1 o2 o3 c main_arg16 (by decide)).trans <|
  (W23_of m o0 o1 o2 o3 c main_arg16 (by decide)).trans <|
  (W22_of m o0 o1 o2 c main_arg16 (by decide)).trans <|
  (W21_of m o0 o1 o2 c main_arg16 (by decide)).trans <|
  (W20_of m o0 o1 o2 c main_arg16 (by decide)).trans <|
  (W19_of m o0 o1 o2 c main_arg16 (by decide)).trans <|
  (W18_of m o0 o1 o2 c main_arg16 (by decide)).trans <|
  (W17_of m o0 o1 o2 c main_arg16 (by decide)).trans <|
  (W16_of m o0 o1 c main_arg16 (by decide)).trans <|
  (W15_of m o0 o1 c main_arg16 (by decide)).trans <|
  (W14_of m o0 o1 c main_arg16 (by decide)).trans <|
  (W13_of m o0 o1 c main_arg16 (by decide)).trans <|
  (W12_of m o0 o1 c main_arg16 (by decide)).trans <|
  (W11_of m o0 o1 c main_arg16 (by decide)).trans <|
  (W10_of m o0 c main_arg16 (by decide)).trans <|
  (W9_of m o0 c main_arg16 (by decide)).trans <|
  (W8_of m o0 c main_arg16 (by decide)).trans <|
  (W7_of m o0 c main_arg16 (by decide)).trans <|
  (W6_of m o0 c main_arg16 (by decide)).trans <|
  (W5_of m o0 c main_arg16 (by decide)).trans <|
  (W4_of m o0 c main_arg16 (by decide)).trans <|
  (W3_of m o0 c main_arg16 (by decide)).trans <|
  (W2_of m o0 c main_arg16 (by decide)).trans <|
  (W1_of m c main_arg16 (by decide)).trans rfl
/-- `main_arg17` reaches the end as launched. -/
theorem W32_main_arg17 (c : Dev nD) : W32 m o0 o1 o2 o3 o4 o5 o6 o7 c main_arg17 = m ((c : Thread nD τ).loc main_arg17) :=
  (W32_of m o0 o1 o2 o3 o4 o5 o6 o7 c main_arg17 (by decide)).trans <|
  (W31_of m o0 o1 o2 o3 o4 o5 o6 o7 c main_arg17 (by decide)).trans <|
  (W30_of m o0 o1 o2 o3 o4 o5 o6 c main_arg17 (by decide)).trans <|
  (W29_of m o0 o1 o2 o3 o4 o5 o6 c main_arg17 (by decide)).trans <|
  (W28_of m o0 o1 o2 o3 o4 o5 c main_arg17 (by decide)).trans <|
  (W27_of m o0 o1 o2 o3 o4 o5 c main_arg17 (by decide)).trans <|
  (W26_of m o0 o1 o2 o3 o4 c main_arg17 (by decide)).trans <|
  (W25_of m o0 o1 o2 o3 o4 c main_arg17 (by decide)).trans <|
  (W24_of m o0 o1 o2 o3 c main_arg17 (by decide)).trans <|
  (W23_of m o0 o1 o2 o3 c main_arg17 (by decide)).trans <|
  (W22_of m o0 o1 o2 c main_arg17 (by decide)).trans <|
  (W21_of m o0 o1 o2 c main_arg17 (by decide)).trans <|
  (W20_of m o0 o1 o2 c main_arg17 (by decide)).trans <|
  (W19_of m o0 o1 o2 c main_arg17 (by decide)).trans <|
  (W18_of m o0 o1 o2 c main_arg17 (by decide)).trans <|
  (W17_of m o0 o1 o2 c main_arg17 (by decide)).trans <|
  (W16_of m o0 o1 c main_arg17 (by decide)).trans <|
  (W15_of m o0 o1 c main_arg17 (by decide)).trans <|
  (W14_of m o0 o1 c main_arg17 (by decide)).trans <|
  (W13_of m o0 o1 c main_arg17 (by decide)).trans <|
  (W12_of m o0 o1 c main_arg17 (by decide)).trans <|
  (W11_of m o0 o1 c main_arg17 (by decide)).trans <|
  (W10_of m o0 c main_arg17 (by decide)).trans <|
  (W9_of m o0 c main_arg17 (by decide)).trans <|
  (W8_of m o0 c main_arg17 (by decide)).trans <|
  (W7_of m o0 c main_arg17 (by decide)).trans <|
  (W6_of m o0 c main_arg17 (by decide)).trans <|
  (W5_of m o0 c main_arg17 (by decide)).trans <|
  (W4_of m o0 c main_arg17 (by decide)).trans <|
  (W3_of m o0 c main_arg17 (by decide)).trans <|
  (W2_of m o0 c main_arg17 (by decide)).trans <|
  (W1_of m c main_arg17 (by decide)).trans rfl
/-- `main_arg18` reaches the end as launched. -/
theorem W32_main_arg18 (c : Dev nD) : W32 m o0 o1 o2 o3 o4 o5 o6 o7 c main_arg18 = m ((c : Thread nD τ).loc main_arg18) :=
  (W32_of m o0 o1 o2 o3 o4 o5 o6 o7 c main_arg18 (by decide)).trans <|
  (W31_of m o0 o1 o2 o3 o4 o5 o6 o7 c main_arg18 (by decide)).trans <|
  (W30_of m o0 o1 o2 o3 o4 o5 o6 c main_arg18 (by decide)).trans <|
  (W29_of m o0 o1 o2 o3 o4 o5 o6 c main_arg18 (by decide)).trans <|
  (W28_of m o0 o1 o2 o3 o4 o5 c main_arg18 (by decide)).trans <|
  (W27_of m o0 o1 o2 o3 o4 o5 c main_arg18 (by decide)).trans <|
  (W26_of m o0 o1 o2 o3 o4 c main_arg18 (by decide)).trans <|
  (W25_of m o0 o1 o2 o3 o4 c main_arg18 (by decide)).trans <|
  (W24_of m o0 o1 o2 o3 c main_arg18 (by decide)).trans <|
  (W23_of m o0 o1 o2 o3 c main_arg18 (by decide)).trans <|
  (W22_of m o0 o1 o2 c main_arg18 (by decide)).trans <|
  (W21_of m o0 o1 o2 c main_arg18 (by decide)).trans <|
  (W20_of m o0 o1 o2 c main_arg18 (by decide)).trans <|
  (W19_of m o0 o1 o2 c main_arg18 (by decide)).trans <|
  (W18_of m o0 o1 o2 c main_arg18 (by decide)).trans <|
  (W17_of m o0 o1 o2 c main_arg18 (by decide)).trans <|
  (W16_of m o0 o1 c main_arg18 (by decide)).trans <|
  (W15_of m o0 o1 c main_arg18 (by decide)).trans <|
  (W14_of m o0 o1 c main_arg18 (by decide)).trans <|
  (W13_of m o0 o1 c main_arg18 (by decide)).trans <|
  (W12_of m o0 o1 c main_arg18 (by decide)).trans <|
  (W11_of m o0 o1 c main_arg18 (by decide)).trans <|
  (W10_of m o0 c main_arg18 (by decide)).trans <|
  (W9_of m o0 c main_arg18 (by decide)).trans <|
  (W8_of m o0 c main_arg18 (by decide)).trans <|
  (W7_of m o0 c main_arg18 (by decide)).trans <|
  (W6_of m o0 c main_arg18 (by decide)).trans <|
  (W5_of m o0 c main_arg18 (by decide)).trans <|
  (W4_of m o0 c main_arg18 (by decide)).trans <|
  (W3_of m o0 c main_arg18 (by decide)).trans <|
  (W2_of m o0 c main_arg18 (by decide)).trans <|
  (W1_of m c main_arg18 (by decide)).trans rfl
/-- `main_arg19` reaches the end as launched. -/
theorem W32_main_arg19 (c : Dev nD) : W32 m o0 o1 o2 o3 o4 o5 o6 o7 c main_arg19 = m ((c : Thread nD τ).loc main_arg19) :=
  (W32_of m o0 o1 o2 o3 o4 o5 o6 o7 c main_arg19 (by decide)).trans <|
  (W31_of m o0 o1 o2 o3 o4 o5 o6 o7 c main_arg19 (by decide)).trans <|
  (W30_of m o0 o1 o2 o3 o4 o5 o6 c main_arg19 (by decide)).trans <|
  (W29_of m o0 o1 o2 o3 o4 o5 o6 c main_arg19 (by decide)).trans <|
  (W28_of m o0 o1 o2 o3 o4 o5 c main_arg19 (by decide)).trans <|
  (W27_of m o0 o1 o2 o3 o4 o5 c main_arg19 (by decide)).trans <|
  (W26_of m o0 o1 o2 o3 o4 c main_arg19 (by decide)).trans <|
  (W25_of m o0 o1 o2 o3 o4 c main_arg19 (by decide)).trans <|
  (W24_of m o0 o1 o2 o3 c main_arg19 (by decide)).trans <|
  (W23_of m o0 o1 o2 o3 c main_arg19 (by decide)).trans <|
  (W22_of m o0 o1 o2 c main_arg19 (by decide)).trans <|
  (W21_of m o0 o1 o2 c main_arg19 (by decide)).trans <|
  (W20_of m o0 o1 o2 c main_arg19 (by decide)).trans <|
  (W19_of m o0 o1 o2 c main_arg19 (by decide)).trans <|
  (W18_of m o0 o1 o2 c main_arg19 (by decide)).trans <|
  (W17_of m o0 o1 o2 c main_arg19 (by decide)).trans <|
  (W16_of m o0 o1 c main_arg19 (by decide)).trans <|
  (W15_of m o0 o1 c main_arg19 (by decide)).trans <|
  (W14_of m o0 o1 c main_arg19 (by decide)).trans <|
  (W13_of m o0 o1 c main_arg19 (by decide)).trans <|
  (W12_of m o0 o1 c main_arg19 (by decide)).trans <|
  (W11_of m o0 o1 c main_arg19 (by decide)).trans <|
  (W10_of m o0 c main_arg19 (by decide)).trans <|
  (W9_of m o0 c main_arg19 (by decide)).trans <|
  (W8_of m o0 c main_arg19 (by decide)).trans <|
  (W7_of m o0 c main_arg19 (by decide)).trans <|
  (W6_of m o0 c main_arg19 (by decide)).trans <|
  (W5_of m o0 c main_arg19 (by decide)).trans <|
  (W4_of m o0 c main_arg19 (by decide)).trans <|
  (W3_of m o0 c main_arg19 (by decide)).trans <|
  (W2_of m o0 c main_arg19 (by decide)).trans <|
  (W1_of m c main_arg19 (by decide)).trans rfl
/-- `main_arg20` reaches the end as launched. -/
theorem W32_main_arg20 (c : Dev nD) : W32 m o0 o1 o2 o3 o4 o5 o6 o7 c main_arg20 = m ((c : Thread nD τ).loc main_arg20) :=
  (W32_of m o0 o1 o2 o3 o4 o5 o6 o7 c main_arg20 (by decide)).trans <|
  (W31_of m o0 o1 o2 o3 o4 o5 o6 o7 c main_arg20 (by decide)).trans <|
  (W30_of m o0 o1 o2 o3 o4 o5 o6 c main_arg20 (by decide)).trans <|
  (W29_of m o0 o1 o2 o3 o4 o5 o6 c main_arg20 (by decide)).trans <|
  (W28_of m o0 o1 o2 o3 o4 o5 c main_arg20 (by decide)).trans <|
  (W27_of m o0 o1 o2 o3 o4 o5 c main_arg20 (by decide)).trans <|
  (W26_of m o0 o1 o2 o3 o4 c main_arg20 (by decide)).trans <|
  (W25_of m o0 o1 o2 o3 o4 c main_arg20 (by decide)).trans <|
  (W24_of m o0 o1 o2 o3 c main_arg20 (by decide)).trans <|
  (W23_of m o0 o1 o2 o3 c main_arg20 (by decide)).trans <|
  (W22_of m o0 o1 o2 c main_arg20 (by decide)).trans <|
  (W21_of m o0 o1 o2 c main_arg20 (by decide)).trans <|
  (W20_of m o0 o1 o2 c main_arg20 (by decide)).trans <|
  (W19_of m o0 o1 o2 c main_arg20 (by decide)).trans <|
  (W18_of m o0 o1 o2 c main_arg20 (by decide)).trans <|
  (W17_of m o0 o1 o2 c main_arg20 (by decide)).trans <|
  (W16_of m o0 o1 c main_arg20 (by decide)).trans <|
  (W15_of m o0 o1 c main_arg20 (by decide)).trans <|
  (W14_of m o0 o1 c main_arg20 (by decide)).trans <|
  (W13_of m o0 o1 c main_arg20 (by decide)).trans <|
  (W12_of m o0 o1 c main_arg20 (by decide)).trans <|
  (W11_of m o0 o1 c main_arg20 (by decide)).trans <|
  (W10_of m o0 c main_arg20 (by decide)).trans <|
  (W9_of m o0 c main_arg20 (by decide)).trans <|
  (W8_of m o0 c main_arg20 (by decide)).trans <|
  (W7_of m o0 c main_arg20 (by decide)).trans <|
  (W6_of m o0 c main_arg20 (by decide)).trans <|
  (W5_of m o0 c main_arg20 (by decide)).trans <|
  (W4_of m o0 c main_arg20 (by decide)).trans <|
  (W3_of m o0 c main_arg20 (by decide)).trans <|
  (W2_of m o0 c main_arg20 (by decide)).trans <|
  (W1_of m c main_arg20 (by decide)).trans rfl

end Cert.KernelIdeal.Hand

end
-- ==== Proof.KI.Common.lean ====
/-
  What the segments of all eight regions share: the (empty) prefetched tables, the family of every pipeline's
  proof data assembled from eight components, the level assignment (none: no core owes another anything), and
  the shape of the thread state — every unscoped buffer of the core at a valuation, beside a rider.
-/
import proofs.«175488_j3908420240157_2_alg».proof.Proof.Gen.KernelIdeal.Launch
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

/-- The prefetched tables' admissible contents: no pipeline has a table. -/
abbrev adm : (p : Fin 8) → (pcfgs (F := F) p).Adm := fun p => (cfgs p).toPCfg_adm

/-- Proof data of pipeline `p`, on every core. -/
abbrev DatAt (F : FTy → Type) [FloatOps F] (U : Type) [URA U] (p : Fin 8) : Type :=
  (c : Dev nD) → Dat τ (Elt F) Unit ℕ U ℕ (Pipeline.pin (pcfgs (F := F)) adm p) c

/-- Every pipeline's proof data from one component per pipeline — a literal match on the pipeline's index, so that
    the family at a numeral reduces to that component (and the pinned configuration there to the printed one). -/
def pdatsOf (d0 : DatAt F U 0) (d1 : DatAt F U 1) (d2 : DatAt F U 2) (d3 : DatAt F U 3) (d4 : DatAt F U 4) (d5 : DatAt F U 5)
    (d6 : DatAt F U 6) (d7 : DatAt F U 7) : (p : Fin 8) → DatAt F U p
  | ⟨0, _⟩ => d0
  | ⟨1, _⟩ => d1
  | ⟨2, _⟩ => d2
  | ⟨3, _⟩ => d3
  | ⟨4, _⟩ => d4
  | ⟨5, _⟩ => d5
  | ⟨6, _⟩ => d6
  | ⟨7, _⟩ => d7

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through a region: the certificate's own `R c`, and the core's dues at nothing. -/
abbrev rider (R : Dev nD → sProp 𝕄) (c : Dev nD) : sProp 𝕄 :=
  iprop(R c ∗ ∃ Wo, owes (c : Thread nD τ) (0 : CellTallies nD τ sig Unit) Wo)

/-- A valuation of the core's buffers read at the TensorCore's references: what a region's proof data take. -/
abbrev Vof (W : Dev nD → Valuation τ sig (Elt F)) : (c : Dev nD) → (b : Ref sig .tc) → Buf (Elt F) ((c : Thread nD τ).loc b) :=
  fun c b => W c b

end Cert.KernelIdeal.Hand

end
-- ==== Proof.KI.RunCond.lean ====
/-
  The run of the idealized kernel's @main over its eight kernel regions, GIVEN each region's record.
  @main is thirty-two items in order: twenty-four stretches of host operations and the eight regions. Between two items a
  core holds every unscoped buffer at the valuation the chain names for that point, beside a rest of the certificate's
  choosing. A host stretch moves the state from one valuation to its fold; a region is entered from the valuation before
  it and, by its record, left at the same valuation with its output array replaced. Composing the thirty-two steps from the
  launch memory, every execution ends with every unscoped buffer at the last valuation of the chain; since no item writes
  an argument of @main, each argument ends as launched.
-/
import proofs.«175488_j3908420240157_2_alg».proof.Proof.KI.Chain
import proofs.«175488_j3908420240157_2_alg».proof.Proof.KI.Common

set_option maxRecDepth 8192

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)
  (o0 : (c : Dev nD) → Buf (Elt F) ((c : Thread nD τ).loc main_v3))
  (o1 : (c : Dev nD) → Buf (Elt F) ((c : Thread nD τ).loc main_v65))
  (o2 : (c : Dev nD) → Buf (Elt F) ((c : Thread nD τ).loc main_v104))
  (o3 : (c : Dev nD) → Buf (Elt F) ((c : Thread nD τ).loc main_v142))
  (o4 : (c : Dev nD) → Buf (Elt F) ((c : Thread nD τ).loc main_v205))
  (o5 : (c : Dev nD) → Buf (Elt F) ((c : Thread nD τ).loc main_v228))
  (o6 : (c : Dev nD) → Buf (Elt F) ((c : Thread nD τ).loc main_v232))
  (o7 : (c : Dev nD) → Buf (Elt F) ((c : Thread nD τ).loc main_v295))

/-! ## The host stretches as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 9 → Dev nD → sProp (MT nD τ sig Ix (Elt F) ℕ U Lvl))

/-- Item 0: the stretch `hostOps0`, from the valuation before it, the rest `E 0` riding along. -/
def hseg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (E 0)
/-- Item 2: the stretch `hostOps1`, from the valuation before it, the rest `E 1` riding along. -/
def hseg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m o0) (E 1)
/-- Item 3: the stretch `hostOps1_1`, from the valuation before it, the rest `E 1` riding along. -/
def hseg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (W3 m o0) (E 1)
/-- Item 4: the stretch `hostOps1_2`, from the valuation before it, the rest `E 1` riding along. -/
def hseg4 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (W4 m o0) (E 1)
/-- Item 5: the stretch `hostOps1_3`, from the valuation before it, the rest `E 1` riding along. -/
def hseg5 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (W5 m o0) (E 1)
/-- Item 6: the stretch `hostOps1_4`, from the valuation before it, the rest `E 1` riding along. -/
def hseg6 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (W6 m o0) (E 1)
/-- Item 7: the stretch `hostOps1_5`, from the valuation before it, the rest `E 1` riding along. -/
def hseg7 : HostSeg (Ix := Ix) (Name := ℕ) (U := U) (Lvl := Lvl) (pcfgs (F := F)) defs₀ 𝒱₀ L lv :=
  HostSeg.ofOps _ _ _ _ _ (Pipeline.ucRefs τ sig) hostOps1_5
    (fun op h => Pipeline.sub_ucRefs op ((List.forall_iff_forall_mem.mp hostOps1_5_sub) op h))
    (fun op h => (List.forall_iff_forall_mem.mp hostOps1_5_fresh) op h) (W7 m o0) (E 1)
/-- Item 8: the stretch `hostOps1_6`, from the valuation before it, the rest `E 1` riding along. -/
def hseg8 : HostSeg (Ix := Ix) (Name := ℕ) (U := U) (Lvl := Lvl) (pcfgs (F := F)) defs₀ 𝒱₀ L lv :=
  HostSeg.ofOps _ _ _ _ _ (Pipeline.ucRefs τ sig) hostOps1_6
    (fun op h => Pipeline.sub_ucRefs op ((List.forall_iff_forall_mem.mp hostOps1_6_sub) op h))
    (fun op h => (List.forall_iff_forall_mem.mp hostOps1_6_fresh) op h) (W8 m o0) (E 1)
/-- Item 9: the stretch `hostOps1_7`, from the valuation before it, the rest `E 1` riding along. -/
def hseg9 : HostSeg (Ix := Ix) (Name := ℕ) (U := U) (Lvl := Lvl) (pcfgs (F := F)) defs₀ 𝒱₀ L lv :=
  HostSeg.ofOps _ _ _ _ _ (Pipeline.ucRefs τ sig) hostOps1_7
    (fun op h => Pipeline.sub_ucRefs op ((List.forall_iff_forall_mem.mp hostOps1_7_sub) op h))
    (fun op h => (List.forall_iff_forall_mem.mp hostOps1_7_fresh) op h) (W9 m o0) (E 1)
/-- Item 11: the stretch `hostOps2`, from the valuation before it, the rest `E 2` riding along. -/
def hseg11 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W11 m o0 o1) (E 2)
/-- Item 12: the stretch `hostOps2_1`, from the valuation before it, the rest `E 2` riding along. -/
def hseg12 : HostSeg (Ix := Ix) (Name := ℕ) (U := U) (Lvl := Lvl) (pcfgs (F := F)) defs₀ 𝒱₀ L lv :=
  HostSeg.ofOps _ _ _ _ _ (Pipeline.ucRefs τ sig) hostOps2_1
    (fun op h => Pipeline.sub_ucRefs op ((List.forall_iff_forall_mem.mp hostOps2_1_sub) op h))
    (fun op h => (List.forall_iff_forall_mem.mp hostOps2_1_fresh) op h) (W12 m o0 o1) (E 2)
/-- Item 13: the stretch `hostOps2_2`, from the valuation before it, the rest `E 2` riding along. -/
def hseg13 : HostSeg (Ix := Ix) (Name := ℕ) (U := U) (Lvl := Lvl) (pcfgs (F := F)) defs₀ 𝒱₀ L lv :=
  HostSeg.ofOps _ _ _ _ _ (Pipeline.ucRefs τ sig) hostOps2_2
    (fun op h => Pipeline.sub_ucRefs op ((List.forall_iff_forall_mem.mp hostOps2_2_sub) op h))
    (fun op h => (List.forall_iff_forall_mem.mp hostOps2_2_fresh) op h) (W13 m o0 o1) (E 2)
/-- Item 14: the stretch `hostOps2_3`, from the valuation before it, the rest `E 2` riding along. -/
def hseg14 : HostSeg (Ix := Ix) (Name := ℕ) (U := U) (Lvl := Lvl) (pcfgs (F := F)) defs₀ 𝒱₀ L lv :=
  HostSeg.ofOps _ _ _ _ _ (Pipeline.ucRefs τ sig) hostOps2_3
    (fun op h => Pipeline.sub_ucRefs op ((List.forall_iff_forall_mem.mp hostOps2_3_sub) op h))
    (fun op h => (List.forall_iff_forall_mem.mp hostOps2_3_fresh) op h) (W14 m o0 o1) (E 2)
/-- Item 15: the stretch `hostOps2_4`, from the valuation before it, the rest `E 2` riding along. -/
def hseg15 : HostSeg (Ix := Ix) (Name := ℕ) (U := U) (Lvl := Lvl) (pcfgs (F := F)) defs₀ 𝒱₀ L lv :=
  HostSeg.ofOps _ _ _ _ _ (Pipeline.ucRefs τ sig) hostOps2_4
    (fun op h => Pipeline.sub_ucRefs op ((List.forall_iff_forall_mem.mp hostOps2_4_sub) op h))
    (fun op h => (List.forall_iff_forall_mem.mp hostOps2_4_fresh) op h) (W15 m o0 o1) (E 2)
/-- Item 17: the stretch `hostOps3`, from the valuation before it, the rest `E 3` riding along. -/
def hseg17 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W17 m o0 o1 o2) (E 3)
/-- Item 18: the stretch `hostOps3_1`, from the valuation before it, the rest `E 3` riding along. -/
def hseg18 : HostSeg (Ix := Ix) (Name := ℕ) (U := U) (Lvl := Lvl) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (W18 m o0 o1 o2) (E 3)
/-- Item 19: the stretch `hostOps3_2`, from the valuation before it, the rest `E 3` riding along. -/
def hseg19 : HostSeg (Ix := Ix) (Name := ℕ) (U := U) (Lvl := Lvl) (pcfgs (F := F)) defs₀ 𝒱₀ L lv :=
  HostSeg.ofOps _ _ _ _ _ (Pipeline.ucRefs τ sig) hostOps3_2
    (fun op h => Pipeline.sub_ucRefs op ((List.forall_iff_forall_mem.mp hostOps3_2_sub) op h))
    (fun op h => (List.forall_iff_forall_mem.mp hostOps3_2_fresh) op h) (W19 m o0 o1 o2) (E 3)
/-- Item 20: the stretch `hostOps3_3`, from the valuation before it, the rest `E 3` riding along. -/
def hseg20 : HostSeg (Ix := Ix) (Name := ℕ) (U := U) (Lvl := Lvl) (pcfgs (F := F)) defs₀ 𝒱₀ L lv :=
  HostSeg.ofOps _ _ _ _ _ (Pipeline.ucRefs τ sig) hostOps3_3
    (fun op h => Pipeline.sub_ucRefs op ((List.forall_iff_forall_mem.mp hostOps3_3_sub) op h))
    (fun op h => (List.forall_iff_forall_mem.mp hostOps3_3_fresh) op h) (W20 m o0 o1 o2) (E 3)
/-- Item 21: the stretch `hostOps3_4`, from the valuation before it, the rest `E 3` riding along. -/
def hseg21 : HostSeg (Ix := Ix) (Name := ℕ) (U := U) (Lvl := Lvl) (pcfgs (F := F)) defs₀ 𝒱₀ L lv :=
  HostSeg.ofOps _ _ _ _ _ (Pipeline.ucRefs τ sig) hostOps3_4
    (fun op h => Pipeline.sub_ucRefs op ((List.forall_iff_forall_mem.mp hostOps3_4_sub) op h))
    (fun op h => (List.forall_iff_forall_mem.mp hostOps3_4_fresh) op h) (W21 m o0 o1 o2) (E 3)
/-- Item 23: the stretch `hostOps4`, from the valuation before it, the rest `E 4` riding along. -/
def hseg23 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W23 m o0 o1 o2 o3) (E 4)
/-- Item 25: the stretch `hostOps5`, from the valuation before it, the rest `E 5` riding along. -/
def hseg25 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (W25 m o0 o1 o2 o3 o4) (E 5)
/-- Item 27: the stretch `hostOps6`, from the valuation before it, the rest `E 6` riding along. -/
def hseg27 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (W27 m o0 o1 o2 o3 o4 o5) (E 6)
/-- Item 29: the stretch `hostOps7`, from the valuation before it, the rest `E 7` riding along. -/
def hseg29 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (W29 m o0 o1 o2 o3 o4 o5 o6) (E 7)
/-- Item 31: the stretch `hostOps8`, from the valuation before it, the rest `E 8` riding along. -/
def hseg31 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (W31 m o0 o1 o2 o3 o4 o5 o6 o7) (E 8)

end Segs

section

variable {Ix : Type} [DecidableEq Ix] {U : Type} [URA U] {Lvl : Type} [Preorder Lvl]

/-- @main's thirty-two items as segments (the same list on every core): the host stretches', and the regions' given records. -/
abbrev segs (𝒱₀ : Variants) (L : GSem nD τ sig → Finset Ix) (lv : GSem nD τ sig → Ix → Lvl) (E : Fin 9 → Dev nD → sProp (MT nD τ sig Ix (Elt F) ℕ U Lvl)) (ι : Ix)
    (pdats : (p : Fin 8) → (c : Dev nD) → Dat τ (Elt F) Ix ℕ U Lvl (cfgs p) c)
    (R0 : RegionSeg (pcfgs (F := F)) adm pdats ι defs₀ 𝒱₀ L lv 0)
    (R1 : RegionSeg (pcfgs (F := F)) adm pdats ι defs₀ 𝒱₀ L lv 1)
    (R2 : RegionSeg (pcfgs (F := F)) adm pdats ι defs₀ 𝒱₀ L lv 2)
    (R3 : RegionSeg (pcfgs (F := F)) adm pdats ι defs₀ 𝒱₀ L lv 3)
    (R4 : RegionSeg (pcfgs (F := F)) adm pdats ι defs₀ 𝒱₀ L lv 4)
    (R5 : RegionSeg (pcfgs (F := F)) adm pdats ι defs₀ 𝒱₀ L lv 5)
    (R6 : RegionSeg (pcfgs (F := F)) adm pdats ι defs₀ 𝒱₀ L lv 6)
    (R7 : RegionSeg (pcfgs (F := F)) adm pdats ι defs₀ 𝒱₀ L lv 7) (c : Dev nD) :
    List (Seg (pcfgs (F := F)) adm pdats ι defs₀ 𝒱₀ L lv) :=
  [ .host (hseg0 m 𝒱₀ L lv E),
    .region R0,
    .host (hseg2 m o0 𝒱₀ L lv E),
    .host (hseg3 m o0 𝒱₀ L lv E),
    .host (hseg4 m o0 𝒱₀ L lv E),
    .host (hseg5 m o0 𝒱₀ L lv E),
    .host (hseg6 m o0 𝒱₀ L lv E),
    .host (hseg7 m o0 𝒱₀ L lv E),
    .host (hseg8 m o0 𝒱₀ L lv E),
    .host (hseg9 m o0 𝒱₀ L lv E),
    .region R1,
    .host (hseg11 m o0 o1 𝒱₀ L lv E),
    .host (hseg12 m o0 o1 𝒱₀ L lv E),
    .host (hseg13 m o0 o1 𝒱₀ L lv E),
    .host (hseg14 m o0 o1 𝒱₀ L lv E),
    .host (hseg15 m o0 o1 𝒱₀ L lv E),
    .region R2,
    .host (hseg17 m o0 o1 o2 𝒱₀ L lv E),
    .host (hseg18 m o0 o1 o2 𝒱₀ L lv E),
    .host (hseg19 m o0 o1 o2 𝒱₀ L lv E),
    .host (hseg20 m o0 o1 o2 𝒱₀ L lv E),
    .host (hseg21 m o0 o1 o2 𝒱₀ L lv E),
    .region R3,
    .host (hseg23 m o0 o1 o2 o3 𝒱₀ L lv E),
    .region R4,
    .host (hseg25 m o0 o1 o2 o3 o4 𝒱₀ L lv E),
    .region R5,
    .host (hseg27 m o0 o1 o2 o3 o4 o5 𝒱₀ L lv E),
    .region R6,
    .host (hseg29 m o0 o1 o2 o3 o4 o5 o6 𝒱₀ L lv E),
    .region R7,
    .host (hseg31 m o0 o1 o2 o3 o4 o5 o6 o7 𝒱₀ L lv E) ]

end

/-! ## The run, given the regions' records -/

-- the launch theorem's implicit arguments are found by unifying its conclusion with this one, which takes unfolding
-- plain definitions in a metavariable's type
set_option backward.isDefEq.respectTransparency.types false in
/-- For any user algebra, level assignment, launch dues and ghost resources, any rests `E` the launch makes on every core at
    once (`hE0`) and that end owing nothing (`hE8`), any contents `o0 … o7` and any proof data: GIVEN for each region a
    record entered from this module's state before it and left at the one after it, every weakly fair execution of @main from
    memory `m` with zero counters terminates, and in every final memory every unscoped buffer holds what the chain's last
    valuation says. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (W1 m c) ∗ E 0 c) ⊢ R0.pre c)
    (hpost0 : ∀ c : Dev nD, R0.post c ⊢ iprop(StableHlo.held (c : Thread nD τ) (Pipeline.ucRefs τ sig) (W2 m o0 c) ∗ E 1 c))
    (R1 : RegionSeg (pcfgs (F := F)) adm pdats ι defs₀ 𝒱₀ L lv 1)
    (hpre1 : ∀ c : Dev nD, iprop(StableHlo.held (c : Thread nD τ) (Pipeline.ucRefs τ sig) (W10 m o0 c) ∗ E 1 c) ⊢ R1.pre c)
    (hpost1 : ∀ c : Dev nD, R1.post c ⊢ iprop(StableHlo.held (c : Thread nD τ) (Pipeline.ucRefs τ sig) (W11 m o0 o1 c) ∗ E 2 c))
    (R2 : RegionSeg (pcfgs (F := F)) adm pdats ι defs₀ 𝒱₀ L lv 2)
    (hpre2 : ∀ c : Dev nD, iprop(StableHlo.held (c : Thread nD τ) (Pipeline.ucRefs τ sig) (W16 m o0 o1 c) ∗ E 2 c) ⊢ R2.pre c)
    (hpost2 : ∀ c : Dev nD, R2.post c ⊢ iprop(StableHlo.held (c : Thread nD τ) (Pipeline.ucRefs τ sig) (W17 m o0 o1 o2 c) ∗ E 3 c))
    (R3 : RegionSeg (pcfgs (F := F)) adm pdats ι defs₀ 𝒱₀ L lv 3)
    (hpre3 : ∀ c : Dev nD, iprop(StableHlo.held (c : Thread nD τ) (Pipeline.ucRefs τ sig) (W22 m o0 o1 o2 c) ∗ E 3 c) ⊢ R3.pre c)
    (hpost3 : ∀ c : Dev nD, R3.post c ⊢ iprop(StableHlo.held (c : Thread nD τ) (Pipeline.ucRefs τ sig) (W23 m o0 o1 o2 o3 c) ∗ E 4 c))
    (R4 : RegionSeg (pcfgs (F := F)) adm pdats ι defs₀ 𝒱₀ L lv 4)
    (hpre4 : ∀ c : Dev nD, iprop(StableHlo.held (c : Thread nD τ) (Pipeline.ucRefs τ sig) (W24 m o0 o1 o2 o3 c) ∗ E 4 c) ⊢ R4.pre c)
    (hpost4 : ∀ c : Dev nD, R4.post c ⊢ iprop(StableHlo.held (c : Thread nD τ) (Pipeline.ucRefs τ sig) (W25 m o0 o1 o2 o3 o4 c) ∗ E 5 c))
    (R5 : RegionSeg (pcfgs (F := F)) adm pdats ι defs₀ 𝒱₀ L lv 5)
    (hpre5 : ∀ c : Dev nD, iprop(StableHlo.held (c : Thread nD τ) (Pipeline.ucRefs τ sig) (W26 m o0 o1 o2 o3 o4 c) ∗ E 5 c) ⊢ R5.pre c)
    (hpost5 : ∀ c : Dev nD, R5.post c ⊢ iprop(StableHlo.held (c : Thread nD τ) (Pipeline.ucRefs τ sig) (W27 m o0 o1 o2 o3 o4 o5 c) ∗ E 6 c))
    (R6 : RegionSeg (pcfgs (F := F)) adm pdats ι defs₀ 𝒱₀ L lv 6)
    (hpre6 : ∀ c : Dev nD, iprop(StableHlo.held (c : Thread nD τ) (Pipeline.ucRefs τ sig) (W28 m o0 o1 o2 o3 o4 o5 c) ∗ E 6 c) ⊢ R6.pre c)
    (hpost6 : ∀ c : Dev nD, R6.post c ⊢ iprop(StableHlo.held (c : Thread nD τ) (Pipeline.ucRefs τ sig) (W29 m o0 o1 o2 o3 o4 o5 o6 c) ∗ E 7 c))
    (R7 : RegionSeg (pcfgs (F := F)) adm pdats ι defs₀ 𝒱₀ L lv 7)
    (hpre7 : ∀ c : Dev nD, iprop(StableHlo.held (c : Thread nD τ) (Pipeline.ucRefs τ sig) (W30 m o0 o1 o2 o3 o4 o5 o6 c) ∗ E 7 c) ⊢ R7.pre c)
    (hpost7 : ∀ c : Dev nD, R7.post c ⊢ iprop(StableHlo.held (c : Thread nD τ) (Pipeline.ucRefs τ sig) (W31 m o0 o1 o2 o3 o4 o5 o6 o7 c) ∗ E 8 c)) :
    θ_run defs (onTc (τ := τ) (main (F := F))) ⟨m, fun _ => 0, ρ⟩ (fun r => ∀ c : Dev nD, ∀ b : Ref sig .tc,
      (Proc.devRef .tc b : DevRef τ sig) ∈ Pipeline.ucRefs τ sig → r.2.mem ((c.tc : Thread nD τ).loc b) = W32 m o0 o1 o2 o3 o4 o5 o6 o7 c b) := by
  refine Pipeline.θ_run_regions_kit_dev (pcfgs (F := F)) adm pdats ι cellOf_inj EP defs₀ 𝒱₀ L lv m ρ main
    (segs m o0 o1 o2 o3 o4 o5 o6 o7 𝒱₀ L lv E ι pdats R0 R1 R2 R3 R4 R5 R6 R7)
    (fun c Q => by
      rewrite [main_chain c, Seg.run_eq_chain,
        show (segs m o0 o1 o2 o3 o4 o5 o6 o7 𝒱₀ L lv E ι pdats R0 R1 R2 R3 R4 R5 R6 R7 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (W0 m c) ∗ E 0 c))
    (Tₙ := fun c => StableHlo.held (c : Thread nD τ) (Pipeline.ucRefs τ sig) (W32 m o0 o1 o2 o3 o4 o5 o6 o7 c))
    (hch := fun c => ⟨.rfl, hpre0 c, hpost0 c, .rfl, .rfl, .rfl, .rfl, .rfl, .rfl, .rfl, hpre1 c, hpost1 c, .rfl, .rfl, .rfl, .rfl, hpre2 c, hpost2 c, .rfl, .rfl, .rfl, .rfl, hpre3 c, hpost3 c, hpre4 c, hpost4 c, hpre5 c, hpost5 c, hpre6 c, hpost6 c, hpre7 c, hpost7 c, sep_mono .rfl (hE8 c)⟩)
    (hinit := ?_)
    (QY := fun c s => ∀ b : Ref sig .tc, (Proc.devRef .tc b : DevRef τ sig) ∈ Pipeline.ucRefs τ sig → s.mem ((c.tc : Thread nD τ).loc b) = W32 m o0 o1 o2 o3 o4 o5 o6 o7 c b)
    (hfin := fun c s' => ?_) (hQ := fun _ h => h)
  · -- the launch: the unscoped buffers are held at the launch valuation; what else the launch deals makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (W0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (W0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (W32 m o0 o1 o2 o3 o4 o5 o6 o7 c) s') $$ [Hh HSI]
    · isplitl [Hh] <;> iassumption
    icases Hr with ⟨%h, HSI⟩
    imodintro
    isplitr
    · ipureintro
      exact fun b hb => h (Proc.devRef .tc b) hb
    · iexact HSI

/-- The arguments read off a final memory that holds every unscoped buffer at the chain's last valuation: each is as launched. -/
theorem args_kept (s : MemSt nD τ sig (Elt F))
    (h : ∀ c : Dev nD, ∀ b : Ref sig .tc, (Proc.devRef .tc b : DevRef τ sig) ∈ Pipeline.ucRefs τ sig → s.mem ((c.tc : Thread nD τ).loc b) = W32 m o0 o1 o2 o3 o4 o5 o6 o7 c b)
    (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18)
    ∧ s.mem ((c.tc : Thread nD τ).loc main_arg19) = m ((c.tc : Thread nD τ).loc main_arg19)
    ∧ s.mem ((c.tc : Thread nD τ).loc main_arg20) = m ((c.tc : Thread nD τ).loc main_arg20) :=
  ⟨(h c main_arg0 (Finset.mem_filter.mpr ⟨StableHlo.devRef_mem_tcRefs main_arg0, by decide⟩)).trans (W32_main_arg0 m o0 o1 o2 o3 o4 o5 o6 o7 c),
   (h c main_arg1 (Finset.mem_filter.mpr ⟨StableHlo.devRef_mem_tcRefs main_arg1, by decide⟩)).trans (W32_main_arg1 m o0 o1 o2 o3 o4 o5 o6 o7 c),
   (h c main_arg2 (Finset.mem_filter.mpr ⟨StableHlo.devRef_mem_tcRefs main_arg2, by decide⟩)).trans (W32_main_arg2 m o0 o1 o2 o3 o4 o5 o6 o7 c),
   (h c main_arg3 (Finset.mem_filter.mpr ⟨StableHlo.devRef_mem_tcRefs main_arg3, by decide⟩)).trans (W32_main_arg3 m o0 o1 o2 o3 o4 o5 o6 o7 c),
   (h c main_arg4 (Finset.mem_filter.mpr ⟨StableHlo.devRef_mem_tcRefs main_arg4, by decide⟩)).trans (W32_main_arg4 m o0 o1 o2 o3 o4 o5 o6 o7 c),
   (h c main_arg5 (Finset.mem_filter.mpr ⟨StableHlo.devRef_mem_tcRefs main_arg5, by decide⟩)).trans (W32_main_arg5 m o0 o1 o2 o3 o4 o5 o6 o7 c),
   (h c main_arg6 (Finset.mem_filter.mpr ⟨StableHlo.devRef_mem_tcRefs main_arg6, by decide⟩)).trans (W32_main_arg6 m o0 o1 o2 o3 o4 o5 o6 o7 c),
   (h c main_arg7 (Finset.mem_filter.mpr ⟨StableHlo.devRef_mem_tcRefs main_arg7, by decide⟩)).trans (W32_main_arg7 m o0 o1 o2 o3 o4 o5 o6 o7 c),
   (h c main_arg8 (Finset.mem_filter.mpr ⟨StableHlo.devRef_mem_tcRefs main_arg8, by decide⟩)).trans (W32_main_arg8 m o0 o1 o2 o3 o4 o5 o6 o7 c),
   (h c main_arg9 (Finset.mem_filter.mpr ⟨StableHlo.devRef_mem_tcRefs main_arg9, by decide⟩)).trans (W32_main_arg9 m o0 o1 o2 o3 o4 o5 o6 o7 c),
   (h c main_arg10 (Finset.mem_filter.mpr ⟨StableHlo.devRef_mem_tcRefs main_arg10, by decide⟩)).trans (W32_main_arg10 m o0 o1 o2 o3 o4 o5 o6 o7 c),
   (h c main_arg11 (Finset.mem_filter.mpr ⟨StableHlo.devRef_mem_tcRefs main_arg11, by decide⟩)).trans (W32_main_arg11 m o0 o1 o2 o3 o4 o5 o6 o7 c),
   (h c main_arg12 (Finset.mem_filter.mpr ⟨StableHlo.devRef_mem_tcRefs main_arg12, by decide⟩)).trans (W32_main_arg12 m o0 o1 o2 o3 o4 o5 o6 o7 c),
   (h c main_arg13 (Finset.mem_filter.mpr ⟨StableHlo.devRef_mem_tcRefs main_arg13, by decide⟩)).trans (W32_main_arg13 m o0 o1 o2 o3 o4 o5 o6 o7 c),
   (h c main_arg14 (Finset.mem_filter.mpr ⟨StableHlo.devRef_mem_tcRefs main_arg14, by decide⟩)).trans (W32_main_arg14 m o0 o1 o2 o3 o4 o5 o6 o7 c),
   (h c main_arg15 (Finset.mem_filter.mpr ⟨StableHlo.devRef_mem_tcRefs main_arg15, by decide⟩)).trans (W32_main_arg15 m o0 o1 o2 o3 o4 o5 o6 o7 c),
   (h c main_arg16 (Finset.mem_filter.mpr ⟨StableHlo.devRef_mem_tcRefs main_arg16, by decide⟩)).trans (W32_main_arg16 m o0 o1 o2 o3 o4 o5 o6 o7 c),
   (h c main_arg17 (Finset.mem_filter.mpr ⟨StableHlo.devRef_mem_tcRefs main_arg17, by decide⟩)).trans (W32_main_arg17 m o0 o1 o2 o3 o4 o5 o6 o7 c),
   (h c main_arg18 (Finset.mem_filter.mpr ⟨StableHlo.devRef_mem_tcRefs main_arg18, by decide⟩)).trans (W32_main_arg18 m o0 o1 o2 o3 o4 o5 o6 o7 c),
   (h c main_arg19 (Finset.mem_filter.mpr ⟨StableHlo.devRef_mem_tcRefs main_arg19, by decide⟩)).trans (W32_main_arg19 m o0 o1 o2 o3 o4 o5 o6 o7 c),
   (h c main_arg20 (Finset.mem_filter.mpr ⟨StableHlo.devRef_mem_tcRefs main_arg20, by decide⟩)).trans (W32_main_arg20 m o0 o1 o2 o3 o4 o5 o6 o7 c)⟩

end Cert.KernelIdeal.Hand

end
-- ==== Proof.KI.Body0.lean ====
/-
  Region 0 of the program (the tiled matmul kernel of custom_call 0, pipeline 0): what ONE point of its grid does.

  The kernel's body at a point loads the three input windows' staging buffers whole (a 2000-row block of x, the
  whole weight matrix, the bias row), loads the output window's staging buffer (a read whose value is never used),
  and stores ONE value over the whole output staging buffer: the payload `k0_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.KernelIdeal.Launch
import proofs.«175488_j3908420240157_2_alg».proof.Proof.Gen.KernelIdeal.Skeleton
import proofs.«175488_j3908420240157_2_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not (a window
    whose block index does not move is fetched once and then left in place): for any proof data whose array is `V`'s
    and whose body leaves the block where it was. Window 0, the block of x. -/
theorem before0_0_of {c : Dev nD} (dat : Dat τ (Elt F) Unit ℕ U ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1, the weight matrix (one block, fetched at the first point only). -/
theorem before0_1_of {c : Dev nD} (dat : Dat τ (Elt F) Unit ℕ U ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2, the bias row (one block, fetched at the first point only). -/
theorem before0_2_of {c : Dev nD} (dat : Dat τ (Elt F) Unit ℕ U ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is the whole staging buffer -/

abbrev rX0 : Rect S2000x512 := Rect.unit (s := S2000x512) ![0, 0] S2000x512.size inb_S2000x512_S2000x512_0_0
abbrev rW0 : Rect S512x1024 := Rect.unit (s := S512x1024) ![0, 0] S512x1024.size inb_S512x1024_S512x1024_0_0
abbrev rB0 : Rect S1x1024 := Rect.unit (s := S1x1024) ![0, 0] S1x1024.size inb_S1x1024_S1x1024_0_0
abbrev rO0 : Rect S2000x1024 := Rect.unit (s := S2000x1024) ![0, 0] S2000x1024.size inb_S2000x1024_S2000x1024_0_0

/-! ## What the body leaves in the output window's buffer -/

/-- The output window's staging buffer after the body, from the three input blocks: the canonical contents of its
    one store, whose value is the payload of the three loads. -/
def out0_3 (x0 : Vec F S2000x512 .f32) (x1 : Vec F S512x1024 .f32) (x2 : Vec F S1x1024 .f32) : Vec F S2000x1024 .f32 :=
  View.canon [⟨rO0, k0_pay1 (View.ld x0 rX0) (View.ld x1 rW0) (View.ld x2 rB0)⟩]

/-- The one store is of the whole buffer, so it covers it. -/
theorem cover0_3 (p0 : Vec F S2000x1024 .f32) (y : S2000x1024.Idx) :
    ∃ pc ∈ ([⟨rO0, p0⟩] : List (View.Piece (Elt F) S2000x1024 .f32)), y ∈ pc.1.set :=
  View.cover_of_tiled [⟨rO0, p0⟩] S2000x1024.size (by rfl) y

/-! ## The body's triple -/

set_option maxHeartbeats 1000000 in
/-- The kernel body on whole staging memrefs — the inputs' at read contents `x0 x1 x2`, the output's at anything —
    runs to its return with the inputs' as they were and the output's at `out0_3` of them. -/
theorem sound_kernel0 (c : Dev nD) (E : Set ℕ) (i : grid0.Coords)
    (arg1 : Memref sig .tc .vmem S2000x512 .f32) (harg1 : arg1.IsWhole) (arg2 : Memref sig .tc .vmem S512x1024 .f32) (harg2 : arg2.IsWhole)
    (arg3 : Memref sig .tc .vmem S1x1024 .f32) (harg3 : arg3.IsWhole) (arg4 : Memref sig .tc .vmem S2000x1024 .f32) (harg4 : arg4.IsWhole)
    (x0 : Vec F S2000x512 .f32) (x1 : Vec F S512x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The invariant between the region's ends: the core's scoped buffers that no window of this pipeline stages (the
    other kernels' staging and scratch buffers), held at some contents — the body touches none of them. -/
abbrev Φ0 (c : Dev nD) : sProp 𝕄 := Pipeline.scopedRest (Ix := Unit) (Name := ℕ) (U := U) (Lvl := ℕ) (Val := Elt F) spec0 c

/-- The proof data of pipeline 0 on core `c`, from the entry valuation `V`: the four arrays as the region finds
    them; after the body at point `t` each input's buffer at its block and the output's at `out0_3` of the three input
    blocks at `t`; the invariant `Φ0`; nothing owed; full shares. -/
def dat0 (c : Dev nD) : Dat τ (Elt F) Unit ℕ U ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Φ0 c
  q _ := fullShare
  owed _ := 0

/-- The proof data's arrays are the entry contents. -/
theorem A_eq0 (c : Dev nD) (w : Fin cfg0.W) : (dat0 (U := U) V c).A w = V c (Pipeline.arrRef spec0 w) := by
  dsimp only [dat0]

/-- What the body leaves, window by window. -/
theorem after0_0 (c : Dev nD) (t : Fin cfg0.N) : (dat0 (U := U) V c).after 0 t = iblk0 V c 0 t := by dsimp only [dat0]
theorem after0_1 (c : Dev nD) (t : Fin cfg0.N) : (dat0 (U := U) V c).after 1 t = iblk0 V c 1 t := by dsimp only [dat0]
theorem after0_2 (c : Dev nD) (t : Fin cfg0.N) : (dat0 (U := U) V c).after 2 t = iblk0 V c 2 t := by dsimp only [dat0]
theorem after0_3 (c : Dev nD) (t : Fin cfg0.N) :
    (dat0 (U := U) V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 (U := U) V c).before 0 t d = iblk0 V c 0 t :=
  before0_0_of V (dat0 V c) (A_eq0 V c 0) (after0_0 V c) t d
theorem before0_1 (c : Dev nD) (t : Fin cfg0.N) (d) : (dat0 (U := U) V c).before 1 t d = iblk0 V c 1 t :=
  before0_1_of V (dat0 V c) (A_eq0 V c 1) (after0_1 V c) t d
theorem before0_2 (c : Dev nD) (t : Fin cfg0.N) (d) : (dat0 (U := U) V c).before 2 t d = iblk0 V c 2 t :=
  before0_2_of V (dat0 V c) (A_eq0 V c 2) (after0_2 V c) t d

/-! ## The body obligation, at a generic point -/

/-- What the body is called with at point `t`: the invariant, the core's dues, and the four current staging buffers
    (each input at its block; the output at whatever the pipeline left there). -/
def bodyPre0 (c : Dev nD) (t : Fin cfg0.N) : sProp 𝕄 :=
  iprop((dat0 (U := U) V c).Φ t.castSucc ∗ (dat0 (U := U) V c).owesAt () t.castSucc
    ∗ (∃ d, owns (c : Thread nD τ) (st0_0 t) fullShare ((dat0 (U := U) V c).before 0 t d))
    ∗ (∃ d, owns (c : Thread nD τ) (st0_1 t) fullShare ((dat0 (U := U) V c).before 1 t d))
    ∗ (∃ d, owns (c : Thread nD τ) (st0_2 t) fullShare ((dat0 (U := U) V c).before 2 t d))
    ∗ (∃ d, owns (c : Thread nD τ) (st0_3 t) fullShare ((dat0 (U := U) V c).before 3 t d)))

/-- What it returns. -/
def bodyPost0 (c : Dev nD) (t : Fin cfg0.N) : sProp 𝕄 :=
  iprop((dat0 (U := U) V c).Φ t.succ ∗ (dat0 (U := U) V c).owesAt () t.succ
    ∗ owns (c : Thread nD τ) (st0_0 t) fullShare ((dat0 (U := U) V c).after 0 t)
    ∗ owns (c : Thread nD τ) (st0_1 t) fullShare ((dat0 (U := U) V c).after 1 t)
    ∗ owns (c : Thread nD τ) (st0_2 t) fullShare ((dat0 (U := U) V c).after 2 t)
    ∗ owns (c : Thread nD τ) (st0_3 t) fullShare ((dat0 (U := U) V c).after 3 t))

/-- The body at any point: the inputs' memrefs hold their blocks, so `sound_kernel0` applies; the invariant and the
    core's dues pass through untouched; the output buffer's prior contents are not needed. -/
theorem sound_body0 (c : Dev nD) (t : Fin cfg0.N) :
    bodyPre0 (U := U) V c t ⊢ wp frame (wpE (defs₀ (F := F)) Variants.none c none) Set.univ (bodyAt0 t) (fun _ => bodyPost0 (U := U) V c t) := by
  unfold bodyPre0 bodyPost0 bodyAt0
  simp only [before0_0, before0_1, before0_2]
  rw [show (dat0 (U := U) V c).Φ t.succ = (dat0 (U := U) V c).Φ t.castSucc from rfl,
    show (dat0 (U := U) V c).owesAt () t.succ = (dat0 (U := U) V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) (U := U) V c) (defs₀ (F := F)) Variants.none () Set.univ := fun t => by
  rw [bigSep_W0, bigSep_W0]
  exact sound_body0 V c t

/-- info: 'Cert.KernelIdeal.Hand.body_obligation0' depends on axioms: [propext, Classical.choice, Quot.sound] -/
#guard_msgs in #print axioms body_obligation0

end Cert.KernelIdeal.Hand

end
-- ==== Proof.KI.Seg0.lean ====
/-
  Region 0 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin0`: the fold of its five blocks'
  write-backs) and every other buffer as entered; `Wout0` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.KI.Body0
import proofs.«175488_j3908420240157_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 0's at the entry valuation and the other seven as given. -/
abbrev fam0 (d1 : DatAt F U 1) (d2 : DatAt F U 2) (d3 : DatAt F U 3) (d4 : DatAt F U 4) (d5 : DatAt F U 5) (d6 : DatAt F U 6) (d7 : DatAt F U 7) : (p : Fin 8) → DatAt F U p :=
  pdatsOf (fun c => dat0 (Vof Wpre) c) d1 d2 d3 d4 d5 d6 d7

/-- The output window's array after the region, as the library computes it: the write-backs of the body's results
    folded over the grid. -/
def fin0 (c : Dev nD) : Buf (Elt F) ((c : Thread nD τ).loc main_v3) := (dat0 (U := U) (Vof Wpre) c).arrAt 3 cfg0.N

/-- The pipeline's arrays are four distinct buffers; the output's is the last. -/
theorem arrRef0_ne_out : ∀ w : Fin cfg0.W, w ≠ 3 → Pipeline.arrRef spec0 w ≠ main_v3 := by decide
/-- Every window but the last is an input. -/
theorem win0_in : ∀ w : Fin cfg0.W, w ≠ 3 → (cfg0.win w).isOut = false := by decide

-- `iapply` of a library lemma stated over the pinned configuration unifies with the printed one only when unification
-- may unfold plain definitions in a metavariable's type
set_option backward.isDefEq.respectTransparency.types false in
/-- REGION 0 over the thread state: entered from every unscoped buffer at `Wpre c` beside the rider, left at
    `Wpost c` beside the same rider, for any `Wpost` that has the output array at `fin0` and agrees with `Wpre` off it —
    stated over the family with the other seven pipelines' proof data arbitrary. -/
def seg0 (d1 : DatAt F U 1) (d2 : DatAt F U 2) (d3 : DatAt F U 3) (d4 : DatAt F U 4) (d5 : DatAt F U 5) (d6 : DatAt F U 6) (d7 : DatAt F U 7) (R : Dev nD → sProp 𝕄) (hout : ∀ c, Vof Wpost c main_v3 = fin0 (U := U) Wpre c)
    (hne : ∀ c (b : Ref sig .tc), b ≠ main_v3 → Vof Wpost c b = Vof Wpre c b) :
    Pipeline.RegionSeg (pcfgs (F := F)) adm (fam0 Wpre d1 d2 d3 d4 d5 d6 d7) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vof Wpre) c).loose
  hwaits := Pipeline.hwaits_of_owed_zero _ _ _ _ L lv 0 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec0 c (Vof Wpre c) ∗ R c)
  hentry c := by
    rw [Pipeline.ownSems0_none]
    have hsplit := Pipeline.arrays_of_unscopedBufs (p := 0) (pcfgs (F := F)) adm (fam0 Wpre d1 d2 d3 d4 d5 d6 d7) launch0.win launch0.arr_whole c
      ((fam0 Wpre d1 d2 d3 d4 d5 d6 d7 0 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam0 Wpre d1 d2 d3 d4 d5 d6 d7 0 c).Φ 0 = Φ0 c from rfl]
    iintro ⟨-, -, Hr⟩; iexact Hr
  hout c := by
    rw [Pipeline.ownSems0_none, show (fam0 Wpre d1 d2 d3 d4 d5 d6 d7 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := Unit) (Name := ℕ) (U := U) (Lvl := ℕ)
      launch0.win launch0.arr_whole c (fam0 Wpre d1 d2 d3 d4 d5 d6 d7) ((fam0 Wpre d1 d2 d3 d4 d5 d6 d7 0 c).share_full fun _ => rfl)
      (Vof Wpre c) (Vof Wpost c) ((fam0 Wpre d1 d2 d3 d4 d5 d6 d7 0 c).arrAt · cfg0.N)
      (fun w => by
        by_cases hw : w = 3
        · subst hw; exact (hout c).symm
        · exact ((fam0 Wpre d1 d2 d3 d4 d5 d6 d7 0 c).arrAt_in w (win0_in w hw) _).trans (hne c _ (arrRef0_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.KernelIdeal.Hand.seg0' depends on axioms: [propext, Classical.choice, Quot.sound] -/
#guard_msgs in #print axioms seg0

/-! ## The canonical exit valuation -/

/-- The entry valuation with pipeline 0's arrays at what its write-backs leave. -/
def Wout0 (c : Dev nD) : Valuation τ sig (Elt F) :=
  Pipeline.withArrays spec0 c (Wpre c) fun w => (dat0 (U := U) (Vof Wpre) c).arrAt w cfg0.N

/-- It has the output array at `fin0`, -/
theorem Wout0_out (c : Dev nD) : Vof (Wout0 (U := U) Wpre) c main_v3 = fin0 (U := U) Wpre c := by
  unfold Wout0 fin0; exact Pipeline.withArrays_arr spec0 launch0.win.arr_inj c _ _ 3
/-- and every other buffer as entered (an input window's array is written back as it was read). -/
theorem Wout0_ne (c : Dev nD) (b : Ref sig .tc) (hb : b ≠ main_v3) : Vof (Wout0 (U := U) Wpre) c b = Vof Wpre c b := by
  by_cases h : ∃ w, Pipeline.arrRef spec0 w = b
  · obtain ⟨w, rfl⟩ := h
    have hw : w ≠ 3 := fun e => hb (e ▸ rfl)
    unfold Wout0
    exact (Pipeline.withArrays_arr spec0 launch0.win.arr_inj c _ _ w).trans ((dat0 (U := U) (Vof Wpre) c).arrAt_in w (win0_in w hw) _)
  · unfold Wout0; exact Pipeline.withArrays_of_ne spec0 c _ _ b fun w e => h ⟨w, e⟩

end Cert.KernelIdeal.Hand

end
-- ==== Proof.KI.Body1.lean ====
/-
  Region 1 of the program (the tiled matmul kernel of custom_call 1, pipeline 1): what ONE point of its grid does.

  The kernel's body at a point loads the three input windows' staging buffers whole (a 2000-row block of x, the
  whole weight matrix, the bias row), loads the output window's staging buffer (a read whose value is never used),
  and stores ONE value over the whole output staging buffer: the payload `k1_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.KernelIdeal.Launch
import proofs.«175488_j3908420240157_2_alg».proof.Proof.Gen.KernelIdeal.Skeleton
import proofs.«175488_j3908420240157_2_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not (a window
    whose block index does not move is fetched once and then left in place): for any proof data whose array is `V`'s
    and whose body leaves the block where it was. Window 0, the block of x. -/
theorem before1_0_of {c : Dev nD} (dat : Dat τ (Elt F) Unit ℕ U ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1, the weight matrix (one block, fetched at the first point only). -/
theorem before1_1_of {c : Dev nD} (dat : Dat τ (Elt F) Unit ℕ U ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2, the bias row (one block, fetched at the first point only). -/
theorem before1_2_of {c : Dev nD} (dat : Dat τ (Elt F) Unit ℕ U ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one is the whole staging buffer -/

abbrev rX1 : Rect S2000x512 := Rect.unit (s := S2000x512) ![0, 0] S2000x512.size inb_S2000x512_S2000x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rO1 : Rect S2000x256 := Rect.unit (s := S2000x256) ![0, 0] S2000x256.size inb_S2000x256_S2000x256_0_0

/-! ## What the body leaves in the output window's buffer -/

/-- The output window's staging buffer after the body, from the three input blocks: the canonical contents of its
    one store, whose value is the payload of the three loads. -/
def out1_3 (x0 : Vec F S2000x512 .f32) (x1 : Vec F S512x256 .f32) (x2 : Vec F S1x256 .f32) : Vec F S2000x256 .f32 :=
  View.canon [⟨rO1, k1_pay1 (View.ld x0 rX1) (View.ld x1 rW1) (View.ld x2 rB1)⟩]

/-- The one store is of the whole buffer, so it covers it. -/
theorem cover1_3 (p0 : Vec F S2000x256 .f32) (y : S2000x256.Idx) :
    ∃ pc ∈ ([⟨rO1, p0⟩] : List (View.Piece (Elt F) S2000x256 .f32)), y ∈ pc.1.set :=
  View.cover_of_tiled [⟨rO1, p0⟩] S2000x256.size (by rfl) y

/-! ## The body's triple -/

set_option maxHeartbeats 1000000 in
/-- The kernel body on whole staging memrefs — the inputs' at read contents `x0 x1 x2`, the output's at anything —
    runs to its return with the inputs' as they were and the output's at `out1_3` of them. -/
theorem sound_kernel1 (c : Dev nD) (E : Set ℕ) (i : grid1.Coords)
    (arg1 : Memref sig .tc .vmem S2000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mm_kernel i arg1 harg1 arg2 harg2 arg3 harg3 arg4 harg4) K := by
  simp only [cc1__mm_kernel_eq_skeleton]; unfold cc1__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The invariant between the region's ends: the core's scoped buffers that no window of this pipeline stages (the
    other kernels' staging and scratch buffers), held at some contents — the body touches none of them. -/
abbrev Φ1 (c : Dev nD) : sProp 𝕄 := Pipeline.scopedRest (Ix := Unit) (Name := ℕ) (U := U) (Lvl := ℕ) (Val := Elt F) spec1 c

/-- The proof data of pipeline 1 on core `c`, from the entry valuation `V`: the four arrays as the region finds
    them; after the body at point `t` each input's buffer at its block and the output's at `out1_3` of the three input
    blocks at `t`; the invariant `Φ1`; nothing owed; full shares. -/
def dat1 (c : Dev nD) : Dat τ (Elt F) Unit ℕ U ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Φ1 c
  q _ := fullShare
  owed _ := 0

/-- The proof data's arrays are the entry contents. -/
theorem A_eq1 (c : Dev nD) (w : Fin cfg1.W) : (dat1 (U := U) V c).A w = V c (Pipeline.arrRef spec1 w) := by
  dsimp only [dat1]

/-- What the body leaves, window by window. -/
theorem after1_0 (c : Dev nD) (t : Fin cfg1.N) : (dat1 (U := U) V c).after 0 t = iblk1 V c 0 t := by dsimp only [dat1]
theorem after1_1 (c : Dev nD) (t : Fin cfg1.N) : (dat1 (U := U) V c).after 1 t = iblk1 V c 1 t := by dsimp only [dat1]
theorem after1_2 (c : Dev nD) (t : Fin cfg1.N) : (dat1 (U := U) V c).after 2 t = iblk1 V c 2 t := by dsimp only [dat1]
theorem after1_3 (c : Dev nD) (t : Fin cfg1.N) :
    (dat1 (U := U) V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 (U := U) V c).before 0 t d = iblk1 V c 0 t :=
  before1_0_of V (dat1 V c) (A_eq1 V c 0) (after1_0 V c) t d
theorem before1_1 (c : Dev nD) (t : Fin cfg1.N) (d) : (dat1 (U := U) V c).before 1 t d = iblk1 V c 1 t :=
  before1_1_of V (dat1 V c) (A_eq1 V c 1) (after1_1 V c) t d
theorem before1_2 (c : Dev nD) (t : Fin cfg1.N) (d) : (dat1 (U := U) V c).before 2 t d = iblk1 V c 2 t :=
  before1_2_of V (dat1 V c) (A_eq1 V c 2) (after1_2 V c) t d

/-! ## The body obligation, at a generic point -/

/-- What the body is called with at point `t`: the invariant, the core's dues, and the four current staging buffers
    (each input at its block; the output at whatever the pipeline left there). -/
def bodyPre1 (c : Dev nD) (t : Fin cfg1.N) : sProp 𝕄 :=
  iprop((dat1 (U := U) V c).Φ t.castSucc ∗ (dat1 (U := U) V c).owesAt () t.castSucc
    ∗ (∃ d, owns (c : Thread nD τ) (st1_0 t) fullShare ((dat1 (U := U) V c).before 0 t d))
    ∗ (∃ d, owns (c : Thread nD τ) (st1_1 t) fullShare ((dat1 (U := U) V c).before 1 t d))
    ∗ (∃ d, owns (c : Thread nD τ) (st1_2 t) fullShare ((dat1 (U := U) V c).before 2 t d))
    ∗ (∃ d, owns (c : Thread nD τ) (st1_3 t) fullShare ((dat1 (U := U) V c).before 3 t d)))

/-- What it returns. -/
def bodyPost1 (c : Dev nD) (t : Fin cfg1.N) : sProp 𝕄 :=
  iprop((dat1 (U := U) V c).Φ t.succ ∗ (dat1 (U := U) V c).owesAt () t.succ
    ∗ owns (c : Thread nD τ) (st1_0 t) fullShare ((dat1 (U := U) V c).after 0 t)
    ∗ owns (c : Thread nD τ) (st1_1 t) fullShare ((dat1 (U := U) V c).after 1 t)
    ∗ owns (c : Thread nD τ) (st1_2 t) fullShare ((dat1 (U := U) V c).after 2 t)
    ∗ owns (c : Thread nD τ) (st1_3 t) fullShare ((dat1 (U := U) V c).after 3 t))

/-- The body at any point: the inputs' memrefs hold their blocks, so `sound_kernel1` applies; the invariant and the
    core's dues pass through untouched; the output buffer's prior contents are not needed. -/
theorem sound_body1 (c : Dev nD) (t : Fin cfg1.N) :
    bodyPre1 (U := U) V c t ⊢ wp frame (wpE (defs₀ (F := F)) Variants.none c none) Set.univ (bodyAt1 t) (fun _ => bodyPost1 (U := U) V c t) := by
  unfold bodyPre1 bodyPost1 bodyAt1
  simp only [before1_0, before1_1, before1_2]
  rw [show (dat1 (U := U) V c).Φ t.succ = (dat1 (U := U) V c).Φ t.castSucc from rfl,
    show (dat1 (U := U) V c).owesAt () t.succ = (dat1 (U := U) V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) (U := U) V c) (defs₀ (F := F)) Variants.none () Set.univ := fun t => by
  rw [bigSep_W1, bigSep_W1]
  exact sound_body1 V c t

/-- info: 'Cert.KernelIdeal.Hand.body_obligation1' depends on axioms: [propext, Classical.choice, Quot.sound] -/
#guard_msgs in #print axioms body_obligation1

end Cert.KernelIdeal.Hand

end
-- ==== Proof.KI.Seg1.lean ====
/-
  Region 1 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin1`: the fold of its five blocks'
  write-backs) and every other buffer as entered; `Wout1` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.KI.Body1
import proofs.«175488_j3908420240157_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 1's at the entry valuation and the other seven as given. -/
abbrev fam1 (d0 : DatAt F U 0) (d2 : DatAt F U 2) (d3 : DatAt F U 3) (d4 : DatAt F U 4) (d5 : DatAt F U 5) (d6 : DatAt F U 6) (d7 : DatAt F U 7) : (p : Fin 8) → DatAt F U p :=
  pdatsOf d0 (fun c => dat1 (Vof Wpre) c) d2 d3 d4 d5 d6 d7

/-- The output window's array after the region, as the library computes it: the write-backs of the body's results
    folded over the grid. -/
def fin1 (c : Dev nD) : Buf (Elt F) ((c : Thread nD τ).loc main_v65) := (dat1 (U := U) (Vof Wpre) c).arrAt 3 cfg1.N

/-- The pipeline's arrays are four distinct buffers; the output's is the last. -/
theorem arrRef1_ne_out : ∀ w : Fin cfg1.W, w ≠ 3 → Pipeline.arrRef spec1 w ≠ main_v65 := by decide
/-- Every window but the last is an input. -/
theorem win1_in : ∀ w : Fin cfg1.W, w ≠ 3 → (cfg1.win w).isOut = false := by decide

-- `iapply` of a library lemma stated over the pinned configuration unifies with the printed one only when unification
-- may unfold plain definitions in a metavariable's type
set_option backward.isDefEq.respectTransparency.types false in
/-- REGION 1 over the thread state: entered from every unscoped buffer at `Wpre c` beside the rider, left at
    `Wpost c` beside the same rider, for any `Wpost` that has the output array at `fin1` and agrees with `Wpre` off it —
    stated over the family with the other seven pipelines' proof data arbitrary. -/
def seg1 (d0 : DatAt F U 0) (d2 : DatAt F U 2) (d3 : DatAt F U 3) (d4 : DatAt F U 4) (d5 : DatAt F U 5) (d6 : DatAt F U 6) (d7 : DatAt F U 7) (R : Dev nD → sProp 𝕄) (hout : ∀ c, Vof Wpost c main_v65 = fin1 (U := U) Wpre c)
    (hne : ∀ c (b : Ref sig .tc), b ≠ main_v65 → Vof Wpost c b = Vof Wpre c b) :
    Pipeline.RegionSeg (pcfgs (F := F)) adm (fam1 Wpre d0 d2 d3 d4 d5 d6 d7) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vof Wpre) c).loose
  hwaits := Pipeline.hwaits_of_owed_zero _ _ _ _ L lv 1 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec1 c (Vof Wpre c) ∗ R c)
  hentry c := by
    rw [Pipeline.ownSems0_none]
    have hsplit := Pipeline.arrays_of_unscopedBufs (p := 1) (pcfgs (F := F)) adm (fam1 Wpre d0 d2 d3 d4 d5 d6 d7) launch1.win launch1.arr_whole c
      ((fam1 Wpre d0 d2 d3 d4 d5 d6 d7 1 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam1 Wpre d0 d2 d3 d4 d5 d6 d7 1 c).Φ 0 = Φ1 c from rfl]
    iintro ⟨-, -, Hr⟩; iexact Hr
  hout c := by
    rw [Pipeline.ownSems0_none, show (fam1 Wpre d0 d2 d3 d4 d5 d6 d7 1 c).Φ (Fin.last _) = Φ1 c from rfl]
    iintro Hr
    isplitr; · iempintro
    isplitr; · iempintro
    iexact Hr
  hexit c := by
    have hjoin := Pipeline.unscopedBufs_of_arrays (p := 1) (pcfgs (F := F)) adm (Ix := Unit) (Name := ℕ) (U := U) (Lvl := ℕ)
      launch1.win launch1.arr_whole c (fam1 Wpre d0 d2 d3 d4 d5 d6 d7) ((fam1 Wpre d0 d2 d3 d4 d5 d6 d7 1 c).share_full fun _ => rfl)
      (Vof Wpre c) (Vof Wpost c) ((fam1 Wpre d0 d2 d3 d4 d5 d6 d7 1 c).arrAt · cfg1.N)
      (fun w => by
        by_cases hw : w = 3
        · subst hw; exact (hout c).symm
        · exact ((fam1 Wpre d0 d2 d3 d4 d5 d6 d7 1 c).arrAt_in w (win1_in w hw) _).trans (hne c _ (arrRef1_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.KernelIdeal.Hand.seg1' depends on axioms: [propext, Classical.choice, Quot.sound] -/
#guard_msgs in #print axioms seg1

/-! ## The canonical exit valuation -/

/-- The entry valuation with pipeline 1's arrays at what its write-backs leave. -/
def Wout1 (c : Dev nD) : Valuation τ sig (Elt F) :=
  Pipeline.withArrays spec1 c (Wpre c) fun w => (dat1 (U := U) (Vof Wpre) c).arrAt w cfg1.N

/-- It has the output array at `fin1`, -/
theorem Wout1_out (c : Dev nD) : Vof (Wout1 (U := U) Wpre) c main_v65 = fin1 (U := U) Wpre c := by
  unfold Wout1 fin1; exact Pipeline.withArrays_arr spec1 launch1.win.arr_inj c _ _ 3
/-- and every other buffer as entered (an input window's array is written back as it was read). -/
theorem Wout1_ne (c : Dev nD) (b : Ref sig .tc) (hb : b ≠ main_v65) : Vof (Wout1 (U := U) Wpre) c b = Vof Wpre c b := by
  by_cases h : ∃ w, Pipeline.arrRef spec1 w = b
  · obtain ⟨w, rfl⟩ := h
    have hw : w ≠ 3 := fun e => hb (e ▸ rfl)
    unfold Wout1
    exact (Pipeline.withArrays_arr spec1 launch1.win.arr_inj c _ _ w).trans ((dat1 (U := U) (Vof Wpre) c).arrAt_in w (win1_in w hw) _)
  · unfold Wout1; exact Pipeline.withArrays_of_ne spec1 c _ _ b fun w e => h ⟨w, e⟩

end Cert.KernelIdeal.Hand

end
-- ==== Proof.KI.Body2.lean ====
/-
  Region 2 of the program (the tiled matmul kernel of custom_call 2, pipeline 2): what ONE point of its grid does.

  The kernel's body at a point loads the three input windows' staging buffers whole (a 2000-row block of x, the
  whole weight matrix, the bias row), loads the output window's staging buffer (a read whose value is never used),
  and stores ONE value over the whole output staging buffer: the payload `k2_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.KernelIdeal.Launch
import proofs.«175488_j3908420240157_2_alg».proof.Proof.Gen.KernelIdeal.Skeleton
import proofs.«175488_j3908420240157_2_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, fetched there or not (a window
    whose block index does not move is fetched once and then left in place): for any proof data whose array is `V`'s
    and whose body leaves the block where it was. Window 0, the block of x. -/
theorem before2_0_of {c : Dev nD} (dat : Dat τ (Elt F) Unit ℕ U ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1, the weight matrix (one block, fetched at the first point only). -/
theorem before2_1_of {c : Dev nD} (dat : Dat τ (Elt F) Unit ℕ U ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2, the bias row (one block, fetched at the first point only). -/
theorem before2_2_of {c : Dev nD} (dat : Dat τ (Elt F) Unit ℕ U ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every one is the whole staging buffer -/

abbrev rX2 : Rect S2000x512 := Rect.unit (s := S2000x512) ![0, 0] S2000x512.size inb_S2000x512_S2000x512_0_0
abbrev rW2 : Rect S512x256 := Rect.unit (s := S512x256) ![0, 0] S512x256.size inb_S512x256_S512x256_0_0
abbrev rB2 : Rect S1x256 := Rect.unit (s := S1x256) ![0, 0] S1x256.size inb_S1x256_S1x256_0_0
abbrev rO2 : Rect S2000x256 := Rect.unit (s := S2000x256) ![0, 0] S2000x256.size inb_S2000x256_S2000x256_0_0

/-! ## What the body leaves in the output window's buffer -/

/-- The output window's staging buffer after the body, from the three input blocks: the canonical contents of its
    one store, whose value is the payload of the three loads. -/
def out2_3 (x0 : Vec F S2000x512 .f32) (x1 : Vec F S512x256 .f32) (x2 : Vec F S1x256 .f32) : Vec F S2000x256 .f32 :=
  View.canon [⟨rO2, k2_pay1 (View.ld x0 rX2) (View.ld x1 rW2) (View.ld x2 rB2)⟩]

/-- The one store is of the whole buffer, so it covers it. -/
theorem cover2_3 (p0 : Vec F S2000x256 .f32) (y : S2000x256.Idx) :
    ∃ pc ∈ ([⟨rO2, p0⟩] : List (View.Piece (Elt F) S2000x256 .f32)), y ∈ pc.1.set :=
  View.cover_of_tiled [⟨rO2, p0⟩] S2000x256.size (by rfl) y

/-! ## The body's triple -/

set_option maxHeartbeats 1000000 in
/-- The kernel body on whole staging memrefs — the inputs' at read contents `x0 x1 x2`, the output's at anything —
    runs to its return with the inputs' as they were and the output's at `out2_3` of them. -/
theorem sound_kernel2 (c : Dev nD) (E : Set ℕ) (i : grid2.Coords)
    (arg1 : Memref sig .tc .vmem S2000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__mm_kernel i arg1 harg1 arg2 harg2 arg3 harg3 arg4 harg4) K := by
  simp only [cc2__mm_kernel_eq_skeleton]; unfold cc2__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The invariant between the region's ends: the core's scoped buffers that no window of this pipeline stages (the
    other kernels' staging and scratch buffers), held at some contents — the body touches none of them. -/
abbrev Φ2 (c : Dev nD) : sProp 𝕄 := Pipeline.scopedRest (Ix := Unit) (Name := ℕ) (U := U) (Lvl := ℕ) (Val := Elt F) spec2 c

/-- The proof data of pipeline 2 on core `c`, from the entry valuation `V`: the four arrays as the region finds
    them; after the body at point `t` each input's buffer at its block and the output's at `out2_3` of the three input
    blocks at `t`; the invariant `Φ2`; nothing owed; full shares. -/
def dat2 (c : Dev nD) : Dat τ (Elt F) Unit ℕ U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Φ2 c
  q _ := fullShare
  owed _ := 0

/-- The proof data's arrays are the entry contents. -/
theorem A_eq2 (c : Dev nD) (w : Fin cfg2.W) : (dat2 (U := U) V c).A w = V c (Pipeline.arrRef spec2 w) := by
  dsimp only [dat2]

/-- What the body leaves, window by window. -/
theorem after2_0 (c : Dev nD) (t : Fin cfg2.N) : (dat2 (U := U) V c).after 0 t = iblk2 V c 0 t := by dsimp only [dat2]
theorem after2_1 (c : Dev nD) (t : Fin cfg2.N) : (dat2 (U := U) V c).after 1 t = iblk2 V c 1 t := by dsimp only [dat2]
theorem after2_2 (c : Dev nD) (t : Fin cfg2.N) : (dat2 (U := U) V c).after 2 t = iblk2 V c 2 t := by dsimp only [dat2]
theorem after2_3 (c : Dev nD) (t : Fin cfg2.N) :
    (dat2 (U := U) V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 (U := U) V c).before 0 t d = iblk2 V c 0 t :=
  before2_0_of V (dat2 V c) (A_eq2 V c 0) (after2_0 V c) t d
theorem before2_1 (c : Dev nD) (t : Fin cfg2.N) (d) : (dat2 (U := U) V c).before 1 t d = iblk2 V c 1 t :=
  before2_1_of V (dat2 V c) (A_eq2 V c 1) (after2_1 V c) t d
theorem before2_2 (c : Dev nD) (t : Fin cfg2.N) (d) : (dat2 (U := U) V c).before 2 t d = iblk2 V c 2 t :=
  before2_2_of V (dat2 V c) (A_eq2 V c 2) (after2_2 V c) t d

/-! ## The body obligation, at a generic point -/

/-- What the body is called with at point `t`: the invariant, the core's dues, and the four current staging buffers
    (each input at its block; the output at whatever the pipeline left there). -/
def bodyPre2 (c : Dev nD) (t : Fin cfg2.N) : sProp 𝕄 :=
  iprop((dat2 (U := U) V c).Φ t.castSucc ∗ (dat2 (U := U) V c).owesAt () t.castSucc
    ∗ (∃ d, owns (c : Thread nD τ) (st2_0 t) fullShare ((dat2 (U := U) V c).before 0 t d))
    ∗ (∃ d, owns (c : Thread nD τ) (st2_1 t) fullShare ((dat2 (U := U) V c).before 1 t d))
    ∗ (∃ d, owns (c : Thread nD τ) (st2_2 t) fullShare ((dat2 (U := U) V c).before 2 t d))
    ∗ (∃ d, owns (c : Thread nD τ) (st2_3 t) fullShare ((dat2 (U := U) V c).before 3 t d)))

/-- What it returns. -/
def bodyPost2 (c : Dev nD) (t : Fin cfg2.N) : sProp 𝕄 :=
  iprop((dat2 (U := U) V c).Φ t.succ ∗ (dat2 (U := U) V c).owesAt () t.succ
    ∗ owns (c : Thread nD τ) (st2_0 t) fullShare ((dat2 (U := U) V c).after 0 t)
    ∗ owns (c : Thread nD τ) (st2_1 t) fullShare ((dat2 (U := U) V c).after 1 t)
    ∗ owns (c : Thread nD τ) (st2_2 t) fullShare ((dat2 (U := U) V c).after 2 t)
    ∗ owns (c : Thread nD τ) (st2_3 t) fullShare ((dat2 (U := U) V c).after 3 t))

/-- The body at any point: the inputs' memrefs hold their blocks, so `sound_kernel2` applies; the invariant and the
    core's dues pass through untouched; the output buffer's prior contents are not needed. -/
theorem sound_body2 (c : Dev nD) (t : Fin cfg2.N) :
    bodyPre2 (U := U) V c t ⊢ wp frame (wpE (defs₀ (F := F)) Variants.none c none) Set.univ (bodyAt2 t) (fun _ => bodyPost2 (U := U) V c t) := by
  unfold bodyPre2 bodyPost2 bodyAt2
  simp only [before2_0, before2_1, before2_2]
  rw [show (dat2 (U := U) V c).Φ t.succ = (dat2 (U := U) V c).Φ t.castSucc from rfl,
    show (dat2 (U := U) V c).owesAt () t.succ = (dat2 (U := U) V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) (U := U) V c) (defs₀ (F := F)) Variants.none () Set.univ := fun t => by
  rw [bigSep_W2, bigSep_W2]
  exact sound_body2 V c t

/-- info: 'Cert.KernelIdeal.Hand.body_obligation2' depends on axioms: [propext, Classical.choice, Quot.sound] -/
#guard_msgs in #print axioms body_obligation2

end Cert.KernelIdeal.Hand

end
-- ==== Proof.KI.Seg2.lean ====
/-
  Region 2 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin2`: the fold of its five blocks'
  write-backs) and every other buffer as entered; `Wout2` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.KI.Body2
import proofs.«175488_j3908420240157_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 2's at the entry valuation and the other seven as given. -/
abbrev fam2 (d0 : DatAt F U 0) (d1 : DatAt F U 1) (d3 : DatAt F U 3) (d4 : DatAt F U 4) (d5 : DatAt F U 5) (d6 : DatAt F U 6) (d7 : DatAt F U 7) : (p : Fin 8) → DatAt F U p :=
  pdatsOf d0 d1 (fun c => dat2 (Vof Wpre) c) d3 d4 d5 d6 d7

/-- The output window's array after the region, as the library computes it: the write-backs of the body's results
    folded over the grid. -/
def fin2 (c : Dev nD) : Buf (Elt F) ((c : Thread nD τ).loc main_v104) := (dat2 (U := U) (Vof Wpre) c).arrAt 3 cfg2.N

/-- The pipeline's arrays are four distinct buffers; the output's is the last. -/
theorem arrRef2_ne_out : ∀ w : Fin cfg2.W, w ≠ 3 → Pipeline.arrRef spec2 w ≠ main_v104 := by decide
/-- Every window but the last is an input. -/
theorem win2_in : ∀ w : Fin cfg2.W, w ≠ 3 → (cfg2.win w).isOut = false := by decide

-- `iapply` of a library lemma stated over the pinned configuration unifies with the printed one only when unification
-- may unfold plain definitions in a metavariable's type
set_option backward.isDefEq.respectTransparency.types false in
/-- REGION 2 over the thread state: entered from every unscoped buffer at `Wpre c` beside the rider, left at
    `Wpost c` beside the same rider, for any `Wpost` that has the output array at `fin2` and agrees with `Wpre` off it —
    stated over the family with the other seven pipelines' proof data arbitrary. -/
def seg2 (d0 : DatAt F U 0) (d1 : DatAt F U 1) (d3 : DatAt F U 3) (d4 : DatAt F U 4) (d5 : DatAt F U 5) (d6 : DatAt F U 6) (d7 : DatAt F U 7) (R : Dev nD → sProp 𝕄) (hout : ∀ c, Vof Wpost c main_v104 = fin2 (U := U) Wpre c)
    (hne : ∀ c (b : Ref sig .tc), b ≠ main_v104 → Vof Wpost c b = Vof Wpre c b) :
    Pipeline.RegionSeg (pcfgs (F := F)) adm (fam2 Wpre d0 d1 d3 d4 d5 d6 d7) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vof Wpre) c).loose
  hwaits := Pipeline.hwaits_of_owed_zero _ _ _ _ L lv 2 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec2 c (Vof Wpre c) ∗ R c)
  hentry c := by
    rw [Pipeline.ownSems0_none]
    have hsplit := Pipeline.arrays_of_unscopedBufs (p := 2) (pcfgs (F := F)) adm (fam2 Wpre d0 d1 d3 d4 d5 d6 d7) launch2.win launch2.arr_whole c
      ((fam2 Wpre d0 d1 d3 d4 d5 d6 d7 2 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam2 Wpre d0 d1 d3 d4 d5 d6 d7 2 c).Φ 0 = Φ2 c from rfl]
    iintro ⟨-, -, Hr⟩; iexact Hr
  hout c := by
    rw [Pipeline.ownSems0_none, show (fam2 Wpre d0 d1 d3 d4 d5 d6 d7 2 c).Φ (Fin.last _) = Φ2 c from rfl]
    iintro Hr
    isplitr; · iempintro
    isplitr; · iempintro
    iexact Hr
  hexit c := by
    have hjoin := Pipeline.unscopedBufs_of_arrays (p := 2) (pcfgs (F := F)) adm (Ix := Unit) (Name := ℕ) (U := U) (Lvl := ℕ)
      launch2.win launch2.arr_whole c (fam2 Wpre d0 d1 d3 d4 d5 d6 d7) ((fam2 Wpre d0 d1 d3 d4 d5 d6 d7 2 c).share_full fun _ => rfl)
      (Vof Wpre c) (Vof Wpost c) ((fam2 Wpre d0 d1 d3 d4 d5 d6 d7 2 c).arrAt · cfg2.N)
      (fun w => by
        by_cases hw : w = 3
        · subst hw; exact (hout c).symm
        · exact ((fam2 Wpre d0 d1 d3 d4 d5 d6 d7 2 c).arrAt_in w (win2_in w hw) _).trans (hne c _ (arrRef2_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.KernelIdeal.Hand.seg2' depends on axioms: [propext, Classical.choice, Quot.sound] -/
#guard_msgs in #print axioms seg2

/-! ## The canonical exit valuation -/

/-- The entry valuation with pipeline 2's arrays at what its write-backs leave. -/
def Wout2 (c : Dev nD) : Valuation τ sig (Elt F) :=
  Pipeline.withArrays spec2 c (Wpre c) fun w => (dat2 (U := U) (Vof Wpre) c).arrAt w cfg2.N

/-- It has the output array at `fin2`, -/
theorem Wout2_out (c : Dev nD) : Vof (Wout2 (U := U) Wpre) c main_v104 = fin2 (U := U) Wpre c := by
  unfold Wout2 fin2; exact Pipeline.withArrays_arr spec2 launch2.win.arr_inj c _ _ 3
/-- and every other buffer as entered (an input window's array is written back as it was read). -/
theorem Wout2_ne (c : Dev nD) (b : Ref sig .tc) (hb : b ≠ main_v104) : Vof (Wout2 (U := U) Wpre) c b = Vof Wpre c b := by
  by_cases h : ∃ w, Pipeline.arrRef spec2 w = b
  · obtain ⟨w, rfl⟩ := h
    have hw : w ≠ 3 := fun e => hb (e ▸ rfl)
    unfold Wout2
    exact (Pipeline.withArrays_arr spec2 launch2.win.arr_inj c _ _ w).trans ((dat2 (U := U) (Vof Wpre) c).arrAt_in w (win2_in w hw) _)
  · unfold Wout2; exact Pipeline.withArrays_of_ne spec2 c _ _ b fun w e => h ⟨w, e⟩

end Cert.KernelIdeal.Hand

end
-- ==== Proof.KI.Body3.lean ====
/-
  Region 3 of the program (the tiled matmul kernel of custom_call 3, pipeline 3): what ONE point of its grid does.

  The kernel's body at a point loads the three input windows' staging buffers whole (a 2000-row block of x, the
  whole weight matrix, the bias row), loads the output window's staging buffer (a read whose value is never used),
  and stores ONE value over the whole output staging buffer: the payload `k3_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.KernelIdeal.Launch
import proofs.«175488_j3908420240157_2_alg».proof.Proof.Gen.KernelIdeal.Skeleton
import proofs.«175488_j3908420240157_2_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, fetched there or not (a window
    whose block index does not move is fetched once and then left in place): for any proof data whose array is `V`'s
    and whose body leaves the block where it was. Window 0, the block of x. -/
theorem before3_0_of {c : Dev nD} (dat : Dat τ (Elt F) Unit ℕ U ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1, the weight matrix (one block, fetched at the first point only). -/
theorem before3_1_of {c : Dev nD} (dat : Dat τ (Elt F) Unit ℕ U ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2, the bias row (one block, fetched at the first point only). -/
theorem before3_2_of {c : Dev nD} (dat : Dat τ (Elt F) Unit ℕ U ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every one is the whole staging buffer -/

abbrev rX3 : Rect S2000x256 := Rect.unit (s := S2000x256) ![0, 0] S2000x256.size inb_S2000x256_S2000x256_0_0
abbrev rW3 : Rect S256x256 := Rect.unit (s := S256x256) ![0, 0] S256x256.size inb_S256x256_S256x256_0_0
abbrev rB3 : Rect S1x256 := Rect.unit (s := S1x256) ![0, 0] S1x256.size inb_S1x256_S1x256_0_0
abbrev rO3 : Rect S2000x256 := Rect.unit (s := S2000x256) ![0, 0] S2000x256.size inb_S2000x256_S2000x256_0_0

/-! ## What the body leaves in the output window's buffer -/

/-- The output window's staging buffer after the body, from the three input blocks: the canonical contents of its
    one store, whose value is the payload of the three loads. -/
def out3_3 (x0 : Vec F S2000x256 .f32) (x1 : Vec F S256x256 .f32) (x2 : Vec F S1x256 .f32) : Vec F S2000x256 .f32 :=
  View.canon [⟨rO3, k3_pay1 (View.ld x0 rX3) (View.ld x1 rW3) (View.ld x2 rB3)⟩]

/-- The one store is of the whole buffer, so it covers it. -/
theorem cover3_3 (p0 : Vec F S2000x256 .f32) (y : S2000x256.Idx) :
    ∃ pc ∈ ([⟨rO3, p0⟩] : List (View.Piece (Elt F) S2000x256 .f32)), y ∈ pc.1.set :=
  View.cover_of_tiled [⟨rO3, p0⟩] S2000x256.size (by rfl) y

/-! ## The body's triple -/

set_option maxHeartbeats 1000000 in
/-- The kernel body on whole staging memrefs — the inputs' at read contents `x0 x1 x2`, the output's at anything —
    runs to its return with the inputs' as they were and the output's at `out3_3` of them. -/
theorem sound_kernel3 (c : Dev nD) (E : Set ℕ) (i : grid3.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__mm_kernel i arg1 harg1 arg2 harg2 arg3 harg3 arg4 harg4) K := by
  simp only [cc3__mm_kernel_eq_skeleton]; unfold cc3__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The invariant between the region's ends: the core's scoped buffers that no window of this pipeline stages (the
    other kernels' staging and scratch buffers), held at some contents — the body touches none of them. -/
abbrev Φ3 (c : Dev nD) : sProp 𝕄 := Pipeline.scopedRest (Ix := Unit) (Name := ℕ) (U := U) (Lvl := ℕ) (Val := Elt F) spec3 c

/-- The proof data of pipeline 3 on core `c`, from the entry valuation `V`: the four arrays as the region finds
    them; after the body at point `t` each input's buffer at its block and the output's at `out3_3` of the three input
    blocks at `t`; the invariant `Φ3`; nothing owed; full shares. -/
def dat3 (c : Dev nD) : Dat τ (Elt F) Unit ℕ U ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Φ3 c
  q _ := fullShare
  owed _ := 0

/-- The proof data's arrays are the entry contents. -/
theorem A_eq3 (c : Dev nD) (w : Fin cfg3.W) : (dat3 (U := U) V c).A w = V c (Pipeline.arrRef spec3 w) := by
  dsimp only [dat3]

/-- What the body leaves, window by window. -/
theorem after3_0 (c : Dev nD) (t : Fin cfg3.N) : (dat3 (U := U) V c).after 0 t = iblk3 V c 0 t := by dsimp only [dat3]
theorem after3_1 (c : Dev nD) (t : Fin cfg3.N) : (dat3 (U := U) V c).after 1 t = iblk3 V c 1 t := by dsimp only [dat3]
theorem after3_2 (c : Dev nD) (t : Fin cfg3.N) : (dat3 (U := U) V c).after 2 t = iblk3 V c 2 t := by dsimp only [dat3]
theorem after3_3 (c : Dev nD) (t : Fin cfg3.N) :
    (dat3 (U := U) V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 (U := U) V c).before 0 t d = iblk3 V c 0 t :=
  before3_0_of V (dat3 V c) (A_eq3 V c 0) (after3_0 V c) t d
theorem before3_1 (c : Dev nD) (t : Fin cfg3.N) (d) : (dat3 (U := U) V c).before 1 t d = iblk3 V c 1 t :=
  before3_1_of V (dat3 V c) (A_eq3 V c 1) (after3_1 V c) t d
theorem before3_2 (c : Dev nD) (t : Fin cfg3.N) (d) : (dat3 (U := U) V c).before 2 t d = iblk3 V c 2 t :=
  before3_2_of V (dat3 V c) (A_eq3 V c 2) (after3_2 V c) t d

/-! ## The body obligation, at a generic point -/

/-- What the body is called with at point `t`: the invariant, the core's dues, and the four current staging buffers
    (each input at its block; the output at whatever the pipeline left there). -/
def bodyPre3 (c : Dev nD) (t : Fin cfg3.N) : sProp 𝕄 :=
  iprop((dat3 (U := U) V c).Φ t.castSucc ∗ (dat3 (U := U) V c).owesAt () t.castSucc
    ∗ (∃ d, owns (c : Thread nD τ) (st3_0 t) fullShare ((dat3 (U := U) V c).before 0 t d))
    ∗ (∃ d, owns (c : Thread nD τ) (st3_1 t) fullShare ((dat3 (U := U) V c).before 1 t d))
    ∗ (∃ d, owns (c : Thread nD τ) (st3_2 t) fullShare ((dat3 (U := U) V c).before 2 t d))
    ∗ (∃ d, owns (c : Thread nD τ) (st3_3 t) fullShare ((dat3 (U := U) V c).before 3 t d)))

/-- What it returns. -/
def bodyPost3 (c : Dev nD) (t : Fin cfg3.N) : sProp 𝕄 :=
  iprop((dat3 (U := U) V c).Φ t.succ ∗ (dat3 (U := U) V c).owesAt () t.succ
    ∗ owns (c : Thread nD τ) (st3_0 t) fullShare ((dat3 (U := U) V c).after 0 t)
    ∗ owns (c : Thread nD τ) (st3_1 t) fullShare ((dat3 (U := U) V c).after 1 t)
    ∗ owns (c : Thread nD τ) (st3_2 t) fullShare ((dat3 (U := U) V c).after 2 t)
    ∗ owns (c : Thread nD τ) (st3_3 t) fullShare ((dat3 (U := U) V c).after 3 t))

/-- The body at any point: the inputs' memrefs hold their blocks, so `sound_kernel3` applies; the invariant and the
    core's dues pass through untouched; the output buffer's prior contents are not needed. -/
theorem sound_body3 (c : Dev nD) (t : Fin cfg3.N) :
    bodyPre3 (U := U) V c t ⊢ wp frame (wpE (defs₀ (F := F)) Variants.none c none) Set.univ (bodyAt3 t) (fun _ => bodyPost3 (U := U) V c t) := by
  unfold bodyPre3 bodyPost3 bodyAt3
  simp only [before3_0, before3_1, before3_2]
  rw [show (dat3 (U := U) V c).Φ t.succ = (dat3 (U := U) V c).Φ t.castSucc from rfl,
    show (dat3 (U := U) V c).owesAt () t.succ = (dat3 (U := U) V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) (U := U) V c) (defs₀ (F := F)) Variants.none () Set.univ := fun t => by
  rw [bigSep_W3, bigSep_W3]
  exact sound_body3 V c t

/-- info: 'Cert.KernelIdeal.Hand.body_obligation3' depends on axioms: [propext, Classical.choice, Quot.sound] -/
#guard_msgs in #print axioms body_obligation3

end Cert.KernelIdeal.Hand

end
-- ==== Proof.KI.Seg3.lean ====
/-
  Region 3 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin3`: the fold of its five blocks'
  write-backs) and every other buffer as entered; `Wout3` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.KI.Body3
import proofs.«175488_j3908420240157_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 3's at the entry valuation and the other seven as given. -/
abbrev fam3 (d0 : DatAt F U 0) (d1 : DatAt F U 1) (d2 : DatAt F U 2) (d4 : DatAt F U 4) (d5 : DatAt F U 5) (d6 : DatAt F U 6) (d7 : DatAt F U 7) : (p : Fin 8) → DatAt F U p :=
  pdatsOf d0 d1 d2 (fun c => dat3 (Vof Wpre) c) d4 d5 d6 d7

/-- The output window's array after the region, as the library computes it: the write-backs of the body's results
    folded over the grid. -/
def fin3 (c : Dev nD) : Buf (Elt F) ((c : Thread nD τ).loc main_v142) := (dat3 (U := U) (Vof Wpre) c).arrAt 3 cfg3.N

/-- The pipeline's arrays are four distinct buffers; the output's is the last. -/
theorem arrRef3_ne_out : ∀ w : Fin cfg3.W, w ≠ 3 → Pipeline.arrRef spec3 w ≠ main_v142 := by decide
/-- Every window but the last is an input. -/
theorem win3_in : ∀ w : Fin cfg3.W, w ≠ 3 → (cfg3.win w).isOut = false := by decide

-- `iapply` of a library lemma stated over the pinned configuration unifies with the printed one only when unification
-- may unfold plain definitions in a metavariable's type
set_option backward.isDefEq.respectTransparency.types false in
/-- REGION 3 over the thread state: entered from every unscoped buffer at `Wpre c` beside the rider, left at
    `Wpost c` beside the same rider, for any `Wpost` that has the output array at `fin3` and agrees with `Wpre` off it —
    stated over the family with the other seven pipelines' proof data arbitrary. -/
def seg3 (d0 : DatAt F U 0) (d1 : DatAt F U 1) (d2 : DatAt F U 2) (d4 : DatAt F U 4) (d5 : DatAt F U 5) (d6 : DatAt F U 6) (d7 : DatAt F U 7) (R : Dev nD → sProp 𝕄) (hout : ∀ c, Vof Wpost c main_v142 = fin3 (U := U) Wpre c)
    (hne : ∀ c (b : Ref sig .tc), b ≠ main_v142 → Vof Wpost c b = Vof Wpre c b) :
    Pipeline.RegionSeg (pcfgs (F := F)) adm (fam3 Wpre d0 d1 d2 d4 d5 d6 d7) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vof Wpre) c).loose
  hwaits := Pipeline.hwaits_of_owed_zero _ _ _ _ L lv 3 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec3 c (Vof Wpre c) ∗ R c)
  hentry c := by
    rw [Pipeline.ownSems0_none]
    have hsplit := Pipeline.arrays_of_unscopedBufs (p := 3) (pcfgs (F := F)) adm (fam3 Wpre d0 d1 d2 d4 d5 d6 d7) launch3.win launch3.arr_whole c
      ((fam3 Wpre d0 d1 d2 d4 d5 d6 d7 3 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam3 Wpre d0 d1 d2 d4 d5 d6 d7 3 c).Φ 0 = Φ3 c from rfl]
    iintro ⟨-, -, Hr⟩; iexact Hr
  hout c := by
    rw [Pipeline.ownSems0_none, show (fam3 Wpre d0 d1 d2 d4 d5 d6 d7 3 c).Φ (Fin.last _) = Φ3 c from rfl]
    iintro Hr
    isplitr; · iempintro
    isplitr; · iempintro
    iexact Hr
  hexit c := by
    have hjoin := Pipeline.unscopedBufs_of_arrays (p := 3) (pcfgs (F := F)) adm (Ix := Unit) (Name := ℕ) (U := U) (Lvl := ℕ)
      launch3.win launch3.arr_whole c (fam3 Wpre d0 d1 d2 d4 d5 d6 d7) ((fam3 Wpre d0 d1 d2 d4 d5 d6 d7 3 c).share_full fun _ => rfl)
      (Vof Wpre c) (Vof Wpost c) ((fam3 Wpre d0 d1 d2 d4 d5 d6 d7 3 c).arrAt · cfg3.N)
      (fun w => by
        by_cases hw : w = 3
        · subst hw; exact (hout c).symm
        · exact ((fam3 Wpre d0 d1 d2 d4 d5 d6 d7 3 c).arrAt_in w (win3_in w hw) _).trans (hne c _ (arrRef3_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.KernelIdeal.Hand.seg3' depends on axioms: [propext, Classical.choice, Quot.sound] -/
#guard_msgs in #print axioms seg3

/-! ## The canonical exit valuation -/

/-- The entry valuation with pipeline 3's arrays at what its write-backs leave. -/
def Wout3 (c : Dev nD) : Valuation τ sig (Elt F) :=
  Pipeline.withArrays spec3 c (Wpre c) fun w => (dat3 (U := U) (Vof Wpre) c).arrAt w cfg3.N

/-- It has the output array at `fin3`, -/
theorem Wout3_out (c : Dev nD) : Vof (Wout3 (U := U) Wpre) c main_v142 = fin3 (U := U) Wpre c := by
  unfold Wout3 fin3; exact Pipeline.withArrays_arr spec3 launch3.win.arr_inj c _ _ 3
/-- and every other buffer as entered (an input window's array is written back as it was read). -/
theorem Wout3_ne (c : Dev nD) (b : Ref sig .tc) (hb : b ≠ main_v142) : Vof (Wout3 (U := U) Wpre) c b = Vof Wpre c b := by
  by_cases h : ∃ w, Pipeline.arrRef spec3 w = b
  · obtain ⟨w, rfl⟩ := h
    have hw : w ≠ 3 := fun e => hb (e ▸ rfl)
    unfold Wout3
    exact (Pipeline.withArrays_arr spec3 launch3.win.arr_inj c _ _ w).trans ((dat3 (U := U) (Vof Wpre) c).arrAt_in w (win3_in w hw) _)
  · unfold Wout3; exact Pipeline.withArrays_of_ne spec3 c _ _ b fun w e => h ⟨w, e⟩

end Cert.KernelIdeal.Hand

end
-- ==== Proof.KI.Point4.lean ====
/-
  Region 4 of the program (the row-sum kernel of custom_call 4, pipeline 4): what the statements about one point of its
  5 x 5 grid are made of.

  At the point (i, j) the kernel's body is handed a block of 2000 rows of q (at block index i), a block of 2000 rows
  of z and one of stu (both at block index j), the output window's staging buffer, and a scratch column of 2000
  entries. It clears the scratch when j = 0; forms the 2000 x 2000 block e = exp(q zᵀ) + exp(q stuᵀ) (each product in
  three bf16 passes: the payload k4_pay3); adds the row sums of e to the scratch (the payload k4_pay1); and, when
  j = 4, copies the scratch into the output window's staging buffer.

  This module holds the pieces the body's triples and the proof data are stated with: the windows' blocks read off an
  entry valuation \`V\` of the core's buffers, and that an input window's staging buffer holds its block at every point;
  the body's accesses, every one of a whole buffer, so that a load reads the buffer's contents and a store leaves its
  payload; what one point adds to the scratch (\`acc4\`); and the two conditions in closed form over the 25 points
  (j = 0 at the points ≡ 0 mod 5, j = 4 at the points ≡ 4 mod 5), with where the output window is idle. Everything is
  stated for any float model F and any user resource algebra U.
-/
import proofs.«175488_j3908420240157_2_alg».proof.Proof.Gen.KernelIdeal.Launch
import proofs.«175488_j3908420240157_2_alg».proof.Proof.Gen.KernelIdeal.Skeleton
import proofs.«175488_j3908420240157_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window \`w\`'s block at point \`t\`: its array as the region finds it, read through the block's view. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds the window's block at every point, fetched there or not (a window
    whose block index does not move is left in place): for any proof data whose array is \`V\`'s and whose body leaves
    the block where it was. Window 0, the block of q (its index moves with the slow coordinate only). -/
theorem before4_0_of {c : Dev nD} (dat : Dat τ (Elt F) Unit ℕ U ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1, the block of z (fetched at every point). -/
theorem before4_1_of {c : Dev nD} (dat : Dat τ (Elt F) Unit ℕ U ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2, the block of stu (fetched at every point). -/
theorem before4_2_of {c : Dev nD} (dat : Dat τ (Elt F) Unit ℕ U ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every one is a whole buffer -/

abbrev rI4 : Rect S2000x256 := Rect.unit (s := S2000x256) ![0, 0] S2000x256.size inb_S2000x256_S2000x256_0_0
abbrev rS4 : Rect S2000x1 := Rect.unit (s := S2000x1) ![0, 0] S2000x1.size inb_S2000x1_S2000x1_0_0

/-- The offsets of every access are zero. -/
theorem hz2 : (![0, 0] : Fin 2 → Nat) = fun _ => 0 := funext fun a => by fin_cases a <;> rfl

/-- A load of a whole input block reads the block. -/
theorem ldI4 (x : Vec F S2000x256 .f32) : View.ld x rI4 = x :=
  View.ld_unit_zero (S := S2000x256) hz2 inb_S2000x256_S2000x256_0_0 x

/-- A load of the whole column reads the column. -/
theorem ldS4 (x : Vec F S2000x1 .f32) : View.ld x rS4 = x :=
  View.ld_unit_zero (S := S2000x1) hz2 inb_S2000x1_S2000x1_0_0 x

/-- A store through the whole-shape rectangle at zero offsets, last, leaves its payload: whatever the view, the prior
    contents and the earlier stores. -/
theorem read_store_unit_zero {Val : EltTy → Type} [∀ e, Nonempty (Val e)] {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f ((⟨Rect.unit off S.size inb, w⟩ : View.Piece Val S e) :: L) fun y =>
      ⟨(⟨Rect.unit off S.size inb, w⟩ : View.Piece Val S e), List.mem_cons.mpr (Or.inl rfl), View.mem_set_unit_zero h inb y⟩).trans
    (View.canon_cons_unit_zero h inb w L)

/-- The same at the scratch column's shape. -/
theorem read_store4 {κ : Kind} {sp : Space} (v : View sig κ sp S2000x1 .f32) (f : v.ty.Contents (Elt F)) (w : Vec F S2000x1 .f32)
    (L : List (View.Piece (Elt F) S2000x1 .f32)) :
    v.read (Elt F) (v.writes (Elt F) f ((⟨rS4, w⟩ : View.Piece (Elt F) S2000x1 .f32) :: L)) = w :=
  read_store_unit_zero (S := S2000x1) v f hz2 inb_S2000x1_S2000x1_0_0 w L

/-- A load of the whole column after a store of the whole column reads the store's payload. -/
theorem readCov4 {κ : Kind} {sp : Space} (v : View sig κ sp S2000x1 .f32) (w : Vec F S2000x1 .f32) :
    v.readCov [(⟨rS4, w⟩ : View.Piece (Elt F) S2000x1 .f32)] rS4.toLoadRect = w :=
  View.readCov_unit_zero (S := S2000x1) v hz2 inb_S2000x1_S2000x1_0_0 w

/-! ## What a point adds to the scratch -/

/-- The scratch after a point, from the three input blocks and the column \`s\` the accumulation starts from: \`s\` plus
    the row sums of exp(q zᵀ) + exp(q stuᵀ). -/
def acc4 (x0 x1 x2 : Vec F S2000x256 .f32) (s : Vec F S2000x1 .f32) : Vec F S2000x1 .f32 :=
  k4_pay1 (k4_pay3 x0 x1 x2) s

/-! ## The body's two conditions -/

/-- The first conditional's condition (the scratch is cleared): the fast coordinate is 0. -/
abbrev cond4_1 (i : grid4.Coords) : Prop :=
  (Scalar.cmpi .ne (Scalar.extui (Scalar.cmpi .eq (BitVec.ofNat 32 (i 1).val) 0#32)) 0#32) = 1#1
/-- It holds at the points ≡ 0 (mod 5): decided over the grid. -/
theorem hcond4_1 : ∀ t : Fin cfg4.N, cond4_1 (grid4.coords t) ↔ t.val % 5 = 0 :=
  (by decide +kernel : ∀ t : Fin grid4.N, cond4_1 (grid4.coords t) ↔ t.val % 5 = 0)

/-- The second conditional's condition (the scratch is copied to the output window): the fast coordinate is 4. -/
abbrev cond4_2 (i : grid4.Coords) : Prop := k4_cond2 i = 1#1
/-- It holds at the points ≡ 4 (mod 5): decided over the grid. -/
theorem hcond4_2 : ∀ t : Fin cfg4.N, cond4_2 (grid4.coords t) ↔ t.val % 5 = 4 :=
  (by decide +kernel : ∀ t : Fin grid4.N, cond4_2 (grid4.coords t) ↔ t.val % 5 = 4)

/-- The output window is idle exactly where the second condition fails, -/
theorem idle4_3 : ∀ t : Fin cfg4.N, ¬cond4_2 (grid4.coords t) → cfg4.idle 3 (grid4.coords t) = true := by decide +kernel
/-- live where it holds, -/
theorem live4_3 : ∀ t : Fin cfg4.N, cond4_2 (grid4.coords t) → cfg4.idle 3 (grid4.coords t) = false := by decide +kernel
/-- and not written back where it fails. -/
theorem noFlush4_3 (t : Fin cfg4.N) (h : ¬cond4_2 (grid4.coords t)) : (cfg4.win 3).flush t = false :=
  Bool.eq_false_iff.mpr fun hf => h ((hcond4_2 t).mpr ((flush4_3 t).mp hf))

end Cert.KernelIdeal.Hand

end
-- ==== Proof.KI.Kernel4.lean ====
/-
  Region 4 of the program: the kernel body's triple, on any whole memrefs, in each of the three cases of its two
  conditionals.

  The body's first conditional (the fast grid coordinate j is 0) clears the scratch column; the second (j = 4) copies
  the scratch into the output window's staging buffer. On a 5 x 5 grid a point meets exactly one of three
  assignments: A (j = 0: cleared, not copied), B (0 < j < 4: neither), C (j = 4: not cleared, copied). In each case
  the body loads the three input blocks whole, forms the block e of exp(q zᵀ) + exp(q stuᵀ), and stores over the whole
  scratch the sum of the scratch as loaded and the row sums of e: \`acc4\` of the three blocks and of the column the
  accumulation starts from — zero in case A, what the scratch held in cases B and C. Every access is of a whole
  buffer, so a load reads the buffer's contents and a store leaves its payload.
-/
import proofs.«175488_j3908420240157_2_alg».proof.Proof.KI.Point4
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

set_option maxHeartbeats 1000000 in
/-- CASE A (j = 0, the first point of a row of the grid): the scratch, whatever it held, is cleared and then receives the
    point's row sums; the output window's buffer is handed back as found. -/
theorem sound_kernel4_A (c : Dev nD) (E : Set ℕ) (i : grid4.Coords) (hc1 : cond4_1 i) (hc2 : ¬cond4_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (acc4 x0 x1 x2 k4_pay2)) -∗ K ⟨⟩))
      ⊢ wp frame (wpE (defs₀ (F := F)) Variants.none c none) E (cc4__negsim_kernel i arg2 harg2 arg3 harg3 arg4 harg4 arg5 harg5 arg6 harg6) K := by
  simp only [cc4__negsim_kernel_eq_skeleton]; unfold cc4__negsim_kernel_skel
  simp only [k4_part1_eq_skeleton]; unfold k4_part1_skel
  unfold owns
  iintro ⟨⟨%f0, %hf0, H0⟩, ⟨%f1, %hf1, H1⟩, ⟨%f2, %hf2, H2⟩, ⟨%fo, %hfo, HO⟩, ⟨%ds, %fs, -, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; exact hfo
    iexact HO
  iexists _; isplitr
  swap; · iexact HS
  ipureintro
  sl_unfold_run_names
  refine (read_store4 _ _ _ _).trans ?_
  show acc4 (View.ld (View.read (Elt F) arg2.view f0) rI4) (View.ld (View.read (Elt F) arg3.view f1) rI4) (View.ld (View.read (Elt F) arg4.view f2) rI4) (View.readCov arg6.view [⟨rS4, k4_pay2⟩] rS4.toLoadRect) = _
  rw [ldI4, ldI4, ldI4, readCov4]

set_option maxHeartbeats 1000000 in
/-- CASE B (0 < j < 4, a middle point of a row): the scratch receives the point's row sums on top of what the point before
    left; the output window's buffer is handed back as found. -/
theorem sound_kernel4_B (c : Dev nD) (E : Set ℕ) (i : grid4.Coords) (hc1 : ¬cond4_1 i) (hc2 : ¬cond4_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (acc4 x0 x1 x2 s)) -∗ K ⟨⟩))
      ⊢ wp frame (wpE (defs₀ (F := F)) Variants.none c none) E (cc4__negsim_kernel i arg2 harg2 arg3 harg3 arg4 harg4 arg5 harg5 arg6 harg6) K := by
  simp only [cc4__negsim_kernel_eq_skeleton]; unfold cc4__negsim_kernel_skel
  simp only [k4_part1_eq_skeleton]; unfold k4_part1_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  subst hfs
  isplitl [HO]
  · iexists fo; isplitr; · ipureintro; exact hfo
    iexact HO
  iexists _; isplitr
  swap; · iexact HS
  ipureintro
  sl_unfold_run_names
  refine (read_store4 _ _ _ _).trans ?_
  show acc4 (View.ld (View.read (Elt F) arg2.view f0) rI4) (View.ld (View.read (Elt F) arg3.view f1) rI4) (View.ld (View.read (Elt F) arg4.view f2) rI4) (View.ld (View.read (Elt F) arg6.view fs) rS4) = _
  rw [ldI4, ldI4, ldI4, ldS4]

set_option maxHeartbeats 1000000 in
/-- CASE C (j = 4, the last point of a row): the scratch receives the point's row sums on top of what the point before left,
    and its new contents are stored over the output window's buffer, whatever that held. -/
theorem sound_kernel4_C (c : Dev nD) (E : Set ℕ) (i : grid4.Coords) (hc1 : ¬cond4_1 i) (hc2 : cond4_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (acc4 x0 x1 x2 s) ∗ owns (c : Thread nD τ) arg6 fullShare (acc4 x0 x1 x2 s)) -∗ K ⟨⟩))
      ⊢ wp frame (wpE (defs₀ (F := F)) Variants.none c none) E (cc4__negsim_kernel i arg2 harg2 arg3 harg3 arg4 harg4 arg5 harg5 arg6 harg6) K := by
  simp only [cc4__negsim_kernel_eq_skeleton]; unfold cc4__negsim_kernel_skel
  simp only [k4_part1_eq_skeleton]; unfold k4_part1_skel
  unfold owns
  iintro ⟨⟨%f0, %hf0, H0⟩, ⟨%f1, %hf1, H1⟩, ⟨%f2, %hf2, H2⟩, ⟨%dd, %fo, -, HO⟩, ⟨%fs, %hfs, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  subst hfs
  isplitl [HO]
  · iexists _; isplitr
    swap; · iexact HO
    ipureintro
    sl_unfold_run_names
    refine (read_store4 _ _ _ _).trans ?_
    refine (readCov4 _ _).trans ?_
    show acc4 (View.ld (View.read (Elt F) arg2.view f0) rI4) (View.ld (View.read (Elt F) arg3.view f1) rI4) (View.ld (View.read (Elt F) arg4.view f2) rI4) (View.ld (View.read (Elt F) arg6.view fs) rS4) = _
    rw [ldI4, ldI4, ldI4, ldS4]
  iexists _; isplitr
  swap; · iexact HS
  ipureintro
  sl_unfold_run_names
  refine (read_store4 _ _ _ _).trans ?_
  show acc4 (View.ld (View.read (Elt F) arg2.view f0) rI4) (View.ld (View.read (Elt F) arg3.view f1) rI4) (View.ld (View.read (Elt F) arg4.view f2) rI4) (View.ld (View.read (Elt F) arg6.view fs) rS4) = _
  rw [ldI4, ldI4, ldI4, ldS4]

/-- info: 'Cert.KernelIdeal.Hand.sound_kernel4_C' depends on axioms: [propext, Classical.choice, Quot.sound] -/
#guard_msgs in #print axioms sound_kernel4_C

end Cert.KernelIdeal.Hand

end
-- ==== Proof.KI.Body4.lean ====
/-
  Region 4 of the program (the row-sum kernel of custom_call 4, pipeline 4): the pipeline's proof data and the body
  obligation.

  At the point (i, j) of the 5 x 5 grid the kernel's body is handed a block of 2000 rows of q (at block index i), a
  block of 2000 rows of z and one of stu (both at block index j), the output window's staging buffer, and a scratch
  column of 2000 entries that no window stages: a buffer of the kernel's own that keeps its contents from one point to
  the next. It clears the scratch when j = 0, adds to it the row sums of the 2000 x 2000 block exp(q zᵀ) + exp(q stuᵀ),
  and when j = 4 copies it into the output window's staging buffer, which the pipeline then writes back as block i.

  So the scratch after the point number t (t = 5 i + j) is a recursion over the points of one row of the grid: \`S4 t\`
  is the point's row sums added to zero when j = 0, and to \`S4 (t - 1)\` otherwise; at j = 4 it is the sum over the whole
  row of blocks. The output window's staging buffer is stored at the points with j = 4 only, where it receives \`S4 t\`;
  at the other points the body leaves it as it found it, and the pipeline does not write it back there.

  This module states that as the pipeline's proof data at an arbitrary entry valuation \`V\` of the core's buffers — the
  recursion, and the invariant between points: the scratch at exactly \`S4\` of the point before, beside the scoped
  buffers the region does not touch — and derives the library's body obligation from the body's triple in each of the
  three cases of its two conditionals. Everything is stated for any float model \`F\` and any user resource algebra \`U\`.
-/
import proofs.«175488_j3908420240157_2_alg».proof.Proof.KI.Point4
import proofs.«175488_j3908420240157_2_alg».proof.Proof.KI.Kernel4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The accumulation -/

/-- THE ACCUMULATION. What the scratch column holds after the body at the point number \`n\`: the row sums of that
    point's block of exp(q zᵀ) + exp(q stuᵀ), added to zero at the first point of a row of the grid (j = 0) and to what
    the point before left otherwise — so at the last point of a row (j = 4) the row sums over the whole row. -/
def S4 (c : Dev nD) : (n : ℕ) → n < cfg4.N → Vec F S2000x1 .f32
  | 0, h => acc4 (iblk4 V c 0 ⟨0, h⟩) (iblk4 V c 1 ⟨0, h⟩) (iblk4 V c 2 ⟨0, h⟩) k4_pay2
  | n + 1, h =>
    if (n + 1) % 5 = 0 then acc4 (iblk4 V c 0 ⟨n + 1, h⟩) (iblk4 V c 1 ⟨n + 1, h⟩) (iblk4 V c 2 ⟨n + 1, h⟩) k4_pay2
    else acc4 (iblk4 V c 0 ⟨n + 1, h⟩) (iblk4 V c 1 ⟨n + 1, h⟩) (iblk4 V c 2 ⟨n + 1, h⟩) (S4 c n (Nat.lt_of_succ_lt h))

/-- At the first point of a row the accumulation starts from zero. -/
theorem S4_reset (c : Dev nD) (t : Fin cfg4.N) (h0 : t.val % 5 = 0) :
    S4 V c t.val t.isLt = acc4 (iblk4 V c 0 t) (iblk4 V c 1 t) (iblk4 V c 2 t) k4_pay2 := by
  obtain ⟨n, hn⟩ := t
  cases n with
  | zero => rfl
  | succ n => exact if_pos h0

/-- At a later point of a row it continues from what the point before left. -/
theorem S4_step (c : Dev nD) (t : Fin cfg4.N) (h0 : ¬t.val % 5 = 0) :
    S4 V c t.val t.isLt = acc4 (iblk4 V c 0 t) (iblk4 V c 1 t) (iblk4 V c 2 t)
      (S4 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The scratch operand: a whole scoped buffer of the kernel's own, passed beside the windows. -/
abbrev scM4 : Memref sig .tc .vmem S2000x1 .f32 := Memref.whole cc4_scratch0

/-- The scoped buffers of the core that are neither staged by this pipeline nor its scratch, each at some contents:
    the body touches none of them. -/
abbrev rest4 (c : Dev nD) : sProp 𝕄 :=
  Pipeline.scopedRestBut (Ix := Unit) (Name := ℕ) (U := U) (Lvl := ℕ) (Val := Elt F) spec4 c [cc4_scratch0]

/-- The invariant before the point number \`n\`: before the first point every scoped buffer no window stages at some
    contents (what the region is entered with: the scratch holds anything); afterwards the scratch at exactly what the
    point before left in it, beside the others. -/
def Φ4 (c : Dev nD) : (n : ℕ) → n ≤ cfg4.N → sProp 𝕄
  | 0, _ => Pipeline.scopedRest (Ix := Unit) (Name := ℕ) (U := U) (Lvl := ℕ) (Val := Elt F) spec4 c
  | n + 1, h => iprop(owns (c : Thread nD τ) scM4 fullShare (S4 V c n h) ∗ rest4 (U := U) c)

/-- The scoped rest with the scratch split out, owned at some contents. -/
theorem scopedRest4_eq (c : Dev nD) :
    (Pipeline.scopedRest (Ix := Unit) (Name := ℕ) (U := U) (Lvl := ℕ) (Val := Elt F) spec4 c : sProp 𝕄)
      = iprop((∃ d, owns (c : Thread nD τ) scM4 fullShare d) ∗ rest4 (U := U) c) := by
  rw [scopedRest4_split]; simp only [scM4, owns_whole]; try rfl

theorem Φ4_zero (c : Dev nD) (n : ℕ) (h : n ≤ cfg4.N) (hz : n = 0) :
    Φ4 (U := U) V c n h = iprop((∃ d, owns (c : Thread nD τ) scM4 fullShare d) ∗ rest4 (U := U) c) := by
  subst hz; exact scopedRest4_eq c

theorem Φ4_succ (c : Dev nD) (n : ℕ) (hn : n < cfg4.N) :
    Φ4 (U := U) V c (n + 1) hn = iprop(owns (c : Thread nD τ) scM4 fullShare (S4 V c n hn) ∗ rest4 (U := U) c) := rfl

theorem Φ4_pos (c : Dev nD) (n : ℕ) (h : n ≤ cfg4.N) (hz : n ≠ 0) :
    Φ4 (U := U) V c n h = iprop(owns (c : Thread nD τ) scM4 fullShare (S4 V c (n - 1) (by omega)) ∗ rest4 (U := U) c) := by
  cases n with
  | zero => exact absurd rfl hz
  | succ n => rfl

/-! ## The pipeline's proof data -/

/-- The proof data of pipeline 4 on core \`c\`, from the entry valuation \`V\`: the four arrays as the region finds them;
    after the body at point \`t\` each input's buffer at its block and the output's at the accumulation \`S4\` (consulted
    only at the points with j = 4, where the body stores it there: at the others the window is idle); the invariant
    \`Φ4\`; nothing owed; full shares. -/
def dat4 (c : Dev nD) : Dat τ (Elt F) Unit ℕ U ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => S4 V c t.val t.isLt
  Φ k := Φ4 V c k.val (Nat.le_of_lt_succ k.isLt)
  q _ := fullShare
  owed _ := 0

/-- The proof data's arrays are the entry contents. -/
theorem A_eq4 (c : Dev nD) (w : Fin cfg4.W) : (dat4 (U := U) V c).A w = V c (Pipeline.arrRef spec4 w) := by
  dsimp only [dat4]

/-- What the body leaves, window by window. -/
theorem after4_0 (c : Dev nD) (t : Fin cfg4.N) : (dat4 (U := U) V c).after 0 t = iblk4 V c 0 t := by dsimp only [dat4]
theorem after4_1 (c : Dev nD) (t : Fin cfg4.N) : (dat4 (U := U) V c).after 1 t = iblk4 V c 1 t := by dsimp only [dat4]
theorem after4_2 (c : Dev nD) (t : Fin cfg4.N) : (dat4 (U := U) V c).after 2 t = iblk4 V c 2 t := by dsimp only [dat4]
theorem after4_3 (c : Dev nD) (t : Fin cfg4.N) : (dat4 (U := U) V c).after 3 t = S4 V c t.val t.isLt := by dsimp only [dat4]

/-- Each input's current staging buffer holds its block at every point. -/
theorem before4_0 (c : Dev nD) (t : Fin cfg4.N) (d) : (dat4 (U := U) V c).before 0 t d = iblk4 V c 0 t :=
  before4_0_of V (dat4 V c) (A_eq4 V c 0) (after4_0 V c) t d
theorem before4_1 (c : Dev nD) (t : Fin cfg4.N) (d) : (dat4 (U := U) V c).before 1 t d = iblk4 V c 1 t :=
  before4_1_of V (dat4 V c) (A_eq4 V c 1) (after4_1 V c) t d
theorem before4_2 (c : Dev nD) (t : Fin cfg4.N) (d) : (dat4 (U := U) V c).before 2 t d = iblk4 V c 2 t :=
  before4_2_of V (dat4 V c) (A_eq4 V c 2) (after4_2 V c) t d

/-- The invariant at a point's start, restated at the point's number. -/
theorem Φ4_castSucc (c : Dev nD) (t : Fin cfg4.N) :
    (dat4 (U := U) V c).Φ t.castSucc = Φ4 V c t.val (Nat.le_of_lt t.isLt) := by
  dsimp only [dat4]; simp only [Fin.coe_castSucc]

/-! ## The body obligation, at a generic point -/

/-- What the body is called with at point \`t\`: the invariant, the core's dues, and the four current staging buffers
    (each input at its block; the output at whatever the points before left there). -/
def bodyPre4 (c : Dev nD) (t : Fin cfg4.N) : sProp 𝕄 :=
  iprop((dat4 (U := U) V c).Φ t.castSucc ∗ (dat4 (U := U) V c).owesAt () t.castSucc
    ∗ (∃ d, owns (c : Thread nD τ) (st4_0 t) fullShare ((dat4 (U := U) V c).before 0 t d))
    ∗ (∃ d, owns (c : Thread nD τ) (st4_1 t) fullShare ((dat4 (U := U) V c).before 1 t d))
    ∗ (∃ d, owns (c : Thread nD τ) (st4_2 t) fullShare ((dat4 (U := U) V c).before 2 t d))
    ∗ (∃ d, owns (c : Thread nD τ) (st4_3 t) fullShare ((dat4 (U := U) V c).before 3 t d)))

/-- What it returns: the output window's buffer at the accumulation where the body stored it (j = 4), and as found
    where the window is idle. -/
def bodyPost4 (c : Dev nD) (t : Fin cfg4.N) : sProp 𝕄 :=
  iprop((dat4 (U := U) V c).Φ t.succ ∗ (dat4 (U := U) V c).owesAt () t.succ
    ∗ (dat4 (U := U) V c).leavesExact 0 t
    ∗ (dat4 (U := U) V c).leavesExact 1 t
    ∗ (dat4 (U := U) V c).leavesExact 2 t
    ∗ (dat4 (U := U) V c).leavesExact 3 t)

/-- An input window is never idle: the body leaves its buffer at the block. -/
theorem leaves4_0 (c : Dev nD) (t : Fin cfg4.N) :
    (dat4 (U := U) V c).leavesExact 0 t = owns (c : Thread nD τ) (st4_0 t) fullShare (iblk4 V c 0 t) := by
  rw [← after4_0 (U := U) V c t]
theorem leaves4_1 (c : Dev nD) (t : Fin cfg4.N) :
    (dat4 (U := U) V c).leavesExact 1 t = owns (c : Thread nD τ) (st4_1 t) fullShare (iblk4 V c 1 t) := by
  rw [← after4_1 (U := U) V c t]
theorem leaves4_2 (c : Dev nD) (t : Fin cfg4.N) :
    (dat4 (U := U) V c).leavesExact 2 t = owns (c : Thread nD τ) (st4_2 t) fullShare (iblk4 V c 2 t) := by
  rw [← after4_2 (U := U) V c t]

/-- Where the second condition holds the output window is live: its buffer is left at the accumulation. -/
theorem leaves4_3_live (c : Dev nD) (t : Fin cfg4.N) (h : cond4_2 (grid4.coords t)) :
    (dat4 (U := U) V c).leavesExact 3 t = owns (c : Thread nD τ) (st4_3 t) fullShare (S4 V c t.val t.isLt) := by
  unfold Dat.leavesExact; rw [live4_3 t h, after4_3]

set_option maxHeartbeats 1600000 in
/-- The body at any point, by the case its number selects: the inputs' memrefs hold their blocks; the invariant hands
    the body the scratch at what the point before left (at anything at the first point) and takes it back at this
    point's accumulation; the other scoped buffers and the core's dues pass through untouched. -/
theorem sound_body4 (c : Dev nD) (t : Fin cfg4.N) :
    bodyPre4 (U := U) V c t ⊢ wp frame (wpE (defs₀ (F := F)) Variants.none c none) Set.univ (bodyAt4 t) (fun _ => bodyPost4 (U := U) V c t) := by
  unfold bodyPre4 bodyPost4 bodyAt4
  simp only [before4_0, before4_1, before4_2]
  rw [show (dat4 (U := U) V c).owesAt () t.succ = (dat4 (U := U) V c).owesAt () t.castSucc from rfl,
    show (dat4 (U := U) V c).Φ t.succ = Φ4 V c (t.val + 1) t.isLt from rfl, Φ4_succ, Φ4_castSucc,
    leaves4_0, leaves4_1, leaves4_2]
  have hN : t.val < 25 := lt_of_lt_of_eq t.isLt (show cfg4.N = 25 from N_4)
  by_cases h0 : t.val % 5 = 0
  · -- the first point of a row
    have h4 : ¬t.val % 5 = 4 := by omega
    have hc1 : cond4_1 (grid4.coords t) := (hcond4_1 t).mpr h0
    have hc2 : ¬cond4_2 (grid4.coords t) := fun h => h4 ((hcond4_2 t).mp h)
    rw [Dat.leavesExact_idle (dat4 (U := U) V c) 3 t (idle4_3 t hc2) (noFlush4_3 t hc2), S4_reset V c t h0]
    by_cases hz : t.val = 0
    · rw [Φ4_zero V c _ _ hz]
      iintro ⟨⟨HS, Hr⟩, Ho, ⟨%d0, H0⟩, ⟨%d1, H1⟩, ⟨%d2, H2⟩, ⟨%d3, H3⟩⟩
      iapply (sound_kernel4_A c Set.univ (grid4.coords t) hc1 hc2 _ _ _ _ _ _ _ _ _ _ (iblk4 V c 0 t) (iblk4 V c 1 t) (iblk4 V c 2 t)
        ((dat4 (U := U) V c).before 3 t d3) k4_pay2 _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3
    · rw [Φ4_pos V c _ _ hz]
      iintro ⟨⟨HS, Hr⟩, Ho, ⟨%d0, H0⟩, ⟨%d1, H1⟩, ⟨%d2, H2⟩, ⟨%d3, H3⟩⟩
      iapply (sound_kernel4_A c Set.univ (grid4.coords t) hc1 hc2 _ _ _ _ _ _ _ _ _ _ (iblk4 V c 0 t) (iblk4 V c 1 t) (iblk4 V c 2 t)
        ((dat4 (U := U) V c).before 3 t d3) k4_pay2 _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3
  · have hz : t.val ≠ 0 := fun e => h0 (by rw [e])
    have hc1 : ¬cond4_1 (grid4.coords t) := fun h => h0 ((hcond4_1 t).mp h)
    rw [Φ4_pos V c _ _ hz, S4_step V c t h0]
    by_cases h4 : t.val % 5 = 4
    · -- the last point of a row
      have hc2 : cond4_2 (grid4.coords t) := (hcond4_2 t).mpr h4
      rw [leaves4_3_live V c t hc2, S4_step V c t h0]
      iintro ⟨⟨HS, Hr⟩, Ho, ⟨%d0, H0⟩, ⟨%d1, H1⟩, ⟨%d2, H2⟩, ⟨%d3, H3⟩⟩
      iapply (sound_kernel4_C c Set.univ (grid4.coords t) hc1 hc2 _ _ _ _ _ _ _ _ _ _ (iblk4 V c 0 t) (iblk4 V c 1 t) (iblk4 V c 2 t)
        k4_pay2 (S4 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexact H3
    · -- a middle point of a row
      have hc2 : ¬cond4_2 (grid4.coords t) := fun h => h4 ((hcond4_2 t).mp h)
      rw [Dat.leavesExact_idle (dat4 (U := U) V c) 3 t (idle4_3 t hc2) (noFlush4_3 t hc2)]
      iintro ⟨⟨HS, Hr⟩, Ho, ⟨%d0, H0⟩, ⟨%d1, H1⟩, ⟨%d2, H2⟩, ⟨%d3, H3⟩⟩
      iapply (sound_kernel4_B c Set.univ (grid4.coords t) hc1 hc2 _ _ _ _ _ _ _ _ _ _ (iblk4 V c 0 t) (iblk4 V c 1 t) (iblk4 V c 2 t)
        ((dat4 (U := U) V c).before 3 t d3) (S4 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3

/-- The library's body obligation, at every point. -/
theorem body_obligation4 (c : Dev nD) : BodyObligation (dat4 (F := F) (U := U) V c) (defs₀ (F := F)) Variants.none () Set.univ := fun t => by
  rw [bigSep_W4, bigSep_W4]
  exact sound_body4 V c t

/-- info: 'Cert.KernelIdeal.Hand.body_obligation4' depends on axioms: [propext, Classical.choice, Quot.sound] -/
#guard_msgs in #print axioms body_obligation4

/-! ## The region's ends -/

/-- What the region is entered with — every scoped buffer no window stages, at some contents — is the invariant before
    the first point. -/
theorem hin4 (c : Dev nD) :
    (Pipeline.scopedRest (Ix := Unit) (Name := ℕ) (U := U) (Lvl := ℕ) (Val := Elt F) spec4 c : sProp 𝕄) ⊢ (dat4 (U := U) V c).Φ 0 :=
  Idealize.SL.BI.Entails.refl _

/-- After the last point the invariant gives them back: the scratch's named contents are forgotten. -/
theorem hout4 (c : Dev nD) :
    (dat4 (U := U) V c).Φ (Fin.last cfg4.N) ⊢ (Pipeline.scopedRest (Ix := Unit) (Name := ℕ) (U := U) (Lvl := ℕ) (Val := Elt F) spec4 c : sProp 𝕄) := by
  rw [show (dat4 (U := U) V c).Φ (Fin.last cfg4.N) = Φ4 V c (Fin.last cfg4.N).val (Nat.le_of_lt_succ (Fin.last cfg4.N).isLt) from rfl,
    Φ4_pos V c _ _ (by rw [Fin.val_last]; have : cfg4.N = 25 := N_4; omega), scopedRest4_eq]
  iintro ⟨HS, Hr⟩
  isplitl [HS]
  · iexists _; iexact HS
  iexact Hr

end Cert.KernelIdeal.Hand

end
-- ==== Proof.KI.Seg4.lean ====
/-
  Region 4 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin4`: the fold of its five write-backs, one
  per row of the grid, at the row's last point) and every other buffer as entered; `Wout4` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage — among them the kernel's scratch
  accumulator, which the invariant names between points: it is one of them at some contents when the region is
  entered, and is put back among them, its contents forgotten, when the region is left; the kernel has no
  semaphore of its own and owes no one.
-/
import proofs.«175488_j3908420240157_2_alg».proof.Proof.KI.Body4
import proofs.«175488_j3908420240157_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 4's at the entry valuation and the other seven as given. -/
abbrev fam4 (d0 : DatAt F U 0) (d1 : DatAt F U 1) (d2 : DatAt F U 2) (d3 : DatAt F U 3) (d5 : DatAt F U 5) (d6 : DatAt F U 6) (d7 : DatAt F U 7) : (p : Fin 8) → DatAt F U p :=
  pdatsOf d0 d1 d2 d3 (fun c => dat4 (Vof Wpre) c) d5 d6 d7

/-- The output window's array after the region, as the library computes it: the write-backs of the body's results
    folded over the grid. -/
def fin4 (c : Dev nD) : Buf (Elt F) ((c : Thread nD τ).loc main_v205) := (dat4 (U := U) (Vof Wpre) c).arrAt 3 cfg4.N

/-- The pipeline's arrays are four distinct buffers; the output's is the last. -/
theorem arrRef4_ne_out : ∀ w : Fin cfg4.W, w ≠ 3 → Pipeline.arrRef spec4 w ≠ main_v205 := by decide
/-- Every window but the last is an input. -/
theorem win4_in : ∀ w : Fin cfg4.W, w ≠ 3 → (cfg4.win w).isOut = false := by decide

-- `iapply` of a library lemma stated over the pinned configuration unifies with the printed one only when unification
-- may unfold plain definitions in a metavariable's type
set_option backward.isDefEq.respectTransparency.types false in
/-- REGION 4 over the thread state: entered from every unscoped buffer at `Wpre c` beside the rider, left at
    `Wpost c` beside the same rider, for any `Wpost` that has the output array at `fin4` and agrees with `Wpre` off it —
    stated over the family with the other seven pipelines' proof data arbitrary. -/
def seg4 (d0 : DatAt F U 0) (d1 : DatAt F U 1) (d2 : DatAt F U 2) (d3 : DatAt F U 3) (d5 : DatAt F U 5) (d6 : DatAt F U 6) (d7 : DatAt F U 7) (R : Dev nD → sProp 𝕄) (hout : ∀ c, Vof Wpost c main_v205 = fin4 (U := U) Wpre c)
    (hne : ∀ c (b : Ref sig .tc), b ≠ main_v205 → Vof Wpost c b = Vof Wpre c b) :
    Pipeline.RegionSeg (pcfgs (F := F)) adm (fam4 Wpre d0 d1 d2 d3 d5 d6 d7) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vof Wpre) c).loose
  hwaits := Pipeline.hwaits_of_owed_zero _ _ _ _ L lv 4 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec4 c (Vof Wpre c) ∗ R c)
  hentry c := by
    rw [Pipeline.ownSems0_none]
    have hsplit := Pipeline.arrays_of_unscopedBufs (p := 4) (pcfgs (F := F)) adm (fam4 Wpre d0 d1 d2 d3 d5 d6 d7) launch4.win launch4.arr_whole c
      ((fam4 Wpre d0 d1 d2 d3 d5 d6 d7 4 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam4 Wpre d0 d1 d2 d3 d5 d6 d7 4 c).Φ 0 = (dat4 (U := U) (Vof Wpre) c).Φ 0 from rfl]
    iintro ⟨-, -, Hr⟩
    iapply (hin4 (U := U) (Vof Wpre) c); iexact Hr
  hout c := by
    rw [Pipeline.ownSems0_none,
      show (fam4 Wpre d0 d1 d2 d3 d5 d6 d7 4 c).Φ (Fin.last _) = (dat4 (U := U) (Vof Wpre) c).Φ (Fin.last cfg4.N) from rfl]
    iintro HΦ
    ihave Hr := (hout4 (U := U) (Vof Wpre) c) $$ HΦ
    isplitr; · iempintro
    isplitr; · iempintro
    iexact Hr
  hexit c := by
    have hjoin := Pipeline.unscopedBufs_of_arrays (p := 4) (pcfgs (F := F)) adm (Ix := Unit) (Name := ℕ) (U := U) (Lvl := ℕ)
      launch4.win launch4.arr_whole c (fam4 Wpre d0 d1 d2 d3 d5 d6 d7) ((fam4 Wpre d0 d1 d2 d3 d5 d6 d7 4 c).share_full fun _ => rfl)
      (Vof Wpre c) (Vof Wpost c) ((fam4 Wpre d0 d1 d2 d3 d5 d6 d7 4 c).arrAt · cfg4.N)
      (fun w => by
        by_cases hw : w = 3
        · subst hw; exact (hout c).symm
        · exact ((fam4 Wpre d0 d1 d2 d3 d5 d6 d7 4 c).arrAt_in w (win4_in w hw) _).trans (hne c _ (arrRef4_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.KernelIdeal.Hand.seg4' depends on axioms: [propext, Classical.choice, Quot.sound] -/
#guard_msgs in #print axioms seg4

/-! ## The canonical exit valuation -/

/-- The entry valuation with pipeline 4's arrays at what its write-backs leave. -/
def Wout4 (c : Dev nD) : Valuation τ sig (Elt F) :=
  Pipeline.withArrays spec4 c (Wpre c) fun w => (dat4 (U := U) (Vof Wpre) c).arrAt w cfg4.N

/-- It has the output array at `fin4`, -/
theorem Wout4_out (c : Dev nD) : Vof (Wout4 (U := U) Wpre) c main_v205 = fin4 (U := U) Wpre c := by
  unfold Wout4 fin4; exact Pipeline.withArrays_arr spec4 launch4.win.arr_inj c _ _ 3
/-- and every other buffer as entered (an input window's array is written back as it was read). -/
theorem Wout4_ne (c : Dev nD) (b : Ref sig .tc) (hb : b ≠ main_v205) : Vof (Wout4 (U := U) Wpre) c b = Vof Wpre c b := by
  by_cases h : ∃ w, Pipeline.arrRef spec4 w = b
  · obtain ⟨w, rfl⟩ := h
    have hw : w ≠ 3 := fun e => hb (e ▸ rfl)
    unfold Wout4
    exact (Pipeline.withArrays_arr spec4 launch4.win.arr_inj c _ _ w).trans ((dat4 (U := U) (Vof Wpre) c).arrAt_in w (win4_in w hw) _)
  · unfold Wout4; exact Pipeline.withArrays_of_ne spec4 c _ _ b fun w e => h ⟨w, e⟩

end Cert.KernelIdeal.Hand

end
-- ==== Proof.KI.Body5.lean ====
/-
  Region 5 of the program (the tiled matmul kernel of custom_call 5, pipeline 5): what ONE point of its grid does.

  The kernel's body at a point loads the three input windows' staging buffers whole (a 2000-row block of x, the
  whole weight matrix, the bias row), loads the output window's staging buffer (a read whose value is never used),
  and stores ONE value over the whole output staging buffer: the payload `k5_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.KernelIdeal.Launch
import proofs.«175488_j3908420240157_2_alg».proof.Proof.Gen.KernelIdeal.Skeleton
import proofs.«175488_j3908420240157_2_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds the window's block at every point, fetched there or not (a window
    whose block index does not move is fetched once and then left in place): for any proof data whose array is `V`'s
    and whose body leaves the block where it was. Window 0, the block of x. -/
theorem before5_0_of {c : Dev nD} (dat : Dat τ (Elt F) Unit ℕ U ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1, the weight matrix (one block, fetched at the first point only). -/
theorem before5_1_of {c : Dev nD} (dat : Dat τ (Elt F) Unit ℕ U ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2, the bias row (one block, fetched at the first point only). -/
theorem before5_2_of {c : Dev nD} (dat : Dat τ (Elt F) Unit ℕ U ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every one is the whole staging buffer -/

abbrev rX5 : Rect S2000x512 := Rect.unit (s := S2000x512) ![0, 0] S2000x512.size inb_S2000x512_S2000x512_0_0
abbrev rW5 : Rect S512x512 := Rect.unit (s := S512x512) ![0, 0] S512x512.size inb_S512x512_S512x512_0_0
abbrev rB5 : Rect S1x512 := Rect.unit (s := S1x512) ![0, 0] S1x512.size inb_S1x512_S1x512_0_0
abbrev rO5 : Rect S2000x512 := Rect.unit (s := S2000x512) ![0, 0] S2000x512.size inb_S2000x512_S2000x512_0_0

/-! ## What the body leaves in the output window's buffer -/

/-- The output window's staging buffer after the body, from the three input blocks: the canonical contents of its
    one store, whose value is the payload of the three loads. -/
def out5_3 (x0 : Vec F S2000x512 .f32) (x1 : Vec F S512x512 .f32) (x2 : Vec F S1x512 .f32) : Vec F S2000x512 .f32 :=
  View.canon [⟨rO5, k5_pay1 (View.ld x0 rX5) (View.ld x1 rW5) (View.ld x2 rB5)⟩]

/-- The one store is of the whole buffer, so it covers it. -/
theorem cover5_3 (p0 : Vec F S2000x512 .f32) (y : S2000x512.Idx) :
    ∃ pc ∈ ([⟨rO5, p0⟩] : List (View.Piece (Elt F) S2000x512 .f32)), y ∈ pc.1.set :=
  View.cover_of_tiled [⟨rO5, p0⟩] S2000x512.size (by rfl) y

/-! ## The body's triple -/

set_option maxHeartbeats 1000000 in
/-- The kernel body on whole staging memrefs — the inputs' at read contents `x0 x1 x2`, the output's at anything —
    runs to its return with the inputs' as they were and the output's at `out5_3` of them. -/
theorem sound_kernel5 (c : Dev nD) (E : Set ℕ) (i : grid5.Coords)
    (arg1 : Memref sig .tc .vmem S2000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2000x512 .f32) (harg4 : arg4.IsWhole)
    (x0 : Vec F S2000x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__mm_kernel i arg1 harg1 arg2 harg2 arg3 harg3 arg4 harg4) K := by
  simp only [cc5__mm_kernel_eq_skeleton]; unfold cc5__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The invariant between the region's ends: the core's scoped buffers that no window of this pipeline stages (the
    other kernels' staging and scratch buffers), held at some contents — the body touches none of them. -/
abbrev Φ5 (c : Dev nD) : sProp 𝕄 := Pipeline.scopedRest (Ix := Unit) (Name := ℕ) (U := U) (Lvl := ℕ) (Val := Elt F) spec5 c

/-- The proof data of pipeline 5 on core `c`, from the entry valuation `V`: the four arrays as the region finds
    them; after the body at point `t` each input's buffer at its block and the output's at `out5_3` of the three input
    blocks at `t`; the invariant `Φ5`; nothing owed; full shares. -/
def dat5 (c : Dev nD) : Dat τ (Elt F) Unit ℕ U ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Φ5 c
  q _ := fullShare
  owed _ := 0

/-- The proof data's arrays are the entry contents. -/
theorem A_eq5 (c : Dev nD) (w : Fin cfg5.W) : (dat5 (U := U) V c).A w = V c (Pipeline.arrRef spec5 w) := by
  dsimp only [dat5]

/-- What the body leaves, window by window. -/
theorem after5_0 (c : Dev nD) (t : Fin cfg5.N) : (dat5 (U := U) V c).after 0 t = iblk5 V c 0 t := by dsimp only [dat5]
theorem after5_1 (c : Dev nD) (t : Fin cfg5.N) : (dat5 (U := U) V c).after 1 t = iblk5 V c 1 t := by dsimp only [dat5]
theorem after5_2 (c : Dev nD) (t : Fin cfg5.N) : (dat5 (U := U) V c).after 2 t = iblk5 V c 2 t := by dsimp only [dat5]
theorem after5_3 (c : Dev nD) (t : Fin cfg5.N) :
    (dat5 (U := U) V c).after 3 t = out5_3 (iblk5 V c 0 t) (iblk5 V c 1 t) (iblk5 V c 2 t) := by dsimp only [dat5]

/-- Each input's current staging buffer holds its block at every point. -/
theorem before5_0 (c : Dev nD) (t : Fin cfg5.N) (d) : (dat5 (U := U) V c).before 0 t d = iblk5 V c 0 t :=
  before5_0_of V (dat5 V c) (A_eq5 V c 0) (after5_0 V c) t d
theorem before5_1 (c : Dev nD) (t : Fin cfg5.N) (d) : (dat5 (U := U) V c).before 1 t d = iblk5 V c 1 t :=
  before5_1_of V (dat5 V c) (A_eq5 V c 1) (after5_1 V c) t d
theorem before5_2 (c : Dev nD) (t : Fin cfg5.N) (d) : (dat5 (U := U) V c).before 2 t d = iblk5 V c 2 t :=
  before5_2_of V (dat5 V c) (A_eq5 V c 2) (after5_2 V c) t d

/-! ## The body obligation, at a generic point -/

/-- What the body is called with at point `t`: the invariant, the core's dues, and the four current staging buffers
    (each input at its block; the output at whatever the pipeline left there). -/
def bodyPre5 (c : Dev nD) (t : Fin cfg5.N) : sProp 𝕄 :=
  iprop((dat5 (U := U) V c).Φ t.castSucc ∗ (dat5 (U := U) V c).owesAt () t.castSucc
    ∗ (∃ d, owns (c : Thread nD τ) (st5_0 t) fullShare ((dat5 (U := U) V c).before 0 t d))
    ∗ (∃ d, owns (c : Thread nD τ) (st5_1 t) fullShare ((dat5 (U := U) V c).before 1 t d))
    ∗ (∃ d, owns (c : Thread nD τ) (st5_2 t) fullShare ((dat5 (U := U) V c).before 2 t d))
    ∗ (∃ d, owns (c : Thread nD τ) (st5_3 t) fullShare ((dat5 (U := U) V c).before 3 t d)))

/-- What it returns. -/
def bodyPost5 (c : Dev nD) (t : Fin cfg5.N) : sProp 𝕄 :=
  iprop((dat5 (U := U) V c).Φ t.succ ∗ (dat5 (U := U) V c).owesAt () t.succ
    ∗ owns (c : Thread nD τ) (st5_0 t) fullShare ((dat5 (U := U) V c).after 0 t)
    ∗ owns (c : Thread nD τ) (st5_1 t) fullShare ((dat5 (U := U) V c).after 1 t)
    ∗ owns (c : Thread nD τ) (st5_2 t) fullShare ((dat5 (U := U) V c).after 2 t)
    ∗ owns (c : Thread nD τ) (st5_3 t) fullShare ((dat5 (U := U) V c).after 3 t))

/-- The body at any point: the inputs' memrefs hold their blocks, so `sound_kernel5` applies; the invariant and the
    core's dues pass through untouched; the output buffer's prior contents are not needed. -/
theorem sound_body5 (c : Dev nD) (t : Fin cfg5.N) :
    bodyPre5 (U := U) V c t ⊢ wp frame (wpE (defs₀ (F := F)) Variants.none c none) Set.univ (bodyAt5 t) (fun _ => bodyPost5 (U := U) V c t) := by
  unfold bodyPre5 bodyPost5 bodyAt5
  simp only [before5_0, before5_1, before5_2]
  rw [show (dat5 (U := U) V c).Φ t.succ = (dat5 (U := U) V c).Φ t.castSucc from rfl,
    show (dat5 (U := U) V c).owesAt () t.succ = (dat5 (U := U) V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) (U := U) V c) (defs₀ (F := F)) Variants.none () Set.univ := fun t => by
  rw [bigSep_W5, bigSep_W5]
  exact sound_body5 V c t

/-- info: 'Cert.KernelIdeal.Hand.body_obligation5' depends on axioms: [propext, Classical.choice, Quot.sound] -/
#guard_msgs in #print axioms body_obligation5

end Cert.KernelIdeal.Hand

end
-- ==== Proof.KI.Seg5.lean ====
/-
  Region 5 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin5`: the fold of its five blocks'
  write-backs) and every other buffer as entered; `Wout5` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.KI.Body5
import proofs.«175488_j3908420240157_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 5's at the entry valuation and the other seven as given. -/
abbrev fam5 (d0 : DatAt F U 0) (d1 : DatAt F U 1) (d2 : DatAt F U 2) (d3 : DatAt F U 3) (d4 : DatAt F U 4) (d6 : DatAt F U 6) (d7 : DatAt F U 7) : (p : Fin 8) → DatAt F U p :=
  pdatsOf d0 d1 d2 d3 d4 (fun c => dat5 (Vof Wpre) c) d6 d7

/-- The output window's array after the region, as the library computes it: the write-backs of the body's results
    folded over the grid. -/
def fin5 (c : Dev nD) : Buf (Elt F) ((c : Thread nD τ).loc main_v228) := (dat5 (U := U) (Vof Wpre) c).arrAt 3 cfg5.N

/-- The pipeline's arrays are four distinct buffers; the output's is the last. -/
theorem arrRef5_ne_out : ∀ w : Fin cfg5.W, w ≠ 3 → Pipeline.arrRef spec5 w ≠ main_v228 := by decide
/-- Every window but the last is an input. -/
theorem win5_in : ∀ w : Fin cfg5.W, w ≠ 3 → (cfg5.win w).isOut = false := by decide

-- `iapply` of a library lemma stated over the pinned configuration unifies with the printed one only when unification
-- may unfold plain definitions in a metavariable's type
set_option backward.isDefEq.respectTransparency.types false in
/-- REGION 5 over the thread state: entered from every unscoped buffer at `Wpre c` beside the rider, left at
    `Wpost c` beside the same rider, for any `Wpost` that has the output array at `fin5` and agrees with `Wpre` off it —
    stated over the family with the other seven pipelines' proof data arbitrary. -/
def seg5 (d0 : DatAt F U 0) (d1 : DatAt F U 1) (d2 : DatAt F U 2) (d3 : DatAt F U 3) (d4 : DatAt F U 4) (d6 : DatAt F U 6) (d7 : DatAt F U 7) (R : Dev nD → sProp 𝕄) (hout : ∀ c, Vof Wpost c main_v228 = fin5 (U := U) Wpre c)
    (hne : ∀ c (b : Ref sig .tc), b ≠ main_v228 → Vof Wpost c b = Vof Wpre c b) :
    Pipeline.RegionSeg (pcfgs (F := F)) adm (fam5 Wpre d0 d1 d2 d3 d4 d6 d7) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vof Wpre) c).loose
  hwaits := Pipeline.hwaits_of_owed_zero _ _ _ _ L lv 5 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec5 c (Vof Wpre c) ∗ R c)
  hentry c := by
    rw [Pipeline.ownSems0_none]
    have hsplit := Pipeline.arrays_of_unscopedBufs (p := 5) (pcfgs (F := F)) adm (fam5 Wpre d0 d1 d2 d3 d4 d6 d7) launch5.win launch5.arr_whole c
      ((fam5 Wpre d0 d1 d2 d3 d4 d6 d7 5 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam5 Wpre d0 d1 d2 d3 d4 d6 d7 5 c).Φ 0 = Φ5 c from rfl]
    iintro ⟨-, -, Hr⟩; iexact Hr
  hout c := by
    rw [Pipeline.ownSems0_none, show (fam5 Wpre d0 d1 d2 d3 d4 d6 d7 5 c).Φ (Fin.last _) = Φ5 c from rfl]
    iintro Hr
    isplitr; · iempintro
    isplitr; · iempintro
    iexact Hr
  hexit c := by
    have hjoin := Pipeline.unscopedBufs_of_arrays (p := 5) (pcfgs (F := F)) adm (Ix := Unit) (Name := ℕ) (U := U) (Lvl := ℕ)
      launch5.win launch5.arr_whole c (fam5 Wpre d0 d1 d2 d3 d4 d6 d7) ((fam5 Wpre d0 d1 d2 d3 d4 d6 d7 5 c).share_full fun _ => rfl)
      (Vof Wpre c) (Vof Wpost c) ((fam5 Wpre d0 d1 d2 d3 d4 d6 d7 5 c).arrAt · cfg5.N)
      (fun w => by
        by_cases hw : w = 3
        · subst hw; exact (hout c).symm
        · exact ((fam5 Wpre d0 d1 d2 d3 d4 d6 d7 5 c).arrAt_in w (win5_in w hw) _).trans (hne c _ (arrRef5_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.KernelIdeal.Hand.seg5' depends on axioms: [propext, Classical.choice, Quot.sound] -/
#guard_msgs in #print axioms seg5

/-! ## The canonical exit valuation -/

/-- The entry valuation with pipeline 5's arrays at what its write-backs leave. -/
def Wout5 (c : Dev nD) : Valuation τ sig (Elt F) :=
  Pipeline.withArrays spec5 c (Wpre c) fun w => (dat5 (U := U) (Vof Wpre) c).arrAt w cfg5.N

/-- It has the output array at `fin5`, -/
theorem Wout5_out (c : Dev nD) : Vof (Wout5 (U := U) Wpre) c main_v228 = fin5 (U := U) Wpre c := by
  unfold Wout5 fin5; exact Pipeline.withArrays_arr spec5 launch5.win.arr_inj c _ _ 3
/-- and every other buffer as entered (an input window's array is written back as it was read). -/
theorem Wout5_ne (c : Dev nD) (b : Ref sig .tc) (hb : b ≠ main_v228) : Vof (Wout5 (U := U) Wpre) c b = Vof Wpre c b := by
  by_cases h : ∃ w, Pipeline.arrRef spec5 w = b
  · obtain ⟨w, rfl⟩ := h
    have hw : w ≠ 3 := fun e => hb (e ▸ rfl)
    unfold Wout5
    exact (Pipeline.withArrays_arr spec5 launch5.win.arr_inj c _ _ w).trans ((dat5 (U := U) (Vof Wpre) c).arrAt_in w (win5_in w hw) _)
  · unfold Wout5; exact Pipeline.withArrays_of_ne spec5 c _ _ b fun w e => h ⟨w, e⟩

end Cert.KernelIdeal.Hand

end
-- ==== Proof.KI.Body6.lean ====
/-
  Region 6 of the program (the tiled matmul kernel of custom_call 6, pipeline 6): what ONE point of its grid does.

  The kernel's body at a point loads the three input windows' staging buffers whole (a 2000-row block of x, the
  whole weight matrix, the bias row), loads the output window's staging buffer (a read whose value is never used),
  and stores ONE value over the whole output staging buffer: the payload `k6_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.KernelIdeal.Launch
import proofs.«175488_j3908420240157_2_alg».proof.Proof.Gen.KernelIdeal.Skeleton
import proofs.«175488_j3908420240157_2_alg».proof.Proof.Gen.KernelIdeal.Points
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds the window's block at every point, fetched there or not (a window
    whose block index does not move is fetched once and then left in place): for any proof data whose array is `V`'s
    and whose body leaves the block where it was. Window 0, the block of x. -/
theorem before6_0_of {c : Dev nD} (dat : Dat τ (Elt F) Unit ℕ U ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Window 1, the weight matrix (one block, fetched at the first point only). -/
theorem before6_1_of {c : Dev nD} (dat : Dat τ (Elt F) Unit ℕ U ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Window 2, the bias row (one block, fetched at the first point only). -/
theorem before6_2_of {c : Dev nD} (dat : Dat τ (Elt F) Unit ℕ U ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every one is the whole staging buffer -/

abbrev rX6 : Rect S2000x256 := Rect.unit (s := S2000x256) ![0, 0] S2000x256.size inb_S2000x256_S2000x256_0_0
abbrev rW6 : Rect S256x256 := Rect.unit (s := S256x256) ![0, 0] S256x256.size inb_S256x256_S256x256_0_0
abbrev rB6 : Rect S1x256 := Rect.unit (s := S1x256) ![0, 0] S1x256.size inb_S1x256_S1x256_0_0
abbrev rO6 : Rect S2000x256 := Rect.unit (s := S2000x256) ![0, 0] S2000x256.size inb_S2000x256_S2000x256_0_0

/-! ## What the body leaves in the output window's buffer -/

/-- The output window's staging buffer after the body, from the three input blocks: the canonical contents of its
    one store, whose value is the payload of the three loads. -/
def out6_3 (x0 : Vec F S2000x256 .f32) (x1 : Vec F S256x256 .f32) (x2 : Vec F S1x256 .f32) : Vec F S2000x256 .f32 :=
  View.canon [⟨rO6, k6_pay1 (View.ld x0 rX6) (View.ld x1 rW6) (View.ld x2 rB6)⟩]

/-- The one store is of the whole buffer, so it covers it. -/
theorem cover6_3 (p0 : Vec F S2000x256 .f32) (y : S2000x256.Idx) :
    ∃ pc ∈ ([⟨rO6, p0⟩] : List (View.Piece (Elt F) S2000x256 .f32)), y ∈ pc.1.set :=
  View.cover_of_tiled [⟨rO6, p0⟩] S2000x256.size (by rfl) y

/-! ## The body's triple -/

set_option maxHeartbeats 1000000 in
/-- The kernel body on whole staging memrefs — the inputs' at read contents `x0 x1 x2`, the output's at anything —
    runs to its return with the inputs' as they were and the output's at `out6_3` of them. -/
theorem sound_kernel6 (c : Dev nD) (E : Set ℕ) (i : grid6.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__mm_kernel i arg1 harg1 arg2 harg2 arg3 harg3 arg4 harg4) K := by
  simp only [cc6__mm_kernel_eq_skeleton]; unfold cc6__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The invariant between the region's ends: the core's scoped buffers that no window of this pipeline stages (the
    other kernels' staging and scratch buffers), held at some contents — the body touches none of them. -/
abbrev Φ6 (c : Dev nD) : sProp 𝕄 := Pipeline.scopedRest (Ix := Unit) (Name := ℕ) (U := U) (Lvl := ℕ) (Val := Elt F) spec6 c

/-- The proof data of pipeline 6 on core `c`, from the entry valuation `V`: the four arrays as the region finds
    them; after the body at point `t` each input's buffer at its block and the output's at `out6_3` of the three input
    blocks at `t`; the invariant `Φ6`; nothing owed; full shares. -/
def dat6 (c : Dev nD) : Dat τ (Elt F) Unit ℕ U ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Φ6 c
  q _ := fullShare
  owed _ := 0

/-- The proof data's arrays are the entry contents. -/
theorem A_eq6 (c : Dev nD) (w : Fin cfg6.W) : (dat6 (U := U) V c).A w = V c (Pipeline.arrRef spec6 w) := by
  dsimp only [dat6]

/-- What the body leaves, window by window. -/
theorem after6_0 (c : Dev nD) (t : Fin cfg6.N) : (dat6 (U := U) V c).after 0 t = iblk6 V c 0 t := by dsimp only [dat6]
theorem after6_1 (c : Dev nD) (t : Fin cfg6.N) : (dat6 (U := U) V c).after 1 t = iblk6 V c 1 t := by dsimp only [dat6]
theorem after6_2 (c : Dev nD) (t : Fin cfg6.N) : (dat6 (U := U) V c).after 2 t = iblk6 V c 2 t := by dsimp only [dat6]
theorem after6_3 (c : Dev nD) (t : Fin cfg6.N) :
    (dat6 (U := U) V c).after 3 t = out6_3 (iblk6 V c 0 t) (iblk6 V c 1 t) (iblk6 V c 2 t) := by dsimp only [dat6]

/-- Each input's current staging buffer holds its block at every point. -/
theorem before6_0 (c : Dev nD) (t : Fin cfg6.N) (d) : (dat6 (U := U) V c).before 0 t d = iblk6 V c 0 t :=
  before6_0_of V (dat6 V c) (A_eq6 V c 0) (after6_0 V c) t d
theorem before6_1 (c : Dev nD) (t : Fin cfg6.N) (d) : (dat6 (U := U) V c).before 1 t d = iblk6 V c 1 t :=
  before6_1_of V (dat6 V c) (A_eq6 V c 1) (after6_1 V c) t d
theorem before6_2 (c : Dev nD) (t : Fin cfg6.N) (d) : (dat6 (U := U) V c).before 2 t d = iblk6 V c 2 t :=
  before6_2_of V (dat6 V c) (A_eq6 V c 2) (after6_2 V c) t d

/-! ## The body obligation, at a generic point -/

/-- What the body is called with at point `t`: the invariant, the core's dues, and the four current staging buffers
    (each input at its block; the output at whatever the pipeline left there). -/
def bodyPre6 (c : Dev nD) (t : Fin cfg6.N) : sProp 𝕄 :=
  iprop((dat6 (U := U) V c).Φ t.castSucc ∗ (dat6 (U := U) V c).owesAt () t.castSucc
    ∗ (∃ d, owns (c : Thread nD τ) (st6_0 t) fullShare ((dat6 (U := U) V c).before 0 t d))
    ∗ (∃ d, owns (c : Thread nD τ) (st6_1 t) fullShare ((dat6 (U := U) V c).before 1 t d))
    ∗ (∃ d, owns (c : Thread nD τ) (st6_2 t) fullShare ((dat6 (U := U) V c).before 2 t d))
    ∗ (∃ d, owns (c : Thread nD τ) (st6_3 t) fullShare ((dat6 (U := U) V c).before 3 t d)))

/-- What it returns. -/
def bodyPost6 (c : Dev nD) (t : Fin cfg6.N) : sProp 𝕄 :=
  iprop((dat6 (U := U) V c).Φ t.succ ∗ (dat6 (U := U) V c).owesAt () t.succ
    ∗ owns (c : Thread nD τ) (st6_0 t) fullShare ((dat6 (U := U) V c).after 0 t)
    ∗ owns (c : Thread nD τ) (st6_1 t) fullShare ((dat6 (U := U) V c).after 1 t)
    ∗ owns (c : Thread nD τ) (st6_2 t) fullShare ((dat6 (U := U) V c).after 2 t)
    ∗ owns (c : Thread nD τ) (st6_3 t) fullShare ((dat6 (U := U) V c).after 3 t))

/-- The body at any point: the inputs' memrefs hold their blocks, so `sound_kernel6` applies; the invariant and the
    core's dues pass through untouched; the output buffer's prior contents are not needed. -/
theorem sound_body6 (c : Dev nD) (t : Fin cfg6.N) :
    bodyPre6 (U := U) V c t ⊢ wp frame (wpE (defs₀ (F := F)) Variants.none c none) Set.univ (bodyAt6 t) (fun _ => bodyPost6 (U := U) V c t) := by
  unfold bodyPre6 bodyPost6 bodyAt6
  simp only [before6_0, before6_1, before6_2]
  rw [show (dat6 (U := U) V c).Φ t.succ = (dat6 (U := U) V c).Φ t.castSucc from rfl,
    show (dat6 (U := U) V c).owesAt () t.succ = (dat6 (U := U) V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) (U := U) V c) (defs₀ (F := F)) Variants.none () Set.univ := fun t => by
  rw [bigSep_W6, bigSep_W6]
  exact sound_body6 V c t

/-- info: 'Cert.KernelIdeal.Hand.body_obligation6' depends on axioms: [propext, Classical.choice, Quot.sound] -/
#guard_msgs in #print axioms body_obligation6

end Cert.KernelIdeal.Hand

end
-- ==== Proof.KI.Seg6.lean ====
/-
  Region 6 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin6`: the fold of its five blocks'
  write-backs) and every other buffer as entered; `Wout6` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.KI.Body6
import proofs.«175488_j3908420240157_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 6's at the entry valuation and the other seven as given. -/
abbrev fam6 (d0 : DatAt F U 0) (d1 : DatAt F U 1) (d2 : DatAt F U 2) (d3 : DatAt F U 3) (d4 : DatAt F U 4) (d5 : DatAt F U 5) (d7 : DatAt F U 7) : (p : Fin 8) → DatAt F U p :=
  pdatsOf d0 d1 d2 d3 d4 d5 (fun c => dat6 (Vof Wpre) c) d7

/-- The output window's array after the region, as the library computes it: the write-backs of the body's results
    folded over the grid. -/
def fin6 (c : Dev nD) : Buf (Elt F) ((c : Thread nD τ).loc main_v232) := (dat6 (U := U) (Vof Wpre) c).arrAt 3 cfg6.N

/-- The pipeline's arrays are four distinct buffers; the output's is the last. -/
theorem arrRef6_ne_out : ∀ w : Fin cfg6.W, w ≠ 3 → Pipeline.arrRef spec6 w ≠ main_v232 := by decide
/-- Every window but the last is an input. -/
theorem win6_in : ∀ w : Fin cfg6.W, w ≠ 3 → (cfg6.win w).isOut = false := by decide

-- `iapply` of a library lemma stated over the pinned configuration unifies with the printed one only when unification
-- may unfold plain definitions in a metavariable's type
set_option backward.isDefEq.respectTransparency.types false in
/-- REGION 6 over the thread state: entered from every unscoped buffer at `Wpre c` beside the rider, left at
    `Wpost c` beside the same rider, for any `Wpost` that has the output array at `fin6` and agrees with `Wpre` off it —
    stated over the family with the other seven pipelines' proof data arbitrary. -/
def seg6 (d0 : DatAt F U 0) (d1 : DatAt F U 1) (d2 : DatAt F U 2) (d3 : DatAt F U 3) (d4 : DatAt F U 4) (d5 : DatAt F U 5) (d7 : DatAt F U 7) (R : Dev nD → sProp 𝕄) (hout : ∀ c, Vof Wpost c main_v232 = fin6 (U := U) Wpre c)
    (hne : ∀ c (b : Ref sig .tc), b ≠ main_v232 → Vof Wpost c b = Vof Wpre c b) :
    Pipeline.RegionSeg (pcfgs (F := F)) adm (fam6 Wpre d0 d1 d2 d3 d4 d5 d7) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vof Wpre) c).loose
  hwaits := Pipeline.hwaits_of_owed_zero _ _ _ _ L lv 6 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec6 c (Vof Wpre c) ∗ R c)
  hentry c := by
    rw [Pipeline.ownSems0_none]
    have hsplit := Pipeline.arrays_of_unscopedBufs (p := 6) (pcfgs (F := F)) adm (fam6 Wpre d0 d1 d2 d3 d4 d5 d7) launch6.win launch6.arr_whole c
      ((fam6 Wpre d0 d1 d2 d3 d4 d5 d7 6 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam6 Wpre d0 d1 d2 d3 d4 d5 d7 6 c).Φ 0 = Φ6 c from rfl]
    iintro ⟨-, -, Hr⟩; iexact Hr
  hout c := by
    rw [Pipeline.ownSems0_none, show (fam6 Wpre d0 d1 d2 d3 d4 d5 d7 6 c).Φ (Fin.last _) = Φ6 c from rfl]
    iintro Hr
    isplitr; · iempintro
    isplitr; · iempintro
    iexact Hr
  hexit c := by
    have hjoin := Pipeline.unscopedBufs_of_arrays (p := 6) (pcfgs (F := F)) adm (Ix := Unit) (Name := ℕ) (U := U) (Lvl := ℕ)
      launch6.win launch6.arr_whole c (fam6 Wpre d0 d1 d2 d3 d4 d5 d7) ((fam6 Wpre d0 d1 d2 d3 d4 d5 d7 6 c).share_full fun _ => rfl)
      (Vof Wpre c) (Vof Wpost c) ((fam6 Wpre d0 d1 d2 d3 d4 d5 d7 6 c).arrAt · cfg6.N)
      (fun w => by
        by_cases hw : w = 3
        · subst hw; exact (hout c).symm
        · exact ((fam6 Wpre d0 d1 d2 d3 d4 d5 d7 6 c).arrAt_in w (win6_in w hw) _).trans (hne c _ (arrRef6_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.KernelIdeal.Hand.seg6' depends on axioms: [propext, Classical.choice, Quot.sound] -/
#guard_msgs in #print axioms seg6

/-! ## The canonical exit valuation -/

/-- The entry valuation with pipeline 6's arrays at what its write-backs leave. -/
def Wout6 (c : Dev nD) : Valuation τ sig (Elt F) :=
  Pipeline.withArrays spec6 c (Wpre c) fun w => (dat6 (U := U) (Vof Wpre) c).arrAt w cfg6.N

/-- It has the output array at `fin6`, -/
theorem Wout6_out (c : Dev nD) : Vof (Wout6 (U := U) Wpre) c main_v232 = fin6 (U := U) Wpre c := by
  unfold Wout6 fin6; exact Pipeline.withArrays_arr spec6 launch6.win.arr_inj c _ _ 3
/-- and every other buffer as entered (an input window's array is written back as it was read). -/
theorem Wout6_ne (c : Dev nD) (b : Ref sig .tc) (hb : b ≠ main_v232) : Vof (Wout6 (U := U) Wpre) c b = Vof Wpre c b := by
  by_cases h : ∃ w, Pipeline.arrRef spec6 w = b
  · obtain ⟨w, rfl⟩ := h
    have hw : w ≠ 3 := fun e => hb (e ▸ rfl)
    unfold Wout6
    exact (Pipeline.withArrays_arr spec6 launch6.win.arr_inj c _ _ w).trans ((dat6 (U := U) (Vof Wpre) c).arrAt_in w (win6_in w hw) _)
  · unfold Wout6; exact Pipeline.withArrays_of_ne spec6 c _ _ b fun w e => h ⟨w, e⟩

end Cert.KernelIdeal.Hand

end
-- ==== Proof.KI.Point7.lean ====
/-
  Region 7 of the program (the row-sum kernel of custom_call 7, pipeline 7): what the statements about one point of its
  5 x 5 grid are made of.

  At the point (i, j) the kernel's body is handed a block of 2000 rows of q (at block index i), a block of 2000 rows
  of z and one of stu (both at block index j), the output window's staging buffer, and a scratch column of 2000
  entries. It clears the scratch when j = 0; forms the 2000 x 2000 block e = exp(q zᵀ) + exp(q stuᵀ) (each product in
  three bf16 passes: the payload k7_pay3); adds the row sums of e to the scratch (the payload k7_pay1); and, when
  j = 4, copies the scratch into the output window's staging buffer.

  This module holds the pieces the body's triples and the proof data are stated with: the windows' blocks read off an
  entry valuation \`V\` of the core's buffers, and that an input window's staging buffer holds its block at every point;
  what one point adds to the scratch (\`acc7\`); and the two conditions in closed form over the 25 points
  (j = 0 at the points ≡ 0 mod 5, j = 4 at the points ≡ 4 mod 5), with where the output window is idle. Everything is
  stated for any float model F and any user resource algebra U. (The body's accesses, every one of a whole buffer, are
  those of region 4: the two kernels have the same shapes, and the access lemmas are imported from there.)
-/
import proofs.«175488_j3908420240157_2_alg».proof.Proof.KI.Point4
import proofs.«175488_j3908420240157_2_alg».proof.Proof.Gen.KernelIdeal.Launch
import proofs.«175488_j3908420240157_2_alg».proof.Proof.Gen.KernelIdeal.Skeleton
import proofs.«175488_j3908420240157_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window \`w\`'s block at point \`t\`: its array as the region finds it, read through the block's view. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds the window's block at every point, fetched there or not (a window
    whose block index does not move is left in place): for any proof data whose array is \`V\`'s and whose body leaves
    the block where it was. Window 0, the block of q (its index moves with the slow coordinate only). -/
theorem before7_0_of {c : Dev nD} (dat : Dat τ (Elt F) Unit ℕ U ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Window 1, the block of z (fetched at every point). -/
theorem before7_1_of {c : Dev nD} (dat : Dat τ (Elt F) Unit ℕ U ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Window 2, the block of stu (fetched at every point). -/
theorem before7_2_of {c : Dev nD} (dat : Dat τ (Elt F) Unit ℕ U ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## What a point adds to the scratch -/

/-- The scratch after a point, from the three input blocks and the column \`s\` the accumulation starts from: \`s\` plus
    the row sums of exp(q zᵀ) + exp(q stuᵀ). -/
def acc7 (x0 x1 x2 : Vec F S2000x256 .f32) (s : Vec F S2000x1 .f32) : Vec F S2000x1 .f32 :=
  k7_pay1 (k7_pay3 x0 x1 x2) s

/-! ## The body's two conditions -/

/-- The first conditional's condition (the scratch is cleared): the fast coordinate is 0. -/
abbrev cond7_1 (i : grid7.Coords) : Prop :=
  (Scalar.cmpi .ne (Scalar.extui (Scalar.cmpi .eq (BitVec.ofNat 32 (i 1).val) 0#32)) 0#32) = 1#1
/-- It holds at the points ≡ 0 (mod 5): decided over the grid. -/
theorem hcond7_1 : ∀ t : Fin cfg7.N, cond7_1 (grid7.coords t) ↔ t.val % 5 = 0 :=
  (by decide +kernel : ∀ t : Fin grid7.N, cond7_1 (grid7.coords t) ↔ t.val % 5 = 0)

/-- The second conditional's condition (the scratch is copied to the output window): the fast coordinate is 4. -/
abbrev cond7_2 (i : grid7.Coords) : Prop := k7_cond2 i = 1#1
/-- It holds at the points ≡ 4 (mod 5): decided over the grid. -/
theorem hcond7_2 : ∀ t : Fin cfg7.N, cond7_2 (grid7.coords t) ↔ t.val % 5 = 4 :=
  (by decide +kernel : ∀ t : Fin grid7.N, cond7_2 (grid7.coords t) ↔ t.val % 5 = 4)

/-- The output window is idle exactly where the second condition fails, -/
theorem idle7_3 : ∀ t : Fin cfg7.N, ¬cond7_2 (grid7.coords t) → cfg7.idle 3 (grid7.coords t) = true := by decide +kernel
/-- live where it holds, -/
theorem live7_3 : ∀ t : Fin cfg7.N, cond7_2 (grid7.coords t) → cfg7.idle 3 (grid7.coords t) = false := by decide +kernel
/-- and not written back where it fails. -/
theorem noFlush7_3 (t : Fin cfg7.N) (h : ¬cond7_2 (grid7.coords t)) : (cfg7.win 3).flush t = false :=
  Bool.eq_false_iff.mpr fun hf => h ((hcond7_2 t).mpr ((flush7_3 t).mp hf))

end Cert.KernelIdeal.Hand

end
-- ==== Proof.KI.Kernel7.lean ====
/-
  Region 7 of the program: the kernel body's triple, on any whole memrefs, in each of the three cases of its two
  conditionals.

  The body's first conditional (the fast grid coordinate j is 0) clears the scratch column; the second (j = 4) copies
  the scratch into the output window's staging buffer. On a 5 x 5 grid a point meets exactly one of three
  assignments: A (j = 0: cleared, not copied), B (0 < j < 4: neither), C (j = 4: not cleared, copied). In each case
  the body loads the three input blocks whole, forms the block e of exp(q zᵀ) + exp(q stuᵀ), and stores over the whole
  scratch the sum of the scratch as loaded and the row sums of e: \`acc7\` of the three blocks and of the column the
  accumulation starts from — zero in case A, what the scratch held in cases B and C. Every access is of a whole
  buffer, so a load reads the buffer's contents and a store leaves its payload.
-/
import proofs.«175488_j3908420240157_2_alg».proof.Proof.KI.Point7
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

set_option maxHeartbeats 1000000 in
/-- CASE A (j = 0, the first point of a row of the grid): the scratch, whatever it held, is cleared and then receives the
    point's row sums; the output window's buffer is handed back as found. -/
theorem sound_kernel7_A (c : Dev nD) (E : Set ℕ) (i : grid7.Coords) (hc1 : cond7_1 i) (hc2 : ¬cond7_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (acc7 x0 x1 x2 k7_pay2)) -∗ K ⟨⟩))
      ⊢ wp frame (wpE (defs₀ (F := F)) Variants.none c none) E (cc7__negsim_kernel i arg2 harg2 arg3 harg3 arg4 harg4 arg5 harg5 arg6 harg6) K := by
  simp only [cc7__negsim_kernel_eq_skeleton]; unfold cc7__negsim_kernel_skel
  simp only [k7_part1_eq_skeleton]; unfold k7_part1_skel
  unfold owns
  iintro ⟨⟨%f0, %hf0, H0⟩, ⟨%f1, %hf1, H1⟩, ⟨%f2, %hf2, H2⟩, ⟨%fo, %hfo, HO⟩, ⟨%ds, %fs, -, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; exact hfo
    iexact HO
  iexists _; isplitr
  swap; · iexact HS
  ipureintro
  sl_unfold_run_names
  refine (read_store4 _ _ _ _).trans ?_
  show acc7 (View.ld (View.read (Elt F) arg2.view f0) rI4) (View.ld (View.read (Elt F) arg3.view f1) rI4) (View.ld (View.read (Elt F) arg4.view f2) rI4) (View.readCov arg6.view [⟨rS4, k7_pay2⟩] rS4.toLoadRect) = _
  rw [ldI4, ldI4, ldI4, readCov4]

set_option maxHeartbeats 1000000 in
/-- CASE B (0 < j < 4, a middle point of a row): the scratch receives the point's row sums on top of what the point before
    left; the output window's buffer is handed back as found. -/
theorem sound_kernel7_B (c : Dev nD) (E : Set ℕ) (i : grid7.Coords) (hc1 : ¬cond7_1 i) (hc2 : ¬cond7_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (acc7 x0 x1 x2 s)) -∗ K ⟨⟩))
      ⊢ wp frame (wpE (defs₀ (F := F)) Variants.none c none) E (cc7__negsim_kernel i arg2 harg2 arg3 harg3 arg4 harg4 arg5 harg5 arg6 harg6) K := by
  simp only [cc7__negsim_kernel_eq_skeleton]; unfold cc7__negsim_kernel_skel
  simp only [k7_part1_eq_skeleton]; unfold k7_part1_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  subst hfs
  isplitl [HO]
  · iexists fo; isplitr; · ipureintro; exact hfo
    iexact HO
  iexists _; isplitr
  swap; · iexact HS
  ipureintro
  sl_unfold_run_names
  refine (read_store4 _ _ _ _).trans ?_
  show acc7 (View.ld (View.read (Elt F) arg2.view f0) rI4) (View.ld (View.read (Elt F) arg3.view f1) rI4) (View.ld (View.read (Elt F) arg4.view f2) rI4) (View.ld (View.read (Elt F) arg6.view fs) rS4) = _
  rw [ldI4, ldI4, ldI4, ldS4]

set_option maxHeartbeats 1000000 in
/-- CASE C (j = 4, the last point of a row): the scratch receives the point's row sums on top of what the point before left,
    and its new contents are stored over the output window's buffer, whatever that held. -/
theorem sound_kernel7_C (c : Dev nD) (E : Set ℕ) (i : grid7.Coords) (hc1 : ¬cond7_1 i) (hc2 : cond7_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (acc7 x0 x1 x2 s) ∗ owns (c : Thread nD τ) arg6 fullShare (acc7 x0 x1 x2 s)) -∗ K ⟨⟩))
      ⊢ wp frame (wpE (defs₀ (F := F)) Variants.none c none) E (cc7__negsim_kernel i arg2 harg2 arg3 harg3 arg4 harg4 arg5 harg5 arg6 harg6) K := by
  simp only [cc7__negsim_kernel_eq_skeleton]; unfold cc7__negsim_kernel_skel
  simp only [k7_part1_eq_skeleton]; unfold k7_part1_skel
  unfold owns
  iintro ⟨⟨%f0, %hf0, H0⟩, ⟨%f1, %hf1, H1⟩, ⟨%f2, %hf2, H2⟩, ⟨%dd, %fo, -, HO⟩, ⟨%fs, %hfs, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  subst hfs
  isplitl [HO]
  · iexists _; isplitr
    swap; · iexact HO
    ipureintro
    sl_unfold_run_names
    refine (read_store4 _ _ _ _).trans ?_
    refine (readCov4 _ _).trans ?_
    show acc7 (View.ld (View.read (Elt F) arg2.view f0) rI4) (View.ld (View.read (Elt F) arg3.view f1) rI4) (View.ld (View.read (Elt F) arg4.view f2) rI4) (View.ld (View.read (Elt F) arg6.view fs) rS4) = _
    rw [ldI4, ldI4, ldI4, ldS4]
  iexists _; isplitr
  swap; · iexact HS
  ipureintro
  sl_unfold_run_names
  refine (read_store4 _ _ _ _).trans ?_
  show acc7 (View.ld (View.read (Elt F) arg2.view f0) rI4) (View.ld (View.read (Elt F) arg3.view f1) rI4) (View.ld (View.read (Elt F) arg4.view f2) rI4) (View.ld (View.read (Elt F) arg6.view fs) rS4) = _
  rw [ldI4, ldI4, ldI4, ldS4]

/-- info: 'Cert.KernelIdeal.Hand.sound_kernel7_C' depends on axioms: [propext, Classical.choice, Quot.sound] -/
#guard_msgs in #print axioms sound_kernel7_C

end Cert.KernelIdeal.Hand

end
-- ==== Proof.KI.Body7.lean ====
/-
  Region 7 of the program (the row-sum kernel of custom_call 7, pipeline 7): the pipeline's proof data and the body
  obligation.

  At the point (i, j) of the 5 x 5 grid the kernel's body is handed a block of 2000 rows of q (at block index i), a
  block of 2000 rows of z and one of stu (both at block index j), the output window's staging buffer, and a scratch
  column of 2000 entries that no window stages: a buffer of the kernel's own that keeps its contents from one point to
  the next. It clears the scratch when j = 0, adds to it the row sums of the 2000 x 2000 block exp(q zᵀ) + exp(q stuᵀ),
  and when j = 4 copies it into the output window's staging buffer, which the pipeline then writes back as block i.

  So the scratch after the point number t (t = 5 i + j) is a recursion over the points of one row of the grid: \`S7 t\`
  is the point's row sums added to zero when j = 0, and to \`S7 (t - 1)\` otherwise; at j = 4 it is the sum over the whole
  row of blocks. The output window's staging buffer is stored at the points with j = 4 only, where it receives \`S7 t\`;
  at the other points the body leaves it as it found it, and the pipeline does not write it back there.

  This module states that as the pipeline's proof data at an arbitrary entry valuation \`V\` of the core's buffers — the
  recursion, and the invariant between points: the scratch at exactly \`S7\` of the point before, beside the scoped
  buffers the region does not touch — and derives the library's body obligation from the body's triple in each of the
  three cases of its two conditionals. Everything is stated for any float model \`F\` and any user resource algebra \`U\`.
-/
import proofs.«175488_j3908420240157_2_alg».proof.Proof.KI.Point7
import proofs.«175488_j3908420240157_2_alg».proof.Proof.KI.Kernel7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The accumulation -/

/-- THE ACCUMULATION. What the scratch column holds after the body at the point number \`n\`: the row sums of that
    point's block of exp(q zᵀ) + exp(q stuᵀ), added to zero at the first point of a row of the grid (j = 0) and to what
    the point before left otherwise — so at the last point of a row (j = 4) the row sums over the whole row. -/
def S7 (c : Dev nD) : (n : ℕ) → n < cfg7.N → Vec F S2000x1 .f32
  | 0, h => acc7 (iblk7 V c 0 ⟨0, h⟩) (iblk7 V c 1 ⟨0, h⟩) (iblk7 V c 2 ⟨0, h⟩) k7_pay2
  | n + 1, h =>
    if (n + 1) % 5 = 0 then acc7 (iblk7 V c 0 ⟨n + 1, h⟩) (iblk7 V c 1 ⟨n + 1, h⟩) (iblk7 V c 2 ⟨n + 1, h⟩) k7_pay2
    else acc7 (iblk7 V c 0 ⟨n + 1, h⟩) (iblk7 V c 1 ⟨n + 1, h⟩) (iblk7 V c 2 ⟨n + 1, h⟩) (S7 c n (Nat.lt_of_succ_lt h))

/-- At the first point of a row the accumulation starts from zero. -/
theorem S7_reset (c : Dev nD) (t : Fin cfg7.N) (h0 : t.val % 5 = 0) :
    S7 V c t.val t.isLt = acc7 (iblk7 V c 0 t) (iblk7 V c 1 t) (iblk7 V c 2 t) k7_pay2 := by
  obtain ⟨n, hn⟩ := t
  cases n with
  | zero => rfl
  | succ n => exact if_pos h0

/-- At a later point of a row it continues from what the point before left. -/
theorem S7_step (c : Dev nD) (t : Fin cfg7.N) (h0 : ¬t.val % 5 = 0) :
    S7 V c t.val t.isLt = acc7 (iblk7 V c 0 t) (iblk7 V c 1 t) (iblk7 V c 2 t)
      (S7 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The scratch operand: a whole scoped buffer of the kernel's own, passed beside the windows. -/
abbrev scM7 : Memref sig .tc .vmem S2000x1 .f32 := Memref.whole cc7_scratch0

/-- The scoped buffers of the core that are neither staged by this pipeline nor its scratch, each at some contents:
    the body touches none of them. -/
abbrev rest7 (c : Dev nD) : sProp 𝕄 :=
  Pipeline.scopedRestBut (Ix := Unit) (Name := ℕ) (U := U) (Lvl := ℕ) (Val := Elt F) spec7 c [cc7_scratch0]

/-- The invariant before the point number \`n\`: before the first point every scoped buffer no window stages at some
    contents (what the region is entered with: the scratch holds anything); afterwards the scratch at exactly what the
    point before left in it, beside the others. -/
def Φ7 (c : Dev nD) : (n : ℕ) → n ≤ cfg7.N → sProp 𝕄
  | 0, _ => Pipeline.scopedRest (Ix := Unit) (Name := ℕ) (U := U) (Lvl := ℕ) (Val := Elt F) spec7 c
  | n + 1, h => iprop(owns (c : Thread nD τ) scM7 fullShare (S7 V c n h) ∗ rest7 (U := U) c)

/-- The scoped rest with the scratch split out, owned at some contents. -/
theorem scopedRest7_eq (c : Dev nD) :
    (Pipeline.scopedRest (Ix := Unit) (Name := ℕ) (U := U) (Lvl := ℕ) (Val := Elt F) spec7 c : sProp 𝕄)
      = iprop((∃ d, owns (c : Thread nD τ) scM7 fullShare d) ∗ rest7 (U := U) c) := by
  rw [scopedRest7_split]; simp only [scM7, owns_whole]; try rfl

theorem Φ7_zero (c : Dev nD) (n : ℕ) (h : n ≤ cfg7.N) (hz : n = 0) :
    Φ7 (U := U) V c n h = iprop((∃ d, owns (c : Thread nD τ) scM7 fullShare d) ∗ rest7 (U := U) c) := by
  subst hz; exact scopedRest7_eq c

theorem Φ7_succ (c : Dev nD) (n : ℕ) (hn : n < cfg7.N) :
    Φ7 (U := U) V c (n + 1) hn = iprop(owns (c : Thread nD τ) scM7 fullShare (S7 V c n hn) ∗ rest7 (U := U) c) := rfl

theorem Φ7_pos (c : Dev nD) (n : ℕ) (h : n ≤ cfg7.N) (hz : n ≠ 0) :
    Φ7 (U := U) V c n h = iprop(owns (c : Thread nD τ) scM7 fullShare (S7 V c (n - 1) (by omega)) ∗ rest7 (U := U) c) := by
  cases n with
  | zero => exact absurd rfl hz
  | succ n => rfl

/-! ## The pipeline's proof data -/

/-- The proof data of pipeline 7 on core \`c\`, from the entry valuation \`V\`: the four arrays as the region finds them;
    after the body at point \`t\` each input's buffer at its block and the output's at the accumulation \`S7\` (consulted
    only at the points with j = 4, where the body stores it there: at the others the window is idle); the invariant
    \`Φ7\`; nothing owed; full shares. -/
def dat7 (c : Dev nD) : Dat τ (Elt F) Unit ℕ U ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => S7 V c t.val t.isLt
  Φ k := Φ7 V c k.val (Nat.le_of_lt_succ k.isLt)
  q _ := fullShare
  owed _ := 0

/-- The proof data's arrays are the entry contents. -/
theorem A_eq7 (c : Dev nD) (w : Fin cfg7.W) : (dat7 (U := U) V c).A w = V c (Pipeline.arrRef spec7 w) := by
  dsimp only [dat7]

/-- What the body leaves, window by window. -/
theorem after7_0 (c : Dev nD) (t : Fin cfg7.N) : (dat7 (U := U) V c).after 0 t = iblk7 V c 0 t := by dsimp only [dat7]
theorem after7_1 (c : Dev nD) (t : Fin cfg7.N) : (dat7 (U := U) V c).after 1 t = iblk7 V c 1 t := by dsimp only [dat7]
theorem after7_2 (c : Dev nD) (t : Fin cfg7.N) : (dat7 (U := U) V c).after 2 t = iblk7 V c 2 t := by dsimp only [dat7]
theorem after7_3 (c : Dev nD) (t : Fin cfg7.N) : (dat7 (U := U) V c).after 3 t = S7 V c t.val t.isLt := by dsimp only [dat7]

/-- Each input's current staging buffer holds its block at every point. -/
theorem before7_0 (c : Dev nD) (t : Fin cfg7.N) (d) : (dat7 (U := U) V c).before 0 t d = iblk7 V c 0 t :=
  before7_0_of V (dat7 V c) (A_eq7 V c 0) (after7_0 V c) t d
theorem before7_1 (c : Dev nD) (t : Fin cfg7.N) (d) : (dat7 (U := U) V c).before 1 t d = iblk7 V c 1 t :=
  before7_1_of V (dat7 V c) (A_eq7 V c 1) (after7_1 V c) t d
theorem before7_2 (c : Dev nD) (t : Fin cfg7.N) (d) : (dat7 (U := U) V c).before 2 t d = iblk7 V c 2 t :=
  before7_2_of V (dat7 V c) (A_eq7 V c 2) (after7_2 V c) t d

/-- The invariant at a point's start, restated at the point's number. -/
theorem Φ7_castSucc (c : Dev nD) (t : Fin cfg7.N) :
    (dat7 (U := U) V c).Φ t.castSucc = Φ7 V c t.val (Nat.le_of_lt t.isLt) := by
  dsimp only [dat7]; simp only [Fin.coe_castSucc]

/-! ## The body obligation, at a generic point -/

/-- What the body is called with at point \`t\`: the invariant, the core's dues, and the four current staging buffers
    (each input at its block; the output at whatever the points before left there). -/
def bodyPre7 (c : Dev nD) (t : Fin cfg7.N) : sProp 𝕄 :=
  iprop((dat7 (U := U) V c).Φ t.castSucc ∗ (dat7 (U := U) V c).owesAt () t.castSucc
    ∗ (∃ d, owns (c : Thread nD τ) (st7_0 t) fullShare ((dat7 (U := U) V c).before 0 t d))
    ∗ (∃ d, owns (c : Thread nD τ) (st7_1 t) fullShare ((dat7 (U := U) V c).before 1 t d))
    ∗ (∃ d, owns (c : Thread nD τ) (st7_2 t) fullShare ((dat7 (U := U) V c).before 2 t d))
    ∗ (∃ d, owns (c : Thread nD τ) (st7_3 t) fullShare ((dat7 (U := U) V c).before 3 t d)))

/-- What it returns: the output window's buffer at the accumulation where the body stored it (j = 4), and as found
    where the window is idle. -/
def bodyPost7 (c : Dev nD) (t : Fin cfg7.N) : sProp 𝕄 :=
  iprop((dat7 (U := U) V c).Φ t.succ ∗ (dat7 (U := U) V c).owesAt () t.succ
    ∗ (dat7 (U := U) V c).leavesExact 0 t
    ∗ (dat7 (U := U) V c).leavesExact 1 t
    ∗ (dat7 (U := U) V c).leavesExact 2 t
    ∗ (dat7 (U := U) V c).leavesExact 3 t)

/-- An input window is never idle: the body leaves its buffer at the block. -/
theorem leaves7_0 (c : Dev nD) (t : Fin cfg7.N) :
    (dat7 (U := U) V c).leavesExact 0 t = owns (c : Thread nD τ) (st7_0 t) fullShare (iblk7 V c 0 t) := by
  rw [← after7_0 (U := U) V c t]
theorem leaves7_1 (c : Dev nD) (t : Fin cfg7.N) :
    (dat7 (U := U) V c).leavesExact 1 t = owns (c : Thread nD τ) (st7_1 t) fullShare (iblk7 V c 1 t) := by
  rw [← after7_1 (U := U) V c t]
theorem leaves7_2 (c : Dev nD) (t : Fin cfg7.N) :
    (dat7 (U := U) V c).leavesExact 2 t = owns (c : Thread nD τ) (st7_2 t) fullShare (iblk7 V c 2 t) := by
  rw [← after7_2 (U := U) V c t]

/-- Where the second condition holds the output window is live: its buffer is left at the accumulation. -/
theorem leaves7_3_live (c : Dev nD) (t : Fin cfg7.N) (h : cond7_2 (grid7.coords t)) :
    (dat7 (U := U) V c).leavesExact 3 t = owns (c : Thread nD τ) (st7_3 t) fullShare (S7 V c t.val t.isLt) := by
  unfold Dat.leavesExact; rw [live7_3 t h, after7_3]

set_option maxHeartbeats 1600000 in
/-- The body at any point, by the case its number selects: the inputs' memrefs hold their blocks; the invariant hands
    the body the scratch at what the point before left (at anything at the first point) and takes it back at this
    point's accumulation; the other scoped buffers and the core's dues pass through untouched. -/
theorem sound_body7 (c : Dev nD) (t : Fin cfg7.N) :
    bodyPre7 (U := U) V c t ⊢ wp frame (wpE (defs₀ (F := F)) Variants.none c none) Set.univ (bodyAt7 t) (fun _ => bodyPost7 (U := U) V c t) := by
  unfold bodyPre7 bodyPost7 bodyAt7
  simp only [before7_0, before7_1, before7_2]
  rw [show (dat7 (U := U) V c).owesAt () t.succ = (dat7 (U := U) V c).owesAt () t.castSucc from rfl,
    show (dat7 (U := U) V c).Φ t.succ = Φ7 V c (t.val + 1) t.isLt from rfl, Φ7_succ, Φ7_castSucc,
    leaves7_0, leaves7_1, leaves7_2]
  have hN : t.val < 25 := lt_of_lt_of_eq t.isLt (show cfg7.N = 25 from N_7)
  by_cases h0 : t.val % 5 = 0
  · -- the first point of a row
    have h4 : ¬t.val % 5 = 4 := by omega
    have hc1 : cond7_1 (grid7.coords t) := (hcond7_1 t).mpr h0
    have hc2 : ¬cond7_2 (grid7.coords t) := fun h => h4 ((hcond7_2 t).mp h)
    rw [Dat.leavesExact_idle (dat7 (U := U) V c) 3 t (idle7_3 t hc2) (noFlush7_3 t hc2), S7_reset V c t h0]
    by_cases hz : t.val = 0
    · rw [Φ7_zero V c _ _ hz]
      iintro ⟨⟨HS, Hr⟩, Ho, ⟨%d0, H0⟩, ⟨%d1, H1⟩, ⟨%d2, H2⟩, ⟨%d3, H3⟩⟩
      iapply (sound_kernel7_A c Set.univ (grid7.coords t) hc1 hc2 _ _ _ _ _ _ _ _ _ _ (iblk7 V c 0 t) (iblk7 V c 1 t) (iblk7 V c 2 t)
        ((dat7 (U := U) V c).before 3 t d3) k7_pay2 _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3
    · rw [Φ7_pos V c _ _ hz]
      iintro ⟨⟨HS, Hr⟩, Ho, ⟨%d0, H0⟩, ⟨%d1, H1⟩, ⟨%d2, H2⟩, ⟨%d3, H3⟩⟩
      iapply (sound_kernel7_A c Set.univ (grid7.coords t) hc1 hc2 _ _ _ _ _ _ _ _ _ _ (iblk7 V c 0 t) (iblk7 V c 1 t) (iblk7 V c 2 t)
        ((dat7 (U := U) V c).before 3 t d3) k7_pay2 _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3
  · have hz : t.val ≠ 0 := fun e => h0 (by rw [e])
    have hc1 : ¬cond7_1 (grid7.coords t) := fun h => h0 ((hcond7_1 t).mp h)
    rw [Φ7_pos V c _ _ hz, S7_step V c t h0]
    by_cases h4 : t.val % 5 = 4
    · -- the last point of a row
      have hc2 : cond7_2 (grid7.coords t) := (hcond7_2 t).mpr h4
      rw [leaves7_3_live V c t hc2, S7_step V c t h0]
      iintro ⟨⟨HS, Hr⟩, Ho, ⟨%d0, H0⟩, ⟨%d1, H1⟩, ⟨%d2, H2⟩, ⟨%d3, H3⟩⟩
      iapply (sound_kernel7_C c Set.univ (grid7.coords t) hc1 hc2 _ _ _ _ _ _ _ _ _ _ (iblk7 V c 0 t) (iblk7 V c 1 t) (iblk7 V c 2 t)
        k7_pay2 (S7 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexact H3
    · -- a middle point of a row
      have hc2 : ¬cond7_2 (grid7.coords t) := fun h => h4 ((hcond7_2 t).mp h)
      rw [Dat.leavesExact_idle (dat7 (U := U) V c) 3 t (idle7_3 t hc2) (noFlush7_3 t hc2)]
      iintro ⟨⟨HS, Hr⟩, Ho, ⟨%d0, H0⟩, ⟨%d1, H1⟩, ⟨%d2, H2⟩, ⟨%d3, H3⟩⟩
      iapply (sound_kernel7_B c Set.univ (grid7.coords t) hc1 hc2 _ _ _ _ _ _ _ _ _ _ (iblk7 V c 0 t) (iblk7 V c 1 t) (iblk7 V c 2 t)
        ((dat7 (U := U) V c).before 3 t d3) (S7 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3

/-- The library's body obligation, at every point. -/
theorem body_obligation7 (c : Dev nD) : BodyObligation (dat7 (F := F) (U := U) V c) (defs₀ (F := F)) Variants.none () Set.univ := fun t => by
  rw [bigSep_W7, bigSep_W7]
  exact sound_body7 V c t

/-- info: 'Cert.KernelIdeal.Hand.body_obligation7' depends on axioms: [propext, Classical.choice, Quot.sound] -/
#guard_msgs in #print axioms body_obligation7

/-! ## The region's ends -/

/-- What the region is entered with — every scoped buffer no window stages, at some contents — is the invariant before
    the first point. -/
theorem hin7 (c : Dev nD) :
    (Pipeline.scopedRest (Ix := Unit) (Name := ℕ) (U := U) (Lvl := ℕ) (Val := Elt F) spec7 c : sProp 𝕄) ⊢ (dat7 (U := U) V c).Φ 0 :=
  Idealize.SL.BI.Entails.refl _

/-- After the last point the invariant gives them back: the scratch's named contents are forgotten. -/
theorem hout7 (c : Dev nD) :
    (dat7 (U := U) V c).Φ (Fin.last cfg7.N) ⊢ (Pipeline.scopedRest (Ix := Unit) (Name := ℕ) (U := U) (Lvl := ℕ) (Val := Elt F) spec7 c : sProp 𝕄) := by
  rw [show (dat7 (U := U) V c).Φ (Fin.last cfg7.N) = Φ7 V c (Fin.last cfg7.N).val (Nat.le_of_lt_succ (Fin.last cfg7.N).isLt) from rfl,
    Φ7_pos V c _ _ (by rw [Fin.val_last]; have : cfg7.N = 25 := N_7; omega), scopedRest7_eq]
  iintro ⟨HS, Hr⟩
  isplitl [HS]
  · iexists _; iexact HS
  iexact Hr

end Cert.KernelIdeal.Hand

end
-- ==== Proof.KI.Seg7.lean ====
/-
  Region 7 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin7`: the fold of its five write-backs, one
  per row of the grid, at the row's last point) and every other buffer as entered; `Wout7` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage — among them the kernel's scratch
  accumulator, which the invariant names between points: it is one of them at some contents when the region is
  entered, and is put back among them, its contents forgotten, when the region is left; the kernel has no
  semaphore of its own and owes no one.
-/
import proofs.«175488_j3908420240157_2_alg».proof.Proof.KI.Body7
import proofs.«175488_j3908420240157_2_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 7's at the entry valuation and the other seven as given. -/
abbrev fam7 (d0 : DatAt F U 0) (d1 : DatAt F U 1) (d2 : DatAt F U 2) (d3 : DatAt F U 3) (d4 : DatAt F U 4) (d5 : DatAt F U 5) (d6 : DatAt F U 6) : (p : Fin 8) → DatAt F U p :=
  pdatsOf d0 d1 d2 d3 d4 d5 d6 (fun c => dat7 (Vof Wpre) c)

/-- The output window's array after the region, as the library computes it: the write-backs of the body's results
    folded over the grid. -/
def fin7 (c : Dev nD) : Buf (Elt F) ((c : Thread nD τ).loc main_v295) := (dat7 (U := U) (Vof Wpre) c).arrAt 3 cfg7.N

/-- The pipeline's arrays are four distinct buffers; the output's is the last. -/
theorem arrRef7_ne_out : ∀ w : Fin cfg7.W, w ≠ 3 → Pipeline.arrRef spec7 w ≠ main_v295 := by decide
/-- Every window but the last is an input. -/
theorem win7_in : ∀ w : Fin cfg7.W, w ≠ 3 → (cfg7.win w).isOut = false := by decide

-- `iapply` of a library lemma stated over the pinned configuration unifies with the printed one only when unification
-- may unfold plain definitions in a metavariable's type
set_option backward.isDefEq.respectTransparency.types false in
/-- REGION 7 over the thread state: entered from every unscoped buffer at `Wpre c` beside the rider, left at
    `Wpost c` beside the same rider, for any `Wpost` that has the output array at `fin7` and agrees with `Wpre` off it —
    stated over the family with the other seven pipelines' proof data arbitrary. -/
def seg7 (d0 : DatAt F U 0) (d1 : DatAt F U 1) (d2 : DatAt F U 2) (d3 : DatAt F U 3) (d4 : DatAt F U 4) (d5 : DatAt F U 5) (d6 : DatAt F U 6) (R : Dev nD → sProp 𝕄) (hout : ∀ c, Vof Wpost c main_v295 = fin7 (U := U) Wpre c)
    (hne : ∀ c (b : Ref sig .tc), b ≠ main_v295 → Vof Wpost c b = Vof Wpre c b) :
    Pipeline.RegionSeg (pcfgs (F := F)) adm (fam7 Wpre d0 d1 d2 d3 d4 d5 d6) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vof Wpre) c).loose
  hwaits := Pipeline.hwaits_of_owed_zero _ _ _ _ L lv 7 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec7 c (Vof Wpre c) ∗ R c)
  hentry c := by
    rw [Pipeline.ownSems0_none]
    have hsplit := Pipeline.arrays_of_unscopedBufs (p := 7) (pcfgs (F := F)) adm (fam7 Wpre d0 d1 d2 d3 d4 d5 d6) launch7.win launch7.arr_whole c
      ((fam7 Wpre d0 d1 d2 d3 d4 d5 d6 7 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam7 Wpre d0 d1 d2 d3 d4 d5 d6 7 c).Φ 0 = (dat7 (U := U) (Vof Wpre) c).Φ 0 from rfl]
    iintro ⟨-, -, Hr⟩
    iapply (hin7 (U := U) (Vof Wpre) c); iexact Hr
  hout c := by
    rw [Pipeline.ownSems0_none,
      show (fam7 Wpre d0 d1 d2 d3 d4 d5 d6 7 c).Φ (Fin.last _) = (dat7 (U := U) (Vof Wpre) c).Φ (Fin.last cfg7.N) from rfl]
    iintro HΦ
    ihave Hr := (hout7 (U := U) (Vof Wpre) c) $$ HΦ
    isplitr; · iempintro
    isplitr; · iempintro
    iexact Hr
  hexit c := by
    have hjoin := Pipeline.unscopedBufs_of_arrays (p := 7) (pcfgs (F := F)) adm (Ix := Unit) (Name := ℕ) (U := U) (Lvl := ℕ)
      launch7.win launch7.arr_whole c (fam7 Wpre d0 d1 d2 d3 d4 d5 d6) ((fam7 Wpre d0 d1 d2 d3 d4 d5 d6 7 c).share_full fun _ => rfl)
      (Vof Wpre c) (Vof Wpost c) ((fam7 Wpre d0 d1 d2 d3 d4 d5 d6 7 c).arrAt · cfg7.N)
      (fun w => by
        by_cases hw : w = 3
        · subst hw; exact (hout c).symm
        · exact ((fam7 Wpre d0 d1 d2 d3 d4 d5 d6 7 c).arrAt_in w (win7_in w hw) _).trans (hne c _ (arrRef7_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.KernelIdeal.Hand.seg7' depends on axioms: [propext, Classical.choice, Quot.sound] -/
#guard_msgs in #print axioms seg7

/-! ## The canonical exit valuation -/

/-- The entry valuation with pipeline 7's arrays at what its write-backs leave. -/
def Wout7 (c : Dev nD) : Valuation τ sig (Elt F) :=
  Pipeline.withArrays spec7 c (Wpre c) fun w => (dat7 (U := U) (Vof Wpre) c).arrAt w cfg7.N

/-- It has the output array at `fin7`, -/
theorem Wout7_out (c : Dev nD) : Vof (Wout7 (U := U) Wpre) c main_v295 = fin7 (U := U) Wpre c := by
  unfold Wout7 fin7; exact Pipeline.withArrays_arr spec7 launch7.win.arr_inj c _ _ 3
/-- and every other buffer as entered (an input window's array is written back as it was read). -/
theorem Wout7_ne (c : Dev nD) (b : Ref sig .tc) (hb : b ≠ main_v295) : Vof (Wout7 (U := U) Wpre) c b = Vof Wpre c b := by
  by_cases h : ∃ w, Pipeline.arrRef spec7 w = b
  · obtain ⟨w, rfl⟩ := h
    have hw : w ≠ 3 := fun e => hb (e ▸ rfl)
    unfold Wout7
    exact (Pipeline.withArrays_arr spec7 launch7.win.arr_inj c _ _ w).trans ((dat7 (U := U) (Vof Wpre) c).arrAt_in w (win7_in w hw) _)
  · unfold Wout7; exact Pipeline.withArrays_of_ne spec7 c _ _ b fun w e => h ⟨w, e⟩

end Cert.KernelIdeal.Hand

end
-- ==== Proof.KI.Frame.lean ====
/-
  The frame of the idealized kernel. @main is twenty-four stretches of host operations around eight kernel regions. Each
  region's record says: entered with every unscoped buffer at a valuation, it ends with the same valuation except that the
  array its output window writes back holds the fold of its blocks' write-backs. Threading the records through the chain of
  valuations, from the launch memory: the first region is entered at the fold of the first stretch over the launch memory,
  each later one at the fold of the stretches since the region before it, over that region's exit valuation. The launch
  gives every core its buffers at the launch memory and its dues at nothing, and nothing else is needed: no kernel here has
  a semaphore of its own or owes another core anything. So every execution runs to the end, and since no stretch and no
  region writes an argument of @main, each argument array ends as launched.
-/
import proofs.«175488_j3908420240157_2_alg».proof.Defs
import proofs.«175488_j3908420240157_2_alg».proof.Proof.Gen.Pre_finite_inputs
import proofs.«175488_j3908420240157_2_alg».proof.Proof.KI.RunCond
import proofs.«175488_j3908420240157_2_alg».proof.Proof.KI.Seg0
import proofs.«175488_j3908420240157_2_alg».proof.Proof.KI.Seg1
import proofs.«175488_j3908420240157_2_alg».proof.Proof.KI.Seg2
import proofs.«175488_j3908420240157_2_alg».proof.Proof.KI.Seg3
import proofs.«175488_j3908420240157_2_alg».proof.Proof.KI.Seg4
import proofs.«175488_j3908420240157_2_alg».proof.Proof.KI.Seg5
import proofs.«175488_j3908420240157_2_alg».proof.Proof.KI.Seg6
import proofs.«175488_j3908420240157_2_alg».proof.Proof.KI.Seg7

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

/-- The certificate's algebra: the pipeline library's, beside a component nothing here uses. -/
abbrev UU (nD : Nat) (τ : Topo) : Type := UR sig nD τ × Counters

variable {F : FTy → Type} [FloatOps F]

/-- The pipeline library's algebra is the left component of the certificate's. -/
abbrev EP : Emb (UR sig nD τ) (MT nD τ sig Unit (Elt F) ℕ (UU nD τ) ℕ) := embL

/-- The launch element: the pipeline library's at every staging cell; nothing else. -/
def u₀ : UU nD τ := (initOf (Pipeline.cells cfgs cellOf_inj) (Pipeline.launchToks cfgs cellOf_inj), 1)

variable (m : (ℓ : Loc nD τ sig) → Buf (Elt F) ℓ)

/-! ## What each region leaves in its output array, along the chain -/

/-- Region 0's output array after the region: its blocks' write-backs, from the valuation the region is entered at. -/
def o0 (c : Dev nD) : Buf (Elt F) ((c : Thread nD τ).loc main_v3) := fin0 (U := UU nD τ) (W1 m) c
/-- Region 1's output array after the region: its blocks' write-backs, from the valuation the region is entered at. -/
def o1 (c : Dev nD) : Buf (Elt F) ((c : Thread nD τ).loc main_v65) := fin1 (U := UU nD τ) (W10 m (o0 m)) c
/-- Region 2's output array after the region: its blocks' write-backs, from the valuation the region is entered at. -/
def o2 (c : Dev nD) : Buf (Elt F) ((c : Thread nD τ).loc main_v104) := fin2 (U := UU nD τ) (W16 m (o0 m) (o1 m)) c
/-- Region 3's output array after the region: its blocks' write-backs, from the valuation the region is entered at. -/
def o3 (c : Dev nD) : Buf (Elt F) ((c : Thread nD τ).loc main_v142) := fin3 (U := UU nD τ) (W22 m (o0 m) (o1 m) (o2 m)) c
/-- Region 4's output array after the region: its blocks' write-backs, from the valuation the region is entered at. -/
def o4 (c : Dev nD) : Buf (Elt F) ((c : Thread nD τ).loc main_v205) := fin4 (U := UU nD τ) (W24 m (o0 m) (o1 m) (o2 m) (o3 m)) c
/-- Region 5's output array after the region: its blocks' write-backs, from the valuation the region is entered at. -/
def o5 (c : Dev nD) : Buf (Elt F) ((c : Thread nD τ).loc main_v228) := fin5 (U := UU nD τ) (W26 m (o0 m) (o1 m) (o2 m) (o3 m) (o4 m)) c
/-- Region 6's output array after the region: its blocks' write-backs, from the valuation the region is entered at. -/
def o6 (c : Dev nD) : Buf (Elt F) ((c : Thread nD τ).loc main_v232) := fin6 (U := UU nD τ) (W28 m (o0 m) (o1 m) (o2 m) (o3 m) (o4 m) (o5 m)) c
/-- Region 7's output array after the region: its blocks' write-backs, from the valuation the region is entered at. -/
def o7 (c : Dev nD) : Buf (Elt F) ((c : Thread nD τ).loc main_v295) := fin7 (U := UU nD τ) (W30 m (o0 m) (o1 m) (o2 m) (o3 m) (o4 m) (o5 m) (o6 m)) c

/-! ## Every pipeline's proof data, each at its entry valuation -/

abbrev e0 : DatAt F (UU nD τ) 0 := fun c => dat0 (Vof (W1 m)) c
abbrev e1 : DatAt F (UU nD τ) 1 := fun c => dat1 (Vof (W10 m (o0 m))) c
abbrev e2 : DatAt F (UU nD τ) 2 := fun c => dat2 (Vof (W16 m (o0 m) (o1 m))) c
abbrev e3 : DatAt F (UU nD τ) 3 := fun c => dat3 (Vof (W22 m (o0 m) (o1 m) (o2 m))) c
abbrev e4 : DatAt F (UU nD τ) 4 := fun c => dat4 (Vof (W24 m (o0 m) (o1 m) (o2 m) (o3 m))) c
abbrev e5 : DatAt F (UU nD τ) 5 := fun c => dat5 (Vof (W26 m (o0 m) (o1 m) (o2 m) (o3 m) (o4 m))) c
abbrev e6 : DatAt F (UU nD τ) 6 := fun c => dat6 (Vof (W28 m (o0 m) (o1 m) (o2 m) (o3 m) (o4 m) (o5 m))) c
abbrev e7 : DatAt F (UU nD τ) 7 := fun c => dat7 (Vof (W30 m (o0 m) (o1 m) (o2 m) (o3 m) (o4 m) (o5 m) (o6 m))) c

/-- Nothing rides past a region but the core's dues. -/
abbrev R₀ : Dev nD → sProp (MT nD τ sig Unit (Elt F) ℕ (UU nD τ) ℕ) := fun _ => iprop(emp)

/-- What the launch deals beside the buffers gives every core its dues at nothing: the rider of the first state. -/
theorem launch_rider (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp (MT nD τ sig Unit (Elt F) ℕ (UU nD τ) ℕ))) c)) ∗ levAts L lv)
      ⊢ (|={Set.univ}=> bigSep Finset.univ (fun c : Dev nD => rider (F := F) (U := UU nD τ) R₀ c) : sProp (MT nD τ sig Unit (Elt F) ℕ (UU nD τ) ℕ)) := by
  have hcore : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp (MT nD τ sig Unit (Elt F) ℕ (UU nD τ) ℕ))) : sProp (MT nD τ sig Unit (Elt F) ℕ (UU nD τ) ℕ))
      ⊢ rider (F := F) (U := UU nD τ) R₀ c := fun c => by
    iintro ⟨-, HO, -, -, -⟩
    isplitr
    · iempintro
    · iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp (MT nD τ sig Unit (Elt F) ℕ (UU nD τ) ℕ))) c))
      ⊢ (bigSep Finset.univ (fun c : Dev nD => rider (F := F) (U := UU nD τ) R₀ c) : sProp (MT nD τ sig Unit (Elt F) ℕ (UU nD τ) ℕ)) :=
    bigSep_mono fun c _ => hcore c
  iintro ⟨H, -⟩
  imodintro
  ihave H' := hmono $$ H
  iexact H'

/-- The launch element yields the pipeline library's, and nothing per core. -/
theorem launch_elt : (ownU u₀ : sProp (MT nD τ sig Unit (Elt F) ℕ (UU nD τ) ℕ))
    ⊢ |={Set.univ}=> iprop(BI.own (EP (F := F) (initOf (Pipeline.cells cfgs cellOf_inj) (Pipeline.launchToks cfgs cellOf_inj)))
        ∗ bigSep Finset.univ (fun _ : Dev nD => (iprop(emp) : sProp (MT nD τ sig Unit (Elt F) ℕ (UU nD τ) ℕ)))) := by
  unfold u₀
  iintro Hu
  ihave H := (ownU_pair _ _) $$ Hu
  icases H with ⟨HP, -⟩
  imodintro
  isplitl [HP]; · iexact HP
  iapply (show (BI.emp : sProp (MT nD τ sig Unit (Elt F) ℕ (UU nD τ) ℕ)) ⊢ bigSep Finset.univ (fun _ : Dev nD => (BI.emp : sProp (MT nD τ sig Unit (Elt F) ℕ (UU nD τ) ℕ))) from by rw [BI.bigSep_emp_const])
  iempintro

/-! ## The run -/

-- the records' families are one family after unfolding each entry valuation's name
set_option backward.isDefEq.respectTransparency.types false in
/-- Every weakly fair execution of @main from memory `m` with zero counters terminates, and every final memory holds every
    unscoped buffer at the chain's last valuation, each region's output array at what its write-backs leave. -/
theorem run_main (ρ : Dev nD → PrngReg) :
    θ_run defs (onTc (τ := τ) (main (F := F))) ⟨m, fun _ => 0, ρ⟩ (fun r => ∀ c : Dev nD, ∀ b : Ref sig .tc,
      (Proc.devRef .tc b : DevRef τ sig) ∈ Pipeline.ucRefs τ sig → r.2.mem ((c.tc : Thread nD τ).loc b) = W32 m (o0 m) (o1 m) (o2 m) (o3 m) (o4 m) (o5 m) (o6 m) (o7 m) c b) :=
  run_cond m (o0 m) (o1 m) (o2 m) (o3 m) (o4 m) (o5 m) (o6 m) (o7 m) (Ix := Unit) (U := UU nD τ) (Lvl := ℕ) (EP (F := F)) () 𝒱₀ L lv (fun _ _ => rfl) ρ
    (pdatsOf (e0 m) (e1 m) (e2 m) (e3 m) (e4 m) (e5 m) (e6 m) (e7 m)) 0 (fun _ => iprop(emp)) u₀ (launch_elt (F := F))
    (fun _ => rider (F := F) (U := UU nD τ) R₀) (launch_rider (F := F) ρ)
    (fun c => by iintro ⟨-, H⟩; iexact H)
    (seg0 (W1 m) (W2 m (o0 m)) (e1 m) (e2 m) (e3 m) (e4 m) (e5 m) (e6 m) (e7 m) R₀ (fun c => Function.update_self ..)
      (fun c b hb => W2_of m (o0 m) c b (fun h => hb (List.mem_singleton.mp h))))
    (fun _ => .rfl) (fun _ => .rfl)
    (seg1 (W10 m (o0 m)) (W11 m (o0 m) (o1 m)) (e0 m) (e2 m) (e3 m) (e4 m) (e5 m) (e6 m) (e7 m) R₀ (fun c => Function.update_self ..)
      (fun c b hb => W11_of m (o0 m) (o1 m) c b (fun h => hb (List.mem_singleton.mp h))))
    (fun _ => .rfl) (fun _ => .rfl)
    (seg2 (W16 m (o0 m) (o1 m)) (W17 m (o0 m) (o1 m) (o2 m)) (e0 m) (e1 m) (e3 m) (e4 m) (e5 m) (e6 m) (e7 m) R₀ (fun c => Function.update_self ..)
      (fun c b hb => W17_of m (o0 m) (o1 m) (o2 m) c b (fun h => hb (List.mem_singleton.mp h))))
    (fun _ => .rfl) (fun _ => .rfl)
    (seg3 (W22 m (o0 m) (o1 m) (o2 m)) (W23 m (o0 m) (o1 m) (o2 m) (o3 m)) (e0 m) (e1 m) (e2 m) (e4 m) (e5 m) (e6 m) (e7 m) R₀ (fun c => Function.update_self ..)
      (fun c b hb => W23_of m (o0 m) (o1 m) (o2 m) (o3 m) c b (fun h => hb (List.mem_singleton.mp h))))
    (fun _ => .rfl) (fun _ => .rfl)
    (seg4 (W24 m (o0 m) (o1 m) (o2 m) (o3 m)) (W25 m (o0 m) (o1 m) (o2 m) (o3 m) (o4 m)) (e0 m) (e1 m) (e2 m) (e3 m) (e5 m) (e6 m) (e7 m) R₀ (fun c => Function.update_self ..)
      (fun c b hb => W25_of m (o0 m) (o1 m) (o2 m) (o3 m) (o4 m) c b (fun h => hb (List.mem_singleton.mp h))))
    (fun _ => .rfl) (fun _ => .rfl)
    (seg5 (W26 m (o0 m) (o1 m) (o2 m) (o3 m) (o4 m)) (W27 m (o0 m) (o1 m) (o2 m) (o3 m) (o4 m) (o5 m)) (e0 m) (e1 m) (e2 m) (e3 m) (e4 m) (e6 m) (e7 m) R₀ (fun c => Function.update_self ..)
      (fun c b hb => W27_of m (o0 m) (o1 m) (o2 m) (o3 m) (o4 m) (o5 m) c b (fun h => hb (List.mem_singleton.mp h))))
    (fun _ => .rfl) (fun _ => .rfl)
    (seg6 (W28 m (o0 m) (o1 m) (o2 m) (o3 m) (o4 m) (o5 m)) (W29 m (o0 m) (o1 m) (o2 m) (o3 m) (o4 m) (o5 m) (o6 m)) (e0 m) (e1 m) (e2 m) (e3 m) (e4 m) (e5 m) (e7 m) R₀ (fun c => Function.update_self ..)
      (fun c b hb => W29_of m (o0 m) (o1 m) (o2 m) (o3 m) (o4 m) (o5 m) (o6 m) c b (fun h => hb (List.mem_singleton.mp h))))
    (fun _ => .rfl) (fun _ => .rfl)
    (seg7 (W30 m (o0 m) (o1 m) (o2 m) (o3 m) (o4 m) (o5 m) (o6 m)) (W31 m (o0 m) (o1 m) (o2 m) (o3 m) (o4 m) (o5 m) (o6 m) (o7 m)) (e0 m) (e1 m) (e2 m) (e3 m) (e4 m) (e5 m) (e6 m) R₀ (fun c => Function.update_self ..)
      (fun c b hb => W31_of m (o0 m) (o1 m) (o2 m) (o3 m) (o4 m) (o5 m) (o6 m) (o7 m) c b (fun h => hb (List.mem_singleton.mp h))))
    (fun _ => .rfl) (fun _ => .rfl)

/-- The frame of the idealized kernel: it runs to the end from any memory, and each argument array ends as launched. -/
theorem frame_KI : Cert.frame_KernelIdeal := fun m ρ _ =>
  (θ_run (Cert.KernelIdeal.defs (F := Ideal)) _ _).mono (fun r h c => args_kept m (o0 m) (o1 m) (o2 m) (o3 m) (o4 m) (o5 m) (o6 m) (o7 m) r.2 h c) (run_main (F := Ideal) m ρ)

end Cert.KernelIdeal.Hand

end
-- ==== Proof.K.Chain.lean ====
/- What every unscoped buffer of a core holds between two items of @main, as a chain of valuations: the launch memory;
   after a stretch of host operations, the fold of those operations over the valuation before it; after a kernel region, the
   valuation before it with the one array the region's output window writes back replaced by contents left unknown here.
   Each stretch writes only its own result buffers (listed), so a buffer outside every list — every argument of @main —
   holds its launch contents in every valuation of the chain. -/
import proofs.«175488_j3908420240157_2_alg».proof.Proof.Gen.Kernel.Launch
import Idealize.ShloMosaic.Lib.Pipeline.Frame
import Idealize.ShloMosaic.Lib.Pipeline.Regions

set_option maxRecDepth 8192

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## What each stretch of host operations writes -/

/-- No operation of `hostOps0` allocates a buffer. -/
theorem hostOps0_fresh : (hostOps0 : List (HloOp τ sig (Elt F))).Forall fun op => op.fresh = ∅ := by
  simp only [List.Forall]; repeat' constructor
/-- The 4 buffers `hostOps0` writes, in order. -/
abbrev hostOps0_W : List (Ref sig .tc) := [main_v0, main_cst, main_v1, main_v2]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1` allocates a buffer. -/
theorem hostOps1_fresh : (hostOps1 : List (HloOp τ sig (Elt F))).Forall fun op => op.fresh = ∅ := by
  simp only [List.Forall]; repeat' constructor
/-- The 19 buffers `hostOps1` writes, in order. -/
abbrev hostOps1_W : List (Ref sig .tc) := [main_v4, main_v5, main_cst_0, main_v6, main_cst_1, main_v7, main_v8, main_v9, main_cst_2, main_v10, main_v11, main_v12, main_cst_3, main_v13, main_v14, main_cst_4, main_v15, main_v16, main_cst_5]
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_1` allocates a buffer. -/
theorem hostOps1_1_fresh : (hostOps1_1 : List (HloOp τ sig (Elt F))).Forall fun op => op.fresh = ∅ := by
  simp only [List.Forall]; repeat' constructor
/-- The 3 buffers `hostOps1_1` writes, in order. -/
abbrev hostOps1_1_W : List (Ref sig .tc) := [main_call0_v0, main_call0_v1, main_v17]
theorem hostOps1_1_writes : (hostOps1_1 : List (HloOp τ sig (Elt F))).Forall fun op => op.writes ⊆ (hostOps1_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_2` allocates a buffer. -/
theorem hostOps1_2_fresh : (hostOps1_2 : List (HloOp τ sig (Elt F))).Forall fun op => op.fresh = ∅ := by
  simp only [List.Forall]; repeat' constructor
/-- The 7 buffers `hostOps1_2` writes, in order. -/
abbrev hostOps1_2_W : List (Ref sig .tc) := [main_cst_6, main_v18, main_v19, main_cst_7, main_v20, main_v21, main_cst_8]
theorem hostOps1_2_writes : (hostOps1_2 : List (HloOp τ sig (Elt F))).Forall fun op => op.writes ⊆ (hostOps1_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_3` allocates a buffer. -/
theorem hostOps1_3_fresh : (hostOps1_3 : List (HloOp τ sig (Elt F))).Forall fun op => op.fresh = ∅ := by
  simp only [List.Forall]; repeat' constructor
/-- The 3 buffers `hostOps1_3` writes, in order. -/
abbrev hostOps1_3_W : List (Ref sig .tc) := [main_call1_v0, main_call1_v1, main_v22]
theorem hostOps1_3_writes : (hostOps1_3 : List (HloOp τ sig (Elt F))).Forall fun op => op.writes ⊆ (hostOps1_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_4` allocates a buffer. -/
theorem hostOps1_4_fresh : (hostOps1_4 : List (HloOp τ sig (Elt F))).Forall fun op => op.fresh = ∅ := by
  simp only [List.Forall]; repeat' constructor
/-- The 44 buffers `hostOps1_4` writes, in order. -/
abbrev hostOps1_4_W : List (Ref sig .tc) := [main_v23, main_v24, main_v25, main_c, main_v26, main_v27, main_c_9, main_v28, main_v29, main_v30, main_v31, main_v32, main_cst_10, main_v33, main_v34, main_v35, main_v36, main_v37, main_v38, main_v39, main_v40, main_v41, main_v42, main_v43, main_v44, main_c_11, main_v45, main_v46, main_c_12, main_v47, main_v48, main_v49, main_v50, main_v51, main_cst_13, main_v52, main_v53, main_v54, main_v55, main_v56, main_v57, main_v58, main_v59, main_v60]
theorem hostOps1_4_writes : (hostOps1_4 : List (HloOp τ sig (Elt F))).Forall fun op => op.writes ⊆ (hostOps1_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_5` allocates a buffer. -/
theorem hostOps1_5_fresh : (hostOps1_5 : List (HloOp τ sig (Elt F))).Forall fun op => op.fresh = ∅ := by
  simp only [List.Forall]; repeat' constructor
/-- The 3 buffers `hostOps1_5` writes, in order. -/
abbrev hostOps1_5_W : List (Ref sig .tc) := [main_call2_cst, main_call2_v0, main_v61]
theorem hostOps1_5_writes : (hostOps1_5 : List (HloOp τ sig (Elt F))).Forall fun op => op.writes ⊆ (hostOps1_5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_6` allocates a buffer. -/
theorem hostOps1_6_fresh : (hostOps1_6 : List (HloOp τ sig (Elt F))).Forall fun op => op.fresh = ∅ := by
  simp only [List.Forall]; repeat' constructor
/-- The 3 buffers `hostOps1_6` writes, in order. -/
abbrev hostOps1_6_W : List (Ref sig .tc) := [main_call3_cst, main_call3_v0, main_v62]
theorem hostOps1_6_writes : (hostOps1_6 : List (HloOp τ sig (Elt F))).Forall fun op => op.writes ⊆ (hostOps1_6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps1_7` allocates a buffer. -/
theorem hostOps1_7_fresh : (hostOps1_7 : List (HloOp τ sig (Elt F))).Forall fun op => op.fresh = ∅ := by
  simp only [List.Forall]; repeat' constructor
/-- The 3 buffers `hostOps1_7` writes, in order. -/
abbrev hostOps1_7_W : List (Ref sig .tc) := [main_cst_14, main_v63, main_v64]
theorem hostOps1_7_writes : (hostOps1_7 : List (HloOp τ sig (Elt F))).Forall fun op => op.writes ⊆ (hostOps1_7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2` allocates a buffer. -/
theorem hostOps2_fresh : (hostOps2 : List (HloOp τ sig (Elt F))).Forall fun op => op.fresh = ∅ := by
  simp only [List.Forall]; repeat' constructor
/-- The 17 buffers `hostOps2` writes, in order. -/
abbrev hostOps2_W : List (Ref sig .tc) := [main_cst_15, main_v66, main_cst_16, main_v67, main_v68, main_v69, main_cst_17, main_v70, main_v71, main_v72, main_cst_18, main_v73, main_v74, main_cst_19, main_v75, main_v76, main_cst_20]
theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_1` allocates a buffer. -/
theorem hostOps2_1_fresh : (hostOps2_1 : List (HloOp τ sig (Elt F))).Forall fun op => op.fresh = ∅ := by
  simp only [List.Forall]; repeat' constructor
/-- The 3 buffers `hostOps2_1` writes, in order. -/
abbrev hostOps2_1_W : List (Ref sig .tc) := [main_call4_v0, main_call4_v1, main_v77]
theorem hostOps2_1_writes : (hostOps2_1 : List (HloOp τ sig (Elt F))).Forall fun op => op.writes ⊆ (hostOps2_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_2` allocates a buffer. -/
theorem hostOps2_2_fresh : (hostOps2_2 : List (HloOp τ sig (Elt F))).Forall fun op => op.fresh = ∅ := by
  simp only [List.Forall]; repeat' constructor
/-- The 7 buffers `hostOps2_2` writes, in order. -/
abbrev hostOps2_2_W : List (Ref sig .tc) := [main_cst_21, main_v78, main_v79, main_cst_22, main_v80, main_v81, main_cst_23]
theorem hostOps2_2_writes : (hostOps2_2 : List (HloOp τ sig (Elt F))).Forall fun op => op.writes ⊆ (hostOps2_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_3` allocates a buffer. -/
theorem hostOps2_3_fresh : (hostOps2_3 : List (HloOp τ sig (Elt F))).Forall fun op => op.fresh = ∅ := by
  simp only [List.Forall]; repeat' constructor
/-- The 3 buffers `hostOps2_3` writes, in order. -/
abbrev hostOps2_3_W : List (Ref sig .tc) := [main_call5_v0, main_call5_v1, main_v82]
theorem hostOps2_3_writes : (hostOps2_3 : List (HloOp τ sig (Elt F))).Forall fun op => op.writes ⊆ (hostOps2_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps2_4` allocates a buffer. -/
theorem hostOps2_4_fresh : (hostOps2_4 : List (HloOp τ sig (Elt F))).Forall fun op => op.fresh = ∅ := by
  simp only [List.Forall]; repeat' constructor
/-- The 25 buffers `hostOps2_4` writes, in order. -/
abbrev hostOps2_4_W : List (Ref sig .tc) := [main_v83, main_v84, main_v85, main_c_24, main_v86, main_v87, main_c_25, main_v88, main_v89, main_v90, main_v91, main_v92, main_cst_26, main_v93, main_v94, main_v95, main_v96, main_v97, main_v98, main_v99, main_v100, main_v101, main_cst_27, main_v102, main_v103]
theorem hostOps2_4_writes : (hostOps2_4 : List (HloOp τ sig (Elt F))).Forall fun op => op.writes ⊆ (hostOps2_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3` allocates a buffer. -/
theorem hostOps3_fresh : (hostOps3 : List (HloOp τ sig (Elt F))).Forall fun op => op.fresh = ∅ := by
  simp only [List.Forall]; repeat' constructor
/-- The 17 buffers `hostOps3` writes, in order. -/
abbrev hostOps3_W : List (Ref sig .tc) := [main_cst_28, main_v105, main_cst_29, main_v106, main_v107, main_v108, main_cst_30, main_v109, main_v110, main_v111, main_cst_31, main_v112, main_v113, main_cst_32, main_v114, main_v115, main_cst_33]
theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_1` allocates a buffer. -/
theorem hostOps3_1_fresh : (hostOps3_1 : List (HloOp τ sig (Elt F))).Forall fun op => op.fresh = ∅ := by
  simp only [List.Forall]; repeat' constructor
/-- The 3 buffers `hostOps3_1` writes, in order. -/
abbrev hostOps3_1_W : List (Ref sig .tc) := [main_call6_v0, main_call6_v1, main_v116]
theorem hostOps3_1_writes : (hostOps3_1 : List (HloOp τ sig (Elt F))).Forall fun op => op.writes ⊆ (hostOps3_1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_2` allocates a buffer. -/
theorem hostOps3_2_fresh : (hostOps3_2 : List (HloOp τ sig (Elt F))).Forall fun op => op.fresh = ∅ := by
  simp only [List.Forall]; repeat' constructor
/-- The 7 buffers `hostOps3_2` writes, in order. -/
abbrev hostOps3_2_W : List (Ref sig .tc) := [main_cst_34, main_v117, main_v118, main_cst_35, main_v119, main_v120, main_cst_36]
theorem hostOps3_2_writes : (hostOps3_2 : List (HloOp τ sig (Elt F))).Forall fun op => op.writes ⊆ (hostOps3_2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_3` allocates a buffer. -/
theorem hostOps3_3_fresh : (hostOps3_3 : List (HloOp τ sig (Elt F))).Forall fun op => op.fresh = ∅ := by
  simp only [List.Forall]; repeat' constructor
/-- The 3 buffers `hostOps3_3` writes, in order. -/
abbrev hostOps3_3_W : List (Ref sig .tc) := [main_call7_v0, main_call7_v1, main_v121]
theorem hostOps3_3_writes : (hostOps3_3 : List (HloOp τ sig (Elt F))).Forall fun op => op.writes ⊆ (hostOps3_3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps3_4` allocates a buffer. -/
theorem hostOps3_4_fresh : (hostOps3_4 : List (HloOp τ sig (Elt F))).Forall fun op => op.fresh = ∅ := by
  simp only [List.Forall]; repeat' constructor
/-- The 23 buffers `hostOps3_4` writes, in order. -/
abbrev hostOps3_4_W : List (Ref sig .tc) := [main_v122, main_v123, main_v124, main_c_37, main_v125, main_v126, main_c_38, main_v127, main_v128, main_v129, main_v130, main_v131, main_cst_39, main_v132, main_v133, main_v134, main_v135, main_v136, main_v137, main_v138, main_v139, main_v140, main_v141]
theorem hostOps3_4_writes : (hostOps3_4 : List (HloOp τ sig (Elt F))).Forall fun op => op.writes ⊆ (hostOps3_4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps4` allocates a buffer. -/
theorem hostOps4_fresh : (hostOps4 : List (HloOp τ sig (Elt F))).Forall fun op => op.fresh = ∅ := by
  simp only [List.Forall]; repeat' constructor
/-- The 79 buffers `hostOps4` writes, in order. -/
abbrev hostOps4_W : List (Ref sig .tc) := [main_v143, main_cst_40, main_v144, main_v145, main_v146, main_cst_41, main_v147, main_v148, main_v149, main_v150, main_v151, main_cst_42, main_v152, main_v153, main_v154, main_cst_43, main_v155, main_v156, main_v157, main_v158, main_c_44, main_v159, main_v160, main_c_45, main_v161, main_v162, main_v163, main_v164, main_v165, main_c_46, main_v166, main_v167, main_c_47, main_v168, main_v169, main_v170, main_v171, main_v172, main_v173, main_cst_48, main_v174, main_v175, main_v176, main_cst_49, main_v177, main_cst_50, main_v178, main_v179, main_v180, main_cst_51, main_v181, main_v182, main_cst_52, main_v183, main_v184, main_v185, main_v186, main_v187, main_cst_53, main_v188, main_v189, main_v190, main_cst_54, main_v191, main_v192, main_v193, main_v194, main_v195, main_cst_55, main_v196, main_v197, main_v198, main_cst_56, main_v199, main_v200, main_v201, main_v202, main_v203, main_v204]
theorem hostOps4_writes : (hostOps4 : List (HloOp τ sig (Elt F))).Forall fun op => op.writes ⊆ (hostOps4_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps5` allocates a buffer. -/
theorem hostOps5_fresh : (hostOps5 : List (HloOp τ sig (Elt F))).Forall fun op => op.fresh = ∅ := by
  simp only [List.Forall]; repeat' constructor
/-- The 27 buffers `hostOps5` writes, in order. -/
abbrev hostOps5_W : List (Ref sig .tc) := [main_v206, main_c_57, main_v207, main_v208, main_c_58, main_v209, main_v210, main_v211, main_v212, main_v213, main_v214, main_v215, main_v216, main_cst_59, main_v217, main_v218, main_v219, main_v220, main_v221, main_v222, main_cst_60, main_v223, main_cst_61, main_v224, main_v225, main_v226, main_v227]
theorem hostOps5_writes : (hostOps5 : List (HloOp τ sig (Elt F))).Forall fun op => op.writes ⊆ (hostOps5_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps6` allocates a buffer. -/
theorem hostOps6_fresh : (hostOps6 : List (HloOp τ sig (Elt F))).Forall fun op => op.fresh = ∅ := by
  simp only [List.Forall]; repeat' constructor
/-- The 3 buffers `hostOps6` writes, in order. -/
abbrev hostOps6_W : List (Ref sig .tc) := [main_v229, main_v230, main_v231]
theorem hostOps6_writes : (hostOps6 : List (HloOp τ sig (Elt F))).Forall fun op => op.writes ⊆ (hostOps6_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps7` allocates a buffer. -/
theorem hostOps7_fresh : (hostOps7 : List (HloOp τ sig (Elt F))).Forall fun op => op.fresh = ∅ := by
  simp only [List.Forall]; repeat' constructor
/-- The 79 buffers `hostOps7` writes, in order. -/
abbrev hostOps7_W : List (Ref sig .tc) := [main_v233, main_cst_62, main_v234, main_v235, main_v236, main_cst_63, main_v237, main_v238, main_v239, main_v240, main_v241, main_cst_64, main_v242, main_v243, main_v244, main_cst_65, main_v245, main_v246, main_v247, main_v248, main_c_66, main_v249, main_v250, main_c_67, main_v251, main_v252, main_v253, main_v254, main_v255, main_c_68, main_v256, main_v257, main_c_69, main_v258, main_v259, main_v260, main_v261, main_v262, main_v263, main_cst_70, main_v264, main_v265, main_v266, main_cst_71, main_v267, main_cst_72, main_v268, main_v269, main_v270, main_cst_73, main_v271, main_v272, main_cst_74, main_v273, main_v274, main_v275, main_v276, main_v277, main_cst_75, main_v278, main_v279, main_v280, main_cst_76, main_v281, main_v282, main_v283, main_v284, main_v285, main_cst_77, main_v286, main_v287, main_v288, main_cst_78, main_v289, main_v290, main_v291, main_v292, main_v293, main_v294]
theorem hostOps7_writes : (hostOps7 : List (HloOp τ sig (Elt F))).Forall fun op => op.writes ⊆ (hostOps7_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- No operation of `hostOps8` allocates a buffer. -/
theorem hostOps8_fresh : (hostOps8 : List (HloOp τ sig (Elt F))).Forall fun op => op.fresh = ∅ := by
  simp only [List.Forall]; repeat' constructor
/-- The 25 buffers `hostOps8` writes, in order. -/
abbrev hostOps8_W : List (Ref sig .tc) := [main_v296, main_c_79, main_v297, main_v298, main_c_80, main_v299, main_v300, main_v301, main_v302, main_v303, main_v304, main_v305, main_v306, main_cst_81, main_v307, main_v308, main_v309, main_v310, main_v311, main_v312, main_cst_82, main_v313, main_cst_83, main_v314, main_v315]
theorem hostOps8_writes : (hostOps8 : List (HloOp τ sig (Elt F))).Forall fun op => op.writes ⊆ (hostOps8_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## The valuations between items -/

-- the launch memory, and what each region leaves in the array its output window writes back, per core: the unknowns of the chain
variable (m : (ℓ : Loc nD τ sig) → Buf (Elt F) ℓ)
  (o0 : (c : Dev nD) → Buf (Elt F) ((c : Thread nD τ).loc main_v3))
  (o1 : (c : Dev nD) → Buf (Elt F) ((c : Thread nD τ).loc main_v65))
  (o2 : (c : Dev nD) → Buf (Elt F) ((c : Thread nD τ).loc main_v104))
  (o3 : (c : Dev nD) → Buf (Elt F) ((c : Thread nD τ).loc main_v142))
  (o4 : (c : Dev nD) → Buf (Elt F) ((c : Thread nD τ).loc main_v205))
  (o5 : (c : Dev nD) → Buf (Elt F) ((c : Thread nD τ).loc main_v228))
  (o6 : (c : Dev nD) → Buf (Elt F) ((c : Thread nD τ).loc main_v232))
  (o7 : (c : Dev nD) → Buf (Elt F) ((c : Thread nD τ).loc main_v295))

/-- Core `c`'s unscoped buffers at launch. -/
abbrev W0 (c : Dev nD) : Valuation τ sig (Elt F) := fun b => m (c, b)
/-- after item 0, the host stretch `hostOps0`. -/
abbrev W1 (c : Dev nD) : Valuation τ sig (Elt F) := StableHlo.after hostOps0 (W0 m c)
/-- after item 1, kernel region 0, which may change `main_v3`. -/
abbrev W2 (c : Dev nD) : Valuation τ sig (Elt F) := Function.update (W1 m c) main_v3 (o0 c)
/-- after item 2, the host stretch `hostOps1`. -/
abbrev W3 (c : Dev nD) : Valuation τ sig (Elt F) := StableHlo.after hostOps1 (W2 m o0 c)
/-- after item 3, the host stretch `hostOps1_1`. -/
abbrev W4 (c : Dev nD) : Valuation τ sig (Elt F) := StableHlo.after hostOps1_1 (W3 m o0 c)
/-- after item 4, the host stretch `hostOps1_2`. -/
abbrev W5 (c : Dev nD) : Valuation τ sig (Elt F) := StableHlo.after hostOps1_2 (W4 m o0 c)
/-- after item 5, the host stretch `hostOps1_3`. -/
abbrev W6 (c : Dev nD) : Valuation τ sig (Elt F) := StableHlo.after hostOps1_3 (W5 m o0 c)
/-- after item 6, the host stretch `hostOps1_4`. -/
abbrev W7 (c : Dev nD) : Valuation τ sig (Elt F) := StableHlo.after hostOps1_4 (W6 m o0 c)
/-- after item 7, the host stretch `hostOps1_5`. -/
abbrev W8 (c : Dev nD) : Valuation τ sig (Elt F) := StableHlo.after hostOps1_5 (W7 m o0 c)
/-- after item 8, the host stretch `hostOps1_6`. -/
abbrev W9 (c : Dev nD) : Valuation τ sig (Elt F) := StableHlo.after hostOps1_6 (W8 m o0 c)
/-- after item 9, the host stretch `hostOps1_7`. -/
abbrev W10 (c : Dev nD) : Valuation τ sig (Elt F) := StableHlo.after hostOps1_7 (W9 m o0 c)
/-- after item 10, kernel region 1, which may change `main_v65`. -/
abbrev W11 (c : Dev nD) : Valuation τ sig (Elt F) := Function.update (W10 m o0 c) main_v65 (o1 c)
/-- after item 11, the host stretch `hostOps2`. -/
abbrev W12 (c : Dev nD) : Valuation τ sig (Elt F) := StableHlo.after hostOps2 (W11 m o0 o1 c)
/-- after item 12, the host stretch `hostOps2_1`. -/
abbrev W13 (c : Dev nD) : Valuation τ sig (Elt F) := StableHlo.after hostOps2_1 (W12 m o0 o1 c)
/-- after item 13, the host stretch `hostOps2_2`. -/
abbrev W14 (c : Dev nD) : Valuation τ sig (Elt F) := StableHlo.after hostOps2_2 (W13 m o0 o1 c)
/-- after item 14, the host stretch `hostOps2_3`. -/
abbrev W15 (c : Dev nD) : Valuation τ sig (Elt F) := StableHlo.after hostOps2_3 (W14 m o0 o1 c)
/-- after item 15, the host stretch `hostOps2_4`. -/
abbrev W16 (c : Dev nD) : Valuation τ sig (Elt F) := StableHlo.after hostOps2_4 (W15 m o0 o1 c)
/-- after item 16, kernel region 2, which may change `main_v104`. -/
abbrev W17 (c : Dev nD) : Valuation τ sig (Elt F) := Function.update (W16 m o0 o1 c) main_v104 (o2 c)
/-- after item 17, the host stretch `hostOps3`. -/
abbrev W18 (c : Dev nD) : Valuation τ sig (Elt F) := StableHlo.after hostOps3 (W17 m o0 o1 o2 c)
/-- after item 18, the host stretch `hostOps3_1`. -/
abbrev W19 (c : Dev nD) : Valuation τ sig (Elt F) := StableHlo.after hostOps3_1 (W18 m o0 o1 o2 c)
/-- after item 19, the host stretch `hostOps3_2`. -/
abbrev W20 (c : Dev nD) : Valuation τ sig (Elt F) := StableHlo.after hostOps3_2 (W19 m o0 o1 o2 c)
/-- after item 20, the host stretch `hostOps3_3`. -/
abbrev W21 (c : Dev nD) : Valuation τ sig (Elt F) := StableHlo.after hostOps3_3 (W20 m o0 o1 o2 c)
/-- after item 21, the host stretch `hostOps3_4`. -/
abbrev W22 (c : Dev nD) : Valuation τ sig (Elt F) := StableHlo.after hostOps3_4 (W21 m o0 o1 o2 c)
/-- after item 22, kernel region 3, which may change `main_v142`. -/
abbrev W23 (c : Dev nD) : Valuation τ sig (Elt F) := Function.update (W22 m o0 o1 o2 c) main_v142 (o3 c)
/-- after item 23, the host stretch `hostOps4`. -/
abbrev W24 (c : Dev nD) : Valuation τ sig (Elt F) := StableHlo.after hostOps4 (W23 m o0 o1 o2 o3 c)
/-- after item 24, kernel region 4, which may change `main_v205`. -/
abbrev W25 (c : Dev nD) : Valuation τ sig (Elt F) := Function.update (W24 m o0 o1 o2 o3 c) main_v205 (o4 c)
/-- after item 25, the host stretch `hostOps5`. -/
abbrev W26 (c : Dev nD) : Valuation τ sig (Elt F) := StableHlo.after hostOps5 (W25 m o0 o1 o2 o3 o4 c)
/-- after item 26, kernel region 5, which may change `main_v228`. -/
abbrev W27 (c : Dev nD) : Valuation τ sig (Elt F) := Function.update (W26 m o0 o1 o2 o3 o4 c) main_v228 (o5 c)
/-- after item 27, the host stretch `hostOps6`. -/
abbrev W28 (c : Dev nD) : Valuation τ sig (Elt F) := StableHlo.after hostOps6 (W27 m o0 o1 o2 o3 o4 o5 c)
/-- after item 28, kernel region 6, which may change `main_v232`. -/
abbrev W29 (c : Dev nD) : Valuation τ sig (Elt F) := Function.update (W28 m o0 o1 o2 o3 o4 o5 c) main_v232 (o6 c)
/-- after item 29, the host stretch `hostOps7`. -/
abbrev W30 (c : Dev nD) : Valuation τ sig (Elt F) := StableHlo.after hostOps7 (W29 m o0 o1 o2 o3 o4 o5 o6 c)
/-- after item 30, kernel region 7, which may change `main_v295`. -/
abbrev W31 (c : Dev nD) : Valuation τ sig (Elt F) := Function.update (W30 m o0 o1 o2 o3 o4 o5 o6 c) main_v295 (o7 c)
/-- after item 31, the host stretch `hostOps8`. -/
abbrev W32 (c : Dev nD) : Valuation τ sig (Elt F) := StableHlo.after hostOps8 (W31 m o0 o1 o2 o3 o4 o5 o6 o7 c)

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v3] : List (Ref sig .tc))) : W2 m o0 c r = W1 m c r := by
  simp only [W2, Function.update_of_ne (StableHlo.devRef_ne_of_ne (List.ne_of_not_mem_cons h) : (Proc.devRef .tc r : DevRef τ sig) ≠ Proc.devRef .tc main_v3)]
theorem W3_of (c : Dev nD) (r : Ref sig .tc) (h : r ∉ hostOps1_W) : W3 m o0 c r = W2 m o0 c r :=
  StableHlo.after_of_writes_sub hostOps1 _ hostOps1_writes h
theorem W4_of (c : Dev nD) (r : Ref sig .tc) (h : r ∉ hostOps1_1_W) : W4 m o0 c r = W3 m o0 c r :=
  StableHlo.after_of_writes_sub hostOps1_1 _ hostOps1_1_writes h
theorem W5_of (c : Dev nD) (r : Ref sig .tc) (h : r ∉ hostOps1_2_W) : W5 m o0 c r = W4 m o0 c r :=
  StableHlo.after_of_writes_sub hostOps1_2 _ hostOps1_2_writes h
theorem W6_of (c : Dev nD) (r : Ref sig .tc) (h : r ∉ hostOps1_3_W) : W6 m o0 c r = W5 m o0 c r :=
  StableHlo.after_of_writes_sub hostOps1_3 _ hostOps1_3_writes h
theorem W7_of (c : Dev nD) (r : Ref sig .tc) (h : r ∉ hostOps1_4_W) : W7 m o0 c r = W6 m o0 c r :=
  StableHlo.after_of_writes_sub hostOps1_4 _ hostOps1_4_writes h
theorem W8_of (c : Dev nD) (r : Ref sig .tc) (h : r ∉ hostOps1_5_W) : W8 m o0 c r = W7 m o0 c r :=
  StableHlo.after_of_writes_sub hostOps1_5 _ hostOps1_5_writes h
theorem W9_of (c : Dev nD) (r : Ref sig .tc) (h : r ∉ hostOps1_6_W) : W9 m o0 c r = W8 m o0 c r :=
  StableHlo.after_of_writes_sub hostOps1_6 _ hostOps1_6_writes h
theorem W10_of (c : Dev nD) (r : Ref sig .tc) (h : r ∉ hostOps1_7_W) : W10 m o0 c r = W9 m o0 c r :=
  StableHlo.after_of_writes_sub hostOps1_7 _ hostOps1_7_writes h
theorem W11_of (c : Dev nD) (r : Ref sig .tc) (h : r ∉ ([main_v65] : List (Ref sig .tc))) : W11 m o0 o1 c r = W10 m o0 c r := by
  simp only [W11, Function.update_of_ne (StableHlo.devRef_ne_of_ne (List.ne_of_not_mem_cons h) : (Proc.devRef .tc r : DevRef τ sig) ≠ Proc.devRef .tc main_v65)]
theorem W12_of (c : Dev nD) (r : Ref sig .tc) (h : r ∉ hostOps2_W) : W12 m o0 o1 c r = W11 m o0 o1 c r :=
  StableHlo.after_of_writes_sub hostOps2 _ hostOps2_writes h
theorem W13_of (c : Dev nD) (r : Ref sig .tc) (h : r ∉ hostOps2_1_W) : W13 m o0 o1 c r = W12 m o0 o1 c r :=
  StableHlo.after_of_writes_sub hostOps2_1 _ hostOps2_1_writes h
theorem W14_of (c : Dev nD) (r : Ref sig .tc) (h : r ∉ hostOps2_2_W) : W14 m o0 o1 c r = W13 m o0 o1 c r :=
  StableHlo.after_of_writes_sub hostOps2_2 _ hostOps2_2_writes h
theorem W15_of (c : Dev nD) (r : Ref sig .tc) (h : r ∉ hostOps2_3_W) : W15 m o0 o1 c r = W14 m o0 o1 c r :=
  StableHlo.after_of_writes_sub hostOps2_3 _ hostOps2_3_writes h
theorem W16_of (c : Dev nD) (r : Ref sig .tc) (h : r ∉ hostOps2_4_W) : W16 m o0 o1 c r = W15 m o0 o1 c r :=
  StableHlo.after_of_writes_sub hostOps2_4 _ hostOps2_4_writes h
theorem W17_of (c : Dev nD) (r : Ref sig .tc) (h : r ∉ ([main_v104] : List (Ref sig .tc))) : W17 m o0 o1 o2 c r = W16 m o0 o1 c r := by
  simp only [W17, Function.update_of_ne (StableHlo.devRef_ne_of_ne (List.ne_of_not_mem_cons h) : (Proc.devRef .tc r : DevRef τ sig) ≠ Proc.devRef .tc main_v104)]
theorem W18_of (c : Dev nD) (r : Ref sig .tc) (h : r ∉ hostOps3_W) : W18 m o0 o1 o2 c r = W17 m o0 o1 o2 c r :=
  StableHlo.after_of_writes_sub hostOps3 _ hostOps3_writes h
theorem W19_of (c : Dev nD) (r : Ref sig .tc) (h : r ∉ hostOps3_1_W) : W19 m o0 o1 o2 c r = W18 m o0 o1 o2 c r :=
  StableHlo.after_of_writes_sub hostOps3_1 _ hostOps3_1_writes h
theorem W20_of (c : Dev nD) (r : Ref sig .tc) (h : r ∉ hostOps3_2_W) : W20 m o0 o1 o2 c r = W19 m o0 o1 o2 c r :=
  StableHlo.after_of_writes_sub hostOps3_2 _ hostOps3_2_writes h
theorem W21_of (c : Dev nD) (r : Ref sig .tc) (h : r ∉ hostOps3_3_W) : W21 m o0 o1 o2 c r = W20 m o0 o1 o2 c r :=
  StableHlo.after_of_writes_sub hostOps3_3 _ hostOps3_3_writes h
theorem W22_of (c : Dev nD) (r : Ref sig .tc) (h : r ∉ hostOps3_4_W) : W22 m o0 o1 o2 c r = W21 m o0 o1 o2 c r :=
  StableHlo.after_of_writes_sub hostOps3_4 _ hostOps3_4_writes h
theorem W23_of (c : Dev nD) (r : Ref sig .tc) (h : r ∉ ([main_v142] : List (Ref sig .tc))) : W23 m o0 o1 o2 o3 c r = W22 m o0 o1 o2 c r := by
  simp only [W23, Function.update_of_ne (StableHlo.devRef_ne_of_ne (List.ne_of_not_mem_cons h) : (Proc.devRef .tc r : DevRef τ sig) ≠ Proc.devRef .tc main_v142)]
theorem W24_of (c : Dev nD) (r : Ref sig .tc) (h : r ∉ hostOps4_W) : W24 m o0 o1 o2 o3 c r = W23 m o0 o1 o2 o3 c r :=
  StableHlo.after_of_writes_sub hostOps4 _ hostOps4_writes h
theorem W25_of (c : Dev nD) (r : Ref sig .tc) (h : r ∉ ([main_v205] : List (Ref sig .tc))) : W25 m o0 o1 o2 o3 o4 c r = W24 m o0 o1 o2 o3 c r := by
  simp only [W25, Function.update_of_ne (StableHlo.devRef_ne_of_ne (List.ne_of_not_mem_cons h) : (Proc.devRef .tc r : DevRef τ sig) ≠ Proc.devRef .tc main_v205)]
theorem W26_of (c : Dev nD) (r : Ref sig .tc) (h : r ∉ hostOps5_W) : W26 m o0 o1 o2 o3 o4 c r = W25 m o0 o1 o2 o3 o4 c r :=
  StableHlo.after_of_writes_sub hostOps5 _ hostOps5_writes h
theorem W27_of (c : Dev nD) (r : Ref sig .tc) (h : r ∉ ([main_v228] : List (Ref sig .tc))) : W27 m o0 o1 o2 o3 o4 o5 c r = W26 m o0 o1 o2 o3 o4 c r := by
  simp only [W27, Function.update_of_ne (StableHlo.devRef_ne_of_ne (List.ne_of_not_mem_cons h) : (Proc.devRef .tc r : DevRef τ sig) ≠ Proc.devRef .tc main_v228)]
theorem W28_of (c : Dev nD) (r : Ref sig .tc) (h : r ∉ hostOps6_W) : W28 m o0 o1 o2 o3 o4 o5 c r = W27 m o0 o1 o2 o3 o4 o5 c r :=
  StableHlo.after_of_writes_sub hostOps6 _ hostOps6_writes h
theorem W29_of (c : Dev nD) (r : Ref sig .tc) (h : r ∉ ([main_v232] : List (Ref sig .tc))) : W29 m o0 o1 o2 o3 o4 o5 o6 c r = W28 m o0 o1 o2 o3 o4 o5 c r := by
  simp only [W29, Function.update_of_ne (StableHlo.devRef_ne_of_ne (List.ne_of_not_mem_cons h) : (Proc.devRef .tc r : DevRef τ sig) ≠ Proc.devRef .tc main_v232)]
theorem W30_of (c : Dev nD) (r : Ref sig .tc) (h : r ∉ hostOps7_W) : W30 m o0 o1 o2 o3 o4 o5 o6 c r = W29 m o0 o1 o2 o3 o4 o5 o6 c r :=
  StableHlo.after_of_writes_sub hostOps7 _ hostOps7_writes h
theorem W31_of (c : Dev nD) (r : Ref sig .tc) (h : r ∉ ([main_v295] : List (Ref sig .tc))) : W31 m o0 o1 o2 o3 o4 o5 o6 o7 c r = W30 m o0 o1 o2 o3 o4 o5 o6 c r := by
  simp only [W31, Function.update_of_ne (StableHlo.devRef_ne_of_ne (List.ne_of_not_mem_cons h) : (Proc.devRef .tc r : DevRef τ sig) ≠ Proc.devRef .tc main_v295)]
theorem W32_of (c : Dev nD) (r : Ref sig .tc) (h : r ∉ hostOps8_W) : W32 m o0 o1 o2 o3 o4 o5 o6 o7 c r = W31 m o0 o1 o2 o3 o4 o5 o6 o7 c r :=
  StableHlo.after_of_writes_sub hostOps8 _ hostOps8_writes h

/-! ## No item writes an argument -/

/-- `main_arg0` reaches the end as launched. -/
theorem W32_main_arg0 (c : Dev nD) : W32 m o0 o1 o2 o3 o4 o5 o6 o7 c main_arg0 = m ((c : Thread nD τ).loc main_arg0) :=
  (W32_of m o0 o1 o2 o3 o4 o5 o6 o7 c main_arg0 (by decide)).trans <|
  (W31_of m o0 o1 o2 o3 o4 o5 o6 o7 c main_arg0 (by decide)).trans <|
  (W30_of m o0 o1 o2 o3 o4 o5 o6 c main_arg0 (by decide)).trans <|
  (W29_of m o0 o1 o2 o3 o4 o5 o6 c main_arg0 (by decide)).trans <|
  (W28_of m o0 o1 o2 o3 o4 o5 c main_arg0 (by decide)).trans <|
  (W27_of m o0 o1 o2 o3 o4 o5 c main_arg0 (by decide)).trans <|
  (W26_of m o0 o1 o2 o3 o4 c main_arg0 (by decide)).trans <|
  (W25_of m o0 o1 o2 o3 o4 c main_arg0 (by decide)).trans <|
  (W24_of m o0 o1 o2 o3 c main_arg0 (by decide)).trans <|
  (W23_of m o0 o1 o2 o3 c main_arg0 (by decide)).trans <|
  (W22_of m o0 o1 o2 c main_arg0 (by decide)).trans <|
  (W21_of m o0 o1 o2 c main_arg0 (by decide)).trans <|
  (W20_of m o0 o1 o2 c main_arg0 (by decide)).trans <|
  (W19_of m o0 o1 o2 c main_arg0 (by decide)).trans <|
  (W18_of m o0 o1 o2 c main_arg0 (by decide)).trans <|
  (W17_of m o0 o1 o2 c main_arg0 (by decide)).trans <|
  (W16_of m o0 o1 c main_arg0 (by decide)).trans <|
  (W15_of m o0 o1 c main_arg0 (by decide)).trans <|
  (W14_of m o0 o1 c main_arg0 (by decide)).trans <|
  (W13_of m o0 o1 c main_arg0 (by decide)).trans <|
  (W12_of m o0 o1 c main_arg0 (by decide)).trans <|
  (W11_of m o0 o1 c main_arg0 (by decide)).trans <|
  (W10_of m o0 c main_arg0 (by decide)).trans <|
  (W9_of m o0 c main_arg0 (by decide)).trans <|
  (W8_of m o0 c main_arg0 (by decide)).trans <|
  (W7_of m o0 c main_arg0 (by decide)).trans <|
  (W6_of m o0 c main_arg0 (by decide)).trans <|
  (W5_of m o0 c main_arg0 (by decide)).trans <|
  (W4_of m o0 c main_arg0 (by decide)).trans <|
  (W3_of m o0 c main_arg0 (by decide)).trans <|
  (W2_of m o0 c main_arg0 (by decide)).trans <|
  (W1_of m c main_arg0 (by decide)).trans rfl
/-- `main_arg1` reaches the end as launched. -/
theorem W32_main_arg1 (c : Dev nD) : W32 m o0 o1 o2 o3 o4 o5 o6 o7 c main_arg1 = m ((c : Thread nD τ).loc main_arg1) :=
  (W32_of m o0 o1 o2 o3 o4 o5 o6 o7 c main_arg1 (by decide)).trans <|
  (W31_of m o0 o1 o2 o3 o4 o5 o6 o7 c main_arg1 (by decide)).trans <|
  (W30_of m o0 o1 o2 o3 o4 o5 o6 c main_arg1 (by decide)).trans <|
  (W29_of m o0 o1 o2 o3 o4 o5 o6 c main_arg1 (by decide)).trans <|
  (W28_of m o0 o1 o2 o3 o4 o5 c main_arg1 (by decide)).trans <|
  (W27_of m o0 o1 o2 o3 o4 o5 c main_arg1 (by decide)).trans <|
  (W26_of m o0 o1 o2 o3 o4 c main_arg1 (by decide)).trans <|
  (W25_of m o0 o1 o2 o3 o4 c main_arg1 (by decide)).trans <|
  (W24_of m o0 o1 o2 o3 c main_arg1 (by decide)).trans <|
  (W23_of m o0 o1 o2 o3 c main_arg1 (by decide)).trans <|
  (W22_of m o0 o1 o2 c main_arg1 (by decide)).trans <|
  (W21_of m o0 o1 o2 c main_arg1 (by decide)).trans <|
  (W20_of m o0 o1 o2 c main_arg1 (by decide)).trans <|
  (W19_of m o0 o1 o2 c main_arg1 (by decide)).trans <|
  (W18_of m o0 o1 o2 c main_arg1 (by decide)).trans <|
  (W17_of m o0 o1 o2 c main_arg1 (by decide)).trans <|
  (W16_of m o0 o1 c main_arg1 (by decide)).trans <|
  (W15_of m o0 o1 c main_arg1 (by decide)).trans <|
  (W14_of m o0 o1 c main_arg1 (by decide)).trans <|
  (W13_of m o0 o1 c main_arg1 (by decide)).trans <|
  (W12_of m o0 o1 c main_arg1 (by decide)).trans <|
  (W11_of m o0 o1 c main_arg1 (by decide)).trans <|
  (W10_of m o0 c main_arg1 (by decide)).trans <|
  (W9_of m o0 c main_arg1 (by decide)).trans <|
  (W8_of m o0 c main_arg1 (by decide)).trans <|
  (W7_of m o0 c main_arg1 (by decide)).trans <|
  (W6_of m o0 c main_arg1 (by decide)).trans <|
  (W5_of m o0 c main_arg1 (by decide)).trans <|
  (W4_of m o0 c main_arg1 (by decide)).trans <|
  (W3_of m o0 c main_arg1 (by decide)).trans <|
  (W2_of m o0 c main_arg1 (by decide)).trans <|
  (W1_of m c main_arg1 (by decide)).trans rfl
/-- `main_arg2` reaches the end as launched. -/
theorem W32_main_arg2 (c : Dev nD) : W32 m o0 o1 o2 o3 o4 o5 o6 o7 c main_arg2 = m ((c : Thread nD τ).loc main_arg2) :=
  (W32_of m o0 o1 o2 o3 o4 o5 o6 o7 c main_arg2 (by decide)).trans <|
  (W31_of m o0 o1 o2 o3 o4 o5 o6 o7 c main_arg2 (by decide)).trans <|
  (W30_of m o0 o1 o2 o3 o4 o5 o6 c main_arg2 (by decide)).trans <|
  (W29_of m o0 o1 o2 o3 o4 o5 o6 c main_arg2 (by decide)).trans <|
  (W28_of m o0 o1 o2 o3 o4 o5 c main_arg2 (by decide)).trans <|
  (W27_of m o0 o1 o2 o3 o4 o5 c main_arg2 (by decide)).trans <|
  (W26_of m o0 o1 o2 o3 o4 c main_arg2 (by decide)).trans <|
  (W25_of m o0 o1 o2 o3 o4 c main_arg2 (by decide)).trans <|
  (W24_of m o0 o1 o2 o3 c main_arg2 (by decide)).trans <|
  (W23_of m o0 o1 o2 o3 c main_arg2 (by decide)).trans <|
  (W22_of m o0 o1 o2 c main_arg2 (by decide)).trans <|
  (W21_of m o0 o1 o2 c main_arg2 (by decide)).trans <|
  (W20_of m o0 o1 o2 c main_arg2 (by decide)).trans <|
  (W19_of m o0 o1 o2 c main_arg2 (by decide)).trans <|
  (W18_of m o0 o1 o2 c main_arg2 (by decide)).trans <|
  (W17_of m o0 o1 o2 c main_arg2 (by decide)).trans <|
  (W16_of m o0 o1 c main_arg2 (by decide)).trans <|
  (W15_of m o0 o1 c main_arg2 (by decide)).trans <|
  (W14_of m o0 o1 c main_arg2 (by decide)).trans <|
  (W13_of m o0 o1 c main_arg2 (by decide)).trans <|
  (W12_of m o0 o1 c main_arg2 (by decide)).trans <|
  (W11_of m o0 o1 c main_arg2 (by decide)).trans <|
  (W10_of m o0 c main_arg2 (by decide)).trans <|
  (W9_of m o0 c main_arg2 (by decide)).trans <|
  (W8_of m o0 c main_arg2 (by decide)).trans <|
  (W7_of m o0 c main_arg2 (by decide)).trans <|
  (W6_of m o0 c main_arg2 (by decide)).trans <|
  (W5_of m o0 c main_arg2 (by decide)).trans <|
  (W4_of m o0 c main_arg2 (by decide)).trans <|
  (W3_of m o0 c main_arg2 (by decide)).trans <|
  (W2_of m o0 c main_arg2 (by decide)).trans <|
  (W1_of m c main_arg2 (by decide)).trans rfl
/-- `main_arg3` reaches the end as launched. -/
theorem W32_main_arg3 (c : Dev nD) : W32 m o0 o1 o2 o3 o4 o5 o6 o7 c main_arg3 = m ((c : Thread nD τ).loc main_arg3) :=
  (W32_of m o0 o1 o2 o3 o4 o5 o6 o7 c main_arg3 (by decide)).trans <|
  (W31_of m o0 o1 o2 o3 o4 o5 o6 o7 c main_arg3 (by decide)).trans <|
  (W30_of m o0 o1 o2 o3 o4 o5 o6 c main_arg3 (by decide)).trans <|
  (W29_of m o0 o1 o2 o3 o4 o5 o6 c main_arg3 (by decide)).trans <|
  (W28_of m o0 o1 o2 o3 o4 o5 c main_arg3 (by decide)).trans <|
  (W27_of m o0 o1 o2 o3 o4 o5 c main_arg3 (by decide)).trans <|
  (W26_of m o0 o1 o2 o3 o4 c main_arg3 (by decide)).trans <|
  (W25_of m o0 o1 o2 o3 o4 c main_arg3 (by decide)).trans <|
  (W24_of m o0 o1 o2 o3 c main_arg3 (by decide)).trans <|
  (W23_of m o0 o1 o2 o3 c main_arg3 (by decide)).trans <|
  (W22_of m o0 o1 o2 c main_arg3 (by decide)).trans <|
  (W21_of m o0 o1 o2 c main_arg3 (by decide)).trans <|
  (W20_of m o0 o1 o2 c main_arg3 (by decide)).trans <|
  (W19_of m o0 o1 o2 c main_arg3 (by decide)).trans <|
  (W18_of m o0 o1 o2 c main_arg3 (by decide)).trans <|
  (W17_of m o0 o1 o2 c main_arg3 (by decide)).trans <|
  (W16_of m o0 o1 c main_arg3 (by decide)).trans <|
  (W15_of m o0 o1 c main_arg3 (by decide)).trans <|
  (W14_of m o0 o1 c main_arg3 (by decide)).trans <|
  (W13_of m o0 o1 c main_arg3 (by decide)).trans <|
  (W12_of m o0 o1 c main_arg3 (by decide)).trans <|
  (W11_of m o0 o1 c main_arg3 (by decide)).trans <|
  (W10_of m o0 c main_arg3 (by decide)).trans <|
  (W9_of m o0 c main_arg3 (by decide)).trans <|
  (W8_of m o0 c main_arg3 (by decide)).trans <|
  (W7_of m o0 c main_arg3 (by decide)).trans <|
  (W6_of m o0 c main_arg3 (by decide)).trans <|
  (W5_of m o0 c main_arg3 (by decide)).trans <|
  (W4_of m o0 c main_arg3 (by decide)).trans <|
  (W3_of m o0 c main_arg3 (by decide)).trans <|
  (W2_of m o0 c main_arg3 (by decide)).trans <|
  (W1_of m c main_arg3 (by decide)).trans rfl
/-- `main_arg4` reaches the end as launched. -/
theorem W32_main_arg4 (c : Dev nD) : W32 m o0 o1 o2 o3 o4 o5 o6 o7 c main_arg4 = m ((c : Thread nD τ).loc main_arg4) :=
  (W32_of m o0 o1 o2 o3 o4 o5 o6 o7 c main_arg4 (by decide)).trans <|
  (W31_of m o0 o1 o2 o3 o4 o5 o6 o7 c main_arg4 (by decide)).trans <|
  (W30_of m o0 o1 o2 o3 o4 o5 o6 c main_arg4 (by decide)).trans <|
  (W29_of m o0 o1 o2 o3 o4 o5 o6 c main_arg4 (by decide)).trans <|
  (W28_of m o0 o1 o2 o3 o4 o5 c main_arg4 (by decide)).trans <|
  (W27_of m o0 o1 o2 o3 o4 o5 c main_arg4 (by decide)).trans <|
  (W26_of m o0 o1 o2 o3 o4 c main_arg4 (by decide)).trans <|
  (W25_of m o0 o1 o2 o3 o4 c main_arg4 (by decide)).trans <|
  (W24_of m o0 o1 o2 o3 c main_arg4 (by decide)).trans <|
  (W23_of m o0 o1 o2 o3 c main_arg4 (by decide)).trans <|
  (W22_of m o0 o1 o2 c main_arg4 (by decide)).trans <|
  (W21_of m o0 o1 o2 c main_arg4 (by decide)).trans <|
  (W20_of m o0 o1 o2 c main_arg4 (by decide)).trans <|
  (W19_of m o0 o1 o2 c main_arg4 (by decide)).trans <|
  (W18_of m o0 o1 o2 c main_arg4 (by decide)).trans <|
  (W17_of m o0 o1 o2 c main_arg4 (by decide)).trans <|
  (W16_of m o0 o1 c main_arg4 (by decide)).trans <|
  (W15_of m o0 o1 c main_arg4 (by decide)).trans <|
  (W14_of m o0 o1 c main_arg4 (by decide)).trans <|
  (W13_of m o0 o1 c main_arg4 (by decide)).trans <|
  (W12_of m o0 o1 c main_arg4 (by decide)).trans <|
  (W11_of m o0 o1 c main_arg4 (by decide)).trans <|
  (W10_of m o0 c main_arg4 (by decide)).trans <|
  (W9_of m o0 c main_arg4 (by decide)).trans <|
  (W8_of m o0 c main_arg4 (by decide)).trans <|
  (W7_of m o0 c main_arg4 (by decide)).trans <|
  (W6_of m o0 c main_arg4 (by decide)).trans <|
  (W5_of m o0 c main_arg4 (by decide)).trans <|
  (W4_of m o0 c main_arg4 (by decide)).trans <|
  (W3_of m o0 c main_arg4 (by decide)).trans <|
  (W2_of m o0 c main_arg4 (by decide)).trans <|
  (W1_of m c main_arg4 (by decide)).trans rfl
/-- `main_arg5` reaches the end as launched. -/
theorem W32_main_arg5 (c : Dev nD) : W32 m o0 o1 o2 o3 o4 o5 o6 o7 c main_arg5 = m ((c : Thread nD τ).loc main_arg5) :=
  (W32_of m o0 o1 o2 o3 o4 o5 o6 o7 c main_arg5 (by decide)).trans <|
  (W31_of m o0 o1 o2 o3 o4 o5 o6 o7 c main_arg5 (by decide)).trans <|
  (W30_of m o0 o1 o2 o3 o4 o5 o6 c main_arg5 (by decide)).trans <|
  (W29_of m o0 o1 o2 o3 o4 o5 o6 c main_arg5 (by decide)).trans <|
  (W28_of m o0 o1 o2 o3 o4 o5 c main_arg5 (by decide)).trans <|
  (W27_of m o0 o1 o2 o3 o4 o5 c main_arg5 (by decide)).trans <|
  (W26_of m o0 o1 o2 o3 o4 c main_arg5 (by decide)).trans <|
  (W25_of m o0 o1 o2 o3 o4 c main_arg5 (by decide)).trans <|
  (W24_of m o0 o1 o2 o3 c main_arg5 (by decide)).trans <|
  (W23_of m o0 o1 o2 o3 c main_arg5 (by decide)).trans <|
  (W22_of m o0 o1 o2 c main_arg5 (by decide)).trans <|
  (W21_of m o0 o1 o2 c main_arg5 (by decide)).trans <|
  (W20_of m o0 o1 o2 c main_arg5 (by decide)).trans <|
  (W19_of m o0 o1 o2 c main_arg5 (by decide)).trans <|
  (W18_of m o0 o1 o2 c main_arg5 (by decide)).trans <|
  (W17_of m o0 o1 o2 c main_arg5 (by decide)).trans <|
  (W16_of m o0 o1 c main_arg5 (by decide)).trans <|
  (W15_of m o0 o1 c main_arg5 (by decide)).trans <|
  (W14_of m o0 o1 c main_arg5 (by decide)).trans <|
  (W13_of m o0 o1 c main_arg5 (by decide)).trans <|
  (W12_of m o0 o1 c main_arg5 (by decide)).trans <|
  (W11_of m o0 o1 c main_arg5 (by decide)).trans <|
  (W10_of m o0 c main_arg5 (by decide)).trans <|
  (W9_of m o0 c main_arg5 (by decide)).trans <|
  (W8_of m o0 c main_arg5 (by decide)).trans <|
  (W7_of m o0 c main_arg5 (by decide)).trans <|
  (W6_of m o0 c main_arg5 (by decide)).trans <|
  (W5_of m o0 c main_arg5 (by decide)).trans <|
  (W4_of m o0 c main_arg5 (by decide)).trans <|
  (W3_of m o0 c main_arg5 (by decide)).trans <|
  (W2_of m o0 c main_arg5 (by decide)).trans <|
  (W1_of m c main_arg5 (by decide)).trans rfl
/-- `main_arg6` reaches the end as launched. -/
theorem W32_main_arg6 (c : Dev nD) : W32 m o0 o1 o2 o3 o4 o5 o6 o7 c main_arg6 = m ((c : Thread nD τ).loc main_arg6) :=
  (W32_of m o0 o1 o2 o3 o4 o5 o6 o7 c main_arg6 (by decide)).trans <|
  (W31_of m o0 o1 o2 o3 o4 o5 o6 o7 c main_arg6 (by decide)).trans <|
  (W30_of m o0 o1 o2 o3 o4 o5 o6 c main_arg6 (by decide)).trans <|
  (W29_of m o0 o1 o2 o3 o4 o5 o6 c main_arg6 (by decide)).trans <|
  (W28_of m o0 o1 o2 o3 o4 o5 c main_arg6 (by decide)).trans <|
  (W27_of m o0 o1 o2 o3 o4 o5 c main_arg6 (by decide)).trans <|
  (W26_of m o0 o1 o2 o3 o4 c main_arg6 (by decide)).trans <|
  (W25_of m o0 o1 o2 o3 o4 c main_arg6 (by decide)).trans <|
  (W24_of m o0 o1 o2 o3 c main_arg6 (by decide)).trans <|
  (W23_of m o0 o1 o2 o3 c main_arg6 (by decide)).trans <|
  (W22_of m o0 o1 o2 c main_arg6 (by decide)).trans <|
  (W21_of m o0 o1 o2 c main_arg6 (by decide)).trans <|
  (W20_of m o0 o1 o2 c main_arg6 (by decide)).trans <|
  (W19_of m o0 o1 o2 c main_arg6 (by decide)).trans <|
  (W18_of m o0 o1 o2 c main_arg6 (by decide)).trans <|
  (W17_of m o0 o1 o2 c main_arg6 (by decide)).trans <|
  (W16_of m o0 o1 c main_arg6 (by decide)).trans <|
  (W15_of m o0 o1 c main_arg6 (by decide)).trans <|
  (W14_of m o0 o1 c main_arg6 (by decide)).trans <|
  (W13_of m o0 o1 c main_arg6 (by decide)).trans <|
  (W12_of m o0 o1 c main_arg6 (by decide)).trans <|
  (W11_of m o0 o1 c main_arg6 (by decide)).trans <|
  (W10_of m o0 c main_arg6 (by decide)).trans <|
  (W9_of m o0 c main_arg6 (by decide)).trans <|
  (W8_of m o0 c main_arg6 (by decide)).trans <|
  (W7_of m o0 c main_arg6 (by decide)).trans <|
  (W6_of m o0 c main_arg6 (by decide)).trans <|
  (W5_of m o0 c main_arg6 (by decide)).trans <|
  (W4_of m o0 c main_arg6 (by decide)).trans <|
  (W3_of m o0 c main_arg6 (by decide)).trans <|
  (W2_of m o0 c main_arg6 (by decide)).trans <|
  (W1_of m c main_arg6 (by decide)).trans rfl
/-- `main_arg7` reaches the end as launched. -/
theorem W32_main_arg7 (c : Dev nD) : W32 m o0 o1 o2 o3 o4 o5 o6 o7 c main_arg7 = m ((c : Thread nD τ).loc main_arg7) :=
  (W32_of m o0 o1 o2 o3 o4 o5 o6 o7 c main_arg7 (by decide)).trans <|
  (W31_of m o0 o1 o2 o3 o4 o5 o6 o7 c main_arg7 (by decide)).trans <|
  (W30_of m o0 o1 o2 o3 o4 o5 o6 c main_arg7 (by decide)).trans <|
  (W29_of m o0 o1 o2 o3 o4 o5 o6 c main_arg7 (by decide)).trans <|
  (W28_of m o0 o1 o2 o3 o4 o5 c main_arg7 (by decide)).trans <|
  (W27_of m o0 o1 o2 o3 o4 o5 c main_arg7 (by decide)).trans <|
  (W26_of m o0 o1 o2 o3 o4 c main_arg7 (by decide)).trans <|
  (W25_of m o0 o1 o2 o3 o4 c main_arg7 (by decide)).trans <|
  (W24_of m o0 o1 o2 o3 c main_arg7 (by decide)).trans <|
  (W23_of m o0 o1 o2 o3 c main_arg7 (by decide)).trans <|
  (W22_of m o0 o1 o2 c main_arg7 (by decide)).trans <|
  (W21_of m o0 o1 o2 c main_arg7 (by decide)).trans <|
  (W20_of m o0 o1 o2 c main_arg7 (by decide)).trans <|
  (W19_of m o0 o1 o2 c main_arg7 (by decide)).trans <|
  (W18_of m o0 o1 o2 c main_arg7 (by decide)).trans <|
  (W17_of m o0 o1 o2 c main_arg7 (by decide)).trans <|
  (W16_of m o0 o1 c main_arg7 (by decide)).trans <|
  (W15_of m o0 o1 c main_arg7 (by decide)).trans <|
  (W14_of m o0 o1 c main_arg7 (by decide)).trans <|
  (W13_of m o0 o1 c main_arg7 (by decide)).trans <|
  (W12_of m o0 o1 c main_arg7 (by decide)).trans <|
  (W11_of m o0 o1 c main_arg7 (by decide)).trans <|
  (W10_of m o0 c main_arg7 (by decide)).trans <|
  (W9_of m o0 c main_arg7 (by decide)).trans <|
  (W8_of m o0 c main_arg7 (by decide)).trans <|
  (W7_of m o0 c main_arg7 (by decide)).trans <|
  (W6_of m o0 c main_arg7 (by decide)).trans <|
  (W5_of m o0 c main_arg7 (by decide)).trans <|
  (W4_of m o0 c main_arg7 (by decide)).trans <|
  (W3_of m o0 c main_arg7 (by decide)).trans <|
  (W2_of m o0 c main_arg7 (by decide)).trans <|
  (W1_of m c main_arg7 (by decide)).trans rfl
/-- `main_arg8` reaches the end as launched. -/
theorem W32_main_arg8 (c : Dev nD) : W32 m o0 o1 o2 o3 o4 o5 o6 o7 c main_arg8 = m ((c : Thread nD τ).loc main_arg8) :=
  (W32_of m o0 o1 o2 o3 o4 o5 o6 o7 c main_arg8 (by decide)).trans <|
  (W31_of m o0 o1 o2 o3 o4 o5 o6 o7 c main_arg8 (by decide)).trans <|
  (W30_of m o0 o1 o2 o3 o4 o5 o6 c main_arg8 (by decide)).trans <|
  (W29_of m o0 o1 o2 o3 o4 o5 o6 c main_arg8 (by decide)).trans <|
  (W28_of m o0 o1 o2 o3 o4 o5 c main_arg8 (by decide)).trans <|
  (W27_of m o0 o1 o2 o3 o4 o5 c main_arg8 (by decide)).trans <|
  (W26_of m o0 o1 o2 o3 o4 c main_arg8 (by decide)).trans <|
  (W25_of m o0 o1 o2 o3 o4 c main_arg8 (by decide)).trans <|
  (W24_of m o0 o1 o2 o3 c main_arg8 (by decide)).trans <|
  (W23_of m o0 o1 o2 o3 c main_arg8 (by decide)).trans <|
  (W22_of m o0 o1 o2 c main_arg8 (by decide)).trans <|
  (W21_of m o0 o1 o2 c main_arg8 (by decide)).trans <|
  (W20_of m o0 o1 o2 c main_arg8 (by decide)).trans <|
  (W19_of m o0 o1 o2 c main_arg8 (by decide)).trans <|
  (W18_of m o0 o1 o2 c main_arg8 (by decide)).trans <|
  (W17_of m o0 o1 o2 c main_arg8 (by decide)).trans <|
  (W16_of m o0 o1 c main_arg8 (by decide)).trans <|
  (W15_of m o0 o1 c main_arg8 (by decide)).trans <|
  (W14_of m o0 o1 c main_arg8 (by decide)).trans <|
  (W13_of m o0 o1 c main_arg8 (by decide)).trans <|
  (W12_of m o0 o1 c main_arg8 (by decide)).trans <|
  (W11_of m o0 o1 c main_arg8 (by decide)).trans <|
  (W10_of m o0 c main_arg8 (by decide)).trans <|
  (W9_of m o0 c main_arg8 (by decide)).trans <|
  (W8_of m o0 c main_arg8 (by decide)).trans <|
  (W7_of m o0 c main_arg8 (by decide)).trans <|
  (W6_of m o0 c main_arg8 (by decide)).trans <|
  (W5_of m o0 c main_arg8 (by decide)).trans <|
  (W4_of m o0 c main_arg8 (by decide)).trans <|
  (W3_of m o0 c main_arg8 (by decide)).trans <|
  (W2_of m o0 c main_arg8 (by decide)).trans <|
  (W1_of m c main_arg8 (by decide)).trans rfl
/-- `main_arg9` reaches the end as launched. -/
theorem W32_main_arg9 (c : Dev nD) : W32 m o0 o1 o2 o3 o4 o5 o6 o7 c main_arg9 = m ((c : Thread nD τ).loc main_arg9) :=
  (W32_of m o0 o1 o2 o3 o4 o5 o6 o7 c main_arg9 (by decide)).trans <|
  (W31_of m o0 o1 o2 o3 o4 o5 o6 o7 c main_arg9 (by decide)).trans <|
  (W30_of m o0 o1 o2 o3 o4 o5 o6 c main_arg9 (by decide)).trans <|
  (W29_of m o0 o1 o2 o3 o4 o5 o6 c main_arg9 (by decide)).trans <|
  (W28_of m o0 o1 o2 o3 o4 o5 c main_arg9 (by decide)).trans <|
  (W27_of m o0 o1 o2 o3 o4 o5 c main_arg9 (by decide)).trans <|
  (W26_of m o0 o1 o2 o3 o4 c main_arg9 (by decide)).trans <|
  (W25_of m o0 o1 o2 o3 o4 c main_arg9 (by decide)).trans <|
  (W24_of m o0 o1 o2 o3 c main_arg9 (by decide)).trans <|
  (W23_of m o0 o1 o2 o3 c main_arg9 (by decide)).trans <|
  (W22_of m o0 o1 o2 c main_arg9 (by decide)).trans <|
  (W21_of m o0 o1 o2 c main_arg9 (by decide)).trans <|
  (W20_of m o0 o1 o2 c main_arg9 (by decide)).trans <|
  (W19_of m o0 o1 o2 c main_arg9 (by decide)).trans <|
  (W18_of m o0 o1 o2 c main_arg9 (by decide)).trans <|
  (W17_of m o0 o1 o2 c main_arg9 (by decide)).trans <|
  (W16_of m o0 o1 c main_arg9 (by decide)).trans <|
  (W15_of m o0 o1 c main_arg9 (by decide)).trans <|
  (W14_of m o0 o1 c main_arg9 (by decide)).trans <|
  (W13_of m o0 o1 c main_arg9 (by decide)).trans <|
  (W12_of m o0 o1 c main_arg9 (by decide)).trans <|
  (W11_of m o0 o1 c main_arg9 (by decide)).trans <|
  (W10_of m o0 c main_arg9 (by decide)).trans <|
  (W9_of m o0 c main_arg9 (by decide)).trans <|
  (W8_of m o0 c main_arg9 (by decide)).trans <|
  (W7_of m o0 c main_arg9 (by decide)).trans <|
  (W6_of m o0 c main_arg9 (by decide)).trans <|
  (W5_of m o0 c main_arg9 (by decide)).trans <|
  (W4_of m o0 c main_arg9 (by decide)).trans <|
  (W3_of m o0 c main_arg9 (by decide)).trans <|
  (W2_of m o0 c main_arg9 (by decide)).trans <|
  (W1_of m c main_arg9 (by decide)).trans rfl
/-- `main_arg10` reaches the end as launched. -/
theorem W32_main_arg10 (c : Dev nD) : W32 m o0 o1 o2 o3 o4 o5 o6 o7 c main_arg10 = m ((c : Thread nD τ).loc main_arg10) :=
  (W32_of m o0 o1 o2 o3 o4 o5 o6 o7 c main_arg10 (by decide)).trans <|
  (W31_of m o0 o1 o2 o3 o4 o5 o6 o7 c main_arg10 (by decide)).trans <|
  (W30_of m o0 o1 o2 o3 o4 o5 o6 c main_arg10 (by decide)).trans <|
  (W29_of m o0 o1 o2 o3 o4 o5 o6 c main_arg10 (by decide)).trans <|
  (W28_of m o0 o1 o2 o3 o4 o5 c main_arg10 (by decide)).trans <|
  (W27_of m o0 o1 o2 o3 o4 o5 c main_arg10 (by decide)).trans <|
  (W26_of m o0 o1 o2 o3 o4 c main_arg10 (by decide)).trans <|
  (W25_of m o0 o1 o2 o3 o4 c main_arg10 (by decide)).trans <|
  (W24_of m o0 o1 o2 o3 c main_arg10 (by decide)).trans <|
  (W23_of m o0 o1 o2 o3 c main_arg10 (by decide)).trans <|
  (W22_of m o0 o1 o2 c main_arg10 (by decide)).trans <|
  (W21_of m o0 o1 o2 c main_arg10 (by decide)).trans <|
  (W20_of m o0 o1 o2 c main_arg10 (by decide)).trans <|
  (W19_of m o0 o1 o2 c main_arg10 (by decide)).trans <|
  (W18_of m o0 o1 o2 c main_arg10 (by decide)).trans <|
  (W17_of m o0 o1 o2 c main_arg10 (by decide)).trans <|
  (W16_of m o0 o1 c main_arg10 (by decide)).trans <|
  (W15_of m o0 o1 c main_arg10 (by decide)).trans <|
  (W14_of m o0 o1 c main_arg10 (by decide)).trans <|
  (W13_of m o0 o1 c main_arg10 (by decide)).trans <|
  (W12_of m o0 o1 c main_arg10 (by decide)).trans <|
  (W11_of m o0 o1 c main_arg10 (by decide)).trans <|
  (W10_of m o0 c main_arg10 (by decide)).trans <|
  (W9_of m o0 c main_arg10 (by decide)).trans <|
  (W8_of m o0 c main_arg10 (by decide)).trans <|
  (W7_of m o0 c main_arg10 (by decide)).trans <|
  (W6_of m o0 c main_arg10 (by decide)).trans <|
  (W5_of m o0 c main_arg10 (by decide)).trans <|
  (W4_of m o0 c main_arg10 (by decide)).trans <|
  (W3_of m o0 c main_arg10 (by decide)).trans <|
  (W2_of m o0 c main_arg10 (by decide)).trans <|
  (W1_of m c main_arg10 (by decide)).trans rfl
/-- `main_arg11` reaches the end as launched. -/
theorem W32_main_arg11 (c : Dev nD) : W32 m o0 o1 o2 o3 o4 o5 o6 o7 c main_arg11 = m ((c : Thread nD τ).loc main_arg11) :=
  (W32_of m o0 o1 o2 o3 o4 o5 o6 o7 c main_arg11 (by decide)).trans <|
  (W31_of m o0 o1 o2 o3 o4 o5 o6 o7 c main_arg11 (by decide)).trans <|
  (W30_of m o0 o1 o2 o3 o4 o5 o6 c main_arg11 (by decide)).trans <|
  (W29_of m o0 o1 o2 o3 o4 o5 o6 c main_arg11 (by decide)).trans <|
  (W28_of m o0 o1 o2 o3 o4 o5 c main_arg11 (by decide)).trans <|
  (W27_of m o0 o1 o2 o3 o4 o5 c main_arg11 (by decide)).trans <|
  (W26_of m o0 o1 o2 o3 o4 c main_arg11 (by decide)).trans <|
  (W25_of m o0 o1 o2 o3 o4 c main_arg11 (by decide)).trans <|
  (W24_of m o0 o1 o2 o3 c main_arg11 (by decide)).trans <|
  (W23_of m o0 o1 o2 o3 c main_arg11 (by decide)).trans <|
  (W22_of m o0 o1 o2 c main_arg11 (by decide)).trans <|
  (W21_of m o0 o1 o2 c main_arg11 (by decide)).trans <|
  (W20_of m o0 o1 o2 c main_arg11 (by decide)).trans <|
  (W19_of m o0 o1 o2 c main_arg11 (by decide)).trans <|
  (W18_of m o0 o1 o2 c main_arg11 (by decide)).trans <|
  (W17_of m o0 o1 o2 c main_arg11 (by decide)).trans <|
  (W16_of m o0 o1 c main_arg11 (by decide)).trans <|
  (W15_of m o0 o1 c main_arg11 (by decide)).trans <|
  (W14_of m o0 o1 c main_arg11 (by decide)).trans <|
  (W13_of m o0 o1 c main_arg11 (by decide)).trans <|
  (W12_of m o0 o1 c main_arg11 (by decide)).trans <|
  (W11_of m o0 o1 c main_arg11 (by decide)).trans <|
  (W10_of m o0 c main_arg11 (by decide)).trans <|
  (W9_of m o0 c main_arg11 (by decide)).trans <|
  (W8_of m o0 c main_arg11 (by decide)).trans <|
  (W7_of m o0 c main_arg11 (by decide)).trans <|
  (W6_of m o0 c main_arg11 (by decide)).trans <|
  (W5_of m o0 c main_arg11 (by decide)).trans <|
  (W4_of m o0 c main_arg11 (by decide)).trans <|
  (W3_of m o0 c main_arg11 (by decide)).trans <|
  (W2_of m o0 c main_arg11 (by decide)).trans <|
  (W1_of m c main_arg11 (by decide)).trans rfl
/-- `main_arg12` reaches the end as launched. -/
theorem W32_main_arg12 (c : Dev nD) : W32 m o0 o1 o2 o3 o4 o5 o6 o7 c main_arg12 = m ((c : Thread nD τ).loc main_arg12) :=
  (W32_of m o0 o1 o2 o3 o4 o5 o6 o7 c main_arg12 (by decide)).trans <|
  (W31_of m o0 o1 o2 o3 o4 o5 o6 o7 c main_arg12 (by decide)).trans <|
  (W30_of m o0 o1 o2 o3 o4 o5 o6 c main_arg12 (by decide)).trans <|
  (W29_of m o0 o1 o2 o3 o4 o5 o6 c main_arg12 (by decide)).trans <|
  (W28_of m o0 o1 o2 o3 o4 o5 c main_arg12 (by decide)).trans <|
  (W27_of m o0 o1 o2 o3 o4 o5 c main_arg12 (by decide)).trans <|
  (W26_of m o0 o1 o2 o3 o4 c main_arg12 (by decide)).trans <|
  (W25_of m o0 o1 o2 o3 o4 c main_arg12 (by decide)).trans <|
  (W24_of m o0 o1 o2 o3 c main_arg12 (by decide)).trans <|
  (W23_of m o0 o1 o2 o3 c main_arg12 (by decide)).trans <|
  (W22_of m o0 o1 o2 c main_arg12 (by decide)).trans <|
  (W21_of m o0 o1 o2 c main_arg12 (by decide)).trans <|
  (W20_of m o0 o1 o2 c main_arg12 (by decide)).trans <|
  (W19_of m o0 o1 o2 c main_arg12 (by decide)).trans <|
  (W18_of m o0 o1 o2 c main_arg12 (by decide)).trans <|
  (W17_of m o0 o1 o2 c main_arg12 (by decide)).trans <|
  (W16_of m o0 o1 c main_arg12 (by decide)).trans <|
  (W15_of m o0 o1 c main_arg12 (by decide)).trans <|
  (W14_of m o0 o1 c main_arg12 (by decide)).trans <|
  (W13_of m o0 o1 c main_arg12 (by decide)).trans <|
  (W12_of m o0 o1 c main_arg12 (by decide)).trans <|
  (W11_of m o0 o1 c main_arg12 (by decide)).trans <|
  (W10_of m o0 c main_arg12 (by decide)).trans <|
  (W9_of m o0 c main_arg12 (by decide)).trans <|
  (W8_of m o0 c main_arg12 (by decide)).trans <|
  (W7_of m o0 c main_arg12 (by decide)).trans <|
  (W6_of m o0 c main_arg12 (by decide)).trans <|
  (W5_of m o0 c main_arg12 (by decide)).trans <|
  (W4_of m o0 c main_arg12 (by decide)).trans <|
  (W3_of m o0 c main_arg12 (by decide)).trans <|
  (W2_of m o0 c main_arg12 (by decide)).trans <|
  (W1_of m c main_arg12 (by decide)).trans rfl
/-- `main_arg13` reaches the end as launched. -/
theorem W32_main_arg13 (c : Dev nD) : W32 m o0 o1 o2 o3 o4 o5 o6 o7 c main_arg13 = m ((c : Thread nD τ).loc main_arg13) :=
  (W32_of m o0 o1 o2 o3 o4 o5 o6 o7 c main_arg13 (by decide)).trans <|
  (W31_of m o0 o1 o2 o3 o4 o5 o6 o7 c main_arg13 (by decide)).trans <|
  (W30_of m o0 o1 o2 o3 o4 o5 o6 c main_arg13 (by decide)).trans <|
  (W29_of m o0 o1 o2 o3 o4 o5 o6 c main_arg13 (by decide)).trans <|
  (W28_of m o0 o1 o2 o3 o4 o5 c main_arg13 (by decide)).trans <|
  (W27_of m o0 o1 o2 o3 o4 o5 c main_arg13 (by decide)).trans <|
  (W26_of m o0 o1 o2 o3 o4 c main_arg13 (by decide)).trans <|
  (W25_of m o0 o1 o2 o3 o4 c main_arg13 (by decide)).trans <|
  (W24_of m o0 o1 o2 o3 c main_arg13 (by decide)).trans <|
  (W23_of m o0 o1 o2 o3 c main_arg13 (by decide)).trans <|
  (W22_of m o0 o1 o2 c main_arg13 (by decide)).trans <|
  (W21_of m o0 o1 o2 c main_arg13 (by decide)).trans <|
  (W20_of m o0 o1 o2 c main_arg13 (by decide)).trans <|
  (W19_of m o0 o1 o2 c main_arg13 (by decide)).trans <|
  (W18_of m o0 o1 o2 c main_arg13 (by decide)).trans <|
  (W17_of m o0 o1 o2 c main_arg13 (by decide)).trans <|
  (W16_of m o0 o1 c main_arg13 (by decide)).trans <|
  (W15_of m o0 o1 c main_arg13 (by decide)).trans <|
  (W14_of m o0 o1 c main_arg13 (by decide)).trans <|
  (W13_of m o0 o1 c main_arg13 (by decide)).trans <|
  (W12_of m o0 o1 c main_arg13 (by decide)).trans <|
  (W11_of m o0 o1 c main_arg13 (by decide)).trans <|
  (W10_of m o0 c main_arg13 (by decide)).trans <|
  (W9_of m o0 c main_arg13 (by decide)).trans <|
  (W8_of m o0 c main_arg13 (by decide)).trans <|
  (W7_of m o0 c main_arg13 (by decide)).trans <|
  (W6_of m o0 c main_arg13 (by decide)).trans <|
  (W5_of m o0 c main_arg13 (by decide)).trans <|
  (W4_of m o0 c main_arg13 (by decide)).trans <|
  (W3_of m o0 c main_arg13 (by decide)).trans <|
  (W2_of m o0 c main_arg13 (by decide)).trans <|
  (W1_of m c main_arg13 (by decide)).trans rfl
/-- `main_arg14` reaches the end as launched. -/
theorem W32_main_arg14 (c : Dev nD) : W32 m o0 o1 o2 o3 o4 o5 o6 o7 c main_arg14 = m ((c : Thread nD τ).loc main_arg14) :=
  (W32_of m o0 o1 o2 o3 o4 o5 o6 o7 c main_arg14 (by decide)).trans <|
  (W31_of m o0 o1 o2 o3 o4 o5 o6 o7 c main_arg14 (by decide)).trans <|
  (W30_of m o0 o1 o2 o3 o4 o5 o6 c main_arg14 (by decide)).trans <|
  (W29_of m o0 o1 o2 o3 o4 o5 o6 c main_arg14 (by decide)).trans <|
  (W28_of m o0 o1 o2 o3 o4 o5 c main_arg14 (by decide)).trans <|
  (W27_of m o0 o1 o2 o3 o4 o5 c main_arg14 (by decide)).trans <|
  (W26_of m o0 o1 o2 o3 o4 c main_arg14 (by decide)).trans <|
  (W25_of m o0 o1 o2 o3 o4 c main_arg14 (by decide)).trans <|
  (W24_of m o0 o1 o2 o3 c main_arg14 (by decide)).trans <|
  (W23_of m o0 o1 o2 o3 c main_arg14 (by decide)).trans <|
  (W22_of m o0 o1 o2 c main_arg14 (by decide)).trans <|
  (W21_of m o0 o1 o2 c main_arg14 (by decide)).trans <|
  (W20_of m o0 o1 o2 c main_arg14 (by decide)).trans <|
  (W19_of m o0 o1 o2 c main_arg14 (by decide)).trans <|
  (W18_of m o0 o1 o2 c main_arg14 (by decide)).trans <|
  (W17_of m o0 o1 o2 c main_arg14 (by decide)).trans <|
  (W16_of m o0 o1 c main_arg14 (by decide)).trans <|
  (W15_of m o0 o1 c main_arg14 (by decide)).trans <|
  (W14_of m o0 o1 c main_arg14 (by decide)).trans <|
  (W13_of m o0 o1 c main_arg14 (by decide)).trans <|
  (W12_of m o0 o1 c main_arg14 (by decide)).trans <|
  (W11_of m o0 o1 c main_arg14 (by decide)).trans <|
  (W10_of m o0 c main_arg14 (by decide)).trans <|
  (W9_of m o0 c main_arg14 (by decide)).trans <|
  (W8_of m o0 c main_arg14 (by decide)).trans <|
  (W7_of m o0 c main_arg14 (by decide)).trans <|
  (W6_of m o0 c main_arg14 (by decide)).trans <|
  (W5_of m o0 c main_arg14 (by decide)).trans <|
  (W4_of m o0 c main_arg14 (by decide)).trans <|
  (W3_of m o0 c main_arg14 (by decide)).trans <|
  (W2_of m o0 c main_arg14 (by decide)).trans <|
  (W1_of m c main_arg14 (by decide)).trans rfl
/-- `main_arg15` reaches the end as launched. -/
theorem W32_main_arg15 (c : Dev nD) : W32 m o0 o1 o2 o3 o4 o5 o6 o7 c main_arg15 = m ((c : Thread nD τ).loc main_arg15) :=
  (W32_of m o0 o1 o2 o3 o4 o5 o6 o7 c main_arg15 (by decide)).trans <|
  (W31_of m o0 o1 o2 o3 o4 o5 o6 o7 c main_arg15 (by decide)).trans <|
  (W30_of m o0 o1 o2 o3 o4 o5 o6 c main_arg15 (by decide)).trans <|
  (W29_of m o0 o1 o2 o3 o4 o5 o6 c main_arg15 (by decide)).trans <|
  (W28_of m o0 o1 o2 o3 o4 o5 c main_arg15 (by decide)).trans <|
  (W27_of m o0 o1 o2 o3 o4 o5 c main_arg15 (by decide)).trans <|
  (W26_of m o0 o1 o2 o3 o4 c main_arg15 (by decide)).trans <|
  (W25_of m o0 o1 o2 o3 o4 c main_arg15 (by decide)).trans <|
  (W24_of m o0 o1 o2 o3 c main_arg15 (by decide)).trans <|
  (W23_of m o0 o1 o2 o3 c main_arg15 (by decide)).trans <|
  (W22_of m o0 o1 o2 c main_arg15 (by decide)).trans <|
  (W21_of m o0 o1 o2 c main_arg15 (by decide)).trans <|
  (W20_of m o0 o1 o2 c main_arg15 (by decide)).trans <|
  (W19_of m o0 o1 o2 c main_arg15 (by decide)).trans <|
  (W18_of m o0 o1 o2 c main_arg15 (by decide)).trans <|
  (W17_of m o0 o1 o2 c main_arg15 (by decide)).trans <|
  (W16_of m o0 o1 c main_arg15 (by decide)).trans <|
  (W15_of m o0 o1 c main_arg15 (by decide)).trans <|
  (W14_of m o0 o1 c main_arg15 (by decide)).trans <|
  (W13_of m o0 o1 c main_arg15 (by decide)).trans <|
  (W12_of m o0 o1 c main_arg15 (by decide)).trans <|
  (W11_of m o0 o1 c main_arg15 (by decide)).trans <|
  (W10_of m o0 c main_arg15 (by decide)).trans <|
  (W9_of m o0 c main_arg15 (by decide)).trans <|
  (W8_of m o0 c main_arg15 (by decide)).trans <|
  (W7_of m o0 c main_arg15 (by decide)).trans <|
  (W6_of m o0 c main_arg15 (by decide)).trans <|
  (W5_of m o0 c main_arg15 (by decide)).trans <|
  (W4_of m o0 c main_arg15 (by decide)).trans <|
  (W3_of m o0 c main_arg15 (by decide)).trans <|
  (W2_of m o0 c main_arg15 (by decide)).trans <|
  (W1_of m c main_arg15 (by decide)).trans rfl
/-- `main_arg16` reaches the end as launched. -/
theorem W32_main_arg16 (c : Dev nD) : W32 m o0 o1 o2 o3 o4 o5 o6 o7 c main_arg16 = m ((c : Thread nD τ).loc main_arg16) :=
  (W32_of m o0 o1 o2 o3 o4 o5 o6 o7 c main_arg16 (by decide)).trans <|
  (W31_of m o0 o1 o2 o3 o4 o5 o6 o7 c main_arg16 (by decide)).trans <|
  (W30_of m o0 o1 o2 o3 o4 o5 o6 c main_arg16 (by decide)).trans <|
  (W29_of m o0 o1 o2 o3 o4 o5 o6 c main_arg16 (by decide)).trans <|
  (W28_of m o0 o1 o2 o3 o4 o5 c main_arg16 (by decide)).trans <|
  (W27_of m o0 o1 o2 o3 o4 o5 c main_arg16 (by decide)).trans <|
  (W26_of m o0 o1 o2 o3 o4 c main_arg16 (by decide)).trans <|
  (W25_of m o0 o1 o2 o3 o4 c main_arg16 (by decide)).trans <|
  (W24_of m o0 o1 o2 o3 c main_arg16 (by decide)).trans <|
  (W23_of m o0 o1 o2 o3 c main_arg16 (by decide)).trans <|
  (W22_of m o0 o1 o2 c main_arg16 (by decide)).trans <|
  (W21_of m o0 o1 o2 c main_arg16 (by decide)).trans <|
  (W20_of m o0 o1 o2 c main_arg16 (by decide)).trans <|
  (W19_of m o0 o1 o2 c main_arg16 (by decide)).trans <|
  (W18_of m o0 o1 o2 c main_arg16 (by decide)).trans <|
  (W17_of m o0 o1 o2 c main_arg16 (by decide)).trans <|
  (W16_of m o0 o1 c main_arg16 (by decide)).trans <|
  (W15_of m o0 o1 c main_arg16 (by decide)).trans <|
  (W14_of m o0 o1 c main_arg16 (by decide)).trans <|
  (W13_of m o0 o1 c main_arg16 (by decide)).trans <|
  (W12_of m o0 o1 c main_arg16 (by decide)).trans <|
  (W11_of m o0 o1 c main_arg16 (by decide)).trans <|
  (W10_of m o0 c main_arg16 (by decide)).trans <|
  (W9_of m o0 c main_arg16 (by decide)).trans <|
  (W8_of m o0 c main_arg16 (by decide)).trans <|
  (W7_of m o0 c main_arg16 (by decide)).trans <|
  (W6_of m o0 c main_arg16 (by decide)).trans <|
  (W5_of m o0 c main_arg16 (by decide)).trans <|
  (W4_of m o0 c main_arg16 (by decide)).trans <|
  (W3_of m o0 c main_arg16 (by decide)).trans <|
  (W2_of m o0 c main_arg16 (by decide)).trans <|
  (W1_of m c main_arg16 (by decide)).trans rfl
/-- `main_arg17` reaches the end as launched. -/
theorem W32_main_arg17 (c : Dev nD) : W32 m o0 o1 o2 o3 o4 o5 o6 o7 c main_arg17 = m ((c : Thread nD τ).loc main_arg17) :=
  (W32_of m o0 o1 o2 o3 o4 o5 o6 o7 c main_arg17 (by decide)).trans <|
  (W31_of m o0 o1 o2 o3 o4 o5 o6 o7 c main_arg17 (by decide)).trans <|
  (W30_of m o0 o1 o2 o3 o4 o5 o6 c main_arg17 (by decide)).trans <|
  (W29_of m o0 o1 o2 o3 o4 o5 o6 c main_arg17 (by decide)).trans <|
  (W28_of m o0 o1 o2 o3 o4 o5 c main_arg17 (by decide)).trans <|
  (W27_of m o0 o1 o2 o3 o4 o5 c main_arg17 (by decide)).trans <|
  (W26_of m o0 o1 o2 o3 o4 c main_arg17 (by decide)).trans <|
  (W25_of m o0 o1 o2 o3 o4 c main_arg17 (by decide)).trans <|
  (W24_of m o0 o1 o2 o3 c main_arg17 (by decide)).trans <|
  (W23_of m o0 o1 o2 o3 c main_arg17 (by decide)).trans <|
  (W22_of m o0 o1 o2 c main_arg17 (by decide)).trans <|
  (W21_of m o0 o1 o2 c main_arg17 (by decide)).trans <|
  (W20_of m o0 o1 o2 c main_arg17 (by decide)).trans <|
  (W19_of m o0 o1 o2 c main_arg17 (by decide)).trans <|
  (W18_of m o0 o1 o2 c main_arg17 (by decide)).trans <|
  (W17_of m o0 o1 o2 c main_arg17 (by decide)).trans <|
  (W16_of m o0 o1 c main_arg17 (by decide)).trans <|
  (W15_of m o0 o1 c main_arg17 (by decide)).trans <|
  (W14_of m o0 o1 c main_arg17 (by decide)).trans <|
  (W13_of m o0 o1 c main_arg17 (by decide)).trans <|
  (W12_of m o0 o1 c main_arg17 (by decide)).trans <|
  (W11_of m o0 o1 c main_arg17 (by decide)).trans <|
  (W10_of m o0 c main_arg17 (by decide)).trans <|
  (W9_of m o0 c main_arg17 (by decide)).trans <|
  (W8_of m o0 c main_arg17 (by decide)).trans <|
  (W7_of m o0 c main_arg17 (by decide)).trans <|
  (W6_of m o0 c main_arg17 (by decide)).trans <|
  (W5_of m o0 c main_arg17 (by decide)).trans <|
  (W4_of m o0 c main_arg17 (by decide)).trans <|
  (W3_of m o0 c main_arg17 (by decide)).trans <|
  (W2_of m o0 c main_arg17 (by decide)).trans <|
  (W1_of m c main_arg17 (by decide)).trans rfl
/-- `main_arg18` reaches the end as launched. -/
theorem W32_main_arg18 (c : Dev nD) : W32 m o0 o1 o2 o3 o4 o5 o6 o7 c main_arg18 = m ((c : Thread nD τ).loc main_arg18) :=
  (W32_of m o0 o1 o2 o3 o4 o5 o6 o7 c main_arg18 (by decide)).trans <|
  (W31_of m o0 o1 o2 o3 o4 o5 o6 o7 c main_arg18 (by decide)).trans <|
  (W30_of m o0 o1 o2 o3 o4 o5 o6 c main_arg18 (by decide)).trans <|
  (W29_of m o0 o1 o2 o3 o4 o5 o6 c main_arg18 (by decide)).trans <|
  (W28_of m o0 o1 o2 o3 o4 o5 c main_arg18 (by decide)).trans <|
  (W27_of m o0 o1 o2 o3 o4 o5 c main_arg18 (by decide)).trans <|
  (W26_of m o0 o1 o2 o3 o4 c main_arg18 (by decide)).trans <|
  (W25_of m o0 o1 o2 o3 o4 c main_arg18 (by decide)).trans <|
  (W24_of m o0 o1 o2 o3 c main_arg18 (by decide)).trans <|
  (W23_of m o0 o1 o2 o3 c main_arg18 (by decide)).trans <|
  (W22_of m o0 o1 o2 c main_arg18 (by decide)).trans <|
  (W21_of m o0 o1 o2 c main_arg18 (by decide)).trans <|
  (W20_of m o0 o1 o2 c main_arg18 (by decide)).trans <|
  (W19_of m o0 o1 o2 c main_arg18 (by decide)).trans <|
  (W18_of m o0 o1 o2 c main_arg18 (by decide)).trans <|
  (W17_of m o0 o1 o2 c main_arg18 (by decide)).trans <|
  (W16_of m o0 o1 c main_arg18 (by decide)).trans <|
  (W15_of m o0 o1 c main_arg18 (by decide)).trans <|
  (W14_of m o0 o1 c main_arg18 (by decide)).trans <|
  (W13_of m o0 o1 c main_arg18 (by decide)).trans <|
  (W12_of m o0 o1 c main_arg18 (by decide)).trans <|
  (W11_of m o0 o1 c main_arg18 (by decide)).trans <|
  (W10_of m o0 c main_arg18 (by decide)).trans <|
  (W9_of m o0 c main_arg18 (by decide)).trans <|
  (W8_of m o0 c main_arg18 (by decide)).trans <|
  (W7_of m o0 c main_arg18 (by decide)).trans <|
  (W6_of m o0 c main_arg18 (by decide)).trans <|
  (W5_of m o0 c main_arg18 (by decide)).trans <|
  (W4_of m o0 c main_arg18 (by decide)).trans <|
  (W3_of m o0 c main_arg18 (by decide)).trans <|
  (W2_of m o0 c main_arg18 (by decide)).trans <|
  (W1_of m c main_arg18 (by decide)).trans rfl
/-- `main_arg19` reaches the end as launched. -/
theorem W32_main_arg19 (c : Dev nD) : W32 m o0 o1 o2 o3 o4 o5 o6 o7 c main_arg19 = m ((c : Thread nD τ).loc main_arg19) :=
  (W32_of m o0 o1 o2 o3 o4 o5 o6 o7 c main_arg19 (by decide)).trans <|
  (W31_of m o0 o1 o2 o3 o4 o5 o6 o7 c main_arg19 (by decide)).trans <|
  (W30_of m o0 o1 o2 o3 o4 o5 o6 c main_arg19 (by decide)).trans <|
  (W29_of m o0 o1 o2 o3 o4 o5 o6 c main_arg19 (by decide)).trans <|
  (W28_of m o0 o1 o2 o3 o4 o5 c main_arg19 (by decide)).trans <|
  (W27_of m o0 o1 o2 o3 o4 o5 c main_arg19 (by decide)).trans <|
  (W26_of m o0 o1 o2 o3 o4 c main_arg19 (by decide)).trans <|
  (W25_of m o0 o1 o2 o3 o4 c main_arg19 (by decide)).trans <|
  (W24_of m o0 o1 o2 o3 c main_arg19 (by decide)).trans <|
  (W23_of m o0 o1 o2 o3 c main_arg19 (by decide)).trans <|
  (W22_of m o0 o1 o2 c main_arg19 (by decide)).trans <|
  (W21_of m o0 o1 o2 c main_arg19 (by decide)).trans <|
  (W20_of m o0 o1 o2 c main_arg19 (by decide)).trans <|
  (W19_of m o0 o1 o2 c main_arg19 (by decide)).trans <|
  (W18_of m o0 o1 o2 c main_arg19 (by decide)).trans <|
  (W17_of m o0 o1 o2 c main_arg19 (by decide)).trans <|
  (W16_of m o0 o1 c main_arg19 (by decide)).trans <|
  (W15_of m o0 o1 c main_arg19 (by decide)).trans <|
  (W14_of m o0 o1 c main_arg19 (by decide)).trans <|
  (W13_of m o0 o1 c main_arg19 (by decide)).trans <|
  (W12_of m o0 o1 c main_arg19 (by decide)).trans <|
  (W11_of m o0 o1 c main_arg19 (by decide)).trans <|
  (W10_of m o0 c main_arg19 (by decide)).trans <|
  (W9_of m o0 c main_arg19 (by decide)).trans <|
  (W8_of m o0 c main_arg19 (by decide)).trans <|
  (W7_of m o0 c main_arg19 (by decide)).trans <|
  (W6_of m o0 c main_arg19 (by decide)).trans <|
  (W5_of m o0 c main_arg19 (by decide)).trans <|
  (W4_of m o0 c main_arg19 (by decide)).trans <|
  (W3_of m o0 c main_arg19 (by decide)).trans <|
  (W2_of m o0 c main_arg19 (by decide)).trans <|
  (W1_of m c main_arg19 (by decide)).trans rfl
/-- `main_arg20` reaches the end as launched. -/
theorem W32_main_arg20 (c : Dev nD) : W32 m o0 o1 o2 o3 o4 o5 o6 o7 c main_arg20 = m ((c : Thread nD τ).loc main_arg20) :=
  (W32_of m o0 o1 o2 o3 o4 o5 o6 o7 c main_arg20 (by decide)).trans <|
  (W31_of m o0 o1 o2 o3 o4 o5 o6 o7 c main_arg20 (by decide)).trans <|
  (W30_of m o0 o1 o2 o3 o4 o5 o6 c main_arg20 (by decide)).trans <|
  (W29_of m o0 o1 o2 o3 o4 o5 o6 c main_arg20 (by decide)).trans <|
  (W28_of m o0 o1 o2 o3 o4 o5 c main_arg20 (by decide)).trans <|
  (W27_of m o0 o1 o2 o3 o4 o5 c main_arg20 (by decide)).trans <|
  (W26_of m o0 o1 o2 o3 o4 c main_arg20 (by decide)).trans <|
  (W25_of m o0 o1 o2 o3 o4 c main_arg20 (by decide)).trans <|
  (W24_of m o0 o1 o2 o3 c main_arg20 (by decide)).trans <|
  (W23_of m o0 o1 o2 o3 c main_arg20 (by decide)).trans <|
  (W22_of m o0 o1 o2 c main_arg20 (by decide)).trans <|
  (W21_of m o0 o1 o2 c main_arg20 (by decide)).trans <|
  (W20_of m o0 o1 o2 c main_arg20 (by decide)).trans <|
  (W19_of m o0 o1 o2 c main_arg20 (by decide)).trans <|
  (W18_of m o0 o1 o2 c main_arg20 (by decide)).trans <|
  (W17_of m o0 o1 o2 c main_arg20 (by decide)).trans <|
  (W16_of m o0 o1 c main_arg20 (by decide)).trans <|
  (W15_of m o0 o1 c main_arg20 (by decide)).trans <|
  (W14_of m o0 o1 c main_arg20 (by decide)).trans <|
  (W13_of m o0 o1 c main_arg20 (by decide)).trans <|
  (W12_of m o0 o1 c main_arg20 (by decide)).trans <|
  (W11_of m o0 o1 c main_arg20 (by decide)).trans <|
  (W10_of m o0 c main_arg20 (by decide)).trans <|
  (W9_of m o0 c main_arg20 (by decide)).trans <|
  (W8_of m o0 c main_arg20 (by decide)).trans <|
  (W7_of m o0 c main_arg20 (by decide)).trans <|
  (W6_of m o0 c main_arg20 (by decide)).trans <|
  (W5_of m o0 c main_arg20 (by decide)).trans <|
  (W4_of m o0 c main_arg20 (by decide)).trans <|
  (W3_of m o0 c main_arg20 (by decide)).trans <|
  (W2_of m o0 c main_arg20 (by decide)).trans <|
  (W1_of m c main_arg20 (by decide)).trans rfl

end Cert.Kernel.Hand

end
-- ==== Proof.K.Common.lean ====
/-
  What the segments of all eight regions share: the (empty) prefetched tables, the family of every pipeline's
  proof data assembled from eight components, the level assignment (none: no core owes another anything), and
  the shape of the thread state — every unscoped buffer of the core at a valuation, beside a rider.
-/
import proofs.«175488_j3908420240157_2_alg».proof.Proof.Gen.Kernel.Launch
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

/-- The prefetched tables' admissible contents: no pipeline has a table. -/
abbrev adm : (p : Fin 8) → (pcfgs (F := F) p).Adm := fun p => (cfgs p).toPCfg_adm

/-- Proof data of pipeline `p`, on every core. -/
abbrev DatAt (F : FTy → Type) [FloatOps F] (U : Type) [URA U] (p : Fin 8) : Type :=
  (c : Dev nD) → Dat τ (Elt F) Unit ℕ U ℕ (Pipeline.pin (pcfgs (F := F)) adm p) c

/-- Every pipeline's proof data from one component per pipeline — a literal match on the pipeline's index, so that
    the family at a numeral reduces to that component (and the pinned configuration there to the printed one). -/
def pdatsOf (d0 : DatAt F U 0) (d1 : DatAt F U 1) (d2 : DatAt F U 2) (d3 : DatAt F U 3) (d4 : DatAt F U 4) (d5 : DatAt F U 5)
    (d6 : DatAt F U 6) (d7 : DatAt F U 7) : (p : Fin 8) → DatAt F U p
  | ⟨0, _⟩ => d0
  | ⟨1, _⟩ => d1
  | ⟨2, _⟩ => d2
  | ⟨3, _⟩ => d3
  | ⟨4, _⟩ => d4
  | ⟨5, _⟩ => d5
  | ⟨6, _⟩ => d6
  | ⟨7, _⟩ => d7

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through a region: the certificate's own `R c`, and the core's dues at nothing. -/
abbrev rider (R : Dev nD → sProp 𝕄) (c : Dev nD) : sProp 𝕄 :=
  iprop(R c ∗ ∃ Wo, owes (c : Thread nD τ) (0 : CellTallies nD τ sig Unit) Wo)

/-- A valuation of the core's buffers read at the TensorCore's references: what a region's proof data take. -/
abbrev Vof (W : Dev nD → Valuation τ sig (Elt F)) : (c : Dev nD) → (b : Ref sig .tc) → Buf (Elt F) ((c : Thread nD τ).loc b) :=
  fun c b => W c b

end Cert.Kernel.Hand

end
-- ==== Proof.K.RunCond.lean ====
/-
  The run of the kernel's @main over its eight kernel regions, GIVEN each region's record.
  @main is thirty-two items in order: twenty-four stretches of host operations and the eight regions. Between two items a
  core holds every unscoped buffer at the valuation the chain names for that point, beside a rest of the certificate's
  choosing. A host stretch moves the state from one valuation to its fold; a region is entered from the valuation before
  it and, by its record, left at the same valuation with its output array replaced. Composing the thirty-two steps from the
  launch memory, every execution ends with every unscoped buffer at the last valuation of the chain; since no item writes
  an argument of @main, each argument ends as launched.
-/
import proofs.«175488_j3908420240157_2_alg».proof.Proof.K.Chain
import proofs.«175488_j3908420240157_2_alg».proof.Proof.K.Common

set_option maxRecDepth 8192

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)
  (o0 : (c : Dev nD) → Buf (Elt F) ((c : Thread nD τ).loc main_v3))
  (o1 : (c : Dev nD) → Buf (Elt F) ((c : Thread nD τ).loc main_v65))
  (o2 : (c : Dev nD) → Buf (Elt F) ((c : Thread nD τ).loc main_v104))
  (o3 : (c : Dev nD) → Buf (Elt F) ((c : Thread nD τ).loc main_v142))
  (o4 : (c : Dev nD) → Buf (Elt F) ((c : Thread nD τ).loc main_v205))
  (o5 : (c : Dev nD) → Buf (Elt F) ((c : Thread nD τ).loc main_v228))
  (o6 : (c : Dev nD) → Buf (Elt F) ((c : Thread nD τ).loc main_v232))
  (o7 : (c : Dev nD) → Buf (Elt F) ((c : Thread nD τ).loc main_v295))

/-! ## The host stretches as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 9 → Dev nD → sProp (MT nD τ sig Ix (Elt F) ℕ U Lvl))

/-- Item 0: the stretch `hostOps0`, from the valuation before it, the rest `E 0` riding along. -/
def hseg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) (E 0)
/-- Item 2: the stretch `hostOps1`, from the valuation before it, the rest `E 1` riding along. -/
def hseg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m o0) (E 1)
/-- Item 3: the stretch `hostOps1_1`, from the valuation before it, the rest `E 1` riding along. -/
def hseg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (W3 m o0) (E 1)
/-- Item 4: the stretch `hostOps1_2`, from the valuation before it, the rest `E 1` riding along. -/
def hseg4 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (W4 m o0) (E 1)
/-- Item 5: the stretch `hostOps1_3`, from the valuation before it, the rest `E 1` riding along. -/
def hseg5 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (W5 m o0) (E 1)
/-- Item 6: the stretch `hostOps1_4`, from the valuation before it, the rest `E 1` riding along. -/
def hseg6 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (W6 m o0) (E 1)
/-- Item 7: the stretch `hostOps1_5`, from the valuation before it, the rest `E 1` riding along. -/
def hseg7 : HostSeg (Ix := Ix) (Name := ℕ) (U := U) (Lvl := Lvl) (pcfgs (F := F)) defs₀ 𝒱₀ L lv :=
  HostSeg.ofOps _ _ _ _ _ (Pipeline.ucRefs τ sig) hostOps1_5
    (fun op h => Pipeline.sub_ucRefs op ((List.forall_iff_forall_mem.mp hostOps1_5_sub) op h))
    (fun op h => (List.forall_iff_forall_mem.mp hostOps1_5_fresh) op h) (W7 m o0) (E 1)
/-- Item 8: the stretch `hostOps1_6`, from the valuation before it, the rest `E 1` riding along. -/
def hseg8 : HostSeg (Ix := Ix) (Name := ℕ) (U := U) (Lvl := Lvl) (pcfgs (F := F)) defs₀ 𝒱₀ L lv :=
  HostSeg.ofOps _ _ _ _ _ (Pipeline.ucRefs τ sig) hostOps1_6
    (fun op h => Pipeline.sub_ucRefs op ((List.forall_iff_forall_mem.mp hostOps1_6_sub) op h))
    (fun op h => (List.forall_iff_forall_mem.mp hostOps1_6_fresh) op h) (W8 m o0) (E 1)
/-- Item 9: the stretch `hostOps1_7`, from the valuation before it, the rest `E 1` riding along. -/
def hseg9 : HostSeg (Ix := Ix) (Name := ℕ) (U := U) (Lvl := Lvl) (pcfgs (F := F)) defs₀ 𝒱₀ L lv :=
  HostSeg.ofOps _ _ _ _ _ (Pipeline.ucRefs τ sig) hostOps1_7
    (fun op h => Pipeline.sub_ucRefs op ((List.forall_iff_forall_mem.mp hostOps1_7_sub) op h))
    (fun op h => (List.forall_iff_forall_mem.mp hostOps1_7_fresh) op h) (W9 m o0) (E 1)
/-- Item 11: the stretch `hostOps2`, from the valuation before it, the rest `E 2` riding along. -/
def hseg11 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W11 m o0 o1) (E 2)
/-- Item 12: the stretch `hostOps2_1`, from the valuation before it, the rest `E 2` riding along. -/
def hseg12 : HostSeg (Ix := Ix) (Name := ℕ) (U := U) (Lvl := Lvl) (pcfgs (F := F)) defs₀ 𝒱₀ L lv :=
  HostSeg.ofOps _ _ _ _ _ (Pipeline.ucRefs τ sig) hostOps2_1
    (fun op h => Pipeline.sub_ucRefs op ((List.forall_iff_forall_mem.mp hostOps2_1_sub) op h))
    (fun op h => (List.forall_iff_forall_mem.mp hostOps2_1_fresh) op h) (W12 m o0 o1) (E 2)
/-- Item 13: the stretch `hostOps2_2`, from the valuation before it, the rest `E 2` riding along. -/
def hseg13 : HostSeg (Ix := Ix) (Name := ℕ) (U := U) (Lvl := Lvl) (pcfgs (F := F)) defs₀ 𝒱₀ L lv :=
  HostSeg.ofOps _ _ _ _ _ (Pipeline.ucRefs τ sig) hostOps2_2
    (fun op h => Pipeline.sub_ucRefs op ((List.forall_iff_forall_mem.mp hostOps2_2_sub) op h))
    (fun op h => (List.forall_iff_forall_mem.mp hostOps2_2_fresh) op h) (W13 m o0 o1) (E 2)
/-- Item 14: the stretch `hostOps2_3`, from the valuation before it, the rest `E 2` riding along. -/
def hseg14 : HostSeg (Ix := Ix) (Name := ℕ) (U := U) (Lvl := Lvl) (pcfgs (F := F)) defs₀ 𝒱₀ L lv :=
  HostSeg.ofOps _ _ _ _ _ (Pipeline.ucRefs τ sig) hostOps2_3
    (fun op h => Pipeline.sub_ucRefs op ((List.forall_iff_forall_mem.mp hostOps2_3_sub) op h))
    (fun op h => (List.forall_iff_forall_mem.mp hostOps2_3_fresh) op h) (W14 m o0 o1) (E 2)
/-- Item 15: the stretch `hostOps2_4`, from the valuation before it, the rest `E 2` riding along. -/
def hseg15 : HostSeg (Ix := Ix) (Name := ℕ) (U := U) (Lvl := Lvl) (pcfgs (F := F)) defs₀ 𝒱₀ L lv :=
  HostSeg.ofOps _ _ _ _ _ (Pipeline.ucRefs τ sig) hostOps2_4
    (fun op h => Pipeline.sub_ucRefs op ((List.forall_iff_forall_mem.mp hostOps2_4_sub) op h))
    (fun op h => (List.forall_iff_forall_mem.mp hostOps2_4_fresh) op h) (W15 m o0 o1) (E 2)
/-- Item 17: the stretch `hostOps3`, from the valuation before it, the rest `E 3` riding along. -/
def hseg17 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W17 m o0 o1 o2) (E 3)
/-- Item 18: the stretch `hostOps3_1`, from the valuation before it, the rest `E 3` riding along. -/
def hseg18 : HostSeg (Ix := Ix) (Name := ℕ) (U := U) (Lvl := Lvl) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (W18 m o0 o1 o2) (E 3)
/-- Item 19: the stretch `hostOps3_2`, from the valuation before it, the rest `E 3` riding along. -/
def hseg19 : HostSeg (Ix := Ix) (Name := ℕ) (U := U) (Lvl := Lvl) (pcfgs (F := F)) defs₀ 𝒱₀ L lv :=
  HostSeg.ofOps _ _ _ _ _ (Pipeline.ucRefs τ sig) hostOps3_2
    (fun op h => Pipeline.sub_ucRefs op ((List.forall_iff_forall_mem.mp hostOps3_2_sub) op h))
    (fun op h => (List.forall_iff_forall_mem.mp hostOps3_2_fresh) op h) (W19 m o0 o1 o2) (E 3)
/-- Item 20: the stretch `hostOps3_3`, from the valuation before it, the rest `E 3` riding along. -/
def hseg20 : HostSeg (Ix := Ix) (Name := ℕ) (U := U) (Lvl := Lvl) (pcfgs (F := F)) defs₀ 𝒱₀ L lv :=
  HostSeg.ofOps _ _ _ _ _ (Pipeline.ucRefs τ sig) hostOps3_3
    (fun op h => Pipeline.sub_ucRefs op ((List.forall_iff_forall_mem.mp hostOps3_3_sub) op h))
    (fun op h => (List.forall_iff_forall_mem.mp hostOps3_3_fresh) op h) (W20 m o0 o1 o2) (E 3)
/-- Item 21: the stretch `hostOps3_4`, from the valuation before it, the rest `E 3` riding along. -/
def hseg21 : HostSeg (Ix := Ix) (Name := ℕ) (U := U) (Lvl := Lvl) (pcfgs (F := F)) defs₀ 𝒱₀ L lv :=
  HostSeg.ofOps _ _ _ _ _ (Pipeline.ucRefs τ sig) hostOps3_4
    (fun op h => Pipeline.sub_ucRefs op ((List.forall_iff_forall_mem.mp hostOps3_4_sub) op h))
    (fun op h => (List.forall_iff_forall_mem.mp hostOps3_4_fresh) op h) (W21 m o0 o1 o2) (E 3)
/-- Item 23: the stretch `hostOps4`, from the valuation before it, the rest `E 4` riding along. -/
def hseg23 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W23 m o0 o1 o2 o3) (E 4)
/-- Item 25: the stretch `hostOps5`, from the valuation before it, the rest `E 5` riding along. -/
def hseg25 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (W25 m o0 o1 o2 o3 o4) (E 5)
/-- Item 27: the stretch `hostOps6`, from the valuation before it, the rest `E 6` riding along. -/
def hseg27 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (W27 m o0 o1 o2 o3 o4 o5) (E 6)
/-- Item 29: the stretch `hostOps7`, from the valuation before it, the rest `E 7` riding along. -/
def hseg29 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (W29 m o0 o1 o2 o3 o4 o5 o6) (E 7)
/-- Item 31: the stretch `hostOps8`, from the valuation before it, the rest `E 8` riding along. -/
def hseg31 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (W31 m o0 o1 o2 o3 o4 o5 o6 o7) (E 8)

end Segs

section

variable {Ix : Type} [DecidableEq Ix] {U : Type} [URA U] {Lvl : Type} [Preorder Lvl]

/-- @main's thirty-two items as segments (the same list on every core): the host stretches', and the regions' given records. -/
abbrev segs (𝒱₀ : Variants) (L : GSem nD τ sig → Finset Ix) (lv : GSem nD τ sig → Ix → Lvl) (E : Fin 9 → Dev nD → sProp (MT nD τ sig Ix (Elt F) ℕ U Lvl)) (ι : Ix)
    (pdats : (p : Fin 8) → (c : Dev nD) → Dat τ (Elt F) Ix ℕ U Lvl (cfgs p) c)
    (R0 : RegionSeg (pcfgs (F := F)) adm pdats ι defs₀ 𝒱₀ L lv 0)
    (R1 : RegionSeg (pcfgs (F := F)) adm pdats ι defs₀ 𝒱₀ L lv 1)
    (R2 : RegionSeg (pcfgs (F := F)) adm pdats ι defs₀ 𝒱₀ L lv 2)
    (R3 : RegionSeg (pcfgs (F := F)) adm pdats ι defs₀ 𝒱₀ L lv 3)
    (R4 : RegionSeg (pcfgs (F := F)) adm pdats ι defs₀ 𝒱₀ L lv 4)
    (R5 : RegionSeg (pcfgs (F := F)) adm pdats ι defs₀ 𝒱₀ L lv 5)
    (R6 : RegionSeg (pcfgs (F := F)) adm pdats ι defs₀ 𝒱₀ L lv 6)
    (R7 : RegionSeg (pcfgs (F := F)) adm pdats ι defs₀ 𝒱₀ L lv 7) (c : Dev nD) :
    List (Seg (pcfgs (F := F)) adm pdats ι defs₀ 𝒱₀ L lv) :=
  [ .host (hseg0 m 𝒱₀ L lv E),
    .region R0,
    .host (hseg2 m o0 𝒱₀ L lv E),
    .host (hseg3 m o0 𝒱₀ L lv E),
    .host (hseg4 m o0 𝒱₀ L lv E),
    .host (hseg5 m o0 𝒱₀ L lv E),
    .host (hseg6 m o0 𝒱₀ L lv E),
    .host (hseg7 m o0 𝒱₀ L lv E),
    .host (hseg8 m o0 𝒱₀ L lv E),
    .host (hseg9 m o0 𝒱₀ L lv E),
    .region R1,
    .host (hseg11 m o0 o1 𝒱₀ L lv E),
    .host (hseg12 m o0 o1 𝒱₀ L lv E),
    .host (hseg13 m o0 o1 𝒱₀ L lv E),
    .host (hseg14 m o0 o1 𝒱₀ L lv E),
    .host (hseg15 m o0 o1 𝒱₀ L lv E),
    .region R2,
    .host (hseg17 m o0 o1 o2 𝒱₀ L lv E),
    .host (hseg18 m o0 o1 o2 𝒱₀ L lv E),
    .host (hseg19 m o0 o1 o2 𝒱₀ L lv E),
    .host (hseg20 m o0 o1 o2 𝒱₀ L lv E),
    .host (hseg21 m o0 o1 o2 𝒱₀ L lv E),
    .region R3,
    .host (hseg23 m o0 o1 o2 o3 𝒱₀ L lv E),
    .region R4,
    .host (hseg25 m o0 o1 o2 o3 o4 𝒱₀ L lv E),
    .region R5,
    .host (hseg27 m o0 o1 o2 o3 o4 o5 𝒱₀ L lv E),
    .region R6,
    .host (hseg29 m o0 o1 o2 o3 o4 o5 o6 𝒱₀ L lv E),
    .region R7,
    .host (hseg31 m o0 o1 o2 o3 o4 o5 o6 o7 𝒱₀ L lv E) ]

end

/-! ## The run, given the regions' records -/

-- the launch theorem's implicit arguments are found by unifying its conclusion with this one, which takes unfolding
-- plain definitions in a metavariable's type
set_option backward.isDefEq.respectTransparency.types false in
/-- For any user algebra, level assignment, launch dues and ghost resources, any rests `E` the launch makes on every core at
    once (`hE0`) and that end owing nothing (`hE8`), any contents `o0 … o7` and any proof data: GIVEN for each region a
    record entered from this module's state before it and left at the one after it, every weakly fair execution of @main from
    memory `m` with zero counters terminates, and in every final memory every unscoped buffer holds what the chain's last
    valuation says. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (W1 m c) ∗ E 0 c) ⊢ R0.pre c)
    (hpost0 : ∀ c : Dev nD, R0.post c ⊢ iprop(StableHlo.held (c : Thread nD τ) (Pipeline.ucRefs τ sig) (W2 m o0 c) ∗ E 1 c))
    (R1 : RegionSeg (pcfgs (F := F)) adm pdats ι defs₀ 𝒱₀ L lv 1)
    (hpre1 : ∀ c : Dev nD, iprop(StableHlo.held (c : Thread nD τ) (Pipeline.ucRefs τ sig) (W10 m o0 c) ∗ E 1 c) ⊢ R1.pre c)
    (hpost1 : ∀ c : Dev nD, R1.post c ⊢ iprop(StableHlo.held (c : Thread nD τ) (Pipeline.ucRefs τ sig) (W11 m o0 o1 c) ∗ E 2 c))
    (R2 : RegionSeg (pcfgs (F := F)) adm pdats ι defs₀ 𝒱₀ L lv 2)
    (hpre2 : ∀ c : Dev nD, iprop(StableHlo.held (c : Thread nD τ) (Pipeline.ucRefs τ sig) (W16 m o0 o1 c) ∗ E 2 c) ⊢ R2.pre c)
    (hpost2 : ∀ c : Dev nD, R2.post c ⊢ iprop(StableHlo.held (c : Thread nD τ) (Pipeline.ucRefs τ sig) (W17 m o0 o1 o2 c) ∗ E 3 c))
    (R3 : RegionSeg (pcfgs (F := F)) adm pdats ι defs₀ 𝒱₀ L lv 3)
    (hpre3 : ∀ c : Dev nD, iprop(StableHlo.held (c : Thread nD τ) (Pipeline.ucRefs τ sig) (W22 m o0 o1 o2 c) ∗ E 3 c) ⊢ R3.pre c)
    (hpost3 : ∀ c : Dev nD, R3.post c ⊢ iprop(StableHlo.held (c : Thread nD τ) (Pipeline.ucRefs τ sig) (W23 m o0 o1 o2 o3 c) ∗ E 4 c))
    (R4 : RegionSeg (pcfgs (F := F)) adm pdats ι defs₀ 𝒱₀ L lv 4)
    (hpre4 : ∀ c : Dev nD, iprop(StableHlo.held (c : Thread nD τ) (Pipeline.ucRefs τ sig) (W24 m o0 o1 o2 o3 c) ∗ E 4 c) ⊢ R4.pre c)
    (hpost4 : ∀ c : Dev nD, R4.post c ⊢ iprop(StableHlo.held (c : Thread nD τ) (Pipeline.ucRefs τ sig) (W25 m o0 o1 o2 o3 o4 c) ∗ E 5 c))
    (R5 : RegionSeg (pcfgs (F := F)) adm pdats ι defs₀ 𝒱₀ L lv 5)
    (hpre5 : ∀ c : Dev nD, iprop(StableHlo.held (c : Thread nD τ) (Pipeline.ucRefs τ sig) (W26 m o0 o1 o2 o3 o4 c) ∗ E 5 c) ⊢ R5.pre c)
    (hpost5 : ∀ c : Dev nD, R5.post c ⊢ iprop(StableHlo.held (c : Thread nD τ) (Pipeline.ucRefs τ sig) (W27 m o0 o1 o2 o3 o4 o5 c) ∗ E 6 c))
    (R6 : RegionSeg (pcfgs (F := F)) adm pdats ι defs₀ 𝒱₀ L lv 6)
    (hpre6 : ∀ c : Dev nD, iprop(StableHlo.held (c : Thread nD τ) (Pipeline.ucRefs τ sig) (W28 m o0 o1 o2 o3 o4 o5 c) ∗ E 6 c) ⊢ R6.pre c)
    (hpost6 : ∀ c : Dev nD, R6.post c ⊢ iprop(StableHlo.held (c : Thread nD τ) (Pipeline.ucRefs τ sig) (W29 m o0 o1 o2 o3 o4 o5 o6 c) ∗ E 7 c))
    (R7 : RegionSeg (pcfgs (F := F)) adm pdats ι defs₀ 𝒱₀ L lv 7)
    (hpre7 : ∀ c : Dev nD, iprop(StableHlo.held (c : Thread nD τ) (Pipeline.ucRefs τ sig) (W30 m o0 o1 o2 o3 o4 o5 o6 c) ∗ E 7 c) ⊢ R7.pre c)
    (hpost7 : ∀ c : Dev nD, R7.post c ⊢ iprop(StableHlo.held (c : Thread nD τ) (Pipeline.ucRefs τ sig) (W31 m o0 o1 o2 o3 o4 o5 o6 o7 c) ∗ E 8 c)) :
    θ_run defs (onTc (τ := τ) (main (F := F))) ⟨m, fun _ => 0, ρ⟩ (fun r => ∀ c : Dev nD, ∀ b : Ref sig .tc,
      (Proc.devRef .tc b : DevRef τ sig) ∈ Pipeline.ucRefs τ sig → r.2.mem ((c.tc : Thread nD τ).loc b) = W32 m o0 o1 o2 o3 o4 o5 o6 o7 c b) := by
  refine Pipeline.θ_run_regions_kit_dev (pcfgs (F := F)) adm pdats ι cellOf_inj EP defs₀ 𝒱₀ L lv m ρ main
    (segs m o0 o1 o2 o3 o4 o5 o6 o7 𝒱₀ L lv E ι pdats R0 R1 R2 R3 R4 R5 R6 R7)
    (fun c Q => by
      rewrite [main_chain c, Seg.run_eq_chain,
        show (segs m o0 o1 o2 o3 o4 o5 o6 o7 𝒱₀ L lv E ι pdats R0 R1 R2 R3 R4 R5 R6 R7 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (W0 m c) ∗ E 0 c))
    (Tₙ := fun c => StableHlo.held (c : Thread nD τ) (Pipeline.ucRefs τ sig) (W32 m o0 o1 o2 o3 o4 o5 o6 o7 c))
    (hch := fun c => ⟨.rfl, hpre0 c, hpost0 c, .rfl, .rfl, .rfl, .rfl, .rfl, .rfl, .rfl, hpre1 c, hpost1 c, .rfl, .rfl, .rfl, .rfl, hpre2 c, hpost2 c, .rfl, .rfl, .rfl, .rfl, hpre3 c, hpost3 c, hpre4 c, hpost4 c, hpre5 c, hpost5 c, hpre6 c, hpost6 c, hpre7 c, hpost7 c, sep_mono .rfl (hE8 c)⟩)
    (hinit := ?_)
    (QY := fun c s => ∀ b : Ref sig .tc, (Proc.devRef .tc b : DevRef τ sig) ∈ Pipeline.ucRefs τ sig → s.mem ((c.tc : Thread nD τ).loc b) = W32 m o0 o1 o2 o3 o4 o5 o6 o7 c b)
    (hfin := fun c s' => ?_) (hQ := fun _ h => h)
  · -- the launch: the unscoped buffers are held at the launch valuation; what else the launch deals makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (W0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (W0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (W32 m o0 o1 o2 o3 o4 o5 o6 o7 c) s') $$ [Hh HSI]
    · isplitl [Hh] <;> iassumption
    icases Hr with ⟨%h, HSI⟩
    imodintro
    isplitr
    · ipureintro
      exact fun b hb => h (Proc.devRef .tc b) hb
    · iexact HSI

/-- The arguments read off a final memory that holds every unscoped buffer at the chain's last valuation: each is as launched. -/
theorem args_kept (s : MemSt nD τ sig (Elt F))
    (h : ∀ c : Dev nD, ∀ b : Ref sig .tc, (Proc.devRef .tc b : DevRef τ sig) ∈ Pipeline.ucRefs τ sig → s.mem ((c.tc : Thread nD τ).loc b) = W32 m o0 o1 o2 o3 o4 o5 o6 o7 c b)
    (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6)
    ∧ s.mem ((c.tc : Thread nD τ).loc main_arg7) = m ((c.tc : Thread nD τ).loc main_arg7)
    ∧ s.mem ((c.tc : Thread nD τ).loc main_arg8) = m ((c.tc : Thread nD τ).loc main_arg8)
    ∧ s.mem ((c.tc : Thread nD τ).loc main_arg9) = m ((c.tc : Thread nD τ).loc main_arg9)
    ∧ s.mem ((c.tc : Thread nD τ).loc main_arg10) = m ((c.tc : Thread nD τ).loc main_arg10)
    ∧ s.mem ((c.tc : Thread nD τ).loc main_arg11) = m ((c.tc : Thread nD τ).loc main_arg11)
    ∧ s.mem ((c.tc : Thread nD τ).loc main_arg12) = m ((c.tc : Thread nD τ).loc main_arg12)
    ∧ s.mem ((c.tc : Thread nD τ).loc main_arg13) = m ((c.tc : Thread nD τ).loc main_arg13)
    ∧ s.mem ((c.tc : Thread nD τ).loc main_arg14) = m ((c.tc : Thread nD τ).loc main_arg14)
    ∧ s.mem ((c.tc : Thread nD τ).loc main_arg15) = m ((c.tc : Thread nD τ).loc main_arg15)
    ∧ s.mem ((c.tc : Thread nD τ).loc main_arg16) = m ((c.tc : Thread nD τ).loc main_arg16)
    ∧ s.mem ((c.tc : Thread nD τ).loc main_arg17) = m ((c.tc : Thread nD τ).loc main_arg17)
    ∧ s.mem ((c.tc : Thread nD τ).loc main_arg18) = m ((c.tc : Thread nD τ).loc main_arg18)
    ∧ s.mem ((c.tc : Thread nD τ).loc main_arg19) = m ((c.tc : Thread nD τ).loc main_arg19)
    ∧ s.mem ((c.tc : Thread nD τ).loc main_arg20) = m ((c.tc : Thread nD τ).loc main_arg20) :=
  ⟨(h c main_arg0 (Finset.mem_filter.mpr ⟨StableHlo.devRef_mem_tcRefs main_arg0, by decide⟩)).trans (W32_main_arg0 m o0 o1 o2 o3 o4 o5 o6 o7 c),
   (h c main_arg1 (Finset.mem_filter.mpr ⟨StableHlo.devRef_mem_tcRefs main_arg1, by decide⟩)).trans (W32_main_arg1 m o0 o1 o2 o3 o4 o5 o6 o7 c),
   (h c main_arg2 (Finset.mem_filter.mpr ⟨StableHlo.devRef_mem_tcRefs main_arg2, by decide⟩)).trans (W32_main_arg2 m o0 o1 o2 o3 o4 o5 o6 o7 c),
   (h c main_arg3 (Finset.mem_filter.mpr ⟨StableHlo.devRef_mem_tcRefs main_arg3, by decide⟩)).trans (W32_main_arg3 m o0 o1 o2 o3 o4 o5 o6 o7 c),
   (h c main_arg4 (Finset.mem_filter.mpr ⟨StableHlo.devRef_mem_tcRefs main_arg4, by decide⟩)).trans (W32_main_arg4 m o0 o1 o2 o3 o4 o5 o6 o7 c),
   (h c main_arg5 (Finset.mem_filter.mpr ⟨StableHlo.devRef_mem_tcRefs main_arg5, by decide⟩)).trans (W32_main_arg5 m o0 o1 o2 o3 o4 o5 o6 o7 c),
   (h c main_arg6 (Finset.mem_filter.mpr ⟨StableHlo.devRef_mem_tcRefs main_arg6, by decide⟩)).trans (W32_main_arg6 m o0 o1 o2 o3 o4 o5 o6 o7 c),
   (h c main_arg7 (Finset.mem_filter.mpr ⟨StableHlo.devRef_mem_tcRefs main_arg7, by decide⟩)).trans (W32_main_arg7 m o0 o1 o2 o3 o4 o5 o6 o7 c),
   (h c main_arg8 (Finset.mem_filter.mpr ⟨StableHlo.devRef_mem_tcRefs main_arg8, by decide⟩)).trans (W32_main_arg8 m o0 o1 o2 o3 o4 o5 o6 o7 c),
   (h c main_arg9 (Finset.mem_filter.mpr ⟨StableHlo.devRef_mem_tcRefs main_arg9, by decide⟩)).trans (W32_main_arg9 m o0 o1 o2 o3 o4 o5 o6 o7 c),
   (h c main_arg10 (Finset.mem_filter.mpr ⟨StableHlo.devRef_mem_tcRefs main_arg10, by decide⟩)).trans (W32_main_arg10 m o0 o1 o2 o3 o4 o5 o6 o7 c),
   (h c main_arg11 (Finset.mem_filter.mpr ⟨StableHlo.devRef_mem_tcRefs main_arg11, by decide⟩)).trans (W32_main_arg11 m o0 o1 o2 o3 o4 o5 o6 o7 c),
   (h c main_arg12 (Finset.mem_filter.mpr ⟨StableHlo.devRef_mem_tcRefs main_arg12, by decide⟩)).trans (W32_main_arg12 m o0 o1 o2 o3 o4 o5 o6 o7 c),
   (h c main_arg13 (Finset.mem_filter.mpr ⟨StableHlo.devRef_mem_tcRefs main_arg13, by decide⟩)).trans (W32_main_arg13 m o0 o1 o2 o3 o4 o5 o6 o7 c),
   (h c main_arg14 (Finset.mem_filter.mpr ⟨StableHlo.devRef_mem_tcRefs main_arg14, by decide⟩)).trans (W32_main_arg14 m o0 o1 o2 o3 o4 o5 o6 o7 c),
   (h c main_arg15 (Finset.mem_filter.mpr ⟨StableHlo.devRef_mem_tcRefs main_arg15, by decide⟩)).trans (W32_main_arg15 m o0 o1 o2 o3 o4 o5 o6 o7 c),
   (h c main_arg16 (Finset.mem_filter.mpr ⟨StableHlo.devRef_mem_tcRefs main_arg16, by decide⟩)).trans (W32_main_arg16 m o0 o1 o2 o3 o4 o5 o6 o7 c),
   (h c main_arg17 (Finset.mem_filter.mpr ⟨StableHlo.devRef_mem_tcRefs main_arg17, by decide⟩)).trans (W32_main_arg17 m o0 o1 o2 o3 o4 o5 o6 o7 c),
   (h c main_arg18 (Finset.mem_filter.mpr ⟨StableHlo.devRef_mem_tcRefs main_arg18, by decide⟩)).trans (W32_main_arg18 m o0 o1 o2 o3 o4 o5 o6 o7 c),
   (h c main_arg19 (Finset.mem_filter.mpr ⟨StableHlo.devRef_mem_tcRefs main_arg19, by decide⟩)).trans (W32_main_arg19 m o0 o1 o2 o3 o4 o5 o6 o7 c),
   (h c main_arg20 (Finset.mem_filter.mpr ⟨StableHlo.devRef_mem_tcRefs main_arg20, by decide⟩)).trans (W32_main_arg20 m o0 o1 o2 o3 o4 o5 o6 o7 c)⟩

end Cert.Kernel.Hand

end
-- ==== Proof.K.Body0.lean ====
/-
  Region 0 of the program (the tiled matmul kernel of custom_call 0, pipeline 0): what ONE point of its grid does.

  The kernel's body at a point loads the three input windows' staging buffers whole (a 2000-row block of x, the
  whole weight matrix, the bias row), loads the output window's staging buffer (a read whose value is never used),
  and stores ONE value over the whole output staging buffer: the payload `k0_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.Kernel.Launch
import proofs.«175488_j3908420240157_2_alg».proof.Proof.Gen.Kernel.Skeleton
import proofs.«175488_j3908420240157_2_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block at every point, fetched there or not (a window
    whose block index does not move is fetched once and then left in place): for any proof data whose array is `V`'s
    and whose body leaves the block where it was. Window 0, the block of x. -/
theorem before0_0_of {c : Dev nD} (dat : Dat τ (Elt F) Unit ℕ U ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1, the weight matrix (one block, fetched at the first point only). -/
theorem before0_1_of {c : Dev nD} (dat : Dat τ (Elt F) Unit ℕ U ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2, the bias row (one block, fetched at the first point only). -/
theorem before0_2_of {c : Dev nD} (dat : Dat τ (Elt F) Unit ℕ U ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is the whole staging buffer -/

abbrev rX0 : Rect S2000x512 := Rect.unit (s := S2000x512) ![0, 0] S2000x512.size inb_S2000x512_S2000x512_0_0
abbrev rW0 : Rect S512x1024 := Rect.unit (s := S512x1024) ![0, 0] S512x1024.size inb_S512x1024_S512x1024_0_0
abbrev rB0 : Rect S1x1024 := Rect.unit (s := S1x1024) ![0, 0] S1x1024.size inb_S1x1024_S1x1024_0_0
abbrev rO0 : Rect S2000x1024 := Rect.unit (s := S2000x1024) ![0, 0] S2000x1024.size inb_S2000x1024_S2000x1024_0_0

/-! ## What the body leaves in the output window's buffer -/

/-- The output window's staging buffer after the body, from the three input blocks: the canonical contents of its
    one store, whose value is the payload of the three loads. -/
def out0_3 (x0 : Vec F S2000x512 .f32) (x1 : Vec F S512x1024 .f32) (x2 : Vec F S1x1024 .f32) : Vec F S2000x1024 .f32 :=
  View.canon [⟨rO0, k0_pay1 (View.ld x0 rX0) (View.ld x1 rW0) (View.ld x2 rB0)⟩]

/-- The one store is of the whole buffer, so it covers it. -/
theorem cover0_3 (p0 : Vec F S2000x1024 .f32) (y : S2000x1024.Idx) :
    ∃ pc ∈ ([⟨rO0, p0⟩] : List (View.Piece (Elt F) S2000x1024 .f32)), y ∈ pc.1.set :=
  View.cover_of_tiled [⟨rO0, p0⟩] S2000x1024.size (by rfl) y

/-! ## The body's triple -/

set_option maxHeartbeats 1000000 in
/-- The kernel body on whole staging memrefs — the inputs' at read contents `x0 x1 x2`, the output's at anything —
    runs to its return with the inputs' as they were and the output's at `out0_3` of them. -/
theorem sound_kernel0 (c : Dev nD) (E : Set ℕ) (i : grid0.Coords)
    (arg1 : Memref sig .tc .vmem S2000x512 .f32) (harg1 : arg1.IsWhole) (arg2 : Memref sig .tc .vmem S512x1024 .f32) (harg2 : arg2.IsWhole)
    (arg3 : Memref sig .tc .vmem S1x1024 .f32) (harg3 : arg3.IsWhole) (arg4 : Memref sig .tc .vmem S2000x1024 .f32) (harg4 : arg4.IsWhole)
    (x0 : Vec F S2000x512 .f32) (x1 : Vec F S512x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The invariant between the region's ends: the core's scoped buffers that no window of this pipeline stages (the
    other kernels' staging and scratch buffers), held at some contents — the body touches none of them. -/
abbrev Φ0 (c : Dev nD) : sProp 𝕄 := Pipeline.scopedRest (Ix := Unit) (Name := ℕ) (U := U) (Lvl := ℕ) (Val := Elt F) spec0 c

/-- The proof data of pipeline 0 on core `c`, from the entry valuation `V`: the four arrays as the region finds
    them; after the body at point `t` each input's buffer at its block and the output's at `out0_3` of the three input
    blocks at `t`; the invariant `Φ0`; nothing owed; full shares. -/
def dat0 (c : Dev nD) : Dat τ (Elt F) Unit ℕ U ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Φ0 c
  q _ := fullShare
  owed _ := 0

/-- The proof data's arrays are the entry contents. -/
theorem A_eq0 (c : Dev nD) (w : Fin cfg0.W) : (dat0 (U := U) V c).A w = V c (Pipeline.arrRef spec0 w) := by
  dsimp only [dat0]

/-- What the body leaves, window by window. -/
theorem after0_0 (c : Dev nD) (t : Fin cfg0.N) : (dat0 (U := U) V c).after 0 t = iblk0 V c 0 t := by dsimp only [dat0]
theorem after0_1 (c : Dev nD) (t : Fin cfg0.N) : (dat0 (U := U) V c).after 1 t = iblk0 V c 1 t := by dsimp only [dat0]
theorem after0_2 (c : Dev nD) (t : Fin cfg0.N) : (dat0 (U := U) V c).after 2 t = iblk0 V c 2 t := by dsimp only [dat0]
theorem after0_3 (c : Dev nD) (t : Fin cfg0.N) :
    (dat0 (U := U) V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 (U := U) V c).before 0 t d = iblk0 V c 0 t :=
  before0_0_of V (dat0 V c) (A_eq0 V c 0) (after0_0 V c) t d
theorem before0_1 (c : Dev nD) (t : Fin cfg0.N) (d) : (dat0 (U := U) V c).before 1 t d = iblk0 V c 1 t :=
  before0_1_of V (dat0 V c) (A_eq0 V c 1) (after0_1 V c) t d
theorem before0_2 (c : Dev nD) (t : Fin cfg0.N) (d) : (dat0 (U := U) V c).before 2 t d = iblk0 V c 2 t :=
  before0_2_of V (dat0 V c) (A_eq0 V c 2) (after0_2 V c) t d

/-! ## The body obligation, at a generic point -/

/-- What the body is called with at point `t`: the invariant, the core's dues, and the four current staging buffers
    (each input at its block; the output at whatever the pipeline left there). -/
def bodyPre0 (c : Dev nD) (t : Fin cfg0.N) : sProp 𝕄 :=
  iprop((dat0 (U := U) V c).Φ t.castSucc ∗ (dat0 (U := U) V c).owesAt () t.castSucc
    ∗ (∃ d, owns (c : Thread nD τ) (st0_0 t) fullShare ((dat0 (U := U) V c).before 0 t d))
    ∗ (∃ d, owns (c : Thread nD τ) (st0_1 t) fullShare ((dat0 (U := U) V c).before 1 t d))
    ∗ (∃ d, owns (c : Thread nD τ) (st0_2 t) fullShare ((dat0 (U := U) V c).before 2 t d))
    ∗ (∃ d, owns (c : Thread nD τ) (st0_3 t) fullShare ((dat0 (U := U) V c).before 3 t d)))

/-- What it returns. -/
def bodyPost0 (c : Dev nD) (t : Fin cfg0.N) : sProp 𝕄 :=
  iprop((dat0 (U := U) V c).Φ t.succ ∗ (dat0 (U := U) V c).owesAt () t.succ
    ∗ owns (c : Thread nD τ) (st0_0 t) fullShare ((dat0 (U := U) V c).after 0 t)
    ∗ owns (c : Thread nD τ) (st0_1 t) fullShare ((dat0 (U := U) V c).after 1 t)
    ∗ owns (c : Thread nD τ) (st0_2 t) fullShare ((dat0 (U := U) V c).after 2 t)
    ∗ owns (c : Thread nD τ) (st0_3 t) fullShare ((dat0 (U := U) V c).after 3 t))

/-- The body at any point: the inputs' memrefs hold their blocks, so `sound_kernel0` applies; the invariant and the
    core's dues pass through untouched; the output buffer's prior contents are not needed. -/
theorem sound_body0 (c : Dev nD) (t : Fin cfg0.N) :
    bodyPre0 (U := U) V c t ⊢ wp frame (wpE (defs₀ (F := F)) Variants.none c none) Set.univ (bodyAt0 t) (fun _ => bodyPost0 (U := U) V c t) := by
  unfold bodyPre0 bodyPost0 bodyAt0
  simp only [before0_0, before0_1, before0_2]
  rw [show (dat0 (U := U) V c).Φ t.succ = (dat0 (U := U) V c).Φ t.castSucc from rfl,
    show (dat0 (U := U) V c).owesAt () t.succ = (dat0 (U := U) V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) (U := U) V c) (defs₀ (F := F)) Variants.none () Set.univ := fun t => by
  rw [bigSep_W0, bigSep_W0]
  exact sound_body0 V c t

/-- info: 'Cert.Kernel.Hand.body_obligation0' depends on axioms: [propext, Classical.choice, Quot.sound] -/
#guard_msgs in #print axioms body_obligation0

end Cert.Kernel.Hand

end
-- ==== Proof.K.Seg0.lean ====
/-
  Region 0 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin0`: the fold of its five blocks'
  write-backs) and every other buffer as entered; `Wout0` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.K.Body0
import proofs.«175488_j3908420240157_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 0's at the entry valuation and the other seven as given. -/
abbrev fam0 (d1 : DatAt F U 1) (d2 : DatAt F U 2) (d3 : DatAt F U 3) (d4 : DatAt F U 4) (d5 : DatAt F U 5) (d6 : DatAt F U 6) (d7 : DatAt F U 7) : (p : Fin 8) → DatAt F U p :=
  pdatsOf (fun c => dat0 (Vof Wpre) c) d1 d2 d3 d4 d5 d6 d7

/-- The output window's array after the region, as the library computes it: the write-backs of the body's results
    folded over the grid. -/
def fin0 (c : Dev nD) : Buf (Elt F) ((c : Thread nD τ).loc main_v3) := (dat0 (U := U) (Vof Wpre) c).arrAt 3 cfg0.N

/-- The pipeline's arrays are four distinct buffers; the output's is the last. -/
theorem arrRef0_ne_out : ∀ w : Fin cfg0.W, w ≠ 3 → Pipeline.arrRef spec0 w ≠ main_v3 := by decide
/-- Every window but the last is an input. -/
theorem win0_in : ∀ w : Fin cfg0.W, w ≠ 3 → (cfg0.win w).isOut = false := by decide

-- `iapply` of a library lemma stated over the pinned configuration unifies with the printed one only when unification
-- may unfold plain definitions in a metavariable's type
set_option backward.isDefEq.respectTransparency.types false in
/-- REGION 0 over the thread state: entered from every unscoped buffer at `Wpre c` beside the rider, left at
    `Wpost c` beside the same rider, for any `Wpost` that has the output array at `fin0` and agrees with `Wpre` off it —
    stated over the family with the other seven pipelines' proof data arbitrary. -/
def seg0 (d1 : DatAt F U 1) (d2 : DatAt F U 2) (d3 : DatAt F U 3) (d4 : DatAt F U 4) (d5 : DatAt F U 5) (d6 : DatAt F U 6) (d7 : DatAt F U 7) (R : Dev nD → sProp 𝕄) (hout : ∀ c, Vof Wpost c main_v3 = fin0 (U := U) Wpre c)
    (hne : ∀ c (b : Ref sig .tc), b ≠ main_v3 → Vof Wpost c b = Vof Wpre c b) :
    Pipeline.RegionSeg (pcfgs (F := F)) adm (fam0 Wpre d1 d2 d3 d4 d5 d6 d7) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vof Wpre) c).loose
  hwaits := Pipeline.hwaits_of_owed_zero _ _ _ _ L lv 0 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec0 c (Vof Wpre c) ∗ R c)
  hentry c := by
    rw [Pipeline.ownSems0_none]
    have hsplit := Pipeline.arrays_of_unscopedBufs (p := 0) (pcfgs (F := F)) adm (fam0 Wpre d1 d2 d3 d4 d5 d6 d7) launch0.win launch0.arr_whole c
      ((fam0 Wpre d1 d2 d3 d4 d5 d6 d7 0 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam0 Wpre d1 d2 d3 d4 d5 d6 d7 0 c).Φ 0 = Φ0 c from rfl]
    iintro ⟨-, -, Hr⟩; iexact Hr
  hout c := by
    rw [Pipeline.ownSems0_none, show (fam0 Wpre d1 d2 d3 d4 d5 d6 d7 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := Unit) (Name := ℕ) (U := U) (Lvl := ℕ)
      launch0.win launch0.arr_whole c (fam0 Wpre d1 d2 d3 d4 d5 d6 d7) ((fam0 Wpre d1 d2 d3 d4 d5 d6 d7 0 c).share_full fun _ => rfl)
      (Vof Wpre c) (Vof Wpost c) ((fam0 Wpre d1 d2 d3 d4 d5 d6 d7 0 c).arrAt · cfg0.N)
      (fun w => by
        by_cases hw : w = 3
        · subst hw; exact (hout c).symm
        · exact ((fam0 Wpre d1 d2 d3 d4 d5 d6 d7 0 c).arrAt_in w (win0_in w hw) _).trans (hne c _ (arrRef0_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.Kernel.Hand.seg0' depends on axioms: [propext, Classical.choice, Quot.sound] -/
#guard_msgs in #print axioms seg0

/-! ## The canonical exit valuation -/

/-- The entry valuation with pipeline 0's arrays at what its write-backs leave. -/
def Wout0 (c : Dev nD) : Valuation τ sig (Elt F) :=
  Pipeline.withArrays spec0 c (Wpre c) fun w => (dat0 (U := U) (Vof Wpre) c).arrAt w cfg0.N

/-- It has the output array at `fin0`, -/
theorem Wout0_out (c : Dev nD) : Vof (Wout0 (U := U) Wpre) c main_v3 = fin0 (U := U) Wpre c := by
  unfold Wout0 fin0; exact Pipeline.withArrays_arr spec0 launch0.win.arr_inj c _ _ 3
/-- and every other buffer as entered (an input window's array is written back as it was read). -/
theorem Wout0_ne (c : Dev nD) (b : Ref sig .tc) (hb : b ≠ main_v3) : Vof (Wout0 (U := U) Wpre) c b = Vof Wpre c b := by
  by_cases h : ∃ w, Pipeline.arrRef spec0 w = b
  · obtain ⟨w, rfl⟩ := h
    have hw : w ≠ 3 := fun e => hb (e ▸ rfl)
    unfold Wout0
    exact (Pipeline.withArrays_arr spec0 launch0.win.arr_inj c _ _ w).trans ((dat0 (U := U) (Vof Wpre) c).arrAt_in w (win0_in w hw) _)
  · unfold Wout0; exact Pipeline.withArrays_of_ne spec0 c _ _ b fun w e => h ⟨w, e⟩

end Cert.Kernel.Hand

end
-- ==== Proof.K.Body1.lean ====
/-
  Region 1 of the program (the tiled matmul kernel of custom_call 1, pipeline 1): what ONE point of its grid does.

  The kernel's body at a point loads the three input windows' staging buffers whole (a 2000-row block of x, the
  whole weight matrix, the bias row), loads the output window's staging buffer (a read whose value is never used),
  and stores ONE value over the whole output staging buffer: the payload `k1_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.Kernel.Launch
import proofs.«175488_j3908420240157_2_alg».proof.Proof.Gen.Kernel.Skeleton
import proofs.«175488_j3908420240157_2_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, fetched there or not (a window
    whose block index does not move is fetched once and then left in place): for any proof data whose array is `V`'s
    and whose body leaves the block where it was. Window 0, the block of x. -/
theorem before1_0_of {c : Dev nD} (dat : Dat τ (Elt F) Unit ℕ U ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1, the weight matrix (one block, fetched at the first point only). -/
theorem before1_1_of {c : Dev nD} (dat : Dat τ (Elt F) Unit ℕ U ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2, the bias row (one block, fetched at the first point only). -/
theorem before1_2_of {c : Dev nD} (dat : Dat τ (Elt F) Unit ℕ U ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one is the whole staging buffer -/

abbrev rX1 : Rect S2000x512 := Rect.unit (s := S2000x512) ![0, 0] S2000x512.size inb_S2000x512_S2000x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rO1 : Rect S2000x256 := Rect.unit (s := S2000x256) ![0, 0] S2000x256.size inb_S2000x256_S2000x256_0_0

/-! ## What the body leaves in the output window's buffer -/

/-- The output window's staging buffer after the body, from the three input blocks: the canonical contents of its
    one store, whose value is the payload of the three loads. -/
def out1_3 (x0 : Vec F S2000x512 .f32) (x1 : Vec F S512x256 .f32) (x2 : Vec F S1x256 .f32) : Vec F S2000x256 .f32 :=
  View.canon [⟨rO1, k1_pay1 (View.ld x0 rX1) (View.ld x1 rW1) (View.ld x2 rB1)⟩]

/-- The one store is of the whole buffer, so it covers it. -/
theorem cover1_3 (p0 : Vec F S2000x256 .f32) (y : S2000x256.Idx) :
    ∃ pc ∈ ([⟨rO1, p0⟩] : List (View.Piece (Elt F) S2000x256 .f32)), y ∈ pc.1.set :=
  View.cover_of_tiled [⟨rO1, p0⟩] S2000x256.size (by rfl) y

/-! ## The body's triple -/

set_option maxHeartbeats 1000000 in
/-- The kernel body on whole staging memrefs — the inputs' at read contents `x0 x1 x2`, the output's at anything —
    runs to its return with the inputs' as they were and the output's at `out1_3` of them. -/
theorem sound_kernel1 (c : Dev nD) (E : Set ℕ) (i : grid1.Coords)
    (arg1 : Memref sig .tc .vmem S2000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mm_kernel i arg1 harg1 arg2 harg2 arg3 harg3 arg4 harg4) K := by
  simp only [cc1__mm_kernel_eq_skeleton]; unfold cc1__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The invariant between the region's ends: the core's scoped buffers that no window of this pipeline stages (the
    other kernels' staging and scratch buffers), held at some contents — the body touches none of them. -/
abbrev Φ1 (c : Dev nD) : sProp 𝕄 := Pipeline.scopedRest (Ix := Unit) (Name := ℕ) (U := U) (Lvl := ℕ) (Val := Elt F) spec1 c

/-- The proof data of pipeline 1 on core `c`, from the entry valuation `V`: the four arrays as the region finds
    them; after the body at point `t` each input's buffer at its block and the output's at `out1_3` of the three input
    blocks at `t`; the invariant `Φ1`; nothing owed; full shares. -/
def dat1 (c : Dev nD) : Dat τ (Elt F) Unit ℕ U ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Φ1 c
  q _ := fullShare
  owed _ := 0

/-- The proof data's arrays are the entry contents. -/
theorem A_eq1 (c : Dev nD) (w : Fin cfg1.W) : (dat1 (U := U) V c).A w = V c (Pipeline.arrRef spec1 w) := by
  dsimp only [dat1]

/-- What the body leaves, window by window. -/
theorem after1_0 (c : Dev nD) (t : Fin cfg1.N) : (dat1 (U := U) V c).after 0 t = iblk1 V c 0 t := by dsimp only [dat1]
theorem after1_1 (c : Dev nD) (t : Fin cfg1.N) : (dat1 (U := U) V c).after 1 t = iblk1 V c 1 t := by dsimp only [dat1]
theorem after1_2 (c : Dev nD) (t : Fin cfg1.N) : (dat1 (U := U) V c).after 2 t = iblk1 V c 2 t := by dsimp only [dat1]
theorem after1_3 (c : Dev nD) (t : Fin cfg1.N) :
    (dat1 (U := U) V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 (U := U) V c).before 0 t d = iblk1 V c 0 t :=
  before1_0_of V (dat1 V c) (A_eq1 V c 0) (after1_0 V c) t d
theorem before1_1 (c : Dev nD) (t : Fin cfg1.N) (d) : (dat1 (U := U) V c).before 1 t d = iblk1 V c 1 t :=
  before1_1_of V (dat1 V c) (A_eq1 V c 1) (after1_1 V c) t d
theorem before1_2 (c : Dev nD) (t : Fin cfg1.N) (d) : (dat1 (U := U) V c).before 2 t d = iblk1 V c 2 t :=
  before1_2_of V (dat1 V c) (A_eq1 V c 2) (after1_2 V c) t d

/-! ## The body obligation, at a generic point -/

/-- What the body is called with at point `t`: the invariant, the core's dues, and the four current staging buffers
    (each input at its block; the output at whatever the pipeline left there). -/
def bodyPre1 (c : Dev nD) (t : Fin cfg1.N) : sProp 𝕄 :=
  iprop((dat1 (U := U) V c).Φ t.castSucc ∗ (dat1 (U := U) V c).owesAt () t.castSucc
    ∗ (∃ d, owns (c : Thread nD τ) (st1_0 t) fullShare ((dat1 (U := U) V c).before 0 t d))
    ∗ (∃ d, owns (c : Thread nD τ) (st1_1 t) fullShare ((dat1 (U := U) V c).before 1 t d))
    ∗ (∃ d, owns (c : Thread nD τ) (st1_2 t) fullShare ((dat1 (U := U) V c).before 2 t d))
    ∗ (∃ d, owns (c : Thread nD τ) (st1_3 t) fullShare ((dat1 (U := U) V c).before 3 t d)))

/-- What it returns. -/
def bodyPost1 (c : Dev nD) (t : Fin cfg1.N) : sProp 𝕄 :=
  iprop((dat1 (U := U) V c).Φ t.succ ∗ (dat1 (U := U) V c).owesAt () t.succ
    ∗ owns (c : Thread nD τ) (st1_0 t) fullShare ((dat1 (U := U) V c).after 0 t)
    ∗ owns (c : Thread nD τ) (st1_1 t) fullShare ((dat1 (U := U) V c).after 1 t)
    ∗ owns (c : Thread nD τ) (st1_2 t) fullShare ((dat1 (U := U) V c).after 2 t)
    ∗ owns (c : Thread nD τ) (st1_3 t) fullShare ((dat1 (U := U) V c).after 3 t))

/-- The body at any point: the inputs' memrefs hold their blocks, so `sound_kernel1` applies; the invariant and the
    core's dues pass through untouched; the output buffer's prior contents are not needed. -/
theorem sound_body1 (c : Dev nD) (t : Fin cfg1.N) :
    bodyPre1 (U := U) V c t ⊢ wp frame (wpE (defs₀ (F := F)) Variants.none c none) Set.univ (bodyAt1 t) (fun _ => bodyPost1 (U := U) V c t) := by
  unfold bodyPre1 bodyPost1 bodyAt1
  simp only [before1_0, before1_1, before1_2]
  rw [show (dat1 (U := U) V c).Φ t.succ = (dat1 (U := U) V c).Φ t.castSucc from rfl,
    show (dat1 (U := U) V c).owesAt () t.succ = (dat1 (U := U) V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) (U := U) V c) (defs₀ (F := F)) Variants.none () Set.univ := fun t => by
  rw [bigSep_W1, bigSep_W1]
  exact sound_body1 V c t

/-- info: 'Cert.Kernel.Hand.body_obligation1' depends on axioms: [propext, Classical.choice, Quot.sound] -/
#guard_msgs in #print axioms body_obligation1

end Cert.Kernel.Hand

end
-- ==== Proof.K.Seg1.lean ====
/-
  Region 1 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin1`: the fold of its five blocks'
  write-backs) and every other buffer as entered; `Wout1` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.K.Body1
import proofs.«175488_j3908420240157_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 1's at the entry valuation and the other seven as given. -/
abbrev fam1 (d0 : DatAt F U 0) (d2 : DatAt F U 2) (d3 : DatAt F U 3) (d4 : DatAt F U 4) (d5 : DatAt F U 5) (d6 : DatAt F U 6) (d7 : DatAt F U 7) : (p : Fin 8) → DatAt F U p :=
  pdatsOf d0 (fun c => dat1 (Vof Wpre) c) d2 d3 d4 d5 d6 d7

/-- The output window's array after the region, as the library computes it: the write-backs of the body's results
    folded over the grid. -/
def fin1 (c : Dev nD) : Buf (Elt F) ((c : Thread nD τ).loc main_v65) := (dat1 (U := U) (Vof Wpre) c).arrAt 3 cfg1.N

/-- The pipeline's arrays are four distinct buffers; the output's is the last. -/
theorem arrRef1_ne_out : ∀ w : Fin cfg1.W, w ≠ 3 → Pipeline.arrRef spec1 w ≠ main_v65 := by decide
/-- Every window but the last is an input. -/
theorem win1_in : ∀ w : Fin cfg1.W, w ≠ 3 → (cfg1.win w).isOut = false := by decide

-- `iapply` of a library lemma stated over the pinned configuration unifies with the printed one only when unification
-- may unfold plain definitions in a metavariable's type
set_option backward.isDefEq.respectTransparency.types false in
/-- REGION 1 over the thread state: entered from every unscoped buffer at `Wpre c` beside the rider, left at
    `Wpost c` beside the same rider, for any `Wpost` that has the output array at `fin1` and agrees with `Wpre` off it —
    stated over the family with the other seven pipelines' proof data arbitrary. -/
def seg1 (d0 : DatAt F U 0) (d2 : DatAt F U 2) (d3 : DatAt F U 3) (d4 : DatAt F U 4) (d5 : DatAt F U 5) (d6 : DatAt F U 6) (d7 : DatAt F U 7) (R : Dev nD → sProp 𝕄) (hout : ∀ c, Vof Wpost c main_v65 = fin1 (U := U) Wpre c)
    (hne : ∀ c (b : Ref sig .tc), b ≠ main_v65 → Vof Wpost c b = Vof Wpre c b) :
    Pipeline.RegionSeg (pcfgs (F := F)) adm (fam1 Wpre d0 d2 d3 d4 d5 d6 d7) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vof Wpre) c).loose
  hwaits := Pipeline.hwaits_of_owed_zero _ _ _ _ L lv 1 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec1 c (Vof Wpre c) ∗ R c)
  hentry c := by
    rw [Pipeline.ownSems0_none]
    have hsplit := Pipeline.arrays_of_unscopedBufs (p := 1) (pcfgs (F := F)) adm (fam1 Wpre d0 d2 d3 d4 d5 d6 d7) launch1.win launch1.arr_whole c
      ((fam1 Wpre d0 d2 d3 d4 d5 d6 d7 1 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam1 Wpre d0 d2 d3 d4 d5 d6 d7 1 c).Φ 0 = Φ1 c from rfl]
    iintro ⟨-, -, Hr⟩; iexact Hr
  hout c := by
    rw [Pipeline.ownSems0_none, show (fam1 Wpre d0 d2 d3 d4 d5 d6 d7 1 c).Φ (Fin.last _) = Φ1 c from rfl]
    iintro Hr
    isplitr; · iempintro
    isplitr; · iempintro
    iexact Hr
  hexit c := by
    have hjoin := Pipeline.unscopedBufs_of_arrays (p := 1) (pcfgs (F := F)) adm (Ix := Unit) (Name := ℕ) (U := U) (Lvl := ℕ)
      launch1.win launch1.arr_whole c (fam1 Wpre d0 d2 d3 d4 d5 d6 d7) ((fam1 Wpre d0 d2 d3 d4 d5 d6 d7 1 c).share_full fun _ => rfl)
      (Vof Wpre c) (Vof Wpost c) ((fam1 Wpre d0 d2 d3 d4 d5 d6 d7 1 c).arrAt · cfg1.N)
      (fun w => by
        by_cases hw : w = 3
        · subst hw; exact (hout c).symm
        · exact ((fam1 Wpre d0 d2 d3 d4 d5 d6 d7 1 c).arrAt_in w (win1_in w hw) _).trans (hne c _ (arrRef1_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.Kernel.Hand.seg1' depends on axioms: [propext, Classical.choice, Quot.sound] -/
#guard_msgs in #print axioms seg1

/-! ## The canonical exit valuation -/

/-- The entry valuation with pipeline 1's arrays at what its write-backs leave. -/
def Wout1 (c : Dev nD) : Valuation τ sig (Elt F) :=
  Pipeline.withArrays spec1 c (Wpre c) fun w => (dat1 (U := U) (Vof Wpre) c).arrAt w cfg1.N

/-- It has the output array at `fin1`, -/
theorem Wout1_out (c : Dev nD) : Vof (Wout1 (U := U) Wpre) c main_v65 = fin1 (U := U) Wpre c := by
  unfold Wout1 fin1; exact Pipeline.withArrays_arr spec1 launch1.win.arr_inj c _ _ 3
/-- and every other buffer as entered (an input window's array is written back as it was read). -/
theorem Wout1_ne (c : Dev nD) (b : Ref sig .tc) (hb : b ≠ main_v65) : Vof (Wout1 (U := U) Wpre) c b = Vof Wpre c b := by
  by_cases h : ∃ w, Pipeline.arrRef spec1 w = b
  · obtain ⟨w, rfl⟩ := h
    have hw : w ≠ 3 := fun e => hb (e ▸ rfl)
    unfold Wout1
    exact (Pipeline.withArrays_arr spec1 launch1.win.arr_inj c _ _ w).trans ((dat1 (U := U) (Vof Wpre) c).arrAt_in w (win1_in w hw) _)
  · unfold Wout1; exact Pipeline.withArrays_of_ne spec1 c _ _ b fun w e => h ⟨w, e⟩

end Cert.Kernel.Hand

end
-- ==== Proof.K.Body2.lean ====
/-
  Region 2 of the program (the tiled matmul kernel of custom_call 2, pipeline 2): what ONE point of its grid does.

  The kernel's body at a point loads the three input windows' staging buffers whole (a 2000-row block of x, the
  whole weight matrix, the bias row), loads the output window's staging buffer (a read whose value is never used),
  and stores ONE value over the whole output staging buffer: the payload `k2_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.Kernel.Launch
import proofs.«175488_j3908420240157_2_alg».proof.Proof.Gen.Kernel.Skeleton
import proofs.«175488_j3908420240157_2_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block at every point, fetched there or not (a window
    whose block index does not move is fetched once and then left in place): for any proof data whose array is `V`'s
    and whose body leaves the block where it was. Window 0, the block of x. -/
theorem before2_0_of {c : Dev nD} (dat : Dat τ (Elt F) Unit ℕ U ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1, the weight matrix (one block, fetched at the first point only). -/
theorem before2_1_of {c : Dev nD} (dat : Dat τ (Elt F) Unit ℕ U ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2, the bias row (one block, fetched at the first point only). -/
theorem before2_2_of {c : Dev nD} (dat : Dat τ (Elt F) Unit ℕ U ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every one is the whole staging buffer -/

abbrev rX2 : Rect S2000x512 := Rect.unit (s := S2000x512) ![0, 0] S2000x512.size inb_S2000x512_S2000x512_0_0
abbrev rW2 : Rect S512x256 := Rect.unit (s := S512x256) ![0, 0] S512x256.size inb_S512x256_S512x256_0_0
abbrev rB2 : Rect S1x256 := Rect.unit (s := S1x256) ![0, 0] S1x256.size inb_S1x256_S1x256_0_0
abbrev rO2 : Rect S2000x256 := Rect.unit (s := S2000x256) ![0, 0] S2000x256.size inb_S2000x256_S2000x256_0_0

/-! ## What the body leaves in the output window's buffer -/

/-- The output window's staging buffer after the body, from the three input blocks: the canonical contents of its
    one store, whose value is the payload of the three loads. -/
def out2_3 (x0 : Vec F S2000x512 .f32) (x1 : Vec F S512x256 .f32) (x2 : Vec F S1x256 .f32) : Vec F S2000x256 .f32 :=
  View.canon [⟨rO2, k2_pay1 (View.ld x0 rX2) (View.ld x1 rW2) (View.ld x2 rB2)⟩]

/-- The one store is of the whole buffer, so it covers it. -/
theorem cover2_3 (p0 : Vec F S2000x256 .f32) (y : S2000x256.Idx) :
    ∃ pc ∈ ([⟨rO2, p0⟩] : List (View.Piece (Elt F) S2000x256 .f32)), y ∈ pc.1.set :=
  View.cover_of_tiled [⟨rO2, p0⟩] S2000x256.size (by rfl) y

/-! ## The body's triple -/

set_option maxHeartbeats 1000000 in
/-- The kernel body on whole staging memrefs — the inputs' at read contents `x0 x1 x2`, the output's at anything —
    runs to its return with the inputs' as they were and the output's at `out2_3` of them. -/
theorem sound_kernel2 (c : Dev nD) (E : Set ℕ) (i : grid2.Coords)
    (arg1 : Memref sig .tc .vmem S2000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x512 .f32) (x1 : Vec F S512x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__mm_kernel i arg1 harg1 arg2 harg2 arg3 harg3 arg4 harg4) K := by
  simp only [cc2__mm_kernel_eq_skeleton]; unfold cc2__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The invariant between the region's ends: the core's scoped buffers that no window of this pipeline stages (the
    other kernels' staging and scratch buffers), held at some contents — the body touches none of them. -/
abbrev Φ2 (c : Dev nD) : sProp 𝕄 := Pipeline.scopedRest (Ix := Unit) (Name := ℕ) (U := U) (Lvl := ℕ) (Val := Elt F) spec2 c

/-- The proof data of pipeline 2 on core `c`, from the entry valuation `V`: the four arrays as the region finds
    them; after the body at point `t` each input's buffer at its block and the output's at `out2_3` of the three input
    blocks at `t`; the invariant `Φ2`; nothing owed; full shares. -/
def dat2 (c : Dev nD) : Dat τ (Elt F) Unit ℕ U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Φ2 c
  q _ := fullShare
  owed _ := 0

/-- The proof data's arrays are the entry contents. -/
theorem A_eq2 (c : Dev nD) (w : Fin cfg2.W) : (dat2 (U := U) V c).A w = V c (Pipeline.arrRef spec2 w) := by
  dsimp only [dat2]

/-- What the body leaves, window by window. -/
theorem after2_0 (c : Dev nD) (t : Fin cfg2.N) : (dat2 (U := U) V c).after 0 t = iblk2 V c 0 t := by dsimp only [dat2]
theorem after2_1 (c : Dev nD) (t : Fin cfg2.N) : (dat2 (U := U) V c).after 1 t = iblk2 V c 1 t := by dsimp only [dat2]
theorem after2_2 (c : Dev nD) (t : Fin cfg2.N) : (dat2 (U := U) V c).after 2 t = iblk2 V c 2 t := by dsimp only [dat2]
theorem after2_3 (c : Dev nD) (t : Fin cfg2.N) :
    (dat2 (U := U) V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 (U := U) V c).before 0 t d = iblk2 V c 0 t :=
  before2_0_of V (dat2 V c) (A_eq2 V c 0) (after2_0 V c) t d
theorem before2_1 (c : Dev nD) (t : Fin cfg2.N) (d) : (dat2 (U := U) V c).before 1 t d = iblk2 V c 1 t :=
  before2_1_of V (dat2 V c) (A_eq2 V c 1) (after2_1 V c) t d
theorem before2_2 (c : Dev nD) (t : Fin cfg2.N) (d) : (dat2 (U := U) V c).before 2 t d = iblk2 V c 2 t :=
  before2_2_of V (dat2 V c) (A_eq2 V c 2) (after2_2 V c) t d

/-! ## The body obligation, at a generic point -/

/-- What the body is called with at point `t`: the invariant, the core's dues, and the four current staging buffers
    (each input at its block; the output at whatever the pipeline left there). -/
def bodyPre2 (c : Dev nD) (t : Fin cfg2.N) : sProp 𝕄 :=
  iprop((dat2 (U := U) V c).Φ t.castSucc ∗ (dat2 (U := U) V c).owesAt () t.castSucc
    ∗ (∃ d, owns (c : Thread nD τ) (st2_0 t) fullShare ((dat2 (U := U) V c).before 0 t d))
    ∗ (∃ d, owns (c : Thread nD τ) (st2_1 t) fullShare ((dat2 (U := U) V c).before 1 t d))
    ∗ (∃ d, owns (c : Thread nD τ) (st2_2 t) fullShare ((dat2 (U := U) V c).before 2 t d))
    ∗ (∃ d, owns (c : Thread nD τ) (st2_3 t) fullShare ((dat2 (U := U) V c).before 3 t d)))

/-- What it returns. -/
def bodyPost2 (c : Dev nD) (t : Fin cfg2.N) : sProp 𝕄 :=
  iprop((dat2 (U := U) V c).Φ t.succ ∗ (dat2 (U := U) V c).owesAt () t.succ
    ∗ owns (c : Thread nD τ) (st2_0 t) fullShare ((dat2 (U := U) V c).after 0 t)
    ∗ owns (c : Thread nD τ) (st2_1 t) fullShare ((dat2 (U := U) V c).after 1 t)
    ∗ owns (c : Thread nD τ) (st2_2 t) fullShare ((dat2 (U := U) V c).after 2 t)
    ∗ owns (c : Thread nD τ) (st2_3 t) fullShare ((dat2 (U := U) V c).after 3 t))

/-- The body at any point: the inputs' memrefs hold their blocks, so `sound_kernel2` applies; the invariant and the
    core's dues pass through untouched; the output buffer's prior contents are not needed. -/
theorem sound_body2 (c : Dev nD) (t : Fin cfg2.N) :
    bodyPre2 (U := U) V c t ⊢ wp frame (wpE (defs₀ (F := F)) Variants.none c none) Set.univ (bodyAt2 t) (fun _ => bodyPost2 (U := U) V c t) := by
  unfold bodyPre2 bodyPost2 bodyAt2
  simp only [before2_0, before2_1, before2_2]
  rw [show (dat2 (U := U) V c).Φ t.succ = (dat2 (U := U) V c).Φ t.castSucc from rfl,
    show (dat2 (U := U) V c).owesAt () t.succ = (dat2 (U := U) V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) (U := U) V c) (defs₀ (F := F)) Variants.none () Set.univ := fun t => by
  rw [bigSep_W2, bigSep_W2]
  exact sound_body2 V c t

/-- info: 'Cert.Kernel.Hand.body_obligation2' depends on axioms: [propext, Classical.choice, Quot.sound] -/
#guard_msgs in #print axioms body_obligation2

end Cert.Kernel.Hand

end
-- ==== Proof.K.Seg2.lean ====
/-
  Region 2 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin2`: the fold of its five blocks'
  write-backs) and every other buffer as entered; `Wout2` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.K.Body2
import proofs.«175488_j3908420240157_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 2's at the entry valuation and the other seven as given. -/
abbrev fam2 (d0 : DatAt F U 0) (d1 : DatAt F U 1) (d3 : DatAt F U 3) (d4 : DatAt F U 4) (d5 : DatAt F U 5) (d6 : DatAt F U 6) (d7 : DatAt F U 7) : (p : Fin 8) → DatAt F U p :=
  pdatsOf d0 d1 (fun c => dat2 (Vof Wpre) c) d3 d4 d5 d6 d7

/-- The output window's array after the region, as the library computes it: the write-backs of the body's results
    folded over the grid. -/
def fin2 (c : Dev nD) : Buf (Elt F) ((c : Thread nD τ).loc main_v104) := (dat2 (U := U) (Vof Wpre) c).arrAt 3 cfg2.N

/-- The pipeline's arrays are four distinct buffers; the output's is the last. -/
theorem arrRef2_ne_out : ∀ w : Fin cfg2.W, w ≠ 3 → Pipeline.arrRef spec2 w ≠ main_v104 := by decide
/-- Every window but the last is an input. -/
theorem win2_in : ∀ w : Fin cfg2.W, w ≠ 3 → (cfg2.win w).isOut = false := by decide

-- `iapply` of a library lemma stated over the pinned configuration unifies with the printed one only when unification
-- may unfold plain definitions in a metavariable's type
set_option backward.isDefEq.respectTransparency.types false in
/-- REGION 2 over the thread state: entered from every unscoped buffer at `Wpre c` beside the rider, left at
    `Wpost c` beside the same rider, for any `Wpost` that has the output array at `fin2` and agrees with `Wpre` off it —
    stated over the family with the other seven pipelines' proof data arbitrary. -/
def seg2 (d0 : DatAt F U 0) (d1 : DatAt F U 1) (d3 : DatAt F U 3) (d4 : DatAt F U 4) (d5 : DatAt F U 5) (d6 : DatAt F U 6) (d7 : DatAt F U 7) (R : Dev nD → sProp 𝕄) (hout : ∀ c, Vof Wpost c main_v104 = fin2 (U := U) Wpre c)
    (hne : ∀ c (b : Ref sig .tc), b ≠ main_v104 → Vof Wpost c b = Vof Wpre c b) :
    Pipeline.RegionSeg (pcfgs (F := F)) adm (fam2 Wpre d0 d1 d3 d4 d5 d6 d7) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vof Wpre) c).loose
  hwaits := Pipeline.hwaits_of_owed_zero _ _ _ _ L lv 2 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec2 c (Vof Wpre c) ∗ R c)
  hentry c := by
    rw [Pipeline.ownSems0_none]
    have hsplit := Pipeline.arrays_of_unscopedBufs (p := 2) (pcfgs (F := F)) adm (fam2 Wpre d0 d1 d3 d4 d5 d6 d7) launch2.win launch2.arr_whole c
      ((fam2 Wpre d0 d1 d3 d4 d5 d6 d7 2 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam2 Wpre d0 d1 d3 d4 d5 d6 d7 2 c).Φ 0 = Φ2 c from rfl]
    iintro ⟨-, -, Hr⟩; iexact Hr
  hout c := by
    rw [Pipeline.ownSems0_none, show (fam2 Wpre d0 d1 d3 d4 d5 d6 d7 2 c).Φ (Fin.last _) = Φ2 c from rfl]
    iintro Hr
    isplitr; · iempintro
    isplitr; · iempintro
    iexact Hr
  hexit c := by
    have hjoin := Pipeline.unscopedBufs_of_arrays (p := 2) (pcfgs (F := F)) adm (Ix := Unit) (Name := ℕ) (U := U) (Lvl := ℕ)
      launch2.win launch2.arr_whole c (fam2 Wpre d0 d1 d3 d4 d5 d6 d7) ((fam2 Wpre d0 d1 d3 d4 d5 d6 d7 2 c).share_full fun _ => rfl)
      (Vof Wpre c) (Vof Wpost c) ((fam2 Wpre d0 d1 d3 d4 d5 d6 d7 2 c).arrAt · cfg2.N)
      (fun w => by
        by_cases hw : w = 3
        · subst hw; exact (hout c).symm
        · exact ((fam2 Wpre d0 d1 d3 d4 d5 d6 d7 2 c).arrAt_in w (win2_in w hw) _).trans (hne c _ (arrRef2_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.Kernel.Hand.seg2' depends on axioms: [propext, Classical.choice, Quot.sound] -/
#guard_msgs in #print axioms seg2

/-! ## The canonical exit valuation -/

/-- The entry valuation with pipeline 2's arrays at what its write-backs leave. -/
def Wout2 (c : Dev nD) : Valuation τ sig (Elt F) :=
  Pipeline.withArrays spec2 c (Wpre c) fun w => (dat2 (U := U) (Vof Wpre) c).arrAt w cfg2.N

/-- It has the output array at `fin2`, -/
theorem Wout2_out (c : Dev nD) : Vof (Wout2 (U := U) Wpre) c main_v104 = fin2 (U := U) Wpre c := by
  unfold Wout2 fin2; exact Pipeline.withArrays_arr spec2 launch2.win.arr_inj c _ _ 3
/-- and every other buffer as entered (an input window's array is written back as it was read). -/
theorem Wout2_ne (c : Dev nD) (b : Ref sig .tc) (hb : b ≠ main_v104) : Vof (Wout2 (U := U) Wpre) c b = Vof Wpre c b := by
  by_cases h : ∃ w, Pipeline.arrRef spec2 w = b
  · obtain ⟨w, rfl⟩ := h
    have hw : w ≠ 3 := fun e => hb (e ▸ rfl)
    unfold Wout2
    exact (Pipeline.withArrays_arr spec2 launch2.win.arr_inj c _ _ w).trans ((dat2 (U := U) (Vof Wpre) c).arrAt_in w (win2_in w hw) _)
  · unfold Wout2; exact Pipeline.withArrays_of_ne spec2 c _ _ b fun w e => h ⟨w, e⟩

end Cert.Kernel.Hand

end
-- ==== Proof.K.Body3.lean ====
/-
  Region 3 of the program (the tiled matmul kernel of custom_call 3, pipeline 3): what ONE point of its grid does.

  The kernel's body at a point loads the three input windows' staging buffers whole (a 2000-row block of x, the
  whole weight matrix, the bias row), loads the output window's staging buffer (a read whose value is never used),
  and stores ONE value over the whole output staging buffer: the payload `k3_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.Kernel.Launch
import proofs.«175488_j3908420240157_2_alg».proof.Proof.Gen.Kernel.Skeleton
import proofs.«175488_j3908420240157_2_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds the window's block at every point, fetched there or not (a window
    whose block index does not move is fetched once and then left in place): for any proof data whose array is `V`'s
    and whose body leaves the block where it was. Window 0, the block of x. -/
theorem before3_0_of {c : Dev nD} (dat : Dat τ (Elt F) Unit ℕ U ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Window 1, the weight matrix (one block, fetched at the first point only). -/
theorem before3_1_of {c : Dev nD} (dat : Dat τ (Elt F) Unit ℕ U ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Window 2, the bias row (one block, fetched at the first point only). -/
theorem before3_2_of {c : Dev nD} (dat : Dat τ (Elt F) Unit ℕ U ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every one is the whole staging buffer -/

abbrev rX3 : Rect S2000x256 := Rect.unit (s := S2000x256) ![0, 0] S2000x256.size inb_S2000x256_S2000x256_0_0
abbrev rW3 : Rect S256x256 := Rect.unit (s := S256x256) ![0, 0] S256x256.size inb_S256x256_S256x256_0_0
abbrev rB3 : Rect S1x256 := Rect.unit (s := S1x256) ![0, 0] S1x256.size inb_S1x256_S1x256_0_0
abbrev rO3 : Rect S2000x256 := Rect.unit (s := S2000x256) ![0, 0] S2000x256.size inb_S2000x256_S2000x256_0_0

/-! ## What the body leaves in the output window's buffer -/

/-- The output window's staging buffer after the body, from the three input blocks: the canonical contents of its
    one store, whose value is the payload of the three loads. -/
def out3_3 (x0 : Vec F S2000x256 .f32) (x1 : Vec F S256x256 .f32) (x2 : Vec F S1x256 .f32) : Vec F S2000x256 .f32 :=
  View.canon [⟨rO3, k3_pay1 (View.ld x0 rX3) (View.ld x1 rW3) (View.ld x2 rB3)⟩]

/-- The one store is of the whole buffer, so it covers it. -/
theorem cover3_3 (p0 : Vec F S2000x256 .f32) (y : S2000x256.Idx) :
    ∃ pc ∈ ([⟨rO3, p0⟩] : List (View.Piece (Elt F) S2000x256 .f32)), y ∈ pc.1.set :=
  View.cover_of_tiled [⟨rO3, p0⟩] S2000x256.size (by rfl) y

/-! ## The body's triple -/

set_option maxHeartbeats 1000000 in
/-- The kernel body on whole staging memrefs — the inputs' at read contents `x0 x1 x2`, the output's at anything —
    runs to its return with the inputs' as they were and the output's at `out3_3` of them. -/
theorem sound_kernel3 (c : Dev nD) (E : Set ℕ) (i : grid3.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__mm_kernel i arg1 harg1 arg2 harg2 arg3 harg3 arg4 harg4) K := by
  simp only [cc3__mm_kernel_eq_skeleton]; unfold cc3__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The invariant between the region's ends: the core's scoped buffers that no window of this pipeline stages (the
    other kernels' staging and scratch buffers), held at some contents — the body touches none of them. -/
abbrev Φ3 (c : Dev nD) : sProp 𝕄 := Pipeline.scopedRest (Ix := Unit) (Name := ℕ) (U := U) (Lvl := ℕ) (Val := Elt F) spec3 c

/-- The proof data of pipeline 3 on core `c`, from the entry valuation `V`: the four arrays as the region finds
    them; after the body at point `t` each input's buffer at its block and the output's at `out3_3` of the three input
    blocks at `t`; the invariant `Φ3`; nothing owed; full shares. -/
def dat3 (c : Dev nD) : Dat τ (Elt F) Unit ℕ U ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Φ3 c
  q _ := fullShare
  owed _ := 0

/-- The proof data's arrays are the entry contents. -/
theorem A_eq3 (c : Dev nD) (w : Fin cfg3.W) : (dat3 (U := U) V c).A w = V c (Pipeline.arrRef spec3 w) := by
  dsimp only [dat3]

/-- What the body leaves, window by window. -/
theorem after3_0 (c : Dev nD) (t : Fin cfg3.N) : (dat3 (U := U) V c).after 0 t = iblk3 V c 0 t := by dsimp only [dat3]
theorem after3_1 (c : Dev nD) (t : Fin cfg3.N) : (dat3 (U := U) V c).after 1 t = iblk3 V c 1 t := by dsimp only [dat3]
theorem after3_2 (c : Dev nD) (t : Fin cfg3.N) : (dat3 (U := U) V c).after 2 t = iblk3 V c 2 t := by dsimp only [dat3]
theorem after3_3 (c : Dev nD) (t : Fin cfg3.N) :
    (dat3 (U := U) V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 (U := U) V c).before 0 t d = iblk3 V c 0 t :=
  before3_0_of V (dat3 V c) (A_eq3 V c 0) (after3_0 V c) t d
theorem before3_1 (c : Dev nD) (t : Fin cfg3.N) (d) : (dat3 (U := U) V c).before 1 t d = iblk3 V c 1 t :=
  before3_1_of V (dat3 V c) (A_eq3 V c 1) (after3_1 V c) t d
theorem before3_2 (c : Dev nD) (t : Fin cfg3.N) (d) : (dat3 (U := U) V c).before 2 t d = iblk3 V c 2 t :=
  before3_2_of V (dat3 V c) (A_eq3 V c 2) (after3_2 V c) t d

/-! ## The body obligation, at a generic point -/

/-- What the body is called with at point `t`: the invariant, the core's dues, and the four current staging buffers
    (each input at its block; the output at whatever the pipeline left there). -/
def bodyPre3 (c : Dev nD) (t : Fin cfg3.N) : sProp 𝕄 :=
  iprop((dat3 (U := U) V c).Φ t.castSucc ∗ (dat3 (U := U) V c).owesAt () t.castSucc
    ∗ (∃ d, owns (c : Thread nD τ) (st3_0 t) fullShare ((dat3 (U := U) V c).before 0 t d))
    ∗ (∃ d, owns (c : Thread nD τ) (st3_1 t) fullShare ((dat3 (U := U) V c).before 1 t d))
    ∗ (∃ d, owns (c : Thread nD τ) (st3_2 t) fullShare ((dat3 (U := U) V c).before 2 t d))
    ∗ (∃ d, owns (c : Thread nD τ) (st3_3 t) fullShare ((dat3 (U := U) V c).before 3 t d)))

/-- What it returns. -/
def bodyPost3 (c : Dev nD) (t : Fin cfg3.N) : sProp 𝕄 :=
  iprop((dat3 (U := U) V c).Φ t.succ ∗ (dat3 (U := U) V c).owesAt () t.succ
    ∗ owns (c : Thread nD τ) (st3_0 t) fullShare ((dat3 (U := U) V c).after 0 t)
    ∗ owns (c : Thread nD τ) (st3_1 t) fullShare ((dat3 (U := U) V c).after 1 t)
    ∗ owns (c : Thread nD τ) (st3_2 t) fullShare ((dat3 (U := U) V c).after 2 t)
    ∗ owns (c : Thread nD τ) (st3_3 t) fullShare ((dat3 (U := U) V c).after 3 t))

/-- The body at any point: the inputs' memrefs hold their blocks, so `sound_kernel3` applies; the invariant and the
    core's dues pass through untouched; the output buffer's prior contents are not needed. -/
theorem sound_body3 (c : Dev nD) (t : Fin cfg3.N) :
    bodyPre3 (U := U) V c t ⊢ wp frame (wpE (defs₀ (F := F)) Variants.none c none) Set.univ (bodyAt3 t) (fun _ => bodyPost3 (U := U) V c t) := by
  unfold bodyPre3 bodyPost3 bodyAt3
  simp only [before3_0, before3_1, before3_2]
  rw [show (dat3 (U := U) V c).Φ t.succ = (dat3 (U := U) V c).Φ t.castSucc from rfl,
    show (dat3 (U := U) V c).owesAt () t.succ = (dat3 (U := U) V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) (U := U) V c) (defs₀ (F := F)) Variants.none () Set.univ := fun t => by
  rw [bigSep_W3, bigSep_W3]
  exact sound_body3 V c t

/-- info: 'Cert.Kernel.Hand.body_obligation3' depends on axioms: [propext, Classical.choice, Quot.sound] -/
#guard_msgs in #print axioms body_obligation3

end Cert.Kernel.Hand

end
-- ==== Proof.K.Seg3.lean ====
/-
  Region 3 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin3`: the fold of its five blocks'
  write-backs) and every other buffer as entered; `Wout3` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.K.Body3
import proofs.«175488_j3908420240157_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 3's at the entry valuation and the other seven as given. -/
abbrev fam3 (d0 : DatAt F U 0) (d1 : DatAt F U 1) (d2 : DatAt F U 2) (d4 : DatAt F U 4) (d5 : DatAt F U 5) (d6 : DatAt F U 6) (d7 : DatAt F U 7) : (p : Fin 8) → DatAt F U p :=
  pdatsOf d0 d1 d2 (fun c => dat3 (Vof Wpre) c) d4 d5 d6 d7

/-- The output window's array after the region, as the library computes it: the write-backs of the body's results
    folded over the grid. -/
def fin3 (c : Dev nD) : Buf (Elt F) ((c : Thread nD τ).loc main_v142) := (dat3 (U := U) (Vof Wpre) c).arrAt 3 cfg3.N

/-- The pipeline's arrays are four distinct buffers; the output's is the last. -/
theorem arrRef3_ne_out : ∀ w : Fin cfg3.W, w ≠ 3 → Pipeline.arrRef spec3 w ≠ main_v142 := by decide
/-- Every window but the last is an input. -/
theorem win3_in : ∀ w : Fin cfg3.W, w ≠ 3 → (cfg3.win w).isOut = false := by decide

-- `iapply` of a library lemma stated over the pinned configuration unifies with the printed one only when unification
-- may unfold plain definitions in a metavariable's type
set_option backward.isDefEq.respectTransparency.types false in
/-- REGION 3 over the thread state: entered from every unscoped buffer at `Wpre c` beside the rider, left at
    `Wpost c` beside the same rider, for any `Wpost` that has the output array at `fin3` and agrees with `Wpre` off it —
    stated over the family with the other seven pipelines' proof data arbitrary. -/
def seg3 (d0 : DatAt F U 0) (d1 : DatAt F U 1) (d2 : DatAt F U 2) (d4 : DatAt F U 4) (d5 : DatAt F U 5) (d6 : DatAt F U 6) (d7 : DatAt F U 7) (R : Dev nD → sProp 𝕄) (hout : ∀ c, Vof Wpost c main_v142 = fin3 (U := U) Wpre c)
    (hne : ∀ c (b : Ref sig .tc), b ≠ main_v142 → Vof Wpost c b = Vof Wpre c b) :
    Pipeline.RegionSeg (pcfgs (F := F)) adm (fam3 Wpre d0 d1 d2 d4 d5 d6 d7) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vof Wpre) c).loose
  hwaits := Pipeline.hwaits_of_owed_zero _ _ _ _ L lv 3 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec3 c (Vof Wpre c) ∗ R c)
  hentry c := by
    rw [Pipeline.ownSems0_none]
    have hsplit := Pipeline.arrays_of_unscopedBufs (p := 3) (pcfgs (F := F)) adm (fam3 Wpre d0 d1 d2 d4 d5 d6 d7) launch3.win launch3.arr_whole c
      ((fam3 Wpre d0 d1 d2 d4 d5 d6 d7 3 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam3 Wpre d0 d1 d2 d4 d5 d6 d7 3 c).Φ 0 = Φ3 c from rfl]
    iintro ⟨-, -, Hr⟩; iexact Hr
  hout c := by
    rw [Pipeline.ownSems0_none, show (fam3 Wpre d0 d1 d2 d4 d5 d6 d7 3 c).Φ (Fin.last _) = Φ3 c from rfl]
    iintro Hr
    isplitr; · iempintro
    isplitr; · iempintro
    iexact Hr
  hexit c := by
    have hjoin := Pipeline.unscopedBufs_of_arrays (p := 3) (pcfgs (F := F)) adm (Ix := Unit) (Name := ℕ) (U := U) (Lvl := ℕ)
      launch3.win launch3.arr_whole c (fam3 Wpre d0 d1 d2 d4 d5 d6 d7) ((fam3 Wpre d0 d1 d2 d4 d5 d6 d7 3 c).share_full fun _ => rfl)
      (Vof Wpre c) (Vof Wpost c) ((fam3 Wpre d0 d1 d2 d4 d5 d6 d7 3 c).arrAt · cfg3.N)
      (fun w => by
        by_cases hw : w = 3
        · subst hw; exact (hout c).symm
        · exact ((fam3 Wpre d0 d1 d2 d4 d5 d6 d7 3 c).arrAt_in w (win3_in w hw) _).trans (hne c _ (arrRef3_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.Kernel.Hand.seg3' depends on axioms: [propext, Classical.choice, Quot.sound] -/
#guard_msgs in #print axioms seg3

/-! ## The canonical exit valuation -/

/-- The entry valuation with pipeline 3's arrays at what its write-backs leave. -/
def Wout3 (c : Dev nD) : Valuation τ sig (Elt F) :=
  Pipeline.withArrays spec3 c (Wpre c) fun w => (dat3 (U := U) (Vof Wpre) c).arrAt w cfg3.N

/-- It has the output array at `fin3`, -/
theorem Wout3_out (c : Dev nD) : Vof (Wout3 (U := U) Wpre) c main_v142 = fin3 (U := U) Wpre c := by
  unfold Wout3 fin3; exact Pipeline.withArrays_arr spec3 launch3.win.arr_inj c _ _ 3
/-- and every other buffer as entered (an input window's array is written back as it was read). -/
theorem Wout3_ne (c : Dev nD) (b : Ref sig .tc) (hb : b ≠ main_v142) : Vof (Wout3 (U := U) Wpre) c b = Vof Wpre c b := by
  by_cases h : ∃ w, Pipeline.arrRef spec3 w = b
  · obtain ⟨w, rfl⟩ := h
    have hw : w ≠ 3 := fun e => hb (e ▸ rfl)
    unfold Wout3
    exact (Pipeline.withArrays_arr spec3 launch3.win.arr_inj c _ _ w).trans ((dat3 (U := U) (Vof Wpre) c).arrAt_in w (win3_in w hw) _)
  · unfold Wout3; exact Pipeline.withArrays_of_ne spec3 c _ _ b fun w e => h ⟨w, e⟩

end Cert.Kernel.Hand

end
-- ==== Proof.K.Point4.lean ====
/-
  Region 4 of the program (the row-sum kernel of custom_call 4, pipeline 4): what the statements about one point of its
  5 x 5 grid are made of.

  At the point (i, j) the kernel's body is handed a block of 2000 rows of q (at block index i), a block of 2000 rows
  of z and one of stu (both at block index j), the output window's staging buffer, and a scratch column of 2000
  entries. It clears the scratch when j = 0; forms the 2000 x 2000 block e = exp(q zᵀ) + exp(q stuᵀ) (each product in
  three bf16 passes: the payload k4_pay3); adds the row sums of e to the scratch (the payload k4_pay1); and, when
  j = 4, copies the scratch into the output window's staging buffer.

  This module holds the pieces the body's triples and the proof data are stated with: the windows' blocks read off an
  entry valuation \`V\` of the core's buffers, and that an input window's staging buffer holds its block at every point;
  the body's accesses, every one of a whole buffer, so that a load reads the buffer's contents and a store leaves its
  payload; what one point adds to the scratch (\`acc4\`); and the two conditions in closed form over the 25 points
  (j = 0 at the points ≡ 0 mod 5, j = 4 at the points ≡ 4 mod 5), with where the output window is idle. Everything is
  stated for any float model F and any user resource algebra U.
-/
import proofs.«175488_j3908420240157_2_alg».proof.Proof.Gen.Kernel.Launch
import proofs.«175488_j3908420240157_2_alg».proof.Proof.Gen.Kernel.Skeleton
import proofs.«175488_j3908420240157_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window \`w\`'s block at point \`t\`: its array as the region finds it, read through the block's view. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds the window's block at every point, fetched there or not (a window
    whose block index does not move is left in place): for any proof data whose array is \`V\`'s and whose body leaves
    the block where it was. Window 0, the block of q (its index moves with the slow coordinate only). -/
theorem before4_0_of {c : Dev nD} (dat : Dat τ (Elt F) Unit ℕ U ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1, the block of z (fetched at every point). -/
theorem before4_1_of {c : Dev nD} (dat : Dat τ (Elt F) Unit ℕ U ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Window 2, the block of stu (fetched at every point). -/
theorem before4_2_of {c : Dev nD} (dat : Dat τ (Elt F) Unit ℕ U ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every one is a whole buffer -/

abbrev rI4 : Rect S2000x256 := Rect.unit (s := S2000x256) ![0, 0] S2000x256.size inb_S2000x256_S2000x256_0_0
abbrev rS4 : Rect S2000x1 := Rect.unit (s := S2000x1) ![0, 0] S2000x1.size inb_S2000x1_S2000x1_0_0

/-- The offsets of every access are zero. -/
theorem hz2 : (![0, 0] : Fin 2 → Nat) = fun _ => 0 := funext fun a => by fin_cases a <;> rfl

/-- A load of a whole input block reads the block. -/
theorem ldI4 (x : Vec F S2000x256 .f32) : View.ld x rI4 = x :=
  View.ld_unit_zero (S := S2000x256) hz2 inb_S2000x256_S2000x256_0_0 x

/-- A load of the whole column reads the column. -/
theorem ldS4 (x : Vec F S2000x1 .f32) : View.ld x rS4 = x :=
  View.ld_unit_zero (S := S2000x1) hz2 inb_S2000x1_S2000x1_0_0 x

/-- A store through the whole-shape rectangle at zero offsets, last, leaves its payload: whatever the view, the prior
    contents and the earlier stores. -/
theorem read_store_unit_zero {Val : EltTy → Type} [∀ e, Nonempty (Val e)] {S : Shape} {e : EltTy} {sg : RefSig} {κ : Kind} {sp : Space}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f ((⟨Rect.unit off S.size inb, w⟩ : View.Piece Val S e) :: L) fun y =>
      ⟨(⟨Rect.unit off S.size inb, w⟩ : View.Piece Val S e), List.mem_cons.mpr (Or.inl rfl), View.mem_set_unit_zero h inb y⟩).trans
    (View.canon_cons_unit_zero h inb w L)

/-- The same at the scratch column's shape. -/
theorem read_store4 {κ : Kind} {sp : Space} (v : View sig κ sp S2000x1 .f32) (f : v.ty.Contents (Elt F)) (w : Vec F S2000x1 .f32)
    (L : List (View.Piece (Elt F) S2000x1 .f32)) :
    v.read (Elt F) (v.writes (Elt F) f ((⟨rS4, w⟩ : View.Piece (Elt F) S2000x1 .f32) :: L)) = w :=
  read_store_unit_zero (S := S2000x1) v f hz2 inb_S2000x1_S2000x1_0_0 w L

/-- A load of the whole column after a store of the whole column reads the store's payload. -/
theorem readCov4 {κ : Kind} {sp : Space} (v : View sig κ sp S2000x1 .f32) (w : Vec F S2000x1 .f32) :
    v.readCov [(⟨rS4, w⟩ : View.Piece (Elt F) S2000x1 .f32)] rS4.toLoadRect = w :=
  View.readCov_unit_zero (S := S2000x1) v hz2 inb_S2000x1_S2000x1_0_0 w

/-! ## What a point adds to the scratch -/

/-- The scratch after a point, from the three input blocks and the column \`s\` the accumulation starts from: \`s\` plus
    the row sums of exp(q zᵀ) + exp(q stuᵀ). -/
def acc4 (x0 x1 x2 : Vec F S2000x256 .f32) (s : Vec F S2000x1 .f32) : Vec F S2000x1 .f32 :=
  k4_pay1 (k4_pay3 x0 x1 x2) s

/-! ## The body's two conditions -/

/-- The first conditional's condition (the scratch is cleared): the fast coordinate is 0. -/
abbrev cond4_1 (i : grid4.Coords) : Prop :=
  (Scalar.cmpi .ne (Scalar.extui (Scalar.cmpi .eq (BitVec.ofNat 32 (i 1).val) 0#32)) 0#32) = 1#1
/-- It holds at the points ≡ 0 (mod 5): decided over the grid. -/
theorem hcond4_1 : ∀ t : Fin cfg4.N, cond4_1 (grid4.coords t) ↔ t.val % 5 = 0 :=
  (by decide +kernel : ∀ t : Fin grid4.N, cond4_1 (grid4.coords t) ↔ t.val % 5 = 0)

/-- The second conditional's condition (the scratch is copied to the output window): the fast coordinate is 4. -/
abbrev cond4_2 (i : grid4.Coords) : Prop := k4_cond2 i = 1#1
/-- It holds at the points ≡ 4 (mod 5): decided over the grid. -/
theorem hcond4_2 : ∀ t : Fin cfg4.N, cond4_2 (grid4.coords t) ↔ t.val % 5 = 4 :=
  (by decide +kernel : ∀ t : Fin grid4.N, cond4_2 (grid4.coords t) ↔ t.val % 5 = 4)

/-- The output window is idle exactly where the second condition fails, -/
theorem idle4_3 : ∀ t : Fin cfg4.N, ¬cond4_2 (grid4.coords t) → cfg4.idle 3 (grid4.coords t) = true := by decide +kernel
/-- live where it holds, -/
theorem live4_3 : ∀ t : Fin cfg4.N, cond4_2 (grid4.coords t) → cfg4.idle 3 (grid4.coords t) = false := by decide +kernel
/-- and not written back where it fails. -/
theorem noFlush4_3 (t : Fin cfg4.N) (h : ¬cond4_2 (grid4.coords t)) : (cfg4.win 3).flush t = false :=
  Bool.eq_false_iff.mpr fun hf => h ((hcond4_2 t).mpr ((flush4_3 t).mp hf))

end Cert.Kernel.Hand

end
-- ==== Proof.K.Kernel4.lean ====
/-
  Region 4 of the program: the kernel body's triple, on any whole memrefs, in each of the three cases of its two
  conditionals.

  The body's first conditional (the fast grid coordinate j is 0) clears the scratch column; the second (j = 4) copies
  the scratch into the output window's staging buffer. On a 5 x 5 grid a point meets exactly one of three
  assignments: A (j = 0: cleared, not copied), B (0 < j < 4: neither), C (j = 4: not cleared, copied). In each case
  the body loads the three input blocks whole, forms the block e of exp(q zᵀ) + exp(q stuᵀ), and stores over the whole
  scratch the sum of the scratch as loaded and the row sums of e: \`acc4\` of the three blocks and of the column the
  accumulation starts from — zero in case A, what the scratch held in cases B and C. Every access is of a whole
  buffer, so a load reads the buffer's contents and a store leaves its payload.
-/
import proofs.«175488_j3908420240157_2_alg».proof.Proof.K.Point4
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

set_option maxHeartbeats 1000000 in
/-- CASE A (j = 0, the first point of a row of the grid): the scratch, whatever it held, is cleared and then receives the
    point's row sums; the output window's buffer is handed back as found. -/
theorem sound_kernel4_A (c : Dev nD) (E : Set ℕ) (i : grid4.Coords) (hc1 : cond4_1 i) (hc2 : ¬cond4_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (acc4 x0 x1 x2 k4_pay2)) -∗ K ⟨⟩))
      ⊢ wp frame (wpE (defs₀ (F := F)) Variants.none c none) E (cc4__negsim_kernel i arg2 harg2 arg3 harg3 arg4 harg4 arg5 harg5 arg6 harg6) K := by
  simp only [cc4__negsim_kernel_eq_skeleton]; unfold cc4__negsim_kernel_skel
  simp only [k4_part1_eq_skeleton]; unfold k4_part1_skel
  unfold owns
  iintro ⟨⟨%f0, %hf0, H0⟩, ⟨%f1, %hf1, H1⟩, ⟨%f2, %hf2, H2⟩, ⟨%fo, %hfo, HO⟩, ⟨%ds, %fs, -, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; exact hfo
    iexact HO
  iexists _; isplitr
  swap; · iexact HS
  ipureintro
  sl_unfold_run_names
  refine (read_store4 _ _ _ _).trans ?_
  show acc4 (View.ld (View.read (Elt F) arg2.view f0) rI4) (View.ld (View.read (Elt F) arg3.view f1) rI4) (View.ld (View.read (Elt F) arg4.view f2) rI4) (View.readCov arg6.view [⟨rS4, k4_pay2⟩] rS4.toLoadRect) = _
  rw [ldI4, ldI4, ldI4, readCov4]

set_option maxHeartbeats 1000000 in
/-- CASE B (0 < j < 4, a middle point of a row): the scratch receives the point's row sums on top of what the point before
    left; the output window's buffer is handed back as found. -/
theorem sound_kernel4_B (c : Dev nD) (E : Set ℕ) (i : grid4.Coords) (hc1 : ¬cond4_1 i) (hc2 : ¬cond4_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (acc4 x0 x1 x2 s)) -∗ K ⟨⟩))
      ⊢ wp frame (wpE (defs₀ (F := F)) Variants.none c none) E (cc4__negsim_kernel i arg2 harg2 arg3 harg3 arg4 harg4 arg5 harg5 arg6 harg6) K := by
  simp only [cc4__negsim_kernel_eq_skeleton]; unfold cc4__negsim_kernel_skel
  simp only [k4_part1_eq_skeleton]; unfold k4_part1_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  subst hfs
  isplitl [HO]
  · iexists fo; isplitr; · ipureintro; exact hfo
    iexact HO
  iexists _; isplitr
  swap; · iexact HS
  ipureintro
  sl_unfold_run_names
  refine (read_store4 _ _ _ _).trans ?_
  show acc4 (View.ld (View.read (Elt F) arg2.view f0) rI4) (View.ld (View.read (Elt F) arg3.view f1) rI4) (View.ld (View.read (Elt F) arg4.view f2) rI4) (View.ld (View.read (Elt F) arg6.view fs) rS4) = _
  rw [ldI4, ldI4, ldI4, ldS4]

set_option maxHeartbeats 1000000 in
/-- CASE C (j = 4, the last point of a row): the scratch receives the point's row sums on top of what the point before left,
    and its new contents are stored over the output window's buffer, whatever that held. -/
theorem sound_kernel4_C (c : Dev nD) (E : Set ℕ) (i : grid4.Coords) (hc1 : ¬cond4_1 i) (hc2 : cond4_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (acc4 x0 x1 x2 s) ∗ owns (c : Thread nD τ) arg6 fullShare (acc4 x0 x1 x2 s)) -∗ K ⟨⟩))
      ⊢ wp frame (wpE (defs₀ (F := F)) Variants.none c none) E (cc4__negsim_kernel i arg2 harg2 arg3 harg3 arg4 harg4 arg5 harg5 arg6 harg6) K := by
  simp only [cc4__negsim_kernel_eq_skeleton]; unfold cc4__negsim_kernel_skel
  simp only [k4_part1_eq_skeleton]; unfold k4_part1_skel
  unfold owns
  iintro ⟨⟨%f0, %hf0, H0⟩, ⟨%f1, %hf1, H1⟩, ⟨%f2, %hf2, H2⟩, ⟨%dd, %fo, -, HO⟩, ⟨%fs, %hfs, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  subst hfs
  isplitl [HO]
  · iexists _; isplitr
    swap; · iexact HO
    ipureintro
    sl_unfold_run_names
    refine (read_store4 _ _ _ _).trans ?_
    refine (readCov4 _ _).trans ?_
    show acc4 (View.ld (View.read (Elt F) arg2.view f0) rI4) (View.ld (View.read (Elt F) arg3.view f1) rI4) (View.ld (View.read (Elt F) arg4.view f2) rI4) (View.ld (View.read (Elt F) arg6.view fs) rS4) = _
    rw [ldI4, ldI4, ldI4, ldS4]
  iexists _; isplitr
  swap; · iexact HS
  ipureintro
  sl_unfold_run_names
  refine (read_store4 _ _ _ _).trans ?_
  show acc4 (View.ld (View.read (Elt F) arg2.view f0) rI4) (View.ld (View.read (Elt F) arg3.view f1) rI4) (View.ld (View.read (Elt F) arg4.view f2) rI4) (View.ld (View.read (Elt F) arg6.view fs) rS4) = _
  rw [ldI4, ldI4, ldI4, ldS4]

/-- info: 'Cert.Kernel.Hand.sound_kernel4_C' depends on axioms: [propext, Classical.choice, Quot.sound] -/
#guard_msgs in #print axioms sound_kernel4_C

end Cert.Kernel.Hand

end
-- ==== Proof.K.Body4.lean ====
/-
  Region 4 of the program (the row-sum kernel of custom_call 4, pipeline 4): the pipeline's proof data and the body
  obligation.

  At the point (i, j) of the 5 x 5 grid the kernel's body is handed a block of 2000 rows of q (at block index i), a
  block of 2000 rows of z and one of stu (both at block index j), the output window's staging buffer, and a scratch
  column of 2000 entries that no window stages: a buffer of the kernel's own that keeps its contents from one point to
  the next. It clears the scratch when j = 0, adds to it the row sums of the 2000 x 2000 block exp(q zᵀ) + exp(q stuᵀ),
  and when j = 4 copies it into the output window's staging buffer, which the pipeline then writes back as block i.

  So the scratch after the point number t (t = 5 i + j) is a recursion over the points of one row of the grid: \`S4 t\`
  is the point's row sums added to zero when j = 0, and to \`S4 (t - 1)\` otherwise; at j = 4 it is the sum over the whole
  row of blocks. The output window's staging buffer is stored at the points with j = 4 only, where it receives \`S4 t\`;
  at the other points the body leaves it as it found it, and the pipeline does not write it back there.

  This module states that as the pipeline's proof data at an arbitrary entry valuation \`V\` of the core's buffers — the
  recursion, and the invariant between points: the scratch at exactly \`S4\` of the point before, beside the scoped
  buffers the region does not touch — and derives the library's body obligation from the body's triple in each of the
  three cases of its two conditionals. Everything is stated for any float model \`F\` and any user resource algebra \`U\`.
-/
import proofs.«175488_j3908420240157_2_alg».proof.Proof.K.Point4
import proofs.«175488_j3908420240157_2_alg».proof.Proof.K.Kernel4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The accumulation -/

/-- THE ACCUMULATION. What the scratch column holds after the body at the point number \`n\`: the row sums of that
    point's block of exp(q zᵀ) + exp(q stuᵀ), added to zero at the first point of a row of the grid (j = 0) and to what
    the point before left otherwise — so at the last point of a row (j = 4) the row sums over the whole row. -/
def S4 (c : Dev nD) : (n : ℕ) → n < cfg4.N → Vec F S2000x1 .f32
  | 0, h => acc4 (iblk4 V c 0 ⟨0, h⟩) (iblk4 V c 1 ⟨0, h⟩) (iblk4 V c 2 ⟨0, h⟩) k4_pay2
  | n + 1, h =>
    if (n + 1) % 5 = 0 then acc4 (iblk4 V c 0 ⟨n + 1, h⟩) (iblk4 V c 1 ⟨n + 1, h⟩) (iblk4 V c 2 ⟨n + 1, h⟩) k4_pay2
    else acc4 (iblk4 V c 0 ⟨n + 1, h⟩) (iblk4 V c 1 ⟨n + 1, h⟩) (iblk4 V c 2 ⟨n + 1, h⟩) (S4 c n (Nat.lt_of_succ_lt h))

/-- At the first point of a row the accumulation starts from zero. -/
theorem S4_reset (c : Dev nD) (t : Fin cfg4.N) (h0 : t.val % 5 = 0) :
    S4 V c t.val t.isLt = acc4 (iblk4 V c 0 t) (iblk4 V c 1 t) (iblk4 V c 2 t) k4_pay2 := by
  obtain ⟨n, hn⟩ := t
  cases n with
  | zero => rfl
  | succ n => exact if_pos h0

/-- At a later point of a row it continues from what the point before left. -/
theorem S4_step (c : Dev nD) (t : Fin cfg4.N) (h0 : ¬t.val % 5 = 0) :
    S4 V c t.val t.isLt = acc4 (iblk4 V c 0 t) (iblk4 V c 1 t) (iblk4 V c 2 t)
      (S4 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The scratch operand: a whole scoped buffer of the kernel's own, passed beside the windows. -/
abbrev scM4 : Memref sig .tc .vmem S2000x1 .f32 := Memref.whole cc4_scratch0

/-- The scoped buffers of the core that are neither staged by this pipeline nor its scratch, each at some contents:
    the body touches none of them. -/
abbrev rest4 (c : Dev nD) : sProp 𝕄 :=
  Pipeline.scopedRestBut (Ix := Unit) (Name := ℕ) (U := U) (Lvl := ℕ) (Val := Elt F) spec4 c [cc4_scratch0]

/-- The invariant before the point number \`n\`: before the first point every scoped buffer no window stages at some
    contents (what the region is entered with: the scratch holds anything); afterwards the scratch at exactly what the
    point before left in it, beside the others. -/
def Φ4 (c : Dev nD) : (n : ℕ) → n ≤ cfg4.N → sProp 𝕄
  | 0, _ => Pipeline.scopedRest (Ix := Unit) (Name := ℕ) (U := U) (Lvl := ℕ) (Val := Elt F) spec4 c
  | n + 1, h => iprop(owns (c : Thread nD τ) scM4 fullShare (S4 V c n h) ∗ rest4 (U := U) c)

/-- The scoped rest with the scratch split out, owned at some contents. -/
theorem scopedRest4_eq (c : Dev nD) :
    (Pipeline.scopedRest (Ix := Unit) (Name := ℕ) (U := U) (Lvl := ℕ) (Val := Elt F) spec4 c : sProp 𝕄)
      = iprop((∃ d, owns (c : Thread nD τ) scM4 fullShare d) ∗ rest4 (U := U) c) := by
  rw [scopedRest4_split]; simp only [scM4, owns_whole]; try rfl

theorem Φ4_zero (c : Dev nD) (n : ℕ) (h : n ≤ cfg4.N) (hz : n = 0) :
    Φ4 (U := U) V c n h = iprop((∃ d, owns (c : Thread nD τ) scM4 fullShare d) ∗ rest4 (U := U) c) := by
  subst hz; exact scopedRest4_eq c

theorem Φ4_succ (c : Dev nD) (n : ℕ) (hn : n < cfg4.N) :
    Φ4 (U := U) V c (n + 1) hn = iprop(owns (c : Thread nD τ) scM4 fullShare (S4 V c n hn) ∗ rest4 (U := U) c) := rfl

theorem Φ4_pos (c : Dev nD) (n : ℕ) (h : n ≤ cfg4.N) (hz : n ≠ 0) :
    Φ4 (U := U) V c n h = iprop(owns (c : Thread nD τ) scM4 fullShare (S4 V c (n - 1) (by omega)) ∗ rest4 (U := U) c) := by
  cases n with
  | zero => exact absurd rfl hz
  | succ n => rfl

/-! ## The pipeline's proof data -/

/-- The proof data of pipeline 4 on core \`c\`, from the entry valuation \`V\`: the four arrays as the region finds them;
    after the body at point \`t\` each input's buffer at its block and the output's at the accumulation \`S4\` (consulted
    only at the points with j = 4, where the body stores it there: at the others the window is idle); the invariant
    \`Φ4\`; nothing owed; full shares. -/
def dat4 (c : Dev nD) : Dat τ (Elt F) Unit ℕ U ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => S4 V c t.val t.isLt
  Φ k := Φ4 V c k.val (Nat.le_of_lt_succ k.isLt)
  q _ := fullShare
  owed _ := 0

/-- The proof data's arrays are the entry contents. -/
theorem A_eq4 (c : Dev nD) (w : Fin cfg4.W) : (dat4 (U := U) V c).A w = V c (Pipeline.arrRef spec4 w) := by
  dsimp only [dat4]

/-- What the body leaves, window by window. -/
theorem after4_0 (c : Dev nD) (t : Fin cfg4.N) : (dat4 (U := U) V c).after 0 t = iblk4 V c 0 t := by dsimp only [dat4]
theorem after4_1 (c : Dev nD) (t : Fin cfg4.N) : (dat4 (U := U) V c).after 1 t = iblk4 V c 1 t := by dsimp only [dat4]
theorem after4_2 (c : Dev nD) (t : Fin cfg4.N) : (dat4 (U := U) V c).after 2 t = iblk4 V c 2 t := by dsimp only [dat4]
theorem after4_3 (c : Dev nD) (t : Fin cfg4.N) : (dat4 (U := U) V c).after 3 t = S4 V c t.val t.isLt := by dsimp only [dat4]

/-- Each input's current staging buffer holds its block at every point. -/
theorem before4_0 (c : Dev nD) (t : Fin cfg4.N) (d) : (dat4 (U := U) V c).before 0 t d = iblk4 V c 0 t :=
  before4_0_of V (dat4 V c) (A_eq4 V c 0) (after4_0 V c) t d
theorem before4_1 (c : Dev nD) (t : Fin cfg4.N) (d) : (dat4 (U := U) V c).before 1 t d = iblk4 V c 1 t :=
  before4_1_of V (dat4 V c) (A_eq4 V c 1) (after4_1 V c) t d
theorem before4_2 (c : Dev nD) (t : Fin cfg4.N) (d) : (dat4 (U := U) V c).before 2 t d = iblk4 V c 2 t :=
  before4_2_of V (dat4 V c) (A_eq4 V c 2) (after4_2 V c) t d

/-- The invariant at a point's start, restated at the point's number. -/
theorem Φ4_castSucc (c : Dev nD) (t : Fin cfg4.N) :
    (dat4 (U := U) V c).Φ t.castSucc = Φ4 V c t.val (Nat.le_of_lt t.isLt) := by
  dsimp only [dat4]; simp only [Fin.coe_castSucc]

/-! ## The body obligation, at a generic point -/

/-- What the body is called with at point \`t\`: the invariant, the core's dues, and the four current staging buffers
    (each input at its block; the output at whatever the points before left there). -/
def bodyPre4 (c : Dev nD) (t : Fin cfg4.N) : sProp 𝕄 :=
  iprop((dat4 (U := U) V c).Φ t.castSucc ∗ (dat4 (U := U) V c).owesAt () t.castSucc
    ∗ (∃ d, owns (c : Thread nD τ) (st4_0 t) fullShare ((dat4 (U := U) V c).before 0 t d))
    ∗ (∃ d, owns (c : Thread nD τ) (st4_1 t) fullShare ((dat4 (U := U) V c).before 1 t d))
    ∗ (∃ d, owns (c : Thread nD τ) (st4_2 t) fullShare ((dat4 (U := U) V c).before 2 t d))
    ∗ (∃ d, owns (c : Thread nD τ) (st4_3 t) fullShare ((dat4 (U := U) V c).before 3 t d)))

/-- What it returns: the output window's buffer at the accumulation where the body stored it (j = 4), and as found
    where the window is idle. -/
def bodyPost4 (c : Dev nD) (t : Fin cfg4.N) : sProp 𝕄 :=
  iprop((dat4 (U := U) V c).Φ t.succ ∗ (dat4 (U := U) V c).owesAt () t.succ
    ∗ (dat4 (U := U) V c).leavesExact 0 t
    ∗ (dat4 (U := U) V c).leavesExact 1 t
    ∗ (dat4 (U := U) V c).leavesExact 2 t
    ∗ (dat4 (U := U) V c).leavesExact 3 t)

/-- An input window is never idle: the body leaves its buffer at the block. -/
theorem leaves4_0 (c : Dev nD) (t : Fin cfg4.N) :
    (dat4 (U := U) V c).leavesExact 0 t = owns (c : Thread nD τ) (st4_0 t) fullShare (iblk4 V c 0 t) := by
  rw [← after4_0 (U := U) V c t]
theorem leaves4_1 (c : Dev nD) (t : Fin cfg4.N) :
    (dat4 (U := U) V c).leavesExact 1 t = owns (c : Thread nD τ) (st4_1 t) fullShare (iblk4 V c 1 t) := by
  rw [← after4_1 (U := U) V c t]
theorem leaves4_2 (c : Dev nD) (t : Fin cfg4.N) :
    (dat4 (U := U) V c).leavesExact 2 t = owns (c : Thread nD τ) (st4_2 t) fullShare (iblk4 V c 2 t) := by
  rw [← after4_2 (U := U) V c t]

/-- Where the second condition holds the output window is live: its buffer is left at the accumulation. -/
theorem leaves4_3_live (c : Dev nD) (t : Fin cfg4.N) (h : cond4_2 (grid4.coords t)) :
    (dat4 (U := U) V c).leavesExact 3 t = owns (c : Thread nD τ) (st4_3 t) fullShare (S4 V c t.val t.isLt) := by
  unfold Dat.leavesExact; rw [live4_3 t h, after4_3]

set_option maxHeartbeats 1600000 in
/-- The body at any point, by the case its number selects: the inputs' memrefs hold their blocks; the invariant hands
    the body the scratch at what the point before left (at anything at the first point) and takes it back at this
    point's accumulation; the other scoped buffers and the core's dues pass through untouched. -/
theorem sound_body4 (c : Dev nD) (t : Fin cfg4.N) :
    bodyPre4 (U := U) V c t ⊢ wp frame (wpE (defs₀ (F := F)) Variants.none c none) Set.univ (bodyAt4 t) (fun _ => bodyPost4 (U := U) V c t) := by
  unfold bodyPre4 bodyPost4 bodyAt4
  simp only [before4_0, before4_1, before4_2]
  rw [show (dat4 (U := U) V c).owesAt () t.succ = (dat4 (U := U) V c).owesAt () t.castSucc from rfl,
    show (dat4 (U := U) V c).Φ t.succ = Φ4 V c (t.val + 1) t.isLt from rfl, Φ4_succ, Φ4_castSucc,
    leaves4_0, leaves4_1, leaves4_2]
  have hN : t.val < 25 := lt_of_lt_of_eq t.isLt (show cfg4.N = 25 from N_4)
  by_cases h0 : t.val % 5 = 0
  · -- the first point of a row
    have h4 : ¬t.val % 5 = 4 := by omega
    have hc1 : cond4_1 (grid4.coords t) := (hcond4_1 t).mpr h0
    have hc2 : ¬cond4_2 (grid4.coords t) := fun h => h4 ((hcond4_2 t).mp h)
    rw [Dat.leavesExact_idle (dat4 (U := U) V c) 3 t (idle4_3 t hc2) (noFlush4_3 t hc2), S4_reset V c t h0]
    by_cases hz : t.val = 0
    · rw [Φ4_zero V c _ _ hz]
      iintro ⟨⟨HS, Hr⟩, Ho, ⟨%d0, H0⟩, ⟨%d1, H1⟩, ⟨%d2, H2⟩, ⟨%d3, H3⟩⟩
      iapply (sound_kernel4_A c Set.univ (grid4.coords t) hc1 hc2 _ _ _ _ _ _ _ _ _ _ (iblk4 V c 0 t) (iblk4 V c 1 t) (iblk4 V c 2 t)
        ((dat4 (U := U) V c).before 3 t d3) k4_pay2 _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3
    · rw [Φ4_pos V c _ _ hz]
      iintro ⟨⟨HS, Hr⟩, Ho, ⟨%d0, H0⟩, ⟨%d1, H1⟩, ⟨%d2, H2⟩, ⟨%d3, H3⟩⟩
      iapply (sound_kernel4_A c Set.univ (grid4.coords t) hc1 hc2 _ _ _ _ _ _ _ _ _ _ (iblk4 V c 0 t) (iblk4 V c 1 t) (iblk4 V c 2 t)
        ((dat4 (U := U) V c).before 3 t d3) k4_pay2 _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3
  · have hz : t.val ≠ 0 := fun e => h0 (by rw [e])
    have hc1 : ¬cond4_1 (grid4.coords t) := fun h => h0 ((hcond4_1 t).mp h)
    rw [Φ4_pos V c _ _ hz, S4_step V c t h0]
    by_cases h4 : t.val % 5 = 4
    · -- the last point of a row
      have hc2 : cond4_2 (grid4.coords t) := (hcond4_2 t).mpr h4
      rw [leaves4_3_live V c t hc2, S4_step V c t h0]
      iintro ⟨⟨HS, Hr⟩, Ho, ⟨%d0, H0⟩, ⟨%d1, H1⟩, ⟨%d2, H2⟩, ⟨%d3, H3⟩⟩
      iapply (sound_kernel4_C c Set.univ (grid4.coords t) hc1 hc2 _ _ _ _ _ _ _ _ _ _ (iblk4 V c 0 t) (iblk4 V c 1 t) (iblk4 V c 2 t)
        k4_pay2 (S4 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexact H3
    · -- a middle point of a row
      have hc2 : ¬cond4_2 (grid4.coords t) := fun h => h4 ((hcond4_2 t).mp h)
      rw [Dat.leavesExact_idle (dat4 (U := U) V c) 3 t (idle4_3 t hc2) (noFlush4_3 t hc2)]
      iintro ⟨⟨HS, Hr⟩, Ho, ⟨%d0, H0⟩, ⟨%d1, H1⟩, ⟨%d2, H2⟩, ⟨%d3, H3⟩⟩
      iapply (sound_kernel4_B c Set.univ (grid4.coords t) hc1 hc2 _ _ _ _ _ _ _ _ _ _ (iblk4 V c 0 t) (iblk4 V c 1 t) (iblk4 V c 2 t)
        ((dat4 (U := U) V c).before 3 t d3) (S4 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3

/-- The library's body obligation, at every point. -/
theorem body_obligation4 (c : Dev nD) : BodyObligation (dat4 (F := F) (U := U) V c) (defs₀ (F := F)) Variants.none () Set.univ := fun t => by
  rw [bigSep_W4, bigSep_W4]
  exact sound_body4 V c t

/-- info: 'Cert.Kernel.Hand.body_obligation4' depends on axioms: [propext, Classical.choice, Quot.sound] -/
#guard_msgs in #print axioms body_obligation4

/-! ## The region's ends -/

/-- What the region is entered with — every scoped buffer no window stages, at some contents — is the invariant before
    the first point. -/
theorem hin4 (c : Dev nD) :
    (Pipeline.scopedRest (Ix := Unit) (Name := ℕ) (U := U) (Lvl := ℕ) (Val := Elt F) spec4 c : sProp 𝕄) ⊢ (dat4 (U := U) V c).Φ 0 :=
  Idealize.SL.BI.Entails.refl _

/-- After the last point the invariant gives them back: the scratch's named contents are forgotten. -/
theorem hout4 (c : Dev nD) :
    (dat4 (U := U) V c).Φ (Fin.last cfg4.N) ⊢ (Pipeline.scopedRest (Ix := Unit) (Name := ℕ) (U := U) (Lvl := ℕ) (Val := Elt F) spec4 c : sProp 𝕄) := by
  rw [show (dat4 (U := U) V c).Φ (Fin.last cfg4.N) = Φ4 V c (Fin.last cfg4.N).val (Nat.le_of_lt_succ (Fin.last cfg4.N).isLt) from rfl,
    Φ4_pos V c _ _ (by rw [Fin.val_last]; have : cfg4.N = 25 := N_4; omega), scopedRest4_eq]
  iintro ⟨HS, Hr⟩
  isplitl [HS]
  · iexists _; iexact HS
  iexact Hr

end Cert.Kernel.Hand

end
-- ==== Proof.K.Seg4.lean ====
/-
  Region 4 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin4`: the fold of its five write-backs, one
  per row of the grid, at the row's last point) and every other buffer as entered; `Wout4` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage — among them the kernel's scratch
  accumulator, which the invariant names between points: it is one of them at some contents when the region is
  entered, and is put back among them, its contents forgotten, when the region is left; the kernel has no
  semaphore of its own and owes no one.
-/
import proofs.«175488_j3908420240157_2_alg».proof.Proof.K.Body4
import proofs.«175488_j3908420240157_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 4's at the entry valuation and the other seven as given. -/
abbrev fam4 (d0 : DatAt F U 0) (d1 : DatAt F U 1) (d2 : DatAt F U 2) (d3 : DatAt F U 3) (d5 : DatAt F U 5) (d6 : DatAt F U 6) (d7 : DatAt F U 7) : (p : Fin 8) → DatAt F U p :=
  pdatsOf d0 d1 d2 d3 (fun c => dat4 (Vof Wpre) c) d5 d6 d7

/-- The output window's array after the region, as the library computes it: the write-backs of the body's results
    folded over the grid. -/
def fin4 (c : Dev nD) : Buf (Elt F) ((c : Thread nD τ).loc main_v205) := (dat4 (U := U) (Vof Wpre) c).arrAt 3 cfg4.N

/-- The pipeline's arrays are four distinct buffers; the output's is the last. -/
theorem arrRef4_ne_out : ∀ w : Fin cfg4.W, w ≠ 3 → Pipeline.arrRef spec4 w ≠ main_v205 := by decide
/-- Every window but the last is an input. -/
theorem win4_in : ∀ w : Fin cfg4.W, w ≠ 3 → (cfg4.win w).isOut = false := by decide

-- `iapply` of a library lemma stated over the pinned configuration unifies with the printed one only when unification
-- may unfold plain definitions in a metavariable's type
set_option backward.isDefEq.respectTransparency.types false in
/-- REGION 4 over the thread state: entered from every unscoped buffer at `Wpre c` beside the rider, left at
    `Wpost c` beside the same rider, for any `Wpost` that has the output array at `fin4` and agrees with `Wpre` off it —
    stated over the family with the other seven pipelines' proof data arbitrary. -/
def seg4 (d0 : DatAt F U 0) (d1 : DatAt F U 1) (d2 : DatAt F U 2) (d3 : DatAt F U 3) (d5 : DatAt F U 5) (d6 : DatAt F U 6) (d7 : DatAt F U 7) (R : Dev nD → sProp 𝕄) (hout : ∀ c, Vof Wpost c main_v205 = fin4 (U := U) Wpre c)
    (hne : ∀ c (b : Ref sig .tc), b ≠ main_v205 → Vof Wpost c b = Vof Wpre c b) :
    Pipeline.RegionSeg (pcfgs (F := F)) adm (fam4 Wpre d0 d1 d2 d3 d5 d6 d7) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vof Wpre) c).loose
  hwaits := Pipeline.hwaits_of_owed_zero _ _ _ _ L lv 4 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec4 c (Vof Wpre c) ∗ R c)
  hentry c := by
    rw [Pipeline.ownSems0_none]
    have hsplit := Pipeline.arrays_of_unscopedBufs (p := 4) (pcfgs (F := F)) adm (fam4 Wpre d0 d1 d2 d3 d5 d6 d7) launch4.win launch4.arr_whole c
      ((fam4 Wpre d0 d1 d2 d3 d5 d6 d7 4 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam4 Wpre d0 d1 d2 d3 d5 d6 d7 4 c).Φ 0 = (dat4 (U := U) (Vof Wpre) c).Φ 0 from rfl]
    iintro ⟨-, -, Hr⟩
    iapply (hin4 (U := U) (Vof Wpre) c); iexact Hr
  hout c := by
    rw [Pipeline.ownSems0_none,
      show (fam4 Wpre d0 d1 d2 d3 d5 d6 d7 4 c).Φ (Fin.last _) = (dat4 (U := U) (Vof Wpre) c).Φ (Fin.last cfg4.N) from rfl]
    iintro HΦ
    ihave Hr := (hout4 (U := U) (Vof Wpre) c) $$ HΦ
    isplitr; · iempintro
    isplitr; · iempintro
    iexact Hr
  hexit c := by
    have hjoin := Pipeline.unscopedBufs_of_arrays (p := 4) (pcfgs (F := F)) adm (Ix := Unit) (Name := ℕ) (U := U) (Lvl := ℕ)
      launch4.win launch4.arr_whole c (fam4 Wpre d0 d1 d2 d3 d5 d6 d7) ((fam4 Wpre d0 d1 d2 d3 d5 d6 d7 4 c).share_full fun _ => rfl)
      (Vof Wpre c) (Vof Wpost c) ((fam4 Wpre d0 d1 d2 d3 d5 d6 d7 4 c).arrAt · cfg4.N)
      (fun w => by
        by_cases hw : w = 3
        · subst hw; exact (hout c).symm
        · exact ((fam4 Wpre d0 d1 d2 d3 d5 d6 d7 4 c).arrAt_in w (win4_in w hw) _).trans (hne c _ (arrRef4_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.Kernel.Hand.seg4' depends on axioms: [propext, Classical.choice, Quot.sound] -/
#guard_msgs in #print axioms seg4

/-! ## The canonical exit valuation -/

/-- The entry valuation with pipeline 4's arrays at what its write-backs leave. -/
def Wout4 (c : Dev nD) : Valuation τ sig (Elt F) :=
  Pipeline.withArrays spec4 c (Wpre c) fun w => (dat4 (U := U) (Vof Wpre) c).arrAt w cfg4.N

/-- It has the output array at `fin4`, -/
theorem Wout4_out (c : Dev nD) : Vof (Wout4 (U := U) Wpre) c main_v205 = fin4 (U := U) Wpre c := by
  unfold Wout4 fin4; exact Pipeline.withArrays_arr spec4 launch4.win.arr_inj c _ _ 3
/-- and every other buffer as entered (an input window's array is written back as it was read). -/
theorem Wout4_ne (c : Dev nD) (b : Ref sig .tc) (hb : b ≠ main_v205) : Vof (Wout4 (U := U) Wpre) c b = Vof Wpre c b := by
  by_cases h : ∃ w, Pipeline.arrRef spec4 w = b
  · obtain ⟨w, rfl⟩ := h
    have hw : w ≠ 3 := fun e => hb (e ▸ rfl)
    unfold Wout4
    exact (Pipeline.withArrays_arr spec4 launch4.win.arr_inj c _ _ w).trans ((dat4 (U := U) (Vof Wpre) c).arrAt_in w (win4_in w hw) _)
  · unfold Wout4; exact Pipeline.withArrays_of_ne spec4 c _ _ b fun w e => h ⟨w, e⟩

end Cert.Kernel.Hand

end
-- ==== Proof.K.Body5.lean ====
/-
  Region 5 of the program (the tiled matmul kernel of custom_call 5, pipeline 5): what ONE point of its grid does.

  The kernel's body at a point loads the three input windows' staging buffers whole (a 2000-row block of x, the
  whole weight matrix, the bias row), loads the output window's staging buffer (a read whose value is never used),
  and stores ONE value over the whole output staging buffer: the payload `k5_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.Kernel.Launch
import proofs.«175488_j3908420240157_2_alg».proof.Proof.Gen.Kernel.Skeleton
import proofs.«175488_j3908420240157_2_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds the window's block at every point, fetched there or not (a window
    whose block index does not move is fetched once and then left in place): for any proof data whose array is `V`'s
    and whose body leaves the block where it was. Window 0, the block of x. -/
theorem before5_0_of {c : Dev nD} (dat : Dat τ (Elt F) Unit ℕ U ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Window 1, the weight matrix (one block, fetched at the first point only). -/
theorem before5_1_of {c : Dev nD} (dat : Dat τ (Elt F) Unit ℕ U ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Window 2, the bias row (one block, fetched at the first point only). -/
theorem before5_2_of {c : Dev nD} (dat : Dat τ (Elt F) Unit ℕ U ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every one is the whole staging buffer -/

abbrev rX5 : Rect S2000x512 := Rect.unit (s := S2000x512) ![0, 0] S2000x512.size inb_S2000x512_S2000x512_0_0
abbrev rW5 : Rect S512x512 := Rect.unit (s := S512x512) ![0, 0] S512x512.size inb_S512x512_S512x512_0_0
abbrev rB5 : Rect S1x512 := Rect.unit (s := S1x512) ![0, 0] S1x512.size inb_S1x512_S1x512_0_0
abbrev rO5 : Rect S2000x512 := Rect.unit (s := S2000x512) ![0, 0] S2000x512.size inb_S2000x512_S2000x512_0_0

/-! ## What the body leaves in the output window's buffer -/

/-- The output window's staging buffer after the body, from the three input blocks: the canonical contents of its
    one store, whose value is the payload of the three loads. -/
def out5_3 (x0 : Vec F S2000x512 .f32) (x1 : Vec F S512x512 .f32) (x2 : Vec F S1x512 .f32) : Vec F S2000x512 .f32 :=
  View.canon [⟨rO5, k5_pay1 (View.ld x0 rX5) (View.ld x1 rW5) (View.ld x2 rB5)⟩]

/-- The one store is of the whole buffer, so it covers it. -/
theorem cover5_3 (p0 : Vec F S2000x512 .f32) (y : S2000x512.Idx) :
    ∃ pc ∈ ([⟨rO5, p0⟩] : List (View.Piece (Elt F) S2000x512 .f32)), y ∈ pc.1.set :=
  View.cover_of_tiled [⟨rO5, p0⟩] S2000x512.size (by rfl) y

/-! ## The body's triple -/

set_option maxHeartbeats 1000000 in
/-- The kernel body on whole staging memrefs — the inputs' at read contents `x0 x1 x2`, the output's at anything —
    runs to its return with the inputs' as they were and the output's at `out5_3` of them. -/
theorem sound_kernel5 (c : Dev nD) (E : Set ℕ) (i : grid5.Coords)
    (arg1 : Memref sig .tc .vmem S2000x512 .f32) (harg1 : arg1.IsWhole) (arg2 : Memref sig .tc .vmem S512x512 .f32) (harg2 : arg2.IsWhole)
    (arg3 : Memref sig .tc .vmem S1x512 .f32) (harg3 : arg3.IsWhole) (arg4 : Memref sig .tc .vmem S2000x512 .f32) (harg4 : arg4.IsWhole)
    (x0 : Vec F S2000x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__mm_kernel i arg1 harg1 arg2 harg2 arg3 harg3 arg4 harg4) K := by
  simp only [cc5__mm_kernel_eq_skeleton]; unfold cc5__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The invariant between the region's ends: the core's scoped buffers that no window of this pipeline stages (the
    other kernels' staging and scratch buffers), held at some contents — the body touches none of them. -/
abbrev Φ5 (c : Dev nD) : sProp 𝕄 := Pipeline.scopedRest (Ix := Unit) (Name := ℕ) (U := U) (Lvl := ℕ) (Val := Elt F) spec5 c

/-- The proof data of pipeline 5 on core `c`, from the entry valuation `V`: the four arrays as the region finds
    them; after the body at point `t` each input's buffer at its block and the output's at `out5_3` of the three input
    blocks at `t`; the invariant `Φ5`; nothing owed; full shares. -/
def dat5 (c : Dev nD) : Dat τ (Elt F) Unit ℕ U ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Φ5 c
  q _ := fullShare
  owed _ := 0

/-- The proof data's arrays are the entry contents. -/
theorem A_eq5 (c : Dev nD) (w : Fin cfg5.W) : (dat5 (U := U) V c).A w = V c (Pipeline.arrRef spec5 w) := by
  dsimp only [dat5]

/-- What the body leaves, window by window. -/
theorem after5_0 (c : Dev nD) (t : Fin cfg5.N) : (dat5 (U := U) V c).after 0 t = iblk5 V c 0 t := by dsimp only [dat5]
theorem after5_1 (c : Dev nD) (t : Fin cfg5.N) : (dat5 (U := U) V c).after 1 t = iblk5 V c 1 t := by dsimp only [dat5]
theorem after5_2 (c : Dev nD) (t : Fin cfg5.N) : (dat5 (U := U) V c).after 2 t = iblk5 V c 2 t := by dsimp only [dat5]
theorem after5_3 (c : Dev nD) (t : Fin cfg5.N) :
    (dat5 (U := U) V c).after 3 t = out5_3 (iblk5 V c 0 t) (iblk5 V c 1 t) (iblk5 V c 2 t) := by dsimp only [dat5]

/-- Each input's current staging buffer holds its block at every point. -/
theorem before5_0 (c : Dev nD) (t : Fin cfg5.N) (d) : (dat5 (U := U) V c).before 0 t d = iblk5 V c 0 t :=
  before5_0_of V (dat5 V c) (A_eq5 V c 0) (after5_0 V c) t d
theorem before5_1 (c : Dev nD) (t : Fin cfg5.N) (d) : (dat5 (U := U) V c).before 1 t d = iblk5 V c 1 t :=
  before5_1_of V (dat5 V c) (A_eq5 V c 1) (after5_1 V c) t d
theorem before5_2 (c : Dev nD) (t : Fin cfg5.N) (d) : (dat5 (U := U) V c).before 2 t d = iblk5 V c 2 t :=
  before5_2_of V (dat5 V c) (A_eq5 V c 2) (after5_2 V c) t d

/-! ## The body obligation, at a generic point -/

/-- What the body is called with at point `t`: the invariant, the core's dues, and the four current staging buffers
    (each input at its block; the output at whatever the pipeline left there). -/
def bodyPre5 (c : Dev nD) (t : Fin cfg5.N) : sProp 𝕄 :=
  iprop((dat5 (U := U) V c).Φ t.castSucc ∗ (dat5 (U := U) V c).owesAt () t.castSucc
    ∗ (∃ d, owns (c : Thread nD τ) (st5_0 t) fullShare ((dat5 (U := U) V c).before 0 t d))
    ∗ (∃ d, owns (c : Thread nD τ) (st5_1 t) fullShare ((dat5 (U := U) V c).before 1 t d))
    ∗ (∃ d, owns (c : Thread nD τ) (st5_2 t) fullShare ((dat5 (U := U) V c).before 2 t d))
    ∗ (∃ d, owns (c : Thread nD τ) (st5_3 t) fullShare ((dat5 (U := U) V c).before 3 t d)))

/-- What it returns. -/
def bodyPost5 (c : Dev nD) (t : Fin cfg5.N) : sProp 𝕄 :=
  iprop((dat5 (U := U) V c).Φ t.succ ∗ (dat5 (U := U) V c).owesAt () t.succ
    ∗ owns (c : Thread nD τ) (st5_0 t) fullShare ((dat5 (U := U) V c).after 0 t)
    ∗ owns (c : Thread nD τ) (st5_1 t) fullShare ((dat5 (U := U) V c).after 1 t)
    ∗ owns (c : Thread nD τ) (st5_2 t) fullShare ((dat5 (U := U) V c).after 2 t)
    ∗ owns (c : Thread nD τ) (st5_3 t) fullShare ((dat5 (U := U) V c).after 3 t))

/-- The body at any point: the inputs' memrefs hold their blocks, so `sound_kernel5` applies; the invariant and the
    core's dues pass through untouched; the output buffer's prior contents are not needed. -/
theorem sound_body5 (c : Dev nD) (t : Fin cfg5.N) :
    bodyPre5 (U := U) V c t ⊢ wp frame (wpE (defs₀ (F := F)) Variants.none c none) Set.univ (bodyAt5 t) (fun _ => bodyPost5 (U := U) V c t) := by
  unfold bodyPre5 bodyPost5 bodyAt5
  simp only [before5_0, before5_1, before5_2]
  rw [show (dat5 (U := U) V c).Φ t.succ = (dat5 (U := U) V c).Φ t.castSucc from rfl,
    show (dat5 (U := U) V c).owesAt () t.succ = (dat5 (U := U) V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) (U := U) V c) (defs₀ (F := F)) Variants.none () Set.univ := fun t => by
  rw [bigSep_W5, bigSep_W5]
  exact sound_body5 V c t

/-- info: 'Cert.Kernel.Hand.body_obligation5' depends on axioms: [propext, Classical.choice, Quot.sound] -/
#guard_msgs in #print axioms body_obligation5

end Cert.Kernel.Hand

end
-- ==== Proof.K.Seg5.lean ====
/-
  Region 5 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin5`: the fold of its five blocks'
  write-backs) and every other buffer as entered; `Wout5` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.K.Body5
import proofs.«175488_j3908420240157_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 5's at the entry valuation and the other seven as given. -/
abbrev fam5 (d0 : DatAt F U 0) (d1 : DatAt F U 1) (d2 : DatAt F U 2) (d3 : DatAt F U 3) (d4 : DatAt F U 4) (d6 : DatAt F U 6) (d7 : DatAt F U 7) : (p : Fin 8) → DatAt F U p :=
  pdatsOf d0 d1 d2 d3 d4 (fun c => dat5 (Vof Wpre) c) d6 d7

/-- The output window's array after the region, as the library computes it: the write-backs of the body's results
    folded over the grid. -/
def fin5 (c : Dev nD) : Buf (Elt F) ((c : Thread nD τ).loc main_v228) := (dat5 (U := U) (Vof Wpre) c).arrAt 3 cfg5.N

/-- The pipeline's arrays are four distinct buffers; the output's is the last. -/
theorem arrRef5_ne_out : ∀ w : Fin cfg5.W, w ≠ 3 → Pipeline.arrRef spec5 w ≠ main_v228 := by decide
/-- Every window but the last is an input. -/
theorem win5_in : ∀ w : Fin cfg5.W, w ≠ 3 → (cfg5.win w).isOut = false := by decide

-- `iapply` of a library lemma stated over the pinned configuration unifies with the printed one only when unification
-- may unfold plain definitions in a metavariable's type
set_option backward.isDefEq.respectTransparency.types false in
/-- REGION 5 over the thread state: entered from every unscoped buffer at `Wpre c` beside the rider, left at
    `Wpost c` beside the same rider, for any `Wpost` that has the output array at `fin5` and agrees with `Wpre` off it —
    stated over the family with the other seven pipelines' proof data arbitrary. -/
def seg5 (d0 : DatAt F U 0) (d1 : DatAt F U 1) (d2 : DatAt F U 2) (d3 : DatAt F U 3) (d4 : DatAt F U 4) (d6 : DatAt F U 6) (d7 : DatAt F U 7) (R : Dev nD → sProp 𝕄) (hout : ∀ c, Vof Wpost c main_v228 = fin5 (U := U) Wpre c)
    (hne : ∀ c (b : Ref sig .tc), b ≠ main_v228 → Vof Wpost c b = Vof Wpre c b) :
    Pipeline.RegionSeg (pcfgs (F := F)) adm (fam5 Wpre d0 d1 d2 d3 d4 d6 d7) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vof Wpre) c).loose
  hwaits := Pipeline.hwaits_of_owed_zero _ _ _ _ L lv 5 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec5 c (Vof Wpre c) ∗ R c)
  hentry c := by
    rw [Pipeline.ownSems0_none]
    have hsplit := Pipeline.arrays_of_unscopedBufs (p := 5) (pcfgs (F := F)) adm (fam5 Wpre d0 d1 d2 d3 d4 d6 d7) launch5.win launch5.arr_whole c
      ((fam5 Wpre d0 d1 d2 d3 d4 d6 d7 5 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam5 Wpre d0 d1 d2 d3 d4 d6 d7 5 c).Φ 0 = Φ5 c from rfl]
    iintro ⟨-, -, Hr⟩; iexact Hr
  hout c := by
    rw [Pipeline.ownSems0_none, show (fam5 Wpre d0 d1 d2 d3 d4 d6 d7 5 c).Φ (Fin.last _) = Φ5 c from rfl]
    iintro Hr
    isplitr; · iempintro
    isplitr; · iempintro
    iexact Hr
  hexit c := by
    have hjoin := Pipeline.unscopedBufs_of_arrays (p := 5) (pcfgs (F := F)) adm (Ix := Unit) (Name := ℕ) (U := U) (Lvl := ℕ)
      launch5.win launch5.arr_whole c (fam5 Wpre d0 d1 d2 d3 d4 d6 d7) ((fam5 Wpre d0 d1 d2 d3 d4 d6 d7 5 c).share_full fun _ => rfl)
      (Vof Wpre c) (Vof Wpost c) ((fam5 Wpre d0 d1 d2 d3 d4 d6 d7 5 c).arrAt · cfg5.N)
      (fun w => by
        by_cases hw : w = 3
        · subst hw; exact (hout c).symm
        · exact ((fam5 Wpre d0 d1 d2 d3 d4 d6 d7 5 c).arrAt_in w (win5_in w hw) _).trans (hne c _ (arrRef5_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.Kernel.Hand.seg5' depends on axioms: [propext, Classical.choice, Quot.sound] -/
#guard_msgs in #print axioms seg5

/-! ## The canonical exit valuation -/

/-- The entry valuation with pipeline 5's arrays at what its write-backs leave. -/
def Wout5 (c : Dev nD) : Valuation τ sig (Elt F) :=
  Pipeline.withArrays spec5 c (Wpre c) fun w => (dat5 (U := U) (Vof Wpre) c).arrAt w cfg5.N

/-- It has the output array at `fin5`, -/
theorem Wout5_out (c : Dev nD) : Vof (Wout5 (U := U) Wpre) c main_v228 = fin5 (U := U) Wpre c := by
  unfold Wout5 fin5; exact Pipeline.withArrays_arr spec5 launch5.win.arr_inj c _ _ 3
/-- and every other buffer as entered (an input window's array is written back as it was read). -/
theorem Wout5_ne (c : Dev nD) (b : Ref sig .tc) (hb : b ≠ main_v228) : Vof (Wout5 (U := U) Wpre) c b = Vof Wpre c b := by
  by_cases h : ∃ w, Pipeline.arrRef spec5 w = b
  · obtain ⟨w, rfl⟩ := h
    have hw : w ≠ 3 := fun e => hb (e ▸ rfl)
    unfold Wout5
    exact (Pipeline.withArrays_arr spec5 launch5.win.arr_inj c _ _ w).trans ((dat5 (U := U) (Vof Wpre) c).arrAt_in w (win5_in w hw) _)
  · unfold Wout5; exact Pipeline.withArrays_of_ne spec5 c _ _ b fun w e => h ⟨w, e⟩

end Cert.Kernel.Hand

end
-- ==== Proof.K.Body6.lean ====
/-
  Region 6 of the program (the tiled matmul kernel of custom_call 6, pipeline 6): what ONE point of its grid does.

  The kernel's body at a point loads the three input windows' staging buffers whole (a 2000-row block of x, the
  whole weight matrix, the bias row), loads the output window's staging buffer (a read whose value is never used),
  and stores ONE value over the whole output staging buffer: the payload `k6_pay1` of the three loaded values. So
  what the output's staging buffer holds after the body is the canonical contents of that one whole-buffer write,
  a function of the three input blocks alone.

  This module states that as the pipeline's proof data at an arbitrary entry valuation `V` of the core's buffers,
  proves the body's triple on any whole staging memrefs, and derives the library's body obligation. Everything is
  stated for any float model `F` and any user resource algebra `U`.
-/
import proofs.«175488_j3908420240157_2_alg».proof.Proof.Gen.Kernel.Launch
import proofs.«175488_j3908420240157_2_alg».proof.Proof.Gen.Kernel.Skeleton
import proofs.«175488_j3908420240157_2_alg».proof.Proof.Gen.Kernel.Points
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window `w`'s block at point `t`: its array as the region finds it, read through the block's view. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds the window's block at every point, fetched there or not (a window
    whose block index does not move is fetched once and then left in place): for any proof data whose array is `V`'s
    and whose body leaves the block where it was. Window 0, the block of x. -/
theorem before6_0_of {c : Dev nD} (dat : Dat τ (Elt F) Unit ℕ U ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Window 1, the weight matrix (one block, fetched at the first point only). -/
theorem before6_1_of {c : Dev nD} (dat : Dat τ (Elt F) Unit ℕ U ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Window 2, the bias row (one block, fetched at the first point only). -/
theorem before6_2_of {c : Dev nD} (dat : Dat τ (Elt F) Unit ℕ U ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every one is the whole staging buffer -/

abbrev rX6 : Rect S2000x256 := Rect.unit (s := S2000x256) ![0, 0] S2000x256.size inb_S2000x256_S2000x256_0_0
abbrev rW6 : Rect S256x256 := Rect.unit (s := S256x256) ![0, 0] S256x256.size inb_S256x256_S256x256_0_0
abbrev rB6 : Rect S1x256 := Rect.unit (s := S1x256) ![0, 0] S1x256.size inb_S1x256_S1x256_0_0
abbrev rO6 : Rect S2000x256 := Rect.unit (s := S2000x256) ![0, 0] S2000x256.size inb_S2000x256_S2000x256_0_0

/-! ## What the body leaves in the output window's buffer -/

/-- The output window's staging buffer after the body, from the three input blocks: the canonical contents of its
    one store, whose value is the payload of the three loads. -/
def out6_3 (x0 : Vec F S2000x256 .f32) (x1 : Vec F S256x256 .f32) (x2 : Vec F S1x256 .f32) : Vec F S2000x256 .f32 :=
  View.canon [⟨rO6, k6_pay1 (View.ld x0 rX6) (View.ld x1 rW6) (View.ld x2 rB6)⟩]

/-- The one store is of the whole buffer, so it covers it. -/
theorem cover6_3 (p0 : Vec F S2000x256 .f32) (y : S2000x256.Idx) :
    ∃ pc ∈ ([⟨rO6, p0⟩] : List (View.Piece (Elt F) S2000x256 .f32)), y ∈ pc.1.set :=
  View.cover_of_tiled [⟨rO6, p0⟩] S2000x256.size (by rfl) y

/-! ## The body's triple -/

set_option maxHeartbeats 1000000 in
/-- The kernel body on whole staging memrefs — the inputs' at read contents `x0 x1 x2`, the output's at anything —
    runs to its return with the inputs' as they were and the output's at `out6_3` of them. -/
theorem sound_kernel6 (c : Dev nD) (E : Set ℕ) (i : grid6.Coords)
    (arg1 : Memref sig .tc .vmem S2000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S2000x256 .f32) (harg4 : arg4.IsWhole)
    (x0 : Vec F S2000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__mm_kernel i arg1 harg1 arg2 harg2 arg3 harg3 arg4 harg4) K := by
  simp only [cc6__mm_kernel_eq_skeleton]; unfold cc6__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The invariant between the region's ends: the core's scoped buffers that no window of this pipeline stages (the
    other kernels' staging and scratch buffers), held at some contents — the body touches none of them. -/
abbrev Φ6 (c : Dev nD) : sProp 𝕄 := Pipeline.scopedRest (Ix := Unit) (Name := ℕ) (U := U) (Lvl := ℕ) (Val := Elt F) spec6 c

/-- The proof data of pipeline 6 on core `c`, from the entry valuation `V`: the four arrays as the region finds
    them; after the body at point `t` each input's buffer at its block and the output's at `out6_3` of the three input
    blocks at `t`; the invariant `Φ6`; nothing owed; full shares. -/
def dat6 (c : Dev nD) : Dat τ (Elt F) Unit ℕ U ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Φ6 c
  q _ := fullShare
  owed _ := 0

/-- The proof data's arrays are the entry contents. -/
theorem A_eq6 (c : Dev nD) (w : Fin cfg6.W) : (dat6 (U := U) V c).A w = V c (Pipeline.arrRef spec6 w) := by
  dsimp only [dat6]

/-- What the body leaves, window by window. -/
theorem after6_0 (c : Dev nD) (t : Fin cfg6.N) : (dat6 (U := U) V c).after 0 t = iblk6 V c 0 t := by dsimp only [dat6]
theorem after6_1 (c : Dev nD) (t : Fin cfg6.N) : (dat6 (U := U) V c).after 1 t = iblk6 V c 1 t := by dsimp only [dat6]
theorem after6_2 (c : Dev nD) (t : Fin cfg6.N) : (dat6 (U := U) V c).after 2 t = iblk6 V c 2 t := by dsimp only [dat6]
theorem after6_3 (c : Dev nD) (t : Fin cfg6.N) :
    (dat6 (U := U) V c).after 3 t = out6_3 (iblk6 V c 0 t) (iblk6 V c 1 t) (iblk6 V c 2 t) := by dsimp only [dat6]

/-- Each input's current staging buffer holds its block at every point. -/
theorem before6_0 (c : Dev nD) (t : Fin cfg6.N) (d) : (dat6 (U := U) V c).before 0 t d = iblk6 V c 0 t :=
  before6_0_of V (dat6 V c) (A_eq6 V c 0) (after6_0 V c) t d
theorem before6_1 (c : Dev nD) (t : Fin cfg6.N) (d) : (dat6 (U := U) V c).before 1 t d = iblk6 V c 1 t :=
  before6_1_of V (dat6 V c) (A_eq6 V c 1) (after6_1 V c) t d
theorem before6_2 (c : Dev nD) (t : Fin cfg6.N) (d) : (dat6 (U := U) V c).before 2 t d = iblk6 V c 2 t :=
  before6_2_of V (dat6 V c) (A_eq6 V c 2) (after6_2 V c) t d

/-! ## The body obligation, at a generic point -/

/-- What the body is called with at point `t`: the invariant, the core's dues, and the four current staging buffers
    (each input at its block; the output at whatever the pipeline left there). -/
def bodyPre6 (c : Dev nD) (t : Fin cfg6.N) : sProp 𝕄 :=
  iprop((dat6 (U := U) V c).Φ t.castSucc ∗ (dat6 (U := U) V c).owesAt () t.castSucc
    ∗ (∃ d, owns (c : Thread nD τ) (st6_0 t) fullShare ((dat6 (U := U) V c).before 0 t d))
    ∗ (∃ d, owns (c : Thread nD τ) (st6_1 t) fullShare ((dat6 (U := U) V c).before 1 t d))
    ∗ (∃ d, owns (c : Thread nD τ) (st6_2 t) fullShare ((dat6 (U := U) V c).before 2 t d))
    ∗ (∃ d, owns (c : Thread nD τ) (st6_3 t) fullShare ((dat6 (U := U) V c).before 3 t d)))

/-- What it returns. -/
def bodyPost6 (c : Dev nD) (t : Fin cfg6.N) : sProp 𝕄 :=
  iprop((dat6 (U := U) V c).Φ t.succ ∗ (dat6 (U := U) V c).owesAt () t.succ
    ∗ owns (c : Thread nD τ) (st6_0 t) fullShare ((dat6 (U := U) V c).after 0 t)
    ∗ owns (c : Thread nD τ) (st6_1 t) fullShare ((dat6 (U := U) V c).after 1 t)
    ∗ owns (c : Thread nD τ) (st6_2 t) fullShare ((dat6 (U := U) V c).after 2 t)
    ∗ owns (c : Thread nD τ) (st6_3 t) fullShare ((dat6 (U := U) V c).after 3 t))

/-- The body at any point: the inputs' memrefs hold their blocks, so `sound_kernel6` applies; the invariant and the
    core's dues pass through untouched; the output buffer's prior contents are not needed. -/
theorem sound_body6 (c : Dev nD) (t : Fin cfg6.N) :
    bodyPre6 (U := U) V c t ⊢ wp frame (wpE (defs₀ (F := F)) Variants.none c none) Set.univ (bodyAt6 t) (fun _ => bodyPost6 (U := U) V c t) := by
  unfold bodyPre6 bodyPost6 bodyAt6
  simp only [before6_0, before6_1, before6_2]
  rw [show (dat6 (U := U) V c).Φ t.succ = (dat6 (U := U) V c).Φ t.castSucc from rfl,
    show (dat6 (U := U) V c).owesAt () t.succ = (dat6 (U := U) V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) (U := U) V c) (defs₀ (F := F)) Variants.none () Set.univ := fun t => by
  rw [bigSep_W6, bigSep_W6]
  exact sound_body6 V c t

/-- info: 'Cert.Kernel.Hand.body_obligation6' depends on axioms: [propext, Classical.choice, Quot.sound] -/
#guard_msgs in #print axioms body_obligation6

end Cert.Kernel.Hand

end
-- ==== Proof.K.Seg6.lean ====
/-
  Region 6 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin6`: the fold of its five blocks'
  write-backs) and every other buffer as entered; `Wout6` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage; the kernel has no
  semaphore of its own and owes no one.
-/
import proofs.«175488_j3908420240157_2_alg».proof.Proof.K.Body6
import proofs.«175488_j3908420240157_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 6's at the entry valuation and the other seven as given. -/
abbrev fam6 (d0 : DatAt F U 0) (d1 : DatAt F U 1) (d2 : DatAt F U 2) (d3 : DatAt F U 3) (d4 : DatAt F U 4) (d5 : DatAt F U 5) (d7 : DatAt F U 7) : (p : Fin 8) → DatAt F U p :=
  pdatsOf d0 d1 d2 d3 d4 d5 (fun c => dat6 (Vof Wpre) c) d7

/-- The output window's array after the region, as the library computes it: the write-backs of the body's results
    folded over the grid. -/
def fin6 (c : Dev nD) : Buf (Elt F) ((c : Thread nD τ).loc main_v232) := (dat6 (U := U) (Vof Wpre) c).arrAt 3 cfg6.N

/-- The pipeline's arrays are four distinct buffers; the output's is the last. -/
theorem arrRef6_ne_out : ∀ w : Fin cfg6.W, w ≠ 3 → Pipeline.arrRef spec6 w ≠ main_v232 := by decide
/-- Every window but the last is an input. -/
theorem win6_in : ∀ w : Fin cfg6.W, w ≠ 3 → (cfg6.win w).isOut = false := by decide

-- `iapply` of a library lemma stated over the pinned configuration unifies with the printed one only when unification
-- may unfold plain definitions in a metavariable's type
set_option backward.isDefEq.respectTransparency.types false in
/-- REGION 6 over the thread state: entered from every unscoped buffer at `Wpre c` beside the rider, left at
    `Wpost c` beside the same rider, for any `Wpost` that has the output array at `fin6` and agrees with `Wpre` off it —
    stated over the family with the other seven pipelines' proof data arbitrary. -/
def seg6 (d0 : DatAt F U 0) (d1 : DatAt F U 1) (d2 : DatAt F U 2) (d3 : DatAt F U 3) (d4 : DatAt F U 4) (d5 : DatAt F U 5) (d7 : DatAt F U 7) (R : Dev nD → sProp 𝕄) (hout : ∀ c, Vof Wpost c main_v232 = fin6 (U := U) Wpre c)
    (hne : ∀ c (b : Ref sig .tc), b ≠ main_v232 → Vof Wpost c b = Vof Wpre c b) :
    Pipeline.RegionSeg (pcfgs (F := F)) adm (fam6 Wpre d0 d1 d2 d3 d4 d5 d7) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vof Wpre) c).loose
  hwaits := Pipeline.hwaits_of_owed_zero _ _ _ _ L lv 6 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec6 c (Vof Wpre c) ∗ R c)
  hentry c := by
    rw [Pipeline.ownSems0_none]
    have hsplit := Pipeline.arrays_of_unscopedBufs (p := 6) (pcfgs (F := F)) adm (fam6 Wpre d0 d1 d2 d3 d4 d5 d7) launch6.win launch6.arr_whole c
      ((fam6 Wpre d0 d1 d2 d3 d4 d5 d7 6 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam6 Wpre d0 d1 d2 d3 d4 d5 d7 6 c).Φ 0 = Φ6 c from rfl]
    iintro ⟨-, -, Hr⟩; iexact Hr
  hout c := by
    rw [Pipeline.ownSems0_none, show (fam6 Wpre d0 d1 d2 d3 d4 d5 d7 6 c).Φ (Fin.last _) = Φ6 c from rfl]
    iintro Hr
    isplitr; · iempintro
    isplitr; · iempintro
    iexact Hr
  hexit c := by
    have hjoin := Pipeline.unscopedBufs_of_arrays (p := 6) (pcfgs (F := F)) adm (Ix := Unit) (Name := ℕ) (U := U) (Lvl := ℕ)
      launch6.win launch6.arr_whole c (fam6 Wpre d0 d1 d2 d3 d4 d5 d7) ((fam6 Wpre d0 d1 d2 d3 d4 d5 d7 6 c).share_full fun _ => rfl)
      (Vof Wpre c) (Vof Wpost c) ((fam6 Wpre d0 d1 d2 d3 d4 d5 d7 6 c).arrAt · cfg6.N)
      (fun w => by
        by_cases hw : w = 3
        · subst hw; exact (hout c).symm
        · exact ((fam6 Wpre d0 d1 d2 d3 d4 d5 d7 6 c).arrAt_in w (win6_in w hw) _).trans (hne c _ (arrRef6_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.Kernel.Hand.seg6' depends on axioms: [propext, Classical.choice, Quot.sound] -/
#guard_msgs in #print axioms seg6

/-! ## The canonical exit valuation -/

/-- The entry valuation with pipeline 6's arrays at what its write-backs leave. -/
def Wout6 (c : Dev nD) : Valuation τ sig (Elt F) :=
  Pipeline.withArrays spec6 c (Wpre c) fun w => (dat6 (U := U) (Vof Wpre) c).arrAt w cfg6.N

/-- It has the output array at `fin6`, -/
theorem Wout6_out (c : Dev nD) : Vof (Wout6 (U := U) Wpre) c main_v232 = fin6 (U := U) Wpre c := by
  unfold Wout6 fin6; exact Pipeline.withArrays_arr spec6 launch6.win.arr_inj c _ _ 3
/-- and every other buffer as entered (an input window's array is written back as it was read). -/
theorem Wout6_ne (c : Dev nD) (b : Ref sig .tc) (hb : b ≠ main_v232) : Vof (Wout6 (U := U) Wpre) c b = Vof Wpre c b := by
  by_cases h : ∃ w, Pipeline.arrRef spec6 w = b
  · obtain ⟨w, rfl⟩ := h
    have hw : w ≠ 3 := fun e => hb (e ▸ rfl)
    unfold Wout6
    exact (Pipeline.withArrays_arr spec6 launch6.win.arr_inj c _ _ w).trans ((dat6 (U := U) (Vof Wpre) c).arrAt_in w (win6_in w hw) _)
  · unfold Wout6; exact Pipeline.withArrays_of_ne spec6 c _ _ b fun w e => h ⟨w, e⟩

end Cert.Kernel.Hand

end
-- ==== Proof.K.Point7.lean ====
/-
  Region 7 of the program (the row-sum kernel of custom_call 7, pipeline 7): what the statements about one point of its
  5 x 5 grid are made of.

  At the point (i, j) the kernel's body is handed a block of 2000 rows of q (at block index i), a block of 2000 rows
  of z and one of stu (both at block index j), the output window's staging buffer, and a scratch column of 2000
  entries. It clears the scratch when j = 0; forms the 2000 x 2000 block e = exp(q zᵀ) + exp(q stuᵀ) (each product in
  three bf16 passes: the payload k7_pay3); adds the row sums of e to the scratch (the payload k7_pay1); and, when
  j = 4, copies the scratch into the output window's staging buffer.

  This module holds the pieces the body's triples and the proof data are stated with: the windows' blocks read off an
  entry valuation \`V\` of the core's buffers, and that an input window's staging buffer holds its block at every point;
  what one point adds to the scratch (\`acc7\`); and the two conditions in closed form over the 25 points
  (j = 0 at the points ≡ 0 mod 5, j = 4 at the points ≡ 4 mod 5), with where the output window is idle. Everything is
  stated for any float model F and any user resource algebra U. (The body's accesses, every one of a whole buffer, are
  those of region 4: the two kernels have the same shapes, and the access lemmas are imported from there.)
-/
import proofs.«175488_j3908420240157_2_alg».proof.Proof.K.Point4
import proofs.«175488_j3908420240157_2_alg».proof.Proof.Gen.Kernel.Launch
import proofs.«175488_j3908420240157_2_alg».proof.Proof.Gen.Kernel.Skeleton
import proofs.«175488_j3908420240157_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The windows' blocks -/

/-- Window \`w\`'s block at point \`t\`: its array as the region finds it, read through the block's view. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds the window's block at every point, fetched there or not (a window
    whose block index does not move is left in place): for any proof data whose array is \`V\`'s and whose body leaves
    the block where it was. Window 0, the block of q (its index moves with the slow coordinate only). -/
theorem before7_0_of {c : Dev nD} (dat : Dat τ (Elt F) Unit ℕ U ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Window 1, the block of z (fetched at every point). -/
theorem before7_1_of {c : Dev nD} (dat : Dat τ (Elt F) Unit ℕ U ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Window 2, the block of stu (fetched at every point). -/
theorem before7_2_of {c : Dev nD} (dat : Dat τ (Elt F) Unit ℕ U ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## What a point adds to the scratch -/

/-- The scratch after a point, from the three input blocks and the column \`s\` the accumulation starts from: \`s\` plus
    the row sums of exp(q zᵀ) + exp(q stuᵀ). -/
def acc7 (x0 x1 x2 : Vec F S2000x256 .f32) (s : Vec F S2000x1 .f32) : Vec F S2000x1 .f32 :=
  k7_pay1 (k7_pay3 x0 x1 x2) s

/-! ## The body's two conditions -/

/-- The first conditional's condition (the scratch is cleared): the fast coordinate is 0. -/
abbrev cond7_1 (i : grid7.Coords) : Prop :=
  (Scalar.cmpi .ne (Scalar.extui (Scalar.cmpi .eq (BitVec.ofNat 32 (i 1).val) 0#32)) 0#32) = 1#1
/-- It holds at the points ≡ 0 (mod 5): decided over the grid. -/
theorem hcond7_1 : ∀ t : Fin cfg7.N, cond7_1 (grid7.coords t) ↔ t.val % 5 = 0 :=
  (by decide +kernel : ∀ t : Fin grid7.N, cond7_1 (grid7.coords t) ↔ t.val % 5 = 0)

/-- The second conditional's condition (the scratch is copied to the output window): the fast coordinate is 4. -/
abbrev cond7_2 (i : grid7.Coords) : Prop := k7_cond2 i = 1#1
/-- It holds at the points ≡ 4 (mod 5): decided over the grid. -/
theorem hcond7_2 : ∀ t : Fin cfg7.N, cond7_2 (grid7.coords t) ↔ t.val % 5 = 4 :=
  (by decide +kernel : ∀ t : Fin grid7.N, cond7_2 (grid7.coords t) ↔ t.val % 5 = 4)

/-- The output window is idle exactly where the second condition fails, -/
theorem idle7_3 : ∀ t : Fin cfg7.N, ¬cond7_2 (grid7.coords t) → cfg7.idle 3 (grid7.coords t) = true := by decide +kernel
/-- live where it holds, -/
theorem live7_3 : ∀ t : Fin cfg7.N, cond7_2 (grid7.coords t) → cfg7.idle 3 (grid7.coords t) = false := by decide +kernel
/-- and not written back where it fails. -/
theorem noFlush7_3 (t : Fin cfg7.N) (h : ¬cond7_2 (grid7.coords t)) : (cfg7.win 3).flush t = false :=
  Bool.eq_false_iff.mpr fun hf => h ((hcond7_2 t).mpr ((flush7_3 t).mp hf))

end Cert.Kernel.Hand

end
-- ==== Proof.K.Kernel7.lean ====
/-
  Region 7 of the program: the kernel body's triple, on any whole memrefs, in each of the three cases of its two
  conditionals.

  The body's first conditional (the fast grid coordinate j is 0) clears the scratch column; the second (j = 4) copies
  the scratch into the output window's staging buffer. On a 5 x 5 grid a point meets exactly one of three
  assignments: A (j = 0: cleared, not copied), B (0 < j < 4: neither), C (j = 4: not cleared, copied). In each case
  the body loads the three input blocks whole, forms the block e of exp(q zᵀ) + exp(q stuᵀ), and stores over the whole
  scratch the sum of the scratch as loaded and the row sums of e: \`acc7\` of the three blocks and of the column the
  accumulation starts from — zero in case A, what the scratch held in cases B and C. Every access is of a whole
  buffer, so a load reads the buffer's contents and a store leaves its payload.
-/
import proofs.«175488_j3908420240157_2_alg».proof.Proof.K.Point7
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

set_option maxHeartbeats 1000000 in
/-- CASE A (j = 0, the first point of a row of the grid): the scratch, whatever it held, is cleared and then receives the
    point's row sums; the output window's buffer is handed back as found. -/
theorem sound_kernel7_A (c : Dev nD) (E : Set ℕ) (i : grid7.Coords) (hc1 : cond7_1 i) (hc2 : ¬cond7_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (acc7 x0 x1 x2 k7_pay2)) -∗ K ⟨⟩))
      ⊢ wp frame (wpE (defs₀ (F := F)) Variants.none c none) E (cc7__negsim_kernel i arg2 harg2 arg3 harg3 arg4 harg4 arg5 harg5 arg6 harg6) K := by
  simp only [cc7__negsim_kernel_eq_skeleton]; unfold cc7__negsim_kernel_skel
  simp only [k7_part1_eq_skeleton]; unfold k7_part1_skel
  unfold owns
  iintro ⟨⟨%f0, %hf0, H0⟩, ⟨%f1, %hf1, H1⟩, ⟨%f2, %hf2, H2⟩, ⟨%fo, %hfo, HO⟩, ⟨%ds, %fs, -, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; exact hfo
    iexact HO
  iexists _; isplitr
  swap; · iexact HS
  ipureintro
  sl_unfold_run_names
  refine (read_store4 _ _ _ _).trans ?_
  show acc7 (View.ld (View.read (Elt F) arg2.view f0) rI4) (View.ld (View.read (Elt F) arg3.view f1) rI4) (View.ld (View.read (Elt F) arg4.view f2) rI4) (View.readCov arg6.view [⟨rS4, k7_pay2⟩] rS4.toLoadRect) = _
  rw [ldI4, ldI4, ldI4, readCov4]

set_option maxHeartbeats 1000000 in
/-- CASE B (0 < j < 4, a middle point of a row): the scratch receives the point's row sums on top of what the point before
    left; the output window's buffer is handed back as found. -/
theorem sound_kernel7_B (c : Dev nD) (E : Set ℕ) (i : grid7.Coords) (hc1 : ¬cond7_1 i) (hc2 : ¬cond7_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare xo ∗ owns (c : Thread nD τ) arg6 fullShare (acc7 x0 x1 x2 s)) -∗ K ⟨⟩))
      ⊢ wp frame (wpE (defs₀ (F := F)) Variants.none c none) E (cc7__negsim_kernel i arg2 harg2 arg3 harg3 arg4 harg4 arg5 harg5 arg6 harg6) K := by
  simp only [cc7__negsim_kernel_eq_skeleton]; unfold cc7__negsim_kernel_skel
  simp only [k7_part1_eq_skeleton]; unfold k7_part1_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  subst hfs
  isplitl [HO]
  · iexists fo; isplitr; · ipureintro; exact hfo
    iexact HO
  iexists _; isplitr
  swap; · iexact HS
  ipureintro
  sl_unfold_run_names
  refine (read_store4 _ _ _ _).trans ?_
  show acc7 (View.ld (View.read (Elt F) arg2.view f0) rI4) (View.ld (View.read (Elt F) arg3.view f1) rI4) (View.ld (View.read (Elt F) arg4.view f2) rI4) (View.ld (View.read (Elt F) arg6.view fs) rS4) = _
  rw [ldI4, ldI4, ldI4, ldS4]

set_option maxHeartbeats 1000000 in
/-- CASE C (j = 4, the last point of a row): the scratch receives the point's row sums on top of what the point before left,
    and its new contents are stored over the output window's buffer, whatever that held. -/
theorem sound_kernel7_C (c : Dev nD) (E : Set ℕ) (i : grid7.Coords) (hc1 : ¬cond7_1 i) (hc2 : cond7_2 i)
    (arg2 : Memref sig .tc .vmem S2000x256 .f32) (harg2 : arg2.IsWhole) (arg3 : Memref sig .tc .vmem S2000x256 .f32) (harg3 : arg3.IsWhole)
    (arg4 : Memref sig .tc .vmem S2000x256 .f32) (harg4 : arg4.IsWhole) (arg5 : Memref sig .tc .vmem S2000x1 .f32) (harg5 : arg5.IsWhole)
    (arg6 : Memref sig .tc .vmem S2000x1 .f32) (harg6 : arg6.IsWhole)
    (x0 x1 x2 : Vec F S2000x256 .f32) (xo s : Vec F S2000x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (acc7 x0 x1 x2 s) ∗ owns (c : Thread nD τ) arg6 fullShare (acc7 x0 x1 x2 s)) -∗ K ⟨⟩))
      ⊢ wp frame (wpE (defs₀ (F := F)) Variants.none c none) E (cc7__negsim_kernel i arg2 harg2 arg3 harg3 arg4 harg4 arg5 harg5 arg6 harg6) K := by
  simp only [cc7__negsim_kernel_eq_skeleton]; unfold cc7__negsim_kernel_skel
  simp only [k7_part1_eq_skeleton]; unfold k7_part1_skel
  unfold owns
  iintro ⟨⟨%f0, %hf0, H0⟩, ⟨%f1, %hf1, H1⟩, ⟨%f2, %hf2, H2⟩, ⟨%dd, %fo, -, HO⟩, ⟨%fs, %hfs, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  subst hfs
  isplitl [HO]
  · iexists _; isplitr
    swap; · iexact HO
    ipureintro
    sl_unfold_run_names
    refine (read_store4 _ _ _ _).trans ?_
    refine (readCov4 _ _).trans ?_
    show acc7 (View.ld (View.read (Elt F) arg2.view f0) rI4) (View.ld (View.read (Elt F) arg3.view f1) rI4) (View.ld (View.read (Elt F) arg4.view f2) rI4) (View.ld (View.read (Elt F) arg6.view fs) rS4) = _
    rw [ldI4, ldI4, ldI4, ldS4]
  iexists _; isplitr
  swap; · iexact HS
  ipureintro
  sl_unfold_run_names
  refine (read_store4 _ _ _ _).trans ?_
  show acc7 (View.ld (View.read (Elt F) arg2.view f0) rI4) (View.ld (View.read (Elt F) arg3.view f1) rI4) (View.ld (View.read (Elt F) arg4.view f2) rI4) (View.ld (View.read (Elt F) arg6.view fs) rS4) = _
  rw [ldI4, ldI4, ldI4, ldS4]

/-- info: 'Cert.Kernel.Hand.sound_kernel7_C' depends on axioms: [propext, Classical.choice, Quot.sound] -/
#guard_msgs in #print axioms sound_kernel7_C

end Cert.Kernel.Hand

end
-- ==== Proof.K.Body7.lean ====
/-
  Region 7 of the program (the row-sum kernel of custom_call 7, pipeline 7): the pipeline's proof data and the body
  obligation.

  At the point (i, j) of the 5 x 5 grid the kernel's body is handed a block of 2000 rows of q (at block index i), a
  block of 2000 rows of z and one of stu (both at block index j), the output window's staging buffer, and a scratch
  column of 2000 entries that no window stages: a buffer of the kernel's own that keeps its contents from one point to
  the next. It clears the scratch when j = 0, adds to it the row sums of the 2000 x 2000 block exp(q zᵀ) + exp(q stuᵀ),
  and when j = 4 copies it into the output window's staging buffer, which the pipeline then writes back as block i.

  So the scratch after the point number t (t = 5 i + j) is a recursion over the points of one row of the grid: \`S7 t\`
  is the point's row sums added to zero when j = 0, and to \`S7 (t - 1)\` otherwise; at j = 4 it is the sum over the whole
  row of blocks. The output window's staging buffer is stored at the points with j = 4 only, where it receives \`S7 t\`;
  at the other points the body leaves it as it found it, and the pipeline does not write it back there.

  This module states that as the pipeline's proof data at an arbitrary entry valuation \`V\` of the core's buffers — the
  recursion, and the invariant between points: the scratch at exactly \`S7\` of the point before, beside the scoped
  buffers the region does not touch — and derives the library's body obligation from the body's triple in each of the
  three cases of its two conditionals. Everything is stated for any float model \`F\` and any user resource algebra \`U\`.
-/
import proofs.«175488_j3908420240157_2_alg».proof.Proof.K.Point7
import proofs.«175488_j3908420240157_2_alg».proof.Proof.K.Kernel7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's buffer contents when the region is entered: every statement below is at this parameter
variable (V : (c : Dev nD) → (b : Ref sig .tc) → Buf (Elt F) ((c : Thread nD τ).loc b))

/-! ## The accumulation -/

/-- THE ACCUMULATION. What the scratch column holds after the body at the point number \`n\`: the row sums of that
    point's block of exp(q zᵀ) + exp(q stuᵀ), added to zero at the first point of a row of the grid (j = 0) and to what
    the point before left otherwise — so at the last point of a row (j = 4) the row sums over the whole row. -/
def S7 (c : Dev nD) : (n : ℕ) → n < cfg7.N → Vec F S2000x1 .f32
  | 0, h => acc7 (iblk7 V c 0 ⟨0, h⟩) (iblk7 V c 1 ⟨0, h⟩) (iblk7 V c 2 ⟨0, h⟩) k7_pay2
  | n + 1, h =>
    if (n + 1) % 5 = 0 then acc7 (iblk7 V c 0 ⟨n + 1, h⟩) (iblk7 V c 1 ⟨n + 1, h⟩) (iblk7 V c 2 ⟨n + 1, h⟩) k7_pay2
    else acc7 (iblk7 V c 0 ⟨n + 1, h⟩) (iblk7 V c 1 ⟨n + 1, h⟩) (iblk7 V c 2 ⟨n + 1, h⟩) (S7 c n (Nat.lt_of_succ_lt h))

/-- At the first point of a row the accumulation starts from zero. -/
theorem S7_reset (c : Dev nD) (t : Fin cfg7.N) (h0 : t.val % 5 = 0) :
    S7 V c t.val t.isLt = acc7 (iblk7 V c 0 t) (iblk7 V c 1 t) (iblk7 V c 2 t) k7_pay2 := by
  obtain ⟨n, hn⟩ := t
  cases n with
  | zero => rfl
  | succ n => exact if_pos h0

/-- At a later point of a row it continues from what the point before left. -/
theorem S7_step (c : Dev nD) (t : Fin cfg7.N) (h0 : ¬t.val % 5 = 0) :
    S7 V c t.val t.isLt = acc7 (iblk7 V c 0 t) (iblk7 V c 1 t) (iblk7 V c 2 t)
      (S7 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The scratch operand: a whole scoped buffer of the kernel's own, passed beside the windows. -/
abbrev scM7 : Memref sig .tc .vmem S2000x1 .f32 := Memref.whole cc7_scratch0

/-- The scoped buffers of the core that are neither staged by this pipeline nor its scratch, each at some contents:
    the body touches none of them. -/
abbrev rest7 (c : Dev nD) : sProp 𝕄 :=
  Pipeline.scopedRestBut (Ix := Unit) (Name := ℕ) (U := U) (Lvl := ℕ) (Val := Elt F) spec7 c [cc7_scratch0]

/-- The invariant before the point number \`n\`: before the first point every scoped buffer no window stages at some
    contents (what the region is entered with: the scratch holds anything); afterwards the scratch at exactly what the
    point before left in it, beside the others. -/
def Φ7 (c : Dev nD) : (n : ℕ) → n ≤ cfg7.N → sProp 𝕄
  | 0, _ => Pipeline.scopedRest (Ix := Unit) (Name := ℕ) (U := U) (Lvl := ℕ) (Val := Elt F) spec7 c
  | n + 1, h => iprop(owns (c : Thread nD τ) scM7 fullShare (S7 V c n h) ∗ rest7 (U := U) c)

/-- The scoped rest with the scratch split out, owned at some contents. -/
theorem scopedRest7_eq (c : Dev nD) :
    (Pipeline.scopedRest (Ix := Unit) (Name := ℕ) (U := U) (Lvl := ℕ) (Val := Elt F) spec7 c : sProp 𝕄)
      = iprop((∃ d, owns (c : Thread nD τ) scM7 fullShare d) ∗ rest7 (U := U) c) := by
  rw [scopedRest7_split]; simp only [scM7, owns_whole]; try rfl

theorem Φ7_zero (c : Dev nD) (n : ℕ) (h : n ≤ cfg7.N) (hz : n = 0) :
    Φ7 (U := U) V c n h = iprop((∃ d, owns (c : Thread nD τ) scM7 fullShare d) ∗ rest7 (U := U) c) := by
  subst hz; exact scopedRest7_eq c

theorem Φ7_succ (c : Dev nD) (n : ℕ) (hn : n < cfg7.N) :
    Φ7 (U := U) V c (n + 1) hn = iprop(owns (c : Thread nD τ) scM7 fullShare (S7 V c n hn) ∗ rest7 (U := U) c) := rfl

theorem Φ7_pos (c : Dev nD) (n : ℕ) (h : n ≤ cfg7.N) (hz : n ≠ 0) :
    Φ7 (U := U) V c n h = iprop(owns (c : Thread nD τ) scM7 fullShare (S7 V c (n - 1) (by omega)) ∗ rest7 (U := U) c) := by
  cases n with
  | zero => exact absurd rfl hz
  | succ n => rfl

/-! ## The pipeline's proof data -/

/-- The proof data of pipeline 7 on core \`c\`, from the entry valuation \`V\`: the four arrays as the region finds them;
    after the body at point \`t\` each input's buffer at its block and the output's at the accumulation \`S7\` (consulted
    only at the points with j = 4, where the body stores it there: at the others the window is idle); the invariant
    \`Φ7\`; nothing owed; full shares. -/
def dat7 (c : Dev nD) : Dat τ (Elt F) Unit ℕ U ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => S7 V c t.val t.isLt
  Φ k := Φ7 V c k.val (Nat.le_of_lt_succ k.isLt)
  q _ := fullShare
  owed _ := 0

/-- The proof data's arrays are the entry contents. -/
theorem A_eq7 (c : Dev nD) (w : Fin cfg7.W) : (dat7 (U := U) V c).A w = V c (Pipeline.arrRef spec7 w) := by
  dsimp only [dat7]

/-- What the body leaves, window by window. -/
theorem after7_0 (c : Dev nD) (t : Fin cfg7.N) : (dat7 (U := U) V c).after 0 t = iblk7 V c 0 t := by dsimp only [dat7]
theorem after7_1 (c : Dev nD) (t : Fin cfg7.N) : (dat7 (U := U) V c).after 1 t = iblk7 V c 1 t := by dsimp only [dat7]
theorem after7_2 (c : Dev nD) (t : Fin cfg7.N) : (dat7 (U := U) V c).after 2 t = iblk7 V c 2 t := by dsimp only [dat7]
theorem after7_3 (c : Dev nD) (t : Fin cfg7.N) : (dat7 (U := U) V c).after 3 t = S7 V c t.val t.isLt := by dsimp only [dat7]

/-- Each input's current staging buffer holds its block at every point. -/
theorem before7_0 (c : Dev nD) (t : Fin cfg7.N) (d) : (dat7 (U := U) V c).before 0 t d = iblk7 V c 0 t :=
  before7_0_of V (dat7 V c) (A_eq7 V c 0) (after7_0 V c) t d
theorem before7_1 (c : Dev nD) (t : Fin cfg7.N) (d) : (dat7 (U := U) V c).before 1 t d = iblk7 V c 1 t :=
  before7_1_of V (dat7 V c) (A_eq7 V c 1) (after7_1 V c) t d
theorem before7_2 (c : Dev nD) (t : Fin cfg7.N) (d) : (dat7 (U := U) V c).before 2 t d = iblk7 V c 2 t :=
  before7_2_of V (dat7 V c) (A_eq7 V c 2) (after7_2 V c) t d

/-- The invariant at a point's start, restated at the point's number. -/
theorem Φ7_castSucc (c : Dev nD) (t : Fin cfg7.N) :
    (dat7 (U := U) V c).Φ t.castSucc = Φ7 V c t.val (Nat.le_of_lt t.isLt) := by
  dsimp only [dat7]; simp only [Fin.coe_castSucc]

/-! ## The body obligation, at a generic point -/

/-- What the body is called with at point \`t\`: the invariant, the core's dues, and the four current staging buffers
    (each input at its block; the output at whatever the points before left there). -/
def bodyPre7 (c : Dev nD) (t : Fin cfg7.N) : sProp 𝕄 :=
  iprop((dat7 (U := U) V c).Φ t.castSucc ∗ (dat7 (U := U) V c).owesAt () t.castSucc
    ∗ (∃ d, owns (c : Thread nD τ) (st7_0 t) fullShare ((dat7 (U := U) V c).before 0 t d))
    ∗ (∃ d, owns (c : Thread nD τ) (st7_1 t) fullShare ((dat7 (U := U) V c).before 1 t d))
    ∗ (∃ d, owns (c : Thread nD τ) (st7_2 t) fullShare ((dat7 (U := U) V c).before 2 t d))
    ∗ (∃ d, owns (c : Thread nD τ) (st7_3 t) fullShare ((dat7 (U := U) V c).before 3 t d)))

/-- What it returns: the output window's buffer at the accumulation where the body stored it (j = 4), and as found
    where the window is idle. -/
def bodyPost7 (c : Dev nD) (t : Fin cfg7.N) : sProp 𝕄 :=
  iprop((dat7 (U := U) V c).Φ t.succ ∗ (dat7 (U := U) V c).owesAt () t.succ
    ∗ (dat7 (U := U) V c).leavesExact 0 t
    ∗ (dat7 (U := U) V c).leavesExact 1 t
    ∗ (dat7 (U := U) V c).leavesExact 2 t
    ∗ (dat7 (U := U) V c).leavesExact 3 t)

/-- An input window is never idle: the body leaves its buffer at the block. -/
theorem leaves7_0 (c : Dev nD) (t : Fin cfg7.N) :
    (dat7 (U := U) V c).leavesExact 0 t = owns (c : Thread nD τ) (st7_0 t) fullShare (iblk7 V c 0 t) := by
  rw [← after7_0 (U := U) V c t]
theorem leaves7_1 (c : Dev nD) (t : Fin cfg7.N) :
    (dat7 (U := U) V c).leavesExact 1 t = owns (c : Thread nD τ) (st7_1 t) fullShare (iblk7 V c 1 t) := by
  rw [← after7_1 (U := U) V c t]
theorem leaves7_2 (c : Dev nD) (t : Fin cfg7.N) :
    (dat7 (U := U) V c).leavesExact 2 t = owns (c : Thread nD τ) (st7_2 t) fullShare (iblk7 V c 2 t) := by
  rw [← after7_2 (U := U) V c t]

/-- Where the second condition holds the output window is live: its buffer is left at the accumulation. -/
theorem leaves7_3_live (c : Dev nD) (t : Fin cfg7.N) (h : cond7_2 (grid7.coords t)) :
    (dat7 (U := U) V c).leavesExact 3 t = owns (c : Thread nD τ) (st7_3 t) fullShare (S7 V c t.val t.isLt) := by
  unfold Dat.leavesExact; rw [live7_3 t h, after7_3]

set_option maxHeartbeats 1600000 in
/-- The body at any point, by the case its number selects: the inputs' memrefs hold their blocks; the invariant hands
    the body the scratch at what the point before left (at anything at the first point) and takes it back at this
    point's accumulation; the other scoped buffers and the core's dues pass through untouched. -/
theorem sound_body7 (c : Dev nD) (t : Fin cfg7.N) :
    bodyPre7 (U := U) V c t ⊢ wp frame (wpE (defs₀ (F := F)) Variants.none c none) Set.univ (bodyAt7 t) (fun _ => bodyPost7 (U := U) V c t) := by
  unfold bodyPre7 bodyPost7 bodyAt7
  simp only [before7_0, before7_1, before7_2]
  rw [show (dat7 (U := U) V c).owesAt () t.succ = (dat7 (U := U) V c).owesAt () t.castSucc from rfl,
    show (dat7 (U := U) V c).Φ t.succ = Φ7 V c (t.val + 1) t.isLt from rfl, Φ7_succ, Φ7_castSucc,
    leaves7_0, leaves7_1, leaves7_2]
  have hN : t.val < 25 := lt_of_lt_of_eq t.isLt (show cfg7.N = 25 from N_7)
  by_cases h0 : t.val % 5 = 0
  · -- the first point of a row
    have h4 : ¬t.val % 5 = 4 := by omega
    have hc1 : cond7_1 (grid7.coords t) := (hcond7_1 t).mpr h0
    have hc2 : ¬cond7_2 (grid7.coords t) := fun h => h4 ((hcond7_2 t).mp h)
    rw [Dat.leavesExact_idle (dat7 (U := U) V c) 3 t (idle7_3 t hc2) (noFlush7_3 t hc2), S7_reset V c t h0]
    by_cases hz : t.val = 0
    · rw [Φ7_zero V c _ _ hz]
      iintro ⟨⟨HS, Hr⟩, Ho, ⟨%d0, H0⟩, ⟨%d1, H1⟩, ⟨%d2, H2⟩, ⟨%d3, H3⟩⟩
      iapply (sound_kernel7_A c Set.univ (grid7.coords t) hc1 hc2 _ _ _ _ _ _ _ _ _ _ (iblk7 V c 0 t) (iblk7 V c 1 t) (iblk7 V c 2 t)
        ((dat7 (U := U) V c).before 3 t d3) k7_pay2 _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3
    · rw [Φ7_pos V c _ _ hz]
      iintro ⟨⟨HS, Hr⟩, Ho, ⟨%d0, H0⟩, ⟨%d1, H1⟩, ⟨%d2, H2⟩, ⟨%d3, H3⟩⟩
      iapply (sound_kernel7_A c Set.univ (grid7.coords t) hc1 hc2 _ _ _ _ _ _ _ _ _ _ (iblk7 V c 0 t) (iblk7 V c 1 t) (iblk7 V c 2 t)
        ((dat7 (U := U) V c).before 3 t d3) k7_pay2 _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3
  · have hz : t.val ≠ 0 := fun e => h0 (by rw [e])
    have hc1 : ¬cond7_1 (grid7.coords t) := fun h => h0 ((hcond7_1 t).mp h)
    rw [Φ7_pos V c _ _ hz, S7_step V c t h0]
    by_cases h4 : t.val % 5 = 4
    · -- the last point of a row
      have hc2 : cond7_2 (grid7.coords t) := (hcond7_2 t).mpr h4
      rw [leaves7_3_live V c t hc2, S7_step V c t h0]
      iintro ⟨⟨HS, Hr⟩, Ho, ⟨%d0, H0⟩, ⟨%d1, H1⟩, ⟨%d2, H2⟩, ⟨%d3, H3⟩⟩
      iapply (sound_kernel7_C c Set.univ (grid7.coords t) hc1 hc2 _ _ _ _ _ _ _ _ _ _ (iblk7 V c 0 t) (iblk7 V c 1 t) (iblk7 V c 2 t)
        k7_pay2 (S7 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexact H3
    · -- a middle point of a row
      have hc2 : ¬cond7_2 (grid7.coords t) := fun h => h4 ((hcond7_2 t).mp h)
      rw [Dat.leavesExact_idle (dat7 (U := U) V c) 3 t (idle7_3 t hc2) (noFlush7_3 t hc2)]
      iintro ⟨⟨HS, Hr⟩, Ho, ⟨%d0, H0⟩, ⟨%d1, H1⟩, ⟨%d2, H2⟩, ⟨%d3, H3⟩⟩
      iapply (sound_kernel7_B c Set.univ (grid7.coords t) hc1 hc2 _ _ _ _ _ _ _ _ _ _ (iblk7 V c 0 t) (iblk7 V c 1 t) (iblk7 V c 2 t)
        ((dat7 (U := U) V c).before 3 t d3) (S7 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr]; · isplitl [HS] <;> iassumption
      isplitl [Ho]; · iexact Ho
      isplitl [H0]; · iexact H0
      isplitl [H1]; · iexact H1
      isplitl [H2]; · iexact H2
      iexists d3; iexact H3

/-- The library's body obligation, at every point. -/
theorem body_obligation7 (c : Dev nD) : BodyObligation (dat7 (F := F) (U := U) V c) (defs₀ (F := F)) Variants.none () Set.univ := fun t => by
  rw [bigSep_W7, bigSep_W7]
  exact sound_body7 V c t

/-- info: 'Cert.Kernel.Hand.body_obligation7' depends on axioms: [propext, Classical.choice, Quot.sound] -/
#guard_msgs in #print axioms body_obligation7

/-! ## The region's ends -/

/-- What the region is entered with — every scoped buffer no window stages, at some contents — is the invariant before
    the first point. -/
theorem hin7 (c : Dev nD) :
    (Pipeline.scopedRest (Ix := Unit) (Name := ℕ) (U := U) (Lvl := ℕ) (Val := Elt F) spec7 c : sProp 𝕄) ⊢ (dat7 (U := U) V c).Φ 0 :=
  Idealize.SL.BI.Entails.refl _

/-- After the last point the invariant gives them back: the scratch's named contents are forgotten. -/
theorem hout7 (c : Dev nD) :
    (dat7 (U := U) V c).Φ (Fin.last cfg7.N) ⊢ (Pipeline.scopedRest (Ix := Unit) (Name := ℕ) (U := U) (Lvl := ℕ) (Val := Elt F) spec7 c : sProp 𝕄) := by
  rw [show (dat7 (U := U) V c).Φ (Fin.last cfg7.N) = Φ7 V c (Fin.last cfg7.N).val (Nat.le_of_lt_succ (Fin.last cfg7.N).isLt) from rfl,
    Φ7_pos V c _ _ (by rw [Fin.val_last]; have : cfg7.N = 25 := N_7; omega), scopedRest7_eq]
  iintro ⟨HS, Hr⟩
  isplitl [HS]
  · iexists _; iexact HS
  iexact Hr

end Cert.Kernel.Hand

end
-- ==== Proof.K.Seg7.lean ====
/-
  Region 7 of the program as one SEGMENT of @main: the record the several-regions launch theorems consume.

  The thread state the segment is stated over is "every unscoped buffer of the core held whole at a valuation,
  beside a rider": the region is entered from ANY valuation `Wpre c` and left at any valuation `Wpost c` that has
  the output window's array at what the pipeline's write-backs leave (`fin7`: the fold of its five write-backs, one
  per row of the grid, at the row's last point) and every other buffer as entered; `Wout7` is the canonical such valuation. The rider is whatever
  the certificate carries past the region untouched (`R c`) and the core's dues, at nothing. The pipeline's four
  arrays are split out of the unscoped buffers at entry and put back at exit; the other unscoped buffers bypass the
  region whole; the invariant takes nothing but the scoped buffers the pipeline does not stage — among them the kernel's scratch
  accumulator, which the invariant names between points: it is one of them at some contents when the region is
  entered, and is put back among them, its contents forgotten, when the region is left; the kernel has no
  semaphore of its own and owes no one.
-/
import proofs.«175488_j3908420240157_2_alg».proof.Proof.K.Body7
import proofs.«175488_j3908420240157_2_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {U : Type} [URA U]

local notation "𝕄" => MT nD τ sig Unit (Elt F) ℕ U ℕ

-- the core's unscoped buffers when the region is entered, and when it is left
variable (Wpre Wpost : Dev nD → Valuation τ sig (Elt F))

/-- The family of every pipeline's proof data with pipeline 7's at the entry valuation and the other seven as given. -/
abbrev fam7 (d0 : DatAt F U 0) (d1 : DatAt F U 1) (d2 : DatAt F U 2) (d3 : DatAt F U 3) (d4 : DatAt F U 4) (d5 : DatAt F U 5) (d6 : DatAt F U 6) : (p : Fin 8) → DatAt F U p :=
  pdatsOf d0 d1 d2 d3 d4 d5 d6 (fun c => dat7 (Vof Wpre) c)

/-- The output window's array after the region, as the library computes it: the write-backs of the body's results
    folded over the grid. -/
def fin7 (c : Dev nD) : Buf (Elt F) ((c : Thread nD τ).loc main_v295) := (dat7 (U := U) (Vof Wpre) c).arrAt 3 cfg7.N

/-- The pipeline's arrays are four distinct buffers; the output's is the last. -/
theorem arrRef7_ne_out : ∀ w : Fin cfg7.W, w ≠ 3 → Pipeline.arrRef spec7 w ≠ main_v295 := by decide
/-- Every window but the last is an input. -/
theorem win7_in : ∀ w : Fin cfg7.W, w ≠ 3 → (cfg7.win w).isOut = false := by decide

-- `iapply` of a library lemma stated over the pinned configuration unifies with the printed one only when unification
-- may unfold plain definitions in a metavariable's type
set_option backward.isDefEq.respectTransparency.types false in
/-- REGION 7 over the thread state: entered from every unscoped buffer at `Wpre c` beside the rider, left at
    `Wpost c` beside the same rider, for any `Wpost` that has the output array at `fin7` and agrees with `Wpre` off it —
    stated over the family with the other seven pipelines' proof data arbitrary. -/
def seg7 (d0 : DatAt F U 0) (d1 : DatAt F U 1) (d2 : DatAt F U 2) (d3 : DatAt F U 3) (d4 : DatAt F U 4) (d5 : DatAt F U 5) (d6 : DatAt F U 6) (R : Dev nD → sProp 𝕄) (hout : ∀ c, Vof Wpost c main_v295 = fin7 (U := U) Wpre c)
    (hne : ∀ c (b : Ref sig .tc), b ≠ main_v295 → Vof Wpost c b = Vof Wpre c b) :
    Pipeline.RegionSeg (pcfgs (F := F)) adm (fam7 Wpre d0 d1 d2 d3 d4 d5 d6) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vof Wpre) c).loose
  hwaits := Pipeline.hwaits_of_owed_zero _ _ _ _ L lv 7 fun _ _ => rfl
  pre c := iprop(StableHlo.held (c : Thread nD τ) (Pipeline.ucRefs τ sig) (Wpre c) ∗ rider R c)
  post c := iprop(StableHlo.held (c : Thread nD τ) (Pipeline.ucRefs τ sig) (Wpost c) ∗ rider R c)
  X _ := BI.emp
  Y _ := BI.emp
  Z c := iprop(Pipeline.unscopedRest (Ix := Unit) (Name := ℕ) (U := U) (Lvl := ℕ) spec7 c (Vof Wpre c) ∗ R c)
  hentry c := by
    rw [Pipeline.ownSems0_none]
    have hsplit := Pipeline.arrays_of_unscopedBufs (p := 7) (pcfgs (F := F)) adm (fam7 Wpre d0 d1 d2 d3 d4 d5 d6) launch7.win launch7.arr_whole c
      ((fam7 Wpre d0 d1 d2 d3 d4 d5 d6 7 c).share_full fun _ => rfl) (Vof Wpre c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wo, HO⟩; iexists Wo; isplitr; · ipureintro; exact fun _ _ => Or.inl trivial
      iexact HO
    isplitr; · iempintro
    isplitl [Hrest] <;> iassumption
  hin c := by
    rw [show (fam7 Wpre d0 d1 d2 d3 d4 d5 d6 7 c).Φ 0 = (dat7 (U := U) (Vof Wpre) c).Φ 0 from rfl]
    iintro ⟨-, -, Hr⟩
    iapply (hin7 (U := U) (Vof Wpre) c); iexact Hr
  hout c := by
    rw [Pipeline.ownSems0_none,
      show (fam7 Wpre d0 d1 d2 d3 d4 d5 d6 7 c).Φ (Fin.last _) = (dat7 (U := U) (Vof Wpre) c).Φ (Fin.last cfg7.N) from rfl]
    iintro HΦ
    ihave Hr := (hout7 (U := U) (Vof Wpre) c) $$ HΦ
    isplitr; · iempintro
    isplitr; · iempintro
    iexact Hr
  hexit c := by
    have hjoin := Pipeline.unscopedBufs_of_arrays (p := 7) (pcfgs (F := F)) adm (Ix := Unit) (Name := ℕ) (U := U) (Lvl := ℕ)
      launch7.win launch7.arr_whole c (fam7 Wpre d0 d1 d2 d3 d4 d5 d6) ((fam7 Wpre d0 d1 d2 d3 d4 d5 d6 7 c).share_full fun _ => rfl)
      (Vof Wpre c) (Vof Wpost c) ((fam7 Wpre d0 d1 d2 d3 d4 d5 d6 7 c).arrAt · cfg7.N)
      (fun w => by
        by_cases hw : w = 3
        · subst hw; exact (hout c).symm
        · exact ((fam7 Wpre d0 d1 d2 d3 d4 d5 d6 7 c).arrAt_in w (win7_in w hw) _).trans (hne c _ (arrRef7_ne_out w hw)).symm)
      (fun b hb => hne c b fun h => hb (h ▸ Finset.mem_image.mpr ⟨3, Finset.mem_univ _, rfl⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%Wo, -, HO⟩; iexists Wo; iexact HO

/-- info: 'Cert.Kernel.Hand.seg7' depends on axioms: [propext, Classical.choice, Quot.sound] -/
#guard_msgs in #print axioms seg7

/-! ## The canonical exit valuation -/

/-- The entry valuation with pipeline 7's arrays at what its write-backs leave. -/
def Wout7 (c : Dev nD) : Valuation τ sig (Elt F) :=
  Pipeline.withArrays spec7 c (Wpre c) fun w => (dat7 (U := U) (Vof Wpre) c).arrAt w cfg7.N

/-- It has the output array at `fin7`, -/
theorem Wout7_out (c : Dev nD) : Vof (Wout7 (U := U) Wpre) c main_v295 = fin7 (U := U) Wpre c := by
  unfold Wout7 fin7; exact Pipeline.withArrays_arr spec7 launch7.win.arr_inj c _ _ 3
/-- and every other buffer as entered (an input window's array is written back as it was read). -/
theorem Wout7_ne (c : Dev nD) (b : Ref sig .tc) (hb : b ≠ main_v295) : Vof (Wout7 (U := U) Wpre) c b = Vof Wpre c b := by
  by_cases h : ∃ w, Pipeline.arrRef spec7 w = b
  · obtain ⟨w, rfl⟩ := h
    have hw : w ≠ 3 := fun e => hb (e ▸ rfl)
    unfold Wout7
    exact (Pipeline.withArrays_arr spec7 launch7.win.arr_inj c _ _ w).trans ((dat7 (U := U) (Vof Wpre) c).arrAt_in w (win7_in w hw) _)
  · unfold Wout7; exact Pipeline.withArrays_of_ne spec7 c _ _ b fun w e => h ⟨w, e⟩

end Cert.Kernel.Hand

end
-- ==== Proof.K.Frame.lean ====
/-
  The frame of the kernel as printed. @main is twenty-four stretches of host operations around eight kernel regions. Each
  region's record says: entered with every unscoped buffer at a valuation, it ends with the same valuation except that the
  array its output window writes back holds the fold of its blocks' write-backs. Threading the records through the chain of
  valuations, from the launch memory: the first region is entered at the fold of the first stretch over the launch memory,
  each later one at the fold of the stretches since the region before it, over that region's exit valuation. The launch
  gives every core its buffers at the launch memory and its dues at nothing, and nothing else is needed: no kernel here has
  a semaphore of its own or owes another core anything. So every execution runs to the end, and since no stretch and no
  region writes an argument of @main, each argument array ends as launched.
-/
import proofs.«175488_j3908420240157_2_alg».proof.Defs
import proofs.«175488_j3908420240157_2_alg».proof.Proof.Gen.Pre_finite_inputs
import proofs.«175488_j3908420240157_2_alg».proof.Proof.K.RunCond
import proofs.«175488_j3908420240157_2_alg».proof.Proof.K.Seg0
import proofs.«175488_j3908420240157_2_alg».proof.Proof.K.Seg1
import proofs.«175488_j3908420240157_2_alg».proof.Proof.K.Seg2
import proofs.«175488_j3908420240157_2_alg».proof.Proof.K.Seg3
import proofs.«175488_j3908420240157_2_alg».proof.Proof.K.Seg4
import proofs.«175488_j3908420240157_2_alg».proof.Proof.K.Seg5
import proofs.«175488_j3908420240157_2_alg».proof.Proof.K.Seg6
import proofs.«175488_j3908420240157_2_alg».proof.Proof.K.Seg7

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

/-- The certificate's algebra: the pipeline library's, beside a component nothing here uses. -/
abbrev UU (nD : Nat) (τ : Topo) : Type := UR sig nD τ × Counters

variable {F : FTy → Type} [FloatOps F]

/-- The pipeline library's algebra is the left component of the certificate's. -/
abbrev EP : Emb (UR sig nD τ) (MT nD τ sig Unit (Elt F) ℕ (UU nD τ) ℕ) := embL

/-- The launch element: the pipeline library's at every staging cell; nothing else. -/
def u₀ : UU nD τ := (initOf (Pipeline.cells cfgs cellOf_inj) (Pipeline.launchToks cfgs cellOf_inj), 1)

variable (m : (ℓ : Loc nD τ sig) → Buf (Elt F) ℓ)

/-! ## What each region leaves in its output array, along the chain -/

/-- Region 0's output array after the region: its blocks' write-backs, from the valuation the region is entered at. -/
def o0 (c : Dev nD) : Buf (Elt F) ((c : Thread nD τ).loc main_v3) := fin0 (U := UU nD τ) (W1 m) c
/-- Region 1's output array after the region: its blocks' write-backs, from the valuation the region is entered at. -/
def o1 (c : Dev nD) : Buf (Elt F) ((c : Thread nD τ).loc main_v65) := fin1 (U := UU nD τ) (W10 m (o0 m)) c
/-- Region 2's output array after the region: its blocks' write-backs, from the valuation the region is entered at. -/
def o2 (c : Dev nD) : Buf (Elt F) ((c : Thread nD τ).loc main_v104) := fin2 (U := UU nD τ) (W16 m (o0 m) (o1 m)) c
/-- Region 3's output array after the region: its blocks' write-backs, from the valuation the region is entered at. -/
def o3 (c : Dev nD) : Buf (Elt F) ((c : Thread nD τ).loc main_v142) := fin3 (U := UU nD τ) (W22 m (o0 m) (o1 m) (o2 m)) c
/-- Region 4's output array after the region: its blocks' write-backs, from the valuation the region is entered at. -/
def o4 (c : Dev nD) : Buf (Elt F) ((c : Thread nD τ).loc main_v205) := fin4 (U := UU nD τ) (W24 m (o0 m) (o1 m) (o2 m) (o3 m)) c
/-- Region 5's output array after the region: its blocks' write-backs, from the valuation the region is entered at. -/
def o5 (c : Dev nD) : Buf (Elt F) ((c : Thread nD τ).loc main_v228) := fin5 (U := UU nD τ) (W26 m (o0 m) (o1 m) (o2 m) (o3 m) (o4 m)) c
/-- Region 6's output array after the region: its blocks' write-backs, from the valuation the region is entered at. -/
def o6 (c : Dev nD) : Buf (Elt F) ((c : Thread nD τ).loc main_v232) := fin6 (U := UU nD τ) (W28 m (o0 m) (o1 m) (o2 m) (o3 m) (o4 m) (o5 m)) c
/-- Region 7's output array after the region: its blocks' write-backs, from the valuation the region is entered at. -/
def o7 (c : Dev nD) : Buf (Elt F) ((c : Thread nD τ).loc main_v295) := fin7 (U := UU nD τ) (W30 m (o0 m) (o1 m) (o2 m) (o3 m) (o4 m) (o5 m) (o6 m)) c

/-! ## Every pipeline's proof data, each at its entry valuation -/

abbrev e0 : DatAt F (UU nD τ) 0 := fun c => dat0 (Vof (W1 m)) c
abbrev e1 : DatAt F (UU nD τ) 1 := fun c => dat1 (Vof (W10 m (o0 m))) c
abbrev e2 : DatAt F (UU nD τ) 2 := fun c => dat2 (Vof (W16 m (o0 m) (o1 m))) c
abbrev e3 : DatAt F (UU nD τ) 3 := fun c => dat3 (Vof (W22 m (o0 m) (o1 m) (o2 m))) c
abbrev e4 : DatAt F (UU nD τ) 4 := fun c => dat4 (Vof (W24 m (o0 m) (o1 m) (o2 m) (o3 m))) c
abbrev e5 : DatAt F (UU nD τ) 5 := fun c => dat5 (Vof (W26 m (o0 m) (o1 m) (o2 m) (o3 m) (o4 m))) c
abbrev e6 : DatAt F (UU nD τ) 6 := fun c => dat6 (Vof (W28 m (o0 m) (o1 m) (o2 m) (o3 m) (o4 m) (o5 m))) c
abbrev e7 : DatAt F (UU nD τ) 7 := fun c => dat7 (Vof (W30 m (o0 m) (o1 m) (o2 m) (o3 m) (o4 m) (o5 m) (o6 m))) c

/-- Nothing rides past a region but the core's dues. -/
abbrev R₀ : Dev nD → sProp (MT nD τ sig Unit (Elt F) ℕ (UU nD τ) ℕ) := fun _ => iprop(emp)

/-- What the launch deals beside the buffers gives every core its dues at nothing: the rider of the first state. -/
theorem launch_rider (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp (MT nD τ sig Unit (Elt F) ℕ (UU nD τ) ℕ))) c)) ∗ levAts L lv)
      ⊢ (|={Set.univ}=> bigSep Finset.univ (fun c : Dev nD => rider (F := F) (U := UU nD τ) R₀ c) : sProp (MT nD τ sig Unit (Elt F) ℕ (UU nD τ) ℕ)) := by
  have hcore : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp (MT nD τ sig Unit (Elt F) ℕ (UU nD τ) ℕ))) : sProp (MT nD τ sig Unit (Elt F) ℕ (UU nD τ) ℕ))
      ⊢ rider (F := F) (U := UU nD τ) R₀ c := fun c => by
    iintro ⟨-, HO, -, -, -⟩
    isplitr
    · iempintro
    · iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp (MT nD τ sig Unit (Elt F) ℕ (UU nD τ) ℕ))) c))
      ⊢ (bigSep Finset.univ (fun c : Dev nD => rider (F := F) (U := UU nD τ) R₀ c) : sProp (MT nD τ sig Unit (Elt F) ℕ (UU nD τ) ℕ)) :=
    bigSep_mono fun c _ => hcore c
  iintro ⟨H, -⟩
  imodintro
  ihave H' := hmono $$ H
  iexact H'

/-- The launch element yields the pipeline library's, and nothing per core. -/
theorem launch_elt : (ownU u₀ : sProp (MT nD τ sig Unit (Elt F) ℕ (UU nD τ) ℕ))
    ⊢ |={Set.univ}=> iprop(BI.own (EP (F := F) (initOf (Pipeline.cells cfgs cellOf_inj) (Pipeline.launchToks cfgs cellOf_inj)))
        ∗ bigSep Finset.univ (fun _ : Dev nD => (iprop(emp) : sProp (MT nD τ sig Unit (Elt F) ℕ (UU nD τ) ℕ)))) := by
  unfold u₀
  iintro Hu
  ihave H := (ownU_pair _ _) $$ Hu
  icases H with ⟨HP, -⟩
  imodintro
  isplitl [HP]; · iexact HP
  iapply (show (BI.emp : sProp (MT nD τ sig Unit (Elt F) ℕ (UU nD τ) ℕ)) ⊢ bigSep Finset.univ (fun _ : Dev nD => (BI.emp : sProp (MT nD τ sig Unit (Elt F) ℕ (UU nD τ) ℕ))) from by rw [BI.bigSep_emp_const])
  iempintro

/-! ## The run -/

-- the records' families are one family after unfolding each entry valuation's name
set_option backward.isDefEq.respectTransparency.types false in
/-- Every weakly fair execution of @main from memory `m` with zero counters terminates, and every final memory holds every
    unscoped buffer at the chain's last valuation, each region's output array at what its write-backs leave. -/
theorem run_main (ρ : Dev nD → PrngReg) :
    θ_run defs (onTc (τ := τ) (main (F := F))) ⟨m, fun _ => 0, ρ⟩ (fun r => ∀ c : Dev nD, ∀ b : Ref sig .tc,
      (Proc.devRef .tc b : DevRef τ sig) ∈ Pipeline.ucRefs τ sig → r.2.mem ((c.tc : Thread nD τ).loc b) = W32 m (o0 m) (o1 m) (o2 m) (o3 m) (o4 m) (o5 m) (o6 m) (o7 m) c b) :=
  run_cond m (o0 m) (o1 m) (o2 m) (o3 m) (o4 m) (o5 m) (o6 m) (o7 m) (Ix := Unit) (U := UU nD τ) (Lvl := ℕ) (EP (F := F)) () 𝒱₀ L lv (fun _ _ => rfl) ρ
    (pdatsOf (e0 m) (e1 m) (e2 m) (e3 m) (e4 m) (e5 m) (e6 m) (e7 m)) 0 (fun _ => iprop(emp)) u₀ (launch_elt (F := F))
    (fun _ => rider (F := F) (U := UU nD τ) R₀) (launch_rider (F := F) ρ)
    (fun c => by iintro ⟨-, H⟩; iexact H)
    (seg0 (W1 m) (W2 m (o0 m)) (e1 m) (e2 m) (e3 m) (e4 m) (e5 m) (e6 m) (e7 m) R₀ (fun c => Function.update_self ..)
      (fun c b hb => W2_of m (o0 m) c b (fun h => hb (List.mem_singleton.mp h))))
    (fun _ => .rfl) (fun _ => .rfl)
    (seg1 (W10 m (o0 m)) (W11 m (o0 m) (o1 m)) (e0 m) (e2 m) (e3 m) (e4 m) (e5 m) (e6 m) (e7 m) R₀ (fun c => Function.update_self ..)
      (fun c b hb => W11_of m (o0 m) (o1 m) c b (fun h => hb (List.mem_singleton.mp h))))
    (fun _ => .rfl) (fun _ => .rfl)
    (seg2 (W16 m (o0 m) (o1 m)) (W17 m (o0 m) (o1 m) (o2 m)) (e0 m) (e1 m) (e3 m) (e4 m) (e5 m) (e6 m) (e7 m) R₀ (fun c => Function.update_self ..)
      (fun c b hb => W17_of m (o0 m) (o1 m) (o2 m) c b (fun h => hb (List.mem_singleton.mp h))))
    (fun _ => .rfl) (fun _ => .rfl)
    (seg3 (W22 m (o0 m) (o1 m) (o2 m)) (W23 m (o0 m) (o1 m) (o2 m) (o3 m)) (e0 m) (e1 m) (e2 m) (e4 m) (e5 m) (e6 m) (e7 m) R₀ (fun c => Function.update_self ..)
      (fun c b hb => W23_of m (o0 m) (o1 m) (o2 m) (o3 m) c b (fun h => hb (List.mem_singleton.mp h))))
    (fun _ => .rfl) (fun _ => .rfl)
    (seg4 (W24 m (o0 m) (o1 m) (o2 m) (o3 m)) (W25 m (o0 m) (o1 m) (o2 m) (o3 m) (o4 m)) (e0 m) (e1 m) (e2 m) (e3 m) (e5 m) (e6 m) (e7 m) R₀ (fun c => Function.update_self ..)
      (fun c b hb => W25_of m (o0 m) (o1 m) (o2 m) (o3 m) (o4 m) c b (fun h => hb (List.mem_singleton.mp h))))
    (fun _ => .rfl) (fun _ => .rfl)
    (seg5 (W26 m (o0 m) (o1 m) (o2 m) (o3 m) (o4 m)) (W27 m (o0 m) (o1 m) (o2 m) (o3 m) (o4 m) (o5 m)) (e0 m) (e1 m) (e2 m) (e3 m) (e4 m) (e6 m) (e7 m) R₀ (fun c => Function.update_self ..)
      (fun c b hb => W27_of m (o0 m) (o1 m) (o2 m) (o3 m) (o4 m) (o5 m) c b (fun h => hb (List.mem_singleton.mp h))))
    (fun _ => .rfl) (fun _ => .rfl)
    (seg6 (W28 m (o0 m) (o1 m) (o2 m) (o3 m) (o4 m) (o5 m)) (W29 m (o0 m) (o1 m) (o2 m) (o3 m) (o4 m) (o5 m) (o6 m)) (e0 m) (e1 m) (e2 m) (e3 m) (e4 m) (e5 m) (e7 m) R₀ (fun c => Function.update_self ..)
      (fun c b hb => W29_of m (o0 m) (o1 m) (o2 m) (o3 m) (o4 m) (o5 m) (o6 m) c b (fun h => hb (List.mem_singleton.mp h))))
    (fun _ => .rfl) (fun _ => .rfl)
    (seg7 (W30 m (o0 m) (o1 m) (o2 m) (o3 m) (o4 m) (o5 m) (o6 m)) (W31 m (o0 m) (o1 m) (o2 m) (o3 m) (o4 m) (o5 m) (o6 m) (o7 m)) (e0 m) (e1 m) (e2 m) (e3 m) (e4 m) (e5 m) (e6 m) R₀ (fun c => Function.update_self ..)
      (fun c b hb => W31_of m (o0 m) (o1 m) (o2 m) (o3 m) (o4 m) (o5 m) (o6 m) (o7 m) c b (fun h => hb (List.mem_singleton.mp h))))
    (fun _ => .rfl) (fun _ => .rfl)

/-- The frame of the kernel as printed: it runs to the end from any memory, and each argument array ends as launched. -/
theorem frame_K : Cert.frame_Kernel := fun m ρ _ =>
  (θ_run (Cert.Kernel.defs (F := Bits)) _ _).mono (fun r h c => args_kept m (o0 m) (o1 m) (o2 m) (o3 m) (o4 m) (o5 m) (o6 m) (o7 m) r.2 h c) (run_main (F := Bits) m ρ)

end Cert.Kernel.Hand

end
-- ==== Proof.Algebraic.lean ====
/-
  The equality of the two idealized programs' results, reduced to five equations between arrays.
  Both programs' runs are known: the idealized kernel ends with every unscoped buffer at the last valuation of its chain
  (its five results among them, its arguments as launched), and the reference ends with every buffer at the fold of its 501
  operations over its launch memory (its arguments untouched). So, from memories that agree on the arguments, the two
  programs end with equal results as soon as, for each of the five results, the reference's fold at its result buffer IS the
  kernel chain's last valuation at the kernel's result buffer. Those five equations are the mathematics of the kernel
  against its reference — three-pass products are products on real entries, row scaling commutes with a row gather, the
  blockwise row sums of exp are the whole row sums, and a quotient by the temperature moves across a sum of products — and
  are stated here as the hypothesis `hval`.
-/
import proofs.«175488_j3908420240157_2_alg».proof.Defs
import proofs.«175488_j3908420240157_2_alg».proof.Proof.KI.Frame
import proofs.«175488_j3908420240157_2_alg».proof.Proof.RefFrame

set_option maxRecDepth 65536

noncomputable section

namespace Cert.Proof.Parts

open Idealize.ShloMosaic Idealize.ShloMosaic.TcCoe Idealize.SL.Sem

/-- The two launch memories agree on the twenty-one arguments, on every core. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)

/-- The five equations: each result of the reference, as the fold of its operations over its launch memory, is what the
    kernel's chain of valuations ends with at the corresponding result buffer. -/
def ValuesAgree : Prop :=
  ∀ (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ),
    Cert.Pre_KernelIdeal m → Agree m m' → ∀ c : Dev Cert.KernelIdeal.nD,
      StableHlo.after (Cert.ReferenceIdeal.OpsP.ops (F := Ideal)) (StableHlo.launchContents m' c) (Proc.devRef .tc Cert.ReferenceIdeal.main_v88) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v101
      ∧ StableHlo.after (Cert.ReferenceIdeal.OpsP.ops (F := Ideal)) (StableHlo.launchContents m' c) (Proc.devRef .tc Cert.ReferenceIdeal.main_v177) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v140
      ∧ StableHlo.after (Cert.ReferenceIdeal.OpsP.ops (F := Ideal)) (StableHlo.launchContents m' c) (Proc.devRef .tc Cert.ReferenceIdeal.main_v276) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v229
      ∧ StableHlo.after (Cert.ReferenceIdeal.OpsP.ops (F := Ideal)) (StableHlo.launchContents m' c) (Proc.devRef .tc Cert.ReferenceIdeal.main_v280) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v230
      ∧ StableHlo.after (Cert.ReferenceIdeal.OpsP.ops (F := Ideal)) (StableHlo.launchContents m' c) (Proc.devRef .tc Cert.ReferenceIdeal.main_v376) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v315

set_option maxHeartbeats 0 in
/-- Given the five equations, the two idealized programs, run from memories agreeing on the arguments, end with equal results. -/
theorem algebraic_of_values (hval : ValuesAgree) : Cert.algebraic_KernelIdeal_ReferenceIdeal := by
  intro m ρ m' ρ' hpre hagree
  refine ⟨fun c => Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v101,
    fun c => Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v140,
    fun c => Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v229,
    fun c => Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v230,
    fun c => Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v315, ?_, ?_⟩
  · -- the kernel's run: every unscoped buffer at the chain's last valuation, the arguments as launched
    refine (θ_run (Cert.KernelIdeal.defs (F := Ideal)) _ _).mono (fun r h c => ?_) (Cert.KernelIdeal.Hand.run_main (F := Ideal) m ρ)
    exact ⟨h c Cert.KernelIdeal.main_v101 (Finset.mem_filter.mpr ⟨StableHlo.devRef_mem_tcRefs Cert.KernelIdeal.main_v101, by decide⟩),
      h c Cert.KernelIdeal.main_v140 (Finset.mem_filter.mpr ⟨StableHlo.devRef_mem_tcRefs Cert.KernelIdeal.main_v140, by decide⟩),
      h c Cert.KernelIdeal.main_v229 (Finset.mem_filter.mpr ⟨StableHlo.devRef_mem_tcRefs Cert.KernelIdeal.main_v229, by decide⟩),
      h c Cert.KernelIdeal.main_v230 (Finset.mem_filter.mpr ⟨StableHlo.devRef_mem_tcRefs Cert.KernelIdeal.main_v230, by decide⟩),
      h c Cert.KernelIdeal.main_v315 (Finset.mem_filter.mpr ⟨StableHlo.devRef_mem_tcRefs Cert.KernelIdeal.main_v315, by decide⟩),
      Cert.KernelIdeal.Hand.args_kept m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) r.2 h c⟩
  · -- the reference's run: every buffer at the fold of its operations; its results by the five equations, its arguments untouched
    refine (θ_run (Cert.ReferenceIdeal.defs (F := Ideal)) _ _).mono (fun r h c => ?_) (ref_run (F := Ideal) m' ρ')
    obtain ⟨e0, e1, e2, e3, e4⟩ := hval m m' hpre hagree c
    exact ⟨(h c Cert.ReferenceIdeal.main_v88).trans e0, (h c Cert.ReferenceIdeal.main_v177).trans e1, (h c Cert.ReferenceIdeal.main_v276).trans e2, (h c Cert.ReferenceIdeal.main_v280).trans e3, (h c Cert.ReferenceIdeal.main_v376).trans e4,
      (h c Cert.ReferenceIdeal.main_arg0).trans (StableHlo.after_of_writes_sub Cert.ReferenceIdeal.OpsP.ops _ ref_ops_writes (by decide)),
      (h c Cert.ReferenceIdeal.main_arg1).trans (StableHlo.after_of_writes_sub Cert.ReferenceIdeal.OpsP.ops _ ref_ops_writes (by decide)),
      (h c Cert.ReferenceIdeal.main_arg2).trans (StableHlo.after_of_writes_sub Cert.ReferenceIdeal.OpsP.ops _ ref_ops_writes (by decide)),
      (h c Cert.ReferenceIdeal.main_arg3).trans (StableHlo.after_of_writes_sub Cert.ReferenceIdeal.OpsP.ops _ ref_ops_writes (by decide)),
      (h c Cert.ReferenceIdeal.main_arg4).trans (StableHlo.after_of_writes_sub Cert.ReferenceIdeal.OpsP.ops _ ref_ops_writes (by decide)),
      (h c Cert.ReferenceIdeal.main_arg5).trans (StableHlo.after_of_writes_sub Cert.ReferenceIdeal.OpsP.ops _ ref_ops_writes (by decide)),
      (h c Cert.ReferenceIdeal.main_arg6).trans (StableHlo.after_of_writes_sub Cert.ReferenceIdeal.OpsP.ops _ ref_ops_writes (by decide)),
      (h c Cert.ReferenceIdeal.main_arg7).trans (StableHlo.after_of_writes_sub Cert.ReferenceIdeal.OpsP.ops _ ref_ops_writes (by decide)),
      (h c Cert.ReferenceIdeal.main_arg8).trans (StableHlo.after_of_writes_sub Cert.ReferenceIdeal.OpsP.ops _ ref_ops_writes (by decide)),
      (h c Cert.ReferenceIdeal.main_arg9).trans (StableHlo.after_of_writes_sub Cert.ReferenceIdeal.OpsP.ops _ ref_ops_writes (by decide)),
      (h c Cert.ReferenceIdeal.main_arg10).trans (StableHlo.after_of_writes_sub Cert.ReferenceIdeal.OpsP.ops _ ref_ops_writes (by decide)),
      (h c Cert.ReferenceIdeal.main_arg11).trans (StableHlo.after_of_writes_sub Cert.ReferenceIdeal.OpsP.ops _ ref_ops_writes (by decide)),
      (h c Cert.ReferenceIdeal.main_arg12).trans (StableHlo.after_of_writes_sub Cert.ReferenceIdeal.OpsP.ops _ ref_ops_writes (by decide)),
      (h c Cert.ReferenceIdeal.main_arg13).trans (StableHlo.after_of_writes_sub Cert.ReferenceIdeal.OpsP.ops _ ref_ops_writes (by decide)),
      (h c Cert.ReferenceIdeal.main_arg14).trans (StableHlo.after_of_writes_sub Cert.ReferenceIdeal.OpsP.ops _ ref_ops_writes (by decide)),
      (h c Cert.ReferenceIdeal.main_arg15).trans (StableHlo.after_of_writes_sub Cert.ReferenceIdeal.OpsP.ops _ ref_ops_writes (by decide)),
      (h c Cert.ReferenceIdeal.main_arg16).trans (StableHlo.after_of_writes_sub Cert.ReferenceIdeal.OpsP.ops _ ref_ops_writes (by decide)),
      (h c Cert.ReferenceIdeal.main_arg17).trans (StableHlo.after_of_writes_sub Cert.ReferenceIdeal.OpsP.ops _ ref_ops_writes (by decide)),
      (h c Cert.ReferenceIdeal.main_arg18).trans (StableHlo.after_of_writes_sub Cert.ReferenceIdeal.OpsP.ops _ ref_ops_writes (by decide)),
      (h c Cert.ReferenceIdeal.main_arg19).trans (StableHlo.after_of_writes_sub Cert.ReferenceIdeal.OpsP.ops _ ref_ops_writes (by decide)),
      (h c Cert.ReferenceIdeal.main_arg20).trans (StableHlo.after_of_writes_sub Cert.ReferenceIdeal.OpsP.ops _ ref_ops_writes (by decide))⟩

end Cert.Proof.Parts

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.LibMatProd.lean ====
/-
  Matrix products at the exact (extended-real) reading, element by element. A rows-by-columns product, whether the host's
  `dot_general` or a kernel's matmul into a zero accumulator whose operands were first narrowed to a shorter float format
  (a change of format is the identity on exact values), is at (r, c) the sum over the shared axis of A(r, k) · B(k, c).
  Both are stated for any record of dimension numbers whose operand indices are known coordinate by coordinate.
-/
import Idealize.ShloMosaic.PureOps.Ideal.Laws
import Idealize.ShloMosaic.Lib.ValueIdx
import proofs.«175488_j3908420240157_2_alg».proof.Proof.LibDotSum

noncomputable section

open scoped BigOperators

namespace Cert.Spec

open Idealize.ShloMosaic Idealize.ShloMosaic.ValueIdx

/-- The product of an `M × K` array by a `K × N` array: at (r, c) the sum over k of A(r, k) · B(k, c). -/
def rowsByCols {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- Two `M × N` arrays added, then one row `b` added to every row, then the maximum with a fixed value `z`
    (with `z` zero: bias, then the rectifier). -/
def addRowMax {M N : Nat} (P Q : (⟨2, ![M, N]⟩ : Shape).Idx → EReal) (b : (⟨2, ![1, N]⟩ : Shape).Idx → EReal) (z : EReal) :
    (⟨2, ![M, N]⟩ : Shape).Idx → EReal :=
  fun j => max ((P j + Q j) + b (ix2 (0 : Fin 1) (j 1))) z

/-- One row `b` added to every row of an `M × N` array. -/
def addRow {M N : Nat} (P : (⟨2, ![M, N]⟩ : Shape).Idx → EReal) (b : (⟨2, ![1, N]⟩ : Shape).Idx → EReal) :
    (⟨2, ![M, N]⟩ : Shape).Idx → EReal :=
  fun j => P j + b (ix2 (0 : Fin 1) (j 1))

end Cert.Spec

namespace Cert.MatProd

open Idealize.ShloMosaic Idealize.ShloMosaic.ValueIdx

/-- The host's product of an `M × K` by a `K × N` array, at (r, c): `∑ k, A (r, k) · B (k, c)`. -/
theorem hostDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (j : (⟨2, ![M, N]⟩ : Shape).Idx) :
    Host.dotGeneral (F := Ideal) d none A B j = Cert.Spec.rowsByCols A B j := by
  unfold Cert.Spec.rowsByCols
  simp only [Host.dotGeneral]
  rw [Ideal.dotGeneral_apply]
  exact Cert.LibDotSum.plain d hr hs hl0 hl1 hr0 hr1 (fun a b => A a * B b) j

/-- A kernel's matmul of two blocks narrowed to bf16, into the zero accumulator, at (r, c): the same sum of the
    un-narrowed blocks' products. -/
theorem tileDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32)
    (hb : (FTy.bf16).bits < (FTy.f32).bits) (j : (⟨2, ![M, N]⟩ : Shape).Idx) :
    matmul (F := Ideal) d none (truncf .bf16 A hb) (truncf .bf16 B hb) (constant ⟨2, ![M, N]⟩ .f32 0x00000000#32) j
      = Cert.Spec.rowsByCols A B j := by
  unfold Cert.Spec.rowsByCols
  simp only [matmul]
  rw [Ideal.matmul_constant_zero_apply]
  exact Cert.LibDotSum.plain d hr hs hl0 hl1 hr0 hr1 (fun a b => A a * B b) j

end Cert.MatProd

end
-- ==== Proof.LibSplitProduct.lean ====
/-
  The three-pass split product on the extended reals.

  A dense product x · w is computed in three passes from a two-term split of each operand: with hi(x) = x and
  lo(x) = x - x (what "x minus its narrowed copy, widened back" denotes once a change of float format is the
  identity), the passes are hi(x) · hi(w), hi(x) · lo(w) and lo(x) · hi(w), each into a zero accumulator, added as
  (p₁ + p₂) + p₃. On the extended reals x - x = 0 exactly when x is a real (⊤ - ⊤ = ⊥), and a · 0 = 0 for every a.
  So for operands with real entries the second and third passes are zero arrays and the three-pass term, read at
  (r, c), is the plain sum over k of x(r, k) · w(k, c).

  * "split_apply": the three-pass term at an index j, for any rows-by-columns record of dimension numbers whose
    operand indices are known coordinate by coordinate.
  * "split_ix2": the same at an index written by its coordinates (r, c).
  * "split_bias_ix2": with one row b added to every row of the result: the sum plus b(0, c).
  * "split_transposed_ix2", "split_transposed_apply": with the right operand the transpose of an N × K block y:
    the sum over k of x(r, k) · y(c, k).
  * "sub_self_real": x - x = 0 for a real x; "subf_self_apply": the array form.
-/
import Idealize.ShloMosaic.PureOps.Ideal.Laws
import Idealize.ShloMosaic.Lib.ValueIdx
import Idealize.ShloMosaic.Lib.ValueLayout
import proofs.«175488_j3908420240157_2_alg».proof.Proof.LibMatProd

noncomputable section

open scoped BigOperators

namespace Cert.Lib.SplitProduct

open Idealize.ShloMosaic Idealize.ShloMosaic.ValueIdx

/-- A real minus itself is zero on the extended reals (at an infinity the difference is ⊥, not 0). -/
theorem sub_self_real {a : EReal} (ha : ∃ r : ℝ, a = (r : EReal)) : a - a = 0 := by
  obtain ⟨r, rfl⟩ := ha
  rw [← EReal.coe_sub, sub_self, EReal.coe_zero]

/-- An array with real entries minus itself is zero at every index. -/
theorem subf_self_apply {s : Shape} {φ : FTy} (v : FVec Ideal s φ) (hv : ∀ i, ∃ r : ℝ, v i = (r : EReal)) (i : s.Idx) :
    subf (F := Ideal) v v i = 0 :=
  sub_self_real (hv i)

/-- The three-pass split product of an M × K array x by a K × N array w with real entries, at the index j:
    the sum over k of x(j₀, k) · w(k, j₁). The low parts x - x and w - w are zero arrays, so the second and third
    passes contribute nothing. -/
theorem split_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (x : FVec Ideal ⟨2, ![M, K]⟩ .f32) (w : FVec Ideal ⟨2, ![K, N]⟩ .f32)
    (hx : ∀ i, ∃ r : ℝ, x i = (r : EReal)) (hw : ∀ i, ∃ r : ℝ, w i = (r : EReal))
    (hb : (FTy.bf16).bits < (FTy.f32).bits) (j : (⟨2, ![M, N]⟩ : Shape).Idx) :
    addf (F := Ideal)
        (addf (F := Ideal)
          (matmul (F := Ideal) d none (truncf .bf16 x hb) (truncf .bf16 w hb) (constant ⟨2, ![M, N]⟩ .f32 0x00000000#32))
          (matmul (F := Ideal) d none (truncf .bf16 x hb) (truncf .bf16 (subf w w) hb)
            (constant ⟨2, ![M, N]⟩ .f32 0x00000000#32)))
        (matmul (F := Ideal) d none (truncf .bf16 (subf x x) hb) (truncf .bf16 w hb)
          (constant ⟨2, ![M, N]⟩ .f32 0x00000000#32)) j
      = ∑ k : Fin K, x (ix2 (j 0) k) * w (ix2 k (j 1)) := by
  rw [addf_apply, addf_apply,
    Cert.MatProd.tileDot_apply d hr hs hl0 hl1 hr0 hr1 x w hb j,
    Cert.MatProd.tileDot_apply d hr hs hl0 hl1 hr0 hr1 x (subf w w) hb j,
    Cert.MatProd.tileDot_apply d hr hs hl0 hl1 hr0 hr1 (subf x x) w hb j]
  unfold Cert.Spec.rowsByCols
  simp only [subf_self_apply w hw, subf_self_apply x hx, mul_zero, zero_mul, Finset.sum_const_zero, add_zero]

/-- The same at an index written by its coordinates (r, c). -/
theorem split_ix2 {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (x : FVec Ideal ⟨2, ![M, K]⟩ .f32) (w : FVec Ideal ⟨2, ![K, N]⟩ .f32)
    (hx : ∀ i, ∃ r : ℝ, x i = (r : EReal)) (hw : ∀ i, ∃ r : ℝ, w i = (r : EReal))
    (hb : (FTy.bf16).bits < (FTy.f32).bits) (r : Fin M) (c : Fin N) :
    addf (F := Ideal)
        (addf (F := Ideal)
          (matmul (F := Ideal) d none (truncf .bf16 x hb) (truncf .bf16 w hb) (constant ⟨2, ![M, N]⟩ .f32 0x00000000#32))
          (matmul (F := Ideal) d none (truncf .bf16 x hb) (truncf .bf16 (subf w w) hb)
            (constant ⟨2, ![M, N]⟩ .f32 0x00000000#32)))
        (matmul (F := Ideal) d none (truncf .bf16 (subf x x) hb) (truncf .bf16 w hb)
          (constant ⟨2, ![M, N]⟩ .f32 0x00000000#32)) (ix2 r c)
      = ∑ k : Fin K, x (ix2 r k) * w (ix2 k c) :=
  split_apply d hr hs hl0 hl1 hr0 hr1 x w hx hw hb (ix2 r c)

/-- With one row b added to every row of the three-pass product (a bias row broadcast over the rows), at (r, c):
    the sum over k of x(r, k) · w(k, c), plus b(0, c). -/
theorem split_bias_ix2 {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (x : FVec Ideal ⟨2, ![M, K]⟩ .f32) (w : FVec Ideal ⟨2, ![K, N]⟩ .f32)
    (hx : ∀ i, ∃ r : ℝ, x i = (r : EReal)) (hw : ∀ i, ∃ r : ℝ, w i = (r : EReal))
    (hb : (FTy.bf16).bits < (FTy.f32).bits)
    (b : FVec Ideal ⟨2, ![1, N]⟩ .f32) (hbc : (⟨2, ![1, N]⟩ : Shape).Broadcasts ⟨2, ![M, N]⟩)
    (r : Fin M) (c : Fin N) :
    addf (F := Ideal)
        (addf (F := Ideal)
          (addf (F := Ideal)
            (matmul (F := Ideal) d none (truncf .bf16 x hb) (truncf .bf16 w hb)
              (constant ⟨2, ![M, N]⟩ .f32 0x00000000#32))
            (matmul (F := Ideal) d none (truncf .bf16 x hb) (truncf .bf16 (subf w w) hb)
              (constant ⟨2, ![M, N]⟩ .f32 0x00000000#32)))
          (matmul (F := Ideal) d none (truncf .bf16 (subf x x) hb) (truncf .bf16 w hb)
            (constant ⟨2, ![M, N]⟩ .f32 0x00000000#32)))
        (broadcastTo ⟨2, ![M, N]⟩ b hbc) (ix2 r c)
      = (∑ k : Fin K, x (ix2 r k) * w (ix2 k c)) + b (ix2 (0 : Fin 1) c) := by
  rw [addf_apply, split_ix2 d hr hs hl0 hl1 hr0 hr1 x w hx hw hb r c, broadcastTo_1b_ab_apply b hbc r c]

/-- With the right operand the transpose of an N × K block y (both with real entries), at (r, c):
    the sum over k of x(r, k) · y(c, k). -/
theorem split_transposed_ix2 {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (x : FVec Ideal ⟨2, ![M, K]⟩ .f32) (y : FVec Ideal ⟨2, ![N, K]⟩ .f32)
    (hx : ∀ i, ∃ r : ℝ, x i = (r : EReal)) (hy : ∀ i, ∃ r : ℝ, y i = (r : EReal))
    (hb : (FTy.bf16).bits < (FTy.f32).bits)
    (ht : (⟨2, ![N, K]⟩ : Shape).Transposes [1, 0] ⟨2, ![K, N]⟩) (r : Fin M) (c : Fin N) :
    addf (F := Ideal)
        (addf (F := Ideal)
          (matmul (F := Ideal) d none (truncf .bf16 x hb) (truncf .bf16 (transpose ⟨2, ![K, N]⟩ [1, 0] y ht) hb)
            (constant ⟨2, ![M, N]⟩ .f32 0x00000000#32))
          (matmul (F := Ideal) d none (truncf .bf16 x hb)
            (truncf .bf16 (subf (transpose ⟨2, ![K, N]⟩ [1, 0] y ht) (transpose ⟨2, ![K, N]⟩ [1, 0] y ht)) hb)
            (constant ⟨2, ![M, N]⟩ .f32 0x00000000#32)))
        (matmul (F := Ideal) d none (truncf .bf16 (subf x x) hb) (truncf .bf16 (transpose ⟨2, ![K, N]⟩ [1, 0] y ht) hb)
          (constant ⟨2, ![M, N]⟩ .f32 0x00000000#32)) (ix2 r c)
      = ∑ k : Fin K, x (ix2 r k) * y (ix2 c k) := by
  have hw : ∀ i, ∃ q : ℝ, transpose ⟨2, ![K, N]⟩ [1, 0] y ht i = (q : EReal) := fun i => hy (ht.src i)
  rw [split_ix2 d hr hs hl0 hl1 hr0 hr1 x (transpose ⟨2, ![K, N]⟩ [1, 0] y ht) hx hw hb r c]
  exact Finset.sum_congr rfl fun k _ => by rw [transpose_ix2_apply y ht k c]

/-- The same at a general index j: the sum over k of x(j₀, k) · y(j₁, k). -/
theorem split_transposed_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (x : FVec Ideal ⟨2, ![M, K]⟩ .f32) (y : FVec Ideal ⟨2, ![N, K]⟩ .f32)
    (hx : ∀ i, ∃ r : ℝ, x i = (r : EReal)) (hy : ∀ i, ∃ r : ℝ, y i = (r : EReal))
    (hb : (FTy.bf16).bits < (FTy.f32).bits)
    (ht : (⟨2, ![N, K]⟩ : Shape).Transposes [1, 0] ⟨2, ![K, N]⟩) (j : (⟨2, ![M, N]⟩ : Shape).Idx) :
    addf (F := Ideal)
        (addf (F := Ideal)
          (matmul (F := Ideal) d none (truncf .bf16 x hb) (truncf .bf16 (transpose ⟨2, ![K, N]⟩ [1, 0] y ht) hb)
            (constant ⟨2, ![M, N]⟩ .f32 0x00000000#32))
          (matmul (F := Ideal) d none (truncf .bf16 x hb)
            (truncf .bf16 (subf (transpose ⟨2, ![K, N]⟩ [1, 0] y ht) (transpose ⟨2, ![K, N]⟩ [1, 0] y ht)) hb)
            (constant ⟨2, ![M, N]⟩ .f32 0x00000000#32)))
        (matmul (F := Ideal) d none (truncf .bf16 (subf x x) hb) (truncf .bf16 (transpose ⟨2, ![K, N]⟩ [1, 0] y ht) hb)
          (constant ⟨2, ![M, N]⟩ .f32 0x00000000#32)) j
      = ∑ k : Fin K, x (ix2 (j 0) k) * y (ix2 (j 1) k) := by
  rw [eq_ix2 j]
  exact split_transposed_ix2 d hr hs hl0 hl1 hr0 hr1 x y hx hy hb ht (j 0) (j 1)

end Cert.Lib.SplitProduct

end
-- ==== Proof.KI.Value5.lean ====
/-
  Region 5's result as ONE function of its three argument arrays, on the extended reals.

  The output array of region 5 has 10000 rows of 512 entries, written back in five blocks of 2000 rows. At the grid
  point t the body's payload, read at (p, q) of its block, is the three-pass split product of the block of x by the
  whole weight matrix, plus the bias row: for operands with real entries, the plain sum over k of x(2000 t + p, k) ·
  w(k, q), plus b(0, q). A block's coordinate is the block index times the block's extent plus the coordinate inside
  the block; the output's block at t sits at rows 2000 t …, where the block of x it was computed from sits; the
  weight matrix and the bias row are one block each. So every point writes back the restriction to its rows of ONE
  whole-array function G5, the five blocks cover the array, and the array after the region IS G5: at (r, col),
  the sum over k of x(r, k) · w(k, col), plus b(0, col).
-/
import proofs.«175488_j3908420240157_2_alg».proof.Proof.KI.Seg5
import proofs.«175488_j3908420240157_2_alg».proof.Proof.LibSplitProduct
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)

variable {U : Type} [URA U]

/-- Every access of the body is at zero offsets. -/
private theorem off00 : (![0, 0] : Fin 2 → Nat) = fun _ => 0 := funext fun a => by fin_cases a <;> rfl

/-! ## The payload at an index -/

/-- The body's payload at (p, q), for operands with real entries: the row of the x block times the column of the
    weight matrix, plus the bias row's entry. -/
theorem pay5_apply (v0 : FVec Ideal S2000x512 .f32) (v1 : FVec Ideal S512x512 .f32) (v16 : FVec Ideal S1x512 .f32)
    (h0 : ∀ i, ∃ r : ℝ, v0 i = (r : EReal)) (h1 : ∀ i, ∃ r : ℝ, v1 i = (r : EReal)) (p : Fin 2000) (q : Fin 512) :
    k5_pay1 (F := Ideal) v0 v1 v16 (ix2 p q) = (∑ k : Fin 512, v0 (ix2 p k) * v1 (ix2 k q)) + v16 (ix2 (0 : Fin 1) q) := by
  unfold k5_pay1
  refine (Cert.Lib.SplitProduct.split_bias_ix2 _ rfl rfl (fun _ _ => rfl) (fun _ _ => rfl) (fun _ _ => rfl) (fun _ _ => rfl)
    v0 _ h0 ?_ _ _ _ p q).trans ?_
  · rw [shapeCast_self]; exact h1
  · rw [shapeCast_self, shapeCast_self]

/-! ## The whole-array function -/

/-- The result array from the three argument arrays: at (r, col), the sum over k of x(r, k) · w(k, col), plus b(0, col). -/
def G5 (x : FVec Ideal S10000x512 .f32) (w : FVec Ideal S512x512 .f32) (b : FVec Ideal S1x512 .f32) : FVec Ideal S10000x512 .f32 :=
  fun i => (∑ k : Fin 512, x (ix2 (n0 := 10000) (i 0) k) * w (ix2 k (n1 := 512) (i 1))) + b (ix2 (0 : Fin 1) (n1 := 512) (i 1))

theorem G5_apply (x : FVec Ideal S10000x512 .f32) (w : FVec Ideal S512x512 .f32) (b : FVec Ideal S1x512 .f32) (r : Fin 10000) (col : Fin 512) :
    G5 x w b (ix2 r col) = (∑ k : Fin 512, x (ix2 r k) * w (ix2 k col)) + b (ix2 (0 : Fin 1) col) := rfl

/-! ## The windows' index maps, decided over the grid -/

/-- The block of x moves with the output's block along the rows; the weight matrix, the bias row and every window's
    column axis stay at block 0; the output's row block at point t is t. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row p of the block at point t is row 2000 t + p of the array. -/
def row5 (t : Fin cfg5.N) (p : Fin 2000) : Fin 10000 :=
  ⟨2000 * t.val + p.val, by
    have ht : t.val < 5 := lt_of_lt_of_eq t.isLt N_5
    have hp := p.isLt
    omega⟩

theorem row5_val (t : Fin cfg5.N) (p : Fin 2000) : (row5 t p).val = 2000 * t.val + p.val := rfl

-- the core's buffer contents when the region is entered
variable (V : (c : Dev nD) → (b : Ref sig .tc) → Buf (Elt Ideal) ((c : Thread nD τ).loc b))

/-! ## What a point writes back -/

/-- WHAT POINT t WRITES BACK is block t of G5 of the three arrays as the region finds them. -/
theorem flushed5_eq (c : Dev nD) (t : Fin cfg5.N)
    (hx : ∀ i, ∃ r : ℝ, (V c main_arg0 : FVec Ideal S10000x512 .f32) i = (r : EReal))
    (hw : ∀ i, ∃ r : ℝ, (V c main_v225 : FVec Ideal S512x512 .f32) i = (r : EReal)) :
    (dat5 (F := Ideal) (U := U) V c).flushed 3 t
      = ((cfg5.win 3).blk t).view.read (Elt Ideal) (G5 (V c main_arg0) (V c main_v225) (V c main_v227)) := by
  show (cfg5.win 3).cut (grid5.coords t) ((dat5 (F := Ideal) (U := U) V c).after 3 t) = _
  rw [after5_3]
  unfold out5_3
  rw [View.canon_unit_zero off00]
  simp only [View.ld_unit_zero (S := S2000x512) off00, View.ld_unit_zero (S := S512x512) off00, View.ld_unit_zero (S := S1x512) off00]
  obtain ⟨e00, e01, e10, e11, e20, e21, e30, e31⟩ := idx_facts5 t
  have hx' : ∀ i, ∃ r : ℝ, (iblk5 V c 0 t : FVec Ideal S2000x512 .f32) i = (r : EReal) := fun i => by
    unfold iblk5; rw [View.read_apply]; exact hx _
  have hw' : ∀ i, ∃ r : ℝ, (iblk5 V c 1 t : FVec Ideal S512x512 .f32) i = (r : EReal) := fun i => by
    unfold iblk5; rw [View.read_apply]; exact hw _
  funext j
  obtain ⟨p, q, rfl⟩ : ∃ (p : Fin 2000) (q : Fin 512), j = ix2 p q := ⟨j 0, j 1, eq_ix2 j⟩
  show k5_pay1 (F := Ideal) (iblk5 V c 0 t) (iblk5 V c 1 t) (iblk5 V c 2 t) (ix2 p q)
      = G5 (V c main_arg0) (V c main_v225) (V c main_v227) (((cfg5.win 3).blk t).view.emb (ix2 p q))
  refine (pay5_apply _ _ _ hx' hw' p q).trans ?_
  -- the output block's index in the array
  have hO : ((cfg5.win 3).blk t).view.emb (ix2 p q) = ix2 (row5 t p) q := by
    funext a; apply Fin.ext
    match a with
    | ⟨0, _⟩ => show win5_3.index t (0 : Fin 2) * 2000 + 1 * p.val = 2000 * t.val + p.val; omega
    | ⟨1, _⟩ => show win5_3.index t (1 : Fin 2) * 512 + 1 * q.val = q.val; omega
  rw [hO, G5_apply]
  -- each input block read where the output's rectangle says
  have h0 : ∀ k : Fin 512, (iblk5 V c 0 t : FVec Ideal S2000x512 .f32) (ix2 p k) = (V c main_arg0 : FVec Ideal S10000x512 .f32) (ix2 (row5 t p) k) := fun k => by
    unfold iblk5; rw [View.read_apply]
    show V c main_arg0 _ = V c main_arg0 _
    congr 1; funext a; apply Fin.ext
    match a with
    | ⟨0, _⟩ => show win5_0.index t (0 : Fin 2) * 2000 + 1 * p.val = 2000 * t.val + p.val; omega
    | ⟨1, _⟩ => show win5_0.index t (1 : Fin 2) * 512 + 1 * k.val = k.val; omega
  have h1 : ∀ k : Fin 512, (iblk5 V c 1 t : FVec Ideal S512x512 .f32) (ix2 k q) = (V c main_v225 : FVec Ideal S512x512 .f32) (ix2 k q) := fun k => by
    unfold iblk5; rw [View.read_apply]
    show V c main_v225 _ = V c main_v225 _
    congr 1; funext a; apply Fin.ext
    match a with
    | ⟨0, _⟩ => show win5_1.index t (0 : Fin 2) * 512 + 1 * k.val = k.val; omega
    | ⟨1, _⟩ => show win5_1.index t (1 : Fin 2) * 512 + 1 * q.val = q.val; omega
  have h2 : (iblk5 V c 2 t : FVec Ideal S1x512 .f32) (ix2 (0 : Fin 1) q) = (V c main_v227 : FVec Ideal S1x512 .f32) (ix2 (0 : Fin 1) q) := by
    unfold iblk5; rw [View.read_apply]
    show V c main_v227 _ = V c main_v227 _
    congr 1; funext a; apply Fin.ext
    match a with
    | ⟨0, _⟩ => show win5_2.index t (0 : Fin 2) * 1 + 1 * (0 : Fin 1).val = (0 : Fin 1).val; omega
    | ⟨1, _⟩ => show win5_2.index t (1 : Fin 2) * 512 + 1 * q.val = q.val; omega
  rw [h2]
  exact congrArg (· + _) (Finset.sum_congr rfl fun k _ => by rw [h0 k, h1 k])

/-! ## The blocks cover the array -/

/-- An index of the array is in point t's block iff each coordinate is in the block's range on its axis. -/
theorem mem_blk5 (t : Fin cfg5.N) (i : S10000x512.Idx) :
    i ∈ ((cfg5.win 3).blk t).view.set ↔ ∀ a : Fin 2, win5_3.index t a * S2000x512.size a ≤ (i a).val ∧ (i a).val < win5_3.index t a * S2000x512.size a + S2000x512.size a := by
  show i ∈ ((View.whole main_v228).slice (win5_3.rect t)).set ↔ _
  rw [View.set_slice_whole, Rect.mem_set_unit]
  exact Iff.rfl

/-- Row r of the array lies in the block of the point r / 2000, which writes back (every point does). -/
theorem cover5 (i : S10000x512.Idx) : ∃ t : Fin cfg5.N, (cfg5.win 3).flush t = true ∧ i ∈ ((cfg5.win 3).blk t).view.set := by
  have hi0 : (i 0).val < 10000 := (i 0).isLt
  have hi1 : (i 1).val < 512 := (i 1).isLt
  have hN : cfg5.N = 5 := N_5
  let t : Fin cfg5.N := ⟨(i 0).val / 2000, by rw [hN]; omega⟩
  obtain ⟨-, -, -, -, -, -, e30, e31⟩ := idx_facts5 t
  have ht : t.val = (i 0).val / 2000 := rfl
  refine ⟨t, flush5_3 t, ?_⟩
  rw [mem_blk5]
  intro a
  match a with
  | ⟨0, _⟩ => show win5_3.index t (0 : Fin 2) * 2000 ≤ (i 0).val ∧ (i 0).val < win5_3.index t (0 : Fin 2) * 2000 + 2000; omega
  | ⟨1, _⟩ => show win5_3.index t (1 : Fin 2) * 512 ≤ (i 1).val ∧ (i 1).val < win5_3.index t (1 : Fin 2) * 512 + 512; omega

/-! ## The array after the region -/

variable (Wpre : Dev nD → Valuation τ sig (Elt Ideal))

/-- The output array after region 5 IS G5 of the three arrays as the region finds them. -/
theorem fin5_eq (c : Dev nD)
    (hx : ∀ i, ∃ r : ℝ, (Vof Wpre c main_arg0 : FVec Ideal S10000x512 .f32) i = (r : EReal))
    (hw : ∀ i, ∃ r : ℝ, (Vof Wpre c main_v225 : FVec Ideal S512x512 .f32) i = (r : EReal)) :
    fin5 (F := Ideal) (U := U) Wpre c = G5 (Vof Wpre c main_arg0) (Vof Wpre c main_v225) (Vof Wpre c main_v227) := by
  unfold fin5
  exact (dat5 (F := Ideal) (U := U) (Vof Wpre) c).arrAt_eq_of_cover 3 _ (fun t _ => flushed5_eq (Vof Wpre) c t hx hw) cover5

/-- The three arrays region 5 reads, as the region finds them, at their literal shapes: x (main_arg0), the weight
    matrix (main_v225), the bias row (main_v227). -/
abbrev x5 (c : Dev nD) : FVec Ideal S10000x512 .f32 := Vof Wpre c main_arg0
abbrev w5 (c : Dev nD) : FVec Ideal S512x512 .f32 := Vof Wpre c main_v225
abbrev b5 (c : Dev nD) : FVec Ideal S1x512 .f32 := Vof Wpre c main_v227

/-- At (r, col): the sum over k of x(r, k) · w(k, col), plus b(0, col). -/
theorem fin5_apply (c : Dev nD)
    (hx : ∀ i, ∃ r : ℝ, x5 Wpre c i = (r : EReal)) (hw : ∀ i, ∃ r : ℝ, w5 Wpre c i = (r : EReal))
    (r : Fin 10000) (col : Fin 512) :
    (fin5 (F := Ideal) (U := U) Wpre c : FVec Ideal S10000x512 .f32) (ix2 r col)
      = (∑ k : Fin 512, x5 Wpre c (ix2 r k) * w5 Wpre c (ix2 k col)) + b5 Wpre c (ix2 (0 : Fin 1) col) := by
  rw [fin5_eq Wpre c hx hw]
  exact G5_apply _ _ _ r col

/-- info: 'Cert.KernelIdeal.Hand.fin5_apply' depends on axioms: [propext, Classical.choice, Quot.sound] -/
#guard_msgs in #print axioms fin5_apply

end Cert.KernelIdeal.Hand

end
-- ==== Proof.KI.Results.lean ====
/-
  What the chain's last valuation holds at two of the program's results. Results 2 and 3 are the two halves, by columns, of the
  array region 5 writes: the three host operations after that region slice it, and no later item writes either half.
-/
import proofs.«175488_j3908420240157_2_alg».proof.Proof.KI.Chain

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)
  (o0 : (c : Dev nD) → Buf (Elt F) ((c : Thread nD τ).loc main_v3))
  (o1 : (c : Dev nD) → Buf (Elt F) ((c : Thread nD τ).loc main_v65))
  (o2 : (c : Dev nD) → Buf (Elt F) ((c : Thread nD τ).loc main_v104))
  (o3 : (c : Dev nD) → Buf (Elt F) ((c : Thread nD τ).loc main_v142))
  (o4 : (c : Dev nD) → Buf (Elt F) ((c : Thread nD τ).loc main_v205))
  (o5 : (c : Dev nD) → Buf (Elt F) ((c : Thread nD τ).loc main_v228))
  (o6 : (c : Dev nD) → Buf (Elt F) ((c : Thread nD τ).loc main_v232))
  (o7 : (c : Dev nD) → Buf (Elt F) ((c : Thread nD τ).loc main_v295))

/-- Result 2 is the first 256 columns of what region 5 leaves. -/
theorem W32_main_v229 (c : Dev nD) :
    W32 m o0 o1 o2 o3 o4 o5 o6 o7 c main_v229 = extractStridedSlice S10000x256 ![0, 0] (o5 c) slices_S10000x512_S10000x256_0_0 := by
  refine ((W32_of m o0 o1 o2 o3 o4 o5 o6 o7 c main_v229 (by decide)).trans <|
    (W31_of m o0 o1 o2 o3 o4 o5 o6 o7 c main_v229 (by decide)).trans <|
    (W30_of m o0 o1 o2 o3 o4 o5 o6 c main_v229 (by decide)).trans <|
    (W29_of m o0 o1 o2 o3 o4 o5 o6 c main_v229 (by decide)).trans ?_)
  show StableHlo.after hostOps6 (W27 m o0 o1 o2 o3 o4 o5 c) (Proc.devRef .tc main_v229) = _
  after_results
  simp only [W27, Function.update_self]

/-- Result 3 is the last 256 columns of what region 5 leaves. -/
theorem W32_main_v230 (c : Dev nD) :
    W32 m o0 o1 o2 o3 o4 o5 o6 o7 c main_v230 = extractStridedSlice S10000x256 ![0, 256] (o5 c) slices_S10000x512_S10000x256_0_256 := by
  refine ((W32_of m o0 o1 o2 o3 o4 o5 o6 o7 c main_v230 (by decide)).trans <|
    (W31_of m o0 o1 o2 o3 o4 o5 o6 o7 c main_v230 (by decide)).trans <|
    (W30_of m o0 o1 o2 o3 o4 o5 o6 c main_v230 (by decide)).trans <|
    (W29_of m o0 o1 o2 o3 o4 o5 o6 c main_v230 (by decide)).trans ?_)
  show StableHlo.after hostOps6 (W27 m o0 o1 o2 o3 o4 o5 c) (Proc.devRef .tc main_v230) = _
  after_results
  simp only [W27, Function.update_self]

end Cert.KernelIdeal.Hand

end
-- ==== Proof.KI.Entry5.lean ====
/-
  What the valuation region 5 is entered at holds at the three arrays the region reads.

  Region 5 is entered after the stretch of host operations that ends by assembling its operands: the features are
  an argument of @main, untouched since the launch; the weight matrix is the two encoders' weight matrices side by
  side (their concatenation along the columns); the bias row is the two bias vectors end to end, reshaped to one
  row. The four arguments those last operations read are themselves as launched when the stretch begins.
-/
import proofs.«175488_j3908420240157_2_alg».proof.Proof.KI.Chain

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)
  (o0 : (c : Dev nD) → Buf (Elt F) ((c : Thread nD τ).loc main_v3))
  (o1 : (c : Dev nD) → Buf (Elt F) ((c : Thread nD τ).loc main_v65))
  (o2 : (c : Dev nD) → Buf (Elt F) ((c : Thread nD τ).loc main_v104))
  (o3 : (c : Dev nD) → Buf (Elt F) ((c : Thread nD τ).loc main_v142))
  (o4 : (c : Dev nD) → Buf (Elt F) ((c : Thread nD τ).loc main_v205))

/-- The features are as launched when region 5 is entered. -/
theorem W26_main_arg0 (c : Dev nD) : W26 m o0 o1 o2 o3 o4 c main_arg0 = m ((c : Thread nD τ).loc main_arg0) :=
  (W26_of m o0 o1 o2 o3 o4 c main_arg0 (by decide)).trans <|
  (W25_of m o0 o1 o2 o3 o4 c main_arg0 (by decide)).trans <|
  (W24_of m o0 o1 o2 o3 c main_arg0 (by decide)).trans <|
  (W23_of m o0 o1 o2 o3 c main_arg0 (by decide)).trans <|
  (W22_of m o0 o1 o2 c main_arg0 (by decide)).trans <|
  (W21_of m o0 o1 o2 c main_arg0 (by decide)).trans <|
  (W20_of m o0 o1 o2 c main_arg0 (by decide)).trans <|
  (W19_of m o0 o1 o2 c main_arg0 (by decide)).trans <|
  (W18_of m o0 o1 o2 c main_arg0 (by decide)).trans <|
  (W17_of m o0 o1 o2 c main_arg0 (by decide)).trans <|
  (W16_of m o0 o1 c main_arg0 (by decide)).trans <|
  (W15_of m o0 o1 c main_arg0 (by decide)).trans <|
  (W14_of m o0 o1 c main_arg0 (by decide)).trans <|
  (W13_of m o0 o1 c main_arg0 (by decide)).trans <|
  (W12_of m o0 o1 c main_arg0 (by decide)).trans <|
  (W11_of m o0 o1 c main_arg0 (by decide)).trans <|
  (W10_of m o0 c main_arg0 (by decide)).trans <|
  (W9_of m o0 c main_arg0 (by decide)).trans <|
  (W8_of m o0 c main_arg0 (by decide)).trans <|
  (W7_of m o0 c main_arg0 (by decide)).trans <|
  (W6_of m o0 c main_arg0 (by decide)).trans <|
  (W5_of m o0 c main_arg0 (by decide)).trans <|
  (W4_of m o0 c main_arg0 (by decide)).trans <|
  (W3_of m o0 c main_arg0 (by decide)).trans <|
  (W2_of m o0 c main_arg0 (by decide)).trans <|
  (W1_of m c main_arg0 (by decide)).trans rfl

/-- The first encoder's weights are as launched when the stretch before region 5 begins. -/
theorem W25_main_arg15 (c : Dev nD) : W25 m o0 o1 o2 o3 o4 c main_arg15 = m ((c : Thread nD τ).loc main_arg15) :=
  (W25_of m o0 o1 o2 o3 o4 c main_arg15 (by decide)).trans <|
  (W24_of m o0 o1 o2 o3 c main_arg15 (by decide)).trans <|
  (W23_of m o0 o1 o2 o3 c main_arg15 (by decide)).trans <|
  (W22_of m o0 o1 o2 c main_arg15 (by decide)).trans <|
  (W21_of m o0 o1 o2 c main_arg15 (by decide)).trans <|
  (W20_of m o0 o1 o2 c main_arg15 (by decide)).trans <|
  (W19_of m o0 o1 o2 c main_arg15 (by decide)).trans <|
  (W18_of m o0 o1 o2 c main_arg15 (by decide)).trans <|
  (W17_of m o0 o1 o2 c main_arg15 (by decide)).trans <|
  (W16_of m o0 o1 c main_arg15 (by decide)).trans <|
  (W15_of m o0 o1 c main_arg15 (by decide)).trans <|
  (W14_of m o0 o1 c main_arg15 (by decide)).trans <|
  (W13_of m o0 o1 c main_arg15 (by decide)).trans <|
  (W12_of m o0 o1 c main_arg15 (by decide)).trans <|
  (W11_of m o0 o1 c main_arg15 (by decide)).trans <|
  (W10_of m o0 c main_arg15 (by decide)).trans <|
  (W9_of m o0 c main_arg15 (by decide)).trans <|
  (W8_of m o0 c main_arg15 (by decide)).trans <|
  (W7_of m o0 c main_arg15 (by decide)).trans <|
  (W6_of m o0 c main_arg15 (by decide)).trans <|
  (W5_of m o0 c main_arg15 (by decide)).trans <|
  (W4_of m o0 c main_arg15 (by decide)).trans <|
  (W3_of m o0 c main_arg15 (by decide)).trans <|
  (W2_of m o0 c main_arg15 (by decide)).trans <|
  (W1_of m c main_arg15 (by decide)).trans rfl

/-- Its bias. -/
theorem W25_main_arg16 (c : Dev nD) : W25 m o0 o1 o2 o3 o4 c main_arg16 = m ((c : Thread nD τ).loc main_arg16) :=
  (W25_of m o0 o1 o2 o3 o4 c main_arg16 (by decide)).trans <|
  (W24_of m o0 o1 o2 o3 c main_arg16 (by decide)).trans <|
  (W23_of m o0 o1 o2 o3 c main_arg16 (by decide)).trans <|
  (W22_of m o0 o1 o2 c main_arg16 (by decide)).trans <|
  (W21_of m o0 o1 o2 c main_arg16 (by decide)).trans <|
  (W20_of m o0 o1 o2 c main_arg16 (by decide)).trans <|
  (W19_of m o0 o1 o2 c main_arg16 (by decide)).trans <|
  (W18_of m o0 o1 o2 c main_arg16 (by decide)).trans <|
  (W17_of m o0 o1 o2 c main_arg16 (by decide)).trans <|
  (W16_of m o0 o1 c main_arg16 (by decide)).trans <|
  (W15_of m o0 o1 c main_arg16 (by decide)).trans <|
  (W14_of m o0 o1 c main_arg16 (by decide)).trans <|
  (W13_of m o0 o1 c main_arg16 (by decide)).trans <|
  (W12_of m o0 o1 c main_arg16 (by decide)).trans <|
  (W11_of m o0 o1 c main_arg16 (by decide)).trans <|
  (W10_of m o0 c main_arg16 (by decide)).trans <|
  (W9_of m o0 c main_arg16 (by decide)).trans <|
  (W8_of m o0 c main_arg16 (by decide)).trans <|
  (W7_of m o0 c main_arg16 (by decide)).trans <|
  (W6_of m o0 c main_arg16 (by decide)).trans <|
  (W5_of m o0 c main_arg16 (by decide)).trans <|
  (W4_of m o0 c main_arg16 (by decide)).trans <|
  (W3_of m o0 c main_arg16 (by decide)).trans <|
  (W2_of m o0 c main_arg16 (by decide)).trans <|
  (W1_of m c main_arg16 (by decide)).trans rfl

/-- The twin encoder's weights. -/
theorem W25_main_arg17 (c : Dev nD) : W25 m o0 o1 o2 o3 o4 c main_arg17 = m ((c : Thread nD τ).loc main_arg17) :=
  (W25_of m o0 o1 o2 o3 o4 c main_arg17 (by decide)).trans <|
  (W24_of m o0 o1 o2 o3 c main_arg17 (by decide)).trans <|
  (W23_of m o0 o1 o2 o3 c main_arg17 (by decide)).trans <|
  (W22_of m o0 o1 o2 c main_arg17 (by decide)).trans <|
  (W21_of m o0 o1 o2 c main_arg17 (by decide)).trans <|
  (W20_of m o0 o1 o2 c main_arg17 (by decide)).trans <|
  (W19_of m o0 o1 o2 c main_arg17 (by decide)).trans <|
  (W18_of m o0 o1 o2 c main_arg17 (by decide)).trans <|
  (W17_of m o0 o1 o2 c main_arg17 (by decide)).trans <|
  (W16_of m o0 o1 c main_arg17 (by decide)).trans <|
  (W15_of m o0 o1 c main_arg17 (by decide)).trans <|
  (W14_of m o0 o1 c main_arg17 (by decide)).trans <|
  (W13_of m o0 o1 c main_arg17 (by decide)).trans <|
  (W12_of m o0 o1 c main_arg17 (by decide)).trans <|
  (W11_of m o0 o1 c main_arg17 (by decide)).trans <|
  (W10_of m o0 c main_arg17 (by decide)).trans <|
  (W9_of m o0 c main_arg17 (by decide)).trans <|
  (W8_of m o0 c main_arg17 (by decide)).trans <|
  (W7_of m o0 c main_arg17 (by decide)).trans <|
  (W6_of m o0 c main_arg17 (by decide)).trans <|
  (W5_of m o0 c main_arg17 (by decide)).trans <|
  (W4_of m o0 c main_arg17 (by decide)).trans <|
  (W3_of m o0 c main_arg17 (by decide)).trans <|
  (W2_of m o0 c main_arg17 (by decide)).trans <|
  (W1_of m c main_arg17 (by decide)).trans rfl

/-- Its bias. -/
theorem W25_main_arg18 (c : Dev nD) : W25 m o0 o1 o2 o3 o4 c main_arg18 = m ((c : Thread nD τ).loc main_arg18) :=
  (W25_of m o0 o1 o2 o3 o4 c main_arg18 (by decide)).trans <|
  (W24_of m o0 o1 o2 o3 c main_arg18 (by decide)).trans <|
  (W23_of m o0 o1 o2 o3 c main_arg18 (by decide)).trans <|
  (W22_of m o0 o1 o2 c main_arg18 (by decide)).trans <|
  (W21_of m o0 o1 o2 c main_arg18 (by decide)).trans <|
  (W20_of m o0 o1 o2 c main_arg18 (by decide)).trans <|
  (W19_of m o0 o1 o2 c main_arg18 (by decide)).trans <|
  (W18_of m o0 o1 o2 c main_arg18 (by decide)).trans <|
  (W17_of m o0 o1 o2 c main_arg18 (by decide)).trans <|
  (W16_of m o0 o1 c main_arg18 (by decide)).trans <|
  (W15_of m o0 o1 c main_arg18 (by decide)).trans <|
  (W14_of m o0 o1 c main_arg18 (by decide)).trans <|
  (W13_of m o0 o1 c main_arg18 (by decide)).trans <|
  (W12_of m o0 o1 c main_arg18 (by decide)).trans <|
  (W11_of m o0 o1 c main_arg18 (by decide)).trans <|
  (W10_of m o0 c main_arg18 (by decide)).trans <|
  (W9_of m o0 c main_arg18 (by decide)).trans <|
  (W8_of m o0 c main_arg18 (by decide)).trans <|
  (W7_of m o0 c main_arg18 (by decide)).trans <|
  (W6_of m o0 c main_arg18 (by decide)).trans <|
  (W5_of m o0 c main_arg18 (by decide)).trans <|
  (W4_of m o0 c main_arg18 (by decide)).trans <|
  (W3_of m o0 c main_arg18 (by decide)).trans <|
  (W2_of m o0 c main_arg18 (by decide)).trans <|
  (W1_of m c main_arg18 (by decide)).trans rfl

/-- A line of operations run in two parts. -/
theorem after_append {τ' : Topo} {sig' : RefSig} {Val : EltTy → Type} (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => simp only [List.cons_append, StableHlo.after_cons, ih]

/-- No initial part of the stretch before region 5 writes a buffer the whole stretch does not write. -/
theorem after_take5 (n : ℕ) (V : Valuation τ sig (Elt F)) (r : Ref sig .tc) (h : r ∉ hostOps5_W) :
    StableHlo.after ((hostOps5 : List (HloOp τ sig (Elt F))).take n) V (Proc.devRef .tc r) = V (Proc.devRef .tc r) :=
  StableHlo.after_of_writes_sub _ V
    (List.forall_iff_forall_mem.mpr fun op hop => (List.forall_iff_forall_mem.mp hostOps5_writes) op (List.mem_of_mem_take hop)) h

/-- The weight matrix region 5 reads: the two encoders' weights side by side. -/
theorem W26_main_v225 (c : Dev nD) :
    W26 m o0 o1 o2 o3 o4 c main_v225
      = concatenate S512x512 1 [⟨S512x256, m ((c : Thread nD τ).loc main_arg15)⟩, ⟨S512x256, m ((c : Thread nD τ).loc main_arg17)⟩] concatenates_S512x256_S512x256_S512x512_d1 := by
  have h15 := after_take5 (F := F) 24 (W25 m o0 o1 o2 o3 o4 c) main_arg15 (by decide)
  have h17 := after_take5 (F := F) 24 (W25 m o0 o1 o2 o3 o4 c) main_arg17 (by decide)
  show StableHlo.after hostOps5 (W25 m o0 o1 o2 o3 o4 c) (Proc.devRef .tc main_v225) = _
  rw [← List.take_append_drop 24 (hostOps5 : List (HloOp τ sig (Elt F))), after_append]
  generalize StableHlo.after ((hostOps5 : List (HloOp τ sig (Elt F))).take 24) (W25 m o0 o1 o2 o3 o4 c) = P at h15 h17 ⊢
  show StableHlo.after [_, _, _] P (Proc.devRef .tc main_v225) = _
  after_results
  rw [h15, h17, W25_main_arg15, W25_main_arg17]

/-- The bias row region 5 reads: the two bias vectors end to end, as one row. -/
theorem W26_main_v227 (c : Dev nD) :
    W26 m o0 o1 o2 o3 o4 c main_v227
      = shapeCast S1x512 (concatenate S512 0 [⟨S256, m ((c : Thread nD τ).loc main_arg16)⟩, ⟨S256, m ((c : Thread nD τ).loc main_arg18)⟩] concatenates_S256_S256_S512_d0) shapeCasts_S512_S1x512 := by
  have h16 := after_take5 (F := F) 24 (W25 m o0 o1 o2 o3 o4 c) main_arg16 (by decide)
  have h18 := after_take5 (F := F) 24 (W25 m o0 o1 o2 o3 o4 c) main_arg18 (by decide)
  show StableHlo.after hostOps5 (W25 m o0 o1 o2 o3 o4 c) (Proc.devRef .tc main_v227) = _
  rw [← List.take_append_drop 24 (hostOps5 : List (HloOp τ sig (Elt F))), after_append]
  generalize StableHlo.after ((hostOps5 : List (HloOp τ sig (Elt F))).take 24) (W25 m o0 o1 o2 o3 o4 c) = P at h16 h18 ⊢
  show StableHlo.after [_, _, _] P (Proc.devRef .tc main_v227) = _
  after_results
  rw [h16, h18, W25_main_arg16, W25_main_arg18]
  rfl

end Cert.KernelIdeal.Hand

end
-- ==== Proof.RefResults.lean ====
/-
  Two of the reference's results as terms of its arguments. Results 2 and 3 are the linear encoder and its twin,
  feat @ W2 + b2 and feat @ W2_t + b2_t: one whole-array product each, and the bias row broadcast down the rows.
-/
import proofs.«175488_j3908420240157_2_alg».proof.Proof.RefFrame

set_option maxRecDepth 65536

noncomputable section

namespace Cert.Proof.Parts

open Cert.ReferenceIdeal Cert.ReferenceIdeal.Gen Cert.ReferenceIdeal.OpsP
open Idealize.ShloMosaic Idealize.ShloMosaic.TcCoe Idealize.SL.Sem Idealize.ShloMosaic.StableHlo

variable {F : FTy → Type} [FloatOps F]

set_option maxHeartbeats 0 in
/-- Result 2 of the reference: the product of the features with the first encoder's weights, plus its bias row. -/
theorem ref_main_v276 (m : (ℓ : Loc nD τ sig) → Buf (Elt F) ℓ) (d : Dev nD) :
    after ops (launchContents m d) (Proc.devRef .tc main_v276)
      = addf (Host.dotGeneral dot_S10000x512_S512x256_S10000x256_1_0_0_1_n_n none (m ((d.tc : Thread nD τ).loc main_arg0)) (m ((d.tc : Thread nD τ).loc main_arg15)))
          (broadcastInDim S10000x256 ![0, 1] bcast_S1x256_S10000x256_0_1 (broadcastInDim S1x256 ![1] bcast_S256_S1x256_1 (m ((d.tc : Thread nD τ).loc main_arg16)))) := by
  after_results_simp <;> rfl

set_option maxHeartbeats 0 in
/-- Result 3 of the reference: the same with the twin encoder's weights and bias. -/
theorem ref_main_v280 (m : (ℓ : Loc nD τ sig) → Buf (Elt F) ℓ) (d : Dev nD) :
    after ops (launchContents m d) (Proc.devRef .tc main_v280)
      = addf (Host.dotGeneral dot_S10000x512_S512x256_S10000x256_1_0_0_1_n_n none (m ((d.tc : Thread nD τ).loc main_arg0)) (m ((d.tc : Thread nD τ).loc main_arg17)))
          (broadcastInDim S10000x256 ![0, 1] bcast_S1x256_S10000x256_0_1 (broadcastInDim S1x256 ![1] bcast_S256_S1x256_1 (m ((d.tc : Thread nD τ).loc main_arg18)))) := by
  after_results_simp <;> rfl

end Cert.Proof.Parts

end
-- ==== Proof.Values23.lean ====
/-
  Results 2 and 3 of the two idealized programs agree.

  The reference computes each linear encoder on its own: the features times the encoder's weight matrix, one whole
  product on the host, plus the encoder's bias on every row. The kernel computes both at once: region 5 multiplies
  the features by the two weight matrices set side by side and adds the two bias vectors set end to end, and the
  host then cuts the result in two by columns. Region 5's product is a three-pass split product block by block, and
  on operands with real entries that is the plain sum of products (the value of region 5, proved with its record).
  A column of the side-by-side matrix is a column of the left matrix or of the right one, so each half of the joint
  product, read at (r, col), is the sum over k of x(r, k) · w(k, col) plus the bias entry — the reference's term.
-/
import proofs.«175488_j3908420240157_2_alg».proof.Proof.Algebraic
import proofs.«175488_j3908420240157_2_alg».proof.Proof.KI.Value5
import proofs.«175488_j3908420240157_2_alg».proof.Proof.KI.Results
import proofs.«175488_j3908420240157_2_alg».proof.Proof.KI.Entry5
import proofs.«175488_j3908420240157_2_alg».proof.Proof.RefResults
import proofs.«175488_j3908420240157_2_alg».proof.Proof.LibMatProd

set_option maxRecDepth 65536

noncomputable section

open scoped BigOperators

namespace Cert.Proof.Parts

open Idealize.ShloMosaic Idealize.ShloMosaic.TcCoe Idealize.SL.Sem Idealize.ShloMosaic.ValueIdx

/-! ## Two arrays side by side, and two vectors end to end as one row, read at an index -/

/-- Two 512 x 256 arrays side by side: a column below 256 is the left array's. -/
theorem cols_left (A B : FVec Ideal ⟨2, ![512, 256]⟩ .f32)
    (h : Shape.Concatenates [(⟨2, ![512, 256]⟩ : Shape), ⟨2, ![512, 256]⟩] ⟨2, ![512, 512]⟩ 1) (k : Fin 512) (q : Fin 256) :
    concatenate ⟨2, ![512, 512]⟩ 1 [⟨⟨2, ![512, 256]⟩, A⟩, ⟨⟨2, ![512, 256]⟩, B⟩] h
        (ix2 k (⟨q.val, by have := q.isLt; omega⟩ : Fin 512)) = A (ix2 k q) :=
  concatenate_pair_apply_left 1 A B h _ rfl (ix2 k q) fun b => by match b with | ⟨0, _⟩ => rfl | ⟨1, _⟩ => rfl

/-- A column from 256 on is the right array's, 256 columns back. -/
theorem cols_right (A B : FVec Ideal ⟨2, ![512, 256]⟩ .f32)
    (h : Shape.Concatenates [(⟨2, ![512, 256]⟩ : Shape), ⟨2, ![512, 256]⟩] ⟨2, ![512, 512]⟩ 1) (k : Fin 512) (q : Fin 256) :
    concatenate ⟨2, ![512, 512]⟩ 1 [⟨⟨2, ![512, 256]⟩, A⟩, ⟨⟨2, ![512, 256]⟩, B⟩] h
        (ix2 k (⟨256 + q.val, by have := q.isLt; omega⟩ : Fin 512)) = B (ix2 k q) :=
  concatenate_pair_apply_right 1 A B h _ rfl rfl (ix2 k q)
    (fun b hb => by match b with | ⟨0, _⟩ => rfl | ⟨1, _⟩ => exact absurd (Fin.ext rfl) hb)
    (by show q.val + 256 = 256 + q.val; omega)

/-- Two vectors of 256 entries end to end, as one row of 512: an entry below 256 is the first vector's. -/
theorem row_left (a b : FVec Ideal ⟨1, ![256]⟩ .f32)
    (h : Shape.Concatenates [(⟨1, ![256]⟩ : Shape), ⟨1, ![256]⟩] ⟨1, ![512]⟩ 0)
    (hc : (⟨1, ![512]⟩ : Shape).ShapeCasts ⟨2, ![1, 512]⟩) (q : Fin 256) :
    shapeCast ⟨2, ![1, 512]⟩ (concatenate ⟨1, ![512]⟩ 0 [⟨⟨1, ![256]⟩, a⟩, ⟨⟨1, ![256]⟩, b⟩] h) hc
        (ix2 (0 : Fin 1) (⟨q.val, by have := q.isLt; omega⟩ : Fin 512)) = a (ix1 q) :=
  (shapeCast_apply _ hc _ (ix1 (⟨q.val, by have := q.isLt; omega⟩ : Fin 512))
      (by rw [Shape.rowMajor_val_one, Shape.rowMajor_val_two]; show q.val = 0 * 512 + q.val; omega)).trans
    (concatenate_pair_apply_left 0 a b h _ rfl (ix1 q) fun b => by match b with | ⟨0, _⟩ => rfl)

/-- An entry from 256 on is the second vector's. -/
theorem row_right (a b : FVec Ideal ⟨1, ![256]⟩ .f32)
    (h : Shape.Concatenates [(⟨1, ![256]⟩ : Shape), ⟨1, ![256]⟩] ⟨1, ![512]⟩ 0)
    (hc : (⟨1, ![512]⟩ : Shape).ShapeCasts ⟨2, ![1, 512]⟩) (q : Fin 256) :
    shapeCast ⟨2, ![1, 512]⟩ (concatenate ⟨1, ![512]⟩ 0 [⟨⟨1, ![256]⟩, a⟩, ⟨⟨1, ![256]⟩, b⟩] h) hc
        (ix2 (0 : Fin 1) (⟨256 + q.val, by have := q.isLt; omega⟩ : Fin 512)) = b (ix1 q) :=
  (shapeCast_apply _ hc _ (ix1 (⟨256 + q.val, by have := q.isLt; omega⟩ : Fin 512))
      (by rw [Shape.rowMajor_val_one, Shape.rowMajor_val_two]; show 256 + q.val = 0 * 512 + (256 + q.val); omega)).trans
    (concatenate_pair_apply_right 0 a b h _ rfl rfl (ix1 q)
      (fun b hb => by match b with | ⟨0, _⟩ => exact absurd (Fin.ext rfl) hb)
      (by show q.val + 256 = 256 + q.val; omega))

/-! ## One encoder: the host's product plus its bias row is a block of columns of the joint product -/

/-- The first encoder: x · A plus the bias a on every row is the first 256 columns of x · [A | B] plus the row [a, b]. -/
theorem encoder_left (d : DotDims ⟨2, ![10000, 512]⟩ ⟨2, ![512, 256]⟩ ⟨2, ![10000, 256]⟩)
    (hr : d.contr.rank = 1) (hs : d.contr.size ⟨0, by omega⟩ = 512)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (X : FVec Ideal ⟨2, ![10000, 512]⟩ .f32) (A B : FVec Ideal ⟨2, ![512, 256]⟩ .f32) (a b : FVec Ideal ⟨1, ![256]⟩ .f32)
    (hcat : Shape.Concatenates [(⟨2, ![512, 256]⟩ : Shape), ⟨2, ![512, 256]⟩] ⟨2, ![512, 512]⟩ 1)
    (hcat0 : Shape.Concatenates [(⟨1, ![256]⟩ : Shape), ⟨1, ![256]⟩] ⟨1, ![512]⟩ 0)
    (hsc : (⟨1, ![512]⟩ : Shape).ShapeCasts ⟨2, ![1, 512]⟩)
    (hb1 : (⟨1, ![256]⟩ : Shape).BroadcastsInDim ⟨2, ![1, 256]⟩ ![1])
    (hb2 : (⟨2, ![1, 256]⟩ : Shape).BroadcastsInDim ⟨2, ![10000, 256]⟩ ![0, 1])
    (hsl : (⟨2, ![10000, 512]⟩ : Shape).Slices ![0, 0] ⟨2, ![10000, 256]⟩) :
    addf (F := Ideal) (Host.dotGeneral (F := Ideal) d none X A)
        (broadcastInDim ⟨2, ![10000, 256]⟩ ![0, 1] hb2 (broadcastInDim ⟨2, ![1, 256]⟩ ![1] hb1 a))
      = extractStridedSlice ⟨2, ![10000, 256]⟩ ![0, 0]
          (Cert.KernelIdeal.Hand.G5 X (concatenate ⟨2, ![512, 512]⟩ 1 [⟨⟨2, ![512, 256]⟩, A⟩, ⟨⟨2, ![512, 256]⟩, B⟩] hcat)
            (shapeCast ⟨2, ![1, 512]⟩ (concatenate ⟨1, ![512]⟩ 0 [⟨⟨1, ![256]⟩, a⟩, ⟨⟨1, ![256]⟩, b⟩] hcat0) hsc)) hsl := by
  funext j
  obtain ⟨r, col, rfl⟩ : ∃ (r : Fin 10000) (col : Fin 256), j = ix2 r col := ⟨j 0, j 1, eq_ix2 j⟩
  rw [addf_apply, Cert.MatProd.hostDot_apply d hr hs hl0 hl1 hr0 hr1 X A (ix2 r col)]
  rw [broadcastInDim_apply ![0, 1] hb2 _ (ix2 r col) (ix2 (0 : Fin 1) col) (fun a => by match a with | ⟨0, _⟩ => rfl | ⟨1, _⟩ => rfl)]
  rw [broadcastInDim_apply ![1] hb1 _ (ix2 (0 : Fin 1) col) (ix1 col) (fun a => by match a with | ⟨0, _⟩ => rfl)]
  rw [extractStridedSlice_apply ![0, 0] _ hsl (ix2 r col) (ix2 r (⟨col.val, by have := col.isLt; omega⟩ : Fin 512))
    (fun a => by match a with | ⟨0, _⟩ => exact (Nat.zero_add _).symm | ⟨1, _⟩ => exact (Nat.zero_add _).symm)]
  rw [Cert.KernelIdeal.Hand.G5_apply, row_left a b hcat0 hsc col]
  unfold Cert.Spec.rowsByCols
  exact congrArg (· + _) (Finset.sum_congr rfl fun k _ => by rw [cols_left A B hcat k col])

/-- The twin encoder: x · B plus the bias b is the last 256 columns. -/
theorem encoder_right (d : DotDims ⟨2, ![10000, 512]⟩ ⟨2, ![512, 256]⟩ ⟨2, ![10000, 256]⟩)
    (hr : d.contr.rank = 1) (hs : d.contr.size ⟨0, by omega⟩ = 512)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (X : FVec Ideal ⟨2, ![10000, 512]⟩ .f32) (A B : FVec Ideal ⟨2, ![512, 256]⟩ .f32) (a b : FVec Ideal ⟨1, ![256]⟩ .f32)
    (hcat : Shape.Concatenates [(⟨2, ![512, 256]⟩ : Shape), ⟨2, ![512, 256]⟩] ⟨2, ![512, 512]⟩ 1)
    (hcat0 : Shape.Concatenates [(⟨1, ![256]⟩ : Shape), ⟨1, ![256]⟩] ⟨1, ![512]⟩ 0)
    (hsc : (⟨1, ![512]⟩ : Shape).ShapeCasts ⟨2, ![1, 512]⟩)
    (hb1 : (⟨1, ![256]⟩ : Shape).BroadcastsInDim ⟨2, ![1, 256]⟩ ![1])
    (hb2 : (⟨2, ![1, 256]⟩ : Shape).BroadcastsInDim ⟨2, ![10000, 256]⟩ ![0, 1])
    (hsl : (⟨2, ![10000, 512]⟩ : Shape).Slices ![0, 256] ⟨2, ![10000, 256]⟩) :
    addf (F := Ideal) (Host.dotGeneral (F := Ideal) d none X B)
        (broadcastInDim ⟨2, ![10000, 256]⟩ ![0, 1] hb2 (broadcastInDim ⟨2, ![1, 256]⟩ ![1] hb1 b))
      = extractStridedSlice ⟨2, ![10000, 256]⟩ ![0, 256]
          (Cert.KernelIdeal.Hand.G5 X (concatenate ⟨2, ![512, 512]⟩ 1 [⟨⟨2, ![512, 256]⟩, A⟩, ⟨⟨2, ![512, 256]⟩, B⟩] hcat)
            (shapeCast ⟨2, ![1, 512]⟩ (concatenate ⟨1, ![512]⟩ 0 [⟨⟨1, ![256]⟩, a⟩, ⟨⟨1, ![256]⟩, b⟩] hcat0) hsc)) hsl := by
  funext j
  obtain ⟨r, col, rfl⟩ : ∃ (r : Fin 10000) (col : Fin 256), j = ix2 r col := ⟨j 0, j 1, eq_ix2 j⟩
  rw [addf_apply, Cert.MatProd.hostDot_apply d hr hs hl0 hl1 hr0 hr1 X B (ix2 r col)]
  rw [broadcastInDim_apply ![0, 1] hb2 _ (ix2 r col) (ix2 (0 : Fin 1) col) (fun a => by match a with | ⟨0, _⟩ => rfl | ⟨1, _⟩ => rfl)]
  rw [broadcastInDim_apply ![1] hb1 _ (ix2 (0 : Fin 1) col) (ix1 col) (fun a => by match a with | ⟨0, _⟩ => rfl)]
  rw [extractStridedSlice_apply ![0, 256] _ hsl (ix2 r col) (ix2 r (⟨256 + col.val, by have := col.isLt; omega⟩ : Fin 512))
    (fun a => by match a with | ⟨0, _⟩ => exact (Nat.zero_add _).symm | ⟨1, _⟩ => rfl)]
  rw [Cert.KernelIdeal.Hand.G5_apply, row_right a b hcat0 hsc col]
  unfold Cert.Spec.rowsByCols
  exact congrArg (· + _) (Finset.sum_congr rfl fun k _ => by rw [cols_right A B hcat k col])

/-! ## What region 5 leaves, from the launch memory -/

variable (m : (ℓ : Loc Cert.KernelIdeal.nD Cert.KernelIdeal.τ Cert.KernelIdeal.sig) → Buf (Elt Ideal) ℓ)

/-- Region 5's output array is the joint product: the features times the two weight matrices side by side, plus the
    two bias vectors end to end on every row — for features and weights with real entries. -/
theorem o5_eq (c : Dev Cert.KernelIdeal.nD)
    (hfeat : ∀ i, ∃ r : ℝ, (m ((c.tc : Thread Cert.KernelIdeal.nD Cert.KernelIdeal.τ).loc Cert.KernelIdeal.main_arg0) : FVec Ideal Cert.KernelIdeal.S10000x512 .f32) i = (r : EReal))
    (hW2 : ∀ i, ∃ r : ℝ, (m ((c.tc : Thread Cert.KernelIdeal.nD Cert.KernelIdeal.τ).loc Cert.KernelIdeal.main_arg15) : FVec Ideal Cert.KernelIdeal.S512x256 .f32) i = (r : EReal))
    (hW2t : ∀ i, ∃ r : ℝ, (m ((c.tc : Thread Cert.KernelIdeal.nD Cert.KernelIdeal.τ).loc Cert.KernelIdeal.main_arg17) : FVec Ideal Cert.KernelIdeal.S512x256 .f32) i = (r : EReal)) :
    Cert.KernelIdeal.Hand.o5 m c = Cert.KernelIdeal.Hand.G5 (m ((c.tc : Thread Cert.KernelIdeal.nD Cert.KernelIdeal.τ).loc Cert.KernelIdeal.main_arg0)) (concatenate Cert.KernelIdeal.S512x512 1 [⟨Cert.KernelIdeal.S512x256, m ((c.tc : Thread Cert.KernelIdeal.nD Cert.KernelIdeal.τ).loc Cert.KernelIdeal.main_arg15)⟩, ⟨Cert.KernelIdeal.S512x256, m ((c.tc : Thread Cert.KernelIdeal.nD Cert.KernelIdeal.τ).loc Cert.KernelIdeal.main_arg17)⟩] Cert.KernelIdeal.Gen.concatenates_S512x256_S512x256_S512x512_d1) (shapeCast Cert.KernelIdeal.S1x512 (concatenate Cert.KernelIdeal.S512 0 [⟨Cert.KernelIdeal.S256, m ((c.tc : Thread Cert.KernelIdeal.nD Cert.KernelIdeal.τ).loc Cert.KernelIdeal.main_arg16)⟩, ⟨Cert.KernelIdeal.S256, m ((c.tc : Thread Cert.KernelIdeal.nD Cert.KernelIdeal.τ).loc Cert.KernelIdeal.main_arg18)⟩] Cert.KernelIdeal.Gen.concatenates_S256_S256_S512_d0) Cert.KernelIdeal.Gen.shapeCasts_S512_S1x512) := by
  have hX := Cert.KernelIdeal.Hand.W26_main_arg0 m (Cert.KernelIdeal.Hand.o0 m) (Cert.KernelIdeal.Hand.o1 m) (Cert.KernelIdeal.Hand.o2 m) (Cert.KernelIdeal.Hand.o3 m) (Cert.KernelIdeal.Hand.o4 m) c
  have hWc := Cert.KernelIdeal.Hand.W26_main_v225 m (Cert.KernelIdeal.Hand.o0 m) (Cert.KernelIdeal.Hand.o1 m) (Cert.KernelIdeal.Hand.o2 m) (Cert.KernelIdeal.Hand.o3 m) (Cert.KernelIdeal.Hand.o4 m) c
  have hBc := Cert.KernelIdeal.Hand.W26_main_v227 m (Cert.KernelIdeal.Hand.o0 m) (Cert.KernelIdeal.Hand.o1 m) (Cert.KernelIdeal.Hand.o2 m) (Cert.KernelIdeal.Hand.o3 m) (Cert.KernelIdeal.Hand.o4 m) c
  have hx : ∀ i, ∃ r : ℝ, (Cert.KernelIdeal.Hand.Vof (Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m)) c Cert.KernelIdeal.main_arg0 : FVec Ideal Cert.KernelIdeal.S10000x512 .f32) i = (r : EReal) := by
    intro i
    show ∃ r : ℝ, (Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m) c Cert.KernelIdeal.main_arg0 : FVec Ideal Cert.KernelIdeal.S10000x512 .f32) i = (r : EReal)
    rw [hX]; exact hfeat i
  have hw : ∀ i, ∃ r : ℝ, (Cert.KernelIdeal.Hand.Vof (Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m)) c Cert.KernelIdeal.main_v225 : FVec Ideal Cert.KernelIdeal.S512x512 .f32) i = (r : EReal) := by
    intro i
    show ∃ r : ℝ, (Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m) c Cert.KernelIdeal.main_v225 : FVec Ideal Cert.KernelIdeal.S512x512 .f32) i = (r : EReal)
    rw [hWc]
    obtain ⟨k, q, rfl⟩ : ∃ (k : Fin 512) (q : Fin 512), i = ix2 k q := ⟨i 0, i 1, eq_ix2 i⟩
    by_cases hq : q.val < 256
    · have e : (ix2 k q : (⟨2, ![512, 512]⟩ : Shape).Idx) = ix2 k (⟨(⟨q.val, hq⟩ : Fin 256).val, by omega⟩ : Fin 512) := rfl
      rw [e, cols_left]; exact hW2 _
    · have hq' : q.val - 256 < 256 := by have := q.isLt; omega
      have e : (ix2 k q : (⟨2, ![512, 512]⟩ : Shape).Idx) = ix2 k (⟨256 + (⟨q.val - 256, hq'⟩ : Fin 256).val, by have := q.isLt; omega⟩ : Fin 512) :=
        congrArg (ix2 k) (Fin.ext (by show q.val = 256 + (q.val - 256); omega))
      rw [e, cols_right]; exact hW2t _
  show Cert.KernelIdeal.Hand.fin5 (U := Cert.KernelIdeal.Hand.UU Cert.KernelIdeal.nD Cert.KernelIdeal.τ) (Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m)) c = _
  refine (Cert.KernelIdeal.Hand.fin5_eq (U := Cert.KernelIdeal.Hand.UU Cert.KernelIdeal.nD Cert.KernelIdeal.τ) (Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m)) c hx hw).trans ?_
  show Cert.KernelIdeal.Hand.G5 (Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m) c Cert.KernelIdeal.main_arg0) (Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m) c Cert.KernelIdeal.main_v225) (Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m) c Cert.KernelIdeal.main_v227) = _
  rw [hX, hWc, hBc]

/-! ## The two equations -/

/-- Results 2 and 3: the reference's two encoders are the two halves, by columns, of what the kernel's region 5 leaves. -/
theorem values23 (m' : (ℓ : Loc Cert.ReferenceIdeal.nD Cert.ReferenceIdeal.τ Cert.ReferenceIdeal.sig) → Buf (Elt Ideal) ℓ) (hagree : Agree m m') (c : Dev Cert.KernelIdeal.nD)
    (hfeat : ∀ i, ∃ r : ℝ, (m ((c.tc : Thread Cert.KernelIdeal.nD Cert.KernelIdeal.τ).loc Cert.KernelIdeal.main_arg0) : FVec Ideal Cert.KernelIdeal.S10000x512 .f32) i = (r : EReal))
    (hW2 : ∀ i, ∃ r : ℝ, (m ((c.tc : Thread Cert.KernelIdeal.nD Cert.KernelIdeal.τ).loc Cert.KernelIdeal.main_arg15) : FVec Ideal Cert.KernelIdeal.S512x256 .f32) i = (r : EReal))
    (hW2t : ∀ i, ∃ r : ℝ, (m ((c.tc : Thread Cert.KernelIdeal.nD Cert.KernelIdeal.τ).loc Cert.KernelIdeal.main_arg17) : FVec Ideal Cert.KernelIdeal.S512x256 .f32) i = (r : EReal)) :
    StableHlo.after (Cert.ReferenceIdeal.OpsP.ops (F := Ideal)) (StableHlo.launchContents m' c) (Proc.devRef .tc Cert.ReferenceIdeal.main_v276) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v229
    ∧ StableHlo.after (Cert.ReferenceIdeal.OpsP.ops (F := Ideal)) (StableHlo.launchContents m' c) (Proc.devRef .tc Cert.ReferenceIdeal.main_v280) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v230 := by
  obtain ⟨a0, -, -, -, -, -, -, -, -, -, -, -, -, -, -, a15, a16, a17, a18, -, -⟩ := hagree c
  have ho5 := o5_eq m c hfeat hW2 hW2t
  constructor
  · refine (ref_main_v276 (F := Ideal) m' c).trans ?_
    refine Eq.trans ?_ (Cert.KernelIdeal.Hand.W32_main_v229 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c).symm
    rw [a0, a15, a16, ho5]
    exact encoder_left _ rfl rfl (fun _ _ => rfl) (fun _ _ => rfl) (fun _ _ => rfl) (fun _ _ => rfl) _ _ _ _ _ _ _ _ _ _ _
  · refine (ref_main_v280 (F := Ideal) m' c).trans ?_
    refine Eq.trans ?_ (Cert.KernelIdeal.Hand.W32_main_v230 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c).symm
    rw [a0, a17, a18, ho5]
    exact encoder_right _ rfl rfl (fun _ _ => rfl) (fun _ _ => rfl) (fun _ _ => rfl) (fun _ _ => rfl) _ _ _ _ _ _ _ _ _ _ _

/-- info: 'Cert.Proof.Parts.values23' depends on axioms: [propext, Classical.choice, Quot.sound] -/
#guard_msgs in #print axioms values23

end Cert.Proof.Parts

end
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.LibRealClosure.lean ====
/-
  Real entries are preserved by the exact operations.

  On the extended reals an array "has real entries" when no entry is an infinity. The laws that join two arrangements of
  one computation (distributivity, x - x = 0, moving a factor across a sum) hold on the reals and fail at the infinities,
  so a proof carries "every entry is a real" along a chain of operations. This file is that bookkeeping, operation by
  operation, at the exact reading of the float operations:

  * scalars: a + b, a - b, a · b, -a, max a b, min a b of reals are reals; so are a / b for a nonzero real b, the
    square root of a nonnegative real, the exponential of a real, the logarithm of a positive real, a real to a real
    power (the reals' "rpow", whatever the base's sign), and either branch of a selection between two reals;
    a finite sum of reals is a real; a float constant whose exponent field is not all ones is a real;
  * arrays, elementwise: the same, entry by entry, for the kernel's and the host's operations;
  * arrays, re-indexings: a broadcast, a shape cast, a transpose, a slice or a gather reads every entry from its operand,
    so the result's entries are real when the operand's are;
  * arrays, sums: a host reduction by addition (the initial value plus a finite sum of operand entries), a kernel's
    reduction by addition, an accumulating scatter (an operand entry plus a finite sum of update entries), a matrix
    product on the host or in a kernel (an accumulator entry plus a finite sum of products);
  * two order facts used with them: the exponential of a real is positive, and a real that is not zero has a nonzero
    coercion; and a precondition's "every entry differs from zero" read back from its reduction by "and".
-/
import Idealize.ShloMosaic.PureOps.Ideal
import Idealize.ShloMosaic.PureOps.Ideal.Laws
import Idealize.ShloMosaic.Lib.ReduceAll

noncomputable section

open scoped BigOperators

namespace Cert.Lib.RealClosure

open Idealize.ShloMosaic

/-- An extended real that is a real number (neither infinity). -/
abbrev IsReal (z : EReal) : Prop := ∃ r : ℝ, z = (r : EReal)

/-- Every entry of an array of extended reals is a real number. -/
abbrev EntriesReal {ι : Type} (v : ι → EReal) : Prop := ∀ i, IsReal (v i)

/-! ## Scalars -/

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

/-- A real is neither infinity. -/
theorem IsReal.ne_top {a : EReal} (ha : IsReal a) : a ≠ ⊤ := by
  obtain ⟨x, rfl⟩ := ha; exact EReal.coe_ne_top x
theorem IsReal.ne_bot {a : EReal} (ha : IsReal a) : a ≠ ⊥ := by
  obtain ⟨x, rfl⟩ := ha; exact EReal.coe_ne_bot x

/-- An extended real that is neither infinity is a real. -/
theorem isReal_of_ne {a : EReal} (ht : a ≠ ⊤) (hb : a ≠ ⊥) : IsReal a := by
  induction a using EReal.rec with
  | bot => exact absurd rfl hb
  | coe r => exact ⟨r, rfl⟩
  | top => exact absurd rfl ht

theorem isReal_add {a b : EReal} (ha : IsReal a) (hb : IsReal b) : IsReal (a + b) := by
  obtain ⟨x, rfl⟩ := ha; obtain ⟨y, rfl⟩ := hb; exact ⟨x + y, (EReal.coe_add x y).symm⟩
theorem isReal_sub {a b : EReal} (ha : IsReal a) (hb : IsReal b) : IsReal (a - b) := by
  obtain ⟨x, rfl⟩ := ha; obtain ⟨y, rfl⟩ := hb; exact ⟨x - y, (EReal.coe_sub x y).symm⟩
theorem isReal_mul {a b : EReal} (ha : IsReal a) (hb : IsReal b) : IsReal (a * b) := by
  obtain ⟨x, rfl⟩ := ha; obtain ⟨y, rfl⟩ := hb; exact ⟨x * y, (EReal.coe_mul x y).symm⟩
theorem isReal_neg {a : EReal} (ha : IsReal a) : IsReal (-a) := by
  obtain ⟨x, rfl⟩ := ha; exact ⟨-x, (EReal.coe_neg x).symm⟩
/-- The maximum of two reals is one of them. -/
theorem isReal_max {a b : EReal} (ha : IsReal a) (hb : IsReal b) : IsReal (max a b) := by
  rcases max_choice a b with h | h <;> rw [h] <;> assumption
theorem isReal_min {a b : EReal} (ha : IsReal a) (hb : IsReal b) : IsReal (min a b) := by
  rcases min_choice a b with h | h <;> rw [h] <;> assumption

/-- A real divided by a nonzero real: the reals' quotient. -/
theorem isReal_div {a b : EReal} (ha : IsReal a) (hb : IsReal b) (hb0 : b ≠ 0) : IsReal (Ideal.div a b) := by
  obtain ⟨x, rfl⟩ := ha; obtain ⟨y, rfl⟩ := hb
  have hy : y ≠ 0 := fun h => hb0 (by rw [h, EReal.coe_zero])
  exact ⟨x * (1 / y), by rw [Ideal.div_coe hy, ← EReal.coe_mul]⟩

/-- The square root of a nonnegative real. -/
theorem isReal_sqrt {a : EReal} (ha : IsReal a) (h0 : 0 ≤ a) : IsReal (Ideal.sqrt a) := by
  obtain ⟨x, rfl⟩ := ha
  have hx : ¬ x < 0 := not_lt.mpr (EReal.coe_nonneg.mp h0)
  exact ⟨Real.sqrt x, by rw [Ideal.sqrt_coe, if_neg hx]⟩

/-- The exponential of a real. -/
theorem isReal_exp {a : EReal} (ha : IsReal a) : IsReal (Ideal.exp a) := by
  obtain ⟨x, rfl⟩ := ha; exact ⟨Real.exp x, Ideal.exp_coe x⟩

/-- The exponential of a real is positive. -/
theorem exp_pos {a : EReal} (ha : IsReal a) : 0 < Ideal.exp a := by
  obtain ⟨x, rfl⟩ := ha
  rw [Ideal.exp_coe]; exact EReal.coe_pos.mpr (Real.exp_pos x)

/-- The logarithm of a positive real. -/
theorem isReal_log {a : EReal} (ha : IsReal a) (h0 : 0 < a) : IsReal (Ideal.log a) := by
  obtain ⟨x, rfl⟩ := ha
  have hx : ¬ x ≤ 0 := not_le.mpr (EReal.coe_pos.mp h0)
  exact ⟨Real.log x, by rw [Ideal.log_coe, if_neg hx]⟩

/-- A real to a real power is the reals' power, a real whatever the base's sign. -/
theorem isReal_pow {a b : EReal} (ha : IsReal a) (hb : IsReal b) : IsReal (Ideal.pow a b) := by
  obtain ⟨x, rfl⟩ := ha; obtain ⟨y, rfl⟩ := hb; exact ⟨Real.rpow x y, Ideal.pow_coe_coe x y⟩

/-- A selection between two reals. -/
theorem isReal_select (c : BitVec 1) {a b : EReal} (ha : IsReal a) (hb : IsReal b) : IsReal (Scalar.select c a b) := by
  unfold Scalar.select; split <;> assumption

/-- A finite sum of reals. -/
theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (hf a (Finset.mem_insert_self a s)) (ih fun i hi => hf i (Finset.mem_insert_of_mem hi))

/-- A nonzero real has a nonzero coercion, and conversely: "not zero" passes between the two. -/
theorem coe_ne_zero {r : ℝ} : (r : EReal) ≠ 0 ↔ r ≠ 0 := by
  constructor
  · intro h hr; exact h (by rw [hr, EReal.coe_zero])
  · intro h hr; exact h (by exact_mod_cast hr)

/-! ## Float constants -/

/-- A pattern whose exponent field is not all ones denotes a real (a zero, a subnormal or a normal number). -/
theorem isReal_ieee (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- A single-precision pattern whose exponent field is not 255 denotes a real. -/
theorem isReal_ofBits_f32 (b : BitVec 32) (h : (b.extractLsb' 23 8).toNat ≠ 255) : IsReal (Ideal.ofBits .f32 b) :=
  isReal_ieee 8 23 b h

/-- A splat constant of a real pattern. -/
theorem constant_real (s : Shape) (φ : FTy) (b : BitVec φ.bits) (h : IsReal (Ideal.ofBits φ b)) :
    EntriesReal (constant (F := Ideal) s φ b) := fun _ => h

/-- The zero splat. -/
theorem constant_zero_real (s : Shape) : EntriesReal (constant (F := Ideal) s .f32 0x00000000#32) := fun _ => by
  show IsReal (Ideal.ofBits .f32 0x00000000#32)
  rw [Ideal.ofBits_zero_f32]; exact isReal_zero

/-! ## Arrays, entry by entry -/

section Elementwise
variable {s : Shape} {φ : FTy} {x y : FVec Ideal s φ}

theorem addf_real (hx : EntriesReal x) (hy : EntriesReal y) : EntriesReal (addf (F := Ideal) x y) :=
  fun i => isReal_add (hx i) (hy i)
theorem subf_real (hx : EntriesReal x) (hy : EntriesReal y) : EntriesReal (subf (F := Ideal) x y) :=
  fun i => isReal_sub (hx i) (hy i)
theorem mulf_real (hx : EntriesReal x) (hy : EntriesReal y) : EntriesReal (mulf (F := Ideal) x y) :=
  fun i => isReal_mul (hx i) (hy i)
theorem maximumf_real (hx : EntriesReal x) (hy : EntriesReal y) : EntriesReal (maximumf (F := Ideal) x y) :=
  fun i => isReal_max (hx i) (hy i)
theorem minimumf_real (hx : EntriesReal x) (hy : EntriesReal y) : EntriesReal (minimumf (F := Ideal) x y) :=
  fun i => isReal_min (hx i) (hy i)
theorem negf_real (hx : EntriesReal x) : EntriesReal (negf (F := Ideal) x) := fun i => isReal_neg (hx i)
theorem hostNegf_real (hx : EntriesReal x) : EntriesReal (Host.negf (F := Ideal) x) := fun i => isReal_neg (hx i)

/-- A quotient by an array whose entries are nonzero reals, in a kernel … -/
theorem divf_real (hx : EntriesReal x) (hy : EntriesReal y) (hy0 : ∀ i, y i ≠ 0) : EntriesReal (divf (F := Ideal) x y) :=
  fun i => isReal_div (hx i) (hy i) (hy0 i)
/-- … and on the host. -/
theorem hostDivf_real (hx : EntriesReal x) (hy : EntriesReal y) (hy0 : ∀ i, y i ≠ 0) :
    EntriesReal (Host.divf (F := Ideal) x y) :=
  fun i => isReal_div (hx i) (hy i) (hy0 i)

/-- The square root of an array with nonnegative real entries, in a kernel and on the host. -/
theorem sqrt_real (hx : EntriesReal x) (h0 : ∀ i, 0 ≤ x i) : EntriesReal (sqrt (F := Ideal) x) :=
  fun i => isReal_sqrt (hx i) (h0 i)
theorem hostSqrt_real (hx : EntriesReal x) (h0 : ∀ i, 0 ≤ x i) : EntriesReal (Host.sqrt (F := Ideal) x) :=
  fun i => isReal_sqrt (hx i) (h0 i)

/-- The exponential, in a kernel and on the host. -/
theorem exp_real (hx : EntriesReal x) : EntriesReal (exp (F := Ideal) x) := fun i => isReal_exp (hx i)
theorem hostExp_real (hx : EntriesReal x) : EntriesReal (Host.exp (F := Ideal) x) := fun i => isReal_exp (hx i)

/-- The logarithm of an array with positive real entries, in a kernel and on the host. -/
theorem log_real (hx : EntriesReal x) (h0 : ∀ i, 0 < x i) : EntriesReal (log (F := Ideal) x) :=
  fun i => isReal_log (hx i) (h0 i)
theorem hostLog_real (hx : EntriesReal x) (h0 : ∀ i, 0 < x i) : EntriesReal (Host.log (F := Ideal) x) :=
  fun i => isReal_log (hx i) (h0 i)

/-- A real array to a real array's power, in a kernel and on the host. -/
theorem powf_real (hx : EntriesReal x) (hy : EntriesReal y) : EntriesReal (powf (F := Ideal) x y) :=
  fun i => isReal_pow (hx i) (hy i)
theorem hostPowf_real (hx : EntriesReal x) (hy : EntriesReal y) : EntriesReal (Host.powf (F := Ideal) x y) :=
  fun i => isReal_pow (hx i) (hy i)

/-- A format change is the identity. -/
theorem truncf_real {ψ : FTy} (h : ψ.bits < φ.bits) (hx : EntriesReal x) : EntriesReal (truncf (F := Ideal) ψ x h) :=
  fun i => hx i
theorem extf_real {ψ : FTy} (h : φ.bits < ψ.bits) (hx : EntriesReal x) : EntriesReal (extf (F := Ideal) ψ x h) :=
  fun i => hx i

end Elementwise

/-- A selection, entry by entry, between two arrays with real entries. -/
theorem select_real {s : Shape} (c : IVec s 1) {a b : s.Idx → EReal} (ha : EntriesReal a) (hb : EntriesReal b) :
    EntriesReal (select c a b) :=
  fun i => isReal_select (c i) (ha i) (hb i)

/-! ## Arrays, re-indexings: every entry of the result is an entry of the operand -/

section Reindex
variable {s t : Shape}

/-- Any re-indexing of an array with real entries. -/
theorem comp_real {ι κ : Type} {x : ι → EReal} (hx : EntriesReal x) (f : κ → ι) : EntriesReal (fun j => x (f j)) :=
  fun j => hx (f j)

theorem broadcast_real {a : EReal} (ha : IsReal a) : EntriesReal (broadcast t a) := fun _ => ha
theorem broadcastTo_real {x : s.Idx → EReal} (h : s.Broadcasts t) (hx : EntriesReal x) :
    EntriesReal (broadcastTo t x h) := fun _ => hx _
theorem broadcastInDim_real {x : s.Idx → EReal} (dims : Fin s.rank → Fin t.rank) (h : s.BroadcastsInDim t dims)
    (hx : EntriesReal x) : EntriesReal (broadcastInDim t dims h x) := fun _ => hx _
theorem shapeCast_real {x : s.Idx → EReal} (h : s.ShapeCasts t) (hx : EntriesReal x) :
    EntriesReal (shapeCast t x h) := fun _ => hx _
theorem transpose_real {x : s.Idx → EReal} (perm : List (Fin s.rank)) (h : s.Transposes perm t) (hx : EntriesReal x) :
    EntriesReal (transpose t perm x h) := fun _ => hx _
theorem extractStridedSlice_real {x : s.Idx → EReal} (off : Fin s.rank → Nat) (h : s.Slices off t) (hx : EntriesReal x) :
    EntriesReal (extractStridedSlice t off x h) := fun _ => hx _
theorem hostSlice_real {x : s.Idx → EReal} (start strides : Fin s.rank → Nat) (h : s.SlicesBy start strides t)
    (hx : EntriesReal x) : EntriesReal (Host.slice t start strides x h) := fun _ => hx _
/-- A gather reads every entry of its result from the operand. -/
theorem hostGather_real {si : Shape} {w : Nat} {x : s.Idx → EReal} (d : GatherDims s si t) (idx : IVec si w)
    (hx : EntriesReal x) : EntriesReal (Host.gather d x idx) := fun _ => hx _

end Reindex

/-! ## Arrays, sums -/

section Sums
variable {s t u : Shape} {φ : FTy}

/-- The host's reduction by addition: the initial value plus a finite sum of operand entries. -/
theorem hostReduceAdd_real {axes : List (Fin s.rank)} {x : FVec Ideal s φ} {init : u.Idx → Ideal φ}
    (h : s.ReducesTo axes t) (hu : 0 < u.numel) (hx : EntriesReal x) (hi : EntriesReal init) :
    EntriesReal (Host.reduceAdd (F := Ideal) x init h hu) := fun j => by
  show IsReal (Ideal.hostReduceAdd h x (init (Shape.Idx.first hu)) j)
  unfold Ideal.hostReduceAdd
  exact isReal_add (hi _) (isReal_sum _ _ fun i _ => hx i)

/-- A kernel's reduction by addition: a finite sum of source entries. -/
theorem multiReduction_add_real {axes : List (Fin s.rank)} {src : FVec Ideal s φ} (acc : BitVec φ.bits)
    (h : s.Reduces axes t) (hφ : FKind.Formats φ) (hacc : acc = FKind.add.neutral φ hφ) (hx : EntriesReal src) :
    EntriesReal (multiReduction (F := Ideal) .add axes t src acc h hφ hacc) := fun j => by
  show IsReal (Ideal.reduceAdd h src j)
  unfold Ideal.reduceAdd
  exact isReal_sum _ _ fun i _ => hx i

/-- The host's accumulating scatter: an operand entry plus a finite sum of update entries. -/
theorem hostScatterAdd_real {si : Shape} {w : Nat} {x : FVec Ideal s φ} {upd : FVec Ideal u φ}
    (d : ScatterDims s si u) (idx : IVec si w) (hx : EntriesReal x) (hupd : EntriesReal upd) :
    EntriesReal (Host.scatterAdd (F := Ideal) d x idx upd) := fun i => by
  show IsReal (Ideal.hostScatterAdd d x idx upd i)
  unfold Ideal.hostScatterAdd
  exact isReal_add (hx i) (isReal_sum _ _ fun j _ => hupd j)

end Sums

section Products
variable {sl sr so : Shape} {φ₁ φ₂ : FTy}

/-- The host's matrix product of arrays with real entries: a finite sum of products. -/
theorem hostDotGeneral_real (d : DotDims sl sr so) (prec : Option ContractPrecision) {A : FVec Ideal sl φ₁}
    {B : FVec Ideal sr φ₂} (hA : EntriesReal A) (hB : EntriesReal B) :
    EntriesReal (Host.dotGeneral (F := Ideal) d prec A B) := fun j => by
  simp only [Host.dotGeneral]
  rw [Ideal.dotGeneral_apply]
  exact isReal_sum _ _ fun k _ => isReal_mul (hA _) (hB _)

/-- A kernel's matrix product into an accumulator: an accumulator entry plus a finite sum of products. -/
theorem matmul_real (d : DotDims sl sr so) (prec : Option ContractPrecision) {A : FVec Ideal sl φ₁}
    {B : FVec Ideal sr φ₂} {acc : FVec Ideal so .f32} (hA : EntriesReal A) (hB : EntriesReal B) (hacc : EntriesReal acc) :
    EntriesReal (matmul (F := Ideal) d prec A B acc) := fun j => by
  show IsReal (acc j + ∑ k : d.contr.Idx, A (d.lhsIdx j k) * B (d.rhsIdx j k))
  exact isReal_add (hacc j) (isReal_sum _ _ fun k _ => isReal_mul (hA _) (hB _))

end Products

/-! ## Order facts that go with them: what a square root, a logarithm and a quotient ask of their operands -/

/-- A real times itself is nonnegative. -/
theorem mul_self_nonneg_of_real {a : EReal} (ha : IsReal a) : 0 ≤ a * a := by
  obtain ⟨x, rfl⟩ := ha
  rw [← EReal.coe_mul]; exact EReal.coe_nonneg.mpr (mul_self_nonneg x)

/-- The square root of a nonnegative real is nonnegative. -/
theorem sqrt_nonneg {a : EReal} (ha : IsReal a) (h0 : 0 ≤ a) : 0 ≤ Ideal.sqrt a := by
  obtain ⟨x, rfl⟩ := ha
  have hx : ¬ x < 0 := not_lt.mpr (EReal.coe_nonneg.mp h0)
  rw [Ideal.sqrt_coe, if_neg hx]; exact EReal.coe_nonneg.mpr (Real.sqrt_nonneg x)

/-- A finite sum of nonnegative reals is nonnegative. -/
theorem sum_nonneg_of_real {ι : Type} (s : Finset ι) (f : ι → EReal) (hf : ∀ i ∈ s, IsReal (f i))
    (h0 : ∀ i ∈ s, 0 ≤ f i) : 0 ≤ ∑ i ∈ s, f i := by
  classical
  induction s using Finset.induction_on with
  | empty => rw [Finset.sum_empty]
  | insert a s ha ih =>
    rw [Finset.sum_insert ha]
    obtain ⟨x, hx⟩ := hf a (Finset.mem_insert_self a s)
    obtain ⟨y, hy⟩ := isReal_sum s f fun i hi => hf i (Finset.mem_insert_of_mem hi)
    have hx0 : 0 ≤ x := EReal.coe_nonneg.mp (hx ▸ h0 a (Finset.mem_insert_self a s))
    have hy0 : 0 ≤ y :=
      EReal.coe_nonneg.mp (hy ▸ ih (fun i hi => hf i (Finset.mem_insert_of_mem hi))
        (fun i hi => h0 i (Finset.mem_insert_of_mem hi)))
    rw [hx, hy, ← EReal.coe_add]; exact EReal.coe_nonneg.mpr (add_nonneg hx0 hy0)

/-- A nonnegative real plus a positive real is positive. -/
theorem add_pos_of_nonneg_of_pos {a b : EReal} (ha : IsReal a) (hb : IsReal b) (ha0 : 0 ≤ a) (hb0 : 0 < b) :
    0 < a + b := by
  obtain ⟨x, rfl⟩ := ha; obtain ⟨y, rfl⟩ := hb
  rw [← EReal.coe_add]
  exact EReal.coe_pos.mpr (_root_.add_pos_of_nonneg_of_pos (EReal.coe_nonneg.mp ha0) (EReal.coe_pos.mp hb0))

/-- The host's reduction by addition of nonnegative real entries from a nonnegative real initial value is nonnegative. -/
theorem hostReduceAdd_nonneg {s t u : Shape} {φ : FTy} {axes : List (Fin s.rank)} {x : FVec Ideal s φ}
    {init : u.Idx → Ideal φ} (h : s.ReducesTo axes t) (hu : 0 < u.numel) (hx : EntriesReal x) (hi : EntriesReal init)
    (hx0 : ∀ i, 0 ≤ x i) (hi0 : ∀ i, 0 ≤ init i) (j : t.Idx) : 0 ≤ Host.reduceAdd (F := Ideal) x init h hu j := by
  show 0 ≤ Ideal.hostReduceAdd h x (init (Shape.Idx.first hu)) j
  unfold Ideal.hostReduceAdd
  obtain ⟨a, ha⟩ := hi (Shape.Idx.first hu)
  obtain ⟨b, hb⟩ := isReal_sum (Finset.univ.filter fun i => h.drop i = j) x fun i _ => hx i
  have ha0 : 0 ≤ a := EReal.coe_nonneg.mp (ha ▸ hi0 _)
  have hb0 : 0 ≤ b := EReal.coe_nonneg.mp (hb ▸ sum_nonneg_of_real _ x (fun i _ => hx i) (fun i _ => hx0 i))
  rw [ha, hb, ← EReal.coe_add]; exact EReal.coe_nonneg.mpr (add_nonneg ha0 hb0)

/-- A pattern with the sign bit clear, the exponent field not all ones, and the exponent or the fraction field not
    zero denotes a positive real. -/
theorem ieee_pos (e m : Nat) {w : Nat} (b : BitVec w) (hs : (b.extractLsb' (e + m) 1 == 1#1) = false)
    (hx : (b.extractLsb' m e).toNat ≠ 2 ^ e - 1)
    (hnz : (b.extractLsb' m e).toNat ≠ 0 ∨ (b.extractLsb' 0 m).toNat ≠ 0) : 0 < Ideal.ieee e m b := by
  unfold Ideal.ieee
  dsimp only
  rw [if_neg hx, hs]
  split
  · rename_i h0
    have hfr : (b.extractLsb' 0 m).toNat ≠ 0 := hnz.resolve_left fun h => h h0
    have hpos : (0 : ℝ) < ((b.extractLsb' 0 m).toNat : ℝ) := by exact_mod_cast Nat.pos_of_ne_zero hfr
    refine EReal.coe_pos.mpr ?_
    simp only [Bool.false_eq_true, if_false, one_mul]
    positivity
  · refine EReal.coe_pos.mpr ?_
    simp only [Bool.false_eq_true, if_false, one_mul]
    positivity

/-- The single-precision form: a pattern below 0x7F800000 other than zero denotes a positive real. -/
theorem ofBits_f32_pos (b : BitVec 32) (hs : (b.extractLsb' 31 1 == 1#1) = false)
    (hx : (b.extractLsb' 23 8).toNat ≠ 255)
    (hnz : (b.extractLsb' 23 8).toNat ≠ 0 ∨ (b.extractLsb' 0 23).toNat ≠ 0) : 0 < Ideal.ofBits .f32 b :=
  ieee_pos 8 23 b hs hx hnz

/-! ## A precondition's "every entry differs from zero", read back -/

/-- If the "and" over all axes of the comparisons v i ≠ 0 is 1, every entry of v differs from zero — one array's part of
    a precondition "this input is nowhere zero" (a divisor). -/
theorem ne_zero_of_reduce {S T U : Shape} [Subsingleton T.Idx] {axes : List (Fin S.rank)}
    (hr : S.ReducesTo axes T) (hu : 0 < U.numel) (v : FVec Ideal S .f32) (init : IVec U 1) (j : T.Idx)
    (e : Host.reduce IntOp.andi (cmpf .une v (constant (F := Ideal) S .f32 0x00000000#32)) init hr hu j = 1#1) :
    ∀ i, v i ≠ 0 := by
  intro i
  have h1 : Ideal.cmp .une (v i) (Ideal.ofBits .f32 0x00000000#32) = 1#1 :=
    Host.reduce_andi_all _ init hr hu j e i
  rw [Ideal.ofBits_zero_f32] at h1
  intro h0
  rw [h0] at h1
  simp [Ideal.cmp] at h1

end Cert.Lib.RealClosure

end
-- ==== Proof.PreReal.lean ====
/-
  What the precondition says of the float inputs, read back.

  The precondition is one bit: the "and" of, for each of the seventeen float argument arrays, the reduction by "and" over
  all its entries of the comparisons |x| < +infinity, and, for each of the two scalar inputs that the programs divide by,
  the comparison x ≠ 0. If that bit is 1 then every conjunct is 1, so every entry of every float argument is a real number
  (an extended real whose absolute value is strictly below +infinity is neither infinity) and the two divisors are not
  zero. Stated here once for the predicate as a function of its arguments, then for each argument array of the launch
  memory on each core.
-/
import proofs.«175488_j3908420240157_2_alg».proof.Defs
import proofs.«175488_j3908420240157_2_alg».proof.Proof.Gen.Pre_finite_inputs
import proofs.«175488_j3908420240157_2_alg».proof.Proof.LibRealEntries
import proofs.«175488_j3908420240157_2_alg».proof.Proof.LibRealClosure

noncomputable section

namespace Cert.Proof.Parts

open Idealize.ShloMosaic Idealize.ShloMosaic.ValueIdx Idealize.SL.Sem
open Cert.KernelIdeal

/-- The scalar shape has one index. -/
instance scalarIdx_subsingleton : Subsingleton S_.Idx := ⟨fun a b => funext fun d => d.elim0⟩

/-- One array's part of the predicate when the bound is a constant of the array's own shape (a scalar input is compared
    with the scalar +infinity directly): if the "and" over all axes of the comparisons |v i| < +infinity is 1, every entry
    of v is a real. -/
theorem allReal_of_reduce_const {S T U : Shape} [Subsingleton T.Idx] {axes : List (Fin S.rank)}
    (hr : S.ReducesTo axes T) (hu : 0 < U.numel) (v : FVec Ideal S .f32) (init : IVec U 1) (j : T.Idx)
    (e : Host.reduce IntOp.andi (cmpf .olt (Host.absf v) (constant (F := Ideal) S .f32 0x7F800000#32)) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact Cert.RealEntries.real_of_abs_lt_inf (v i) h1

/-- What the predicate's bit being 1 says of the seventeen float arguments and of the two divisors. -/
structure FloatInputsReal
    (x0 : FVec Ideal S10000x512 .f32) (x5 : FVec Ideal S_ .f32) (x6 : FVec Ideal S_ .f32) (x7 : FVec Ideal S512x512 .f32) (x8 : FVec Ideal S512 .f32) (x9 : FVec Ideal S512x256 .f32) (x10 : FVec Ideal S256 .f32) (x11 : FVec Ideal S512x512 .f32) (x12 : FVec Ideal S512 .f32) (x13 : FVec Ideal S512x256 .f32) (x14 : FVec Ideal S256 .f32) (x15 : FVec Ideal S512x256 .f32) (x16 : FVec Ideal S256 .f32) (x17 : FVec Ideal S512x256 .f32) (x18 : FVec Ideal S256 .f32) (x19 : FVec Ideal S256x256 .f32) (x20 : FVec Ideal S256 .f32) : Prop where
  real0 : ∀ i, ∃ r : ℝ, x0 i = (r : EReal)
  real5 : ∀ i, ∃ r : ℝ, x5 i = (r : EReal)
  real6 : ∀ i, ∃ r : ℝ, x6 i = (r : EReal)
  real7 : ∀ i, ∃ r : ℝ, x7 i = (r : EReal)
  real8 : ∀ i, ∃ r : ℝ, x8 i = (r : EReal)
  real9 : ∀ i, ∃ r : ℝ, x9 i = (r : EReal)
  real10 : ∀ i, ∃ r : ℝ, x10 i = (r : EReal)
  real11 : ∀ i, ∃ r : ℝ, x11 i = (r : EReal)
  real12 : ∀ i, ∃ r : ℝ, x12 i = (r : EReal)
  real13 : ∀ i, ∃ r : ℝ, x13 i = (r : EReal)
  real14 : ∀ i, ∃ r : ℝ, x14 i = (r : EReal)
  real15 : ∀ i, ∃ r : ℝ, x15 i = (r : EReal)
  real16 : ∀ i, ∃ r : ℝ, x16 i = (r : EReal)
  real17 : ∀ i, ∃ r : ℝ, x17 i = (r : EReal)
  real18 : ∀ i, ∃ r : ℝ, x18 i = (r : EReal)
  real19 : ∀ i, ∃ r : ℝ, x19 i = (r : EReal)
  real20 : ∀ i, ∃ r : ℝ, x20 i = (r : EReal)
  ne5 : ∀ i, x5 i ≠ 0
  ne6 : ∀ i, x6 i ≠ 0

set_option maxHeartbeats 1000000 in
/-- The predicate read back, as a function of its arguments: the bit is the "and" of nineteen reductions; each of the
    seventeen finiteness reductions gives one array's entries real, each of the last two a divisor nowhere zero. -/
theorem floatInputsReal_of_fn
    (x0 : FVec Ideal S10000x512 .f32) (i1 i2 i3 i4 : IVec S320000 32)
    (x5 : FVec Ideal S_ .f32) (x6 : FVec Ideal S_ .f32) (x7 : FVec Ideal S512x512 .f32) (x8 : FVec Ideal S512 .f32) (x9 : FVec Ideal S512x256 .f32) (x10 : FVec Ideal S256 .f32) (x11 : FVec Ideal S512x512 .f32) (x12 : FVec Ideal S512 .f32) (x13 : FVec Ideal S512x256 .f32) (x14 : FVec Ideal S256 .f32) (x15 : FVec Ideal S512x256 .f32) (x16 : FVec Ideal S256 .f32) (x17 : FVec Ideal S512x256 .f32) (x18 : FVec Ideal S256 .f32) (x19 : FVec Ideal S256x256 .f32) (x20 : FVec Ideal S256 .f32)
    (h : Cert.Pre_finite_inputs.fn (F := Ideal) x0 i1 i2 i3 i4 x5 x6 x7 x8 x9 x10 x11 x12 x13 x14 x15 x16 x17 x18 x19 x20 = fun _ => 1#1) :
    FloatInputsReal x0 x5 x6 x7 x8 x9 x10 x11 x12 x13 x14 x15 x16 x17 x18 x19 x20 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  simp only [andi, IntOp.andi_eq_one] at h0
  obtain ⟨⟨⟨⟨⟨⟨⟨⟨⟨⟨⟨⟨⟨⟨⟨⟨⟨⟨hf0, hf5⟩, hf6⟩, hf7⟩, hf8⟩, hf9⟩, hf10⟩, hf11⟩, hf12⟩, hf13⟩, hf14⟩, hf15⟩, hf16⟩, hf17⟩, hf18⟩, hf19⟩, hf20⟩, hz5⟩, hz6⟩ := h0
  exact {
    real0 := Cert.RealEntries.allReal_of_reduce _ _ _ _ x0 _ ix0 hf0
    real5 := allReal_of_reduce_const _ _ x5 _ ix0 hf5
    real6 := allReal_of_reduce_const _ _ x6 _ ix0 hf6
    real7 := Cert.RealEntries.allReal_of_reduce _ _ _ _ x7 _ ix0 hf7
    real8 := Cert.RealEntries.allReal_of_reduce _ _ _ _ x8 _ ix0 hf8
    real9 := Cert.RealEntries.allReal_of_reduce _ _ _ _ x9 _ ix0 hf9
    real10 := Cert.RealEntries.allReal_of_reduce _ _ _ _ x10 _ ix0 hf10
    real11 := Cert.RealEntries.allReal_of_reduce _ _ _ _ x11 _ ix0 hf11
    real12 := Cert.RealEntries.allReal_of_reduce _ _ _ _ x12 _ ix0 hf12
    real13 := Cert.RealEntries.allReal_of_reduce _ _ _ _ x13 _ ix0 hf13
    real14 := Cert.RealEntries.allReal_of_reduce _ _ _ _ x14 _ ix0 hf14
    real15 := Cert.RealEntries.allReal_of_reduce _ _ _ _ x15 _ ix0 hf15
    real16 := Cert.RealEntries.allReal_of_reduce _ _ _ _ x16 _ ix0 hf16
    real17 := Cert.RealEntries.allReal_of_reduce _ _ _ _ x17 _ ix0 hf17
    real18 := Cert.RealEntries.allReal_of_reduce _ _ _ _ x18 _ ix0 hf18
    real19 := Cert.RealEntries.allReal_of_reduce _ _ _ _ x19 _ ix0 hf19
    real20 := Cert.RealEntries.allReal_of_reduce _ _ _ _ x20 _ ix0 hf20
    ne5 := Cert.Lib.RealClosure.ne_zero_of_reduce _ _ x5 _ ix0 hz5
    ne6 := Cert.Lib.RealClosure.ne_zero_of_reduce _ _ x6 _ ix0 hz6 }

/-! ## At the launch memory, core by core -/

section AtMemory
variable (m : (ℓ : Loc nD τ sig) → Buf (Elt Ideal) ℓ) (h : Cert.Pre_KernelIdeal m) (c : Dev nD)
include h

/-- Every float argument array of the launch memory has real entries on every core, and the two divisors are not zero. -/
theorem pre_real :
    FloatInputsReal (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  floatInputsReal_of_fn _ _ _ _ _ _ _ _ _ _ _ _ _ _ _ _ _ _ _ _ _ (h c)

/-- Argument 0: every entry is a real. -/
theorem pre_real_arg0 : ∀ i, ∃ r : ℝ, (m ((c.tc : Thread nD τ).loc main_arg0) : FVec Ideal S10000x512 .f32) i = (r : EReal) :=
  (pre_real m h c).real0
/-- Argument 5: every entry is a real. -/
theorem pre_real_arg5 : ∀ i, ∃ r : ℝ, (m ((c.tc : Thread nD τ).loc main_arg5) : FVec Ideal S_ .f32) i = (r : EReal) :=
  (pre_real m h c).real5
/-- Argument 6: every entry is a real. -/
theorem pre_real_arg6 : ∀ i, ∃ r : ℝ, (m ((c.tc : Thread nD τ).loc main_arg6) : FVec Ideal S_ .f32) i = (r : EReal) :=
  (pre_real m h c).real6
/-- Argument 7: every entry is a real. -/
theorem pre_real_arg7 : ∀ i, ∃ r : ℝ, (m ((c.tc : Thread nD τ).loc main_arg7) : FVec Ideal S512x512 .f32) i = (r : EReal) :=
  (pre_real m h c).real7
/-- Argument 8: every entry is a real. -/
theorem pre_real_arg8 : ∀ i, ∃ r : ℝ, (m ((c.tc : Thread nD τ).loc main_arg8) : FVec Ideal S512 .f32) i = (r : EReal) :=
  (pre_real m h c).real8
/-- Argument 9: every entry is a real. -/
theorem pre_real_arg9 : ∀ i, ∃ r : ℝ, (m ((c.tc : Thread nD τ).loc main_arg9) : FVec Ideal S512x256 .f32) i = (r : EReal) :=
  (pre_real m h c).real9
/-- Argument 10: every entry is a real. -/
theorem pre_real_arg10 : ∀ i, ∃ r : ℝ, (m ((c.tc : Thread nD τ).loc main_arg10) : FVec Ideal S256 .f32) i = (r : EReal) :=
  (pre_real m h c).real10
/-- Argument 11: every entry is a real. -/
theorem pre_real_arg11 : ∀ i, ∃ r : ℝ, (m ((c.tc : Thread nD τ).loc main_arg11) : FVec Ideal S512x512 .f32) i = (r : EReal) :=
  (pre_real m h c).real11
/-- Argument 12: every entry is a real. -/
theorem pre_real_arg12 : ∀ i, ∃ r : ℝ, (m ((c.tc : Thread nD τ).loc main_arg12) : FVec Ideal S512 .f32) i = (r : EReal) :=
  (pre_real m h c).real12
/-- Argument 13: every entry is a real. -/
theorem pre_real_arg13 : ∀ i, ∃ r : ℝ, (m ((c.tc : Thread nD τ).loc main_arg13) : FVec Ideal S512x256 .f32) i = (r : EReal) :=
  (pre_real m h c).real13
/-- Argument 14: every entry is a real. -/
theorem pre_real_arg14 : ∀ i, ∃ r : ℝ, (m ((c.tc : Thread nD τ).loc main_arg14) : FVec Ideal S256 .f32) i = (r : EReal) :=
  (pre_real m h c).real14
/-- Argument 15: every entry is a real. -/
theorem pre_real_arg15 : ∀ i, ∃ r : ℝ, (m ((c.tc : Thread nD τ).loc main_arg15) : FVec Ideal S512x256 .f32) i = (r : EReal) :=
  (pre_real m h c).real15
/-- Argument 16: every entry is a real. -/
theorem pre_real_arg16 : ∀ i, ∃ r : ℝ, (m ((c.tc : Thread nD τ).loc main_arg16) : FVec Ideal S256 .f32) i = (r : EReal) :=
  (pre_real m h c).real16
/-- Argument 17: every entry is a real. -/
theorem pre_real_arg17 : ∀ i, ∃ r : ℝ, (m ((c.tc : Thread nD τ).loc main_arg17) : FVec Ideal S512x256 .f32) i = (r : EReal) :=
  (pre_real m h c).real17
/-- Argument 18: every entry is a real. -/
theorem pre_real_arg18 : ∀ i, ∃ r : ℝ, (m ((c.tc : Thread nD τ).loc main_arg18) : FVec Ideal S256 .f32) i = (r : EReal) :=
  (pre_real m h c).real18
/-- Argument 19: every entry is a real. -/
theorem pre_real_arg19 : ∀ i, ∃ r : ℝ, (m ((c.tc : Thread nD τ).loc main_arg19) : FVec Ideal S256x256 .f32) i = (r : EReal) :=
  (pre_real m h c).real19
/-- Argument 20: every entry is a real. -/
theorem pre_real_arg20 : ∀ i, ∃ r : ℝ, (m ((c.tc : Thread nD τ).loc main_arg20) : FVec Ideal S256 .f32) i = (r : EReal) :=
  (pre_real m h c).real20
/-- Argument 5, a divisor: it is not zero. -/
theorem pre_ne_zero_arg5 : ∀ i, (m ((c.tc : Thread nD τ).loc main_arg5) : FVec Ideal S_ .f32) i ≠ (0 : EReal) := (pre_real m h c).ne5
/-- Argument 6, a divisor: it is not zero. -/
theorem pre_ne_zero_arg6 : ∀ i, (m ((c.tc : Thread nD τ).loc main_arg6) : FVec Ideal S_ .f32) i ≠ (0 : EReal) := (pre_real m h c).ne6

end AtMemory

end Cert.Proof.Parts

end
-- ==== Proof.Values.lean ====
/-
  The five equations, as far as they are proved. Results 2 and 3 — the linear encoder and its twin — agree: the kernel computes
  both in one region, features against the two weight matrices side by side with the two bias rows end to end, and slices the
  result by columns; on real entries the region's three-pass product is the product, a column of the side-by-side matrix is a
  column of one of the two, and the precondition gives the features and the weights real entries. What is left is the three
  equations that go through the graph layers: the two GCN embeddings and the loss.
-/
import proofs.«175488_j3908420240157_2_alg».proof.Proof.Algebraic
import proofs.«175488_j3908420240157_2_alg».proof.Proof.Values23
import proofs.«175488_j3908420240157_2_alg».proof.Proof.PreReal

set_option maxRecDepth 65536

noncomputable section

namespace Cert.Proof.Parts

open Idealize.ShloMosaic Idealize.ShloMosaic.TcCoe Idealize.SL.Sem

/-- The three equations still open: the two GCN embeddings (results 0 and 1) and the loss (result 4). -/
def GraphValuesAgree : Prop :=
  ∀ (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ),
    Cert.Pre_KernelIdeal m → Agree m m' → ∀ c : Dev Cert.KernelIdeal.nD,
      StableHlo.after (Cert.ReferenceIdeal.OpsP.ops (F := Ideal)) (StableHlo.launchContents m' c) (Proc.devRef .tc Cert.ReferenceIdeal.main_v88) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v101
      ∧ StableHlo.after (Cert.ReferenceIdeal.OpsP.ops (F := Ideal)) (StableHlo.launchContents m' c) (Proc.devRef .tc Cert.ReferenceIdeal.main_v177) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v140
      ∧ StableHlo.after (Cert.ReferenceIdeal.OpsP.ops (F := Ideal)) (StableHlo.launchContents m' c) (Proc.devRef .tc Cert.ReferenceIdeal.main_v376) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v315

set_option maxHeartbeats 0 in
/-- The five equations from the three that go through the graph layers: results 2 and 3 are proved. -/
theorem values_agree_of_graph (hg : GraphValuesAgree) : ValuesAgree := fun m m' hpre hagree c => by
  obtain ⟨e0, e1, e4⟩ := hg m m' hpre hagree c
  obtain ⟨e2, e3⟩ := values23 m m' hagree c (pre_real_arg0 m hpre c) (pre_real_arg15 m hpre c) (pre_real_arg17 m hpre c)
  exact ⟨e0, e1, e2, e3, e4⟩

end Cert.Proof.Parts

end
-- ==== Proof.KI.Layer1vOps.lean ====
/-
  The first graph-convolution layer of the idealized kernel's host program, v-branch, read as one term.

  Between region 0 (the feature product) and region 1 the host computes, from the product's first 512 columns h, the edge
  lists src and dst and a bias row b: the out- and in-degrees of the nodes (ones scattered along src, along dst), their
  inverse square roots where positive (ns, nd), the rows of h scaled by ns and gathered along src, summed into the rows dst
  names, scaled by nd, the bias added, and the rectifier. The stretches of operations are read one at a time from an
  arbitrary valuation, then chained along the valuations of the program.
-/
import proofs.«175488_j3908420240157_2_alg».proof.Proof.KI.Chain

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

/-! ## The layer's pieces -/

/-- A column of zeros over the nodes; a column of ones over the edges. -/
abbrev zerosN : (⟨S10000, .f32⟩ : BufTy).Contents (Elt F) := broadcastInDim S10000 ![] bcast_S_S10000 (constant S_ .f32 0x00000000#32)
abbrev onesE : (⟨S320000, .f32⟩ : BufTy).Contents (Elt F) := broadcastInDim S320000 ![] bcast_S_S320000 (constant S_ .f32 0x3F800000#32)

/-- The degree of every node along an edge list: ones summed into the rows the list names. -/
def degK (a : (⟨S320000, .i32⟩ : BufTy).Contents (Elt F)) : (⟨S10000, .f32⟩ : BufTy).Contents (Elt F) :=
  Host.scatterAdd scatter_S10000_S320000x1_S320000_n_0_0_1 zerosN (broadcastInDim S320000x1 ![0] bcast_S320000_S320000x1_0 a) onesE

/-- The inverse square root of a degree where it is positive, zero elsewhere. -/
def rsqK (d : (⟨S10000, .f32⟩ : BufTy).Contents (Elt F)) : (⟨S10000, .f32⟩ : BufTy).Contents (Elt F) :=
  select (cmpf .ogt d zerosN) (Host.powf d (broadcastInDim S10000 ![] bcast_S_S10000 (constant S_ .f32 0xBF000000#32)))
    (broadcastInDim S10000 ![] bcast_S_S10000 (id (constant S_ .f32 0x00000000#32)))

/-- An edge list with its negative entries wrapped around the node count. -/
def wrapK (a : (⟨S320000, .i32⟩ : BufTy).Contents (Elt F)) : (⟨S320000, .i32⟩ : BufTy).Contents (Elt F) :=
  select (cmpi .slt a (broadcastInDim S320000 ![] bcast_S_S320000 (constantI S_ 32 0#32)))
    (addi a (broadcastInDim S320000 ![] bcast_S_S320000 (constantI S_ 32 10000#32))) a

/-- A column over the nodes repeated across the 512 features. -/
abbrev colsK (v : (⟨S10000, .f32⟩ : BufTy).Contents (Elt F)) : (⟨S10000x512, .f32⟩ : BufTy).Contents (Elt F) :=
  broadcastInDim S10000x512 ![0, 1] bcast_S10000x1_S10000x512_0_1 (broadcastInDim S10000x1 ![0] bcast_S10000_S10000x1_0 v)

/-- One layer before its rectifier: rows scaled by ns, gathered along src, summed along dst, scaled by nd, bias added. -/
def layerK (h : (⟨S10000x512, .f32⟩ : BufTy).Contents (Elt F)) (ns nd : (⟨S10000, .f32⟩ : BufTy).Contents (Elt F)) (src dst : (⟨S320000, .i32⟩ : BufTy).Contents (Elt F))
    (b : (⟨S512, .f32⟩ : BufTy).Contents (Elt F)) : (⟨S10000x512, .f32⟩ : BufTy).Contents (Elt F) :=
  addf
    (mulf
      (Host.scatterAdd scatter_S10000x512_S320000x1_S320000x512_1_0_0_1
        (broadcastInDim S10000x512 ![] bcast_S_S10000x512 (constant S_ .f32 0x00000000#32))
        (broadcastInDim S320000x1 ![0] bcast_S320000_S320000x1_0 dst)
        (Host.gather gather_S10000x512_S320000x1_S320000x512_1_0_n_n_0_1_1512 (mulf h (colsK ns))
          (broadcastInDim S320000x1 ![0] bcast_S320000_S320000x1_0 (wrapK src))))
      (colsK nd))
    (broadcastInDim S10000x512 ![0, 1] bcast_S1x512_S10000x512_0_1 (broadcastInDim S1x512 ![1] bcast_S512_S1x512_1 b))

/-! ## The stretches, each from an arbitrary valuation -/

set_option maxHeartbeats 1000000 in
/-- The first stretch: the first 512 columns of the product, the two degrees, and the first inverse square root's parts. -/
theorem s1_v4 (P : Valuation τ sig (Elt F)) :
    StableHlo.after hostOps1 P (Proc.devRef .tc main_v4)
      = extractStridedSlice S10000x512 ![0, 0] (P (Proc.devRef .tc main_v3)) slices_S10000x1024_S10000x512_0_0 := by
  after_results

set_option maxHeartbeats 1000000 in
theorem s1_v12 (P : Valuation τ sig (Elt F)) :
    StableHlo.after hostOps1 P (Proc.devRef .tc main_v12) = degK (P (Proc.devRef .tc main_arg2)) := by
  after_results
  rfl

set_option maxHeartbeats 1000000 in
theorem s1_v14 (P : Valuation τ sig (Elt F)) :
    StableHlo.after hostOps1 P (Proc.devRef .tc main_v14) = cmpf .ogt (degK (P (Proc.devRef .tc main_arg1))) zerosN := by
  after_results
  rfl

set_option maxHeartbeats 1000000 in
theorem s1_v16 (P : Valuation τ sig (Elt F)) :
    StableHlo.after hostOps1 P (Proc.devRef .tc main_v16)
      = Host.powf (degK (P (Proc.devRef .tc main_arg1))) (broadcastInDim S10000 ![] bcast_S_S10000 (constant S_ .f32 0xBF000000#32)) := by
  after_results
  rfl

set_option maxHeartbeats 1000000 in
theorem s1_cst5 (P : Valuation τ sig (Elt F)) :
    StableHlo.after hostOps1 P (Proc.devRef .tc main_cst_5) = constant S_ .f32 0x00000000#32 := by
  after_results

/-- The first selection: the inverse square root of the out-degree, from its three parts. -/
theorem s2_v17 (P : Valuation τ sig (Elt F)) :
    StableHlo.after hostOps1_1 P (Proc.devRef .tc main_v17)
      = select (P (Proc.devRef .tc main_v14)) (P (Proc.devRef .tc main_v16))
          (broadcastInDim S10000 ![] bcast_S_S10000 (id (P (Proc.devRef .tc main_cst_5)))) := by
  after_results
  rfl

set_option maxHeartbeats 1000000 in
/-- The third stretch: the in-degree's parts. -/
theorem s3_v19 (P : Valuation τ sig (Elt F)) :
    StableHlo.after hostOps1_2 P (Proc.devRef .tc main_v19) = cmpf .ogt (P (Proc.devRef .tc main_v12)) zerosN := by
  after_results

set_option maxHeartbeats 1000000 in
theorem s3_v21 (P : Valuation τ sig (Elt F)) :
    StableHlo.after hostOps1_2 P (Proc.devRef .tc main_v21)
      = Host.powf (P (Proc.devRef .tc main_v12)) (broadcastInDim S10000 ![] bcast_S_S10000 (constant S_ .f32 0xBF000000#32)) := by
  after_results

set_option maxHeartbeats 1000000 in
theorem s3_cst8 (P : Valuation τ sig (Elt F)) :
    StableHlo.after hostOps1_2 P (Proc.devRef .tc main_cst_8) = constant S_ .f32 0x00000000#32 := by
  after_results

/-- The second selection: the inverse square root of the in-degree. -/
theorem s4_v22 (P : Valuation τ sig (Elt F)) :
    StableHlo.after hostOps1_3 P (Proc.devRef .tc main_v22)
      = select (P (Proc.devRef .tc main_v19)) (P (Proc.devRef .tc main_v21))
          (broadcastInDim S10000 ![] bcast_S_S10000 (id (P (Proc.devRef .tc main_cst_8)))) := by
  after_results
  rfl

set_option maxHeartbeats 4000000 in
/-- The layer's stretch, v-branch: the pre-activation. -/
theorem s5_v41 (P : Valuation τ sig (Elt F)) :
    StableHlo.after hostOps1_4 P (Proc.devRef .tc main_v41)
      = layerK (P (Proc.devRef .tc main_v4)) (P (Proc.devRef .tc main_v17)) (P (Proc.devRef .tc main_v22))
          (P (Proc.devRef .tc main_arg1)) (P (Proc.devRef .tc main_arg2)) (P (Proc.devRef .tc main_arg8)) := by
  after_results
  rfl

/-- The rectifier's three operations: the maximum of the pre-activation with zero. -/
theorem s6_v61 (P : Valuation τ sig (Elt F)) :
    StableHlo.after hostOps1_5 P (Proc.devRef .tc main_v61)
      = maximumf (P (Proc.devRef .tc main_v41)) (broadcastInDim S10000x512 ![] bcast_S_S10000x512 (constant S_ .f32 0x00000000#32)) := by
  after_results
  rfl

end Cert.KernelIdeal.Hand

end
-- ==== Proof.KI.Layer1v.lean ====
/-
  The first graph-convolution layer of the idealized kernel's host program, v-branch: what the valuation region 1 is entered
  at holds at the layer's output, as one term of region 0's result and of three arguments of @main as launched (the two edge
  lists and the bias row).
-/
import proofs.«175488_j3908420240157_2_alg».proof.Proof.KI.Layer1vOps

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)
  (o0 : (c : Dev nD) → Buf (Elt F) ((c : Thread nD τ).loc main_v3))

/-- A buffer none of the first seven items writes is as launched after them. -/
theorem W6_launch (c : Dev nD) (r : Ref sig .tc) (h6 : r ∉ hostOps1_3_W) (h5 : r ∉ hostOps1_2_W) (h4 : r ∉ hostOps1_1_W)
    (h3 : r ∉ hostOps1_W) (h2 : r ∉ ([main_v3] : List (Ref sig .tc))) (h1 : r ∉ hostOps0_W) :
    W6 m o0 c r = m ((c : Thread nD τ).loc r) :=
  (W6_of m o0 c r h6).trans <| (W5_of m o0 c r h5).trans <| (W4_of m o0 c r h4).trans <| (W3_of m o0 c r h3).trans <|
  (W2_of m o0 c r h2).trans <| (W1_of m c r h1).trans rfl

/-- The same before the first stretch after region 0. -/
theorem W2_launch (c : Dev nD) (r : Ref sig .tc) (h2 : r ∉ ([main_v3] : List (Ref sig .tc))) (h1 : r ∉ hostOps0_W) :
    W2 m o0 c r = m ((c : Thread nD τ).loc r) :=
  (W2_of m o0 c r h2).trans <| (W1_of m c r h1).trans rfl

/-- Region 0's result is what the first stretch reads at its array. -/
theorem W2_main_v3 (c : Dev nD) : W2 m o0 c main_v3 = o0 c := by
  simp only [W2, Function.update_self]

/-- The first 512 columns of region 0's result, kept until the layer's stretch. -/
theorem W6_main_v4 (c : Dev nD) :
    W6 m o0 c main_v4 = extractStridedSlice S10000x512 ![0, 0] (o0 c) slices_S10000x1024_S10000x512_0_0 :=
  (W6_of m o0 c main_v4 (by decide)).trans <| (W5_of m o0 c main_v4 (by decide)).trans <| (W4_of m o0 c main_v4 (by decide)).trans <|
  (s1_v4 (W2 m o0 c)).trans (congrArg (extractStridedSlice S10000x512 ![0, 0] · slices_S10000x1024_S10000x512_0_0) (W2_main_v3 m o0 c))

/-- The out-degrees' inverse square roots. -/
theorem W6_main_v17 (c : Dev nD) : W6 m o0 c main_v17 = rsqK (degK (m ((c : Thread nD τ).loc main_arg1))) := by
  refine (W6_of m o0 c main_v17 (by decide)).trans <| (W5_of m o0 c main_v17 (by decide)).trans <| (s2_v17 (W3 m o0 c)).trans ?_
  have e14 := s1_v14 (W2 m o0 c)
  have e16 := s1_v16 (W2 m o0 c)
  have e5 := s1_cst5 (W2 m o0 c)
  have ea := W2_launch m o0 c main_arg1 (by decide) (by decide)
  show select (W3 m o0 c main_v14) (W3 m o0 c main_v16) (broadcastInDim S10000 ![] bcast_S_S10000 (id (W3 m o0 c main_cst_5))) = _
  rw [show W3 m o0 c main_v14 = _ from e14, show W3 m o0 c main_v16 = _ from e16, show W3 m o0 c main_cst_5 = _ from e5,
    show W2 m o0 c main_arg1 = _ from ea]
  rfl

/-- The in-degrees' inverse square roots. -/
theorem W6_main_v22 (c : Dev nD) : W6 m o0 c main_v22 = rsqK (degK (m ((c : Thread nD τ).loc main_arg2))) := by
  refine (s4_v22 (W5 m o0 c)).trans ?_
  have e19 := s3_v19 (W4 m o0 c)
  have e21 := s3_v21 (W4 m o0 c)
  have e8 := s3_cst8 (W4 m o0 c)
  have e12 : W4 m o0 c main_v12 = degK (m ((c : Thread nD τ).loc main_arg2)) :=
    (W4_of m o0 c main_v12 (by decide)).trans <| (s1_v12 (W2 m o0 c)).trans
      (congrArg degK (W2_launch m o0 c main_arg2 (by decide) (by decide)))
  show select (W5 m o0 c main_v19) (W5 m o0 c main_v21) (broadcastInDim S10000 ![] bcast_S_S10000 (id (W5 m o0 c main_cst_8))) = _
  rw [show W5 m o0 c main_v19 = _ from e19, show W5 m o0 c main_v21 = _ from e21, show W5 m o0 c main_cst_8 = _ from e8,
    show W4 m o0 c main_v12 = _ from e12]
  rfl

/-- THE LAYER'S OUTPUT, v-branch, as region 1 finds it: the rectifier of the layer over region 0's first 512 columns. -/
theorem W10_main_v61 (c : Dev nD) :
    W10 m o0 c main_v61
      = maximumf
          (layerK (extractStridedSlice S10000x512 ![0, 0] (o0 c) slices_S10000x1024_S10000x512_0_0)
            (rsqK (degK (m ((c : Thread nD τ).loc main_arg1)))) (rsqK (degK (m ((c : Thread nD τ).loc main_arg2))))
            (m ((c : Thread nD τ).loc main_arg1)) (m ((c : Thread nD τ).loc main_arg2)) (m ((c : Thread nD τ).loc main_arg8)))
          (broadcastInDim S10000x512 ![] bcast_S_S10000x512 (constant S_ .f32 0x00000000#32)) := by
  refine (W10_of m o0 c main_v61 (by decide)).trans <| (W9_of m o0 c main_v61 (by decide)).trans <| (s6_v61 (W7 m o0 c)).trans ?_
  refine congrArg (maximumf · _) ((s5_v41 (W6 m o0 c)).trans ?_)
  show layerK (W6 m o0 c main_v4) (W6 m o0 c main_v17) (W6 m o0 c main_v22) (W6 m o0 c main_arg1) (W6 m o0 c main_arg2) (W6 m o0 c main_arg8) = _
  rw [W6_main_v4, W6_main_v17, W6_main_v22,
    W6_launch m o0 c main_arg1 (by decide) (by decide) (by decide) (by decide) (by decide) (by decide),
    W6_launch m o0 c main_arg2 (by decide) (by decide) (by decide) (by decide) (by decide) (by decide),
    W6_launch m o0 c main_arg8 (by decide) (by decide) (by decide) (by decide) (by decide) (by decide)]

end Cert.KernelIdeal.Hand

end
-- ==== Proof.RefLayer1v.lean ====
/-
  The first graph-convolution layer of the reference, v-branch, read as one term of its arguments.

  From the features, the first weight matrix, the edge lists src and dst and a bias row, the reference computes the out- and
  in-degrees of the nodes (ones scattered along src, along dst), their inverse square roots where positive (ns, nd), the
  product of the features with the weights, its rows gathered along src and scaled by the gathered ns, summed into the rows dst
  names, scaled by nd, the bias added, and the rectifier.
-/
import proofs.«175488_j3908420240157_2_alg».proof.Proof.RefFrame

set_option maxRecDepth 65536

noncomputable section

namespace Cert.Proof.Parts

open Cert.ReferenceIdeal Cert.ReferenceIdeal.Gen Cert.ReferenceIdeal.OpsP
open Idealize.ShloMosaic Idealize.ShloMosaic.TcCoe Idealize.SL.Sem Idealize.ShloMosaic.StableHlo

variable {F : FTy → Type} [FloatOps F]

/-- A column of zeros over the nodes; a column of ones over the edges. -/
abbrev zerosNR : (⟨S10000, .f32⟩ : BufTy).Contents (Elt F) := broadcastInDim S10000 ![] bcast_S_S10000 (constant S_ .f32 0x00000000#32)
abbrev onesER : (⟨S320000, .f32⟩ : BufTy).Contents (Elt F) := broadcastInDim S320000 ![] bcast_S_S320000 (constant S_ .f32 0x3F800000#32)

/-- The degree of every node along an edge list: ones summed into the rows the list names. -/
def degR (a : (⟨S320000, .i32⟩ : BufTy).Contents (Elt F)) : (⟨S10000, .f32⟩ : BufTy).Contents (Elt F) :=
  Host.scatterAdd scatter_S10000_S320000x1_S320000_n_0_0_1 zerosNR (broadcastInDim S320000x1 ![0] bcast_S320000_S320000x1_0 a) onesER

/-- The inverse square root of a degree where it is positive, zero elsewhere. -/
def rsqR (d : (⟨S10000, .f32⟩ : BufTy).Contents (Elt F)) : (⟨S10000, .f32⟩ : BufTy).Contents (Elt F) :=
  select (cmpf .ogt d zerosNR) (Host.powf d (broadcastInDim S10000 ![] bcast_S_S10000 (constant S_ .f32 0xBF000000#32)))
    (broadcastInDim S10000 ![] bcast_S_S10000 (id (constant S_ .f32 0x00000000#32)))

/-- An edge list with its negative entries wrapped around the node count. -/
def wrapR (a : (⟨S320000, .i32⟩ : BufTy).Contents (Elt F)) : (⟨S320000, .i32⟩ : BufTy).Contents (Elt F) :=
  select (cmpi .slt a (broadcastInDim S320000 ![] bcast_S_S320000 (constantI S_ 32 0#32)))
    (addi a (broadcastInDim S320000 ![] bcast_S_S320000 (constantI S_ 32 10000#32))) a

/-- One layer before its rectifier: rows gathered along src and scaled by the gathered ns, summed along dst, scaled by nd,
    bias added. -/
def layerR (h : (⟨S10000x512, .f32⟩ : BufTy).Contents (Elt F)) (ns nd : (⟨S10000, .f32⟩ : BufTy).Contents (Elt F)) (src dst : (⟨S320000, .i32⟩ : BufTy).Contents (Elt F))
    (b : (⟨S512, .f32⟩ : BufTy).Contents (Elt F)) : (⟨S10000x512, .f32⟩ : BufTy).Contents (Elt F) :=
  addf
    (mulf
      (Host.scatterAdd scatter_S10000x512_S320000x1_S320000x512_1_0_0_1
        (broadcastInDim S10000x512 ![] bcast_S_S10000x512 (constant S_ .f32 0x00000000#32))
        (broadcastInDim S320000x1 ![0] bcast_S320000_S320000x1_0 dst)
        (mulf
          (Host.gather gather_S10000x512_S320000x1_S320000x512_1_0_n_n_0_1_1512 h
            (broadcastInDim S320000x1 ![0] bcast_S320000_S320000x1_0 (wrapR src)))
          (broadcastInDim S320000x512 ![0, 1] bcast_S320000x1_S320000x512_0_1
            (broadcastInDim S320000x1 ![0] bcast_S320000_S320000x1_0
              (Host.gather gather_S10000_S320000x1_S320000_n_0_n_n_0_1_1 ns
                (broadcastInDim S320000x1 ![0] bcast_S320000_S320000x1_0 (wrapR src)))))))
      (broadcastInDim S10000x512 ![0, 1] bcast_S10000x1_S10000x512_0_1 (broadcastInDim S10000x1 ![0] bcast_S10000_S10000x1_0 nd)))
    (broadcastInDim S10000x512 ![0, 1] bcast_S1x512_S10000x512_0_1 (broadcastInDim S1x512 ![1] bcast_S512_S1x512_1 b))

set_option maxHeartbeats 0 in
/-- THE LAYER'S OUTPUT, v-branch, in the reference: the rectifier of the layer over the product of the features with the first
    weight matrix. -/
theorem ref_main_v44 (m : (ℓ : Loc nD τ sig) → Buf (Elt F) ℓ) (d : Dev nD) :
    after ops (launchContents m d) (Proc.devRef .tc main_v44)
      = maximumf
          (layerR (Host.dotGeneral dot_S10000x512_S512x512_S10000x512_1_0_0_1_n_n none (m ((d.tc : Thread nD τ).loc main_arg0)) (m ((d.tc : Thread nD τ).loc main_arg7)))
            (rsqR (degR (m ((d.tc : Thread nD τ).loc main_arg1)))) (rsqR (degR (m ((d.tc : Thread nD τ).loc main_arg2))))
            (m ((d.tc : Thread nD τ).loc main_arg1)) (m ((d.tc : Thread nD τ).loc main_arg2)) (m ((d.tc : Thread nD τ).loc main_arg8)))
          (broadcastInDim S10000x512 ![] bcast_S_S10000x512 (constant S_ .f32 0x00000000#32)) := by
  after_results_simp <;> rfl

end Cert.Proof.Parts

end
-- ==== Proof.LibRowIndexOps.lean ====
/-
  The host's gather of ROWS and accumulating scatter of ROWS through ONE column of start indices, read at an index: what
  x[idx] and a segment sum lower to.

  * rowGather / rowGather_apply: operand [N, C], start indices [E, 1], result [E, C]. Result element (e, c) is the operand at
    row idx[e, 0], read as a signed integer and clamped into [0, N - 1], column c.
  * flatGather / flatGather_apply: the same for a flat operand [N] and result [E].
  * rowScatter / rowScatterAdd_apply: operand [N, C], start indices [E, 1], updates [E, C], body "add". Result element (n, c) is
    the operand's plus the sum of the updates (e, c) over the rows e whose start word idx[e, 0], read as a signed integer and
    NOT clamped, is exactly n (an update whose start leaves [0, N) is dropped, so it is in no row's sum).
  * flatScatter / flatScatterAdd_apply: the same for a flat operand [N] and updates [E].

  Everything is generic in the sizes N, E, C: membership and positions are computed on the literal axis lists only, and no
  index type is enumerated.
-/
import Idealize.ShloMosaic.PureOps.Ideal
import Idealize.ShloMosaic.Lib.ValueIdx

noncomputable section

open scoped BigOperators

namespace Cert.RowIndexOps
open Idealize.ShloMosaic Idealize.ShloMosaic.ValueIdx

/-! ## Sums over a rank-1 index set -/

/-- A rank-1 index set is its one coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The accumulating scatter of rows -/

/-- rows scattered: operand [N, C], start indices one column [E, 1], updates [E, C] -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- on the row axis the window starts at the start word of row e, read signed -/
private theorem rowScatter_start0 :
    (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- on the column axis the window starts at 0 -/
private theorem rowScatter_start1 : (rowScatter N E C wf).start (ix2 e c') idx 1 = 0 := by
  have h1 : (1 : Fin 2) ∉ ([0] : List (Fin 2)) := by decide
  unfold ScatterDims.start
  rw [dif_neg (show (1 : Fin 2) ∉ (rowScatter N E C wf).scatterDimsToOperandDims from h1)]

/-- the row axis is inserted: its window coordinate is 0 -/
private theorem rowScatter_window0 : (rowScatter N E C wf).window (ix2 e c') 0 = 0 := by
  have h0 : (0 : Fin 2) ∉ (rowScatter N E C wf).sKept := by
    show (0 : Fin 2) ∉ (List.finRange 2).filter (· ∉ ([0] : List (Fin 2)))
    decide
  unfold ScatterDims.window
  rw [dif_neg h0]

/-- the column axis carries the update's column -/
private theorem rowScatter_window1 : (rowScatter N E C wf).window (ix2 e c') 1 = c'.val := by
  have h1 : (1 : Fin 2) ∈ (rowScatter N E C wf).sKept := by
    show (1 : Fin 2) ∈ (List.finRange 2).filter (· ∉ ([0] : List (Fin 2)))
    decide
  unfold ScatterDims.window
  rw [dif_pos h1]
  rfl

/-- update (e, c') lands at (n, c) exactly when row e's start word, read signed, is n and the columns agree -/
private theorem rowScatter_resultIdx_iff (n : Fin N) (c : Fin C) :
    (rowScatter N E C wf).resultIdx? (ix2 e c') idx = some (ix2 n c)
      ↔ (idx (ix2 e (0 : Fin 1))).toInt = (n.val : Int) ∧ c' = c := by
  have hn := n.isLt
  have hc := c.isLt
  have hc' := c'.isLt
  unfold ScatterDims.resultIdx?
  split
  · rename_i h
    rw [Option.some.injEq]
    have hh : 0 ≤ (rowScatter N E C wf).start (ix2 e c') idx 0 + ((rowScatter N E C wf).window (ix2 e c') 0 : Nat) := (h 0).1
    rw [rowScatter_start0, rowScatter_window0] at hh
    constructor
    · intro hf
      have h0 : ((rowScatter N E C wf).start (ix2 e c') idx 0 + ((rowScatter N E C wf).window (ix2 e c') 0 : Nat)).toNat = n.val :=
        congrArg (fun f : (⟨2, ![N, C]⟩ : Shape).Idx => (f 0).val) hf
      have h1 : ((rowScatter N E C wf).start (ix2 e c') idx 1 + ((rowScatter N E C wf).window (ix2 e c') 1 : Nat)).toNat = c.val :=
        congrArg (fun f : (⟨2, ![N, C]⟩ : Shape).Idx => (f 1).val) hf
      rw [rowScatter_start0, rowScatter_window0] at h0
      rw [rowScatter_start1, rowScatter_window1] at h1
      refine ⟨by omega, Fin.ext (by omega)⟩
    · rintro ⟨ht, rfl⟩
      funext a; refine Fin.ext ?_
      match a with
      | ⟨0, _⟩ =>
        show ((rowScatter N E C wf).start (ix2 e c') idx 0 + ((rowScatter N E C wf).window (ix2 e c') 0 : Nat)).toNat = n.val
        rw [rowScatter_start0, rowScatter_window0]; omega
      | ⟨1, _⟩ =>
        show ((rowScatter N E C wf).start (ix2 e c') idx 1 + ((rowScatter N E C wf).window (ix2 e c') 1 : Nat)).toNat = c'.val
        rw [rowScatter_start1, rowScatter_window1]; omega
  · rename_i h
    constructor
    · intro hf; cases hf
    · rintro ⟨ht, rfl⟩
      exfalso; apply h
      intro a
      match a with
      | ⟨0, _⟩ =>
        show 0 ≤ (rowScatter N E C wf).start (ix2 e c') idx 0 + ((rowScatter N E C wf).window (ix2 e c') 0 : Nat)
          ∧ (rowScatter N E C wf).start (ix2 e c') idx 0 + ((rowScatter N E C wf).window (ix2 e c') 0 : Nat) < (N : Int)
        rw [rowScatter_start0, rowScatter_window0]; omega
      | ⟨1, _⟩ =>
        show 0 ≤ (rowScatter N E C wf).start (ix2 e c') idx 1 + ((rowScatter N E C wf).window (ix2 e c') 1 : Nat)
          ∧ (rowScatter N E C wf).start (ix2 e c') idx 1 + ((rowScatter N E C wf).window (ix2 e c') 1 : Nat) < (C : Int)
        rw [rowScatter_start1, rowScatter_window1]; omega

end RowScatter

/-- the accumulated scatter at (n, c): the operand's element plus the updates (e, c) of the rows e whose start word, read SIGNED, is exactly n -/
theorem rowScatterAdd_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases ht : (idx (ix2 e (0 : Fin 1))).toInt = (n.val : Int)
  · simp [ht, Finset.sum_ite_eq']
  · simp [ht]

/-! ## The accumulating scatter into a flat operand -/

/-- a flat operand [N], start indices [E, 1], updates [E] -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section FlatScatter
variable {N E w : Nat} (wf : ScatterDims.WF ⟨1, ![N]⟩ ⟨2, ![E, 1]⟩ ⟨1, ![E]⟩ [] [0] [0] 1)
  (idx : IVec ⟨2, ![E, 1]⟩ w) (e : Fin E)

/-- on the one operand axis the window starts at the start word of entry e, read signed -/
private theorem flatScatter_start0 :
    (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- the one operand axis is inserted: its window coordinate is 0 -/
private theorem flatScatter_window0 : (flatScatter N E wf).window (ix1 e) 0 = 0 := by
  have h0 : (0 : Fin 1) ∉ (flatScatter N E wf).sKept := by
    show (0 : Fin 1) ∉ (List.finRange 1).filter (· ∉ ([0] : List (Fin 1)))
    decide
  unfold ScatterDims.window
  rw [dif_neg h0]

/-- update e lands at n exactly when its start word, read signed, is n -/
private theorem flatScatter_resultIdx_iff (n : Fin N) :
    (flatScatter N E wf).resultIdx? (ix1 e) idx = some (ix1 n) ↔ (idx (ix2 e (0 : Fin 1))).toInt = (n.val : Int) := by
  have hn := n.isLt
  unfold ScatterDims.resultIdx?
  split
  · rename_i h
    rw [Option.some.injEq]
    have hh : 0 ≤ (flatScatter N E wf).start (ix1 e) idx 0 + ((flatScatter N E wf).window (ix1 e) 0 : Nat) := (h 0).1
    rw [flatScatter_start0, flatScatter_window0] at hh
    constructor
    · intro hf
      have h0 : ((flatScatter N E wf).start (ix1 e) idx 0 + ((flatScatter N E wf).window (ix1 e) 0 : Nat)).toNat = n.val :=
        congrArg (fun f : (⟨1, ![N]⟩ : Shape).Idx => (f 0).val) hf
      rw [flatScatter_start0, flatScatter_window0] at h0
      omega
    · intro ht
      funext a; refine Fin.ext ?_
      match a with
      | ⟨0, _⟩ =>
        show ((flatScatter N E wf).start (ix1 e) idx 0 + ((flatScatter N E wf).window (ix1 e) 0 : Nat)).toNat = n.val
        rw [flatScatter_start0, flatScatter_window0]; omega
  · rename_i h
    constructor
    · intro hf; cases hf
    · intro ht
      exfalso; apply h
      intro a
      match a with
      | ⟨0, _⟩ =>
        show 0 ≤ (flatScatter N E wf).start (ix1 e) idx 0 + ((flatScatter N E wf).window (ix1 e) 0 : Nat)
          ∧ (flatScatter N E wf).start (ix1 e) idx 0 + ((flatScatter N E wf).window (ix1 e) 0 : Nat) < (N : Int)
        rw [flatScatter_start0, flatScatter_window0]; omega

end FlatScatter

/-- the accumulated scatter at n: the operand's element plus the updates e of the entries whose start word, read SIGNED, is exactly n -/
theorem flatScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (flatScatter N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [flatScatter_resultIdx_iff]

/-! ## The gather of rows -/

/-- rows gathered: operand [N, C], start indices [E, 1], result [E, C] (offset axis 1, collapsed axis 0, slice sizes ![1, C]) -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- the gather at (e, c): the operand at the row the start word names, read signed and clamped into [0, N-1], same column -/
theorem rowGather_apply {α : Type} {N E C w : Nat} (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = _
    rw [GatherDims.batchCoord_eq_zero _ _ _ List.not_mem_nil]
    have h1 : (1 : Fin 2) ∉ ([0] : List (Fin 2)) := by decide
    have hs : (rowGather N E C wf).start (ix2 e c) idx 1 = 0 := by
      unfold GatherDims.start
      rw [dif_neg (show (1 : Fin 2) ∉ (rowGather N E C wf).startIndexMap from h1)]
    have ho : (rowGather N E C wf).offCoord (ix2 e c) 1 = c.val := by
      unfold GatherDims.offCoord
      rw [dif_pos ((GatherDims.mem_sKept _ _).mpr ⟨h1, List.not_mem_nil⟩)]
      rfl
    rw [hs, ho]
    simp

/-! ## The gather from a flat operand -/

/-- a flat operand [N], start indices [E, 1], result [E] (no offset axis, collapsed axis 0, slice sizes ![1]) -/
abbrev flatGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- the gather at e: the operand at the entry the start word names, read signed and clamped into [0, N-1] -/
theorem flatGather_apply {α : Type} {N E w : Nat} (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.RowIndexOps

end
-- ==== Proof.LibGatherScale.lean ====
/-
  Scaling the rows of a table before or after gathering them.

  Let h be an N × C table, ns a length-N vector of row factors, and idx a column of E start indices. Gathering row idx[e]
  of h and multiplying it by the gathered factor ns[idx[e]] gives the same E × C array as first multiplying every row n of
  h by ns[n] and then gathering the rows: at (e, c) both are h(r, c) · ns(r) with r the row the start word idx[e, 0] names
  (read as a signed integer and clamped into [0, N - 1] — the same row on both sides, because both gathers read the same
  start word the same way). This is pure re-indexing around one multiplication, so it holds for every float model.

  * "bcast_vec_col_apply": a length-n vector placed as an n × 1 column reads, at (i, u), the vector at i.
  * "bcast_col_apply": an n × 1 column repeated over C columns reads, at (i, c), the column at (i, 0).
  * "gather_scale": the displayed equation, for any gather records that are the row gather / the flat gather through one
    column of start indices (two row records, one per program, and one flat record), and two index arrays known equal.
-/
import Idealize.ShloMosaic.PureOps.Ideal
import Idealize.ShloMosaic.Lib.ValueIdx
import Idealize.ShloMosaic.Lib.Pipeline.Value
import proofs.«175488_j3908420240157_2_alg».proof.Proof.LibRowIndexOps

noncomputable section

namespace Cert.Lib.GatherScale

open Idealize.ShloMosaic Idealize.ShloMosaic.ValueIdx
open Cert.RowIndexOps (rowGather flatGather rowGather_apply flatGather_apply)

/-! ## The two broadcasts -/

/-- A length-n vector placed as an n × 1 column reads, at (i, u), the vector at i. -/
theorem bcast_vec_col_apply {α : Type} {n : ℕ} (v : (⟨1, ![n]⟩ : Shape).Idx → α)
    (hb : (⟨1, ![n]⟩ : Shape).BroadcastsInDim ⟨2, ![n, 1]⟩ ![0]) (i : Fin n) (u : Fin 1) :
    broadcastInDim ⟨2, ![n, 1]⟩ ![0] hb v (ix2 i u) = v (ix1 i) := by
  refine broadcastInDim_apply _ hb v (ix2 i u) (ix1 i) fun ax => ?_
  match ax with
  | ⟨0, _⟩ =>
    show i.val = if n = 1 then 0 else i.val
    split
    · have := i.isLt; omega
    · rfl

/-- An n × 1 column repeated over C columns reads, at (i, c), the column at (i, 0). -/
theorem bcast_col_apply {α : Type} {n C : ℕ} (x : (⟨2, ![n, 1]⟩ : Shape).Idx → α)
    (hb : (⟨2, ![n, 1]⟩ : Shape).BroadcastsInDim ⟨2, ![n, C]⟩ ![0, 1]) (i : Fin n) (c : Fin C) :
    broadcastInDim ⟨2, ![n, C]⟩ ![0, 1] hb x (ix2 i c) = x (ix2 i (0 : Fin 1)) := by
  refine broadcastInDim_apply _ hb x (ix2 i c) (ix2 i (0 : Fin 1)) fun ax => ?_
  match ax with
  | ⟨0, _⟩ =>
    show i.val = if n = 1 then 0 else i.val
    split
    · have := i.isLt; omega
    · rfl
  | ⟨1, _⟩ => rfl

/-! ## Gather then scale is scale then gather -/

/-- Rows gathered and then scaled by the gathered factors are the scaled rows gathered. -/
theorem gather_scale {F : FTy → Type} [FloatOps F] {φ : FTy} {N E C w : Nat} (hN : 0 < N)
    (wfR wfR' : GatherDims.WF ⟨2, ![N, C]⟩ ⟨2, ![E, 1]⟩ ⟨2, ![E, C]⟩ [1] [0] [] [0] [] 1 ![1, C])
    (wfF : GatherDims.WF ⟨1, ![N]⟩ ⟨2, ![E, 1]⟩ ⟨1, ![E]⟩ [] [0] [] [0] [] 1 ![1])
    (dR dR' : GatherDims ⟨2, ![N, C]⟩ ⟨2, ![E, 1]⟩ ⟨2, ![E, C]⟩) (hdR : dR = rowGather N E C wfR) (hdR' : dR' = rowGather N E C wfR')
    (dF : GatherDims ⟨1, ![N]⟩ ⟨2, ![E, 1]⟩ ⟨1, ![E]⟩) (hdF : dF = flatGather N E wfF)
    (hbE1 : (⟨1, ![E]⟩ : Shape).BroadcastsInDim ⟨2, ![E, 1]⟩ ![0])
    (hbEC : (⟨2, ![E, 1]⟩ : Shape).BroadcastsInDim ⟨2, ![E, C]⟩ ![0, 1])
    (hbN1 : (⟨1, ![N]⟩ : Shape).BroadcastsInDim ⟨2, ![N, 1]⟩ ![0])
    (hbNC : (⟨2, ![N, 1]⟩ : Shape).BroadcastsInDim ⟨2, ![N, C]⟩ ![0, 1])
    (h : FVec F ⟨2, ![N, C]⟩ φ) (ns : FVec F ⟨1, ![N]⟩ φ) (idx idx' idx'' : IVec ⟨2, ![E, 1]⟩ w)
    (hidx' : idx' = idx) (hidx'' : idx'' = idx) :
    mulf (Host.gather dR h idx)
        (broadcastInDim ⟨2, ![E, C]⟩ ![0, 1] hbEC (broadcastInDim ⟨2, ![E, 1]⟩ ![0] hbE1 (Host.gather dF ns idx')))
      = Host.gather dR' (mulf h (broadcastInDim ⟨2, ![N, C]⟩ ![0, 1] hbNC (broadcastInDim ⟨2, ![N, 1]⟩ ![0] hbN1 ns))) idx'' := by
  subst hdR hdR' hdF
  rw [hidx', hidx'']
  funext j
  obtain ⟨e, c, rfl⟩ : ∃ e c, j = ix2 e c := ⟨j 0, j 1, eq_ix2 j⟩
  unfold mulf
  rw [rowGather_apply hN wfR h idx e c, rowGather_apply hN wfR' _ idx e c]
  beta_reduce
  rw [bcast_col_apply _ hbEC e c, bcast_vec_col_apply _ hbE1 e (0 : Fin 1),
    flatGather_apply hN wfF ns idx e, bcast_col_apply _ hbNC _ c, bcast_vec_col_apply _ hbN1 _ (0 : Fin 1)]

end Cert.Lib.GatherScale

end
-- ==== Proof.KI.Value0.lean ====
/-
  Region 0's result as ONE function of its three argument arrays, on the extended reals.

  The output array of region 0 has 10000 rows of 1024 entries, written back in five blocks of 2000 rows. At the grid
  point t the body's payload, read at (p, q) of its block, is the three-pass split product of the block of x by the
  whole weight matrix, plus the bias row: for operands with real entries, the plain sum over k of x(2000 t + p, k) ·
  w(k, q), plus b(0, q). A block's coordinate is the block index times the block's extent plus the coordinate inside
  the block; the output's block at t sits at rows 2000 t …, where the block of x it was computed from sits; the
  weight matrix and the bias row are one block each. So every point writes back the restriction to its rows of ONE
  whole-array function G0, the five blocks cover the array, and the array after the region IS G0: at (r, col),
  the sum over k of x(r, k) · w(k, col), plus b(0, col).
-/
import proofs.«175488_j3908420240157_2_alg».proof.Proof.KI.Seg0
import proofs.«175488_j3908420240157_2_alg».proof.Proof.LibSplitProduct
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)

variable {U : Type} [URA U]

/-- Every access of the body is at zero offsets. -/
private theorem off00 : (![0, 0] : Fin 2 → Nat) = fun _ => 0 := funext fun a => by fin_cases a <;> rfl

/-! ## The payload at an index -/

/-- The body's payload at (p, q), for operands with real entries: the row of the x block times the column of the
    weight matrix, plus the bias row's entry. -/
theorem pay0_apply (v0 : FVec Ideal S2000x512 .f32) (v1 : FVec Ideal S512x1024 .f32) (v16 : FVec Ideal S1x1024 .f32)
    (h0 : ∀ i, ∃ r : ℝ, v0 i = (r : EReal)) (h1 : ∀ i, ∃ r : ℝ, v1 i = (r : EReal)) (p : Fin 2000) (q : Fin 1024) :
    k0_pay1 (F := Ideal) v0 v1 v16 (ix2 p q) = (∑ k : Fin 512, v0 (ix2 p k) * v1 (ix2 k q)) + v16 (ix2 (0 : Fin 1) q) := by
  unfold k0_pay1
  refine (Cert.Lib.SplitProduct.split_bias_ix2 _ rfl rfl (fun _ _ => rfl) (fun _ _ => rfl) (fun _ _ => rfl) (fun _ _ => rfl)
    v0 _ h0 ?_ _ _ _ p q).trans ?_
  · rw [shapeCast_self]; exact h1
  · rw [shapeCast_self, shapeCast_self]

/-! ## The whole-array function -/

/-- The result array from the three argument arrays: at (r, col), the sum over k of x(r, k) · w(k, col), plus b(0, col). -/
def G0 (x : FVec Ideal S10000x512 .f32) (w : FVec Ideal S512x1024 .f32) (b : FVec Ideal S1x1024 .f32) : FVec Ideal S10000x1024 .f32 :=
  fun i => (∑ k : Fin 512, x (ix2 (n0 := 10000) (i 0) k) * w (ix2 k (n1 := 1024) (i 1))) + b (ix2 (0 : Fin 1) (n1 := 1024) (i 1))

theorem G0_apply (x : FVec Ideal S10000x512 .f32) (w : FVec Ideal S512x1024 .f32) (b : FVec Ideal S1x1024 .f32) (r : Fin 10000) (col : Fin 1024) :
    G0 x w b (ix2 r col) = (∑ k : Fin 512, x (ix2 r k) * w (ix2 k col)) + b (ix2 (0 : Fin 1) col) := rfl

/-! ## The windows' index maps, decided over the grid -/

/-- The block of x moves with the output's block along the rows; the weight matrix, the bias row and every window's
    column axis stay at block 0; the output's row block at point t is t. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the block at point t is row 2000 t + p of the array. -/
def row0 (t : Fin cfg0.N) (p : Fin 2000) : Fin 10000 :=
  ⟨2000 * t.val + p.val, by
    have ht : t.val < 5 := lt_of_lt_of_eq t.isLt N_0
    have hp := p.isLt
    omega⟩

theorem row0_val (t : Fin cfg0.N) (p : Fin 2000) : (row0 t p).val = 2000 * t.val + p.val := rfl

-- the core's buffer contents when the region is entered
variable (V : (c : Dev nD) → (b : Ref sig .tc) → Buf (Elt Ideal) ((c : Thread nD τ).loc b))

/-! ## What a point writes back -/

/-- WHAT POINT t WRITES BACK is block t of G0 of the three arrays as the region finds them. -/
theorem flushed0_eq (c : Dev nD) (t : Fin cfg0.N)
    (hx : ∀ i, ∃ r : ℝ, (V c main_arg0 : FVec Ideal S10000x512 .f32) i = (r : EReal))
    (hw : ∀ i, ∃ r : ℝ, (V c main_v0 : FVec Ideal S512x1024 .f32) i = (r : EReal)) :
    (dat0 (F := Ideal) (U := U) V c).flushed 3 t
      = ((cfg0.win 3).blk t).view.read (Elt Ideal) (G0 (V c main_arg0) (V c main_v0) (V c main_v2)) := by
  show (cfg0.win 3).cut (grid0.coords t) ((dat0 (F := Ideal) (U := U) V c).after 3 t) = _
  rw [after0_3]
  unfold out0_3
  rw [View.canon_unit_zero off00]
  simp only [View.ld_unit_zero (S := S2000x512) off00, View.ld_unit_zero (S := S512x1024) off00, View.ld_unit_zero (S := S1x1024) off00]
  obtain ⟨e00, e01, e10, e11, e20, e21, e30, e31⟩ := idx_facts0 t
  have hx' : ∀ i, ∃ r : ℝ, (iblk0 V c 0 t : FVec Ideal S2000x512 .f32) i = (r : EReal) := fun i => by
    unfold iblk0; rw [View.read_apply]; exact hx _
  have hw' : ∀ i, ∃ r : ℝ, (iblk0 V c 1 t : FVec Ideal S512x1024 .f32) i = (r : EReal) := fun i => by
    unfold iblk0; rw [View.read_apply]; exact hw _
  funext j
  obtain ⟨p, q, rfl⟩ : ∃ (p : Fin 2000) (q : Fin 1024), j = ix2 p q := ⟨j 0, j 1, eq_ix2 j⟩
  show k0_pay1 (F := Ideal) (iblk0 V c 0 t) (iblk0 V c 1 t) (iblk0 V c 2 t) (ix2 p q)
      = G0 (V c main_arg0) (V c main_v0) (V c main_v2) (((cfg0.win 3).blk t).view.emb (ix2 p q))
  refine (pay0_apply _ _ _ hx' hw' p q).trans ?_
  -- the output block's index in the array
  have hO : ((cfg0.win 3).blk t).view.emb (ix2 p q) = ix2 (row0 t p) q := by
    funext a; apply Fin.ext
    match a with
    | ⟨0, _⟩ => show win0_3.index t (0 : Fin 2) * 2000 + 1 * p.val = 2000 * t.val + p.val; omega
    | ⟨1, _⟩ => show win0_3.index t (1 : Fin 2) * 1024 + 1 * q.val = q.val; omega
  rw [hO, G0_apply]
  -- each input block read where the output's rectangle says
  have h0 : ∀ k : Fin 512, (iblk0 V c 0 t : FVec Ideal S2000x512 .f32) (ix2 p k) = (V c main_arg0 : FVec Ideal S10000x512 .f32) (ix2 (row0 t p) k) := fun k => by
    unfold iblk0; rw [View.read_apply]
    show V c main_arg0 _ = V c main_arg0 _
    congr 1; funext a; apply Fin.ext
    match a with
    | ⟨0, _⟩ => show win0_0.index t (0 : Fin 2) * 2000 + 1 * p.val = 2000 * t.val + p.val; omega
    | ⟨1, _⟩ => show win0_0.index t (1 : Fin 2) * 512 + 1 * k.val = k.val; omega
  have h1 : ∀ k : Fin 512, (iblk0 V c 1 t : FVec Ideal S512x1024 .f32) (ix2 k q) = (V c main_v0 : FVec Ideal S512x1024 .f32) (ix2 k q) := fun k => by
    unfold iblk0; rw [View.read_apply]
    show V c main_v0 _ = V c main_v0 _
    congr 1; funext a; apply Fin.ext
    match a with
    | ⟨0, _⟩ => show win0_1.index t (0 : Fin 2) * 512 + 1 * k.val = k.val; omega
    | ⟨1, _⟩ => show win0_1.index t (1 : Fin 2) * 1024 + 1 * q.val = q.val; omega
  have h2 : (iblk0 V c 2 t : FVec Ideal S1x1024 .f32) (ix2 (0 : Fin 1) q) = (V c main_v2 : FVec Ideal S1x1024 .f32) (ix2 (0 : Fin 1) q) := by
    unfold iblk0; rw [View.read_apply]
    show V c main_v2 _ = V c main_v2 _
    congr 1; funext a; apply Fin.ext
    match a with
    | ⟨0, _⟩ => show win0_2.index t (0 : Fin 2) * 1 + 1 * (0 : Fin 1).val = (0 : Fin 1).val; omega
    | ⟨1, _⟩ => show win0_2.index t (1 : Fin 2) * 1024 + 1 * q.val = q.val; omega
  rw [h2]
  exact congrArg (· + _) (Finset.sum_congr rfl fun k _ => by rw [h0 k, h1 k])

/-! ## The blocks cover the array -/

/-- An index of the array is in point t's block iff each coordinate is in the block's range on its axis. -/
theorem mem_blk0 (t : Fin cfg0.N) (i : S10000x1024.Idx) :
    i ∈ ((cfg0.win 3).blk t).view.set ↔ ∀ a : Fin 2, win0_3.index t a * S2000x1024.size a ≤ (i a).val ∧ (i a).val < win0_3.index t a * S2000x1024.size a + S2000x1024.size a := by
  show i ∈ ((View.whole main_v3).slice (win0_3.rect t)).set ↔ _
  rw [View.set_slice_whole, Rect.mem_set_unit]
  exact Iff.rfl

/-- Row r of the array lies in the block of the point r / 2000, which writes back (every point does). -/
theorem cover0 (i : S10000x1024.Idx) : ∃ t : Fin cfg0.N, (cfg0.win 3).flush t = true ∧ i ∈ ((cfg0.win 3).blk t).view.set := by
  have hi0 : (i 0).val < 10000 := (i 0).isLt
  have hi1 : (i 1).val < 1024 := (i 1).isLt
  have hN : cfg0.N = 5 := N_0
  let t : Fin cfg0.N := ⟨(i 0).val / 2000, by rw [hN]; omega⟩
  obtain ⟨-, -, -, -, -, -, e30, e31⟩ := idx_facts0 t
  have ht : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 1024 ≤ (i 1).val ∧ (i 1).val < win0_3.index t (1 : Fin 2) * 1024 + 1024; omega

/-! ## The array after the region -/

variable (Wpre : Dev nD → Valuation τ sig (Elt Ideal))

/-- The output array after region 0 IS G0 of the three arrays as the region finds them. -/
theorem fin0_eq (c : Dev nD)
    (hx : ∀ i, ∃ r : ℝ, (Vof Wpre c main_arg0 : FVec Ideal S10000x512 .f32) i = (r : EReal))
    (hw : ∀ i, ∃ r : ℝ, (Vof Wpre c main_v0 : FVec Ideal S512x1024 .f32) i = (r : EReal)) :
    fin0 (F := Ideal) (U := U) Wpre c = G0 (Vof Wpre c main_arg0) (Vof Wpre c main_v0) (Vof Wpre c main_v2) := by
  unfold fin0
  exact (dat0 (F := Ideal) (U := U) (Vof Wpre) c).arrAt_eq_of_cover 3 _ (fun t _ => flushed0_eq (Vof Wpre) c t hx hw) cover0

/-- The three arrays region 0 reads, as the region finds them, at their literal shapes: x (main_arg0), the weight
    matrix (main_v0), the bias row (main_v2). -/
abbrev x0 (c : Dev nD) : FVec Ideal S10000x512 .f32 := Vof Wpre c main_arg0
abbrev w0 (c : Dev nD) : FVec Ideal S512x1024 .f32 := Vof Wpre c main_v0
abbrev b0 (c : Dev nD) : FVec Ideal S1x1024 .f32 := Vof Wpre c main_v2

/-- At (r, col): the sum over k of x(r, k) · w(k, col), plus b(0, col). -/
theorem fin0_apply (c : Dev nD)
    (hx : ∀ i, ∃ r : ℝ, x0 Wpre c i = (r : EReal)) (hw : ∀ i, ∃ r : ℝ, w0 Wpre c i = (r : EReal))
    (r : Fin 10000) (col : Fin 1024) :
    (fin0 (F := Ideal) (U := U) Wpre c : FVec Ideal S10000x1024 .f32) (ix2 r col)
      = (∑ k : Fin 512, x0 Wpre c (ix2 r k) * w0 Wpre c (ix2 k col)) + b0 Wpre c (ix2 (0 : Fin 1) col) := by
  rw [fin0_eq Wpre c hx hw]
  exact G0_apply _ _ _ r col

/-- info: 'Cert.KernelIdeal.Hand.fin0_apply' depends on axioms: [propext, Classical.choice, Quot.sound] -/
#guard_msgs in #print axioms fin0_apply

end Cert.KernelIdeal.Hand

end
-- ==== Proof.KI.RealH0Agg.lean ====
/-
  The first layer's aggregation keeps real entries.

  Between region 0 and region 1 the program's host operations take each half H of region 0's output through the graph
  aggregation: the rows of H are scaled by the source-side factors, gathered along the edges, summed into their destination
  rows (an accumulating scatter from zero), scaled by the destination-side factors, and the bias row is added. Every one
  of these operations keeps "every entry is a real": a product or a sum of reals is a real, a broadcast and a gather
  only re-index, and an accumulating scatter adds finitely many update entries to an operand entry — whatever the index
  arrays hold. Stated from an ARBITRARY valuation of the buffers, for the two branches.
-/
import proofs.«175488_j3908420240157_2_alg».proof.Proof.KI.Chain
import proofs.«175488_j3908420240157_2_alg».proof.Proof.LibRealClosure

set_option maxRecDepth 16384

noncomputable section

namespace Cert.KernelIdeal.Hand

open Cert.KernelIdeal Cert.KernelIdeal.Gen
open Idealize.ShloMosaic Idealize.ShloMosaic.TcCoe Idealize.SL.Sem
open Cert.Lib.RealClosure

section FromAnyValuation
variable (P : Valuation τ sig (Elt Ideal))

set_option maxHeartbeats 8000000 in
/-- The aggregation of the first branch: rows scaled by the source-side factors, gathered along the edges, summed into
    their destination rows, scaled by the destination-side factors, plus the bias — real entries when the operands are. -/
theorem agg1_real (h4 : ∀ i : S10000x512.Idx, ∃ r : ℝ, (P (Proc.devRef .tc main_v4) : FVec Ideal S10000x512 .f32) i = (r : EReal))
    (h17 : ∀ i : S10000.Idx, ∃ r : ℝ, (P (Proc.devRef .tc main_v17) : FVec Ideal S10000 .f32) i = (r : EReal))
    (h22 : ∀ i : S10000.Idx, ∃ r : ℝ, (P (Proc.devRef .tc main_v22) : FVec Ideal S10000 .f32) i = (r : EReal))
    (h8 : ∀ i : S512.Idx, ∃ r : ℝ, (P (Proc.devRef .tc main_arg8) : FVec Ideal S512 .f32) i = (r : EReal)) :
    ∀ i : S10000x512.Idx, ∃ r : ℝ, (StableHlo.after hostOps1_4 P (Proc.devRef .tc main_v41) : FVec Ideal S10000x512 .f32) i = (r : EReal) := by
  after_results
  exact addf_real
    (mulf_real
      (hostScatterAdd_real _ _ (broadcastInDim_real _ _ (constant_zero_real _))
        (hostGather_real _ _ (mulf_real h4 (broadcastInDim_real _ _ (broadcastInDim_real _ _ h17)))))
      (broadcastInDim_real _ _ (broadcastInDim_real _ _ h22)))
    (broadcastInDim_real _ _ (broadcastInDim_real _ _ h8))

set_option maxHeartbeats 8000000 in
/-- The aggregation of the twin branch: the same operations on the second half of region 0's output and the twin's bias. -/
theorem agg2_real (h5 : ∀ i : S10000x512.Idx, ∃ r : ℝ, (P (Proc.devRef .tc main_v5) : FVec Ideal S10000x512 .f32) i = (r : EReal))
    (h17 : ∀ i : S10000.Idx, ∃ r : ℝ, (P (Proc.devRef .tc main_v17) : FVec Ideal S10000 .f32) i = (r : EReal))
    (h22 : ∀ i : S10000.Idx, ∃ r : ℝ, (P (Proc.devRef .tc main_v22) : FVec Ideal S10000 .f32) i = (r : EReal))
    (h12 : ∀ i : S512.Idx, ∃ r : ℝ, (P (Proc.devRef .tc main_arg12) : FVec Ideal S512 .f32) i = (r : EReal)) :
    ∀ i : S10000x512.Idx, ∃ r : ℝ, (StableHlo.after hostOps1_4 P (Proc.devRef .tc main_v60) : FVec Ideal S10000x512 .f32) i = (r : EReal) := by
  after_results
  exact addf_real
    (mulf_real
      (hostScatterAdd_real _ _ (broadcastInDim_real _ _ (constant_zero_real _))
        (hostGather_real _ _ (mulf_real h5 (broadcastInDim_real _ _ (broadcastInDim_real _ _ h17)))))
      (broadcastInDim_real _ _ (broadcastInDim_real _ _ h22)))
    (broadcastInDim_real _ _ (broadcastInDim_real _ _ h12))

end FromAnyValuation

end Cert.KernelIdeal.Hand

end
-- ==== Proof.KI.RealH0.lean ====
/-
  The first layer's outputs have real entries.

  Region 1 and region 2 multiply the first layer's outputs by the second layer's weights; the three-pass product the
  kernel forms equals the plain product only on real entries, so this file carries "every entry is a real" from the
  launch memory to those two arrays, along the program's own operations. The inputs are real by the precondition.
  Region 0's output is, entry by entry, a finite sum of products of reals plus a zero bias entry. Its two halves by
  columns are slices of it. The degrees are ones scattered into zeros, and their power -1/2 is a real to a real power;
  the factors are a selection between that power and zero. The aggregation of each half (scale, gather, scatter, scale,
  add the bias: the module before this one) keeps real entries, and so does the rectifier, a maximum with zero.
-/
import proofs.«175488_j3908420240157_2_alg».proof.Proof.KI.Chain
import proofs.«175488_j3908420240157_2_alg».proof.Proof.KI.Frame
import proofs.«175488_j3908420240157_2_alg».proof.Proof.KI.Value0
import proofs.«175488_j3908420240157_2_alg».proof.Proof.PreReal
import proofs.«175488_j3908420240157_2_alg».proof.Proof.LibRealClosure
import proofs.«175488_j3908420240157_2_alg».proof.Proof.KI.RealH0Agg

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Lib.RealClosure

/-- Every entry of a concatenation is an entry of one of its pieces. -/
theorem concatenate_mem {α : Type} {t : Shape} (a : Fin t.rank) (xs : List ((s : Shape) × (s.Idx → α)))
    (h : Shape.Concatenates (xs.map (·.1)) t a) (j : t.Idx) : ∃ p ∈ xs, ∃ i : p.1.Idx, concatenate t a xs h j = p.2 i := by
  unfold concatenate
  exact ⟨_, List.getElem_mem _, _, rfl⟩

/-- A concatenation of two arrays with real entries has real entries. -/
theorem concatenate2_real {t s₁ s₂ : Shape} (a : Fin t.rank) (x : s₁.Idx → EReal) (y : s₂.Idx → EReal)
    (h : Shape.Concatenates (([⟨s₁, x⟩, ⟨s₂, y⟩] : List ((s : Shape) × (s.Idx → EReal))).map (·.1)) t a)
    (hx : EntriesReal x) (hy : EntriesReal y) : EntriesReal (concatenate t a [⟨s₁, x⟩, ⟨s₂, y⟩] h) := fun j => by
  obtain ⟨p, hp, i, e⟩ := concatenate_mem a _ h j
  rw [e]
  rcases List.mem_cons.mp hp with rfl | hp
  · exact hx i
  · rcases List.mem_cons.mp hp with rfl | hp
    · exact hy i
    · exact absurd hp (List.not_mem_nil)

/-! ## The selections, the aggregation and the rectifier, from an arbitrary valuation -/

section FromAnyValuation
variable (P : Valuation τ sig (Elt Ideal))

/-- The first selection (the source-side factors): real entries when the power and the fallback are. -/
theorem sel1_real (h16 : ∀ i : S10000.Idx, ∃ r : ℝ, (P (Proc.devRef .tc main_v16) : FVec Ideal S10000 .f32) i = (r : EReal))
    (h5 : ∀ i : S_.Idx, ∃ r : ℝ, (P (Proc.devRef .tc main_cst_5) : FVec Ideal S_ .f32) i = (r : EReal)) :
    ∀ i : S10000.Idx, ∃ r : ℝ, (StableHlo.after hostOps1_1 P (Proc.devRef .tc main_v17) : FVec Ideal S10000 .f32) i = (r : EReal) := by
  after_results
  show ∀ i : S10000.Idx, ∃ r : ℝ, (select (P (Proc.devRef .tc main_v14) : IVec S10000 1) (P (Proc.devRef .tc main_v16) : FVec Ideal S10000 .f32)
    (broadcastInDim S10000 ![] bcast_S_S10000 (P (Proc.devRef .tc main_cst_5) : FVec Ideal S_ .f32))) i = (r : EReal)
  exact select_real _ h16 (broadcastInDim_real _ _ h5)

/-- The second selection (the destination-side factors). -/
theorem sel2_real (h21 : ∀ i : S10000.Idx, ∃ r : ℝ, (P (Proc.devRef .tc main_v21) : FVec Ideal S10000 .f32) i = (r : EReal))
    (h8 : ∀ i : S_.Idx, ∃ r : ℝ, (P (Proc.devRef .tc main_cst_8) : FVec Ideal S_ .f32) i = (r : EReal)) :
    ∀ i : S10000.Idx, ∃ r : ℝ, (StableHlo.after hostOps1_3 P (Proc.devRef .tc main_v22) : FVec Ideal S10000 .f32) i = (r : EReal) := by
  after_results
  show ∀ i : S10000.Idx, ∃ r : ℝ, (select (P (Proc.devRef .tc main_v19) : IVec S10000 1) (P (Proc.devRef .tc main_v21) : FVec Ideal S10000 .f32)
    (broadcastInDim S10000 ![] bcast_S_S10000 (P (Proc.devRef .tc main_cst_8) : FVec Ideal S_ .f32))) i = (r : EReal)
  exact select_real _ h21 (broadcastInDim_real _ _ h8)

/-- The rectifier of the first branch: the maximum with zero. -/
theorem relu1_real (h41 : ∀ i : S10000x512.Idx, ∃ r : ℝ, (P (Proc.devRef .tc main_v41) : FVec Ideal S10000x512 .f32) i = (r : EReal)) :
    ∀ i : S10000x512.Idx, ∃ r : ℝ, (StableHlo.after hostOps1_5 P (Proc.devRef .tc main_v61) : FVec Ideal S10000x512 .f32) i = (r : EReal) := by
  after_results
  show ∀ i : S10000x512.Idx, ∃ r : ℝ, (maximumf (P (Proc.devRef .tc main_v41) : FVec Ideal S10000x512 .f32)
    (broadcastInDim S10000x512 ![] bcast_S_S10000x512 (constant (F := Ideal) S_ .f32 0x00000000#32))) i = (r : EReal)
  exact maximumf_real h41 (broadcastInDim_real _ _ (constant_zero_real _))

/-- The rectifier of the twin branch. -/
theorem relu2_real (h60 : ∀ i : S10000x512.Idx, ∃ r : ℝ, (P (Proc.devRef .tc main_v60) : FVec Ideal S10000x512 .f32) i = (r : EReal)) :
    ∀ i : S10000x512.Idx, ∃ r : ℝ, (StableHlo.after hostOps1_6 P (Proc.devRef .tc main_v62) : FVec Ideal S10000x512 .f32) i = (r : EReal) := by
  after_results
  show ∀ i : S10000x512.Idx, ∃ r : ℝ, (maximumf (P (Proc.devRef .tc main_v60) : FVec Ideal S10000x512 .f32)
    (broadcastInDim S10000x512 ![] bcast_S_S10000x512 (constant (F := Ideal) S_ .f32 0x00000000#32))) i = (r : EReal)
  exact maximumf_real h60 (broadcastInDim_real _ _ (constant_zero_real _))

end FromAnyValuation

variable (m : (ℓ : Loc nD τ sig) → Buf (Elt Ideal) ℓ) (hpre : Cert.Pre_KernelIdeal m) (c : Dev nD)

include hpre in
/-- The weight matrix region 0 reads: the two first-layer weight matrices side by side; real entries. -/
theorem W1_v0_real : ∀ i : S512x1024.Idx, ∃ r : ℝ, (W1 m c main_v0 : FVec Ideal S512x1024 .f32) i = (r : EReal) := by
  dsimp only [W1]
  after_results
  exact concatenate2_real _ _ _ _ (Cert.Proof.Parts.pre_real_arg7 m hpre c) (Cert.Proof.Parts.pre_real_arg11 m hpre c)

/-- The bias row region 0 reads: zero everywhere. -/
theorem W1_v2_zero (i : S1x1024.Idx) : (W1 m c main_v2 : FVec Ideal S1x1024 .f32) i = (0 : EReal) := by
  dsimp only [W1]
  after_results
  exact Ideal.ofBits_zero_f32

include hpre in
/-- Region 0's output array has real entries: at (r, col) a finite sum of products of reals plus zero. -/
theorem o0_real : ∀ i : S10000x1024.Idx, ∃ r : ℝ, (o0 m c : FVec Ideal S10000x1024 .f32) i = (r : EReal) := fun i => by
  have hx : ∀ i, ∃ r : ℝ, x0 (W1 m) c i = (r : EReal) := fun i => by
    show ∃ r : ℝ, (W1 m c main_arg0 : FVec Ideal S10000x512 .f32) i = (r : EReal)
    rw [W1_of m c main_arg0 (by decide)]
    exact Cert.Proof.Parts.pre_real_arg0 m hpre c i
  have hw : ∀ i, ∃ r : ℝ, w0 (W1 m) c i = (r : EReal) := W1_v0_real m hpre c
  obtain ⟨r, col, rfl⟩ : ∃ (r : Fin 10000) (col : Fin 1024), i = ix2 r col := ⟨i 0, i 1, eq_ix2 i⟩
  unfold o0
  rw [fin0_apply (U := UU nD τ) (W1 m) c hx hw r col]
  refine isReal_add (isReal_sum _ _ fun k _ => isReal_mul (hx _) (hw _)) ⟨0, ?_⟩
  exact (W1_v2_zero m c _).trans EReal.coe_zero.symm

/-- Region 0's output array is what the valuation after the region holds there. -/
theorem W2_v3 : W2 m (o0 m) c main_v3 = o0 m c := Function.update_self ..

include hpre in
/-- The first half, by columns, of region 0's output: real entries. -/
theorem W3_v4_real : ∀ i : S10000x512.Idx, ∃ r : ℝ, (W3 m (o0 m) c main_v4 : FVec Ideal S10000x512 .f32) i = (r : EReal) := by
  dsimp only [W3]
  after_results
  exact extractStridedSlice_real _ _ (by rw [W2_v3]; exact o0_real m hpre c)

include hpre in
/-- The second half, by columns, of region 0's output: real entries. -/
theorem W3_v5_real : ∀ i : S10000x512.Idx, ∃ r : ℝ, (W3 m (o0 m) c main_v5 : FVec Ideal S10000x512 .f32) i = (r : EReal) := by
  dsimp only [W3]
  after_results
  exact extractStridedSlice_real _ _ (by rw [W2_v3]; exact o0_real m hpre c)

/-- The out-degrees (ones scattered into zeros by the source indices): real entries. -/
theorem W3_v9_real : ∀ i : S10000.Idx, ∃ r : ℝ, (W3 m (o0 m) c main_v9 : FVec Ideal S10000 .f32) i = (r : EReal) := by
  dsimp only [W3]
  after_results
  exact (hostScatterAdd_real _ _ (broadcastInDim_real _ _ (constant_zero_real _)) (broadcastInDim_real _ _ (constant_real _ _ _ (isReal_ofBits_f32 _ (by decide)))))

/-- The in-degrees (ones scattered into zeros by the destination indices): real entries. -/
theorem W3_v12_real : ∀ i : S10000.Idx, ∃ r : ℝ, (W3 m (o0 m) c main_v12 : FVec Ideal S10000 .f32) i = (r : EReal) := by
  dsimp only [W3]
  after_results
  exact (hostScatterAdd_real _ _ (broadcastInDim_real _ _ (constant_zero_real _)) (broadcastInDim_real _ _ (constant_real _ _ _ (isReal_ofBits_f32 _ (by decide)))))

/-- The out-degrees to the power -1/2: real entries (a real to a real power). -/
theorem W3_v16_real : ∀ i : S10000.Idx, ∃ r : ℝ, (W3 m (o0 m) c main_v16 : FVec Ideal S10000 .f32) i = (r : EReal) := by
  dsimp only [W3]
  after_results
  exact hostPowf_real (hostScatterAdd_real _ _ (broadcastInDim_real _ _ (constant_zero_real _)) (broadcastInDim_real _ _ (constant_real _ _ _ (isReal_ofBits_f32 _ (by decide))))) (broadcastInDim_real _ _ (constant_real _ _ _ (isReal_ofBits_f32 _ (by decide))))

/-- The scalar zero the first selection falls back to. -/
theorem W3_cst5 : W3 m (o0 m) c main_cst_5 = constant (F := Ideal) S_ .f32 0x00000000#32 := by
  dsimp only [W3]
  after_results

/-- The source-side factors: the out-degree to the power -1/2 where the degree is positive, else zero; real entries. -/
theorem W4_v17_real : ∀ i : S10000.Idx, ∃ r : ℝ, (W4 m (o0 m) c main_v17 : FVec Ideal S10000 .f32) i = (r : EReal) :=
  sel1_real (W3 m (o0 m) c) (W3_v16_real m c) (by rw [W3_cst5]; exact constant_zero_real _)

/-- The in-degrees are untouched by the first selection's three operations. -/
theorem W4_v12_real : ∀ i : S10000.Idx, ∃ r : ℝ, (W4 m (o0 m) c main_v12 : FVec Ideal S10000 .f32) i = (r : EReal) := by
  rw [W4_of m (o0 m) c main_v12 (by decide)]
  exact W3_v12_real m c

/-- The in-degrees to the power -1/2: real entries. -/
theorem W5_v21_real : ∀ i : S10000.Idx, ∃ r : ℝ, (W5 m (o0 m) c main_v21 : FVec Ideal S10000 .f32) i = (r : EReal) := by
  dsimp only [W5]
  after_results
  exact hostPowf_real (W4_v12_real m c) (broadcastInDim_real _ _ (constant_real _ _ _ (isReal_ofBits_f32 _ (by decide))))

/-- The scalar zero the second selection falls back to. -/
theorem W5_cst8 : W5 m (o0 m) c main_cst_8 = constant (F := Ideal) S_ .f32 0x00000000#32 := by
  dsimp only [W5]
  after_results

/-- The destination-side factors: real entries. -/
theorem W6_v22_real : ∀ i : S10000.Idx, ∃ r : ℝ, (W6 m (o0 m) c main_v22 : FVec Ideal S10000 .f32) i = (r : EReal) :=
  sel2_real (W5 m (o0 m) c) (W5_v21_real m c) (by rw [W5_cst8]; exact constant_zero_real _)

/-- The source-side factors are untouched by the operations up to the second selection. -/
theorem W6_v17_real : ∀ i : S10000.Idx, ∃ r : ℝ, (W6 m (o0 m) c main_v17 : FVec Ideal S10000 .f32) i = (r : EReal) := by
  rw [W6_of m (o0 m) c main_v17 (by decide), W5_of m (o0 m) c main_v17 (by decide)]
  exact W4_v17_real m c

include hpre in
/-- So are the two halves of region 0's output. -/
theorem W6_v4_real : ∀ i : S10000x512.Idx, ∃ r : ℝ, (W6 m (o0 m) c main_v4 : FVec Ideal S10000x512 .f32) i = (r : EReal) := by
  rw [W6_of m (o0 m) c main_v4 (by decide), W5_of m (o0 m) c main_v4 (by decide), W4_of m (o0 m) c main_v4 (by decide)]
  exact W3_v4_real m hpre c

include hpre in
theorem W6_v5_real : ∀ i : S10000x512.Idx, ∃ r : ℝ, (W6 m (o0 m) c main_v5 : FVec Ideal S10000x512 .f32) i = (r : EReal) := by
  rw [W6_of m (o0 m) c main_v5 (by decide), W5_of m (o0 m) c main_v5 (by decide), W4_of m (o0 m) c main_v5 (by decide)]
  exact W3_v5_real m hpre c

include hpre in
/-- The first bias vector is as launched: real entries. -/
theorem W6_arg8_real : ∀ i : S512.Idx, ∃ r : ℝ, (W6 m (o0 m) c main_arg8 : FVec Ideal S512 .f32) i = (r : EReal) := by
  rw [W6_of m (o0 m) c main_arg8 (by decide), W5_of m (o0 m) c main_arg8 (by decide), W4_of m (o0 m) c main_arg8 (by decide),
    W3_of m (o0 m) c main_arg8 (by decide), W2_of m (o0 m) c main_arg8 (by decide), W1_of m c main_arg8 (by decide)]
  exact Cert.Proof.Parts.pre_real_arg8 m hpre c

include hpre in
/-- The twin's first bias vector likewise. -/
theorem W6_arg12_real : ∀ i : S512.Idx, ∃ r : ℝ, (W6 m (o0 m) c main_arg12 : FVec Ideal S512 .f32) i = (r : EReal) := by
  rw [W6_of m (o0 m) c main_arg12 (by decide), W5_of m (o0 m) c main_arg12 (by decide), W4_of m (o0 m) c main_arg12 (by decide),
    W3_of m (o0 m) c main_arg12 (by decide), W2_of m (o0 m) c main_arg12 (by decide), W1_of m c main_arg12 (by decide)]
  exact Cert.Proof.Parts.pre_real_arg12 m hpre c

include hpre in
/-- The first branch's aggregation, before the rectifier: real entries. -/
theorem W7_v41_real : ∀ i : S10000x512.Idx, ∃ r : ℝ, (W7 m (o0 m) c main_v41 : FVec Ideal S10000x512 .f32) i = (r : EReal) :=
  agg1_real (W6 m (o0 m) c) (W6_v4_real m hpre c) (W6_v17_real m c) (W6_v22_real m c) (W6_arg8_real m hpre c)

include hpre in
/-- The twin branch's aggregation, before the rectifier: real entries. -/
theorem W7_v60_real : ∀ i : S10000x512.Idx, ∃ r : ℝ, (W7 m (o0 m) c main_v60 : FVec Ideal S10000x512 .f32) i = (r : EReal) :=
  agg2_real (W6 m (o0 m) c) (W6_v5_real m hpre c) (W6_v17_real m c) (W6_v22_real m c) (W6_arg12_real m hpre c)

include hpre in
/-- The first branch after the rectifier. -/
theorem W8_v61_real : ∀ i : S10000x512.Idx, ∃ r : ℝ, (W8 m (o0 m) c main_v61 : FVec Ideal S10000x512 .f32) i = (r : EReal) :=
  relu1_real (W7 m (o0 m) c) (W7_v41_real m hpre c)

include hpre in
/-- The twin's aggregation is untouched by the first rectifier's three operations. -/
theorem W8_v60_real : ∀ i : S10000x512.Idx, ∃ r : ℝ, (W8 m (o0 m) c main_v60 : FVec Ideal S10000x512 .f32) i = (r : EReal) := by
  rw [W8_of m (o0 m) c main_v60 (by decide)]
  exact W7_v60_real m hpre c

include hpre in
/-- The twin branch after the rectifier. -/
theorem W9_v62_real : ∀ i : S10000x512.Idx, ∃ r : ℝ, (W9 m (o0 m) c main_v62 : FVec Ideal S10000x512 .f32) i = (r : EReal) :=
  relu2_real (W8 m (o0 m) c) (W8_v60_real m hpre c)

include hpre in
/-- THE FIRST LAYER'S OUTPUT of the first branch, as region 1 finds it: every entry is a real. -/
theorem h0v_real : ∀ i : S10000x512.Idx, ∃ r : ℝ, (W10 m (o0 m) c main_v61 : FVec Ideal S10000x512 .f32) i = (r : EReal) := by
  rw [W10_of m (o0 m) c main_v61 (by decide), W9_of m (o0 m) c main_v61 (by decide)]
  exact W8_v61_real m hpre c

include hpre in
/-- THE FIRST LAYER'S OUTPUT of the twin branch, as region 2 finds it: every entry is a real. -/
theorem h0u_real : ∀ i : S10000x512.Idx, ∃ r : ℝ, (W10 m (o0 m) c main_v62 : FVec Ideal S10000x512 .f32) i = (r : EReal) := by
  rw [W10_of m (o0 m) c main_v62 (by decide)]
  exact W9_v62_real m hpre c

end Cert.KernelIdeal.Hand

end
-- ==== Proof.Layer0Cols.lean ====
/-
  The first layer's products. The kernel multiplies the features by the online and the target weight matrices set side by
  side, in one region, with a bias row of zeros, and the host cuts the result in two by columns; the reference multiplies by
  each matrix on its own. A column of the side-by-side matrix is a column of the left or of the right matrix, and adding
  zero changes nothing on the extended reals, so each half of the joint product is the reference's product.
-/
import proofs.«175488_j3908420240157_2_alg».proof.Proof.KI.Value0
import proofs.«175488_j3908420240157_2_alg».proof.Proof.LibMatProd

set_option maxRecDepth 65536

noncomputable section

open scoped BigOperators

namespace Cert.Proof.Parts

open Idealize.ShloMosaic Idealize.ShloMosaic.TcCoe Idealize.SL.Sem Idealize.ShloMosaic.ValueIdx

/-- Two 512 x 512 arrays side by side: a column below 512 is the left array's. -/
theorem cols_left0 (A B : FVec Ideal ⟨2, ![512, 512]⟩ .f32)
    (h : Shape.Concatenates [(⟨2, ![512, 512]⟩ : Shape), ⟨2, ![512, 512]⟩] ⟨2, ![512, 1024]⟩ 1) (k : Fin 512) (q : Fin 512) :
    concatenate ⟨2, ![512, 1024]⟩ 1 [⟨⟨2, ![512, 512]⟩, A⟩, ⟨⟨2, ![512, 512]⟩, B⟩] h
        (ix2 k (⟨q.val, by have := q.isLt; omega⟩ : Fin 1024)) = A (ix2 k q) :=
  concatenate_pair_apply_left 1 A B h _ rfl (ix2 k q) fun b => by match b with | ⟨0, _⟩ => rfl | ⟨1, _⟩ => rfl

/-- A column from 512 on is the right array's, 512 columns back. -/
theorem cols_right0 (A B : FVec Ideal ⟨2, ![512, 512]⟩ .f32)
    (h : Shape.Concatenates [(⟨2, ![512, 512]⟩ : Shape), ⟨2, ![512, 512]⟩] ⟨2, ![512, 1024]⟩ 1) (k : Fin 512) (q : Fin 512) :
    concatenate ⟨2, ![512, 1024]⟩ 1 [⟨⟨2, ![512, 512]⟩, A⟩, ⟨⟨2, ![512, 512]⟩, B⟩] h
        (ix2 k (⟨512 + q.val, by have := q.isLt; omega⟩ : Fin 1024)) = B (ix2 k q) :=
  concatenate_pair_apply_right 1 A B h _ rfl rfl (ix2 k q)
    (fun b hb => by match b with | ⟨0, _⟩ => rfl | ⟨1, _⟩ => exact absurd (Fin.ext rfl) hb)
    (by show q.val + 512 = 512 + q.val; omega)

/-- The online branch: x · A is the first 512 columns of x · [A | B] plus a row of zeros. -/
theorem first_layer_left (d : DotDims ⟨2, ![10000, 512]⟩ ⟨2, ![512, 512]⟩ ⟨2, ![10000, 512]⟩)
    (hr : d.contr.rank = 1) (hs : d.contr.size ⟨0, by omega⟩ = 512)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (X : FVec Ideal ⟨2, ![10000, 512]⟩ .f32) (A B : FVec Ideal ⟨2, ![512, 512]⟩ .f32) (Z : FVec Ideal ⟨2, ![1, 1024]⟩ .f32)
    (hZ : ∀ i, Z i = 0)
    (hcat : Shape.Concatenates [(⟨2, ![512, 512]⟩ : Shape), ⟨2, ![512, 512]⟩] ⟨2, ![512, 1024]⟩ 1)
    (hsl : (⟨2, ![10000, 1024]⟩ : Shape).Slices ![0, 0] ⟨2, ![10000, 512]⟩) :
    Host.dotGeneral (F := Ideal) d none X A
      = extractStridedSlice ⟨2, ![10000, 512]⟩ ![0, 0]
          (Cert.KernelIdeal.Hand.G0 X (concatenate ⟨2, ![512, 1024]⟩ 1 [⟨⟨2, ![512, 512]⟩, A⟩, ⟨⟨2, ![512, 512]⟩, B⟩] hcat) Z) hsl := by
  funext j
  obtain ⟨r, col, rfl⟩ : ∃ (r : Fin 10000) (col : Fin 512), j = ix2 r col := ⟨j 0, j 1, eq_ix2 j⟩
  rw [Cert.MatProd.hostDot_apply d hr hs hl0 hl1 hr0 hr1 X A (ix2 r col)]
  rw [extractStridedSlice_apply ![0, 0] _ hsl (ix2 r col) (ix2 r (⟨col.val, by have := col.isLt; omega⟩ : Fin 1024))
    (fun a => by match a with | ⟨0, _⟩ => exact (Nat.zero_add _).symm | ⟨1, _⟩ => exact (Nat.zero_add _).symm)]
  rw [Cert.KernelIdeal.Hand.G0_apply, hZ, add_zero]
  unfold Cert.Spec.rowsByCols
  exact Finset.sum_congr rfl fun k _ => by rw [cols_left0 A B hcat k col]

/-- The target branch: x · B is the last 512 columns. -/
theorem first_layer_right (d : DotDims ⟨2, ![10000, 512]⟩ ⟨2, ![512, 512]⟩ ⟨2, ![10000, 512]⟩)
    (hr : d.contr.rank = 1) (hs : d.contr.size ⟨0, by omega⟩ = 512)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (X : FVec Ideal ⟨2, ![10000, 512]⟩ .f32) (A B : FVec Ideal ⟨2, ![512, 512]⟩ .f32) (Z : FVec Ideal ⟨2, ![1, 1024]⟩ .f32)
    (hZ : ∀ i, Z i = 0)
    (hcat : Shape.Concatenates [(⟨2, ![512, 512]⟩ : Shape), ⟨2, ![512, 512]⟩] ⟨2, ![512, 1024]⟩ 1)
    (hsl : (⟨2, ![10000, 1024]⟩ : Shape).Slices ![0, 512] ⟨2, ![10000, 512]⟩) :
    Host.dotGeneral (F := Ideal) d none X B
      = extractStridedSlice ⟨2, ![10000, 512]⟩ ![0, 512]
          (Cert.KernelIdeal.Hand.G0 X (concatenate ⟨2, ![512, 1024]⟩ 1 [⟨⟨2, ![512, 512]⟩, A⟩, ⟨⟨2, ![512, 512]⟩, B⟩] hcat) Z) hsl := by
  funext j
  obtain ⟨r, col, rfl⟩ : ∃ (r : Fin 10000) (col : Fin 512), j = ix2 r col := ⟨j 0, j 1, eq_ix2 j⟩
  rw [Cert.MatProd.hostDot_apply d hr hs hl0 hl1 hr0 hr1 X B (ix2 r col)]
  rw [extractStridedSlice_apply ![0, 512] _ hsl (ix2 r col) (ix2 r (⟨512 + col.val, by have := col.isLt; omega⟩ : Fin 1024))
    (fun a => by match a with | ⟨0, _⟩ => exact (Nat.zero_add _).symm | ⟨1, _⟩ => rfl)]
  rw [Cert.KernelIdeal.Hand.G0_apply, hZ, add_zero]
  unfold Cert.Spec.rowsByCols
  exact Finset.sum_congr rfl fun k _ => by rw [cols_right0 A B hcat k col]

end Cert.Proof.Parts

end
-- ==== Proof.Region0Halves.lean ====
/-
  The two halves of region 0's output are the reference's two first-layer products.

  Region 0 multiplies the features by the two first-layer weight matrices set side by side and adds a bias row of zeros.
  Entry by entry its output is the plain product (the operands have real entries by the precondition, so the three-pass
  product is the plain one) plus zero. The array the region finds as its weight operand is the concatenation of the two
  argument matrices, its feature operand is the argument array as launched, and its bias row is zero everywhere. So the
  first 512 columns of the output are the host's product of the features by the first matrix, and the last 512 columns
  the product by the second.
-/
import proofs.«175488_j3908420240157_2_alg».proof.Proof.KI.RealH0
import proofs.«175488_j3908420240157_2_alg».proof.Proof.Layer0Cols

set_option maxRecDepth 65536

noncomputable section

open scoped BigOperators

namespace Cert.Proof.Parts

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ) (hpre : Cert.Pre_KernelIdeal m) (c : Dev nD)

/-- The features are as launched when region 0 is entered. -/
theorem W1_arg0 : W1 m c main_arg0 = m ((c.tc : Thread nD τ).loc main_arg0) :=
  (W1_of m c main_arg0 (by decide)).trans rfl

/-- The weight matrix region 0 reads is the two first-layer weight matrices, as launched, side by side. -/
theorem W1_v0_eq :
    W1 m c main_v0 = concatenate S512x1024 1 [⟨S512x512, m ((c.tc : Thread nD τ).loc main_arg7)⟩, ⟨S512x512, m ((c.tc : Thread nD τ).loc main_arg11)⟩]
      concatenates_S512x512_S512x512_S512x1024_d1 := by
  dsimp only [W1]
  after_results

include hpre in
/-- Region 0's output is the whole-array function of the launch's arrays: the product by the two matrices side by side,
    plus the (zero) bias row. -/
theorem o0_eq_G0 :
    (o0 m c : FVec Ideal S10000x1024 .f32)
      = G0 (m ((c.tc : Thread nD τ).loc main_arg0))
          (concatenate S512x1024 1 [⟨S512x512, m ((c.tc : Thread nD τ).loc main_arg7)⟩, ⟨S512x512, m ((c.tc : Thread nD τ).loc main_arg11)⟩]
            concatenates_S512x512_S512x512_S512x1024_d1)
          (W1 m c main_v2) := by
  have hx : ∀ i, ∃ r : ℝ, (Vof (W1 m) c main_arg0 : FVec Ideal S10000x512 .f32) i = (r : EReal) := fun i => by
    show ∃ r : ℝ, (W1 m c main_arg0 : FVec Ideal S10000x512 .f32) i = (r : EReal)
    rw [W1_arg0]
    exact pre_real_arg0 m hpre c i
  have hw : ∀ i, ∃ r : ℝ, (Vof (W1 m) c main_v0 : FVec Ideal S512x1024 .f32) i = (r : EReal) := W1_v0_real m hpre c
  unfold o0
  rw [fin0_eq (U := UU nD τ) (W1 m) c hx hw]
  show G0 (W1 m c main_arg0) (W1 m c main_v0) (W1 m c main_v2) = _
  rw [W1_arg0, W1_v0_eq]

include hpre in
/-- The first 512 columns of region 0's output: the features times the first weight matrix, as the host multiplies. -/
theorem o0_left (d : DotDims ⟨2, ![10000, 512]⟩ ⟨2, ![512, 512]⟩ ⟨2, ![10000, 512]⟩)
    (hr : d.contr.rank = 1) (hs : d.contr.size ⟨0, by omega⟩ = 512)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val) :
    extractStridedSlice S10000x512 ![0, 0] (o0 m c : FVec Ideal S10000x1024 .f32) slices_S10000x1024_S10000x512_0_0
      = Host.dotGeneral (F := Ideal) (φ₁ := .f32) (φ₂ := .f32) d none (m ((c.tc : Thread nD τ).loc main_arg0) : FVec Ideal S10000x512 .f32)
          (m ((c.tc : Thread nD τ).loc main_arg7) : FVec Ideal S512x512 .f32) := by
  rw [o0_eq_G0 m hpre c]
  exact (first_layer_left d hr hs hl0 hl1 hr0 hr1 _ _ _ _ (W1_v2_zero m c) _ _).symm

include hpre in
/-- The last 512 columns: the features times the second (the twin's) weight matrix. -/
theorem o0_right (d : DotDims ⟨2, ![10000, 512]⟩ ⟨2, ![512, 512]⟩ ⟨2, ![10000, 512]⟩)
    (hr : d.contr.rank = 1) (hs : d.contr.size ⟨0, by omega⟩ = 512)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val) :
    extractStridedSlice S10000x512 ![0, 512] (o0 m c : FVec Ideal S10000x1024 .f32) slices_S10000x1024_S10000x512_0_512
      = Host.dotGeneral (F := Ideal) (φ₁ := .f32) (φ₂ := .f32) d none (m ((c.tc : Thread nD τ).loc main_arg0) : FVec Ideal S10000x512 .f32)
          (m ((c.tc : Thread nD τ).loc main_arg11) : FVec Ideal S512x512 .f32) := by
  rw [o0_eq_G0 m hpre c]
  exact (first_layer_right d hr hs hl0 hl1 hr0 hr1 _ _ _ _ (W1_v2_zero m c) _ _).symm

end Cert.Proof.Parts

end
-- ==== Proof.Stage1v.lean ====
/-
  The first graph-convolution layer, v-branch: the reference's and the kernel's outputs agree.

  Both programs compute the same layer from the same arguments, with two differences. The reference multiplies the features
  by the first weight matrix in one product on the host; the kernel takes the first 512 columns of its region 0's result,
  the product of the features with two weight matrices side by side (hypothesis hprod here). And the reference scales the
  gathered rows by the gathered factors where the kernel scales the rows before gathering them: one array identity,
  row scaling commutes with a row gather.
-/
import proofs.«175488_j3908420240157_2_alg».proof.Proof.Algebraic
import proofs.«175488_j3908420240157_2_alg».proof.Proof.KI.Layer1v
import proofs.«175488_j3908420240157_2_alg».proof.Proof.RefLayer1v
import proofs.«175488_j3908420240157_2_alg».proof.Proof.LibGatherScale
import proofs.«175488_j3908420240157_2_alg».proof.Proof.Region0Halves

set_option maxRecDepth 65536

noncomputable section

namespace Cert.Proof.Parts

open Idealize.ShloMosaic Idealize.ShloMosaic.TcCoe Idealize.SL.Sem Idealize.ShloMosaic.ValueIdx

variable {F : FTy → Type} [FloatOps F]

/-- The two programs' degree columns, inverse square roots and wrapped edge lists are the same terms. -/
theorem degR_eq (a : (⟨Cert.ReferenceIdeal.S320000, .i32⟩ : BufTy).Contents (Elt F)) : degR a = Cert.KernelIdeal.Hand.degK a := rfl
theorem rsqR_eq (d : (⟨Cert.ReferenceIdeal.S10000, .f32⟩ : BufTy).Contents (Elt F)) : rsqR d = Cert.KernelIdeal.Hand.rsqK d := rfl
theorem wrapR_eq (a : (⟨Cert.ReferenceIdeal.S320000, .i32⟩ : BufTy).Contents (Elt F)) : wrapR a = Cert.KernelIdeal.Hand.wrapK a := rfl

/-- Rows gathered along the wrapped sources and scaled by the gathered factors are the scaled rows gathered: the one
    array identity between the two programs' layers, in their printed spelling. -/
theorem inner1_eq (h : (⟨Cert.ReferenceIdeal.S10000x512, .f32⟩ : BufTy).Contents (Elt F)) (ns : (⟨Cert.ReferenceIdeal.S10000, .f32⟩ : BufTy).Contents (Elt F))
    (idx : (⟨Cert.ReferenceIdeal.S320000x1, .i32⟩ : BufTy).Contents (Elt F)) :
    mulf (Host.gather Cert.ReferenceIdeal.gather_S10000x512_S320000x1_S320000x512_1_0_n_n_0_1_1512 h idx)
        (broadcastInDim Cert.ReferenceIdeal.S320000x512 ![0, 1] Cert.ReferenceIdeal.Gen.bcast_S320000x1_S320000x512_0_1
          (broadcastInDim Cert.ReferenceIdeal.S320000x1 ![0] Cert.ReferenceIdeal.Gen.bcast_S320000_S320000x1_0
            (Host.gather Cert.ReferenceIdeal.gather_S10000_S320000x1_S320000_n_0_n_n_0_1_1 ns idx)))
      = Host.gather Cert.KernelIdeal.gather_S10000x512_S320000x1_S320000x512_1_0_n_n_0_1_1512 (mulf h (Cert.KernelIdeal.Hand.colsK ns)) idx :=
  Cert.Lib.GatherScale.gather_scale (N := 10000) (E := 320000) (C := 512) (w := 32) (by decide) _ _ _ _ _ rfl rfl _ rfl _ _ _ _ _ _ _ _ _ rfl rfl

set_option maxHeartbeats 1000000 in
/-- The layers agree: gathering rows and scaling them by the gathered factors is scaling the rows and gathering them. -/
theorem layerR_eq (h : (⟨Cert.ReferenceIdeal.S10000x512, .f32⟩ : BufTy).Contents (Elt F)) (ns nd : (⟨Cert.ReferenceIdeal.S10000, .f32⟩ : BufTy).Contents (Elt F))
    (src dst : (⟨Cert.ReferenceIdeal.S320000, .i32⟩ : BufTy).Contents (Elt F)) (b : (⟨Cert.ReferenceIdeal.S512, .f32⟩ : BufTy).Contents (Elt F)) :
    layerR h ns nd src dst b = Cert.KernelIdeal.Hand.layerK h ns nd src dst b := by
  unfold layerR Cert.KernelIdeal.Hand.layerK
  rw [wrapR_eq, inner1_eq]
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 4000000 in
/-- THE FIRST LAYER, v-branch: the reference's output is what the kernel's region 1 finds, given that the first 512 columns of
    region 0's result are the product of the features with the first weight matrix. -/
theorem h0v_agree_of (hagree : Agree m m') (c : Dev Cert.KernelIdeal.nD)
    (hprod : extractStridedSlice Cert.KernelIdeal.S10000x512 ![0, 0] (Cert.KernelIdeal.Hand.o0 m c) Cert.KernelIdeal.Gen.slices_S10000x1024_S10000x512_0_0
      = Host.dotGeneral (F := Ideal) (φ₁ := .f32) (φ₂ := .f32) Cert.ReferenceIdeal.dot_S10000x512_S512x512_S10000x512_1_0_0_1_n_n none (m ((c.tc : Thread Cert.KernelIdeal.nD Cert.KernelIdeal.τ).loc Cert.KernelIdeal.main_arg0) : FVec Ideal Cert.KernelIdeal.S10000x512 .f32) (m ((c.tc : Thread Cert.KernelIdeal.nD Cert.KernelIdeal.τ).loc Cert.KernelIdeal.main_arg7) : FVec Ideal Cert.KernelIdeal.S512x512 .f32)) :
    StableHlo.after (Cert.ReferenceIdeal.OpsP.ops (F := Ideal)) (StableHlo.launchContents m' c) (Proc.devRef .tc Cert.ReferenceIdeal.main_v44)
      = Cert.KernelIdeal.Hand.W10 m (Cert.KernelIdeal.Hand.o0 m) c Cert.KernelIdeal.main_v61 := by
  obtain ⟨a0, a1, a2, -, -, -, -, a7, a8, -⟩ := hagree c
  rw [ref_main_v44 m' c, Cert.KernelIdeal.Hand.W10_main_v61 m (Cert.KernelIdeal.Hand.o0 m) c, a0, a1, a2, a7, a8, layerR_eq, hprod]
  rfl

/-- THE FIRST LAYER, v-branch: the reference's output is what the kernel's region 1 finds. The first 512 columns of
    region 0's result are the host's product of the features with the first weight matrix, by the precondition. -/
theorem h0v_agree (hpre : Cert.Pre_KernelIdeal m) (hagree : Agree m m') (c : Dev Cert.KernelIdeal.nD) :
    StableHlo.after (Cert.ReferenceIdeal.OpsP.ops (F := Ideal)) (StableHlo.launchContents m' c) (Proc.devRef .tc Cert.ReferenceIdeal.main_v44)
      = Cert.KernelIdeal.Hand.W10 m (Cert.KernelIdeal.Hand.o0 m) c Cert.KernelIdeal.main_v61 :=
  h0v_agree_of m m' hagree c
    (o0_left m hpre c Cert.ReferenceIdeal.dot_S10000x512_S512x512_S10000x512_1_0_0_1_n_n rfl rfl (fun _ _ => rfl) (fun _ _ => rfl)
      (fun _ _ => rfl) (fun _ _ => rfl))

/-- info: 'Cert.Proof.Parts.h0v_agree' depends on axioms: [propext, Classical.choice, Quot.sound] -/
#guard_msgs in #print axioms h0v_agree

end Cert.Proof.Parts

end
-- ==== Proof.KI.Layer1u.lean ====
/-
  The first graph-convolution layer of the idealized kernel's host program, u-branch (the target encoder): what the
  valuation region 1 is entered at holds at the layer's output — the same layer as the v-branch over the LAST 512 columns of
  region 0's result and the target encoder's bias row.
-/
import proofs.«175488_j3908420240157_2_alg».proof.Proof.KI.Layer1v

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

set_option maxHeartbeats 1000000 in
/-- The first stretch: the last 512 columns of the product. -/
theorem s1_v5 (P : Valuation τ sig (Elt F)) :
    StableHlo.after hostOps1 P (Proc.devRef .tc main_v5)
      = extractStridedSlice S10000x512 ![0, 512] (P (Proc.devRef .tc main_v3)) slices_S10000x1024_S10000x512_0_512 := by
  after_results

set_option maxHeartbeats 4000000 in
/-- The layer's stretch, u-branch: the pre-activation. -/
theorem s5_v60 (P : Valuation τ sig (Elt F)) :
    StableHlo.after hostOps1_4 P (Proc.devRef .tc main_v60)
      = layerK (P (Proc.devRef .tc main_v5)) (P (Proc.devRef .tc main_v17)) (P (Proc.devRef .tc main_v22))
          (P (Proc.devRef .tc main_arg1)) (P (Proc.devRef .tc main_arg2)) (P (Proc.devRef .tc main_arg12)) := by
  after_results
  rfl

/-- The second rectifier's three operations. -/
theorem s7_v62 (P : Valuation τ sig (Elt F)) :
    StableHlo.after hostOps1_6 P (Proc.devRef .tc main_v62)
      = maximumf (P (Proc.devRef .tc main_v60)) (broadcastInDim S10000x512 ![] bcast_S_S10000x512 (constant S_ .f32 0x00000000#32)) := by
  after_results
  rfl

variable (m : (ℓ : Loc nD τ sig) → Buf (Elt F) ℓ)
  (o0 : (c : Dev nD) → Buf (Elt F) ((c : Thread nD τ).loc main_v3))

/-- The last 512 columns of region 0's result, kept until the layer's stretch. -/
theorem W6_main_v5 (c : Dev nD) :
    W6 m o0 c main_v5 = extractStridedSlice S10000x512 ![0, 512] (o0 c) slices_S10000x1024_S10000x512_0_512 :=
  (W6_of m o0 c main_v5 (by decide)).trans <| (W5_of m o0 c main_v5 (by decide)).trans <| (W4_of m o0 c main_v5 (by decide)).trans <|
  (s1_v5 (W2 m o0 c)).trans (congrArg (extractStridedSlice S10000x512 ![0, 512] · slices_S10000x1024_S10000x512_0_512) (W2_main_v3 m o0 c))

/-- THE LAYER'S OUTPUT, u-branch, as region 1 finds it. -/
theorem W10_main_v62 (c : Dev nD) :
    W10 m o0 c main_v62
      = maximumf
          (layerK (extractStridedSlice S10000x512 ![0, 512] (o0 c) slices_S10000x1024_S10000x512_0_512)
            (rsqK (degK (m ((c : Thread nD τ).loc main_arg1)))) (rsqK (degK (m ((c : Thread nD τ).loc main_arg2))))
            (m ((c : Thread nD τ).loc main_arg1)) (m ((c : Thread nD τ).loc main_arg2)) (m ((c : Thread nD τ).loc main_arg12)))
          (broadcastInDim S10000x512 ![] bcast_S_S10000x512 (constant S_ .f32 0x00000000#32)) := by
  refine (W10_of m o0 c main_v62 (by decide)).trans <| (s7_v62 (W8 m o0 c)).trans ?_
  refine congrArg (maximumf · _) ((W8_of m o0 c main_v60 (by decide)).trans ((s5_v60 (W6 m o0 c)).trans ?_))
  show layerK (W6 m o0 c main_v5) (W6 m o0 c main_v17) (W6 m o0 c main_v22) (W6 m o0 c main_arg1) (W6 m o0 c main_arg2) (W6 m o0 c main_arg12) = _
  rw [W6_main_v5, W6_main_v17, W6_main_v22,
    W6_launch m o0 c main_arg1 (by decide) (by decide) (by decide) (by decide) (by decide) (by decide),
    W6_launch m o0 c main_arg2 (by decide) (by decide) (by decide) (by decide) (by decide) (by decide),
    W6_launch m o0 c main_arg12 (by decide) (by decide) (by decide) (by decide) (by decide) (by decide)]

end Cert.KernelIdeal.Hand

end
-- ==== Proof.RefLayer1u.lean ====
/-
  The first graph-convolution layer of the reference, u-branch (the target encoder), read as one term of its arguments: the
  same layer as the v-branch over the product of the features with the target encoder's first weight matrix, and its bias.
-/
import proofs.«175488_j3908420240157_2_alg».proof.Proof.RefLayer1v

set_option maxRecDepth 65536

noncomputable section

namespace Cert.Proof.Parts

open Cert.ReferenceIdeal Cert.ReferenceIdeal.Gen Cert.ReferenceIdeal.OpsP
open Idealize.ShloMosaic Idealize.ShloMosaic.TcCoe Idealize.SL.Sem Idealize.ShloMosaic.StableHlo

variable {F : FTy → Type} [FloatOps F]

set_option maxHeartbeats 0 in
/-- THE LAYER'S OUTPUT, u-branch, in the reference. -/
theorem ref_main_v133 (m : (ℓ : Loc nD τ sig) → Buf (Elt F) ℓ) (d : Dev nD) :
    after ops (launchContents m d) (Proc.devRef .tc main_v133)
      = maximumf
          (layerR (Host.dotGeneral dot_S10000x512_S512x512_S10000x512_1_0_0_1_n_n none (m ((d.tc : Thread nD τ).loc main_arg0)) (m ((d.tc : Thread nD τ).loc main_arg11)))
            (rsqR (degR (m ((d.tc : Thread nD τ).loc main_arg1)))) (rsqR (degR (m ((d.tc : Thread nD τ).loc main_arg2))))
            (m ((d.tc : Thread nD τ).loc main_arg1)) (m ((d.tc : Thread nD τ).loc main_arg2)) (m ((d.tc : Thread nD τ).loc main_arg12)))
          (broadcastInDim S10000x512 ![] bcast_S_S10000x512 (constant S_ .f32 0x00000000#32)) := by
  after_results_simp <;> rfl

end Cert.Proof.Parts

end
-- ==== Proof.Stage1u.lean ====
/-
  The first graph-convolution layer, u-branch (the target encoder): the reference's and the kernel's outputs agree.

  The same layer as the first branch's, over the product of the features with the target encoder's first weight matrix
  and its bias. The reference multiplies by that matrix in one product on the host; the kernel takes the LAST 512 columns
  of its region 0's result. And the reference scales the gathered rows by the gathered factors where the kernel scales
  the rows before gathering them: row scaling commutes with a row gather.
-/
import proofs.«175488_j3908420240157_2_alg».proof.Proof.Stage1v
import proofs.«175488_j3908420240157_2_alg».proof.Proof.KI.Layer1u
import proofs.«175488_j3908420240157_2_alg».proof.Proof.RefLayer1u

set_option maxRecDepth 65536

noncomputable section

namespace Cert.Proof.Parts

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 4000000 in
/-- THE FIRST LAYER, u-branch: the reference's output is what the kernel's region 2 reads, given that the last 512 columns
    of region 0's result are the product of the features with the target encoder's first weight matrix. -/
theorem h0u_agree_of (hagree : Agree m m') (c : Dev Cert.KernelIdeal.nD)
    (hprod : extractStridedSlice Cert.KernelIdeal.S10000x512 ![0, 512] (Cert.KernelIdeal.Hand.o0 m c) Cert.KernelIdeal.Gen.slices_S10000x1024_S10000x512_0_512
      = Host.dotGeneral (F := Ideal) (φ₁ := .f32) (φ₂ := .f32) Cert.ReferenceIdeal.dot_S10000x512_S512x512_S10000x512_1_0_0_1_n_n none (m ((c.tc : Thread Cert.KernelIdeal.nD Cert.KernelIdeal.τ).loc Cert.KernelIdeal.main_arg0) : FVec Ideal Cert.KernelIdeal.S10000x512 .f32) (m ((c.tc : Thread Cert.KernelIdeal.nD Cert.KernelIdeal.τ).loc Cert.KernelIdeal.main_arg11) : FVec Ideal Cert.KernelIdeal.S512x512 .f32)) :
    StableHlo.after (Cert.ReferenceIdeal.OpsP.ops (F := Ideal)) (StableHlo.launchContents m' c) (Proc.devRef .tc Cert.ReferenceIdeal.main_v133)
      = Cert.KernelIdeal.Hand.W10 m (Cert.KernelIdeal.Hand.o0 m) c Cert.KernelIdeal.main_v62 := by
  obtain ⟨a0, a1, a2, -, -, -, -, -, -, -, -, a11, a12, -⟩ := hagree c
  rw [ref_main_v133 m' c, Cert.KernelIdeal.Hand.W10_main_v62 m (Cert.KernelIdeal.Hand.o0 m) c, a0, a1, a2, a11, a12, layerR_eq, hprod]
  rfl

/-- THE FIRST LAYER, u-branch: the reference's output is what the kernel's region 2 reads. The last 512 columns of region
    0's result are the host's product of the features with the target encoder's first weight matrix, by the precondition. -/
theorem h0u_agree (hpre : Cert.Pre_KernelIdeal m) (hagree : Agree m m') (c : Dev Cert.KernelIdeal.nD) :
    StableHlo.after (Cert.ReferenceIdeal.OpsP.ops (F := Ideal)) (StableHlo.launchContents m' c) (Proc.devRef .tc Cert.ReferenceIdeal.main_v133)
      = Cert.KernelIdeal.Hand.W10 m (Cert.KernelIdeal.Hand.o0 m) c Cert.KernelIdeal.main_v62 :=
  h0u_agree_of m m' hagree c
    (o0_right m hpre c Cert.ReferenceIdeal.dot_S10000x512_S512x512_S10000x512_1_0_0_1_n_n rfl rfl (fun _ _ => rfl) (fun _ _ => rfl)
      (fun _ _ => rfl) (fun _ _ => rfl))

/-- info: 'Cert.Proof.Parts.h0u_agree' depends on axioms: [propext, Classical.choice, Quot.sound] -/
#guard_msgs in #print axioms h0u_agree

end Cert.Proof.Parts

end
-- ==== Proof.RefLayer2.lean ====
/-
  The second layer of the graph network on the reference's side.

  The reference computes the same layer in another order: it multiplies the first layer's output by the layer's
  weights on the host, gathers the product's rows along the edges' sources, scales each gathered row by the gathered
  source-side factor, adds the rows up at the edges' targets, scales by the target-side factors, and adds the bias.
  This module names the four pieces as functions of what they read, reads the reference's sixty-two operations of
  this layer from any contents of the buffers, and places them inside the reference's whole line of operations: what
  comes before them leaves the arguments as launched, and nothing after them writes the layer's result.
-/
import proofs.«175488_j3908420240157_2_alg».proof.Proof.RefFrame
import proofs.«175488_j3908420240157_2_alg».proof.Proof.KI.Entry5

set_option maxRecDepth 65536

noncomputable section

namespace Cert.Proof.Parts

open Cert.ReferenceIdeal Cert.ReferenceIdeal.Gen Cert.ReferenceIdeal.OpsP
open Idealize.ShloMosaic Idealize.ShloMosaic.TcCoe Idealize.SL.Sem Idealize.ShloMosaic.StableHlo

variable {F : FTy → Type} [FloatOps F]

/-- The source-side factors from the edges' source indices. -/
def nsR (a1 : (⟨S320000, .i32⟩ : BufTy).Contents (Elt F)) : (⟨S10000, .f32⟩ : BufTy).Contents (Elt F) :=
  (select : (⟨S10000, .i1⟩ : BufTy).Contents (Elt F) → (⟨S10000, .f32⟩ : BufTy).Contents (Elt F) → (⟨S10000, .f32⟩ : BufTy).Contents (Elt F) → (⟨S10000, .f32⟩ : BufTy).Contents (Elt F)) ((cmpf .ogt : (⟨S10000, .f32⟩ : BufTy).Contents (Elt F) → (⟨S10000, .f32⟩ : BufTy).Contents (Elt F) → (⟨S10000, .i1⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (a1)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0x00000000#32)))) ((Host.powf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (a1)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0xBF000000#32)))) (((broadcastInDim S10000 ![] bcast_S_S10000) : (⟨S_, .f32⟩ : BufTy).Contents (Elt F) → (⟨S10000, .f32⟩ : BufTy).Contents (Elt F)) ((id : (⟨S_, .f32⟩ : BufTy).Contents (Elt F) → (⟨S_, .f32⟩ : BufTy).Contents (Elt F)) ((constant S_ .f32 0x00000000#32))))

/-- The target-side factors from the edges' target indices. -/
def ndR (a2 : (⟨S320000, .i32⟩ : BufTy).Contents (Elt F)) : (⟨S10000, .f32⟩ : BufTy).Contents (Elt F) :=
  (select : (⟨S10000, .i1⟩ : BufTy).Contents (Elt F) → (⟨S10000, .f32⟩ : BufTy).Contents (Elt F) → (⟨S10000, .f32⟩ : BufTy).Contents (Elt F) → (⟨S10000, .f32⟩ : BufTy).Contents (Elt F)) ((cmpf .ogt : (⟨S10000, .f32⟩ : BufTy).Contents (Elt F) → (⟨S10000, .f32⟩ : BufTy).Contents (Elt F) → (⟨S10000, .i1⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (a2)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0x00000000#32)))) ((Host.powf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (a2)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0xBF000000#32)))) (((broadcastInDim S10000 ![] bcast_S_S10000) : (⟨S_, .f32⟩ : BufTy).Contents (Elt F) → (⟨S10000, .f32⟩ : BufTy).Contents (Elt F)) ((id : (⟨S_, .f32⟩ : BufTy).Contents (Elt F) → (⟨S_, .f32⟩ : BufTy).Contents (Elt F)) ((constant S_ .f32 0x00000000#32))))

/-- The product X · W gathered along the edges' sources, each gathered row scaled by the gathered source-side factor. -/
def innerR (X : (⟨S10000x512, .f32⟩ : BufTy).Contents (Elt F)) (W : (⟨S512x256, .f32⟩ : BufTy).Contents (Elt F)) (ns : (⟨S10000, .f32⟩ : BufTy).Contents (Elt F)) (a1 : (⟨S320000, .i32⟩ : BufTy).Contents (Elt F)) : (⟨S320000x256, .f32⟩ : BufTy).Contents (Elt F) :=
  (mulf : (⟨S320000x256, .f32⟩ : BufTy).Contents (Elt F) → (⟨S320000x256, .f32⟩ : BufTy).Contents (Elt F) → (⟨S320000x256, .f32⟩ : BufTy).Contents (Elt F)) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) (((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)) (X) (W)) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (a1) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (a1) ((broadcastInDim S320000 ![] bcast_S_S320000 : (⟨S_, .i32⟩ : BufTy).Contents (Elt F) → (⟨S320000, .i32⟩ : BufTy).Contents (Elt F)) ((constantI S_ 32 10000#32)))) (a1)))) ((broadcastInDim S320000x256 ![0, 1] bcast_S320000x1_S320000x256_0_1 : (⟨S320000x1, .f32⟩ : BufTy).Contents (Elt F) → (⟨S320000x256, .f32⟩ : BufTy).Contents (Elt F)) ((broadcastInDim S320000x1 ![0] bcast_S320000_S320000x1_0 : (⟨S320000, .f32⟩ : BufTy).Contents (Elt F) → (⟨S320000x1, .f32⟩ : BufTy).Contents (Elt F)) (((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)) (ns) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (a1) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (a1) ((broadcastInDim S320000 ![] bcast_S_S320000 : (⟨S_, .i32⟩ : BufTy).Contents (Elt F) → (⟨S320000, .i32⟩ : BufTy).Contents (Elt F)) ((constantI S_ 32 10000#32)))) (a1))))))

/-- The rows added up at the edges' targets, scaled by the target-side factors, the bias added to every row. -/
def outerR (I : (⟨S320000x256, .f32⟩ : BufTy).Contents (Elt F)) (nd : (⟨S10000, .f32⟩ : BufTy).Contents (Elt F)) (a2 : (⟨S320000, .i32⟩ : BufTy).Contents (Elt F)) (b10 : (⟨S256, .f32⟩ : BufTy).Contents (Elt F)) : (⟨S10000x256, .f32⟩ : BufTy).Contents (Elt F) :=
  (addf : (⟨S10000x256, .f32⟩ : BufTy).Contents (Elt F) → (⟨S10000x256, .f32⟩ : BufTy).Contents (Elt F) → (⟨S10000x256, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) ((broadcastInDim S10000x256 ![] bcast_S_S10000x256 : (⟨S_, .f32⟩ : BufTy).Contents (Elt F) → (⟨S10000x256, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (a2)) (I)) ((broadcastInDim S10000x256 ![0, 1] bcast_S10000x1_S10000x256_0_1 : (⟨S10000x1, .f32⟩ : BufTy).Contents (Elt F) → (⟨S10000x256, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (nd)))) ((broadcastInDim S10000x256 ![0, 1] bcast_S1x256_S10000x256_0_1 : (⟨S1x256, .f32⟩ : BufTy).Contents (Elt F) → (⟨S10000x256, .f32⟩ : BufTy).Contents (Elt F)) ((broadcastInDim S1x256 ![1] bcast_S256_S1x256_1 : (⟨S256, .f32⟩ : BufTy).Contents (Elt F) → (⟨S1x256, .f32⟩ : BufTy).Contents (Elt F)) (b10)))

set_option maxHeartbeats 0 in
/-- The layer's sixty-two operations (operations 65 to 126 of the reference's line). -/
abbrev layer2RefOps : List (HloOp τ sig (Elt F)) :=
  [ nullary main_cst_12 (constant S_ .f32 0x3F800000#32),
    unary main_cst_12 main_v45 (broadcastInDim S320000 ![] bcast_S_S320000 : (⟨S_, .f32⟩ : BufTy).Contents (Elt F) → (⟨S320000, .f32⟩ : BufTy).Contents (Elt F)),
    nullary main_cst_13 (constant S_ .f32 0x00000000#32),
    unary main_cst_13 main_v46 (broadcastInDim S10000 ![] bcast_S_S10000 : (⟨S_, .f32⟩ : BufTy).Contents (Elt F) → (⟨S10000, .f32⟩ : BufTy).Contents (Elt F)),
    unary main_arg1 main_v47 (broadcastInDim S320000x1 ![0] bcast_S320000_S320000x1_0 : (⟨S320000, .i32⟩ : BufTy).Contents (Elt F) → (⟨S320000x1, .i32⟩ : BufTy).Contents (Elt F)),
    ternary main_v46 main_v47 main_v45 main_v48 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_14 (constant S_ .f32 0x00000000#32),
    unary main_cst_14 main_v49 (broadcastInDim S10000 ![] bcast_S_S10000 : (⟨S_, .f32⟩ : BufTy).Contents (Elt F) → (⟨S10000, .f32⟩ : BufTy).Contents (Elt F)),
    unary main_arg2 main_v50 (broadcastInDim S320000x1 ![0] bcast_S320000_S320000x1_0 : (⟨S320000, .i32⟩ : BufTy).Contents (Elt F) → (⟨S320000x1, .i32⟩ : BufTy).Contents (Elt F)),
    ternary main_v49 main_v50 main_v45 main_v51 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_15 (constant S_ .f32 0x00000000#32),
    unary main_cst_15 main_v52 (broadcastInDim S10000 ![] bcast_S_S10000 : (⟨S_, .f32⟩ : BufTy).Contents (Elt F) → (⟨S10000, .f32⟩ : BufTy).Contents (Elt F)),
    binary main_v48 main_v52 main_v53 (cmpf .ogt : (⟨S10000, .f32⟩ : BufTy).Contents (Elt F) → (⟨S10000, .f32⟩ : BufTy).Contents (Elt F) → (⟨S10000, .i1⟩ : BufTy).Contents (Elt F)),
    nullary main_cst_16 (constant S_ .f32 0xBF000000#32),
    unary main_cst_16 main_v54 (broadcastInDim S10000 ![] bcast_S_S10000 : (⟨S_, .f32⟩ : BufTy).Contents (Elt F) → (⟨S10000, .f32⟩ : BufTy).Contents (Elt F)),
    binary main_v48 main_v54 main_v55 (Host.powf : (⟨S10000, .f32⟩ : BufTy).Contents (Elt F) → (⟨S10000, .f32⟩ : BufTy).Contents (Elt F) → (⟨S10000, .f32⟩ : BufTy).Contents (Elt F)),
    nullary main_cst_17 (constant S_ .f32 0x00000000#32),
    TRef.unary (TRef.of (T := ⟨S_, .f32⟩) main_cst_17) (TRef.of (T := ⟨S_, .f32⟩) main_call3_v0) id,
    TRef.unary (TRef.of (T := ⟨S_, .f32⟩) main_call3_v0) (TRef.of (T := ⟨S10000, .f32⟩) main_call3_v1) (broadcastInDim S10000 ![] bcast_S_S10000),
    TRef.ternary (TRef.of (T := ⟨S10000, .i1⟩) main_v53) (TRef.of (T := ⟨S10000, .f32⟩) main_v55) (TRef.of (T := ⟨S10000, .f32⟩) main_call3_v1) (TRef.of (T := ⟨S10000, .f32⟩) main_v56) select,
    nullary main_cst_18 (constant S_ .f32 0x00000000#32),
    unary main_cst_18 main_v57 (broadcastInDim S10000 ![] bcast_S_S10000 : (⟨S_, .f32⟩ : BufTy).Contents (Elt F) → (⟨S10000, .f32⟩ : BufTy).Contents (Elt F)),
    binary main_v51 main_v57 main_v58 (cmpf .ogt : (⟨S10000, .f32⟩ : BufTy).Contents (Elt F) → (⟨S10000, .f32⟩ : BufTy).Contents (Elt F) → (⟨S10000, .i1⟩ : BufTy).Contents (Elt F)),
    nullary main_cst_19 (constant S_ .f32 0xBF000000#32),
    unary main_cst_19 main_v59 (broadcastInDim S10000 ![] bcast_S_S10000 : (⟨S_, .f32⟩ : BufTy).Contents (Elt F) → (⟨S10000, .f32⟩ : BufTy).Contents (Elt F)),
    binary main_v51 main_v59 main_v60 (Host.powf : (⟨S10000, .f32⟩ : BufTy).Contents (Elt F) → (⟨S10000, .f32⟩ : BufTy).Contents (Elt F) → (⟨S10000, .f32⟩ : BufTy).Contents (Elt F)),
    nullary main_cst_20 (constant S_ .f32 0x00000000#32),
    TRef.unary (TRef.of (T := ⟨S_, .f32⟩) main_cst_20) (TRef.of (T := ⟨S_, .f32⟩) main_call4_v0) id,
    TRef.unary (TRef.of (T := ⟨S_, .f32⟩) main_call4_v0) (TRef.of (T := ⟨S10000, .f32⟩) main_call4_v1) (broadcastInDim S10000 ![] bcast_S_S10000),
    TRef.ternary (TRef.of (T := ⟨S10000, .i1⟩) main_v58) (TRef.of (T := ⟨S10000, .f32⟩) main_v60) (TRef.of (T := ⟨S10000, .f32⟩) main_call4_v1) (TRef.of (T := ⟨S10000, .f32⟩) main_v61) select,
    binary main_v44 main_arg9 main_v62 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    nullary main_c_21 (constantI S_ 32 0#32),
    unary main_c_21 main_v63 (broadcastInDim S320000 ![] bcast_S_S320000 : (⟨S_, .i32⟩ : BufTy).Contents (Elt F) → (⟨S320000, .i32⟩ : BufTy).Contents (Elt F)),
    binary main_arg1 main_v63 main_v64 (cmpi .slt : (⟨S320000, .i32⟩ : BufTy).Contents (Elt F) → (⟨S320000, .i32⟩ : BufTy).Contents (Elt F) → (⟨S320000, .i1⟩ : BufTy).Contents (Elt F)),
    nullary main_c_22 (constantI S_ 32 10000#32),
    unary main_c_22 main_v65 (broadcastInDim S320000 ![] bcast_S_S320000 : (⟨S_, .i32⟩ : BufTy).Contents (Elt F) → (⟨S320000, .i32⟩ : BufTy).Contents (Elt F)),
    binary main_arg1 main_v65 main_v66 (addi : (⟨S320000, .i32⟩ : BufTy).Contents (Elt F) → (⟨S320000, .i32⟩ : BufTy).Contents (Elt F) → (⟨S320000, .i32⟩ : BufTy).Contents (Elt F)),
    ternary main_v64 main_v66 main_arg1 main_v67 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v67 main_v68 (broadcastInDim S320000x1 ![0] bcast_S320000_S320000x1_0 : (⟨S320000, .i32⟩ : BufTy).Contents (Elt F) → (⟨S320000x1, .i32⟩ : BufTy).Contents (Elt F)),
    binary main_v62 main_v68 main_v69 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    nullary main_c_23 (constantI S_ 32 0#32),
    unary main_c_23 main_v70 (broadcastInDim S320000 ![] bcast_S_S320000 : (⟨S_, .i32⟩ : BufTy).Contents (Elt F) → (⟨S320000, .i32⟩ : BufTy).Contents (Elt F)),
    binary main_arg1 main_v70 main_v71 (cmpi .slt : (⟨S320000, .i32⟩ : BufTy).Contents (Elt F) → (⟨S320000, .i32⟩ : BufTy).Contents (Elt F) → (⟨S320000, .i1⟩ : BufTy).Contents (Elt F)),
    nullary main_c_24 (constantI S_ 32 10000#32),
    unary main_c_24 main_v72 (broadcastInDim S320000 ![] bcast_S_S320000 : (⟨S_, .i32⟩ : BufTy).Contents (Elt F) → (⟨S320000, .i32⟩ : BufTy).Contents (Elt F)),
    binary main_arg1 main_v72 main_v73 (addi : (⟨S320000, .i32⟩ : BufTy).Contents (Elt F) → (⟨S320000, .i32⟩ : BufTy).Contents (Elt F) → (⟨S320000, .i32⟩ : BufTy).Contents (Elt F)),
    ternary main_v71 main_v73 main_arg1 main_v74 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v74 main_v75 (broadcastInDim S320000x1 ![0] bcast_S320000_S320000x1_0 : (⟨S320000, .i32⟩ : BufTy).Contents (Elt F) → (⟨S320000x1, .i32⟩ : BufTy).Contents (Elt F)),
    binary main_v56 main_v75 main_v76 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    unary main_v76 main_v77 (broadcastInDim S320000x1 ![0] bcast_S320000_S320000x1_0 : (⟨S320000, .f32⟩ : BufTy).Contents (Elt F) → (⟨S320000x1, .f32⟩ : BufTy).Contents (Elt F)),
    unary main_v77 main_v78 (broadcastInDim S320000x256 ![0, 1] bcast_S320000x1_S320000x256_0_1 : (⟨S320000x1, .f32⟩ : BufTy).Contents (Elt F) → (⟨S320000x256, .f32⟩ : BufTy).Contents (Elt F)),
    binary main_v69 main_v78 main_v79 (mulf : (⟨S320000x256, .f32⟩ : BufTy).Contents (Elt F) → (⟨S320000x256, .f32⟩ : BufTy).Contents (Elt F) → (⟨S320000x256, .f32⟩ : BufTy).Contents (Elt F)),
    nullary main_cst_25 (constant S_ .f32 0x00000000#32),
    unary main_cst_25 main_v80 (broadcastInDim S10000x256 ![] bcast_S_S10000x256 : (⟨S_, .f32⟩ : BufTy).Contents (Elt F) → (⟨S10000x256, .f32⟩ : BufTy).Contents (Elt F)),
    unary main_arg2 main_v81 (broadcastInDim S320000x1 ![0] bcast_S320000_S320000x1_0 : (⟨S320000, .i32⟩ : BufTy).Contents (Elt F) → (⟨S320000x1, .i32⟩ : BufTy).Contents (Elt F)),
    ternary main_v80 main_v81 main_v79 main_v82 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    unary main_v61 main_v83 (broadcastInDim S10000x1 ![0] bcast_S10000_S10000x1_0 : (⟨S10000, .f32⟩ : BufTy).Contents (Elt F) → (⟨S10000x1, .f32⟩ : BufTy).Contents (Elt F)),
    unary main_v83 main_v84 (broadcastInDim S10000x256 ![0, 1] bcast_S10000x1_S10000x256_0_1 : (⟨S10000x1, .f32⟩ : BufTy).Contents (Elt F) → (⟨S10000x256, .f32⟩ : BufTy).Contents (Elt F)),
    binary main_v82 main_v84 main_v85 (mulf : (⟨S10000x256, .f32⟩ : BufTy).Contents (Elt F) → (⟨S10000x256, .f32⟩ : BufTy).Contents (Elt F) → (⟨S10000x256, .f32⟩ : BufTy).Contents (Elt F)),
    unary main_arg10 main_v86 (broadcastInDim S1x256 ![1] bcast_S256_S1x256_1 : (⟨S256, .f32⟩ : BufTy).Contents (Elt F) → (⟨S1x256, .f32⟩ : BufTy).Contents (Elt F)),
    unary main_v86 main_v87 (broadcastInDim S10000x256 ![0, 1] bcast_S1x256_S10000x256_0_1 : (⟨S1x256, .f32⟩ : BufTy).Contents (Elt F) → (⟨S10000x256, .f32⟩ : BufTy).Contents (Elt F)),
    binary main_v85 main_v87 main_v88 (addf : (⟨S10000x256, .f32⟩ : BufTy).Contents (Elt F) → (⟨S10000x256, .f32⟩ : BufTy).Contents (Elt F) → (⟨S10000x256, .f32⟩ : BufTy).Contents (Elt F)) ]

set_option maxHeartbeats 0 in
/-- The layer's result after those operations, run from any contents of the buffers. -/
theorem read_ref_v88 (Q : Valuation τ sig (Elt F)) :
    after layer2RefOps Q (Proc.devRef .tc main_v88)
      = outerR (innerR (Q (Proc.devRef .tc main_v44)) (Q (Proc.devRef .tc main_arg9)) (nsR (Q (Proc.devRef .tc main_arg1))) (Q (Proc.devRef .tc main_arg1)))
          (ndR (Q (Proc.devRef .tc main_arg2))) (Q (Proc.devRef .tc main_arg2)) (Q (Proc.devRef .tc main_arg10)) := by
  after_results_simp <;> rfl

set_option maxHeartbeats 0 in
/-- The reference's line is: sixty-five operations, the layer, the rest. -/
theorem ref_ops_split : (ops : List (HloOp τ sig (Elt F))) = ops.take 65 ++ (layer2RefOps ++ ops.drop 127) := by
  conv_lhs => rw [← List.take_append_drop 65 (ops : List (HloOp τ sig (Elt F)))]
  exact congrArg (ops.take 65 ++ ·) rfl

set_option maxHeartbeats 0 in
/-- Nothing after the first layer's output is computed writes it again. -/
theorem ref_v44_kept : ∀ op ∈ ((layer2RefOps ++ ops.drop 127 : List (HloOp τ sig (Elt Ideal)))), (Proc.devRef .tc main_v44 : DevRef τ sig) ∉ op.writes := by
  decide +kernel

set_option maxHeartbeats 0 in
/-- Nothing after the layer writes the layer's result. -/
theorem ref_v88_kept : ∀ op ∈ ((ops.drop 127 : List (HloOp τ sig (Elt Ideal)))), (Proc.devRef .tc main_v88 : DevRef τ sig) ∉ op.writes := by
  decide +kernel

/-- No initial part of the reference's line writes an argument of @main. -/
theorem ref_take_arg (n : ℕ) (V : Valuation τ sig (Elt F)) (r : Ref sig .tc) (h : r ∉ ref_ops_W) :
    after ((ops : List (HloOp τ sig (Elt F))).take n) V (Proc.devRef .tc r) = V (Proc.devRef .tc r) :=
  after_of_writes_sub _ V
    (List.forall_iff_forall_mem.mpr fun op hop => (List.forall_iff_forall_mem.mp ref_ops_writes) op (List.mem_of_mem_take hop)) h

set_option maxHeartbeats 0 in
/-- The reference's second layer, from its first layer's output and its arguments as launched. -/
theorem ref_main_v88 (m' : (ℓ : Loc nD τ sig) → Buf (Elt Ideal) ℓ) (d : Dev nD) :
    after (ops (F := Ideal)) (launchContents m' d) (Proc.devRef .tc main_v88)
      = outerR (innerR (after (ops (F := Ideal)) (launchContents m' d) (Proc.devRef .tc main_v44)) (m' ((d.tc : Thread nD τ).loc main_arg9)) (nsR (m' ((d.tc : Thread nD τ).loc main_arg1))) (m' ((d.tc : Thread nD τ).loc main_arg1)))
          (ndR (m' ((d.tc : Thread nD τ).loc main_arg2))) (m' ((d.tc : Thread nD τ).loc main_arg2)) (m' ((d.tc : Thread nD τ).loc main_arg10)) := by
  have e44 : after (ops (F := Ideal)) (launchContents m' d) (Proc.devRef .tc main_v44) = (after ((ops : List (HloOp τ sig (Elt Ideal))).take 65) (launchContents m' d)) (Proc.devRef .tc main_v44) := by
    conv_lhs => rw [ref_ops_split (F := Ideal), Cert.KernelIdeal.Hand.after_append]
    exact after_of_forall_not_mem _ _ ref_v44_kept
  have e88 : after (ops (F := Ideal)) (launchContents m' d) (Proc.devRef .tc main_v88) = after layer2RefOps (after ((ops : List (HloOp τ sig (Elt Ideal))).take 65) (launchContents m' d)) (Proc.devRef .tc main_v88) := by
    conv_lhs => rw [ref_ops_split (F := Ideal), Cert.KernelIdeal.Hand.after_append, Cert.KernelIdeal.Hand.after_append]
    exact after_of_forall_not_mem _ _ ref_v88_kept
  have q1 : (after ((ops : List (HloOp τ sig (Elt Ideal))).take 65) (launchContents m' d)) (Proc.devRef .tc main_arg1) = m' ((d.tc : Thread nD τ).loc main_arg1) := (ref_take_arg 65 _ main_arg1 (by decide)).trans rfl
  have q2 : (after ((ops : List (HloOp τ sig (Elt Ideal))).take 65) (launchContents m' d)) (Proc.devRef .tc main_arg2) = m' ((d.tc : Thread nD τ).loc main_arg2) := (ref_take_arg 65 _ main_arg2 (by decide)).trans rfl
  have q9 : (after ((ops : List (HloOp τ sig (Elt Ideal))).take 65) (launchContents m' d)) (Proc.devRef .tc main_arg9) = m' ((d.tc : Thread nD τ).loc main_arg9) := (ref_take_arg 65 _ main_arg9 (by decide)).trans rfl
  have q10 : (after ((ops : List (HloOp τ sig (Elt Ideal))).take 65) (launchContents m' d)) (Proc.devRef .tc main_arg10) = m' ((d.tc : Thread nD τ).loc main_arg10) := (ref_take_arg 65 _ main_arg10 (by decide)).trans rfl
  rw [e88, read_ref_v88, e44, q1, q2, q9, q10]

/-- info: 'Cert.Proof.Parts.ref_main_v88' depends on axioms: [propext, Classical.choice, Quot.sound] -/
#guard_msgs in #print axioms ref_main_v88

end Cert.Proof.Parts

end
-- ==== Proof.KI.Layer2K.lean ====
/-
  The second layer of the graph network on the kernel's side, after region 1.

  Between region 1 and region 2 the host normalizes and aggregates what region 1 left: with deg_out and deg_in the
  numbers of edges leaving and entering each node, ns = deg_out^(-1/2) and nd = deg_in^(-1/2) (zero where the degree is
  zero), it scales row n of region 1's result by ns(n), gathers the scaled rows along the edges' sources, adds them up
  at the edges' targets, scales row n of the sums by nd(n), and adds the layer's bias to every row. This module names
  the four pieces of that computation as functions of what they read, and reads the five stretches of host
  operations, run one after the other from any contents of the buffers, at the layer's result.
-/
import proofs.«175488_j3908420240157_2_alg».proof.Proof.KI.Chain

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The source-side factors: deg_out^(-1/2) where the out-degree is positive, zero elsewhere; the out-degree counts, for each
    node, the edges whose source index names it. -/
def nsK (a1 : (⟨S320000, .i32⟩ : BufTy).Contents (Elt F)) : (⟨S10000, .f32⟩ : BufTy).Contents (Elt F) :=
  (select : (⟨S10000, .i1⟩ : BufTy).Contents (Elt F) → (⟨S10000, .f32⟩ : BufTy).Contents (Elt F) → (⟨S10000, .f32⟩ : BufTy).Contents (Elt F) → (⟨S10000, .f32⟩ : BufTy).Contents (Elt F)) ((cmpf .ogt : (⟨S10000, .f32⟩ : BufTy).Contents (Elt F) → (⟨S10000, .f32⟩ : BufTy).Contents (Elt F) → (⟨S10000, .i1⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (a1)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0x00000000#32)))) ((Host.powf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (a1)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0xBF000000#32)))) (((broadcastInDim S10000 ![] bcast_S_S10000) : (⟨S_, .f32⟩ : BufTy).Contents (Elt F) → (⟨S10000, .f32⟩ : BufTy).Contents (Elt F)) ((id : (⟨S_, .f32⟩ : BufTy).Contents (Elt F) → (⟨S_, .f32⟩ : BufTy).Contents (Elt F)) ((constant S_ .f32 0x00000000#32))))

/-- The target-side factors, the same from the edges' target indices. -/
def ndK (a2 : (⟨S320000, .i32⟩ : BufTy).Contents (Elt F)) : (⟨S10000, .f32⟩ : BufTy).Contents (Elt F) :=
  (select : (⟨S10000, .i1⟩ : BufTy).Contents (Elt F) → (⟨S10000, .f32⟩ : BufTy).Contents (Elt F) → (⟨S10000, .f32⟩ : BufTy).Contents (Elt F) → (⟨S10000, .f32⟩ : BufTy).Contents (Elt F)) ((cmpf .ogt : (⟨S10000, .f32⟩ : BufTy).Contents (Elt F) → (⟨S10000, .f32⟩ : BufTy).Contents (Elt F) → (⟨S10000, .i1⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (a2)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0x00000000#32)))) ((Host.powf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (a2)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0xBF000000#32)))) (((broadcastInDim S10000 ![] bcast_S_S10000) : (⟨S_, .f32⟩ : BufTy).Contents (Elt F) → (⟨S10000, .f32⟩ : BufTy).Contents (Elt F)) ((id : (⟨S_, .f32⟩ : BufTy).Contents (Elt F) → (⟨S_, .f32⟩ : BufTy).Contents (Elt F)) ((constant S_ .f32 0x00000000#32))))

/-- The rows of H scaled by ns and gathered along the edges' sources (a negative index counted from the end). -/
def innerK (H : (⟨S10000x256, .f32⟩ : BufTy).Contents (Elt F)) (ns : (⟨S10000, .f32⟩ : BufTy).Contents (Elt F)) (a1 : (⟨S320000, .i32⟩ : BufTy).Contents (Elt F)) : (⟨S320000x256, .f32⟩ : BufTy).Contents (Elt F) :=
  ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (H) ((broadcastInDim S10000x256 ![0, 1] bcast_S10000x1_S10000x256_0_1 : (⟨S10000x1, .f32⟩ : BufTy).Contents (Elt F) → (⟨S10000x256, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (ns)))) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (a1) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (a1) ((broadcastInDim S320000 ![] bcast_S_S320000 : (⟨S_, .i32⟩ : BufTy).Contents (Elt F) → (⟨S320000, .i32⟩ : BufTy).Contents (Elt F)) ((constantI S_ 32 10000#32)))) (a1)))

/-- The gathered rows added up at the edges' targets, the sums' rows scaled by nd, and the bias added to every row. -/
def outerK (I : (⟨S320000x256, .f32⟩ : BufTy).Contents (Elt F)) (nd : (⟨S10000, .f32⟩ : BufTy).Contents (Elt F)) (a2 : (⟨S320000, .i32⟩ : BufTy).Contents (Elt F)) (b10 : (⟨S256, .f32⟩ : BufTy).Contents (Elt F)) : (⟨S10000x256, .f32⟩ : BufTy).Contents (Elt F) :=
  (addf : (⟨S10000x256, .f32⟩ : BufTy).Contents (Elt F) → (⟨S10000x256, .f32⟩ : BufTy).Contents (Elt F) → (⟨S10000x256, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) ((broadcastInDim S10000x256 ![] bcast_S_S10000x256 : (⟨S_, .f32⟩ : BufTy).Contents (Elt F) → (⟨S10000x256, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (a2)) (I)) ((broadcastInDim S10000x256 ![0, 1] bcast_S10000x1_S10000x256_0_1 : (⟨S10000x1, .f32⟩ : BufTy).Contents (Elt F) → (⟨S10000x256, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (nd)))) ((broadcastInDim S10000x256 ![0, 1] bcast_S1x256_S10000x256_0_1 : (⟨S1x256, .f32⟩ : BufTy).Contents (Elt F) → (⟨S10000x256, .f32⟩ : BufTy).Contents (Elt F)) ((broadcastInDim S1x256 ![1] bcast_S256_S1x256_1 : (⟨S256, .f32⟩ : BufTy).Contents (Elt F) → (⟨S1x256, .f32⟩ : BufTy).Contents (Elt F)) (b10)))

/-- The five stretches of host operations between region 1 and region 2, as one line. -/
abbrev layer2Ops : List (HloOp τ sig (Elt F)) :=
  [ StableHlo.nullary main_cst_15 (constant S_ .f32 0x3F800000#32),
    StableHlo.unary main_cst_15 main_v66 (broadcastInDim S320000 ![] bcast_S_S320000 : (⟨S_, .f32⟩ : BufTy).Contents (Elt F) → (⟨S320000, .f32⟩ : BufTy).Contents (Elt F)),
    StableHlo.nullary main_cst_16 (constant S_ .f32 0x00000000#32),
    StableHlo.unary main_cst_16 main_v67 (broadcastInDim S10000 ![] bcast_S_S10000 : (⟨S_, .f32⟩ : BufTy).Contents (Elt F) → (⟨S10000, .f32⟩ : BufTy).Contents (Elt F)),
    StableHlo.unary main_arg1 main_v68 (broadcastInDim S320000x1 ![0] bcast_S320000_S320000x1_0 : (⟨S320000, .i32⟩ : BufTy).Contents (Elt F) → (⟨S320000x1, .i32⟩ : BufTy).Contents (Elt F)),
    StableHlo.ternary main_v67 main_v68 main_v66 main_v69 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_17 (constant S_ .f32 0x00000000#32),
    StableHlo.unary main_cst_17 main_v70 (broadcastInDim S10000 ![] bcast_S_S10000 : (⟨S_, .f32⟩ : BufTy).Contents (Elt F) → (⟨S10000, .f32⟩ : BufTy).Contents (Elt F)),
    StableHlo.unary main_arg2 main_v71 (broadcastInDim S320000x1 ![0] bcast_S320000_S320000x1_0 : (⟨S320000, .i32⟩ : BufTy).Contents (Elt F) → (⟨S320000x1, .i32⟩ : BufTy).Contents (Elt F)),
    StableHlo.ternary main_v70 main_v71 main_v66 main_v72 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_18 (constant S_ .f32 0x00000000#32),
    StableHlo.unary main_cst_18 main_v73 (broadcastInDim S10000 ![] bcast_S_S10000 : (⟨S_, .f32⟩ : BufTy).Contents (Elt F) → (⟨S10000, .f32⟩ : BufTy).Contents (Elt F)),
    StableHlo.binary main_v69 main_v73 main_v74 (cmpf .ogt : (⟨S10000, .f32⟩ : BufTy).Contents (Elt F) → (⟨S10000, .f32⟩ : BufTy).Contents (Elt F) → (⟨S10000, .i1⟩ : BufTy).Contents (Elt F)),
    StableHlo.nullary main_cst_19 (constant S_ .f32 0xBF000000#32),
    StableHlo.unary main_cst_19 main_v75 (broadcastInDim S10000 ![] bcast_S_S10000 : (⟨S_, .f32⟩ : BufTy).Contents (Elt F) → (⟨S10000, .f32⟩ : BufTy).Contents (Elt F)),
    StableHlo.binary main_v69 main_v75 main_v76 (Host.powf : (⟨S10000, .f32⟩ : BufTy).Contents (Elt F) → (⟨S10000, .f32⟩ : BufTy).Contents (Elt F) → (⟨S10000, .f32⟩ : BufTy).Contents (Elt F)),
    StableHlo.nullary main_cst_20 (constant S_ .f32 0x00000000#32),
    StableHlo.TRef.unary (.of main_cst_20 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S10000, .f32⟩) (broadcastInDim S10000 ![] bcast_S_S10000),
    StableHlo.TRef.ternary (.of main_v74 : StableHlo.TRef sig ⟨S10000, .i1⟩) (.of main_v76 : StableHlo.TRef sig ⟨S10000, .f32⟩) (.of main_call4_v1 : StableHlo.TRef sig ⟨S10000, .f32⟩) (.of main_v77 : StableHlo.TRef sig ⟨S10000, .f32⟩) select,
    StableHlo.nullary main_cst_21 (constant S_ .f32 0x00000000#32),
    StableHlo.unary main_cst_21 main_v78 (broadcastInDim S10000 ![] bcast_S_S10000 : (⟨S_, .f32⟩ : BufTy).Contents (Elt F) → (⟨S10000, .f32⟩ : BufTy).Contents (Elt F)),
    StableHlo.binary main_v72 main_v78 main_v79 (cmpf .ogt : (⟨S10000, .f32⟩ : BufTy).Contents (Elt F) → (⟨S10000, .f32⟩ : BufTy).Contents (Elt F) → (⟨S10000, .i1⟩ : BufTy).Contents (Elt F)),
    StableHlo.nullary main_cst_22 (constant S_ .f32 0xBF000000#32),
    StableHlo.unary main_cst_22 main_v80 (broadcastInDim S10000 ![] bcast_S_S10000 : (⟨S_, .f32⟩ : BufTy).Contents (Elt F) → (⟨S10000, .f32⟩ : BufTy).Contents (Elt F)),
    StableHlo.binary main_v72 main_v80 main_v81 (Host.powf : (⟨S10000, .f32⟩ : BufTy).Contents (Elt F) → (⟨S10000, .f32⟩ : BufTy).Contents (Elt F) → (⟨S10000, .f32⟩ : BufTy).Contents (Elt F)),
    StableHlo.nullary main_cst_23 (constant S_ .f32 0x00000000#32),
    StableHlo.TRef.unary (.of main_cst_23 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S10000, .f32⟩) (broadcastInDim S10000 ![] bcast_S_S10000),
    StableHlo.TRef.ternary (.of main_v79 : StableHlo.TRef sig ⟨S10000, .i1⟩) (.of main_v81 : StableHlo.TRef sig ⟨S10000, .f32⟩) (.of main_call5_v1 : StableHlo.TRef sig ⟨S10000, .f32⟩) (.of main_v82 : StableHlo.TRef sig ⟨S10000, .f32⟩) select,
    StableHlo.unary main_v77 main_v83 (broadcastInDim S10000x1 ![0] bcast_S10000_S10000x1_0 : (⟨S10000, .f32⟩ : BufTy).Contents (Elt F) → (⟨S10000x1, .f32⟩ : BufTy).Contents (Elt F)),
    StableHlo.unary main_v83 main_v84 (broadcastInDim S10000x256 ![0, 1] bcast_S10000x1_S10000x256_0_1 : (⟨S10000x1, .f32⟩ : BufTy).Contents (Elt F) → (⟨S10000x256, .f32⟩ : BufTy).Contents (Elt F)),
    StableHlo.binary main_v65 main_v84 main_v85 (mulf : (⟨S10000x256, .f32⟩ : BufTy).Contents (Elt F) → (⟨S10000x256, .f32⟩ : BufTy).Contents (Elt F) → (⟨S10000x256, .f32⟩ : BufTy).Contents (Elt F)),
    StableHlo.nullary main_c_24 (constantI S_ 32 0#32),
    StableHlo.unary main_c_24 main_v86 (broadcastInDim S320000 ![] bcast_S_S320000 : (⟨S_, .i32⟩ : BufTy).Contents (Elt F) → (⟨S320000, .i32⟩ : BufTy).Contents (Elt F)),
    StableHlo.binary main_arg1 main_v86 main_v87 (cmpi .slt : (⟨S320000, .i32⟩ : BufTy).Contents (Elt F) → (⟨S320000, .i32⟩ : BufTy).Contents (Elt F) → (⟨S320000, .i1⟩ : BufTy).Contents (Elt F)),
    StableHlo.nullary main_c_25 (constantI S_ 32 10000#32),
    StableHlo.unary main_c_25 main_v88 (broadcastInDim S320000 ![] bcast_S_S320000 : (⟨S_, .i32⟩ : BufTy).Contents (Elt F) → (⟨S320000, .i32⟩ : BufTy).Contents (Elt F)),
    StableHlo.binary main_arg1 main_v88 main_v89 (addi : (⟨S320000, .i32⟩ : BufTy).Contents (Elt F) → (⟨S320000, .i32⟩ : BufTy).Contents (Elt F) → (⟨S320000, .i32⟩ : BufTy).Contents (Elt F)),
    StableHlo.ternary main_v87 main_v89 main_arg1 main_v90 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v90 main_v91 (broadcastInDim S320000x1 ![0] bcast_S320000_S320000x1_0 : (⟨S320000, .i32⟩ : BufTy).Contents (Elt F) → (⟨S320000x1, .i32⟩ : BufTy).Contents (Elt F)),
    StableHlo.binary main_v85 main_v91 main_v92 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_cst_26 (constant S_ .f32 0x00000000#32),
    StableHlo.unary main_cst_26 main_v93 (broadcastInDim S10000x256 ![] bcast_S_S10000x256 : (⟨S_, .f32⟩ : BufTy).Contents (Elt F) → (⟨S10000x256, .f32⟩ : BufTy).Contents (Elt F)),
    StableHlo.unary main_arg2 main_v94 (broadcastInDim S320000x1 ![0] bcast_S320000_S320000x1_0 : (⟨S320000, .i32⟩ : BufTy).Contents (Elt F) → (⟨S320000x1, .i32⟩ : BufTy).Contents (Elt F)),
    StableHlo.ternary main_v93 main_v94 main_v92 main_v95 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.unary main_v82 main_v96 (broadcastInDim S10000x1 ![0] bcast_S10000_S10000x1_0 : (⟨S10000, .f32⟩ : BufTy).Contents (Elt F) → (⟨S10000x1, .f32⟩ : BufTy).Contents (Elt F)),
    StableHlo.unary main_v96 main_v97 (broadcastInDim S10000x256 ![0, 1] bcast_S10000x1_S10000x256_0_1 : (⟨S10000x1, .f32⟩ : BufTy).Contents (Elt F) → (⟨S10000x256, .f32⟩ : BufTy).Contents (Elt F)),
    StableHlo.binary main_v95 main_v97 main_v98 (mulf : (⟨S10000x256, .f32⟩ : BufTy).Contents (Elt F) → (⟨S10000x256, .f32⟩ : BufTy).Contents (Elt F) → (⟨S10000x256, .f32⟩ : BufTy).Contents (Elt F)),
    StableHlo.unary main_arg10 main_v99 (broadcastInDim S1x256 ![1] bcast_S256_S1x256_1 : (⟨S256, .f32⟩ : BufTy).Contents (Elt F) → (⟨S1x256, .f32⟩ : BufTy).Contents (Elt F)),
    StableHlo.unary main_v99 main_v100 (broadcastInDim S10000x256 ![0, 1] bcast_S1x256_S10000x256_0_1 : (⟨S1x256, .f32⟩ : BufTy).Contents (Elt F) → (⟨S10000x256, .f32⟩ : BufTy).Contents (Elt F)),
    StableHlo.binary main_v98 main_v100 main_v101 (addf : (⟨S10000x256, .f32⟩ : BufTy).Contents (Elt F) → (⟨S10000x256, .f32⟩ : BufTy).Contents (Elt F) → (⟨S10000x256, .f32⟩ : BufTy).Contents (Elt F)),
    StableHlo.nullary main_cst_27 (constant S_ .f32 0x00000000#32),
    StableHlo.unary main_cst_27 main_v102 (broadcastInDim S256 ![] bcast_S_S256 : (⟨S_, .f32⟩ : BufTy).Contents (Elt F) → (⟨S256, .f32⟩ : BufTy).Contents (Elt F)),
    StableHlo.reshape main_v102 main_v103 rfl shapeCasts_S256_S1x256 ]

set_option maxHeartbeats 0 in
/-- The layer's result after those operations, run from any contents of the buffers. -/
theorem read_v101 (P : Valuation τ sig (Elt F)) :
    StableHlo.after layer2Ops P (Proc.devRef .tc main_v101)
      = outerK (innerK (P (Proc.devRef .tc main_v65)) (nsK (P (Proc.devRef .tc main_arg1))) (P (Proc.devRef .tc main_arg1)))
          (ndK (P (Proc.devRef .tc main_arg2))) (P (Proc.devRef .tc main_arg2)) (P (Proc.devRef .tc main_arg10)) := by
  after_results_simp <;> rfl

end Cert.KernelIdeal.Hand

end
-- ==== Proof.KI.Layer2Chain.lean ====
/-
  What the chain's last valuation holds at the second layer's result, from region 1's output and the launch memory.

  The five stretches between region 1 and region 2 run from the valuation region 1 leaves; they read region 1's
  output array and three arguments of @main, which are as launched; and nothing after them writes the layer's result.
-/
import proofs.«175488_j3908420240157_2_alg».proof.Proof.KI.Layer2K
import proofs.«175488_j3908420240157_2_alg».proof.Proof.KI.Entry5

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)
  (o0 : (c : Dev nD) → Buf (Elt F) ((c : Thread nD τ).loc main_v3))
  (o1 : (c : Dev nD) → Buf (Elt F) ((c : Thread nD τ).loc main_v65))
  (o2 : (c : Dev nD) → Buf (Elt F) ((c : Thread nD τ).loc main_v104))
  (o3 : (c : Dev nD) → Buf (Elt F) ((c : Thread nD τ).loc main_v142))
  (o4 : (c : Dev nD) → Buf (Elt F) ((c : Thread nD τ).loc main_v205))
  (o5 : (c : Dev nD) → Buf (Elt F) ((c : Thread nD τ).loc main_v228))
  (o6 : (c : Dev nD) → Buf (Elt F) ((c : Thread nD τ).loc main_v232))
  (o7 : (c : Dev nD) → Buf (Elt F) ((c : Thread nD τ).loc main_v295))

/-- The valuation region 2 is entered at is the five stretches run from the valuation region 1 leaves. -/
theorem W16_eq (c : Dev nD) : W16 m o0 o1 c = StableHlo.after layer2Ops (W11 m o0 o1 c) := by
  have e : (layer2Ops : List (HloOp τ sig (Elt F))) = hostOps2 ++ (hostOps2_1 ++ (hostOps2_2 ++ (hostOps2_3 ++ hostOps2_4))) := rfl
  rw [e, after_append, after_append, after_append, after_append]

/-- Region 1's output array, where region 1 leaves it. -/
theorem W11_main_v65 (c : Dev nD) : W11 m o0 o1 c main_v65 = o1 c := by
  simp only [W11, Function.update_self]

/-- The edges' sources are as launched there. -/
theorem W11_main_arg1 (c : Dev nD) : W11 m o0 o1 c main_arg1 = m ((c : Thread nD τ).loc main_arg1) :=
  (W11_of m o0 o1 c main_arg1 (by decide)).trans <|
  (W10_of m o0 c main_arg1 (by decide)).trans <|
  (W9_of m o0 c main_arg1 (by decide)).trans <|
  (W8_of m o0 c main_arg1 (by decide)).trans <|
  (W7_of m o0 c main_arg1 (by decide)).trans <|
  (W6_of m o0 c main_arg1 (by decide)).trans <|
  (W5_of m o0 c main_arg1 (by decide)).trans <|
  (W4_of m o0 c main_arg1 (by decide)).trans <|
  (W3_of m o0 c main_arg1 (by decide)).trans <|
  (W2_of m o0 c main_arg1 (by decide)).trans <|
  (W1_of m c main_arg1 (by decide)).trans rfl

/-- The edges' targets. -/
theorem W11_main_arg2 (c : Dev nD) : W11 m o0 o1 c main_arg2 = m ((c : Thread nD τ).loc main_arg2) :=
  (W11_of m o0 o1 c main_arg2 (by decide)).trans <|
  (W10_of m o0 c main_arg2 (by decide)).trans <|
  (W9_of m o0 c main_arg2 (by decide)).trans <|
  (W8_of m o0 c main_arg2 (by decide)).trans <|
  (W7_of m o0 c main_arg2 (by decide)).trans <|
  (W6_of m o0 c main_arg2 (by decide)).trans <|
  (W5_of m o0 c main_arg2 (by decide)).trans <|
  (W4_of m o0 c main_arg2 (by decide)).trans <|
  (W3_of m o0 c main_arg2 (by decide)).trans <|
  (W2_of m o0 c main_arg2 (by decide)).trans <|
  (W1_of m c main_arg2 (by decide)).trans rfl

/-- The layer's bias. -/
theorem W11_main_arg10 (c : Dev nD) : W11 m o0 o1 c main_arg10 = m ((c : Thread nD τ).loc main_arg10) :=
  (W11_of m o0 o1 c main_arg10 (by decide)).trans <|
  (W10_of m o0 c main_arg10 (by decide)).trans <|
  (W9_of m o0 c main_arg10 (by decide)).trans <|
  (W8_of m o0 c main_arg10 (by decide)).trans <|
  (W7_of m o0 c main_arg10 (by decide)).trans <|
  (W6_of m o0 c main_arg10 (by decide)).trans <|
  (W5_of m o0 c main_arg10 (by decide)).trans <|
  (W4_of m o0 c main_arg10 (by decide)).trans <|
  (W3_of m o0 c main_arg10 (by decide)).trans <|
  (W2_of m o0 c main_arg10 (by decide)).trans <|
  (W1_of m c main_arg10 (by decide)).trans rfl

/-- The second layer's result at the end of the chain: region 1's output scaled, gathered, summed, scaled, biased. -/
theorem W32_main_v101 (c : Dev nD) :
    W32 m o0 o1 o2 o3 o4 o5 o6 o7 c main_v101
      = outerK (innerK (o1 c) (nsK (m ((c : Thread nD τ).loc main_arg1))) (m ((c : Thread nD τ).loc main_arg1))) (ndK (m ((c : Thread nD τ).loc main_arg2))) (m ((c : Thread nD τ).loc main_arg2)) (m ((c : Thread nD τ).loc main_arg10)) := by
  refine (
    (W32_of m o0 o1 o2 o3 o4 o5 o6 o7 c main_v101 (by decide)).trans <|
    (W31_of m o0 o1 o2 o3 o4 o5 o6 o7 c main_v101 (by decide)).trans <|
    (W30_of m o0 o1 o2 o3 o4 o5 o6 c main_v101 (by decide)).trans <|
    (W29_of m o0 o1 o2 o3 o4 o5 o6 c main_v101 (by decide)).trans <|
    (W28_of m o0 o1 o2 o3 o4 o5 c main_v101 (by decide)).trans <|
    (W27_of m o0 o1 o2 o3 o4 o5 c main_v101 (by decide)).trans <|
    (W26_of m o0 o1 o2 o3 o4 c main_v101 (by decide)).trans <|
    (W25_of m o0 o1 o2 o3 o4 c main_v101 (by decide)).trans <|
    (W24_of m o0 o1 o2 o3 c main_v101 (by decide)).trans <|
    (W23_of m o0 o1 o2 o3 c main_v101 (by decide)).trans <|
    (W22_of m o0 o1 o2 c main_v101 (by decide)).trans <|
    (W21_of m o0 o1 o2 c main_v101 (by decide)).trans <|
    (W20_of m o0 o1 o2 c main_v101 (by decide)).trans <|
    (W19_of m o0 o1 o2 c main_v101 (by decide)).trans <|
    (W18_of m o0 o1 o2 c main_v101 (by decide)).trans <|
    (W17_of m o0 o1 o2 c main_v101 (by decide)).trans <|
    ?_)
  show W16 m o0 o1 c (Proc.devRef .tc main_v101) = _
  rw [W16_eq, read_v101]
  show outerK (innerK (W11 m o0 o1 c main_v65) (nsK (W11 m o0 o1 c main_arg1)) (W11 m o0 o1 c main_arg1)) (ndK (W11 m o0 o1 c main_arg2)) (W11 m o0 o1 c main_arg2) (W11 m o0 o1 c main_arg10) = _
  rw [W11_main_v65, W11_main_arg1, W11_main_arg2, W11_main_arg10]

end Cert.KernelIdeal.Hand

end
-- ==== Proof.KI.Value1.lean ====
/-
  Region 1's result as ONE function of its three argument arrays, on the extended reals.

  The output array of region 1 has 10000 rows of 256 entries, written back in five blocks of 2000 rows. At the grid
  point t the body's payload, read at (p, q) of its block, is the three-pass split product of the block of x by the
  whole weight matrix, plus the bias row: for operands with real entries, the plain sum over k of x(2000 t + p, k) ·
  w(k, q), plus b(0, q). A block's coordinate is the block index times the block's extent plus the coordinate inside
  the block; the output's block at t sits at rows 2000 t …, where the block of x it was computed from sits; the
  weight matrix and the bias row are one block each. So every point writes back the restriction to its rows of ONE
  whole-array function G1, the five blocks cover the array, and the array after the region IS G1: at (r, col),
  the sum over k of x(r, k) · w(k, col), plus b(0, col).
-/
import proofs.«175488_j3908420240157_2_alg».proof.Proof.KI.Seg1
import proofs.«175488_j3908420240157_2_alg».proof.Proof.LibSplitProduct
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)

variable {U : Type} [URA U]

/-- Every access of the body is at zero offsets. -/
private theorem off00 : (![0, 0] : Fin 2 → Nat) = fun _ => 0 := funext fun a => by fin_cases a <;> rfl

/-! ## The payload at an index -/

/-- The body's payload at (p, q), for operands with real entries: the row of the x block times the column of the
    weight matrix, plus the bias row's entry. -/
theorem pay1_apply (v0 : FVec Ideal S2000x512 .f32) (v1 : FVec Ideal S512x256 .f32) (v16 : FVec Ideal S1x256 .f32)
    (h0 : ∀ i, ∃ r : ℝ, v0 i = (r : EReal)) (h1 : ∀ i, ∃ r : ℝ, v1 i = (r : EReal)) (p : Fin 2000) (q : Fin 256) :
    k1_pay1 (F := Ideal) v0 v1 v16 (ix2 p q) = (∑ k : Fin 512, v0 (ix2 p k) * v1 (ix2 k q)) + v16 (ix2 (0 : Fin 1) q) := by
  unfold k1_pay1
  refine (Cert.Lib.SplitProduct.split_bias_ix2 _ rfl rfl (fun _ _ => rfl) (fun _ _ => rfl) (fun _ _ => rfl) (fun _ _ => rfl)
    _ v1 ?_ h1 _ _ _ p q).trans ?_
  · rw [shapeCast_self]; exact h0
  · rw [shapeCast_self, shapeCast_self]

/-! ## The whole-array function -/

/-- The result array from the three argument arrays: at (r, col), the sum over k of x(r, k) · w(k, col), plus b(0, col). -/
def G1 (x : FVec Ideal S10000x512 .f32) (w : FVec Ideal S512x256 .f32) (b : FVec Ideal S1x256 .f32) : FVec Ideal S10000x256 .f32 :=
  fun i => (∑ k : Fin 512, x (ix2 (n0 := 10000) (i 0) k) * w (ix2 k (n1 := 256) (i 1))) + b (ix2 (0 : Fin 1) (n1 := 256) (i 1))

theorem G1_apply (x : FVec Ideal S10000x512 .f32) (w : FVec Ideal S512x256 .f32) (b : FVec Ideal S1x256 .f32) (r : Fin 10000) (col : Fin 256) :
    G1 x w b (ix2 r col) = (∑ k : Fin 512, x (ix2 r k) * w (ix2 k col)) + b (ix2 (0 : Fin 1) col) := rfl

/-! ## The windows' index maps, decided over the grid -/

/-- The block of x moves with the output's block along the rows; the weight matrix, the bias row and every window's
    column axis stay at block 0; the output's row block at point t is t. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the block at point t is row 2000 t + p of the array. -/
def row1 (t : Fin cfg1.N) (p : Fin 2000) : Fin 10000 :=
  ⟨2000 * t.val + p.val, by
    have ht : t.val < 5 := lt_of_lt_of_eq t.isLt N_1
    have hp := p.isLt
    omega⟩

theorem row1_val (t : Fin cfg1.N) (p : Fin 2000) : (row1 t p).val = 2000 * t.val + p.val := rfl

-- the core's buffer contents when the region is entered
variable (V : (c : Dev nD) → (b : Ref sig .tc) → Buf (Elt Ideal) ((c : Thread nD τ).loc b))

/-! ## What a point writes back -/

/-- WHAT POINT t WRITES BACK is block t of G1 of the three arrays as the region finds them. -/
theorem flushed1_eq (c : Dev nD) (t : Fin cfg1.N)
    (hx : ∀ i, ∃ r : ℝ, (V c main_v61 : FVec Ideal S10000x512 .f32) i = (r : EReal))
    (hw : ∀ i, ∃ r : ℝ, (V c main_arg9 : FVec Ideal S512x256 .f32) i = (r : EReal)) :
    (dat1 (F := Ideal) (U := U) V c).flushed 3 t
      = ((cfg1.win 3).blk t).view.read (Elt Ideal) (G1 (V c main_v61) (V c main_arg9) (V c main_v64)) := by
  show (cfg1.win 3).cut (grid1.coords t) ((dat1 (F := Ideal) (U := U) V c).after 3 t) = _
  rw [after1_3]
  unfold out1_3
  rw [View.canon_unit_zero off00]
  simp only [View.ld_unit_zero (S := S2000x512) off00, View.ld_unit_zero (S := S512x256) off00, View.ld_unit_zero (S := S1x256) off00]
  obtain ⟨e00, e01, e10, e11, e20, e21, e30, e31⟩ := idx_facts1 t
  have hx' : ∀ i, ∃ r : ℝ, (iblk1 V c 0 t : FVec Ideal S2000x512 .f32) i = (r : EReal) := fun i => by
    unfold iblk1; rw [View.read_apply]; exact hx _
  have hw' : ∀ i, ∃ r : ℝ, (iblk1 V c 1 t : FVec Ideal S512x256 .f32) i = (r : EReal) := fun i => by
    unfold iblk1; rw [View.read_apply]; exact hw _
  funext j
  obtain ⟨p, q, rfl⟩ : ∃ (p : Fin 2000) (q : Fin 256), j = ix2 p q := ⟨j 0, j 1, eq_ix2 j⟩
  show k1_pay1 (F := Ideal) (iblk1 V c 0 t) (iblk1 V c 1 t) (iblk1 V c 2 t) (ix2 p q)
      = G1 (V c main_v61) (V c main_arg9) (V c main_v64) (((cfg1.win 3).blk t).view.emb (ix2 p q))
  refine (pay1_apply _ _ _ hx' hw' p q).trans ?_
  -- the output block's index in the array
  have hO : ((cfg1.win 3).blk t).view.emb (ix2 p q) = ix2 (row1 t p) q := by
    funext a; apply Fin.ext
    match a with
    | ⟨0, _⟩ => show win1_3.index t (0 : Fin 2) * 2000 + 1 * p.val = 2000 * t.val + p.val; omega
    | ⟨1, _⟩ => show win1_3.index t (1 : Fin 2) * 256 + 1 * q.val = q.val; omega
  rw [hO, G1_apply]
  -- each input block read where the output's rectangle says
  have h0 : ∀ k : Fin 512, (iblk1 V c 0 t : FVec Ideal S2000x512 .f32) (ix2 p k) = (V c main_v61 : FVec Ideal S10000x512 .f32) (ix2 (row1 t p) k) := fun k => by
    unfold iblk1; rw [View.read_apply]
    show V c main_v61 _ = V c main_v61 _
    congr 1; funext a; apply Fin.ext
    match a with
    | ⟨0, _⟩ => show win1_0.index t (0 : Fin 2) * 2000 + 1 * p.val = 2000 * t.val + p.val; omega
    | ⟨1, _⟩ => show win1_0.index t (1 : Fin 2) * 512 + 1 * k.val = k.val; omega
  have h1 : ∀ k : Fin 512, (iblk1 V c 1 t : FVec Ideal S512x256 .f32) (ix2 k q) = (V c main_arg9 : FVec Ideal S512x256 .f32) (ix2 k q) := fun k => by
    unfold iblk1; rw [View.read_apply]
    show V c main_arg9 _ = V c main_arg9 _
    congr 1; funext a; apply Fin.ext
    match a with
    | ⟨0, _⟩ => show win1_1.index t (0 : Fin 2) * 512 + 1 * k.val = k.val; omega
    | ⟨1, _⟩ => show win1_1.index t (1 : Fin 2) * 256 + 1 * q.val = q.val; omega
  have h2 : (iblk1 V c 2 t : FVec Ideal S1x256 .f32) (ix2 (0 : Fin 1) q) = (V c main_v64 : FVec Ideal S1x256 .f32) (ix2 (0 : Fin 1) q) := by
    unfold iblk1; rw [View.read_apply]
    show V c main_v64 _ = V c main_v64 _
    congr 1; funext a; apply Fin.ext
    match a with
    | ⟨0, _⟩ => show win1_2.index t (0 : Fin 2) * 1 + 1 * (0 : Fin 1).val = (0 : Fin 1).val; omega
    | ⟨1, _⟩ => show win1_2.index t (1 : Fin 2) * 256 + 1 * q.val = q.val; omega
  rw [h2]
  exact congrArg (· + _) (Finset.sum_congr rfl fun k _ => by rw [h0 k, h1 k])

/-! ## The blocks cover the array -/

/-- An index of the array is in point t's block iff each coordinate is in the block's range on its axis. -/
theorem mem_blk1 (t : Fin cfg1.N) (i : S10000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v65).slice (win1_3.rect t)).set ↔ _
  rw [View.set_slice_whole, Rect.mem_set_unit]
  exact Iff.rfl

/-- Row r of the array lies in the block of the point r / 2000, which writes back (every point does). -/
theorem cover1 (i : S10000x256.Idx) : ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 5 := N_1
  let t : Fin cfg1.N := ⟨(i 0).val / 2000, by rw [hN]; omega⟩
  obtain ⟨-, -, -, -, -, -, e30, e31⟩ := idx_facts1 t
  have ht : t.val = (i 0).val / 2000 := rfl
  refine ⟨t, flush1_3 t, ?_⟩
  rw [mem_blk1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-! ## The array after the region -/

variable (Wpre : Dev nD → Valuation τ sig (Elt Ideal))

/-- The output array after region 1 IS G1 of the three arrays as the region finds them. -/
theorem fin1_eq (c : Dev nD)
    (hx : ∀ i, ∃ r : ℝ, (Vof Wpre c main_v61 : FVec Ideal S10000x512 .f32) i = (r : EReal))
    (hw : ∀ i, ∃ r : ℝ, (Vof Wpre c main_arg9 : FVec Ideal S512x256 .f32) i = (r : EReal)) :
    fin1 (F := Ideal) (U := U) Wpre c = G1 (Vof Wpre c main_v61) (Vof Wpre c main_arg9) (Vof Wpre c main_v64) := by
  unfold fin1
  exact (dat1 (F := Ideal) (U := U) (Vof Wpre) c).arrAt_eq_of_cover 3 _ (fun t _ => flushed1_eq (Vof Wpre) c t hx hw) cover1

/-- The three arrays region 1 reads, as the region finds them, at their literal shapes: x (main_v61), the weight
    matrix (main_arg9), the bias row (main_v64). -/
abbrev x1 (c : Dev nD) : FVec Ideal S10000x512 .f32 := Vof Wpre c main_v61
abbrev w1 (c : Dev nD) : FVec Ideal S512x256 .f32 := Vof Wpre c main_arg9
abbrev b1 (c : Dev nD) : FVec Ideal S1x256 .f32 := Vof Wpre c main_v64

/-- At (r, col): the sum over k of x(r, k) · w(k, col), plus b(0, col). -/
theorem fin1_apply (c : Dev nD)
    (hx : ∀ i, ∃ r : ℝ, x1 Wpre c i = (r : EReal)) (hw : ∀ i, ∃ r : ℝ, w1 Wpre c i = (r : EReal))
    (r : Fin 10000) (col : Fin 256) :
    (fin1 (F := Ideal) (U := U) Wpre c : FVec Ideal S10000x256 .f32) (ix2 r col)
      = (∑ k : Fin 512, x1 Wpre c (ix2 r k) * w1 Wpre c (ix2 k col)) + b1 Wpre c (ix2 (0 : Fin 1) col) := by
  rw [fin1_eq Wpre c hx hw]
  exact G1_apply _ _ _ r col

/-- info: 'Cert.KernelIdeal.Hand.fin1_apply' depends on axioms: [propext, Classical.choice, Quot.sound] -/
#guard_msgs in #print axioms fin1_apply

end Cert.KernelIdeal.Hand

end
-- ==== Proof.KI.Region1Out.lean ====
/-
  What region 1 leaves, from the launch memory and the first layer's output.

  Region 1 multiplies the first layer's output (the array main_v61, as the valuation region 1 is entered at holds it)
  by the second layer's weights, an argument of @main that is as launched, and adds a bias row that the host stretch
  just before it fills with zeros. So, for operands with real entries, its output array is the plain product.
-/
import proofs.«175488_j3908420240157_2_alg».proof.Proof.KI.Frame
import proofs.«175488_j3908420240157_2_alg».proof.Proof.KI.Value1

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-- The bias row region 1 reads: zeros, as one row of 256. -/
def zrow1 {F : FTy → Type} [FloatOps F] : (⟨S1x256, .f32⟩ : BufTy).Contents (Elt F) :=
  shapeCast _ ((broadcastInDim S256 ![] bcast_S_S256 : (⟨S_, .f32⟩ : BufTy).Contents (Elt F) → (⟨S256, .f32⟩ : BufTy).Contents (Elt F)) ((constant S_ .f32 0x00000000#32))) shapeCasts_S256_S1x256

/-- The stretch before region 1 leaves that row in main_v64, whatever the buffers held. -/
theorem read_v64 {F : FTy → Type} [FloatOps F] (P : Valuation τ sig (Elt F)) :
    StableHlo.after hostOps1_7 P (Proc.devRef .tc main_v64) = zrow1 := by
  after_results_simp <;> rfl

/-- Every entry of the row is zero on the extended reals. -/
theorem zrow1_apply (q : Fin 256) : (zrow1 (F := Ideal) : FVec Ideal S1x256 .f32) (ix2 (0 : Fin 1) q) = 0 := by
  unfold zrow1
  refine (shapeCast_apply _ _ _ (ix1 q) (by rw [Shape.rowMajor_val_one, Shape.rowMajor_val_two]; show q.val = 0 * 256 + q.val; omega)).trans ?_
  refine (broadcastInDim_apply _ _ _ (ix1 q) ix0 (fun a => a.elim0)).trans ?_
  exact Ideal.ofBits_zero_f32

variable (m : (ℓ : Loc nD τ sig) → Buf (Elt Ideal) ℓ)

/-- The bias row, at the valuation region 1 is entered at. -/
theorem W10_main_v64 (c : Dev nD) : W10 m (o0 m) c main_v64 = zrow1 := read_v64 (W9 m (o0 m) c)

/-- The second layer's weights are as launched there. -/
theorem W10_main_arg9 (c : Dev nD) : W10 m (o0 m) c main_arg9 = m ((c : Thread nD τ).loc main_arg9) :=
  (W10_of m (o0 m) c main_arg9 (by decide)).trans <|
  (W9_of m (o0 m) c main_arg9 (by decide)).trans <|
  (W8_of m (o0 m) c main_arg9 (by decide)).trans <|
  (W7_of m (o0 m) c main_arg9 (by decide)).trans <|
  (W6_of m (o0 m) c main_arg9 (by decide)).trans <|
  (W5_of m (o0 m) c main_arg9 (by decide)).trans <|
  (W4_of m (o0 m) c main_arg9 (by decide)).trans <|
  (W3_of m (o0 m) c main_arg9 (by decide)).trans <|
  (W2_of m (o0 m) c main_arg9 (by decide)).trans <|
  (W1_of m c main_arg9 (by decide)).trans rfl

/-- The product with a zero bias row is the product: G1 at (r, col). -/
theorem G1_zrow_apply (x : FVec Ideal S10000x512 .f32) (w : FVec Ideal S512x256 .f32) (r : Fin 10000) (col : Fin 256) :
    G1 x w (zrow1 (F := Ideal)) (ix2 r col) = ∑ k : Fin 512, x (ix2 r k) * w (ix2 k col) := by
  rw [G1_apply, zrow1_apply, add_zero]

/-- Region 1's output array: the product of the first layer's output, as region 1 finds it, with the layer's weights. -/
theorem o1_eq (c : Dev nD)
    (hreal : ∀ i, ∃ r : ℝ, (W10 m (o0 m) c main_v61 : FVec Ideal S10000x512 .f32) i = (r : EReal))
    (hW9 : ∀ i, ∃ r : ℝ, (m ((c : Thread nD τ).loc main_arg9) : FVec Ideal S512x256 .f32) i = (r : EReal)) :
    o1 m c = G1 (W10 m (o0 m) c main_v61) (m ((c : Thread nD τ).loc main_arg9)) (zrow1 (F := Ideal)) := by
  have hw : ∀ i, ∃ r : ℝ, (Vof (W10 m (o0 m)) c main_arg9 : FVec Ideal S512x256 .f32) i = (r : EReal) := by
    intro i
    show ∃ r : ℝ, (W10 m (o0 m) c main_arg9 : FVec Ideal S512x256 .f32) i = (r : EReal)
    rw [W10_main_arg9]; exact hW9 i
  show fin1 (U := UU nD τ) (W10 m (o0 m)) c = _
  refine (fin1_eq (U := UU nD τ) (W10 m (o0 m)) c hreal hw).trans ?_
  show G1 (W10 m (o0 m) c main_v61) (W10 m (o0 m) c main_arg9) (W10 m (o0 m) c main_v64) = _
  rw [W10_main_arg9, W10_main_v64]

end Cert.KernelIdeal.Hand

end
-- ==== Proof.Stage2v.lean ====
/-
  The second layer of the graph network: the reference's result is the kernel's.

  Both programs scale by the source-side factors, move rows along the edges, add them up at the targets, scale by the
  target-side factors and add the bias; they differ in two places. The reference multiplies by the layer's weights on
  the host where the kernel's region 1 computes the same product block by block in three passes — equal on operands
  with real entries, the region's bias row being zero. And the reference gathers the product's rows and then scales
  each gathered row by the gathered factor, where the kernel scales the rows first and gathers afterwards — equal
  because both read the same row of the same table. Everything else is the same term of the same arguments.
-/
import proofs.«175488_j3908420240157_2_alg».proof.Proof.Algebraic
import proofs.«175488_j3908420240157_2_alg».proof.Proof.RefLayer2
import proofs.«175488_j3908420240157_2_alg».proof.Proof.KI.Layer2Chain
import proofs.«175488_j3908420240157_2_alg».proof.Proof.KI.Region1Out
import proofs.«175488_j3908420240157_2_alg».proof.Proof.LibGatherScale
import proofs.«175488_j3908420240157_2_alg».proof.Proof.LibMatProd
import proofs.«175488_j3908420240157_2_alg».proof.Proof.PreReal

set_option maxRecDepth 65536

noncomputable section

open scoped BigOperators

namespace Cert.Proof.Parts

open Idealize.ShloMosaic Idealize.ShloMosaic.TcCoe Idealize.SL.Sem Idealize.ShloMosaic.ValueIdx

/-- Gathering the product's rows and scaling each by its gathered factor is scaling the rows and then gathering. -/
theorem innerR_eq_innerK (X : (⟨Cert.ReferenceIdeal.S10000x512, .f32⟩ : BufTy).Contents (Elt Ideal)) (W : (⟨Cert.ReferenceIdeal.S512x256, .f32⟩ : BufTy).Contents (Elt Ideal))
    (ns : (⟨Cert.ReferenceIdeal.S10000, .f32⟩ : BufTy).Contents (Elt Ideal)) (a1 : (⟨Cert.ReferenceIdeal.S320000, .i32⟩ : BufTy).Contents (Elt Ideal)) :
    innerR X W ns a1 = Cert.KernelIdeal.Hand.innerK (Host.dotGeneral (F := Ideal) (φ₁ := .f32) (φ₂ := .f32) Cert.ReferenceIdeal.dot_S10000x512_S512x256_S10000x256_1_0_0_1_n_n none X W) ns a1 := by
  unfold innerR Cert.KernelIdeal.Hand.innerK
  exact Cert.Lib.GatherScale.gather_scale (N := 10000) (E := 320000) (C := 256) (w := 32) (by decide) _ _ _ _ _ rfl rfl _ rfl _ _ _ _ _ _ _ _ _ rfl rfl

/-- The host's product is region 1's product with its zero bias row. -/
theorem dot_eq_G1 (X : FVec Ideal ⟨2, ![10000, 512]⟩ .f32) (W : FVec Ideal ⟨2, ![512, 256]⟩ .f32) :
    Host.dotGeneral (F := Ideal) Cert.ReferenceIdeal.dot_S10000x512_S512x256_S10000x256_1_0_0_1_n_n none X W = Cert.KernelIdeal.Hand.G1 X W (Cert.KernelIdeal.Hand.zrow1 (F := Ideal)) := by
  funext j
  obtain ⟨r, col, rfl⟩ : ∃ (r : Fin 10000) (col : Fin 256), j = ix2 r col := ⟨j 0, j 1, eq_ix2 j⟩
  rw [Cert.MatProd.hostDot_apply _ rfl rfl (fun _ _ => rfl) (fun _ _ => rfl) (fun _ _ => rfl) (fun _ _ => rfl) X W (ix2 r col),
    Cert.KernelIdeal.Hand.G1_zrow_apply]
  rfl

/-- The second layer: from the first layer's outputs agreeing, the second layer's results agree. -/
theorem v1_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (hagree : Agree m m') (c : Dev Cert.KernelIdeal.nD)
    (h1 : StableHlo.after (Cert.ReferenceIdeal.OpsP.ops (F := Ideal)) (StableHlo.launchContents m' c) (Proc.devRef .tc Cert.ReferenceIdeal.main_v44) = Cert.KernelIdeal.Hand.W10 m (Cert.KernelIdeal.Hand.o0 m) c Cert.KernelIdeal.main_v61)
    (hreal : ∀ i, ∃ r : ℝ, (Cert.KernelIdeal.Hand.W10 m (Cert.KernelIdeal.Hand.o0 m) c Cert.KernelIdeal.main_v61 : FVec Ideal Cert.KernelIdeal.S10000x512 .f32) i = (r : EReal)) :
    StableHlo.after (Cert.ReferenceIdeal.OpsP.ops (F := Ideal)) (StableHlo.launchContents m' c) (Proc.devRef .tc Cert.ReferenceIdeal.main_v88) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v101 := by
  obtain ⟨-, a1, a2, -, -, -, -, -, -, a9, a10, -, -, -, -, -, -, -, -, -, -⟩ := hagree c
  have hW9 := pre_real_arg9 m hpre c
  refine (ref_main_v88 m' c).trans ?_
  refine Eq.trans ?_ (Cert.KernelIdeal.Hand.W32_main_v101 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c).symm
  rw [h1, a1, a2, a9, a10, Cert.KernelIdeal.Hand.o1_eq m c hreal hW9, innerR_eq_innerK, dot_eq_G1]
  rfl

/-- info: 'Cert.Proof.Parts.v1_agree' depends on axioms: [propext, Classical.choice, Quot.sound] -/
#guard_msgs in #print axioms v1_agree

end Cert.Proof.Parts

end
-- ==== Proof.RefLayer3.lean ====
/-
  The twin branch's second layer on the reference's side.

  The reference computes the twin's second layer by the same sixty-two operations as the first branch's, on the twin's
  first-layer output, weights and bias: the product on the host, the rows gathered along the edges' sources and scaled
  by the gathered source-side factors, added up at the edges' targets, scaled by the target-side factors, the bias added.
  This module reads those operations from any contents of the buffers, as the same four functions, and places them inside
  the reference's whole line: what comes before them leaves the arguments as launched, and nothing after them writes the
  layer's result or the first-layer output it reads.
-/
import proofs.«175488_j3908420240157_2_alg».proof.Proof.RefLayer2

set_option maxRecDepth 65536

noncomputable section

namespace Cert.Proof.Parts

open Cert.ReferenceIdeal Cert.ReferenceIdeal.Gen Cert.ReferenceIdeal.OpsP
open Idealize.ShloMosaic Idealize.ShloMosaic.TcCoe Idealize.SL.Sem Idealize.ShloMosaic.StableHlo

variable {F : FTy → Type} [FloatOps F]

set_option maxHeartbeats 0 in
/-- The layer's sixty-two operations (operations 192 to 253 of the reference's line). -/
abbrev layer3RefOps : List (HloOp τ sig (Elt F)) :=
  [ nullary main_cst_40 (constant S_ .f32 0x3F800000#32),
    unary main_cst_40 main_v134 (broadcastInDim S320000 ![] bcast_S_S320000 : (⟨S_, .f32⟩ : BufTy).Contents (Elt F) → (⟨S320000, .f32⟩ : BufTy).Contents (Elt F)),
    nullary main_cst_41 (constant S_ .f32 0x00000000#32),
    unary main_cst_41 main_v135 (broadcastInDim S10000 ![] bcast_S_S10000 : (⟨S_, .f32⟩ : BufTy).Contents (Elt F) → (⟨S10000, .f32⟩ : BufTy).Contents (Elt F)),
    unary main_arg1 main_v136 (broadcastInDim S320000x1 ![0] bcast_S320000_S320000x1_0 : (⟨S320000, .i32⟩ : BufTy).Contents (Elt F) → (⟨S320000x1, .i32⟩ : BufTy).Contents (Elt F)),
    ternary main_v135 main_v136 main_v134 main_v137 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_42 (constant S_ .f32 0x00000000#32),
    unary main_cst_42 main_v138 (broadcastInDim S10000 ![] bcast_S_S10000 : (⟨S_, .f32⟩ : BufTy).Contents (Elt F) → (⟨S10000, .f32⟩ : BufTy).Contents (Elt F)),
    unary main_arg2 main_v139 (broadcastInDim S320000x1 ![0] bcast_S320000_S320000x1_0 : (⟨S320000, .i32⟩ : BufTy).Contents (Elt F) → (⟨S320000x1, .i32⟩ : BufTy).Contents (Elt F)),
    ternary main_v138 main_v139 main_v134 main_v140 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_43 (constant S_ .f32 0x00000000#32),
    unary main_cst_43 main_v141 (broadcastInDim S10000 ![] bcast_S_S10000 : (⟨S_, .f32⟩ : BufTy).Contents (Elt F) → (⟨S10000, .f32⟩ : BufTy).Contents (Elt F)),
    binary main_v137 main_v141 main_v142 (cmpf .ogt : (⟨S10000, .f32⟩ : BufTy).Contents (Elt F) → (⟨S10000, .f32⟩ : BufTy).Contents (Elt F) → (⟨S10000, .i1⟩ : BufTy).Contents (Elt F)),
    nullary main_cst_44 (constant S_ .f32 0xBF000000#32),
    unary main_cst_44 main_v143 (broadcastInDim S10000 ![] bcast_S_S10000 : (⟨S_, .f32⟩ : BufTy).Contents (Elt F) → (⟨S10000, .f32⟩ : BufTy).Contents (Elt F)),
    binary main_v137 main_v143 main_v144 (Host.powf : (⟨S10000, .f32⟩ : BufTy).Contents (Elt F) → (⟨S10000, .f32⟩ : BufTy).Contents (Elt F) → (⟨S10000, .f32⟩ : BufTy).Contents (Elt F)),
    nullary main_cst_45 (constant S_ .f32 0x00000000#32),
    TRef.unary (TRef.of (T := ⟨S_, .f32⟩) main_cst_45) (TRef.of (T := ⟨S_, .f32⟩) main_call8_v0) id,
    TRef.unary (TRef.of (T := ⟨S_, .f32⟩) main_call8_v0) (TRef.of (T := ⟨S10000, .f32⟩) main_call8_v1) (broadcastInDim S10000 ![] bcast_S_S10000),
    TRef.ternary (TRef.of (T := ⟨S10000, .i1⟩) main_v142) (TRef.of (T := ⟨S10000, .f32⟩) main_v144) (TRef.of (T := ⟨S10000, .f32⟩) main_call8_v1) (TRef.of (T := ⟨S10000, .f32⟩) main_v145) select,
    nullary main_cst_46 (constant S_ .f32 0x00000000#32),
    unary main_cst_46 main_v146 (broadcastInDim S10000 ![] bcast_S_S10000 : (⟨S_, .f32⟩ : BufTy).Contents (Elt F) → (⟨S10000, .f32⟩ : BufTy).Contents (Elt F)),
    binary main_v140 main_v146 main_v147 (cmpf .ogt : (⟨S10000, .f32⟩ : BufTy).Contents (Elt F) → (⟨S10000, .f32⟩ : BufTy).Contents (Elt F) → (⟨S10000, .i1⟩ : BufTy).Contents (Elt F)),
    nullary main_cst_47 (constant S_ .f32 0xBF000000#32),
    unary main_cst_47 main_v148 (broadcastInDim S10000 ![] bcast_S_S10000 : (⟨S_, .f32⟩ : BufTy).Contents (Elt F) → (⟨S10000, .f32⟩ : BufTy).Contents (Elt F)),
    binary main_v140 main_v148 main_v149 (Host.powf : (⟨S10000, .f32⟩ : BufTy).Contents (Elt F) → (⟨S10000, .f32⟩ : BufTy).Contents (Elt F) → (⟨S10000, .f32⟩ : BufTy).Contents (Elt F)),
    nullary main_cst_48 (constant S_ .f32 0x00000000#32),
    TRef.unary (TRef.of (T := ⟨S_, .f32⟩) main_cst_48) (TRef.of (T := ⟨S_, .f32⟩) main_call9_v0) id,
    TRef.unary (TRef.of (T := ⟨S_, .f32⟩) main_call9_v0) (TRef.of (T := ⟨S10000, .f32⟩) main_call9_v1) (broadcastInDim S10000 ![] bcast_S_S10000),
    TRef.ternary (TRef.of (T := ⟨S10000, .i1⟩) main_v147) (TRef.of (T := ⟨S10000, .f32⟩) main_v149) (TRef.of (T := ⟨S10000, .f32⟩) main_call9_v1) (TRef.of (T := ⟨S10000, .f32⟩) main_v150) select,
    binary main_v133 main_arg13 main_v151 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    nullary main_c_49 (constantI S_ 32 0#32),
    unary main_c_49 main_v152 (broadcastInDim S320000 ![] bcast_S_S320000 : (⟨S_, .i32⟩ : BufTy).Contents (Elt F) → (⟨S320000, .i32⟩ : BufTy).Contents (Elt F)),
    binary main_arg1 main_v152 main_v153 (cmpi .slt : (⟨S320000, .i32⟩ : BufTy).Contents (Elt F) → (⟨S320000, .i32⟩ : BufTy).Contents (Elt F) → (⟨S320000, .i1⟩ : BufTy).Contents (Elt F)),
    nullary main_c_50 (constantI S_ 32 10000#32),
    unary main_c_50 main_v154 (broadcastInDim S320000 ![] bcast_S_S320000 : (⟨S_, .i32⟩ : BufTy).Contents (Elt F) → (⟨S320000, .i32⟩ : BufTy).Contents (Elt F)),
    binary main_arg1 main_v154 main_v155 (addi : (⟨S320000, .i32⟩ : BufTy).Contents (Elt F) → (⟨S320000, .i32⟩ : BufTy).Contents (Elt F) → (⟨S320000, .i32⟩ : BufTy).Contents (Elt F)),
    ternary main_v153 main_v155 main_arg1 main_v156 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v156 main_v157 (broadcastInDim S320000x1 ![0] bcast_S320000_S320000x1_0 : (⟨S320000, .i32⟩ : BufTy).Contents (Elt F) → (⟨S320000x1, .i32⟩ : BufTy).Contents (Elt F)),
    binary main_v151 main_v157 main_v158 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    nullary main_c_51 (constantI S_ 32 0#32),
    unary main_c_51 main_v159 (broadcastInDim S320000 ![] bcast_S_S320000 : (⟨S_, .i32⟩ : BufTy).Contents (Elt F) → (⟨S320000, .i32⟩ : BufTy).Contents (Elt F)),
    binary main_arg1 main_v159 main_v160 (cmpi .slt : (⟨S320000, .i32⟩ : BufTy).Contents (Elt F) → (⟨S320000, .i32⟩ : BufTy).Contents (Elt F) → (⟨S320000, .i1⟩ : BufTy).Contents (Elt F)),
    nullary main_c_52 (constantI S_ 32 10000#32),
    unary main_c_52 main_v161 (broadcastInDim S320000 ![] bcast_S_S320000 : (⟨S_, .i32⟩ : BufTy).Contents (Elt F) → (⟨S320000, .i32⟩ : BufTy).Contents (Elt F)),
    binary main_arg1 main_v161 main_v162 (addi : (⟨S320000, .i32⟩ : BufTy).Contents (Elt F) → (⟨S320000, .i32⟩ : BufTy).Contents (Elt F) → (⟨S320000, .i32⟩ : BufTy).Contents (Elt F)),
    ternary main_v160 main_v162 main_arg1 main_v163 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v163 main_v164 (broadcastInDim S320000x1 ![0] bcast_S320000_S320000x1_0 : (⟨S320000, .i32⟩ : BufTy).Contents (Elt F) → (⟨S320000x1, .i32⟩ : BufTy).Contents (Elt F)),
    binary main_v145 main_v164 main_v165 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    unary main_v165 main_v166 (broadcastInDim S320000x1 ![0] bcast_S320000_S320000x1_0 : (⟨S320000, .f32⟩ : BufTy).Contents (Elt F) → (⟨S320000x1, .f32⟩ : BufTy).Contents (Elt F)),
    unary main_v166 main_v167 (broadcastInDim S320000x256 ![0, 1] bcast_S320000x1_S320000x256_0_1 : (⟨S320000x1, .f32⟩ : BufTy).Contents (Elt F) → (⟨S320000x256, .f32⟩ : BufTy).Contents (Elt F)),
    binary main_v158 main_v167 main_v168 (mulf : (⟨S320000x256, .f32⟩ : BufTy).Contents (Elt F) → (⟨S320000x256, .f32⟩ : BufTy).Contents (Elt F) → (⟨S320000x256, .f32⟩ : BufTy).Contents (Elt F)),
    nullary main_cst_53 (constant S_ .f32 0x00000000#32),
    unary main_cst_53 main_v169 (broadcastInDim S10000x256 ![] bcast_S_S10000x256 : (⟨S_, .f32⟩ : BufTy).Contents (Elt F) → (⟨S10000x256, .f32⟩ : BufTy).Contents (Elt F)),
    unary main_arg2 main_v170 (broadcastInDim S320000x1 ![0] bcast_S320000_S320000x1_0 : (⟨S320000, .i32⟩ : BufTy).Contents (Elt F) → (⟨S320000x1, .i32⟩ : BufTy).Contents (Elt F)),
    ternary main_v169 main_v170 main_v168 main_v171 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    unary main_v150 main_v172 (broadcastInDim S10000x1 ![0] bcast_S10000_S10000x1_0 : (⟨S10000, .f32⟩ : BufTy).Contents (Elt F) → (⟨S10000x1, .f32⟩ : BufTy).Contents (Elt F)),
    unary main_v172 main_v173 (broadcastInDim S10000x256 ![0, 1] bcast_S10000x1_S10000x256_0_1 : (⟨S10000x1, .f32⟩ : BufTy).Contents (Elt F) → (⟨S10000x256, .f32⟩ : BufTy).Contents (Elt F)),
    binary main_v171 main_v173 main_v174 (mulf : (⟨S10000x256, .f32⟩ : BufTy).Contents (Elt F) → (⟨S10000x256, .f32⟩ : BufTy).Contents (Elt F) → (⟨S10000x256, .f32⟩ : BufTy).Contents (Elt F)),
    unary main_arg14 main_v175 (broadcastInDim S1x256 ![1] bcast_S256_S1x256_1 : (⟨S256, .f32⟩ : BufTy).Contents (Elt F) → (⟨S1x256, .f32⟩ : BufTy).Contents (Elt F)),
    unary main_v175 main_v176 (broadcastInDim S10000x256 ![0, 1] bcast_S1x256_S10000x256_0_1 : (⟨S1x256, .f32⟩ : BufTy).Contents (Elt F) → (⟨S10000x256, .f32⟩ : BufTy).Contents (Elt F)),
    binary main_v174 main_v176 main_v177 (addf : (⟨S10000x256, .f32⟩ : BufTy).Contents (Elt F) → (⟨S10000x256, .f32⟩ : BufTy).Contents (Elt F) → (⟨S10000x256, .f32⟩ : BufTy).Contents (Elt F)) ]

set_option maxHeartbeats 0 in
/-- The layer's result after those operations, run from any contents of the buffers. -/
theorem read_ref_v177 (Q : Valuation τ sig (Elt F)) :
    after layer3RefOps Q (Proc.devRef .tc main_v177)
      = outerR (innerR (Q (Proc.devRef .tc main_v133)) (Q (Proc.devRef .tc main_arg13)) (nsR (Q (Proc.devRef .tc main_arg1))) (Q (Proc.devRef .tc main_arg1)))
          (ndR (Q (Proc.devRef .tc main_arg2))) (Q (Proc.devRef .tc main_arg2)) (Q (Proc.devRef .tc main_arg14)) := by
  after_results_simp <;> rfl

set_option maxHeartbeats 0 in
/-- The reference's line is: one hundred and ninety-two operations, the layer, the rest. -/
theorem ref_ops_split3 : (ops : List (HloOp τ sig (Elt F))) = ops.take 192 ++ (layer3RefOps ++ ops.drop 254) := by
  conv_lhs => rw [← List.take_append_drop 192 (ops : List (HloOp τ sig (Elt F)))]
  exact congrArg (ops.take 192 ++ ·) rfl

set_option maxHeartbeats 0 in
/-- Nothing after the twin's first-layer output is computed writes it again. -/
theorem ref_v133_kept : ∀ op ∈ ((layer3RefOps ++ ops.drop 254 : List (HloOp τ sig (Elt Ideal)))), (Proc.devRef .tc main_v133 : DevRef τ sig) ∉ op.writes := by
  decide +kernel

set_option maxHeartbeats 0 in
/-- Nothing after the layer writes the layer's result. -/
theorem ref_v177_kept : ∀ op ∈ ((ops.drop 254 : List (HloOp τ sig (Elt Ideal)))), (Proc.devRef .tc main_v177 : DevRef τ sig) ∉ op.writes := by
  decide +kernel

set_option maxHeartbeats 0 in
/-- The reference's twin second layer, from its first layer's output and its arguments as launched. -/
theorem ref_main_v177 (m' : (ℓ : Loc nD τ sig) → Buf (Elt Ideal) ℓ) (d : Dev nD) :
    after (ops (F := Ideal)) (launchContents m' d) (Proc.devRef .tc main_v177)
      = outerR (innerR (after (ops (F := Ideal)) (launchContents m' d) (Proc.devRef .tc main_v133)) (m' ((d.tc : Thread nD τ).loc main_arg13)) (nsR (m' ((d.tc : Thread nD τ).loc main_arg1))) (m' ((d.tc : Thread nD τ).loc main_arg1)))
          (ndR (m' ((d.tc : Thread nD τ).loc main_arg2))) (m' ((d.tc : Thread nD τ).loc main_arg2)) (m' ((d.tc : Thread nD τ).loc main_arg14)) := by
  have e133 : after (ops (F := Ideal)) (launchContents m' d) (Proc.devRef .tc main_v133) = (after ((ops : List (HloOp τ sig (Elt Ideal))).take 192) (launchContents m' d)) (Proc.devRef .tc main_v133) := by
    conv_lhs => rw [ref_ops_split3 (F := Ideal), Cert.KernelIdeal.Hand.after_append]
    exact after_of_forall_not_mem _ _ ref_v133_kept
  have e177 : after (ops (F := Ideal)) (launchContents m' d) (Proc.devRef .tc main_v177) = after layer3RefOps (after ((ops : List (HloOp τ sig (Elt Ideal))).take 192) (launchContents m' d)) (Proc.devRef .tc main_v177) := by
    conv_lhs => rw [ref_ops_split3 (F := Ideal), Cert.KernelIdeal.Hand.after_append, Cert.KernelIdeal.Hand.after_append]
    exact after_of_forall_not_mem _ _ ref_v177_kept
  have q1 : (after ((ops : List (HloOp τ sig (Elt Ideal))).take 192) (launchContents m' d)) (Proc.devRef .tc main_arg1) = m' ((d.tc : Thread nD τ).loc main_arg1) := (ref_take_arg 192 _ main_arg1 (by decide)).trans rfl
  have q2 : (after ((ops : List (HloOp τ sig (Elt Ideal))).take 192) (launchContents m' d)) (Proc.devRef .tc main_arg2) = m' ((d.tc : Thread nD τ).loc main_arg2) := (ref_take_arg 192 _ main_arg2 (by decide)).trans rfl
  have q13 : (after ((ops : List (HloOp τ sig (Elt Ideal))).take 192) (launchContents m' d)) (Proc.devRef .tc main_arg13) = m' ((d.tc : Thread nD τ).loc main_arg13) := (ref_take_arg 192 _ main_arg13 (by decide)).trans rfl
  have q14 : (after ((ops : List (HloOp τ sig (Elt Ideal))).take 192) (launchContents m' d)) (Proc.devRef .tc main_arg14) = m' ((d.tc : Thread nD τ).loc main_arg14) := (ref_take_arg 192 _ main_arg14 (by decide)).trans rfl
  rw [e177, read_ref_v177, e133, q1, q2, q13, q14]

/-- info: 'Cert.Proof.Parts.ref_main_v177' depends on axioms: [propext, Classical.choice, Quot.sound] -/
#guard_msgs in #print axioms ref_main_v177

end Cert.Proof.Parts

end
-- ==== Proof.KI.Layer3K.lean ====
/-
  The twin branch's second layer as the program computes it, as one line of host operations and one function.

  The five stretches of host operations between region 2 and region 3 take region 2's output through the same graph
  aggregation as the first branch's second layer: the factors from the degrees, the rows scaled and gathered along the
  edges, summed at the targets, scaled, and the twin's bias added. Read from any contents of the buffers, the layer's
  result is the same two functions applied to region 2's output, the two index arrays and the twin's bias.
-/
import proofs.«175488_j3908420240157_2_alg».proof.Proof.KI.Layer2K

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The five stretches of host operations between region 2 and region 3, as one line. -/
abbrev layer3Ops : List (HloOp τ sig (Elt F)) :=
  [ StableHlo.nullary main_cst_28 (constant S_ .f32 0x3F800000#32),
    StableHlo.unary main_cst_28 main_v105 (broadcastInDim S320000 ![] bcast_S_S320000 : (⟨S_, .f32⟩ : BufTy).Contents (Elt F) → (⟨S320000, .f32⟩ : BufTy).Contents (Elt F)),
    StableHlo.nullary main_cst_29 (constant S_ .f32 0x00000000#32),
    StableHlo.unary main_cst_29 main_v106 (broadcastInDim S10000 ![] bcast_S_S10000 : (⟨S_, .f32⟩ : BufTy).Contents (Elt F) → (⟨S10000, .f32⟩ : BufTy).Contents (Elt F)),
    StableHlo.unary main_arg1 main_v107 (broadcastInDim S320000x1 ![0] bcast_S320000_S320000x1_0 : (⟨S320000, .i32⟩ : BufTy).Contents (Elt F) → (⟨S320000x1, .i32⟩ : BufTy).Contents (Elt F)),
    StableHlo.ternary main_v106 main_v107 main_v105 main_v108 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_30 (constant S_ .f32 0x00000000#32),
    StableHlo.unary main_cst_30 main_v109 (broadcastInDim S10000 ![] bcast_S_S10000 : (⟨S_, .f32⟩ : BufTy).Contents (Elt F) → (⟨S10000, .f32⟩ : BufTy).Contents (Elt F)),
    StableHlo.unary main_arg2 main_v110 (broadcastInDim S320000x1 ![0] bcast_S320000_S320000x1_0 : (⟨S320000, .i32⟩ : BufTy).Contents (Elt F) → (⟨S320000x1, .i32⟩ : BufTy).Contents (Elt F)),
    StableHlo.ternary main_v109 main_v110 main_v105 main_v111 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_31 (constant S_ .f32 0x00000000#32),
    StableHlo.unary main_cst_31 main_v112 (broadcastInDim S10000 ![] bcast_S_S10000 : (⟨S_, .f32⟩ : BufTy).Contents (Elt F) → (⟨S10000, .f32⟩ : BufTy).Contents (Elt F)),
    StableHlo.binary main_v108 main_v112 main_v113 (cmpf .ogt : (⟨S10000, .f32⟩ : BufTy).Contents (Elt F) → (⟨S10000, .f32⟩ : BufTy).Contents (Elt F) → (⟨S10000, .i1⟩ : BufTy).Contents (Elt F)),
    StableHlo.nullary main_cst_32 (constant S_ .f32 0xBF000000#32),
    StableHlo.unary main_cst_32 main_v114 (broadcastInDim S10000 ![] bcast_S_S10000 : (⟨S_, .f32⟩ : BufTy).Contents (Elt F) → (⟨S10000, .f32⟩ : BufTy).Contents (Elt F)),
    StableHlo.binary main_v108 main_v114 main_v115 (Host.powf : (⟨S10000, .f32⟩ : BufTy).Contents (Elt F) → (⟨S10000, .f32⟩ : BufTy).Contents (Elt F) → (⟨S10000, .f32⟩ : BufTy).Contents (Elt F)),
    StableHlo.nullary main_cst_33 (constant S_ .f32 0x00000000#32),
    StableHlo.TRef.unary (.of main_cst_33 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S10000, .f32⟩) (broadcastInDim S10000 ![] bcast_S_S10000),
    StableHlo.TRef.ternary (.of main_v113 : StableHlo.TRef sig ⟨S10000, .i1⟩) (.of main_v115 : StableHlo.TRef sig ⟨S10000, .f32⟩) (.of main_call6_v1 : StableHlo.TRef sig ⟨S10000, .f32⟩) (.of main_v116 : StableHlo.TRef sig ⟨S10000, .f32⟩) select,
    StableHlo.nullary main_cst_34 (constant S_ .f32 0x00000000#32),
    StableHlo.unary main_cst_34 main_v117 (broadcastInDim S10000 ![] bcast_S_S10000 : (⟨S_, .f32⟩ : BufTy).Contents (Elt F) → (⟨S10000, .f32⟩ : BufTy).Contents (Elt F)),
    StableHlo.binary main_v111 main_v117 main_v118 (cmpf .ogt : (⟨S10000, .f32⟩ : BufTy).Contents (Elt F) → (⟨S10000, .f32⟩ : BufTy).Contents (Elt F) → (⟨S10000, .i1⟩ : BufTy).Contents (Elt F)),
    StableHlo.nullary main_cst_35 (constant S_ .f32 0xBF000000#32),
    StableHlo.unary main_cst_35 main_v119 (broadcastInDim S10000 ![] bcast_S_S10000 : (⟨S_, .f32⟩ : BufTy).Contents (Elt F) → (⟨S10000, .f32⟩ : BufTy).Contents (Elt F)),
    StableHlo.binary main_v111 main_v119 main_v120 (Host.powf : (⟨S10000, .f32⟩ : BufTy).Contents (Elt F) → (⟨S10000, .f32⟩ : BufTy).Contents (Elt F) → (⟨S10000, .f32⟩ : BufTy).Contents (Elt F)),
    StableHlo.nullary main_cst_36 (constant S_ .f32 0x00000000#32),
    StableHlo.TRef.unary (.of main_cst_36 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S10000, .f32⟩) (broadcastInDim S10000 ![] bcast_S_S10000),
    StableHlo.TRef.ternary (.of main_v118 : StableHlo.TRef sig ⟨S10000, .i1⟩) (.of main_v120 : StableHlo.TRef sig ⟨S10000, .f32⟩) (.of main_call7_v1 : StableHlo.TRef sig ⟨S10000, .f32⟩) (.of main_v121 : StableHlo.TRef sig ⟨S10000, .f32⟩) select,
    StableHlo.unary main_v116 main_v122 (broadcastInDim S10000x1 ![0] bcast_S10000_S10000x1_0 : (⟨S10000, .f32⟩ : BufTy).Contents (Elt F) → (⟨S10000x1, .f32⟩ : BufTy).Contents (Elt F)),
    StableHlo.unary main_v122 main_v123 (broadcastInDim S10000x256 ![0, 1] bcast_S10000x1_S10000x256_0_1 : (⟨S10000x1, .f32⟩ : BufTy).Contents (Elt F) → (⟨S10000x256, .f32⟩ : BufTy).Contents (Elt F)),
    StableHlo.binary main_v104 main_v123 main_v124 (mulf : (⟨S10000x256, .f32⟩ : BufTy).Contents (Elt F) → (⟨S10000x256, .f32⟩ : BufTy).Contents (Elt F) → (⟨S10000x256, .f32⟩ : BufTy).Contents (Elt F)),
    StableHlo.nullary main_c_37 (constantI S_ 32 0#32),
    StableHlo.unary main_c_37 main_v125 (broadcastInDim S320000 ![] bcast_S_S320000 : (⟨S_, .i32⟩ : BufTy).Contents (Elt F) → (⟨S320000, .i32⟩ : BufTy).Contents (Elt F)),
    StableHlo.binary main_arg1 main_v125 main_v126 (cmpi .slt : (⟨S320000, .i32⟩ : BufTy).Contents (Elt F) → (⟨S320000, .i32⟩ : BufTy).Contents (Elt F) → (⟨S320000, .i1⟩ : BufTy).Contents (Elt F)),
    StableHlo.nullary main_c_38 (constantI S_ 32 10000#32),
    StableHlo.unary main_c_38 main_v127 (broadcastInDim S320000 ![] bcast_S_S320000 : (⟨S_, .i32⟩ : BufTy).Contents (Elt F) → (⟨S320000, .i32⟩ : BufTy).Contents (Elt F)),
    StableHlo.binary main_arg1 main_v127 main_v128 (addi : (⟨S320000, .i32⟩ : BufTy).Contents (Elt F) → (⟨S320000, .i32⟩ : BufTy).Contents (Elt F) → (⟨S320000, .i32⟩ : BufTy).Contents (Elt F)),
    StableHlo.ternary main_v126 main_v128 main_arg1 main_v129 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v129 main_v130 (broadcastInDim S320000x1 ![0] bcast_S320000_S320000x1_0 : (⟨S320000, .i32⟩ : BufTy).Contents (Elt F) → (⟨S320000x1, .i32⟩ : BufTy).Contents (Elt F)),
    StableHlo.binary main_v124 main_v130 main_v131 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_cst_39 (constant S_ .f32 0x00000000#32),
    StableHlo.unary main_cst_39 main_v132 (broadcastInDim S10000x256 ![] bcast_S_S10000x256 : (⟨S_, .f32⟩ : BufTy).Contents (Elt F) → (⟨S10000x256, .f32⟩ : BufTy).Contents (Elt F)),
    StableHlo.unary main_arg2 main_v133 (broadcastInDim S320000x1 ![0] bcast_S320000_S320000x1_0 : (⟨S320000, .i32⟩ : BufTy).Contents (Elt F) → (⟨S320000x1, .i32⟩ : BufTy).Contents (Elt F)),
    StableHlo.ternary main_v132 main_v133 main_v131 main_v134 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.unary main_v121 main_v135 (broadcastInDim S10000x1 ![0] bcast_S10000_S10000x1_0 : (⟨S10000, .f32⟩ : BufTy).Contents (Elt F) → (⟨S10000x1, .f32⟩ : BufTy).Contents (Elt F)),
    StableHlo.unary main_v135 main_v136 (broadcastInDim S10000x256 ![0, 1] bcast_S10000x1_S10000x256_0_1 : (⟨S10000x1, .f32⟩ : BufTy).Contents (Elt F) → (⟨S10000x256, .f32⟩ : BufTy).Contents (Elt F)),
    StableHlo.binary main_v134 main_v136 main_v137 (mulf : (⟨S10000x256, .f32⟩ : BufTy).Contents (Elt F) → (⟨S10000x256, .f32⟩ : BufTy).Contents (Elt F) → (⟨S10000x256, .f32⟩ : BufTy).Contents (Elt F)),
    StableHlo.unary main_arg14 main_v138 (broadcastInDim S1x256 ![1] bcast_S256_S1x256_1 : (⟨S256, .f32⟩ : BufTy).Contents (Elt F) → (⟨S1x256, .f32⟩ : BufTy).Contents (Elt F)),
    StableHlo.unary main_v138 main_v139 (broadcastInDim S10000x256 ![0, 1] bcast_S1x256_S10000x256_0_1 : (⟨S1x256, .f32⟩ : BufTy).Contents (Elt F) → (⟨S10000x256, .f32⟩ : BufTy).Contents (Elt F)),
    StableHlo.binary main_v137 main_v139 main_v140 (addf : (⟨S10000x256, .f32⟩ : BufTy).Contents (Elt F) → (⟨S10000x256, .f32⟩ : BufTy).Contents (Elt F) → (⟨S10000x256, .f32⟩ : BufTy).Contents (Elt F)),
    StableHlo.reshape main_arg20 main_v141 rfl shapeCasts_S256_S1x256 ]

set_option maxHeartbeats 0 in
/-- The layer's result after those operations, run from any contents of the buffers. -/
theorem read_v140 (P : Valuation τ sig (Elt F)) :
    StableHlo.after layer3Ops P (Proc.devRef .tc main_v140)
      = outerK (innerK (P (Proc.devRef .tc main_v104)) (nsK (P (Proc.devRef .tc main_arg1))) (P (Proc.devRef .tc main_arg1)))
          (ndK (P (Proc.devRef .tc main_arg2))) (P (Proc.devRef .tc main_arg2)) (P (Proc.devRef .tc main_arg14)) := by
  after_results_simp <;> rfl

end Cert.KernelIdeal.Hand

end
-- ==== Proof.KI.Layer3Chain.lean ====
/-
  What the chain's last valuation holds at the twin branch's second-layer result, from region 2's output and the launch memory.

  The five stretches between region 2 and region 3 run from the valuation region 2 leaves; they read region 2's
  output array and three arguments of @main, which are as launched; and nothing after them writes the layer's result.
-/
import proofs.«175488_j3908420240157_2_alg».proof.Proof.KI.Layer3K
import proofs.«175488_j3908420240157_2_alg».proof.Proof.KI.Entry5

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)
  (o0 : (c : Dev nD) → Buf (Elt F) ((c : Thread nD τ).loc main_v3))
  (o1 : (c : Dev nD) → Buf (Elt F) ((c : Thread nD τ).loc main_v65))
  (o2 : (c : Dev nD) → Buf (Elt F) ((c : Thread nD τ).loc main_v104))
  (o3 : (c : Dev nD) → Buf (Elt F) ((c : Thread nD τ).loc main_v142))
  (o4 : (c : Dev nD) → Buf (Elt F) ((c : Thread nD τ).loc main_v205))
  (o5 : (c : Dev nD) → Buf (Elt F) ((c : Thread nD τ).loc main_v228))
  (o6 : (c : Dev nD) → Buf (Elt F) ((c : Thread nD τ).loc main_v232))
  (o7 : (c : Dev nD) → Buf (Elt F) ((c : Thread nD τ).loc main_v295))

/-- The valuation region 3 is entered at is the five stretches run from the valuation region 2 leaves. -/
theorem W22_eq (c : Dev nD) : W22 m o0 o1 o2 c = StableHlo.after layer3Ops (W17 m o0 o1 o2 c) := by
  have e : (layer3Ops : List (HloOp τ sig (Elt F))) = hostOps3 ++ (hostOps3_1 ++ (hostOps3_2 ++ (hostOps3_3 ++ hostOps3_4))) := rfl
  rw [e, after_append, after_append, after_append, after_append]

/-- Region 2's output array, where region 2 leaves it. -/
theorem W17_main_v104 (c : Dev nD) : W17 m o0 o1 o2 c main_v104 = o2 c := by
  simp only [W17, Function.update_self]

/-- The edges' sources are as launched there. -/
theorem W17_main_arg1 (c : Dev nD) : W17 m o0 o1 o2 c main_arg1 = m ((c : Thread nD τ).loc main_arg1) :=
  (W17_of m o0 o1 o2 c main_arg1 (by decide)).trans <|
  (W16_of m o0 o1 c main_arg1 (by decide)).trans <|
  (W15_of m o0 o1 c main_arg1 (by decide)).trans <|
  (W14_of m o0 o1 c main_arg1 (by decide)).trans <|
  (W13_of m o0 o1 c main_arg1 (by decide)).trans <|
  (W12_of m o0 o1 c main_arg1 (by decide)).trans <|
  (W11_of m o0 o1 c main_arg1 (by decide)).trans <|
  (W10_of m o0 c main_arg1 (by decide)).trans <|
  (W9_of m o0 c main_arg1 (by decide)).trans <|
  (W8_of m o0 c main_arg1 (by decide)).trans <|
  (W7_of m o0 c main_arg1 (by decide)).trans <|
  (W6_of m o0 c main_arg1 (by decide)).trans <|
  (W5_of m o0 c main_arg1 (by decide)).trans <|
  (W4_of m o0 c main_arg1 (by decide)).trans <|
  (W3_of m o0 c main_arg1 (by decide)).trans <|
  (W2_of m o0 c main_arg1 (by decide)).trans <|
  (W1_of m c main_arg1 (by decide)).trans rfl

/-- The edges' targets likewise. -/
theorem W17_main_arg2 (c : Dev nD) : W17 m o0 o1 o2 c main_arg2 = m ((c : Thread nD τ).loc main_arg2) :=
  (W17_of m o0 o1 o2 c main_arg2 (by decide)).trans <|
  (W16_of m o0 o1 c main_arg2 (by decide)).trans <|
  (W15_of m o0 o1 c main_arg2 (by decide)).trans <|
  (W14_of m o0 o1 c main_arg2 (by decide)).trans <|
  (W13_of m o0 o1 c main_arg2 (by decide)).trans <|
  (W12_of m o0 o1 c main_arg2 (by decide)).trans <|
  (W11_of m o0 o1 c main_arg2 (by decide)).trans <|
  (W10_of m o0 c main_arg2 (by decide)).trans <|
  (W9_of m o0 c main_arg2 (by decide)).trans <|
  (W8_of m o0 c main_arg2 (by decide)).trans <|
  (W7_of m o0 c main_arg2 (by decide)).trans <|
  (W6_of m o0 c main_arg2 (by decide)).trans <|
  (W5_of m o0 c main_arg2 (by decide)).trans <|
  (W4_of m o0 c main_arg2 (by decide)).trans <|
  (W3_of m o0 c main_arg2 (by decide)).trans <|
  (W2_of m o0 c main_arg2 (by decide)).trans <|
  (W1_of m c main_arg2 (by decide)).trans rfl

/-- The twin's second-layer bias likewise. -/
theorem W17_main_arg14 (c : Dev nD) : W17 m o0 o1 o2 c main_arg14 = m ((c : Thread nD τ).loc main_arg14) :=
  (W17_of m o0 o1 o2 c main_arg14 (by decide)).trans <|
  (W16_of m o0 o1 c main_arg14 (by decide)).trans <|
  (W15_of m o0 o1 c main_arg14 (by decide)).trans <|
  (W14_of m o0 o1 c main_arg14 (by decide)).trans <|
  (W13_of m o0 o1 c main_arg14 (by decide)).trans <|
  (W12_of m o0 o1 c main_arg14 (by decide)).trans <|
  (W11_of m o0 o1 c main_arg14 (by decide)).trans <|
  (W10_of m o0 c main_arg14 (by decide)).trans <|
  (W9_of m o0 c main_arg14 (by decide)).trans <|
  (W8_of m o0 c main_arg14 (by decide)).trans <|
  (W7_of m o0 c main_arg14 (by decide)).trans <|
  (W6_of m o0 c main_arg14 (by decide)).trans <|
  (W5_of m o0 c main_arg14 (by decide)).trans <|
  (W4_of m o0 c main_arg14 (by decide)).trans <|
  (W3_of m o0 c main_arg14 (by decide)).trans <|
  (W2_of m o0 c main_arg14 (by decide)).trans <|
  (W1_of m c main_arg14 (by decide)).trans rfl

/-- The twin's second-layer result at the end of the chain: region 2's output scaled, gathered, summed, scaled, biased. -/
theorem W32_main_v140 (c : Dev nD) :
    W32 m o0 o1 o2 o3 o4 o5 o6 o7 c main_v140
      = outerK (innerK (o2 c) (nsK (m ((c : Thread nD τ).loc main_arg1))) (m ((c : Thread nD τ).loc main_arg1))) (ndK (m ((c : Thread nD τ).loc main_arg2))) (m ((c : Thread nD τ).loc main_arg2)) (m ((c : Thread nD τ).loc main_arg14)) := by
  refine (
    (W32_of m o0 o1 o2 o3 o4 o5 o6 o7 c main_v140 (by decide)).trans <|
    (W31_of m o0 o1 o2 o3 o4 o5 o6 o7 c main_v140 (by decide)).trans <|
    (W30_of m o0 o1 o2 o3 o4 o5 o6 c main_v140 (by decide)).trans <|
    (W29_of m o0 o1 o2 o3 o4 o5 o6 c main_v140 (by decide)).trans <|
    (W28_of m o0 o1 o2 o3 o4 o5 c main_v140 (by decide)).trans <|
    (W27_of m o0 o1 o2 o3 o4 o5 c main_v140 (by decide)).trans <|
    (W26_of m o0 o1 o2 o3 o4 c main_v140 (by decide)).trans <|
    (W25_of m o0 o1 o2 o3 o4 c main_v140 (by decide)).trans <|
    (W24_of m o0 o1 o2 o3 c main_v140 (by decide)).trans <|
    (W23_of m o0 o1 o2 o3 c main_v140 (by decide)).trans <|
    ?_)
  show W22 m o0 o1 o2 c (Proc.devRef .tc main_v140) = _
  rw [W22_eq, read_v140]
  show outerK (innerK (W17 m o0 o1 o2 c main_v104) (nsK (W17 m o0 o1 o2 c main_arg1)) (W17 m o0 o1 o2 c main_arg1)) (ndK (W17 m o0 o1 o2 c main_arg2)) (W17 m o0 o1 o2 c main_arg2) (W17 m o0 o1 o2 c main_arg14) = _
  rw [W17_main_v104, W17_main_arg1, W17_main_arg2, W17_main_arg14]

end Cert.KernelIdeal.Hand

end
-- ==== Proof.KI.Value2.lean ====
/-
  Region 2's result as ONE function of its three argument arrays, on the extended reals.

  The output array of region 2 has 10000 rows of 256 entries, written back in five blocks of 2000 rows. At the grid
  point t the body's payload, read at (p, q) of its block, is the three-pass split product of the block of x by the
  whole weight matrix, plus the bias row: for operands with real entries, the plain sum over k of x(2000 t + p, k) ·
  w(k, q), plus b(0, q). A block's coordinate is the block index times the block's extent plus the coordinate inside
  the block; the output's block at t sits at rows 2000 t …, where the block of x it was computed from sits; the
  weight matrix and the bias row are one block each. So every point writes back the restriction to its rows of ONE
  whole-array function G2, the five blocks cover the array, and the array after the region IS G2: at (r, col),
  the sum over k of x(r, k) · w(k, col), plus b(0, col).
-/
import proofs.«175488_j3908420240157_2_alg».proof.Proof.KI.Seg2
import proofs.«175488_j3908420240157_2_alg».proof.Proof.LibSplitProduct
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)

variable {U : Type} [URA U]

/-- Every access of the body is at zero offsets. -/
private theorem off00 : (![0, 0] : Fin 2 → Nat) = fun _ => 0 := funext fun a => by fin_cases a <;> rfl

/-! ## The payload at an index -/

/-- The body's payload at (p, q), for operands with real entries: the row of the x block times the column of the
    weight matrix, plus the bias row's entry. -/
theorem payR2_apply (v0 : FVec Ideal S2000x512 .f32) (v1 : FVec Ideal S512x256 .f32) (v16 : FVec Ideal S1x256 .f32)
    (h0 : ∀ i, ∃ r : ℝ, v0 i = (r : EReal)) (h1 : ∀ i, ∃ r : ℝ, v1 i = (r : EReal)) (p : Fin 2000) (q : Fin 256) :
    k2_pay1 (F := Ideal) v0 v1 v16 (ix2 p q) = (∑ k : Fin 512, v0 (ix2 p k) * v1 (ix2 k q)) + v16 (ix2 (0 : Fin 1) q) := by
  unfold k2_pay1
  refine (Cert.Lib.SplitProduct.split_bias_ix2 _ rfl rfl (fun _ _ => rfl) (fun _ _ => rfl) (fun _ _ => rfl) (fun _ _ => rfl)
    _ v1 ?_ h1 _ _ _ p q).trans ?_
  · rw [shapeCast_self]; exact h0
  · rw [shapeCast_self, shapeCast_self]

/-! ## The whole-array function -/

/-- The result array from the three argument arrays: at (r, col), the sum over k of x(r, k) · w(k, col), plus b(0, col). -/
def G2 (x : FVec Ideal S10000x512 .f32) (w : FVec Ideal S512x256 .f32) (b : FVec Ideal S1x256 .f32) : FVec Ideal S10000x256 .f32 :=
  fun i => (∑ k : Fin 512, x (ix2 (n0 := 10000) (i 0) k) * w (ix2 k (n1 := 256) (i 1))) + b (ix2 (0 : Fin 1) (n1 := 256) (i 1))

theorem G2_apply (x : FVec Ideal S10000x512 .f32) (w : FVec Ideal S512x256 .f32) (b : FVec Ideal S1x256 .f32) (r : Fin 10000) (col : Fin 256) :
    G2 x w b (ix2 r col) = (∑ k : Fin 512, x (ix2 r k) * w (ix2 k col)) + b (ix2 (0 : Fin 1) col) := rfl

/-! ## The windows' index maps, decided over the grid -/

/-- The block of x moves with the output's block along the rows; the weight matrix, the bias row and every window's
    column axis stay at block 0; the output's row block at point t is t. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the block at point t is row 2000 t + p of the array. -/
def row2 (t : Fin cfg2.N) (p : Fin 2000) : Fin 10000 :=
  ⟨2000 * t.val + p.val, by
    have ht : t.val < 5 := lt_of_lt_of_eq t.isLt N_2
    have hp := p.isLt
    omega⟩

theorem row2_val (t : Fin cfg2.N) (p : Fin 2000) : (row2 t p).val = 2000 * t.val + p.val := rfl

-- the core's buffer contents when the region is entered
variable (V : (c : Dev nD) → (b : Ref sig .tc) → Buf (Elt Ideal) ((c : Thread nD τ).loc b))

/-! ## What a point writes back -/

/-- WHAT POINT t WRITES BACK is block t of G2 of the three arrays as the region finds them. -/
theorem flushed2_eq (c : Dev nD) (t : Fin cfg2.N)
    (hx : ∀ i, ∃ r : ℝ, (V c main_v62 : FVec Ideal S10000x512 .f32) i = (r : EReal))
    (hw : ∀ i, ∃ r : ℝ, (V c main_arg13 : FVec Ideal S512x256 .f32) i = (r : EReal)) :
    (dat2 (F := Ideal) (U := U) V c).flushed 3 t
      = ((cfg2.win 3).blk t).view.read (Elt Ideal) (G2 (V c main_v62) (V c main_arg13) (V c main_v103)) := by
  show (cfg2.win 3).cut (grid2.coords t) ((dat2 (F := Ideal) (U := U) V c).after 3 t) = _
  rw [after2_3]
  unfold out2_3
  rw [View.canon_unit_zero off00]
  simp only [View.ld_unit_zero (S := S2000x512) off00, View.ld_unit_zero (S := S512x256) off00, View.ld_unit_zero (S := S1x256) off00]
  obtain ⟨e00, e01, e10, e11, e20, e21, e30, e31⟩ := idx_facts2 t
  have hx' : ∀ i, ∃ r : ℝ, (iblk2 V c 0 t : FVec Ideal S2000x512 .f32) i = (r : EReal) := fun i => by
    unfold iblk2; rw [View.read_apply]; exact hx _
  have hw' : ∀ i, ∃ r : ℝ, (iblk2 V c 1 t : FVec Ideal S512x256 .f32) i = (r : EReal) := fun i => by
    unfold iblk2; rw [View.read_apply]; exact hw _
  funext j
  obtain ⟨p, q, rfl⟩ : ∃ (p : Fin 2000) (q : Fin 256), j = ix2 p q := ⟨j 0, j 1, eq_ix2 j⟩
  show k2_pay1 (F := Ideal) (iblk2 V c 0 t) (iblk2 V c 1 t) (iblk2 V c 2 t) (ix2 p q)
      = G2 (V c main_v62) (V c main_arg13) (V c main_v103) (((cfg2.win 3).blk t).view.emb (ix2 p q))
  refine (payR2_apply _ _ _ hx' hw' p q).trans ?_
  -- the output block's index in the array
  have hO : ((cfg2.win 3).blk t).view.emb (ix2 p q) = ix2 (row2 t p) q := by
    funext a; apply Fin.ext
    match a with
    | ⟨0, _⟩ => show win2_3.index t (0 : Fin 2) * 2000 + 1 * p.val = 2000 * t.val + p.val; omega
    | ⟨1, _⟩ => show win2_3.index t (1 : Fin 2) * 256 + 1 * q.val = q.val; omega
  rw [hO, G2_apply]
  -- each input block read where the output's rectangle says
  have h0 : ∀ k : Fin 512, (iblk2 V c 0 t : FVec Ideal S2000x512 .f32) (ix2 p k) = (V c main_v62 : FVec Ideal S10000x512 .f32) (ix2 (row2 t p) k) := fun k => by
    unfold iblk2; rw [View.read_apply]
    show V c main_v62 _ = V c main_v62 _
    congr 1; funext a; apply Fin.ext
    match a with
    | ⟨0, _⟩ => show win2_0.index t (0 : Fin 2) * 2000 + 1 * p.val = 2000 * t.val + p.val; omega
    | ⟨1, _⟩ => show win2_0.index t (1 : Fin 2) * 512 + 1 * k.val = k.val; omega
  have h1 : ∀ k : Fin 512, (iblk2 V c 1 t : FVec Ideal S512x256 .f32) (ix2 k q) = (V c main_arg13 : FVec Ideal S512x256 .f32) (ix2 k q) := fun k => by
    unfold iblk2; rw [View.read_apply]
    show V c main_arg13 _ = V c main_arg13 _
    congr 1; funext a; apply Fin.ext
    match a with
    | ⟨0, _⟩ => show win2_1.index t (0 : Fin 2) * 512 + 1 * k.val = k.val; omega
    | ⟨1, _⟩ => show win2_1.index t (1 : Fin 2) * 256 + 1 * q.val = q.val; omega
  have h2 : (iblk2 V c 2 t : FVec Ideal S1x256 .f32) (ix2 (0 : Fin 1) q) = (V c main_v103 : FVec Ideal S1x256 .f32) (ix2 (0 : Fin 1) q) := by
    unfold iblk2; rw [View.read_apply]
    show V c main_v103 _ = V c main_v103 _
    congr 1; funext a; apply Fin.ext
    match a with
    | ⟨0, _⟩ => show win2_2.index t (0 : Fin 2) * 1 + 1 * (0 : Fin 1).val = (0 : Fin 1).val; omega
    | ⟨1, _⟩ => show win2_2.index t (1 : Fin 2) * 256 + 1 * q.val = q.val; omega
  rw [h2]
  exact congrArg (· + _) (Finset.sum_congr rfl fun k _ => by rw [h0 k, h1 k])

/-! ## The blocks cover the array -/

/-- An index of the array is in point t's block iff each coordinate is in the block's range on its axis. -/
theorem mem_blk2 (t : Fin cfg2.N) (i : S10000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v104).slice (win2_3.rect t)).set ↔ _
  rw [View.set_slice_whole, Rect.mem_set_unit]
  exact Iff.rfl

/-- Row r of the array lies in the block of the point r / 2000, which writes back (every point does). -/
theorem cover2 (i : S10000x256.Idx) : ∃ t : Fin cfg2.N, (cfg2.win 3).flush t = true ∧ i ∈ ((cfg2.win 3).blk t).view.set := by
  have hi0 : (i 0).val < 10000 := (i 0).isLt
  have hi1 : (i 1).val < 256 := (i 1).isLt
  have hN : cfg2.N = 5 := N_2
  let t : Fin cfg2.N := ⟨(i 0).val / 2000, by rw [hN]; omega⟩
  obtain ⟨-, -, -, -, -, -, e30, e31⟩ := idx_facts2 t
  have ht : t.val = (i 0).val / 2000 := rfl
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-! ## The array after the region -/

variable (Wpre : Dev nD → Valuation τ sig (Elt Ideal))

/-- The output array after region 2 IS G2 of the three arrays as the region finds them. -/
theorem fin2_eq (c : Dev nD)
    (hx : ∀ i, ∃ r : ℝ, (Vof Wpre c main_v62 : FVec Ideal S10000x512 .f32) i = (r : EReal))
    (hw : ∀ i, ∃ r : ℝ, (Vof Wpre c main_arg13 : FVec Ideal S512x256 .f32) i = (r : EReal)) :
    fin2 (F := Ideal) (U := U) Wpre c = G2 (Vof Wpre c main_v62) (Vof Wpre c main_arg13) (Vof Wpre c main_v103) := by
  unfold fin2
  exact (dat2 (F := Ideal) (U := U) (Vof Wpre) c).arrAt_eq_of_cover 3 _ (fun t _ => flushed2_eq (Vof Wpre) c t hx hw) cover2

/-- The three arrays region 2 reads, as the region finds them, at their literal shapes: x (main_v62), the weight
    matrix (main_arg13), the bias row (main_v103). -/
abbrev x2 (c : Dev nD) : FVec Ideal S10000x512 .f32 := Vof Wpre c main_v62
abbrev w2 (c : Dev nD) : FVec Ideal S512x256 .f32 := Vof Wpre c main_arg13
abbrev b2 (c : Dev nD) : FVec Ideal S1x256 .f32 := Vof Wpre c main_v103

/-- At (r, col): the sum over k of x(r, k) · w(k, col), plus b(0, col). -/
theorem fin2_apply (c : Dev nD)
    (hx : ∀ i, ∃ r : ℝ, x2 Wpre c i = (r : EReal)) (hw : ∀ i, ∃ r : ℝ, w2 Wpre c i = (r : EReal))
    (r : Fin 10000) (col : Fin 256) :
    (fin2 (F := Ideal) (U := U) Wpre c : FVec Ideal S10000x256 .f32) (ix2 r col)
      = (∑ k : Fin 512, x2 Wpre c (ix2 r k) * w2 Wpre c (ix2 k col)) + b2 Wpre c (ix2 (0 : Fin 1) col) := by
  rw [fin2_eq Wpre c hx hw]
  exact G2_apply _ _ _ r col

/-- info: 'Cert.KernelIdeal.Hand.fin2_apply' depends on axioms: [propext, Classical.choice, Quot.sound] -/
#guard_msgs in #print axioms fin2_apply

end Cert.KernelIdeal.Hand

end
-- ==== Proof.KI.Region2Out.lean ====
/-
  What region 2 leaves, from the launch memory and the twin branch's first-layer output.

  Region 2 multiplies the twin branch's first-layer output (the array main_v62, as the valuation region 2 is entered at
  holds it — no operation between region 1 and region 2 writes it) by the twin's second-layer weights, an argument of
  @main that is as launched, and adds a bias row that the host stretch just before it fills with zeros. So, for operands
  with real entries, its output array is the plain product.
-/
import proofs.«175488_j3908420240157_2_alg».proof.Proof.KI.Frame
import proofs.«175488_j3908420240157_2_alg».proof.Proof.KI.Value2

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-- The bias row region 2 reads: zeros, as one row of 256. -/
def zrow2 {F : FTy → Type} [FloatOps F] : (⟨S1x256, .f32⟩ : BufTy).Contents (Elt F) :=
  shapeCast _ ((broadcastInDim S256 ![] bcast_S_S256 : (⟨S_, .f32⟩ : BufTy).Contents (Elt F) → (⟨S256, .f32⟩ : BufTy).Contents (Elt F)) ((constant S_ .f32 0x00000000#32))) shapeCasts_S256_S1x256

/-- The stretch before region 2 leaves that row in main_v103, whatever the buffers held. -/
theorem read_v103 {F : FTy → Type} [FloatOps F] (P : Valuation τ sig (Elt F)) :
    StableHlo.after hostOps2_4 P (Proc.devRef .tc main_v103) = zrow2 := by
  after_results_simp <;> rfl

/-- Every entry of the row is zero on the extended reals. -/
theorem zrow2_apply (q : Fin 256) : (zrow2 (F := Ideal) : FVec Ideal S1x256 .f32) (ix2 (0 : Fin 1) q) = 0 := by
  unfold zrow2
  refine (shapeCast_apply _ _ _ (ix1 q) (by rw [Shape.rowMajor_val_one, Shape.rowMajor_val_two]; show q.val = 0 * 256 + q.val; omega)).trans ?_
  refine (broadcastInDim_apply _ _ _ (ix1 q) ix0 (fun a => a.elim0)).trans ?_
  exact Ideal.ofBits_zero_f32

variable (m : (ℓ : Loc nD τ sig) → Buf (Elt Ideal) ℓ)

/-- The bias row, at the valuation region 2 is entered at. -/
theorem W16_main_v103 (c : Dev nD) : W16 m (o0 m) (o1 m) c main_v103 = zrow2 := read_v103 (W15 m (o0 m) (o1 m) c)

/-- The twin's second-layer weights are as launched there. -/
theorem W16_main_arg13 (c : Dev nD) : W16 m (o0 m) (o1 m) c main_arg13 = m ((c : Thread nD τ).loc main_arg13) :=
  (W16_of m (o0 m) (o1 m) c main_arg13 (by decide)).trans <|
  (W15_of m (o0 m) (o1 m) c main_arg13 (by decide)).trans <|
  (W14_of m (o0 m) (o1 m) c main_arg13 (by decide)).trans <|
  (W13_of m (o0 m) (o1 m) c main_arg13 (by decide)).trans <|
  (W12_of m (o0 m) (o1 m) c main_arg13 (by decide)).trans <|
  (W11_of m (o0 m) (o1 m) c main_arg13 (by decide)).trans <|
  (W10_of m (o0 m) c main_arg13 (by decide)).trans <|
  (W9_of m (o0 m) c main_arg13 (by decide)).trans <|
  (W8_of m (o0 m) c main_arg13 (by decide)).trans <|
  (W7_of m (o0 m) c main_arg13 (by decide)).trans <|
  (W6_of m (o0 m) c main_arg13 (by decide)).trans <|
  (W5_of m (o0 m) c main_arg13 (by decide)).trans <|
  (W4_of m (o0 m) c main_arg13 (by decide)).trans <|
  (W3_of m (o0 m) c main_arg13 (by decide)).trans <|
  (W2_of m (o0 m) c main_arg13 (by decide)).trans <|
  (W1_of m c main_arg13 (by decide)).trans rfl

/-- The twin branch's first-layer output is, where region 2 is entered, what it was where region 1 was entered. -/
theorem W16_main_v62 (c : Dev nD) : W16 m (o0 m) (o1 m) c main_v62 = W10 m (o0 m) c main_v62 :=
  (W16_of m (o0 m) (o1 m) c main_v62 (by decide)).trans <|
  (W15_of m (o0 m) (o1 m) c main_v62 (by decide)).trans <|
  (W14_of m (o0 m) (o1 m) c main_v62 (by decide)).trans <|
  (W13_of m (o0 m) (o1 m) c main_v62 (by decide)).trans <|
  (W12_of m (o0 m) (o1 m) c main_v62 (by decide)).trans <|
  (W11_of m (o0 m) (o1 m) c main_v62 (by decide))

/-- The product with a zero bias row is the product: G2 at (r, col). -/
theorem G2_zrow_apply (x : FVec Ideal S10000x512 .f32) (w : FVec Ideal S512x256 .f32) (r : Fin 10000) (col : Fin 256) :
    G2 x w (zrow2 (F := Ideal)) (ix2 r col) = ∑ k : Fin 512, x (ix2 r k) * w (ix2 k col) := by
  rw [G2_apply, zrow2_apply, add_zero]

/-- Region 2's output array: the product of the twin's first-layer output, as region 2 finds it, with the layer's weights. -/
theorem o2_eq (c : Dev nD)
    (hreal : ∀ i, ∃ r : ℝ, (W16 m (o0 m) (o1 m) c main_v62 : FVec Ideal S10000x512 .f32) i = (r : EReal))
    (hW13 : ∀ i, ∃ r : ℝ, (m ((c : Thread nD τ).loc main_arg13) : FVec Ideal S512x256 .f32) i = (r : EReal)) :
    o2 m c = G2 (W16 m (o0 m) (o1 m) c main_v62) (m ((c : Thread nD τ).loc main_arg13)) (zrow2 (F := Ideal)) := by
  have hw : ∀ i, ∃ r : ℝ, (Vof (W16 m (o0 m) (o1 m)) c main_arg13 : FVec Ideal S512x256 .f32) i = (r : EReal) := by
    intro i
    show ∃ r : ℝ, (W16 m (o0 m) (o1 m) c main_arg13 : FVec Ideal S512x256 .f32) i = (r : EReal)
    rw [W16_main_arg13]; exact hW13 i
  show fin2 (U := UU nD τ) (W16 m (o0 m) (o1 m)) c = _
  refine (fin2_eq (U := UU nD τ) (W16 m (o0 m) (o1 m)) c hreal hw).trans ?_
  show G2 (W16 m (o0 m) (o1 m) c main_v62) (W16 m (o0 m) (o1 m) c main_arg13) (W16 m (o0 m) (o1 m) c main_v103) = _
  rw [W16_main_arg13, W16_main_v103]

end Cert.KernelIdeal.Hand

end
-- ==== Proof.Stage2u.lean ====
/-
  The second layer of the twin branch: the reference's result is the kernel's.

  The twin branch's second layer is the first branch's with the twin's first-layer output, weights and bias. The
  reference multiplies by the weights on the host where the kernel's region 2 computes the same product block by block in
  three passes — equal on operands with real entries, the region's bias row being zero — and it gathers the product's
  rows and then scales each by the gathered factor where the kernel scales first and gathers afterwards — equal because
  both read the same row of the same table. Everything else is the same term of the same arguments.
-/
import proofs.«175488_j3908420240157_2_alg».proof.Proof.Stage2v
import proofs.«175488_j3908420240157_2_alg».proof.Proof.RefLayer3
import proofs.«175488_j3908420240157_2_alg».proof.Proof.KI.Layer3Chain
import proofs.«175488_j3908420240157_2_alg».proof.Proof.KI.Region2Out

set_option maxRecDepth 65536

noncomputable section

open scoped BigOperators

namespace Cert.Proof.Parts

open Idealize.ShloMosaic Idealize.ShloMosaic.TcCoe Idealize.SL.Sem Idealize.ShloMosaic.ValueIdx

/-- The host's product is region 2's product with its zero bias row. -/
theorem dot_eq_G2 (X : FVec Ideal ⟨2, ![10000, 512]⟩ .f32) (W : FVec Ideal ⟨2, ![512, 256]⟩ .f32) :
    Host.dotGeneral (F := Ideal) Cert.ReferenceIdeal.dot_S10000x512_S512x256_S10000x256_1_0_0_1_n_n none X W = Cert.KernelIdeal.Hand.G2 X W (Cert.KernelIdeal.Hand.zrow2 (F := Ideal)) := by
  funext j
  obtain ⟨r, col, rfl⟩ : ∃ (r : Fin 10000) (col : Fin 256), j = ix2 r col := ⟨j 0, j 1, eq_ix2 j⟩
  rw [Cert.MatProd.hostDot_apply _ rfl rfl (fun _ _ => rfl) (fun _ _ => rfl) (fun _ _ => rfl) (fun _ _ => rfl) X W (ix2 r col),
    Cert.KernelIdeal.Hand.G2_zrow_apply]
  rfl

/-- The twin's second layer: from the twin's first-layer outputs agreeing, the second layer's results agree. -/
theorem u1_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (hagree : Agree m m') (c : Dev Cert.KernelIdeal.nD)
    (h1 : StableHlo.after (Cert.ReferenceIdeal.OpsP.ops (F := Ideal)) (StableHlo.launchContents m' c) (Proc.devRef .tc Cert.ReferenceIdeal.main_v133) = Cert.KernelIdeal.Hand.W10 m (Cert.KernelIdeal.Hand.o0 m) c Cert.KernelIdeal.main_v62)
    (hreal : ∀ i, ∃ r : ℝ, (Cert.KernelIdeal.Hand.W10 m (Cert.KernelIdeal.Hand.o0 m) c Cert.KernelIdeal.main_v62 : FVec Ideal Cert.KernelIdeal.S10000x512 .f32) i = (r : EReal)) :
    StableHlo.after (Cert.ReferenceIdeal.OpsP.ops (F := Ideal)) (StableHlo.launchContents m' c) (Proc.devRef .tc Cert.ReferenceIdeal.main_v177) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v140 := by
  obtain ⟨-, a1, a2, -, -, -, -, -, -, -, -, -, -, a13, a14, -, -, -, -, -, -⟩ := hagree c
  have hW13 := pre_real_arg13 m hpre c
  have hreal16 : ∀ i, ∃ r : ℝ, (Cert.KernelIdeal.Hand.W16 m (Cert.KernelIdeal.Hand.o0 m) (Cert.KernelIdeal.Hand.o1 m) c Cert.KernelIdeal.main_v62 : FVec Ideal Cert.KernelIdeal.S10000x512 .f32) i = (r : EReal) := by
    rw [Cert.KernelIdeal.Hand.W16_main_v62]; exact hreal
  refine (ref_main_v177 m' c).trans ?_
  refine Eq.trans ?_ (Cert.KernelIdeal.Hand.W32_main_v140 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c).symm
  rw [h1, a1, a2, a13, a14, Cert.KernelIdeal.Hand.o2_eq m c hreal16 hW13, Cert.KernelIdeal.Hand.W16_main_v62, innerR_eq_innerK, dot_eq_G2]
  rfl

/-- info: 'Cert.Proof.Parts.u1_agree' depends on axioms: [propext, Classical.choice, Quot.sound] -/
#guard_msgs in #print axioms u1_agree

end Cert.Proof.Parts

end
-- ==== Proof.KI.RealV1.lean ====
/-
  The second layer's result of the first branch has real entries.

  Region 1's output is, entry by entry, a finite sum of products of the first layer's output (real entries) and the second
  layer's weights (real by the precondition), plus a zero bias entry. The program's host operations then scale its rows by
  the source-side factors, gather them along the edges, sum them into their destination rows, scale by the
  destination-side factors and add the bias: every step keeps real entries, whatever the index arrays hold — the factors
  are a selection between a real power of a degree (ones scattered into zeros) and zero.
-/
import proofs.«175488_j3908420240157_2_alg».proof.Proof.KI.RealH0
import proofs.«175488_j3908420240157_2_alg».proof.Proof.KI.Region1Out
import proofs.«175488_j3908420240157_2_alg».proof.Proof.KI.Layer2Chain

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Lib.RealClosure

/-! ## The four pieces of the aggregation keep real entries -/

/-- The source-side factors are reals, whatever the index array. -/
theorem nsK_real (a1 : IVec S320000 32) : ∀ i : S10000.Idx, ∃ r : ℝ, (nsK (F := Ideal) a1 : FVec Ideal S10000 .f32) i = (r : EReal) := by
  unfold nsK
  exact select_real _ (hostPowf_real (hostScatterAdd_real _ _ (broadcastInDim_real _ _ (constant_zero_real _)) (broadcastInDim_real _ _ (constant_real _ _ _ (isReal_ofBits_f32 _ (by decide))))) (broadcastInDim_real _ _ (constant_real _ _ _ (isReal_ofBits_f32 _ (by decide)))))
    (broadcastInDim_real _ _ (constant_zero_real _))

/-- The destination-side factors likewise. -/
theorem ndK_real (a2 : IVec S320000 32) : ∀ i : S10000.Idx, ∃ r : ℝ, (ndK (F := Ideal) a2 : FVec Ideal S10000 .f32) i = (r : EReal) := by
  unfold ndK
  exact select_real _ (hostPowf_real (hostScatterAdd_real _ _ (broadcastInDim_real _ _ (constant_zero_real _)) (broadcastInDim_real _ _ (constant_real _ _ _ (isReal_ofBits_f32 _ (by decide))))) (broadcastInDim_real _ _ (constant_real _ _ _ (isReal_ofBits_f32 _ (by decide)))))
    (broadcastInDim_real _ _ (constant_zero_real _))

/-- Scaled rows gathered along the edges: real entries when the rows and the factors are. -/
theorem innerK_real (H : FVec Ideal S10000x256 .f32) (ns : FVec Ideal S10000 .f32) (a1 : IVec S320000 32)
    (hH : ∀ i : S10000x256.Idx, ∃ r : ℝ, H i = (r : EReal)) (hns : ∀ i : S10000.Idx, ∃ r : ℝ, ns i = (r : EReal)) :
    ∀ i : S320000x256.Idx, ∃ r : ℝ, (innerK (F := Ideal) H ns a1 : FVec Ideal S320000x256 .f32) i = (r : EReal) := by
  unfold innerK
  exact hostGather_real _ _ (mulf_real hH (broadcastInDim_real _ _ (broadcastInDim_real _ _ hns)))

/-- The gathered rows summed at the targets, scaled, and the bias added: real entries when the three operands' are. -/
theorem outerK_real (I : FVec Ideal S320000x256 .f32) (nd : FVec Ideal S10000 .f32) (a2 : IVec S320000 32) (b : FVec Ideal S256 .f32)
    (hI : ∀ i : S320000x256.Idx, ∃ r : ℝ, I i = (r : EReal)) (hnd : ∀ i : S10000.Idx, ∃ r : ℝ, nd i = (r : EReal))
    (hb : ∀ i : S256.Idx, ∃ r : ℝ, b i = (r : EReal)) :
    ∀ i : S10000x256.Idx, ∃ r : ℝ, (outerK (F := Ideal) I nd a2 b : FVec Ideal S10000x256 .f32) i = (r : EReal) := by
  unfold outerK
  exact addf_real
    (mulf_real (hostScatterAdd_real _ _ (broadcastInDim_real _ _ (constant_zero_real _)) hI)
      (broadcastInDim_real _ _ (broadcastInDim_real _ _ hnd)))
    (broadcastInDim_real _ _ (broadcastInDim_real _ _ hb))

variable (m : (ℓ : Loc nD τ sig) → Buf (Elt Ideal) ℓ) (hpre : Cert.Pre_KernelIdeal m) (c : Dev nD)

include hpre in
/-- Region 1's output array has real entries. -/
theorem o1_real : ∀ i : S10000x256.Idx, ∃ r : ℝ, (o1 m c : FVec Ideal S10000x256 .f32) i = (r : EReal) := fun i => by
  have hx := h0v_real m hpre c
  have hw : ∀ i, ∃ r : ℝ, (m ((c : Thread nD τ).loc main_arg9) : FVec Ideal S512x256 .f32) i = (r : EReal) :=
    Cert.Proof.Parts.pre_real_arg9 m hpre c
  obtain ⟨r, col, rfl⟩ : ∃ (r : Fin 10000) (col : Fin 256), i = ix2 r col := ⟨i 0, i 1, eq_ix2 i⟩
  rw [o1_eq m c hx hw, G1_zrow_apply]
  exact isReal_sum _ _ fun k _ => isReal_mul (hx _) (hw _)

include hpre in
/-- THE SECOND LAYER'S RESULT of the first branch, at the end of the chain: every entry is a real. -/
theorem v1_real : ∀ i : S10000x256.Idx, ∃ r : ℝ,
    (W32 m (o0 m) (o1 m) (o2 m) (o3 m) (o4 m) (o5 m) (o6 m) (o7 m) c main_v101 : FVec Ideal S10000x256 .f32) i = (r : EReal) := by
  rw [W32_main_v101]
  exact outerK_real _ _ _ _ (innerK_real _ _ _ (o1_real m hpre c) (nsK_real _)) (ndK_real _) (Cert.Proof.Parts.pre_real_arg10 m hpre c)

end Cert.KernelIdeal.Hand

end
-- ==== Proof.KI.RealU1.lean ====
/-
  The second layer's result of the twin branch has real entries.

  Region 2's output is, entry by entry, a finite sum of products of the twin branch's first-layer output (real entries;
  no operation between region 1 and region 2 touches it) and the twin's second-layer weights (real by the precondition),
  plus a zero bias entry. The host operations then take it through the same aggregation as the first branch's, every
  step of which keeps real entries.
-/
import proofs.«175488_j3908420240157_2_alg».proof.Proof.KI.RealV1
import proofs.«175488_j3908420240157_2_alg».proof.Proof.KI.Region2Out
import proofs.«175488_j3908420240157_2_alg».proof.Proof.KI.Layer3Chain

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Lib.RealClosure

variable (m : (ℓ : Loc nD τ sig) → Buf (Elt Ideal) ℓ) (hpre : Cert.Pre_KernelIdeal m) (c : Dev nD)

include hpre in
/-- The twin branch's first-layer output, as region 2 finds it: real entries. -/
theorem h0u_real16 : ∀ i : S10000x512.Idx, ∃ r : ℝ, (W16 m (o0 m) (o1 m) c main_v62 : FVec Ideal S10000x512 .f32) i = (r : EReal) := by
  rw [W16_main_v62]
  exact h0u_real m hpre c

include hpre in
/-- Region 2's output array has real entries. -/
theorem o2_real : ∀ i : S10000x256.Idx, ∃ r : ℝ, (o2 m c : FVec Ideal S10000x256 .f32) i = (r : EReal) := fun i => by
  have hx := h0u_real16 m hpre c
  have hw : ∀ i, ∃ r : ℝ, (m ((c : Thread nD τ).loc main_arg13) : FVec Ideal S512x256 .f32) i = (r : EReal) :=
    Cert.Proof.Parts.pre_real_arg13 m hpre c
  obtain ⟨r, col, rfl⟩ : ∃ (r : Fin 10000) (col : Fin 256), i = ix2 r col := ⟨i 0, i 1, eq_ix2 i⟩
  rw [o2_eq m c hx hw, G2_zrow_apply]
  exact isReal_sum _ _ fun k _ => isReal_mul (hx _) (hw _)

include hpre in
/-- THE SECOND LAYER'S RESULT of the twin branch, at the end of the chain: every entry is a real. -/
theorem u1_real : ∀ i : S10000x256.Idx, ∃ r : ℝ,
    (W32 m (o0 m) (o1 m) (o2 m) (o3 m) (o4 m) (o5 m) (o6 m) (o7 m) c main_v140 : FVec Ideal S10000x256 .f32) i = (r : EReal) := by
  rw [W32_main_v140]
  exact outerK_real _ _ _ _ (innerK_real _ _ _ (o2_real m hpre c) (nsK_real _)) (ndK_real _) (Cert.Proof.Parts.pre_real_arg14 m hpre c)

end Cert.KernelIdeal.Hand

end
-- ==== Proof.KI.LossK.lean ====
/-
  The first contrastive loss on the kernel's side: the host's part, before and after region 4.

  From the two encoders' outputs v and u, the projected queries q_lin and the temperature, the host forms the positive
  similarities along the edges (sim), their per-target sums (denom, pos), and the row-normalized arrays z, stu and
  q' = z / temperature that region 4 reads; after region 4 it gathers the region's row sums along the edges' targets,
  adds exp(sim), takes logarithms, sums them per target, and averages. This module names those pieces as functions of
  what they read and reads the two stretches of host operations at each of them, from any contents of the buffers.
-/
import proofs.«175488_j3908420240157_2_alg».proof.Proof.KI.Chain

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The similarities along the edges: the normalized query row at an edge's target times the normalized u row at its
    source, over the temperature. -/
def simK (u qlin : (⟨S10000x256, .f32⟩ : BufTy).Contents (Elt F)) (tau : (⟨S_, .f32⟩ : BufTy).Contents (Elt F)) (src dst : (⟨S320000, .i32⟩ : BufTy).Contents (Elt F)) : (⟨S320000, .f32⟩ : BufTy).Contents (Elt F) :=
  (Host.divf : (⟨S320000, .f32⟩ : BufTy).Contents (Elt F) → (⟨S320000, .f32⟩ : BufTy).Contents (Elt F) → (⟨S320000, .f32⟩ : BufTy).Contents (Elt F)) (((fun x v => Host.reduceAdd x v reducesTo_S320000x256_S320000_d1 h_S_) : (⟨S320000x256, .f32⟩ : BufTy).Contents (Elt F) → (⟨S_, .f32⟩ : BufTy).Contents (Elt F) → (⟨S320000, .f32⟩ : BufTy).Contents (Elt F)) ((mulf : (⟨S320000x256, .f32⟩ : BufTy).Contents (Elt F) → (⟨S320000x256, .f32⟩ : BufTy).Contents (Elt F) → (⟨S320000x256, .f32⟩ : BufTy).Contents (Elt F)) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) ((Host.divf : (⟨S10000x256, .f32⟩ : BufTy).Contents (Elt F) → (⟨S10000x256, .f32⟩ : BufTy).Contents (Elt F) → (⟨S10000x256, .f32⟩ : BufTy).Contents (Elt F)) (u) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (u) (u)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (src) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (src) ((broadcastInDim S320000 ![] bcast_S_S320000 : (⟨S_, .i32⟩ : BufTy).Contents (Elt F) → (⟨S320000, .i32⟩ : BufTy).Contents (Elt F)) ((constantI S_ 32 10000#32)))) (src)))) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) ((Host.divf : (⟨S10000x256, .f32⟩ : BufTy).Contents (Elt F) → (⟨S10000x256, .f32⟩ : BufTy).Contents (Elt F) → (⟨S10000x256, .f32⟩ : BufTy).Contents (Elt F)) (qlin) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (qlin) (qlin)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (dst) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (dst) ((broadcastInDim S320000 ![] bcast_S_S320000 : (⟨S_, .i32⟩ : BufTy).Contents (Elt F) → (⟨S320000, .i32⟩ : BufTy).Contents (Elt F)) ((constantI S_ 32 10000#32)))) (dst))))) ((constant S_ .f32 0x00000000#32))) ((broadcastInDim S320000 ![] bcast_S_S320000 : (⟨S_, .f32⟩ : BufTy).Contents (Elt F) → (⟨S320000, .f32⟩ : BufTy).Contents (Elt F)) (tau))

/-- The number of edges entering each node, at least one. -/
def denomK (dst : (⟨S320000, .i32⟩ : BufTy).Contents (Elt F)) : (⟨S10000, .f32⟩ : BufTy).Contents (Elt F) :=
  (maximumf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (dst)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0x3F800000#32)))

/-- The mean positive similarity per target node. -/
def posK (u qlin : (⟨S10000x256, .f32⟩ : BufTy).Contents (Elt F)) (tau : (⟨S_, .f32⟩ : BufTy).Contents (Elt F)) (src dst : (⟨S320000, .i32⟩ : BufTy).Contents (Elt F)) : (⟨S10000, .f32⟩ : BufTy).Contents (Elt F) :=
  (Host.divf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (dst)) ((Host.divf : (⟨S320000, .f32⟩ : BufTy).Contents (Elt F) → (⟨S320000, .f32⟩ : BufTy).Contents (Elt F) → (⟨S320000, .f32⟩ : BufTy).Contents (Elt F)) (((fun x v => Host.reduceAdd x v reducesTo_S320000x256_S320000_d1 h_S_) : (⟨S320000x256, .f32⟩ : BufTy).Contents (Elt F) → (⟨S_, .f32⟩ : BufTy).Contents (Elt F) → (⟨S320000, .f32⟩ : BufTy).Contents (Elt F)) ((mulf : (⟨S320000x256, .f32⟩ : BufTy).Contents (Elt F) → (⟨S320000x256, .f32⟩ : BufTy).Contents (Elt F) → (⟨S320000x256, .f32⟩ : BufTy).Contents (Elt F)) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) ((Host.divf : (⟨S10000x256, .f32⟩ : BufTy).Contents (Elt F) → (⟨S10000x256, .f32⟩ : BufTy).Contents (Elt F) → (⟨S10000x256, .f32⟩ : BufTy).Contents (Elt F)) (u) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (u) (u)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (src) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (src) ((broadcastInDim S320000 ![] bcast_S_S320000 : (⟨S_, .i32⟩ : BufTy).Contents (Elt F) → (⟨S320000, .i32⟩ : BufTy).Contents (Elt F)) ((constantI S_ 32 10000#32)))) (src)))) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) ((Host.divf : (⟨S10000x256, .f32⟩ : BufTy).Contents (Elt F) → (⟨S10000x256, .f32⟩ : BufTy).Contents (Elt F) → (⟨S10000x256, .f32⟩ : BufTy).Contents (Elt F)) (qlin) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (qlin) (qlin)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (dst) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (dst) ((broadcastInDim S320000 ![] bcast_S_S320000 : (⟨S_, .i32⟩ : BufTy).Contents (Elt F) → (⟨S320000, .i32⟩ : BufTy).Contents (Elt F)) ((constantI S_ 32 10000#32)))) (dst))))) ((constant S_ .f32 0x00000000#32))) ((broadcastInDim S320000 ![] bcast_S_S320000 : (⟨S_, .f32⟩ : BufTy).Contents (Elt F) → (⟨S320000, .f32⟩ : BufTy).Contents (Elt F)) (tau)))) ((maximumf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (dst)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0x3F800000#32))))

/-- The rows of v divided by their norms (bounded below). -/
def zK (v : (⟨S10000x256, .f32⟩ : BufTy).Contents (Elt F)) : (⟨S10000x256, .f32⟩ : BufTy).Contents (Elt F) :=
  (Host.divf : (⟨S10000x256, .f32⟩ : BufTy).Contents (Elt F) → (⟨S10000x256, .f32⟩ : BufTy).Contents (Elt F) → (⟨S10000x256, .f32⟩ : BufTy).Contents (Elt F)) (v) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (v) (v)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))

/-- The rows of u divided by their norms. -/
def stuK (u : (⟨S10000x256, .f32⟩ : BufTy).Contents (Elt F)) : (⟨S10000x256, .f32⟩ : BufTy).Contents (Elt F) :=
  (Host.divf : (⟨S10000x256, .f32⟩ : BufTy).Contents (Elt F) → (⟨S10000x256, .f32⟩ : BufTy).Contents (Elt F) → (⟨S10000x256, .f32⟩ : BufTy).Contents (Elt F)) (u) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (u) (u)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))

/-- The normalized rows of v over the temperature: what region 4 takes as its queries. -/
def qpK (v : (⟨S10000x256, .f32⟩ : BufTy).Contents (Elt F)) (tau : (⟨S_, .f32⟩ : BufTy).Contents (Elt F)) : (⟨S10000x256, .f32⟩ : BufTy).Contents (Elt F) :=
  (Host.divf : (⟨S10000x256, .f32⟩ : BufTy).Contents (Elt F) → (⟨S10000x256, .f32⟩ : BufTy).Contents (Elt F) → (⟨S10000x256, .f32⟩ : BufTy).Contents (Elt F)) ((Host.divf : (⟨S10000x256, .f32⟩ : BufTy).Contents (Elt F) → (⟨S10000x256, .f32⟩ : BufTy).Contents (Elt F) → (⟨S10000x256, .f32⟩ : BufTy).Contents (Elt F)) (v) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (v) (v)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))) ((broadcastInDim S10000x256 ![] bcast_S_S10000x256 : (⟨S_, .f32⟩ : BufTy).Contents (Elt F) → (⟨S10000x256, .f32⟩ : BufTy).Contents (Elt F)) (tau))

/-- The loss from the negative row sums, the similarities, their counts and the positive part. -/
def lossK (negsim : (⟨S10000, .f32⟩ : BufTy).Contents (Elt F)) (sim : (⟨S320000, .f32⟩ : BufTy).Contents (Elt F)) (denom : (⟨S10000, .f32⟩ : BufTy).Contents (Elt F)) (pos : (⟨S10000, .f32⟩ : BufTy).Contents (Elt F)) (dst : (⟨S320000, .i32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (((fun x v => Host.reduceAdd x v reducesTo_S10000_S_d0 h_S_) : (⟨S10000, .f32⟩ : BufTy).Contents (Elt F) → (⟨S_, .f32⟩ : BufTy).Contents (Elt F) → (⟨S_, .f32⟩ : BufTy).Contents (Elt F)) ((addf : (⟨S10000, .f32⟩ : BufTy).Contents (Elt F) → (⟨S10000, .f32⟩ : BufTy).Contents (Elt F) → (⟨S10000, .f32⟩ : BufTy).Contents (Elt F)) ((Host.negf : (⟨S10000, .f32⟩ : BufTy).Contents (Elt F) → (⟨S10000, .f32⟩ : BufTy).Contents (Elt F)) (pos)) ((Host.divf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (dst)) ((Host.log : (⟨S320000, .f32⟩ : BufTy).Contents (Elt F) → (⟨S320000, .f32⟩ : BufTy).Contents (Elt F)) ((addf : (⟨S320000, .f32⟩ : BufTy).Contents (Elt F) → (⟨S320000, .f32⟩ : BufTy).Contents (Elt F) → (⟨S320000, .f32⟩ : BufTy).Contents (Elt F)) (((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)) (negsim) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (dst) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (dst) ((broadcastInDim S320000 ![] bcast_S_S320000 : (⟨S_, .i32⟩ : BufTy).Contents (Elt F) → (⟨S320000, .i32⟩ : BufTy).Contents (Elt F)) ((constantI S_ 32 10000#32)))) (dst)))) ((Host.exp : (⟨S320000, .f32⟩ : BufTy).Contents (Elt F) → (⟨S320000, .f32⟩ : BufTy).Contents (Elt F)) (sim))))) (denom))) ((constant S_ .f32 0x00000000#32))) ((constant S_ .f32 0x461C4000#32))

set_option maxHeartbeats 0 in
theorem read4_sim (P : Valuation τ sig (Elt F)) : StableHlo.after hostOps4 P (Proc.devRef .tc main_v176)
    = simK (P (Proc.devRef .tc main_v140)) (P (Proc.devRef .tc main_v142)) (P (Proc.devRef .tc main_arg5)) (P (Proc.devRef .tc main_arg3)) (P (Proc.devRef .tc main_arg4)) := by
  after_results_simp <;> rfl

set_option maxHeartbeats 0 in
theorem read4_denom (P : Valuation τ sig (Elt F)) : StableHlo.after hostOps4 P (Proc.devRef .tc main_v182)
    = denomK (P (Proc.devRef .tc main_arg4)) := by
  after_results_simp <;> rfl

set_option maxHeartbeats 0 in
theorem read4_pos (P : Valuation τ sig (Elt F)) : StableHlo.after hostOps4 P (Proc.devRef .tc main_v186)
    = posK (P (Proc.devRef .tc main_v140)) (P (Proc.devRef .tc main_v142)) (P (Proc.devRef .tc main_arg5)) (P (Proc.devRef .tc main_arg3)) (P (Proc.devRef .tc main_arg4)) := by
  after_results_simp <;> rfl

set_option maxHeartbeats 0 in
theorem read4_z (P : Valuation τ sig (Elt F)) : StableHlo.after hostOps4 P (Proc.devRef .tc main_v194)
    = zK (P (Proc.devRef .tc main_v101)) := by
  after_results_simp <;> rfl

set_option maxHeartbeats 0 in
theorem read4_stu (P : Valuation τ sig (Elt F)) : StableHlo.after hostOps4 P (Proc.devRef .tc main_v202)
    = stuK (P (Proc.devRef .tc main_v140)) := by
  after_results_simp <;> rfl

set_option maxHeartbeats 0 in
theorem read4_qp (P : Valuation τ sig (Elt F)) : StableHlo.after hostOps4 P (Proc.devRef .tc main_v204)
    = qpK (P (Proc.devRef .tc main_v101)) (P (Proc.devRef .tc main_arg5)) := by
  after_results_simp <;> rfl

set_option maxHeartbeats 0 in
theorem read5_loss (P : Valuation τ sig (Elt F)) : StableHlo.after hostOps5 P (Proc.devRef .tc main_v224)
    = lossK (shapeCast _ (P (Proc.devRef .tc main_v205)) shapeCasts_S10000x1_S10000) (P (Proc.devRef .tc main_v176)) (P (Proc.devRef .tc main_v182)) (P (Proc.devRef .tc main_v186)) (P (Proc.devRef .tc main_arg4)) := by
  after_results_simp <;> rfl

end Cert.KernelIdeal.Hand

end
-- ==== Proof.KI.LossChain.lean ====
/-
  The first loss along the chain of valuations: what the valuation after the stretch following region 4 holds at the
  loss, and what the valuation region 4 is entered at holds at the three arrays the region reads, from region 3's and
  region 4's outputs, the two second-layer results as the stretch before region 4 finds them, and the launch memory.
-/
import proofs.«175488_j3908420240157_2_alg».proof.Proof.KI.LossK

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)
  (o0 : (c : Dev nD) → Buf (Elt F) ((c : Thread nD τ).loc main_v3))
  (o1 : (c : Dev nD) → Buf (Elt F) ((c : Thread nD τ).loc main_v65))
  (o2 : (c : Dev nD) → Buf (Elt F) ((c : Thread nD τ).loc main_v104))
  (o3 : (c : Dev nD) → Buf (Elt F) ((c : Thread nD τ).loc main_v142))
  (o4 : (c : Dev nD) → Buf (Elt F) ((c : Thread nD τ).loc main_v205))
  (o5 : (c : Dev nD) → Buf (Elt F) ((c : Thread nD τ).loc main_v228))
  (o6 : (c : Dev nD) → Buf (Elt F) ((c : Thread nD τ).loc main_v232))
  (o7 : (c : Dev nD) → Buf (Elt F) ((c : Thread nD τ).loc main_v295))

/-- Region 3's output array, where region 3 leaves it. -/
theorem W23_main_v142 (c : Dev nD) : W23 m o0 o1 o2 o3 c main_v142 = o3 c := by simp only [W23, Function.update_self]
/-- Region 4's output array, where region 4 leaves it. -/
theorem W25_main_v205 (c : Dev nD) : W25 m o0 o1 o2 o3 o4 c main_v205 = o4 c := by simp only [W25, Function.update_self]

/-- The temperature, the edges' sources and targets are as launched when the stretch before region 4 begins. -/
theorem W23_main_arg5 (c : Dev nD) : W23 m o0 o1 o2 o3 c main_arg5 = m ((c : Thread nD τ).loc main_arg5) :=
  (W23_of m o0 o1 o2 o3 c main_arg5 (by decide)).trans <|
  (W22_of m o0 o1 o2 c main_arg5 (by decide)).trans <|
  (W21_of m o0 o1 o2 c main_arg5 (by decide)).trans <|
  (W20_of m o0 o1 o2 c main_arg5 (by decide)).trans <|
  (W19_of m o0 o1 o2 c main_arg5 (by decide)).trans <|
  (W18_of m o0 o1 o2 c main_arg5 (by decide)).trans <|
  (W17_of m o0 o1 o2 c main_arg5 (by decide)).trans <|
  (W16_of m o0 o1 c main_arg5 (by decide)).trans <|
  (W15_of m o0 o1 c main_arg5 (by decide)).trans <|
  (W14_of m o0 o1 c main_arg5 (by decide)).trans <|
  (W13_of m o0 o1 c main_arg5 (by decide)).trans <|
  (W12_of m o0 o1 c main_arg5 (by decide)).trans <|
  (W11_of m o0 o1 c main_arg5 (by decide)).trans <|
  (W10_of m o0 c main_arg5 (by decide)).trans <|
  (W9_of m o0 c main_arg5 (by decide)).trans <|
  (W8_of m o0 c main_arg5 (by decide)).trans <|
  (W7_of m o0 c main_arg5 (by decide)).trans <|
  (W6_of m o0 c main_arg5 (by decide)).trans <|
  (W5_of m o0 c main_arg5 (by decide)).trans <|
  (W4_of m o0 c main_arg5 (by decide)).trans <|
  (W3_of m o0 c main_arg5 (by decide)).trans <|
  (W2_of m o0 c main_arg5 (by decide)).trans <|
  (W1_of m c main_arg5 (by decide)).trans rfl
theorem W23_main_arg3 (c : Dev nD) : W23 m o0 o1 o2 o3 c main_arg3 = m ((c : Thread nD τ).loc main_arg3) :=
  (W23_of m o0 o1 o2 o3 c main_arg3 (by decide)).trans <|
  (W22_of m o0 o1 o2 c main_arg3 (by decide)).trans <|
  (W21_of m o0 o1 o2 c main_arg3 (by decide)).trans <|
  (W20_of m o0 o1 o2 c main_arg3 (by decide)).trans <|
  (W19_of m o0 o1 o2 c main_arg3 (by decide)).trans <|
  (W18_of m o0 o1 o2 c main_arg3 (by decide)).trans <|
  (W17_of m o0 o1 o2 c main_arg3 (by decide)).trans <|
  (W16_of m o0 o1 c main_arg3 (by decide)).trans <|
  (W15_of m o0 o1 c main_arg3 (by decide)).trans <|
  (W14_of m o0 o1 c main_arg3 (by decide)).trans <|
  (W13_of m o0 o1 c main_arg3 (by decide)).trans <|
  (W12_of m o0 o1 c main_arg3 (by decide)).trans <|
  (W11_of m o0 o1 c main_arg3 (by decide)).trans <|
  (W10_of m o0 c main_arg3 (by decide)).trans <|
  (W9_of m o0 c main_arg3 (by decide)).trans <|
  (W8_of m o0 c main_arg3 (by decide)).trans <|
  (W7_of m o0 c main_arg3 (by decide)).trans <|
  (W6_of m o0 c main_arg3 (by decide)).trans <|
  (W5_of m o0 c main_arg3 (by decide)).trans <|
  (W4_of m o0 c main_arg3 (by decide)).trans <|
  (W3_of m o0 c main_arg3 (by decide)).trans <|
  (W2_of m o0 c main_arg3 (by decide)).trans <|
  (W1_of m c main_arg3 (by decide)).trans rfl
theorem W23_main_arg4 (c : Dev nD) : W23 m o0 o1 o2 o3 c main_arg4 = m ((c : Thread nD τ).loc main_arg4) :=
  (W23_of m o0 o1 o2 o3 c main_arg4 (by decide)).trans <|
  (W22_of m o0 o1 o2 c main_arg4 (by decide)).trans <|
  (W21_of m o0 o1 o2 c main_arg4 (by decide)).trans <|
  (W20_of m o0 o1 o2 c main_arg4 (by decide)).trans <|
  (W19_of m o0 o1 o2 c main_arg4 (by decide)).trans <|
  (W18_of m o0 o1 o2 c main_arg4 (by decide)).trans <|
  (W17_of m o0 o1 o2 c main_arg4 (by decide)).trans <|
  (W16_of m o0 o1 c main_arg4 (by decide)).trans <|
  (W15_of m o0 o1 c main_arg4 (by decide)).trans <|
  (W14_of m o0 o1 c main_arg4 (by decide)).trans <|
  (W13_of m o0 o1 c main_arg4 (by decide)).trans <|
  (W12_of m o0 o1 c main_arg4 (by decide)).trans <|
  (W11_of m o0 o1 c main_arg4 (by decide)).trans <|
  (W10_of m o0 c main_arg4 (by decide)).trans <|
  (W9_of m o0 c main_arg4 (by decide)).trans <|
  (W8_of m o0 c main_arg4 (by decide)).trans <|
  (W7_of m o0 c main_arg4 (by decide)).trans <|
  (W6_of m o0 c main_arg4 (by decide)).trans <|
  (W5_of m o0 c main_arg4 (by decide)).trans <|
  (W4_of m o0 c main_arg4 (by decide)).trans <|
  (W3_of m o0 c main_arg4 (by decide)).trans <|
  (W2_of m o0 c main_arg4 (by decide)).trans <|
  (W1_of m c main_arg4 (by decide)).trans rfl

/-- The two second-layer results are, at the end of the chain, what the stretch before region 4 finds. -/
theorem W32_main_v101_W23 (c : Dev nD) : W32 m o0 o1 o2 o3 o4 o5 o6 o7 c main_v101 = W23 m o0 o1 o2 o3 c main_v101 :=
  (W32_of m o0 o1 o2 o3 o4 o5 o6 o7 c main_v101 (by decide)).trans <|
  (W31_of m o0 o1 o2 o3 o4 o5 o6 o7 c main_v101 (by decide)).trans <|
  (W30_of m o0 o1 o2 o3 o4 o5 o6 c main_v101 (by decide)).trans <|
  (W29_of m o0 o1 o2 o3 o4 o5 o6 c main_v101 (by decide)).trans <|
  (W28_of m o0 o1 o2 o3 o4 o5 c main_v101 (by decide)).trans <|
  (W27_of m o0 o1 o2 o3 o4 o5 c main_v101 (by decide)).trans <|
  (W26_of m o0 o1 o2 o3 o4 c main_v101 (by decide)).trans <|
  (W25_of m o0 o1 o2 o3 o4 c main_v101 (by decide)).trans <|
  (W24_of m o0 o1 o2 o3 c main_v101 (by decide))
theorem W32_main_v140_W23 (c : Dev nD) : W32 m o0 o1 o2 o3 o4 o5 o6 o7 c main_v140 = W23 m o0 o1 o2 o3 c main_v140 :=
  (W32_of m o0 o1 o2 o3 o4 o5 o6 o7 c main_v140 (by decide)).trans <|
  (W31_of m o0 o1 o2 o3 o4 o5 o6 o7 c main_v140 (by decide)).trans <|
  (W30_of m o0 o1 o2 o3 o4 o5 o6 c main_v140 (by decide)).trans <|
  (W29_of m o0 o1 o2 o3 o4 o5 o6 c main_v140 (by decide)).trans <|
  (W28_of m o0 o1 o2 o3 o4 o5 c main_v140 (by decide)).trans <|
  (W27_of m o0 o1 o2 o3 o4 o5 c main_v140 (by decide)).trans <|
  (W26_of m o0 o1 o2 o3 o4 c main_v140 (by decide)).trans <|
  (W25_of m o0 o1 o2 o3 o4 c main_v140 (by decide)).trans <|
  (W24_of m o0 o1 o2 o3 c main_v140 (by decide))

/-- What region 4 reads, at the valuation it is entered at: the normalized rows of v, of u, and of v over the temperature. -/
theorem W24_main_v194 (c : Dev nD) : W24 m o0 o1 o2 o3 c main_v194 = zK (W23 m o0 o1 o2 o3 c main_v101) := read4_z (W23 m o0 o1 o2 o3 c)
theorem W24_main_v202 (c : Dev nD) : W24 m o0 o1 o2 o3 c main_v202 = stuK (W23 m o0 o1 o2 o3 c main_v140) := read4_stu (W23 m o0 o1 o2 o3 c)
theorem W24_main_v204 (c : Dev nD) : W24 m o0 o1 o2 o3 c main_v204 = qpK (W23 m o0 o1 o2 o3 c main_v101) (m ((c : Thread nD τ).loc main_arg5)) := by
  refine (read4_qp (W23 m o0 o1 o2 o3 c)).trans ?_
  show qpK (W23 m o0 o1 o2 o3 c main_v101) (W23 m o0 o1 o2 o3 c main_arg5) = _
  rw [W23_main_arg5]

/-- The first loss, after the stretch that follows region 4. -/
theorem W26_main_v224 (c : Dev nD) :
    W26 m o0 o1 o2 o3 o4 c main_v224
      = lossK (shapeCast _ (o4 c) shapeCasts_S10000x1_S10000) (simK (W23 m o0 o1 o2 o3 c main_v140) (o3 c) (m ((c : Thread nD τ).loc main_arg5)) (m ((c : Thread nD τ).loc main_arg3)) (m ((c : Thread nD τ).loc main_arg4))) (denomK (m ((c : Thread nD τ).loc main_arg4))) (posK (W23 m o0 o1 o2 o3 c main_v140) (o3 c) (m ((c : Thread nD τ).loc main_arg5)) (m ((c : Thread nD τ).loc main_arg3)) (m ((c : Thread nD τ).loc main_arg4))) (m ((c : Thread nD τ).loc main_arg4)) := by
  refine (read5_loss (W25 m o0 o1 o2 o3 o4 c)).trans ?_
  have s : W25 m o0 o1 o2 o3 o4 c main_v176 = simK (W23 m o0 o1 o2 o3 c main_v140) (o3 c) (m ((c : Thread nD τ).loc main_arg5)) (m ((c : Thread nD τ).loc main_arg3)) (m ((c : Thread nD τ).loc main_arg4)) := by
    refine (W25_of m o0 o1 o2 o3 o4 c main_v176 (by decide)).trans ((read4_sim (W23 m o0 o1 o2 o3 c)).trans ?_)
    show simK (W23 m o0 o1 o2 o3 c main_v140) (W23 m o0 o1 o2 o3 c main_v142) (W23 m o0 o1 o2 o3 c main_arg5) (W23 m o0 o1 o2 o3 c main_arg3) (W23 m o0 o1 o2 o3 c main_arg4) = _
    rw [W23_main_v142, W23_main_arg5, W23_main_arg3, W23_main_arg4]
  have dn : W25 m o0 o1 o2 o3 o4 c main_v182 = denomK (m ((c : Thread nD τ).loc main_arg4)) := by
    refine (W25_of m o0 o1 o2 o3 o4 c main_v182 (by decide)).trans ((read4_denom (W23 m o0 o1 o2 o3 c)).trans ?_)
    show denomK (W23 m o0 o1 o2 o3 c main_arg4) = _
    rw [W23_main_arg4]
  have p : W25 m o0 o1 o2 o3 o4 c main_v186 = posK (W23 m o0 o1 o2 o3 c main_v140) (o3 c) (m ((c : Thread nD τ).loc main_arg5)) (m ((c : Thread nD τ).loc main_arg3)) (m ((c : Thread nD τ).loc main_arg4)) := by
    refine (W25_of m o0 o1 o2 o3 o4 c main_v186 (by decide)).trans ((read4_pos (W23 m o0 o1 o2 o3 c)).trans ?_)
    show posK (W23 m o0 o1 o2 o3 c main_v140) (W23 m o0 o1 o2 o3 c main_v142) (W23 m o0 o1 o2 o3 c main_arg5) (W23 m o0 o1 o2 o3 c main_arg3) (W23 m o0 o1 o2 o3 c main_arg4) = _
    rw [W23_main_v142, W23_main_arg5, W23_main_arg3, W23_main_arg4]
  have d4 : W25 m o0 o1 o2 o3 o4 c main_arg4 = m ((c : Thread nD τ).loc main_arg4) :=
    (W25_of m o0 o1 o2 o3 o4 c main_arg4 (by decide)).trans ((W24_of m o0 o1 o2 o3 c main_arg4 (by decide)).trans (W23_main_arg4 m o0 o1 o2 o3 c))
  show lossK (shapeCast _ (W25 m o0 o1 o2 o3 o4 c main_v205) shapeCasts_S10000x1_S10000) (W25 m o0 o1 o2 o3 o4 c main_v176) (W25 m o0 o1 o2 o3 o4 c main_v182) (W25 m o0 o1 o2 o3 o4 c main_v186) (W25 m o0 o1 o2 o3 o4 c main_arg4) = _
  rw [W25_main_v205, s, dn, p, d4]

end Cert.KernelIdeal.Hand

end
-- ==== Proof.KI.RealZ1.lean ====
/-
  The normalized arrays region 4 reads have real entries.

  Each row of v is divided by its norm, bounded below by a small positive constant: the squares of real entries are
  nonnegative reals, so are their sums along a row and the sums' square roots; the maximum with a positive real is a
  positive real; and a real divided by a nonzero real is a real. The same for u, and for the normalized rows of v
  divided once more by a temperature that is real and not zero.
-/
import proofs.«175488_j3908420240157_2_alg».proof.Proof.KI.LossChain
import proofs.«175488_j3908420240157_2_alg».proof.Proof.KI.Frame
import proofs.«175488_j3908420240157_2_alg».proof.Proof.LibRealClosure
import proofs.«175488_j3908420240157_2_alg».proof.Proof.PreReal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Lib.RealClosure

/-- The lower bound of the norms denotes a real, -/
theorem eps_real : IsReal (Ideal.ofBits .f32 0x2B8CBCCC#32) := isReal_ofBits_f32 _ (by decide)
/-- a positive one. -/
theorem eps_pos : 0 < Ideal.ofBits .f32 0x2B8CBCCC#32 := ofBits_f32_pos _ (by decide) (by decide) (by decide)

/-- The rows of an array with real entries divided by their bounded norms have real entries. -/
theorem zK_real (v : FVec Ideal S10000x256 .f32) (hv : EntriesReal v) : EntriesReal (zK (F := Ideal) v : FVec Ideal S10000x256 .f32) := by
  unfold zK
  refine hostDivf_real hv
    (broadcastInDim_real _ _ (maximumf_real
      (hostSqrt_real (broadcastInDim_real _ _ (hostReduceAdd_real _ _ (mulf_real hv hv) (constant_zero_real _))) ?nonneg)
      (broadcastInDim_real _ _ (constant_real _ _ _ eps_real)))) ?nz
  case nonneg =>
    intro i
    exact hostReduceAdd_nonneg _ _ (mulf_real hv hv) (constant_zero_real _) (fun i => mul_self_nonneg_of_real (hv i))
      (fun i => by show (0 : EReal) ≤ Ideal.ofBits .f32 0x00000000#32; rw [Ideal.ofBits_zero_f32]) _
  case nz =>
    intro i
    exact ne_of_gt (lt_of_lt_of_le eps_pos (le_max_right _ _))

/-- The same for u: it is the same function. -/
theorem stuK_real (u : FVec Ideal S10000x256 .f32) (hu : EntriesReal u) : EntriesReal (stuK (F := Ideal) u : FVec Ideal S10000x256 .f32) :=
  zK_real u hu

/-- The normalized rows over a temperature that is a real and not zero. -/
theorem qpK_real (v : FVec Ideal S10000x256 .f32) (hv : EntriesReal v) (tau : FVec Ideal S_ .f32) (ht : EntriesReal tau) (ht0 : ∀ i, tau i ≠ 0) :
    EntriesReal (qpK (F := Ideal) v tau : FVec Ideal S10000x256 .f32) := by
  unfold qpK
  exact hostDivf_real (zK_real v hv) (broadcastInDim_real _ _ ht) (fun i => ht0 _)

/-! ## At the valuation region 4 is entered at -/

variable (m : (ℓ : Loc nD τ sig) → Buf (Elt Ideal) ℓ) (hpre : Cert.Pre_KernelIdeal m) (c : Dev nD)

/-- The normalized rows of v, as region 4 finds them, from the realness of the second layer's result v at the chain's end. -/
theorem z_real (hv1 : EntriesReal (W32 m (o0 m) (o1 m) (o2 m) (o3 m) (o4 m) (o5 m) (o6 m) (o7 m) c main_v101 : FVec Ideal S10000x256 .f32)) :
    EntriesReal (W24 m (o0 m) (o1 m) (o2 m) (o3 m) c main_v194 : FVec Ideal S10000x256 .f32) := by
  rw [W24_main_v194]
  refine zK_real _ ?_
  rw [← W32_main_v101_W23 m (o0 m) (o1 m) (o2 m) (o3 m) (o4 m) (o5 m) (o6 m) (o7 m) c]
  exact hv1

/-- The normalized rows of u. -/
theorem stu_real (hu1 : EntriesReal (W32 m (o0 m) (o1 m) (o2 m) (o3 m) (o4 m) (o5 m) (o6 m) (o7 m) c main_v140 : FVec Ideal S10000x256 .f32)) :
    EntriesReal (W24 m (o0 m) (o1 m) (o2 m) (o3 m) c main_v202 : FVec Ideal S10000x256 .f32) := by
  rw [W24_main_v202]
  refine stuK_real _ ?_
  rw [← W32_main_v140_W23 m (o0 m) (o1 m) (o2 m) (o3 m) (o4 m) (o5 m) (o6 m) (o7 m) c]
  exact hu1

include hpre in
/-- The normalized rows of v over the first temperature: the temperature is real and not zero under the precondition. -/
theorem qprime_real (hv1 : EntriesReal (W32 m (o0 m) (o1 m) (o2 m) (o3 m) (o4 m) (o5 m) (o6 m) (o7 m) c main_v101 : FVec Ideal S10000x256 .f32)) :
    EntriesReal (W24 m (o0 m) (o1 m) (o2 m) (o3 m) c main_v204 : FVec Ideal S10000x256 .f32) := by
  rw [W24_main_v204]
  refine qpK_real _ ?_ _ (Cert.Proof.Parts.pre_real_arg5 m hpre c) (Cert.Proof.Parts.pre_ne_zero_arg5 m hpre c)
  rw [← W32_main_v101_W23 m (o0 m) (o1 m) (o2 m) (o3 m) (o4 m) (o5 m) (o6 m) (o7 m) c]
  exact hv1

end Cert.KernelIdeal.Hand

end
-- ==== Proof.KI.RealV2A.lean ====
/-
  The two linear encoders' outputs have real entries, and so do their normalized rows.

  Each output is half the columns of what region 5 leaves, and that is, at (r, col), a sum over k of products of a
  feature entry and a weight entry, plus a bias entry: all reals under the precondition, the joint weight matrix and
  the joint bias row holding nothing but the two encoders' own entries. The normalized rows then are real by the
  same rule as for the graph layers' results.
-/
import proofs.«175488_j3908420240157_2_alg».proof.Proof.Values23
import proofs.«175488_j3908420240157_2_alg».proof.Proof.KI.RealZ1

set_option maxRecDepth 65536

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Cert.Lib.RealClosure

/-- The joint product of arrays with real entries has real entries. -/
theorem G5_real (x : FVec Ideal S10000x512 .f32) (w : FVec Ideal S512x512 .f32) (b : FVec Ideal S1x512 .f32)
    (hx : EntriesReal x) (hw : EntriesReal w) (hb : EntriesReal b) : EntriesReal (G5 x w b) :=
  fun i => isReal_add (isReal_sum _ _ fun k _ => isReal_mul (hx _) (hw _)) (hb _)

variable (m : (ℓ : Loc nD τ sig) → Buf (Elt Ideal) ℓ) (hpre : Cert.Pre_KernelIdeal m) (c : Dev nD)
include hpre

/-- The two encoders' weight matrices side by side hold only their own entries. -/
theorem Wc5_real : EntriesReal (concatenate S512x512 1 [⟨S512x256, m ((c : Thread nD τ).loc main_arg15)⟩, ⟨S512x256, m ((c : Thread nD τ).loc main_arg17)⟩] concatenates_S512x256_S512x256_S512x512_d1 : FVec Ideal S512x512 .f32) := by
  intro i
  obtain ⟨k, q, rfl⟩ : ∃ (k : Fin 512) (q : Fin 512), i = ix2 k q := ⟨i 0, i 1, eq_ix2 i⟩
  by_cases hq : q.val < 256
  · have e : (ix2 k q : (⟨2, ![512, 512]⟩ : Shape).Idx) = ix2 k (⟨(⟨q.val, hq⟩ : Fin 256).val, by omega⟩ : Fin 512) := rfl
    rw [e, Cert.Proof.Parts.cols_left]; exact Cert.Proof.Parts.pre_real_arg15 m hpre c _
  · have hq' : q.val - 256 < 256 := by have := q.isLt; omega
    have e : (ix2 k q : (⟨2, ![512, 512]⟩ : Shape).Idx) = ix2 k (⟨256 + (⟨q.val - 256, hq'⟩ : Fin 256).val, by have := q.isLt; omega⟩ : Fin 512) :=
      congrArg (ix2 k) (Fin.ext (by show q.val = 256 + (q.val - 256); omega))
    rw [e, Cert.Proof.Parts.cols_right]; exact Cert.Proof.Parts.pre_real_arg17 m hpre c _

/-- The two bias vectors end to end, as one row. -/
theorem Bc5_real : EntriesReal (shapeCast S1x512 (concatenate S512 0 [⟨S256, m ((c : Thread nD τ).loc main_arg16)⟩, ⟨S256, m ((c : Thread nD τ).loc main_arg18)⟩] concatenates_S256_S256_S512_d0) shapeCasts_S512_S1x512 : FVec Ideal S1x512 .f32) := by
  intro i
  obtain ⟨z, q, rfl⟩ : ∃ (z : Fin 1) (q : Fin 512), i = ix2 z q := ⟨i 0, i 1, eq_ix2 i⟩
  obtain rfl : z = 0 := Subsingleton.elim _ _
  by_cases hq : q.val < 256
  · have e : (ix2 (0 : Fin 1) q : (⟨2, ![1, 512]⟩ : Shape).Idx) = ix2 (0 : Fin 1) (⟨(⟨q.val, hq⟩ : Fin 256).val, by omega⟩ : Fin 512) := rfl
    rw [e, Cert.Proof.Parts.row_left]; exact Cert.Proof.Parts.pre_real_arg16 m hpre c _
  · have hq' : q.val - 256 < 256 := by have := q.isLt; omega
    have e : (ix2 (0 : Fin 1) q : (⟨2, ![1, 512]⟩ : Shape).Idx) = ix2 (0 : Fin 1) (⟨256 + (⟨q.val - 256, hq'⟩ : Fin 256).val, by have := q.isLt; omega⟩ : Fin 512) :=
      congrArg (ix2 (0 : Fin 1)) (Fin.ext (by show q.val = 256 + (q.val - 256); omega))
    rw [e, Cert.Proof.Parts.row_right]; exact Cert.Proof.Parts.pre_real_arg18 m hpre c _

/-- What region 5 leaves has real entries. -/
theorem o5_real : EntriesReal (o5 m c : FVec Ideal S10000x512 .f32) := by
  rw [Cert.Proof.Parts.o5_eq m c (Cert.Proof.Parts.pre_real_arg0 m hpre c) (Cert.Proof.Parts.pre_real_arg15 m hpre c) (Cert.Proof.Parts.pre_real_arg17 m hpre c)]
  exact G5_real _ _ _ (Cert.Proof.Parts.pre_real_arg0 m hpre c) (Wc5_real m hpre c) (Bc5_real m hpre c)

/-- The first linear encoder's output, at the end of the chain. -/
theorem v2_real : EntriesReal (W32 m (o0 m) (o1 m) (o2 m) (o3 m) (o4 m) (o5 m) (o6 m) (o7 m) c main_v229 : FVec Ideal S10000x256 .f32) := by
  rw [W32_main_v229]
  exact extractStridedSlice_real _ _ (o5_real m hpre c)

/-- The second linear encoder's output. -/
theorem u2_real : EntriesReal (W32 m (o0 m) (o1 m) (o2 m) (o3 m) (o4 m) (o5 m) (o6 m) (o7 m) c main_v230 : FVec Ideal S10000x256 .f32) := by
  rw [W32_main_v230]
  exact extractStridedSlice_real _ _ (o5_real m hpre c)

/-- The normalized rows of the first linear encoder's output, as the stretch before region 7 finds it. -/
theorem z2_real : EntriesReal (zK (F := Ideal) (W29 m (o0 m) (o1 m) (o2 m) (o3 m) (o4 m) (o5 m) (o6 m) c main_v229) : FVec Ideal S10000x256 .f32) := by
  refine zK_real _ ?_
  rw [← ((W32_of m (o0 m) (o1 m) (o2 m) (o3 m) (o4 m) (o5 m) (o6 m) (o7 m) c main_v229 (by decide)).trans ((W31_of m (o0 m) (o1 m) (o2 m) (o3 m) (o4 m) (o5 m) (o6 m) (o7 m) c main_v229 (by decide)).trans (W30_of m (o0 m) (o1 m) (o2 m) (o3 m) (o4 m) (o5 m) (o6 m) c main_v229 (by decide))))]
  exact v2_real m hpre c

/-- The normalized rows of the second's. -/
theorem stu2_real : EntriesReal (stuK (F := Ideal) (W29 m (o0 m) (o1 m) (o2 m) (o3 m) (o4 m) (o5 m) (o6 m) c main_v230) : FVec Ideal S10000x256 .f32) := by
  refine stuK_real _ ?_
  rw [← ((W32_of m (o0 m) (o1 m) (o2 m) (o3 m) (o4 m) (o5 m) (o6 m) (o7 m) c main_v230 (by decide)).trans ((W31_of m (o0 m) (o1 m) (o2 m) (o3 m) (o4 m) (o5 m) (o6 m) (o7 m) c main_v230 (by decide)).trans (W30_of m (o0 m) (o1 m) (o2 m) (o3 m) (o4 m) (o5 m) (o6 m) c main_v230 (by decide))))]
  exact u2_real m hpre c

end Cert.KernelIdeal.Hand

end
-- ==== Proof.RefLoss.lean ====
/-
  The first contrastive loss on the reference's side.

  The reference projects the queries on the host, forms the same similarities, sums and normalized arrays as the
  kernel's host glue, computes the negative row sums itself — the row sums of exp(z zᵀ / t) + exp(z stuᵀ / t) — and
  finishes the loss in the same way. This module names the pieces as functions of what they read, reads the
  reference's operations 254 to 372 from any contents of the buffers, and places them in the reference's whole line.
-/
import proofs.«175488_j3908420240157_2_alg».proof.Proof.RefLayer2

set_option maxRecDepth 65536

noncomputable section

namespace Cert.Proof.Parts

open Cert.ReferenceIdeal Cert.ReferenceIdeal.Gen Cert.ReferenceIdeal.OpsP
open Idealize.ShloMosaic Idealize.ShloMosaic.TcCoe Idealize.SL.Sem Idealize.ShloMosaic.StableHlo

variable {F : FTy → Type} [FloatOps F]

/-- The projected queries: v times the projection's weights, plus its bias on every row. -/
def qlinR (v : (⟨S10000x256, .f32⟩ : BufTy).Contents (Elt F)) (W : (⟨S256x256, .f32⟩ : BufTy).Contents (Elt F)) (b : (⟨S256, .f32⟩ : BufTy).Contents (Elt F)) : (⟨S10000x256, .f32⟩ : BufTy).Contents (Elt F) :=
  (addf : (⟨S10000x256, .f32⟩ : BufTy).Contents (Elt F) → (⟨S10000x256, .f32⟩ : BufTy).Contents (Elt F) → (⟨S10000x256, .f32⟩ : BufTy).Contents (Elt F)) (((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) (v) (W)) ((broadcastInDim S10000x256 ![0, 1] bcast_S1x256_S10000x256_0_1 : (⟨S1x256, .f32⟩ : BufTy).Contents (Elt F) → (⟨S10000x256, .f32⟩ : BufTy).Contents (Elt F)) ((broadcastInDim S1x256 ![1] bcast_S256_S1x256_1 : (⟨S256, .f32⟩ : BufTy).Contents (Elt F) → (⟨S1x256, .f32⟩ : BufTy).Contents (Elt F)) (b)))

def simR (u qlin : (⟨S10000x256, .f32⟩ : BufTy).Contents (Elt F)) (tau : (⟨S_, .f32⟩ : BufTy).Contents (Elt F)) (src dst : (⟨S320000, .i32⟩ : BufTy).Contents (Elt F)) : (⟨S320000, .f32⟩ : BufTy).Contents (Elt F) :=
  (Host.divf : (⟨S320000, .f32⟩ : BufTy).Contents (Elt F) → (⟨S320000, .f32⟩ : BufTy).Contents (Elt F) → (⟨S320000, .f32⟩ : BufTy).Contents (Elt F)) (((fun x v => Host.reduceAdd x v reducesTo_S320000x256_S320000_d1 h_S_) : (⟨S320000x256, .f32⟩ : BufTy).Contents (Elt F) → (⟨S_, .f32⟩ : BufTy).Contents (Elt F) → (⟨S320000, .f32⟩ : BufTy).Contents (Elt F)) ((mulf : (⟨S320000x256, .f32⟩ : BufTy).Contents (Elt F) → (⟨S320000x256, .f32⟩ : BufTy).Contents (Elt F) → (⟨S320000x256, .f32⟩ : BufTy).Contents (Elt F)) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) ((Host.divf : (⟨S10000x256, .f32⟩ : BufTy).Contents (Elt F) → (⟨S10000x256, .f32⟩ : BufTy).Contents (Elt F) → (⟨S10000x256, .f32⟩ : BufTy).Contents (Elt F)) (u) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (u) (u)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (src) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (src) ((broadcastInDim S320000 ![] bcast_S_S320000 : (⟨S_, .i32⟩ : BufTy).Contents (Elt F) → (⟨S320000, .i32⟩ : BufTy).Contents (Elt F)) ((constantI S_ 32 10000#32)))) (src)))) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) ((Host.divf : (⟨S10000x256, .f32⟩ : BufTy).Contents (Elt F) → (⟨S10000x256, .f32⟩ : BufTy).Contents (Elt F) → (⟨S10000x256, .f32⟩ : BufTy).Contents (Elt F)) (qlin) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (qlin) (qlin)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (dst) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (dst) ((broadcastInDim S320000 ![] bcast_S_S320000 : (⟨S_, .i32⟩ : BufTy).Contents (Elt F) → (⟨S320000, .i32⟩ : BufTy).Contents (Elt F)) ((constantI S_ 32 10000#32)))) (dst))))) ((constant S_ .f32 0x00000000#32))) ((broadcastInDim S320000 ![] bcast_S_S320000 : (⟨S_, .f32⟩ : BufTy).Contents (Elt F) → (⟨S320000, .f32⟩ : BufTy).Contents (Elt F)) (tau))

def denomR (dst : (⟨S320000, .i32⟩ : BufTy).Contents (Elt F)) : (⟨S10000, .f32⟩ : BufTy).Contents (Elt F) :=
  (maximumf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (dst)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0x3F800000#32)))

def posR (u qlin : (⟨S10000x256, .f32⟩ : BufTy).Contents (Elt F)) (tau : (⟨S_, .f32⟩ : BufTy).Contents (Elt F)) (src dst : (⟨S320000, .i32⟩ : BufTy).Contents (Elt F)) : (⟨S10000, .f32⟩ : BufTy).Contents (Elt F) :=
  (Host.divf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (dst)) ((Host.divf : (⟨S320000, .f32⟩ : BufTy).Contents (Elt F) → (⟨S320000, .f32⟩ : BufTy).Contents (Elt F) → (⟨S320000, .f32⟩ : BufTy).Contents (Elt F)) (((fun x v => Host.reduceAdd x v reducesTo_S320000x256_S320000_d1 h_S_) : (⟨S320000x256, .f32⟩ : BufTy).Contents (Elt F) → (⟨S_, .f32⟩ : BufTy).Contents (Elt F) → (⟨S320000, .f32⟩ : BufTy).Contents (Elt F)) ((mulf : (⟨S320000x256, .f32⟩ : BufTy).Contents (Elt F) → (⟨S320000x256, .f32⟩ : BufTy).Contents (Elt F) → (⟨S320000x256, .f32⟩ : BufTy).Contents (Elt F)) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) ((Host.divf : (⟨S10000x256, .f32⟩ : BufTy).Contents (Elt F) → (⟨S10000x256, .f32⟩ : BufTy).Contents (Elt F) → (⟨S10000x256, .f32⟩ : BufTy).Contents (Elt F)) (u) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (u) (u)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (src) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (src) ((broadcastInDim S320000 ![] bcast_S_S320000 : (⟨S_, .i32⟩ : BufTy).Contents (Elt F) → (⟨S320000, .i32⟩ : BufTy).Contents (Elt F)) ((constantI S_ 32 10000#32)))) (src)))) (((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)) ((Host.divf : (⟨S10000x256, .f32⟩ : BufTy).Contents (Elt F) → (⟨S10000x256, .f32⟩ : BufTy).Contents (Elt F) → (⟨S10000x256, .f32⟩ : BufTy).Contents (Elt F)) (qlin) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (qlin) (qlin)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (dst) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (dst) ((broadcastInDim S320000 ![] bcast_S_S320000 : (⟨S_, .i32⟩ : BufTy).Contents (Elt F) → (⟨S320000, .i32⟩ : BufTy).Contents (Elt F)) ((constantI S_ 32 10000#32)))) (dst))))) ((constant S_ .f32 0x00000000#32))) ((broadcastInDim S320000 ![] bcast_S_S320000 : (⟨S_, .f32⟩ : BufTy).Contents (Elt F) → (⟨S320000, .f32⟩ : BufTy).Contents (Elt F)) (tau)))) ((maximumf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (dst)) ((broadcastInDim S320000 ![] bcast_S_S320000 : (⟨S_, .f32⟩ : BufTy).Contents (Elt F) → (⟨S320000, .f32⟩ : BufTy).Contents (Elt F)) ((constant S_ .f32 0x3F800000#32)))) ((broadcastInDim S10000 ![] bcast_S_S10000 : (⟨S_, .f32⟩ : BufTy).Contents (Elt F) → (⟨S10000, .f32⟩ : BufTy).Contents (Elt F)) ((constant S_ .f32 0x3F800000#32))))

def zR (v : (⟨S10000x256, .f32⟩ : BufTy).Contents (Elt F)) : (⟨S10000x256, .f32⟩ : BufTy).Contents (Elt F) :=
  (Host.divf : (⟨S10000x256, .f32⟩ : BufTy).Contents (Elt F) → (⟨S10000x256, .f32⟩ : BufTy).Contents (Elt F) → (⟨S10000x256, .f32⟩ : BufTy).Contents (Elt F)) (v) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (v) (v)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))

def stuR (u : (⟨S10000x256, .f32⟩ : BufTy).Contents (Elt F)) : (⟨S10000x256, .f32⟩ : BufTy).Contents (Elt F) :=
  (Host.divf : (⟨S10000x256, .f32⟩ : BufTy).Contents (Elt F) → (⟨S10000x256, .f32⟩ : BufTy).Contents (Elt F) → (⟨S10000x256, .f32⟩ : BufTy).Contents (Elt F)) (u) ((broadcastInDim S10000x256 ![0, 1] bcast_S10000x1_S10000x256_0_1 : (⟨S10000x1, .f32⟩ : BufTy).Contents (Elt F) → (⟨S10000x256, .f32⟩ : BufTy).Contents (Elt F)) ((maximumf : (⟨S10000x1, .f32⟩ : BufTy).Contents (Elt F) → (⟨S10000x1, .f32⟩ : BufTy).Contents (Elt F) → (⟨S10000x1, .f32⟩ : BufTy).Contents (Elt F)) ((Host.sqrt : (⟨S10000x1, .f32⟩ : BufTy).Contents (Elt F) → (⟨S10000x1, .f32⟩ : BufTy).Contents (Elt F)) ((broadcastInDim S10000x1 ![0] bcast_S10000_S10000x1_0 : (⟨S10000, .f32⟩ : BufTy).Contents (Elt F) → (⟨S10000x1, .f32⟩ : BufTy).Contents (Elt F)) (((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)) ((mulf : (⟨S10000x256, .f32⟩ : BufTy).Contents (Elt F) → (⟨S10000x256, .f32⟩ : BufTy).Contents (Elt F) → (⟨S10000x256, .f32⟩ : BufTy).Contents (Elt F)) (u) (u)) ((constant S_ .f32 0x00000000#32))))) ((broadcastInDim S10000x1 ![] bcast_S_S10000x1 : (⟨S_, .f32⟩ : BufTy).Contents (Elt F) → (⟨S10000x1, .f32⟩ : BufTy).Contents (Elt F)) ((constant S_ .f32 0x2B8CBCCC#32)))))

/-- The negative row sums: for each row of z, the sum over all rows of exp(z · zᵀ / t) plus exp(z · stuᵀ / t). -/
def negR (z stu : (⟨S10000x256, .f32⟩ : BufTy).Contents (Elt F)) (tau : (⟨S_, .f32⟩ : BufTy).Contents (Elt F)) : (⟨S10000, .f32⟩ : BufTy).Contents (Elt F) :=
  (addf : (⟨S10000, .f32⟩ : BufTy).Contents (Elt F) → (⟨S10000, .f32⟩ : BufTy).Contents (Elt F) → (⟨S10000, .f32⟩ : BufTy).Contents (Elt F)) (((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)) ((Host.exp : (⟨S10000x10000, .f32⟩ : BufTy).Contents (Elt F) → (⟨S10000x10000, .f32⟩ : BufTy).Contents (Elt F)) ((Host.divf : (⟨S10000x10000, .f32⟩ : BufTy).Contents (Elt F) → (⟨S10000x10000, .f32⟩ : BufTy).Contents (Elt F) → (⟨S10000x10000, .f32⟩ : BufTy).Contents (Elt F)) (((fun l r => Host.dotGeneral dot_S10000x256_S256x10000_S10000x10000_1_0_0_1_n_n none l r) : (⟨S10000x256, .f32⟩ : BufTy).Contents (Elt F) → (⟨S256x10000, .f32⟩ : BufTy).Contents (Elt F) → (⟨S10000x10000, .f32⟩ : BufTy).Contents (Elt F)) (z) (((transpose S256x10000 [1, 0] · transposes_S10000x256_S256x10000_1_0) : (⟨S10000x256, .f32⟩ : BufTy).Contents (Elt F) → (⟨S256x10000, .f32⟩ : BufTy).Contents (Elt F)) (z))) ((broadcastInDim S10000x10000 ![] bcast_S_S10000x10000 : (⟨S_, .f32⟩ : BufTy).Contents (Elt F) → (⟨S10000x10000, .f32⟩ : BufTy).Contents (Elt F)) (tau)))) ((constant S_ .f32 0x00000000#32))) (((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)) ((Host.exp : (⟨S10000x10000, .f32⟩ : BufTy).Contents (Elt F) → (⟨S10000x10000, .f32⟩ : BufTy).Contents (Elt F)) ((Host.divf : (⟨S10000x10000, .f32⟩ : BufTy).Contents (Elt F) → (⟨S10000x10000, .f32⟩ : BufTy).Contents (Elt F) → (⟨S10000x10000, .f32⟩ : BufTy).Contents (Elt F)) (((fun l r => Host.dotGeneral dot_S10000x256_S256x10000_S10000x10000_1_0_0_1_n_n none l r) : (⟨S10000x256, .f32⟩ : BufTy).Contents (Elt F) → (⟨S256x10000, .f32⟩ : BufTy).Contents (Elt F) → (⟨S10000x10000, .f32⟩ : BufTy).Contents (Elt F)) (z) (((transpose S256x10000 [1, 0] · transposes_S10000x256_S256x10000_1_0) : (⟨S10000x256, .f32⟩ : BufTy).Contents (Elt F) → (⟨S256x10000, .f32⟩ : BufTy).Contents (Elt F)) (stu))) ((broadcastInDim S10000x10000 ![] bcast_S_S10000x10000 : (⟨S_, .f32⟩ : BufTy).Contents (Elt F) → (⟨S10000x10000, .f32⟩ : BufTy).Contents (Elt F)) (tau)))) ((constant S_ .f32 0x00000000#32)))

def lossR (negsim : (⟨S10000, .f32⟩ : BufTy).Contents (Elt F)) (sim : (⟨S320000, .f32⟩ : BufTy).Contents (Elt F)) (denom : (⟨S10000, .f32⟩ : BufTy).Contents (Elt F)) (pos : (⟨S10000, .f32⟩ : BufTy).Contents (Elt F)) (dst : (⟨S320000, .i32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (((fun x v => Host.reduceAdd x v reducesTo_S10000_S_d0 h_S_) : (⟨S10000, .f32⟩ : BufTy).Contents (Elt F) → (⟨S_, .f32⟩ : BufTy).Contents (Elt F) → (⟨S_, .f32⟩ : BufTy).Contents (Elt F)) ((addf : (⟨S10000, .f32⟩ : BufTy).Contents (Elt F) → (⟨S10000, .f32⟩ : BufTy).Contents (Elt F) → (⟨S10000, .f32⟩ : BufTy).Contents (Elt F)) ((Host.negf : (⟨S10000, .f32⟩ : BufTy).Contents (Elt F) → (⟨S10000, .f32⟩ : BufTy).Contents (Elt F)) (pos)) ((Host.divf : (⟨S10000, .f32⟩ : BufTy).Contents (Elt F) → (⟨S10000, .f32⟩ : BufTy).Contents (Elt F) → (⟨S10000, .f32⟩ : BufTy).Contents (Elt F)) (((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)) ((broadcastInDim S10000 ![] bcast_S_S10000 : (⟨S_, .f32⟩ : BufTy).Contents (Elt F) → (⟨S10000, .f32⟩ : BufTy).Contents (Elt F)) ((constant S_ .f32 0x00000000#32))) ((broadcastInDim S320000x1 ![0] bcast_S320000_S320000x1_0 : (⟨S320000, .i32⟩ : BufTy).Contents (Elt F) → (⟨S320000x1, .i32⟩ : BufTy).Contents (Elt F)) (dst)) ((Host.log : (⟨S320000, .f32⟩ : BufTy).Contents (Elt F) → (⟨S320000, .f32⟩ : BufTy).Contents (Elt F)) ((addf : (⟨S320000, .f32⟩ : BufTy).Contents (Elt F) → (⟨S320000, .f32⟩ : BufTy).Contents (Elt F) → (⟨S320000, .f32⟩ : BufTy).Contents (Elt F)) (((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)) (negsim) ((broadcastInDim S320000x1 ![0] bcast_S320000_S320000x1_0 : (⟨S320000, .i32⟩ : BufTy).Contents (Elt F) → (⟨S320000x1, .i32⟩ : BufTy).Contents (Elt F)) ((select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ((cmpi .slt : (⟨S320000, .i32⟩ : BufTy).Contents (Elt F) → (⟨S320000, .i32⟩ : BufTy).Contents (Elt F) → (⟨S320000, .i1⟩ : BufTy).Contents (Elt F)) (dst) ((broadcastInDim S320000 ![] bcast_S_S320000 : (⟨S_, .i32⟩ : BufTy).Contents (Elt F) → (⟨S320000, .i32⟩ : BufTy).Contents (Elt F)) ((constantI S_ 32 0#32)))) ((addi : (⟨S320000, .i32⟩ : BufTy).Contents (Elt F) → (⟨S320000, .i32⟩ : BufTy).Contents (Elt F) → (⟨S320000, .i32⟩ : BufTy).Contents (Elt F)) (dst) ((broadcastInDim S320000 ![] bcast_S_S320000 : (⟨S_, .i32⟩ : BufTy).Contents (Elt F) → (⟨S320000, .i32⟩ : BufTy).Contents (Elt F)) ((constantI S_ 32 10000#32)))) (dst)))) ((Host.exp : (⟨S320000, .f32⟩ : BufTy).Contents (Elt F) → (⟨S320000, .f32⟩ : BufTy).Contents (Elt F)) (sim))))) (denom))) ((constant S_ .f32 0x00000000#32))) ((constant S_ .f32 0x461C4000#32))

set_option maxHeartbeats 0 in
/-- The reference's operations 254 to 372. -/
abbrev lossRefOps : List (HloOp τ sig (Elt F)) :=
  [ binary main_v88 main_arg19 main_v178 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    unary main_arg20 main_v179 (broadcastInDim S1x256 ![1] bcast_S256_S1x256_1 : (⟨S256, .f32⟩ : BufTy).Contents (Elt F) → (⟨S1x256, .f32⟩ : BufTy).Contents (Elt F)),
    unary main_v179 main_v180 (broadcastInDim S10000x256 ![0, 1] bcast_S1x256_S10000x256_0_1 : (⟨S1x256, .f32⟩ : BufTy).Contents (Elt F) → (⟨S10000x256, .f32⟩ : BufTy).Contents (Elt F)),
    binary main_v178 main_v180 main_v181 (addf : (⟨S10000x256, .f32⟩ : BufTy).Contents (Elt F) → (⟨S10000x256, .f32⟩ : BufTy).Contents (Elt F) → (⟨S10000x256, .f32⟩ : BufTy).Contents (Elt F)),
    binary main_v181 main_v181 main_v182 (mulf : (⟨S10000x256, .f32⟩ : BufTy).Contents (Elt F) → (⟨S10000x256, .f32⟩ : BufTy).Contents (Elt F) → (⟨S10000x256, .f32⟩ : BufTy).Contents (Elt F)),
    nullary main_cst_54 (constant S_ .f32 0x00000000#32),
    binary main_v182 main_cst_54 main_v183 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v183 main_v184 (broadcastInDim S10000x1 ![0] bcast_S10000_S10000x1_0 : (⟨S10000, .f32⟩ : BufTy).Contents (Elt F) → (⟨S10000x1, .f32⟩ : BufTy).Contents (Elt F)),
    unary main_v184 main_v185 (Host.sqrt : (⟨S10000x1, .f32⟩ : BufTy).Contents (Elt F) → (⟨S10000x1, .f32⟩ : BufTy).Contents (Elt F)),
    nullary main_cst_55 (constant S_ .f32 0x2B8CBCCC#32),
    unary main_cst_55 main_v186 (broadcastInDim S10000x1 ![] bcast_S_S10000x1 : (⟨S_, .f32⟩ : BufTy).Contents (Elt F) → (⟨S10000x1, .f32⟩ : BufTy).Contents (Elt F)),
    binary main_v185 main_v186 main_v187 (maximumf : (⟨S10000x1, .f32⟩ : BufTy).Contents (Elt F) → (⟨S10000x1, .f32⟩ : BufTy).Contents (Elt F) → (⟨S10000x1, .f32⟩ : BufTy).Contents (Elt F)),
    unary main_v187 main_v188 (broadcastInDim S10000x256 ![0, 1] bcast_S10000x1_S10000x256_0_1 : (⟨S10000x1, .f32⟩ : BufTy).Contents (Elt F) → (⟨S10000x256, .f32⟩ : BufTy).Contents (Elt F)),
    binary main_v181 main_v188 main_v189 (Host.divf : (⟨S10000x256, .f32⟩ : BufTy).Contents (Elt F) → (⟨S10000x256, .f32⟩ : BufTy).Contents (Elt F) → (⟨S10000x256, .f32⟩ : BufTy).Contents (Elt F)),
    binary main_v177 main_v177 main_v190 (mulf : (⟨S10000x256, .f32⟩ : BufTy).Contents (Elt F) → (⟨S10000x256, .f32⟩ : BufTy).Contents (Elt F) → (⟨S10000x256, .f32⟩ : BufTy).Contents (Elt F)),
    nullary main_cst_56 (constant S_ .f32 0x00000000#32),
    binary main_v190 main_cst_56 main_v191 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v191 main_v192 (broadcastInDim S10000x1 ![0] bcast_S10000_S10000x1_0 : (⟨S10000, .f32⟩ : BufTy).Contents (Elt F) → (⟨S10000x1, .f32⟩ : BufTy).Contents (Elt F)),
    unary main_v192 main_v193 (Host.sqrt : (⟨S10000x1, .f32⟩ : BufTy).Contents (Elt F) → (⟨S10000x1, .f32⟩ : BufTy).Contents (Elt F)),
    nullary main_cst_57 (constant S_ .f32 0x2B8CBCCC#32),
    unary main_cst_57 main_v194 (broadcastInDim S10000x1 ![] bcast_S_S10000x1 : (⟨S_, .f32⟩ : BufTy).Contents (Elt F) → (⟨S10000x1, .f32⟩ : BufTy).Contents (Elt F)),
    binary main_v193 main_v194 main_v195 (maximumf : (⟨S10000x1, .f32⟩ : BufTy).Contents (Elt F) → (⟨S10000x1, .f32⟩ : BufTy).Contents (Elt F) → (⟨S10000x1, .f32⟩ : BufTy).Contents (Elt F)),
    unary main_v195 main_v196 (broadcastInDim S10000x256 ![0, 1] bcast_S10000x1_S10000x256_0_1 : (⟨S10000x1, .f32⟩ : BufTy).Contents (Elt F) → (⟨S10000x256, .f32⟩ : BufTy).Contents (Elt F)),
    binary main_v177 main_v196 main_v197 (Host.divf : (⟨S10000x256, .f32⟩ : BufTy).Contents (Elt F) → (⟨S10000x256, .f32⟩ : BufTy).Contents (Elt F) → (⟨S10000x256, .f32⟩ : BufTy).Contents (Elt F)),
    nullary main_c_58 (constantI S_ 32 0#32),
    unary main_c_58 main_v198 (broadcastInDim S320000 ![] bcast_S_S320000 : (⟨S_, .i32⟩ : BufTy).Contents (Elt F) → (⟨S320000, .i32⟩ : BufTy).Contents (Elt F)),
    binary main_arg3 main_v198 main_v199 (cmpi .slt : (⟨S320000, .i32⟩ : BufTy).Contents (Elt F) → (⟨S320000, .i32⟩ : BufTy).Contents (Elt F) → (⟨S320000, .i1⟩ : BufTy).Contents (Elt F)),
    nullary main_c_59 (constantI S_ 32 10000#32),
    unary main_c_59 main_v200 (broadcastInDim S320000 ![] bcast_S_S320000 : (⟨S_, .i32⟩ : BufTy).Contents (Elt F) → (⟨S320000, .i32⟩ : BufTy).Contents (Elt F)),
    binary main_arg3 main_v200 main_v201 (addi : (⟨S320000, .i32⟩ : BufTy).Contents (Elt F) → (⟨S320000, .i32⟩ : BufTy).Contents (Elt F) → (⟨S320000, .i32⟩ : BufTy).Contents (Elt F)),
    ternary main_v199 main_v201 main_arg3 main_v202 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v202 main_v203 (broadcastInDim S320000x1 ![0] bcast_S320000_S320000x1_0 : (⟨S320000, .i32⟩ : BufTy).Contents (Elt F) → (⟨S320000x1, .i32⟩ : BufTy).Contents (Elt F)),
    binary main_v197 main_v203 main_v204 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    nullary main_c_60 (constantI S_ 32 0#32),
    unary main_c_60 main_v205 (broadcastInDim S320000 ![] bcast_S_S320000 : (⟨S_, .i32⟩ : BufTy).Contents (Elt F) → (⟨S320000, .i32⟩ : BufTy).Contents (Elt F)),
    binary main_arg4 main_v205 main_v206 (cmpi .slt : (⟨S320000, .i32⟩ : BufTy).Contents (Elt F) → (⟨S320000, .i32⟩ : BufTy).Contents (Elt F) → (⟨S320000, .i1⟩ : BufTy).Contents (Elt F)),
    nullary main_c_61 (constantI S_ 32 10000#32),
    unary main_c_61 main_v207 (broadcastInDim S320000 ![] bcast_S_S320000 : (⟨S_, .i32⟩ : BufTy).Contents (Elt F) → (⟨S320000, .i32⟩ : BufTy).Contents (Elt F)),
    binary main_arg4 main_v207 main_v208 (addi : (⟨S320000, .i32⟩ : BufTy).Contents (Elt F) → (⟨S320000, .i32⟩ : BufTy).Contents (Elt F) → (⟨S320000, .i32⟩ : BufTy).Contents (Elt F)),
    ternary main_v206 main_v208 main_arg4 main_v209 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v209 main_v210 (broadcastInDim S320000x1 ![0] bcast_S320000_S320000x1_0 : (⟨S320000, .i32⟩ : BufTy).Contents (Elt F) → (⟨S320000x1, .i32⟩ : BufTy).Contents (Elt F)),
    binary main_v189 main_v210 main_v211 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    binary main_v204 main_v211 main_v212 (mulf : (⟨S320000x256, .f32⟩ : BufTy).Contents (Elt F) → (⟨S320000x256, .f32⟩ : BufTy).Contents (Elt F) → (⟨S320000x256, .f32⟩ : BufTy).Contents (Elt F)),
    nullary main_cst_62 (constant S_ .f32 0x00000000#32),
    binary main_v212 main_cst_62 main_v213 ((fun x v => Host.reduceAdd x v reducesTo_S320000x256_S320000_d1 h_S_) : (⟨S320000x256, .f32⟩ : BufTy).Contents (Elt F) → (⟨S_, .f32⟩ : BufTy).Contents (Elt F) → (⟨S320000, .f32⟩ : BufTy).Contents (Elt F)),
    unary main_arg5 main_v214 (broadcastInDim S320000 ![] bcast_S_S320000 : (⟨S_, .f32⟩ : BufTy).Contents (Elt F) → (⟨S320000, .f32⟩ : BufTy).Contents (Elt F)),
    binary main_v213 main_v214 main_v215 (Host.divf : (⟨S320000, .f32⟩ : BufTy).Contents (Elt F) → (⟨S320000, .f32⟩ : BufTy).Contents (Elt F) → (⟨S320000, .f32⟩ : BufTy).Contents (Elt F)),
    nullary main_cst_63 (constant S_ .f32 0x3F800000#32),
    unary main_cst_63 main_v216 (broadcastInDim S320000 ![] bcast_S_S320000 : (⟨S_, .f32⟩ : BufTy).Contents (Elt F) → (⟨S320000, .f32⟩ : BufTy).Contents (Elt F)),
    nullary main_cst_64 (constant S_ .f32 0x00000000#32),
    unary main_cst_64 main_v217 (broadcastInDim S10000 ![] bcast_S_S10000 : (⟨S_, .f32⟩ : BufTy).Contents (Elt F) → (⟨S10000, .f32⟩ : BufTy).Contents (Elt F)),
    unary main_arg4 main_v218 (broadcastInDim S320000x1 ![0] bcast_S320000_S320000x1_0 : (⟨S320000, .i32⟩ : BufTy).Contents (Elt F) → (⟨S320000x1, .i32⟩ : BufTy).Contents (Elt F)),
    ternary main_v217 main_v218 main_v216 main_v219 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_65 (constant S_ .f32 0x3F800000#32),
    unary main_cst_65 main_v220 (broadcastInDim S10000 ![] bcast_S_S10000 : (⟨S_, .f32⟩ : BufTy).Contents (Elt F) → (⟨S10000, .f32⟩ : BufTy).Contents (Elt F)),
    binary main_v219 main_v220 main_v221 (maximumf : (⟨S10000, .f32⟩ : BufTy).Contents (Elt F) → (⟨S10000, .f32⟩ : BufTy).Contents (Elt F) → (⟨S10000, .f32⟩ : BufTy).Contents (Elt F)),
    nullary main_cst_66 (constant S_ .f32 0x00000000#32),
    unary main_cst_66 main_v222 (broadcastInDim S10000 ![] bcast_S_S10000 : (⟨S_, .f32⟩ : BufTy).Contents (Elt F) → (⟨S10000, .f32⟩ : BufTy).Contents (Elt F)),
    unary main_arg4 main_v223 (broadcastInDim S320000x1 ![0] bcast_S320000_S320000x1_0 : (⟨S320000, .i32⟩ : BufTy).Contents (Elt F) → (⟨S320000x1, .i32⟩ : BufTy).Contents (Elt F)),
    ternary main_v222 main_v223 main_v215 main_v224 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    binary main_v224 main_v221 main_v225 (Host.divf : (⟨S10000, .f32⟩ : BufTy).Contents (Elt F) → (⟨S10000, .f32⟩ : BufTy).Contents (Elt F) → (⟨S10000, .f32⟩ : BufTy).Contents (Elt F)),
    binary main_v88 main_v88 main_v226 (mulf : (⟨S10000x256, .f32⟩ : BufTy).Contents (Elt F) → (⟨S10000x256, .f32⟩ : BufTy).Contents (Elt F) → (⟨S10000x256, .f32⟩ : BufTy).Contents (Elt F)),
    nullary main_cst_67 (constant S_ .f32 0x00000000#32),
    binary main_v226 main_cst_67 main_v227 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v227 main_v228 (broadcastInDim S10000x1 ![0] bcast_S10000_S10000x1_0 : (⟨S10000, .f32⟩ : BufTy).Contents (Elt F) → (⟨S10000x1, .f32⟩ : BufTy).Contents (Elt F)),
    unary main_v228 main_v229 (Host.sqrt : (⟨S10000x1, .f32⟩ : BufTy).Contents (Elt F) → (⟨S10000x1, .f32⟩ : BufTy).Contents (Elt F)),
    nullary main_cst_68 (constant S_ .f32 0x2B8CBCCC#32),
    unary main_cst_68 main_v230 (broadcastInDim S10000x1 ![] bcast_S_S10000x1 : (⟨S_, .f32⟩ : BufTy).Contents (Elt F) → (⟨S10000x1, .f32⟩ : BufTy).Contents (Elt F)),
    binary main_v229 main_v230 main_v231 (maximumf : (⟨S10000x1, .f32⟩ : BufTy).Contents (Elt F) → (⟨S10000x1, .f32⟩ : BufTy).Contents (Elt F) → (⟨S10000x1, .f32⟩ : BufTy).Contents (Elt F)),
    unary main_v231 main_v232 (broadcastInDim S10000x256 ![0, 1] bcast_S10000x1_S10000x256_0_1 : (⟨S10000x1, .f32⟩ : BufTy).Contents (Elt F) → (⟨S10000x256, .f32⟩ : BufTy).Contents (Elt F)),
    binary main_v88 main_v232 main_v233 (Host.divf : (⟨S10000x256, .f32⟩ : BufTy).Contents (Elt F) → (⟨S10000x256, .f32⟩ : BufTy).Contents (Elt F) → (⟨S10000x256, .f32⟩ : BufTy).Contents (Elt F)),
    binary main_v177 main_v177 main_v234 (mulf : (⟨S10000x256, .f32⟩ : BufTy).Contents (Elt F) → (⟨S10000x256, .f32⟩ : BufTy).Contents (Elt F) → (⟨S10000x256, .f32⟩ : BufTy).Contents (Elt F)),
    nullary main_cst_69 (constant S_ .f32 0x00000000#32),
    binary main_v234 main_cst_69 main_v235 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v235 main_v236 (broadcastInDim S10000x1 ![0] bcast_S10000_S10000x1_0 : (⟨S10000, .f32⟩ : BufTy).Contents (Elt F) → (⟨S10000x1, .f32⟩ : BufTy).Contents (Elt F)),
    unary main_v236 main_v237 (Host.sqrt : (⟨S10000x1, .f32⟩ : BufTy).Contents (Elt F) → (⟨S10000x1, .f32⟩ : BufTy).Contents (Elt F)),
    nullary main_cst_70 (constant S_ .f32 0x2B8CBCCC#32),
    unary main_cst_70 main_v238 (broadcastInDim S10000x1 ![] bcast_S_S10000x1 : (⟨S_, .f32⟩ : BufTy).Contents (Elt F) → (⟨S10000x1, .f32⟩ : BufTy).Contents (Elt F)),
    binary main_v237 main_v238 main_v239 (maximumf : (⟨S10000x1, .f32⟩ : BufTy).Contents (Elt F) → (⟨S10000x1, .f32⟩ : BufTy).Contents (Elt F) → (⟨S10000x1, .f32⟩ : BufTy).Contents (Elt F)),
    unary main_v239 main_v240 (broadcastInDim S10000x256 ![0, 1] bcast_S10000x1_S10000x256_0_1 : (⟨S10000x1, .f32⟩ : BufTy).Contents (Elt F) → (⟨S10000x256, .f32⟩ : BufTy).Contents (Elt F)),
    binary main_v177 main_v240 main_v241 (Host.divf : (⟨S10000x256, .f32⟩ : BufTy).Contents (Elt F) → (⟨S10000x256, .f32⟩ : BufTy).Contents (Elt F) → (⟨S10000x256, .f32⟩ : BufTy).Contents (Elt F)),
    unary main_v233 main_v242 ((transpose S256x10000 [1, 0] · transposes_S10000x256_S256x10000_1_0) : (⟨S10000x256, .f32⟩ : BufTy).Contents (Elt F) → (⟨S256x10000, .f32⟩ : BufTy).Contents (Elt F)),
    binary main_v233 main_v242 main_v243 ((fun l r => Host.dotGeneral dot_S10000x256_S256x10000_S10000x10000_1_0_0_1_n_n none l r) : (⟨S10000x256, .f32⟩ : BufTy).Contents (Elt F) → (⟨S256x10000, .f32⟩ : BufTy).Contents (Elt F) → (⟨S10000x10000, .f32⟩ : BufTy).Contents (Elt F)),
    unary main_arg5 main_v244 (broadcastInDim S10000x10000 ![] bcast_S_S10000x10000 : (⟨S_, .f32⟩ : BufTy).Contents (Elt F) → (⟨S10000x10000, .f32⟩ : BufTy).Contents (Elt F)),
    binary main_v243 main_v244 main_v245 (Host.divf : (⟨S10000x10000, .f32⟩ : BufTy).Contents (Elt F) → (⟨S10000x10000, .f32⟩ : BufTy).Contents (Elt F) → (⟨S10000x10000, .f32⟩ : BufTy).Contents (Elt F)),
    unary main_v245 main_v246 (Host.exp : (⟨S10000x10000, .f32⟩ : BufTy).Contents (Elt F) → (⟨S10000x10000, .f32⟩ : BufTy).Contents (Elt F)),
    nullary main_cst_71 (constant S_ .f32 0x00000000#32),
    binary main_v246 main_cst_71 main_v247 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v241 main_v248 ((transpose S256x10000 [1, 0] · transposes_S10000x256_S256x10000_1_0) : (⟨S10000x256, .f32⟩ : BufTy).Contents (Elt F) → (⟨S256x10000, .f32⟩ : BufTy).Contents (Elt F)),
    binary main_v233 main_v248 main_v249 ((fun l r => Host.dotGeneral dot_S10000x256_S256x10000_S10000x10000_1_0_0_1_n_n none l r) : (⟨S10000x256, .f32⟩ : BufTy).Contents (Elt F) → (⟨S256x10000, .f32⟩ : BufTy).Contents (Elt F) → (⟨S10000x10000, .f32⟩ : BufTy).Contents (Elt F)),
    unary main_arg5 main_v250 (broadcastInDim S10000x10000 ![] bcast_S_S10000x10000 : (⟨S_, .f32⟩ : BufTy).Contents (Elt F) → (⟨S10000x10000, .f32⟩ : BufTy).Contents (Elt F)),
    binary main_v249 main_v250 main_v251 (Host.divf : (⟨S10000x10000, .f32⟩ : BufTy).Contents (Elt F) → (⟨S10000x10000, .f32⟩ : BufTy).Contents (Elt F) → (⟨S10000x10000, .f32⟩ : BufTy).Contents (Elt F)),
    unary main_v251 main_v252 (Host.exp : (⟨S10000x10000, .f32⟩ : BufTy).Contents (Elt F) → (⟨S10000x10000, .f32⟩ : BufTy).Contents (Elt F)),
    nullary main_cst_72 (constant S_ .f32 0x00000000#32),
    binary main_v252 main_cst_72 main_v253 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    binary main_v247 main_v253 main_v254 (addf : (⟨S10000, .f32⟩ : BufTy).Contents (Elt F) → (⟨S10000, .f32⟩ : BufTy).Contents (Elt F) → (⟨S10000, .f32⟩ : BufTy).Contents (Elt F)),
    nullary main_c_73 (constantI S_ 32 0#32),
    unary main_c_73 main_v255 (broadcastInDim S320000 ![] bcast_S_S320000 : (⟨S_, .i32⟩ : BufTy).Contents (Elt F) → (⟨S320000, .i32⟩ : BufTy).Contents (Elt F)),
    binary main_arg4 main_v255 main_v256 (cmpi .slt : (⟨S320000, .i32⟩ : BufTy).Contents (Elt F) → (⟨S320000, .i32⟩ : BufTy).Contents (Elt F) → (⟨S320000, .i1⟩ : BufTy).Contents (Elt F)),
    nullary main_c_74 (constantI S_ 32 10000#32),
    unary main_c_74 main_v257 (broadcastInDim S320000 ![] bcast_S_S320000 : (⟨S_, .i32⟩ : BufTy).Contents (Elt F) → (⟨S320000, .i32⟩ : BufTy).Contents (Elt F)),
    binary main_arg4 main_v257 main_v258 (addi : (⟨S320000, .i32⟩ : BufTy).Contents (Elt F) → (⟨S320000, .i32⟩ : BufTy).Contents (Elt F) → (⟨S320000, .i32⟩ : BufTy).Contents (Elt F)),
    ternary main_v256 main_v258 main_arg4 main_v259 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v259 main_v260 (broadcastInDim S320000x1 ![0] bcast_S320000_S320000x1_0 : (⟨S320000, .i32⟩ : BufTy).Contents (Elt F) → (⟨S320000x1, .i32⟩ : BufTy).Contents (Elt F)),
    binary main_v254 main_v260 main_v261 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    unary main_v215 main_v262 (Host.exp : (⟨S320000, .f32⟩ : BufTy).Contents (Elt F) → (⟨S320000, .f32⟩ : BufTy).Contents (Elt F)),
    binary main_v261 main_v262 main_v263 (addf : (⟨S320000, .f32⟩ : BufTy).Contents (Elt F) → (⟨S320000, .f32⟩ : BufTy).Contents (Elt F) → (⟨S320000, .f32⟩ : BufTy).Contents (Elt F)),
    unary main_v263 main_v264 (Host.log : (⟨S320000, .f32⟩ : BufTy).Contents (Elt F) → (⟨S320000, .f32⟩ : BufTy).Contents (Elt F)),
    nullary main_cst_75 (constant S_ .f32 0x00000000#32),
    unary main_cst_75 main_v265 (broadcastInDim S10000 ![] bcast_S_S10000 : (⟨S_, .f32⟩ : BufTy).Contents (Elt F) → (⟨S10000, .f32⟩ : BufTy).Contents (Elt F)),
    unary main_arg4 main_v266 (broadcastInDim S320000x1 ![0] bcast_S320000_S320000x1_0 : (⟨S320000, .i32⟩ : BufTy).Contents (Elt F) → (⟨S320000x1, .i32⟩ : BufTy).Contents (Elt F)),
    ternary main_v265 main_v266 main_v264 main_v267 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    binary main_v267 main_v221 main_v268 (Host.divf : (⟨S10000, .f32⟩ : BufTy).Contents (Elt F) → (⟨S10000, .f32⟩ : BufTy).Contents (Elt F) → (⟨S10000, .f32⟩ : BufTy).Contents (Elt F)),
    unary main_v225 main_v269 (Host.negf : (⟨S10000, .f32⟩ : BufTy).Contents (Elt F) → (⟨S10000, .f32⟩ : BufTy).Contents (Elt F)),
    binary main_v269 main_v268 main_v270 (addf : (⟨S10000, .f32⟩ : BufTy).Contents (Elt F) → (⟨S10000, .f32⟩ : BufTy).Contents (Elt F) → (⟨S10000, .f32⟩ : BufTy).Contents (Elt F)),
    nullary main_cst_76 (constant S_ .f32 0x00000000#32),
    binary main_v270 main_cst_76 main_v271 ((fun x v => Host.reduceAdd x v reducesTo_S10000_S_d0 h_S_) : (⟨S10000, .f32⟩ : BufTy).Contents (Elt F) → (⟨S_, .f32⟩ : BufTy).Contents (Elt F) → (⟨S_, .f32⟩ : BufTy).Contents (Elt F)),
    nullary main_cst_77 (constant S_ .f32 0x461C4000#32),
    binary main_v271 main_cst_77 main_v272 (Host.divf : (⟨S_, .f32⟩ : BufTy).Contents (Elt F) → (⟨S_, .f32⟩ : BufTy).Contents (Elt F) → (⟨S_, .f32⟩ : BufTy).Contents (Elt F)) ]

set_option maxHeartbeats 0 in
theorem read_ref_v272 (Q : Valuation τ sig (Elt F)) :
    after lossRefOps Q (Proc.devRef .tc main_v272)
      = lossR (negR (zR (Q (Proc.devRef .tc main_v88))) (stuR (Q (Proc.devRef .tc main_v177))) (Q (Proc.devRef .tc main_arg5))) (simR (Q (Proc.devRef .tc main_v177)) (qlinR (Q (Proc.devRef .tc main_v88)) (Q (Proc.devRef .tc main_arg19)) (Q (Proc.devRef .tc main_arg20))) (Q (Proc.devRef .tc main_arg5)) (Q (Proc.devRef .tc main_arg3)) (Q (Proc.devRef .tc main_arg4))) (denomR (Q (Proc.devRef .tc main_arg4))) (posR (Q (Proc.devRef .tc main_v177)) (qlinR (Q (Proc.devRef .tc main_v88)) (Q (Proc.devRef .tc main_arg19)) (Q (Proc.devRef .tc main_arg20))) (Q (Proc.devRef .tc main_arg5)) (Q (Proc.devRef .tc main_arg3)) (Q (Proc.devRef .tc main_arg4))) (Q (Proc.devRef .tc main_arg4)) := by
  after_results_simp <;> rfl

set_option maxHeartbeats 0 in
theorem ref_ops_split254 : (ops : List (HloOp τ sig (Elt F))) = ops.take 254 ++ (lossRefOps ++ ops.drop 373) := by
  conv_lhs => rw [← List.take_append_drop 254 (ops : List (HloOp τ sig (Elt F)))]
  exact congrArg (ops.take 254 ++ ·) rfl

set_option maxHeartbeats 0 in
theorem ref_v88_kept254 : ∀ op ∈ ((lossRefOps ++ ops.drop 373 : List (HloOp τ sig (Elt Ideal)))), (Proc.devRef .tc main_v88 : DevRef τ sig) ∉ op.writes := by
  decide +kernel

set_option maxHeartbeats 0 in
theorem ref_v177_kept254 : ∀ op ∈ ((lossRefOps ++ ops.drop 373 : List (HloOp τ sig (Elt Ideal)))), (Proc.devRef .tc main_v177 : DevRef τ sig) ∉ op.writes := by
  decide +kernel

set_option maxHeartbeats 0 in
theorem ref_v272_kept : ∀ op ∈ ((ops.drop 373 : List (HloOp τ sig (Elt Ideal)))), (Proc.devRef .tc main_v272 : DevRef τ sig) ∉ op.writes := by
  decide +kernel

set_option maxHeartbeats 0 in
/-- The reference's first loss, from its two second-layer results and its arguments as launched. -/
theorem ref_main_v272 (m' : (ℓ : Loc nD τ sig) → Buf (Elt Ideal) ℓ) (d : Dev nD) :
    after (ops (F := Ideal)) (launchContents m' d) (Proc.devRef .tc main_v272)
      = lossR (negR (zR (after (ops (F := Ideal)) (launchContents m' d) (Proc.devRef .tc main_v88))) (stuR (after (ops (F := Ideal)) (launchContents m' d) (Proc.devRef .tc main_v177))) (m' ((d.tc : Thread nD τ).loc main_arg5))) (simR (after (ops (F := Ideal)) (launchContents m' d) (Proc.devRef .tc main_v177)) (qlinR (after (ops (F := Ideal)) (launchContents m' d) (Proc.devRef .tc main_v88)) (m' ((d.tc : Thread nD τ).loc main_arg19)) (m' ((d.tc : Thread nD τ).loc main_arg20))) (m' ((d.tc : Thread nD τ).loc main_arg5)) (m' ((d.tc : Thread nD τ).loc main_arg3)) (m' ((d.tc : Thread nD τ).loc main_arg4))) (denomR (m' ((d.tc : Thread nD τ).loc main_arg4))) (posR (after (ops (F := Ideal)) (launchContents m' d) (Proc.devRef .tc main_v177)) (qlinR (after (ops (F := Ideal)) (launchContents m' d) (Proc.devRef .tc main_v88)) (m' ((d.tc : Thread nD τ).loc main_arg19)) (m' ((d.tc : Thread nD τ).loc main_arg20))) (m' ((d.tc : Thread nD τ).loc main_arg5)) (m' ((d.tc : Thread nD τ).loc main_arg3)) (m' ((d.tc : Thread nD τ).loc main_arg4))) (m' ((d.tc : Thread nD τ).loc main_arg4)) := by
  have e88 : (after (ops (F := Ideal)) (launchContents m' d) (Proc.devRef .tc main_v88)) = (after ((ops : List (HloOp τ sig (Elt Ideal))).take 254) (launchContents m' d)) (Proc.devRef .tc main_v88) := by
    conv_lhs => rw [ref_ops_split254 (F := Ideal), Cert.KernelIdeal.Hand.after_append]
    exact after_of_forall_not_mem _ _ ref_v88_kept254
  have e177 : (after (ops (F := Ideal)) (launchContents m' d) (Proc.devRef .tc main_v177)) = (after ((ops : List (HloOp τ sig (Elt Ideal))).take 254) (launchContents m' d)) (Proc.devRef .tc main_v177) := by
    conv_lhs => rw [ref_ops_split254 (F := Ideal), Cert.KernelIdeal.Hand.after_append]
    exact after_of_forall_not_mem _ _ ref_v177_kept254
  have e272 : (after (ops (F := Ideal)) (launchContents m' d) (Proc.devRef .tc main_v272)) = after lossRefOps (after ((ops : List (HloOp τ sig (Elt Ideal))).take 254) (launchContents m' d)) (Proc.devRef .tc main_v272) := by
    conv_lhs => rw [ref_ops_split254 (F := Ideal), Cert.KernelIdeal.Hand.after_append, Cert.KernelIdeal.Hand.after_append]
    exact after_of_forall_not_mem _ _ ref_v272_kept
  have q3 : (after ((ops : List (HloOp τ sig (Elt Ideal))).take 254) (launchContents m' d)) (Proc.devRef .tc main_arg3) = m' ((d.tc : Thread nD τ).loc main_arg3) := (ref_take_arg 254 _ main_arg3 (by decide)).trans rfl
  have q4 : (after ((ops : List (HloOp τ sig (Elt Ideal))).take 254) (launchContents m' d)) (Proc.devRef .tc main_arg4) = m' ((d.tc : Thread nD τ).loc main_arg4) := (ref_take_arg 254 _ main_arg4 (by decide)).trans rfl
  have q5 : (after ((ops : List (HloOp τ sig (Elt Ideal))).take 254) (launchContents m' d)) (Proc.devRef .tc main_arg5) = m' ((d.tc : Thread nD τ).loc main_arg5) := (ref_take_arg 254 _ main_arg5 (by decide)).trans rfl
  have q19 : (after ((ops : List (HloOp τ sig (Elt Ideal))).take 254) (launchContents m' d)) (Proc.devRef .tc main_arg19) = m' ((d.tc : Thread nD τ).loc main_arg19) := (ref_take_arg 254 _ main_arg19 (by decide)).trans rfl
  have q20 : (after ((ops : List (HloOp τ sig (Elt Ideal))).take 254) (launchContents m' d)) (Proc.devRef .tc main_arg20) = m' ((d.tc : Thread nD τ).loc main_arg20) := (ref_take_arg 254 _ main_arg20 (by decide)).trans rfl
  show (after (ops (F := Ideal)) (launchContents m' d) (Proc.devRef .tc main_v272)) = _
  rw [e272, read_ref_v272, e88, e177, q3, q4, q5, q19, q20]

/-- info: 'Cert.Proof.Parts.ref_main_v272' depends on axioms: [propext, Classical.choice, Quot.sound] -/
#guard_msgs in #print axioms ref_main_v272

end Cert.Proof.Parts

end
-- ==== Proof.Loss1.lean ====
/-
  The first contrastive loss: the reference's is the kernel's.

  Both programs form the loss from the same pieces by the same operations. They differ in two places: the projected
  queries (a host product in the reference, region 3 in the kernel) and the negative row sums (computed whole on the
  host in the reference, block by block with a carried accumulator by region 4 in the kernel). Given those two
  agreements and the agreement of the two second-layer results the pieces are built from, the losses are one term.
-/
import proofs.«175488_j3908420240157_2_alg».proof.Proof.Algebraic
import proofs.«175488_j3908420240157_2_alg».proof.Proof.RefLoss
import proofs.«175488_j3908420240157_2_alg».proof.Proof.KI.LossChain

set_option maxRecDepth 65536

noncomputable section

namespace Cert.Proof.Parts

open Idealize.ShloMosaic Idealize.ShloMosaic.TcCoe Idealize.SL.Sem

set_option maxHeartbeats 0 in
/-- The first loss agrees, from: the two second-layer results agreeing (e0, e1); region 3's output being the reference's
    projected queries (hA); region 4's output, as one vector, being the reference's negative row sums (hB). -/
theorem loss1_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : Agree m m') (c : Dev Cert.KernelIdeal.nD)
    (e0 : StableHlo.after (Cert.ReferenceIdeal.OpsP.ops (F := Ideal)) (StableHlo.launchContents m' c) (Proc.devRef .tc Cert.ReferenceIdeal.main_v88) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v101)
    (e1 : StableHlo.after (Cert.ReferenceIdeal.OpsP.ops (F := Ideal)) (StableHlo.launchContents m' c) (Proc.devRef .tc Cert.ReferenceIdeal.main_v177) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v140)
    (hA : Cert.KernelIdeal.Hand.o3 m c = qlinR (StableHlo.after (Cert.ReferenceIdeal.OpsP.ops (F := Ideal)) (StableHlo.launchContents m' c) (Proc.devRef .tc Cert.ReferenceIdeal.main_v88)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)))
    (hB : shapeCast _ (Cert.KernelIdeal.Hand.o4 m c) Cert.KernelIdeal.Gen.shapeCasts_S10000x1_S10000
        = negR (zR (StableHlo.after (Cert.ReferenceIdeal.OpsP.ops (F := Ideal)) (StableHlo.launchContents m' c) (Proc.devRef .tc Cert.ReferenceIdeal.main_v88))) (stuR (StableHlo.after (Cert.ReferenceIdeal.OpsP.ops (F := Ideal)) (StableHlo.launchContents m' c) (Proc.devRef .tc Cert.ReferenceIdeal.main_v177))) (m' ((c.tc : Thread Cert.ReferenceIdeal.nD Cert.ReferenceIdeal.τ).loc Cert.ReferenceIdeal.main_arg5))) :
    StableHlo.after (Cert.ReferenceIdeal.OpsP.ops (F := Ideal)) (StableHlo.launchContents m' c) (Proc.devRef .tc Cert.ReferenceIdeal.main_v272) = Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m) c Cert.KernelIdeal.main_v224 := by
  obtain ⟨-, -, -, a3, a4, a5, -, -, -, -, -, -, -, -, -, -, -, -, -, -, -⟩ := hagree c
  refine (ref_main_v272 m' c).trans ?_
  refine Eq.trans ?_ (Cert.KernelIdeal.Hand.W26_main_v224 m (Cert.KernelIdeal.Hand.o0 m) (Cert.KernelIdeal.Hand.o1 m) (Cert.KernelIdeal.Hand.o2 m) (Cert.KernelIdeal.Hand.o3 m) (Cert.KernelIdeal.Hand.o4 m) c).symm
  rw [hA, hB, ← Cert.KernelIdeal.Hand.W32_main_v140_W23 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c, ← e1, a3, a4, a5]
  rfl

/-- info: 'Cert.Proof.Parts.loss1_agree' depends on axioms: [propext, Classical.choice, Quot.sound] -/
#guard_msgs in #print axioms loss1_agree

end Cert.Proof.Parts

end
-- ==== Proof.LibScaledDot.lean ====
/-
  A dot product of a scaled row on the extended reals.

  At the exact reading a quotient x / t is x · t⁻¹ when t is not zero. For real x, y and a real nonzero t the quotient is
  the reals' own, so a factor 1 / t moves across a finite sum of products:

      ∑ₖ (xₖ / t) · yₖ  =  (∑ₖ xₖ · yₖ) / t.

  (At the infinities the law fails: for x = (⊤, ⊥), y = (1, 1), t = -1 the left side is ⊥ + ⊤ = ⊥ and the right side
  (⊤ + ⊥) · (-1) = ⊤.) Also: the quotient of a real by a nonzero real is a real.

  * "div_coe_coe": the quotient of two reals, the divisor nonzero, is the coercion of the reals' quotient.
  * "div_real": hence a real.
  * "coe_sum": the coercion of a finite sum of reals.
  * "sum_div_mul": the displayed law over any finite index set; "sum_div_mul_fin" over "Fin K".
  * "divf_eq", "hostDivf_eq": a kernel's and the host's float quotient are that quotient.
-/
import Idealize.ShloMosaic.PureOps.Ideal
import Idealize.ShloMosaic.PureOps.Ideal.Laws

noncomputable section

open scoped BigOperators

namespace Cert.Lib.ScaledDot

open Idealize.ShloMosaic

/-- The quotient of a real by a nonzero real is the reals' quotient. -/
theorem div_coe_coe (a t : ℝ) (ht : t ≠ 0) : Ideal.div (a : EReal) (t : EReal) = ((a / t : ℝ) : EReal) := by
  rw [Ideal.div_coe ht, ← EReal.coe_mul, mul_one_div]

/-- A real divided by a nonzero real is a real. -/
theorem div_real {x t : EReal} (hx : ∃ r : ℝ, x = (r : EReal)) (ht : ∃ r : ℝ, t = (r : EReal)) (ht0 : t ≠ 0) :
    ∃ r : ℝ, Ideal.div x t = (r : EReal) := by
  obtain ⟨a, rfl⟩ := hx
  obtain ⟨b, rfl⟩ := ht
  have hb : b ≠ 0 := fun h => ht0 (by rw [h, EReal.coe_zero])
  exact ⟨a / b, div_coe_coe a b hb⟩

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For real xₖ, yₖ and a real nonzero t: ∑ₖ (xₖ / t) · yₖ = (∑ₖ xₖ · yₖ) / t. -/
theorem sum_div_mul {ι : Type} (s : Finset ι) (x y : ι → EReal) (t : EReal)
    (hx : ∀ k, ∃ r : ℝ, x k = (r : EReal)) (hy : ∀ k, ∃ r : ℝ, y k = (r : EReal))
    (ht : ∃ r : ℝ, t = (r : EReal)) (ht0 : t ≠ 0) :
    ∑ k ∈ s, Ideal.div (x k) t * y k = Ideal.div (∑ k ∈ s, x k * y k) t := by
  choose x' hx' using hx
  choose y' hy' using hy
  obtain ⟨b, rfl⟩ := ht
  have hb : b ≠ 0 := fun h => ht0 (by rw [h, EReal.coe_zero])
  have hsum : ∑ k ∈ s, x k * y k = ((∑ k ∈ s, x' k * y' k : ℝ) : EReal) := by
    rw [coe_sum]
    exact Finset.sum_congr rfl fun k _ => by rw [hx', hy', EReal.coe_mul]
  rw [hsum, div_coe_coe _ _ hb, Finset.sum_div, coe_sum]
  refine Finset.sum_congr rfl fun k _ => ?_
  rw [hx', hy', div_coe_coe _ _ hb, ← EReal.coe_mul, div_mul_eq_mul_div]

/-- The same over the coordinates of one axis. -/
theorem sum_div_mul_fin {K : Nat} (x y : Fin K → EReal) (t : EReal)
    (hx : ∀ k, ∃ r : ℝ, x k = (r : EReal)) (hy : ∀ k, ∃ r : ℝ, y k = (r : EReal))
    (ht : ∃ r : ℝ, t = (r : EReal)) (ht0 : t ≠ 0) :
    ∑ k : Fin K, Ideal.div (x k) t * y k = Ideal.div (∑ k : Fin K, x k * y k) t :=
  sum_div_mul Finset.univ x y t hx hy ht ht0

/-- A kernel's float quotient at the exact reading is "Ideal.div". -/
theorem divf_eq {φ : FTy} (x t : Ideal φ) : FloatOps.divf x t = Ideal.div x t := rfl

/-- The host's float quotient at the exact reading is the same "Ideal.div". -/
theorem hostDivf_eq {φ : FTy} (x t : Ideal φ) : FloatOps.hostDivf x t = Ideal.div x t := rfl

end Cert.Lib.ScaledDot

end
-- ==== Proof.LibBlockSum.lean ====
/-
  A sum over a range cut into equal consecutive blocks, and a running total built one block at a time.

  The a·b indices below a·b are the pairs (block t below a, offset y below b) through t·b + y, so a sum over all of
  them is the sum over the blocks of the sums within each block; only the commutativity and associativity of the
  addition is used. A running total that starts at z plus the first term and adds one more term at every step ends at z
  plus the sum of all the terms.
-/
import Mathlib

open scoped BigOperators

namespace Cert.LibBlockSum

variable {M : Type*} [AddCommMonoid M]

/-- Offset y of block t lies below a·b. -/
theorem blk_lt {a b : ℕ} (t : Fin a) (y : Fin b) : t.val * b + y.val < a * b :=
  calc t.val * b + y.val < t.val * b + b := Nat.add_lt_add_left y.isLt _
    _ = (t.val + 1) * b := (Nat.succ_mul _ _).symm
    _ ≤ a * b := Nat.mul_le_mul_right b t.isLt

/-- The same with the product written the other way round. -/
theorem blk_lt' {a b : ℕ} (t : Fin a) (y : Fin b) : b * t.val + y.val < a * b := by
  rw [Nat.mul_comm b]; exact blk_lt t y

/-- A sum over the indices below a·b is the sum over the a blocks of the sums over the b offsets within a block, the index
    written t·b + y. -/
theorem sum_blocks (a b : ℕ) (f : Fin (a * b) → M) (h : ∀ (t : Fin a) (y : Fin b), t.val * b + y.val < a * b) :
    ∑ t : Fin a, ∑ y : Fin b, f ⟨t.val * b + y.val, h t y⟩ = ∑ r : Fin (a * b), f r := by
  rw [← Equiv.sum_comp finProdFinEquiv f, Fintype.sum_prod_type]
  refine Finset.sum_congr rfl fun t _ => Finset.sum_congr rfl fun y _ => congrArg f (Fin.ext ?_)
  show t.val * b + y.val = y.val + b * t.val
  rw [Nat.mul_comm, Nat.add_comm]

/-- The same with the index written b·t + y. -/
theorem sum_blocks' (a b : ℕ) (f : Fin (a * b) → M) (h : ∀ (t : Fin a) (y : Fin b), b * t.val + y.val < a * b) :
    ∑ t : Fin a, ∑ y : Fin b, f ⟨b * t.val + y.val, h t y⟩ = ∑ r : Fin (a * b), f r := by
  rw [← sum_blocks a b f fun t y => blk_lt t y]
  exact Finset.sum_congr rfl fun t _ => Finset.sum_congr rfl fun y _ => congrArg f (Fin.ext (by
    show b * t.val + y.val = t.val * b + y.val
    rw [Nat.mul_comm]))

/-- 50000 rows as 10 blocks of 5000, the row written t·5000 + y. -/
theorem sum_rows_10x5000 (f : Fin 50000 → M) (h : ∀ (t : Fin 10) (y : Fin 5000), t.val * 5000 + y.val < 50000) :
    ∑ t : Fin 10, ∑ y : Fin 5000, f ⟨t.val * 5000 + y.val, h t y⟩ = ∑ r : Fin 50000, f r :=
  sum_blocks 10 5000 f h

/-- 50000 rows as 10 blocks of 5000, the row written 5000·t + y. -/
theorem sum_rows_10x5000' (f : Fin 50000 → M) (h : ∀ (t : Fin 10) (y : Fin 5000), 5000 * t.val + y.val < 50000) :
    ∑ t : Fin 10, ∑ y : Fin 5000, f ⟨5000 * t.val + y.val, h t y⟩ = ∑ r : Fin 50000, f r :=
  sum_blocks' 10 5000 f h

/-- A running total over terms indexed by the naturals: from z plus term 0, one more term added at each of n steps, it
    ends at z plus the sum of the terms 0 … n. -/
theorem acc_range (n : ℕ) (g : ℕ → M) (z : M) (acc : ℕ → M) (h0 : acc 0 = z + g 0)
    (hs : ∀ t, t < n → acc (t + 1) = acc t + g (t + 1)) : acc n = z + ∑ t ∈ Finset.range (n + 1), g t := by
  induction n with
  | zero => rw [h0, Finset.sum_range_one]
  | succ k ih =>
    rw [hs k (Nat.lt_succ_self k), ih fun t ht => hs t (Nat.lt_succ_of_lt ht), Finset.sum_range_succ _ (k + 1), add_assoc]

/-- The same over n + 1 terms indexed below n + 1. -/
theorem acc_fin (n : ℕ) (g : Fin (n + 1) → M) (z : M) (acc : ℕ → M) (h0 : acc 0 = z + g 0)
    (hs : ∀ t (ht : t < n), acc (t + 1) = acc t + g ⟨t + 1, Nat.succ_lt_succ ht⟩) :
    acc n = z + ∑ t : Fin (n + 1), g t := by
  have key := acc_range n (fun t => if ht : t < n + 1 then g ⟨t, ht⟩ else 0) z acc
    (by rw [h0, dif_pos (Nat.succ_pos n)]; rfl)
    (fun t ht => by rw [hs t ht, dif_pos (Nat.succ_lt_succ ht)])
  rw [key, ← Fin.sum_univ_eq_sum_range (fun t => if ht : t < n + 1 then g ⟨t, ht⟩ else 0) (n + 1)]
  exact congrArg (z + ·) (Finset.sum_congr rfl fun t _ => by rw [dif_pos t.isLt])

/-- Ten terms: from z plus term 0, one more term added at each of nine steps, the total ends at z plus the sum of the ten. -/
theorem acc_fin_10 (g : Fin 10 → M) (z : M) (acc : ℕ → M) (h0 : acc 0 = z + g 0)
    (hs : ∀ t (ht : t < 9), acc (t + 1) = acc t + g ⟨t + 1, Nat.succ_lt_succ ht⟩) :
    acc 9 = z + ∑ t : Fin 10, g t :=
  acc_fin 9 g z acc h0 hs

end Cert.LibBlockSum
-- ==== Proof.LibNegSimRow.lean ====
/-
  Row sums of exponentials of split products, block by block.

  A kernel forms, for a block q of M rows and two blocks y₁, y₂ of N rows each (all with K columns, all with real
  entries), the M × N array E(r, c) = exp(q·y₁ᵀ)(r, c) + exp(q·y₂ᵀ)(r, c), each product by the three-pass split, then
  adds every row's sum over c to a column accumulator. Read at the exact values:

  * "exp_pair_ix2": E(r, c) = exp(∑ₖ q(r,k)·y₁(c,k)) + exp(∑ₖ q(r,k)·y₂(c,k));
  * "shapeCast_a_a1_apply": a length-a vector viewed as an a × 1 column reads, at (i, 0), the vector at i;
  * "rowsum_ix1": a kernel's sum of an M × N array over its columns is, at row r, the sum over c of the array at (r, c);
  * "rowsum_acc_ix2": so the accumulator plus the column view of those row sums is, at (r, 0), acc(r, 0) + ∑_c v(r, c);
  * "sum_blocks_add": summing f + g over B blocks of n columns block by block is the sum of f over all B·n columns
    plus the sum of g over them (commutativity and associativity of the addition only: no finiteness is needed);
  * "exp_scaled_dot": for real rows and a real nonzero t, exp(∑ₖ (xₖ / t)·yₖ) = exp((∑ₖ xₖ·yₖ) / t).
-/
import Idealize.ShloMosaic.PureOps.Ideal.Laws
import Idealize.ShloMosaic.Lib.ValueIdx
import Idealize.ShloMosaic.Lib.ValueLayout
import proofs.«175488_j3908420240157_2_alg».proof.Proof.LibSplitProduct
import proofs.«175488_j3908420240157_2_alg».proof.Proof.LibScaledDot
import proofs.«175488_j3908420240157_2_alg».proof.Proof.LibBlockSum

noncomputable section

open scoped BigOperators

namespace Cert.Lib.NegSimRow

open Idealize.ShloMosaic Idealize.ShloMosaic.ValueIdx

/-! ## The exponentials of two split products against transposed blocks, added -/

/-- E(r, c) = exp(∑ₖ q(r,k)·y₁(c,k)) + exp(∑ₖ q(r,k)·y₂(c,k)) for blocks with real entries. -/
theorem exp_pair_ix2 {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (q : FVec Ideal ⟨2, ![M, K]⟩ .f32) (y₁ y₂ : FVec Ideal ⟨2, ![N, K]⟩ .f32)
    (hq : ∀ i, ∃ r : ℝ, q i = (r : EReal)) (hy₁ : ∀ i, ∃ r : ℝ, y₁ i = (r : EReal)) (hy₂ : ∀ i, ∃ r : ℝ, y₂ i = (r : EReal))
    (hb : (FTy.bf16).bits < (FTy.f32).bits)
    (ht : (⟨2, ![N, K]⟩ : Shape).Transposes [1, 0] ⟨2, ![K, N]⟩) (r : Fin M) (c : Fin N) :
    addf (F := Ideal)
        (exp (F := Ideal)
          (addf (F := Ideal)
            (addf (F := Ideal)
              (matmul (F := Ideal) d none (truncf .bf16 q hb) (truncf .bf16 (transpose ⟨2, ![K, N]⟩ [1, 0] y₁ ht) hb)
                (constant ⟨2, ![M, N]⟩ .f32 0x00000000#32))
              (matmul (F := Ideal) d none (truncf .bf16 q hb)
                (truncf .bf16 (subf (transpose ⟨2, ![K, N]⟩ [1, 0] y₁ ht) (transpose ⟨2, ![K, N]⟩ [1, 0] y₁ ht)) hb)
                (constant ⟨2, ![M, N]⟩ .f32 0x00000000#32)))
            (matmul (F := Ideal) d none (truncf .bf16 (subf q q) hb) (truncf .bf16 (transpose ⟨2, ![K, N]⟩ [1, 0] y₁ ht) hb)
              (constant ⟨2, ![M, N]⟩ .f32 0x00000000#32))))
        (exp (F := Ideal)
          (addf (F := Ideal)
            (addf (F := Ideal)
              (matmul (F := Ideal) d none (truncf .bf16 q hb) (truncf .bf16 (transpose ⟨2, ![K, N]⟩ [1, 0] y₂ ht) hb)
                (constant ⟨2, ![M, N]⟩ .f32 0x00000000#32))
              (matmul (F := Ideal) d none (truncf .bf16 q hb)
                (truncf .bf16 (subf (transpose ⟨2, ![K, N]⟩ [1, 0] y₂ ht) (transpose ⟨2, ![K, N]⟩ [1, 0] y₂ ht)) hb)
                (constant ⟨2, ![M, N]⟩ .f32 0x00000000#32)))
            (matmul (F := Ideal) d none (truncf .bf16 (subf q q) hb) (truncf .bf16 (transpose ⟨2, ![K, N]⟩ [1, 0] y₂ ht) hb)
              (constant ⟨2, ![M, N]⟩ .f32 0x00000000#32)))) (ix2 r c)
      = Ideal.exp (∑ k : Fin K, q (ix2 r k) * y₁ (ix2 c k)) + Ideal.exp (∑ k : Fin K, q (ix2 r k) * y₂ (ix2 c k)) := by
  rw [addf_apply]
  show Ideal.exp (_ : EReal) + Ideal.exp (_ : EReal) = _
  rw [Cert.Lib.SplitProduct.split_transposed_ix2 d hr hs hl0 hl1 hr0 hr1 q y₁ hq hy₁ hb ht r c,
    Cert.Lib.SplitProduct.split_transposed_ix2 d hr hs hl0 hl1 hr0 hr1 q y₂ hq hy₂ hb ht r c]

/-! ## A row sum added to a column accumulator -/

/-- A length-a vector viewed as an a × 1 column reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Over row r of a matrix reduced along its columns, the source index with column c inserted is (r, c). -/
theorem lift_cols {M N : Nat} (h : (⟨2, ![M, N]⟩ : Shape).Reduces [1] ⟨1, ![M]⟩) (r : Fin M) (c : Fin N) :
    h.lift (ix1 r) c = ix2 r c := by
  funext a
  apply Fin.ext
  match a with
  | ⟨0, _⟩ => rfl
  | ⟨1, _⟩ => rfl

/-- A kernel's sum of an M × N array over its columns, at row r: the sum over c of the array at (r, c). -/
theorem rowsum_ix1 {M N : Nat} (v : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ) (r : Fin M) :
    multiReduction (F := Ideal) .add [1] ⟨1, ![M]⟩ v 0x00000000#32 h hφ hacc (ix1 r) = ∑ c : Fin N, v (ix2 r c) :=
  (Ideal.multiReduction_add_single v _ h hφ hacc (ix1 r)).trans
    (Finset.sum_congr rfl fun c _ => congrArg v (lift_cols h r c))

/-- The accumulator column plus the column view of the row sums, at (r, u): acc(r, u) + ∑_c v(r, c). -/
theorem rowsum_acc_ix2 {M N : Nat} (v : FVec Ideal ⟨2, ![M, N]⟩ .f32) (acc : FVec Ideal ⟨2, ![M, 1]⟩ .f32)
    (h : (⟨2, ![M, N]⟩ : Shape).Reduces [1] ⟨1, ![M]⟩) (hφ : FKind.Formats .f32)
    (hacc : (0x00000000#32 : BitVec 32) = FKind.add.neutral .f32 hφ)
    (hc : (⟨1, ![M]⟩ : Shape).ShapeCasts ⟨2, ![M, 1]⟩) (r : Fin M) (u : Fin 1) :
    addf (F := Ideal) acc
        (shapeCast ⟨2, ![M, 1]⟩ (multiReduction (F := Ideal) .add [1] ⟨1, ![M]⟩ v 0x00000000#32 h hφ hacc) hc) (ix2 r u)
      = acc (ix2 r u) + ∑ c : Fin N, v (ix2 r c) := by
  rw [addf_apply, shapeCast_a_a1_apply _ hc r u, rowsum_ix1 v h hφ hacc r]

/-! ## Block by block -/

/-- The sum of f + g over B blocks of n columns, block by block, is the sum of f over all B·n columns plus the sum of
    g over them. -/
theorem sum_blocks_add {α : Type} [AddCommMonoid α] (B n : ℕ) (f g : Fin (B * n) → α)
    (h : ∀ (t : Fin B) (y : Fin n), t.val * n + y.val < B * n) :
    ∑ t : Fin B, ∑ y : Fin n, (f ⟨t.val * n + y.val, h t y⟩ + g ⟨t.val * n + y.val, h t y⟩)
      = ∑ k : Fin (B * n), f k + ∑ k : Fin (B * n), g k := by
  rw [← Cert.LibBlockSum.sum_blocks B n f h, ← Cert.LibBlockSum.sum_blocks B n g h, ← Finset.sum_add_distrib]
  exact Finset.sum_congr rfl fun t _ => Finset.sum_add_distrib

/-! ## The scale moved out of the exponent -/

/-- For real rows x, y and a real nonzero t: exp(∑ₖ (xₖ / t)·yₖ) = exp((∑ₖ xₖ·yₖ) / t). -/
theorem exp_scaled_dot {K : Nat} (x y : Fin K → EReal) (t : EReal)
    (hx : ∀ k, ∃ r : ℝ, x k = (r : EReal)) (hy : ∀ k, ∃ r : ℝ, y k = (r : EReal))
    (ht : ∃ r : ℝ, t = (r : EReal)) (ht0 : t ≠ 0) :
    Ideal.exp (∑ k : Fin K, Ideal.div (x k) t * y k) = Ideal.exp (Ideal.div (∑ k : Fin K, x k * y k) t) :=
  congrArg Ideal.exp (Cert.Lib.ScaledDot.sum_div_mul_fin x y t hx hy ht ht0)

end Cert.Lib.NegSimRow

end
-- ==== Proof.KI.Value4.lean ====
/-
  Region 4 of the program (the row-sum kernel of custom_call 4): what the output array holds after the region, at the
  exact values, entry by entry.

  The region's output is a column of 10000 entries. For arrays q, z, stu of 10000 rows of 256 features with real
  entries, row r of the output is

      ∑ over the 10000 rows key of z and stu of  exp(∑ₖ q(r,k)·z(key,k)) + exp(∑ₖ q(r,k)·stu(key,k)).

  The steps, each a lemma of its own:

  * one point's arithmetic at an entry (\`pay2_apply\`, \`acc4_apply\`): the cleared scratch is zero, and a point adds to
    the scratch, at row ρ of its block, the sum over the 2000 columns of its 2000 x 2000 block of exponentials — each
    three-pass product of blocks with real entries an exact sum over the features, the kernel's lane sum a finite sum;
  * the windows' blocks as rows of the arrays (\`idx4\`, decided over the 25 points; \`qb4_row\`, \`zb4_row\`, \`tb4_row\`): at
    the point number t = 5 i + j the block of q holds the rows 2000 i + ρ, the blocks of z and stu the rows 2000 j + col;
  * the accumulation over a row of the grid at an entry (\`S4_row\`): after the point j of the row i the scratch holds
    the sum of the addends of the points 0 … j of the row;
  * from the blocks to the array (\`out4\`, \`flushed4_eq\`, \`cover4\`, \`arrAt4_eq\`): the output window is written back at
    the last point of each row of the grid only, its five blocks tile the output, so the output's row r is the
    accumulation at the last point of the row r / 2000 of the grid, read at row r % 2000;
  * the regrouping (\`rowE4_eq\`, \`out4_apply\`): five blocks of 2000 rows of z and stu are all 10000 rows.
-/
import proofs.«175488_j3908420240157_2_alg».proof.Proof.KI.Body4
import proofs.«175488_j3908420240157_2_alg».proof.Proof.LibNegSimRow
import proofs.«175488_j3908420240157_2_alg».proof.Proof.LibBlockSum
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA
open Idealize.ShloMosaic.Pipeline (Dat Cfg Window)

/-! ## One point's arithmetic, read at an entry -/

/-- The column of zeros the accumulation starts from at the first point of a row of the grid. -/
theorem pay2_apply (j : S2000x1.Idx) : k4_pay2 (F := Ideal) j = 0 := by
  unfold k4_pay2
  rw [shapeCast_self]
  exact Ideal.ofBits_zero_f32

/-- What one point adds to the scratch, at row ρ: for blocks with real entries, the column \`s\` the accumulation starts
    from plus the sum over the 2000 columns of exp(q·zᵀ) + exp(q·stuᵀ), each product an exact sum over the 256 features
    (in the three-pass split the low parts of real entries vanish). -/
theorem acc4_apply (x0 x1 x2 : Vec Ideal S2000x256 .f32) (s : Vec Ideal S2000x1 .f32)
    (h0 : ∀ i, ∃ r : ℝ, x0 i = (r : EReal)) (h1 : ∀ i, ∃ r : ℝ, x1 i = (r : EReal)) (h2 : ∀ i, ∃ r : ℝ, x2 i = (r : EReal))
    (ρ : Fin 2000) (u : Fin 1) :
    acc4 (F := Ideal) x0 x1 x2 s (ix2 ρ u)
      = s (ix2 ρ u) + ∑ col : Fin 2000, (Ideal.exp (∑ k : Fin 256, x0 (ix2 ρ k) * x1 (ix2 col k))
          + Ideal.exp (∑ k : Fin 256, x0 (ix2 ρ k) * x2 (ix2 col k))) := by
  unfold acc4 k4_pay1
  rw [shapeCast_self]
  refine (Cert.Lib.NegSimRow.rowsum_acc_ix2 _ s _ _ _ _ ρ u).trans ?_
  refine congrArg (s (ix2 ρ u) + ·) (Finset.sum_congr rfl fun col _ => ?_)
  unfold k4_pay3
  refine (Cert.Lib.NegSimRow.exp_pair_ix2 _ rfl rfl (fun _ _ => rfl) (fun _ _ => rfl) (fun _ _ => rfl) (fun _ _ => rfl)
    _ _ _ ?_ ?_ ?_ _ _ ρ col).trans ?_
  · rw [shapeCast_self]; exact h0
  · rw [shapeCast_self]; exact h1
  · rw [shapeCast_self]; exact h2
  · rw [shapeCast_self, shapeCast_self, shapeCast_self]

/-! ## The windows' blocks as rows of the arrays -/

variable {U : Type} [URA U]
-- the core's buffer contents when the region is entered
variable (V : (c : Dev nD) → (b : Ref sig .tc) → Buf (Elt Ideal) ((c : Thread nD τ).loc b))

/-- The printed index maps, decided over the grid: at the point number t = 5 i + j the blocks of q and of the output
    are the i-th, those of z and stu the j-th; no window moves along its columns. -/
theorem idx4 : ∀ t : Fin cfg4.N,
    win4_0.index t (0 : Fin 2) = t.val / 5 ∧ win4_0.index t (1 : Fin 2) = 0
    ∧ win4_1.index t (0 : Fin 2) = t.val % 5 ∧ win4_1.index t (1 : Fin 2) = 0
    ∧ win4_2.index t (0 : Fin 2) = t.val % 5 ∧ win4_2.index t (1 : Fin 2) = 0
    ∧ win4_3.index t (0 : Fin 2) = t.val / 5 ∧ win4_3.index t (1 : Fin 2) = 0 :=
  (by decide +kernel : ∀ t : Fin grid4.N, _)

/-- The q array, the z array and the stu array as the region finds them, and their rows. -/
abbrev Q4 (c : Dev nD) : S10000x256.Idx → EReal := V c main_v204
abbrev Z4 (c : Dev nD) : S10000x256.Idx → EReal := V c main_v194
abbrev T4 (c : Dev nD) : S10000x256.Idx → EReal := V c main_v202

/-- The three input blocks at a point, as arrays of 2000 rows of 256 features. -/
abbrev qb4 (c : Dev nD) (t : Fin cfg4.N) : Vec Ideal S2000x256 .f32 := iblk4 V c 0 t
abbrev zb4 (c : Dev nD) (t : Fin cfg4.N) : Vec Ideal S2000x256 .f32 := iblk4 V c 1 t
abbrev tb4 (c : Dev nD) (t : Fin cfg4.N) : Vec Ideal S2000x256 .f32 := iblk4 V c 2 t

/-- Row ρ of the block of q at the point t is row 2000 (t / 5) + ρ of the q array. -/
theorem iblk4_0_apply (c : Dev nD) (t : Fin cfg4.N) (ρ : Fin 2000) (k : Fin 256) (hr : 2000 * (t.val / 5) + ρ.val < 10000) :
    qb4 V c t (ix2 ρ k) = Q4 V c (ix2 ⟨2000 * (t.val / 5) + ρ.val, hr⟩ k) := by
  obtain ⟨e0, e1, -⟩ := idx4 t
  show V c main_v204 (((cfg4.win 0).blk t).view.emb (ix2 ρ k)) = _
  refine congrArg (V c main_v204) (funext fun a => Fin.ext ?_)
  match a with
  | ⟨0, _⟩ => show win4_0.index t (0 : Fin 2) * 2000 + 1 * ρ.val = 2000 * (t.val / 5) + ρ.val; omega
  | ⟨1, _⟩ => show win4_0.index t (1 : Fin 2) * 256 + 1 * k.val = k.val; omega

/-- Row col of the block of z at the point t is row 2000 (t % 5) + col of the z array. -/
theorem iblk4_1_apply (c : Dev nD) (t : Fin cfg4.N) (col : Fin 2000) (k : Fin 256) (hr : 2000 * (t.val % 5) + col.val < 10000) :
    zb4 V c t (ix2 col k) = Z4 V c (ix2 ⟨2000 * (t.val % 5) + col.val, hr⟩ k) := by
  obtain ⟨-, -, e0, e1, -⟩ := idx4 t
  show V c main_v194 (((cfg4.win 1).blk t).view.emb (ix2 col k)) = _
  refine congrArg (V c main_v194) (funext fun a => Fin.ext ?_)
  match a with
  | ⟨0, _⟩ => show win4_1.index t (0 : Fin 2) * 2000 + 1 * col.val = 2000 * (t.val % 5) + col.val; omega
  | ⟨1, _⟩ => show win4_1.index t (1 : Fin 2) * 256 + 1 * k.val = k.val; omega

/-- Row col of the block of stu at the point t is row 2000 (t % 5) + col of the stu array. -/
theorem iblk4_2_apply (c : Dev nD) (t : Fin cfg4.N) (col : Fin 2000) (k : Fin 256) (hr : 2000 * (t.val % 5) + col.val < 10000) :
    tb4 V c t (ix2 col k) = T4 V c (ix2 ⟨2000 * (t.val % 5) + col.val, hr⟩ k) := by
  obtain ⟨-, -, -, -, e0, e1, -⟩ := idx4 t
  show V c main_v202 (((cfg4.win 2).blk t).view.emb (ix2 col k)) = _
  refine congrArg (V c main_v202) (funext fun a => Fin.ext ?_)
  match a with
  | ⟨0, _⟩ => show win4_2.index t (0 : Fin 2) * 2000 + 1 * col.val = 2000 * (t.val % 5) + col.val; omega
  | ⟨1, _⟩ => show win4_2.index t (1 : Fin 2) * 256 + 1 * k.val = k.val; omega

/-! ## The accumulation over a row of the grid, at an entry -/

/-- The accumulation's value depends on the point's number only. -/
theorem S4_congr (c : Dev nD) {n n' : ℕ} (e : n = n') (h : n < cfg4.N) (h' : n' < cfg4.N) : S4 V c n h = S4 V c n' h' := by
  subst e; rfl

/-- What the point number n adds at row ρ of its block: the sum, over the 2000 rows col of the point's blocks of z and stu,
    of exp(q(ρ)·z(col)) + exp(q(ρ)·stu(col)), the products exact sums over the 256 features. Zero past the grid. -/
def rowE4 (c : Dev nD) (n : ℕ) (ρ : Fin 2000) : EReal :=
  if h : n < cfg4.N then
    ∑ col : Fin 2000, (Ideal.exp (∑ k : Fin 256, qb4 V c ⟨n, h⟩ (ix2 ρ k) * zb4 V c ⟨n, h⟩ (ix2 col k))
      + Ideal.exp (∑ k : Fin 256, qb4 V c ⟨n, h⟩ (ix2 ρ k) * tb4 V c ⟨n, h⟩ (ix2 col k)))
  else 0

/-- The three arrays have real entries. -/
def Real4 (c : Dev nD) : Prop :=
  (∀ i, ∃ r : ℝ, Q4 V c i = (r : EReal)) ∧ (∀ i, ∃ r : ℝ, Z4 V c i = (r : EReal)) ∧ (∀ i, ∃ r : ℝ, T4 V c i = (r : EReal))

/-- At the first point of a row of the grid the scratch holds that point's addend. -/
theorem S4_apply_reset (c : Dev nD) (hR : Real4 V c) (t : Fin cfg4.N) (h0 : t.val % 5 = 0) (ρ : Fin 2000) (u : Fin 1) :
    S4 V c t.val t.isLt (ix2 ρ u) = rowE4 V c t.val ρ := by
  rw [S4_reset V c t h0]
  refine (acc4_apply (qb4 V c t) (zb4 V c t) (tb4 V c t) _ (fun _ => hR.1 _) (fun _ => hR.2.1 _) (fun _ => hR.2.2 _) ρ u).trans ?_
  rw [pay2_apply, zero_add]
  unfold rowE4; rw [dif_pos t.isLt]

/-- At a later point it holds what the point before left plus that point's addend. -/
theorem S4_apply_step (c : Dev nD) (hR : Real4 V c) (t : Fin cfg4.N) (h0 : ¬t.val % 5 = 0) (ρ : Fin 2000) (u : Fin 1) :
    S4 V c t.val t.isLt (ix2 ρ u)
      = S4 V c (t.val - 1) (Nat.lt_of_le_of_lt (Nat.sub_le _ _) t.isLt) (ix2 ρ u) + rowE4 V c t.val ρ := by
  rw [S4_step V c t h0]
  refine (acc4_apply (qb4 V c t) (zb4 V c t) (tb4 V c t) _ (fun _ => hR.1 _) (fun _ => hR.2.1 _) (fun _ => hR.2.2 _) ρ u).trans ?_
  unfold rowE4; rw [dif_pos t.isLt]

/-- So after the point j of the row i of the grid it holds the sum of the addends of the points 0 … j of the row. -/
theorem S4_row (c : Dev nD) (hR : Real4 V c) (i : ℕ) (hi : i < 5) (ρ : Fin 2000) (u : Fin 1) :
    ∀ (j : ℕ) (hj : j < 5) (h : 5 * i + j < cfg4.N),
      S4 V c (5 * i + j) h (ix2 ρ u) = ∑ s ∈ Finset.range (j + 1), rowE4 V c (5 * i + s) ρ
  | 0, _, h => by
    rw [Finset.sum_range_one]
    exact S4_apply_reset V c hR ⟨5 * i + 0, h⟩ (by show (5 * i + 0) % 5 = 0; omega) ρ u
  | j + 1, hj, h => by
    rw [Finset.sum_range_succ _ (j + 1), ← S4_row c hR i hi ρ u j (by omega) (Nat.lt_of_succ_lt h)]
    refine (S4_apply_step V c hR ⟨5 * i + (j + 1), h⟩ (by show ¬(5 * i + (j + 1)) % 5 = 0; omega) ρ u).trans ?_
    exact congrArg (· + rowE4 V c (5 * i + (j + 1)) ρ) (congrFun (S4_congr V c (by show 5 * i + (j + 1) - 1 = 5 * i + j; omega) _ _) _)

/-! ## From the blocks to the array -/

/-- What the output array ends holding: at row r, the accumulation at the last point of the row r / 2000 of the grid,
    read at the row r % 2000 of its block. -/
def out4 (c : Dev nD) : S10000x1.Idx → EReal := fun i =>
  S4 V c (5 * ((i 0).val / 2000) + 4) (lt_of_lt_of_eq (by have := idx2_lt0 i; omega) N_4.symm)
    (ix2 (⟨(i 0).val % 2000, Nat.mod_lt _ (by decide)⟩ : Fin 2000) (0 : Fin 1))

/-- An index of the output array is in the block of the point t iff each coordinate is in the block's range. -/
theorem mem_blk4 (t : Fin cfg4.N) (i : S10000x1.Idx) :
    i ∈ ((cfg4.win 3).blk t).view.set ↔ ∀ a : Fin 2, win4_3.index t a * S2000x1.size a ≤ (i a).val ∧ (i a).val < win4_3.index t a * S2000x1.size a + S2000x1.size a := by
  show i ∈ ((View.whole main_v205).slice (win4_3.rect t)).set ↔ _
  rw [View.set_slice_whole, Rect.mem_set_unit]
  exact Iff.rfl

/-- WHAT A POINT WRITES BACK (the last point of a row of the grid) is its block of \`out4\`. -/
theorem flushed4_eq (c : Dev nD) (t : Fin cfg4.N) (hf : (cfg4.win 3).flush t = true) :
    (dat4 (U := U) V c).flushed 3 t = ((cfg4.win 3).blk t).view.read (Elt Ideal) (out4 V c) := by
  have h4 : t.val % 5 = 4 := (flush4_3 t).mp hf
  obtain ⟨-, -, -, -, -, -, e0, e1⟩ := idx4 t
  show (cfg4.win 3).cut (grid4.coords t) ((dat4 (U := U) V c).after 3 t) = _
  rw [after4_3]
  funext j
  have hj0 : (j 0).val < 2000 := (j 0).isLt
  have hj1 : (j 1).val < 1 := (j 1).isLt
  have he0 : ((((cfg4.win 3).blk t).view.emb j) 0).val = win4_3.index t (0 : Fin 2) * 2000 + 1 * (j 0).val := rfl
  show S4 V c t.val t.isLt j = out4 V c (((cfg4.win 3).blk t).view.emb j)
  unfold out4
  have en : t.val = 5 * (((((cfg4.win 3).blk t).view.emb j) 0).val / 2000) + 4 := by rw [he0, e0]; omega
  refine (congrFun (S4_congr V c en _ _) j).trans (congrArg _ (funext fun a => Fin.ext ?_))
  match a with
  | ⟨0, _⟩ => show (j 0).val = ((((cfg4.win 3).blk t).view.emb j) 0).val % 2000; rw [he0, e0]; omega
  | ⟨1, _⟩ => show (j 1).val = 0; omega

/-- Every row of the output array is in the block of the last point of its row of the grid. -/
theorem cover4 (i : S10000x1.Idx) : ∃ t : Fin cfg4.N, (cfg4.win 3).flush t = true ∧ i ∈ ((cfg4.win 3).blk t).view.set := by
  have hi0 : (i 0).val < 10000 := idx2_lt0 i
  have hi1 : (i 1).val < 1 := idx2_lt1 i
  have hn : 5 * ((i 0).val / 2000) + 4 < cfg4.N := lt_of_lt_of_eq (by omega) N_4.symm
  obtain ⟨-, -, -, -, -, -, e0, e1⟩ := idx4 ⟨5 * ((i 0).val / 2000) + 4, hn⟩
  have e0' : win4_3.index ⟨5 * ((i 0).val / 2000) + 4, hn⟩ (0 : Fin 2) = (5 * ((i 0).val / 2000) + 4) / 5 := e0
  refine ⟨⟨5 * ((i 0).val / 2000) + 4, hn⟩, (flush4_3 _).mpr (by show (5 * ((i 0).val / 2000) + 4) % 5 = 4; omega), ?_⟩
  rw [mem_blk4]
  intro a
  match a with
  | ⟨0, _⟩ =>
    show win4_3.index ⟨5 * ((i 0).val / 2000) + 4, hn⟩ (0 : Fin 2) * 2000 ≤ (i 0).val
      ∧ (i 0).val < win4_3.index ⟨5 * ((i 0).val / 2000) + 4, hn⟩ (0 : Fin 2) * 2000 + 2000
    rw [e0']; omega
  | ⟨1, _⟩ =>
    show win4_3.index ⟨5 * ((i 0).val / 2000) + 4, hn⟩ (1 : Fin 2) * 1 ≤ (i 1).val
      ∧ (i 1).val < win4_3.index ⟨5 * ((i 0).val / 2000) + 4, hn⟩ (1 : Fin 2) * 1 + 1
    rw [e1]; omega

/-- THE OUTPUT ARRAY after the region: \`out4\`. -/
theorem arrAt4_eq (c : Dev nD) : (dat4 (U := U) V c).arrAt 3 cfg4.N = out4 V c :=
  (dat4 (U := U) V c).arrAt_eq_of_cover 3 (out4 V c) (fun t hf => flushed4_eq V c t hf) cover4

/-! ## The output's rows over the arrays' rows -/

/-- The blocks' rows as rows of the arrays, the array's row named by an equation. -/
theorem qb4_row (c : Dev nD) (t : Fin cfg4.N) (ρ : Fin 2000) (k : Fin 256) (r : Fin 10000) (e : r.val = 2000 * (t.val / 5) + ρ.val) :
    qb4 V c t (ix2 ρ k) = Q4 V c (ix2 r k) :=
  (iblk4_0_apply V c t ρ k (e ▸ r.isLt)).trans (congrArg (fun x => Q4 V c (ix2 x k)) (Fin.ext e.symm))
theorem zb4_row (c : Dev nD) (t : Fin cfg4.N) (col : Fin 2000) (k : Fin 256) (r : Fin 10000) (e : r.val = 2000 * (t.val % 5) + col.val) :
    zb4 V c t (ix2 col k) = Z4 V c (ix2 r k) :=
  (iblk4_1_apply V c t col k (e ▸ r.isLt)).trans (congrArg (fun x => Z4 V c (ix2 x k)) (Fin.ext e.symm))
theorem tb4_row (c : Dev nD) (t : Fin cfg4.N) (col : Fin 2000) (k : Fin 256) (r : Fin 10000) (e : r.val = 2000 * (t.val % 5) + col.val) :
    tb4 V c t (ix2 col k) = T4 V c (ix2 r k) :=
  (iblk4_2_apply V c t col k (e ▸ r.isLt)).trans (congrArg (fun x => T4 V c (ix2 x k)) (Fin.ext e.symm))

/-- The 10000 rows as 5 blocks of 2000, the row written 2000·t + y. -/
theorem sum_rows_5x2000 {M : Type} [AddCommMonoid M] (f : Fin 10000 → M) (h : ∀ (t : Fin 5) (y : Fin 2000), 2000 * t.val + y.val < 10000) :
    ∑ t : Fin 5, ∑ y : Fin 2000, f ⟨2000 * t.val + y.val, h t y⟩ = ∑ r : Fin 10000, f r :=
  Cert.LibBlockSum.sum_blocks' 5 2000 f h

/-- The addend of the point s of the row i of the grid, at row ρ of its block, over the arrays: the sum over the 2000
    rows 2000 s + col of z and stu of exp(q(r)·z(key)) + exp(q(r)·stu(key)), r = 2000 i + ρ. -/
theorem rowE4_eq (c : Dev nD) (i : ℕ) (hi : i < 5) (s : Fin 5) (ρ : Fin 2000) (r : Fin 10000) (er : r.val = 2000 * i + ρ.val)
    (h : ∀ (t : Fin 5) (y : Fin 2000), 2000 * t.val + y.val < 10000) :
    rowE4 V c (5 * i + s.val) ρ
      = ∑ col : Fin 2000, (Ideal.exp (∑ k : Fin 256, Q4 V c (ix2 r k) * Z4 V c (ix2 ⟨2000 * s.val + col.val, h s col⟩ k))
          + Ideal.exp (∑ k : Fin 256, Q4 V c (ix2 r k) * T4 V c (ix2 ⟨2000 * s.val + col.val, h s col⟩ k))) := by
  have hs : s.val < 5 := s.isLt
  have hn : 5 * i + s.val < cfg4.N := lt_of_lt_of_eq (by omega) N_4.symm
  unfold rowE4
  rw [dif_pos hn]
  refine Finset.sum_congr rfl fun col _ => ?_
  have eq : ∀ k : Fin 256, qb4 V c ⟨5 * i + s.val, hn⟩ (ix2 ρ k) = Q4 V c (ix2 r k) := fun k =>
    qb4_row V c ⟨5 * i + s.val, hn⟩ ρ k r (by show r.val = 2000 * ((5 * i + s.val) / 5) + ρ.val; omega)
  have ez : ∀ k : Fin 256, zb4 V c ⟨5 * i + s.val, hn⟩ (ix2 col k) = Z4 V c (ix2 ⟨2000 * s.val + col.val, h s col⟩ k) := fun k =>
    zb4_row V c ⟨5 * i + s.val, hn⟩ col k _ (by show 2000 * s.val + col.val = 2000 * ((5 * i + s.val) % 5) + col.val; omega)
  have et : ∀ k : Fin 256, tb4 V c ⟨5 * i + s.val, hn⟩ (ix2 col k) = T4 V c (ix2 ⟨2000 * s.val + col.val, h s col⟩ k) := fun k =>
    tb4_row V c ⟨5 * i + s.val, hn⟩ col k _ (by show 2000 * s.val + col.val = 2000 * ((5 * i + s.val) % 5) + col.val; omega)
  simp only [eq, ez, et]

/-- THE VALUE. Row r of the output array after the region, for arrays with real entries: the sum over all 10000 rows
    key of z and stu of exp(q(r)·z(key)) + exp(q(r)·stu(key)), the products exact sums over the 256 features. -/
theorem out4_apply (c : Dev nD) (hR : Real4 V c) (r : Fin 10000) :
    (dat4 (U := U) V c).arrAt 3 cfg4.N (ix2 r (0 : Fin 1))
      = ∑ key : Fin 10000, (Ideal.exp (∑ k : Fin 256, Q4 V c (ix2 r k) * Z4 V c (ix2 key k))
          + Ideal.exp (∑ k : Fin 256, Q4 V c (ix2 r k) * T4 V c (ix2 key k))) := by
  have hr : r.val < 10000 := r.isLt
  have hb : ∀ (t : Fin 5) (y : Fin 2000), 2000 * t.val + y.val < 10000 := fun t y => by
    have := t.isLt; have := y.isLt; omega
  rw [arrAt4_eq]
  show S4 V c (5 * (r.val / 2000) + 4) _ (ix2 (⟨r.val % 2000, _⟩ : Fin 2000) (0 : Fin 1)) = _
  rw [S4_row V c hR (r.val / 2000) (by omega) _ _ 4 (by omega) _, Finset.sum_range]
  refine Eq.trans ?_ (sum_rows_5x2000 (fun key : Fin 10000 =>
    Ideal.exp (∑ k : Fin 256, Q4 V c (ix2 r k) * Z4 V c (ix2 key k)) + Ideal.exp (∑ k : Fin 256, Q4 V c (ix2 r k) * T4 V c (ix2 key k))) hb)
  exact Finset.sum_congr rfl fun s _ =>
    rowE4_eq V c (r.val / 2000) (by omega) s ⟨r.val % 2000, Nat.mod_lt _ (by decide)⟩ r
      (by show r.val = 2000 * (r.val / 2000) + r.val % 2000; omega) hb

/-- info: 'Cert.KernelIdeal.Hand.out4_apply' depends on axioms: [propext, Classical.choice, Quot.sound] -/
#guard_msgs in #print axioms out4_apply

end Cert.KernelIdeal.Hand

end
-- ==== Proof.KI.Value4Fin.lean ====
/-
  Region 4's value, stated at the segment's name for the output array: for an entry valuation whose q, z and stu arrays
  have real entries, row r of the array the region leaves in the output is the sum over the 10000 rows key of z and
  stu of exp(q(r)·z(key)) + exp(q(r)·stu(key)).
-/
import proofs.«175488_j3908420240157_2_alg».proof.Proof.KI.Seg4
import proofs.«175488_j3908420240157_2_alg».proof.Proof.KI.Value4

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA
open Idealize.ShloMosaic.Pipeline (Dat Cfg Window)

variable {U : Type} [URA U]
-- the core's unscoped buffers when the region is entered
variable (Wpre : Dev nD → Valuation τ sig (Elt Ideal))

/-- Row r of the output array after the region. -/
theorem fin4_apply (c : Dev nD) (hR : Real4 (Vof Wpre) c) (r : Fin 10000) :
    fin4 (F := Ideal) (U := U) Wpre c (ix2 r (0 : Fin 1))
      = ∑ key : Fin 10000, (Ideal.exp (∑ k : Fin 256, Q4 (Vof Wpre) c (ix2 r k) * Z4 (Vof Wpre) c (ix2 key k))
          + Ideal.exp (∑ k : Fin 256, Q4 (Vof Wpre) c (ix2 r k) * T4 (Vof Wpre) c (ix2 key k))) :=
  out4_apply (U := U) (Vof Wpre) c hR r

end Cert.KernelIdeal.Hand

end
-- ==== Proof.LibNegSimRef.lean ====
/-
  The reference's row sums of exponentials of scaled products, read at the exact values.

  For arrays z and stu of 10000 rows of 256 features and a scalar τ, the reference forms the 10000 x 10000 arrays
  z·zᵀ and z·stuᵀ by the host's product, divides each entry by τ, exponentiates, sums every row starting from zero, and
  adds the two columns of row sums. For real entries and a real τ ≠ 0, row r of the result is

      ∑ over the 10000 rows key of  exp(∑ₖ (z(r,k)/τ)·z(key,k)) + exp(∑ₖ (z(r,k)/τ)·stu(key,k)):

  the factor 1/τ moves across the finite sum of products of reals, onto the left operand's entries.

  * "negTerm_apply": one row sum — at row r, the sum over key of exp((∑ₖ z(r,k)·y(key,k)) / τ);
  * "negRef_apply": the two added, the scale moved inside.
-/
import Idealize.ShloMosaic.PureOps.Ideal.Laws
import Idealize.ShloMosaic.Lib.ValueIdx
import Idealize.ShloMosaic.Lib.ValueLayout
import Idealize.ShloMosaic.Lib.Pipeline.Value
import proofs.«175488_j3908420240157_2_alg».proof.ReferenceIdeal
import proofs.«175488_j3908420240157_2_alg».proof.Proof.LibMatProd
import proofs.«175488_j3908420240157_2_alg».proof.Proof.LibScaledDot
import proofs.«175488_j3908420240157_2_alg».proof.Proof.LibNegSimRow

set_option maxRecDepth 16384

noncomputable section

open scoped BigOperators

namespace Cert.Lib.NegSimRef

open Idealize.ShloMosaic Idealize.ShloMosaic.ValueIdx
open Cert.ReferenceIdeal Cert.ReferenceIdeal.Facts₀

variable [Cert.ReferenceIdeal.Facts₀]

/-- One column of row sums: the rows of exp((z·yᵀ) / τ) summed from zero. -/
def negTerm (z y : FVec Ideal S10000x256 .f32) (tau : FVec Ideal S_ .f32) : FVec Ideal S10000 .f32 :=
  Host.reduceAdd (F := Ideal)
    (Host.exp (F := Ideal)
      (Host.divf (F := Ideal)
        (Host.dotGeneral (F := Ideal) dot_S10000x256_S256x10000_S10000x10000_1_0_0_1_n_n none z
          (transpose S256x10000 [1, 0] y transposes_S10000x256_S256x10000_1_0))
        (broadcastInDim S10000x10000 ![] bcast_S_S10000x10000 tau)))
    (constant (F := Ideal) S_ .f32 0x00000000#32) reducesTo_S10000x10000_S10000_d1 h_S_

/-- The reference's column: the row sums against z itself plus those against stu. -/
def negRef (z stu : FVec Ideal S10000x256 .f32) (tau : FVec Ideal S_ .f32) : FVec Ideal S10000 .f32 :=
  addf (F := Ideal) (negTerm z z tau) (negTerm z stu tau)

/-- The scalar's one entry. -/
abbrev tauAt (tau : FVec Ideal S_ .f32) : EReal := tau ix0

/-- One entry of exp((z·yᵀ) / τ): at (r, key), exp((∑ₖ z(r,k)·y(key,k)) / τ). -/
theorem expDiv_apply (z y : FVec Ideal S10000x256 .f32) (tau : FVec Ideal S_ .f32) (r key : Fin 10000) :
    Host.exp (F := Ideal)
      (Host.divf (F := Ideal)
        (Host.dotGeneral (F := Ideal) dot_S10000x256_S256x10000_S10000x10000_1_0_0_1_n_n none z
          (transpose S256x10000 [1, 0] y transposes_S10000x256_S256x10000_1_0))
        (broadcastInDim S10000x10000 ![] bcast_S_S10000x10000 tau)) (ix2 r key)
      = Ideal.exp (Ideal.div (∑ k : Fin 256, z (ix2 r k) * y (ix2 key k)) (tauAt tau)) := by
  show Ideal.exp (Ideal.div
      (Host.dotGeneral (F := Ideal) dot_S10000x256_S256x10000_S10000x10000_1_0_0_1_n_n none z
        (transpose S256x10000 [1, 0] y transposes_S10000x256_S256x10000_1_0) (ix2 r key))
      (broadcastInDim S10000x10000 ![] bcast_S_S10000x10000 tau (ix2 r key))) = _
  rw [Cert.MatProd.hostDot_apply _ rfl rfl (fun _ _ => rfl) (fun _ _ => rfl) (fun _ _ => rfl) (fun _ _ => rfl) z _ (ix2 r key),
    broadcastInDim_apply _ bcast_S_S10000x10000 tau (ix2 r key) ix0 (fun a => a.elim0)]
  unfold Cert.Spec.rowsByCols
  refine congrArg (fun x => Ideal.exp (Ideal.div x (tauAt tau))) (Finset.sum_congr rfl fun k _ => ?_)
  show z (ix2 r k) * transpose S256x10000 [1, 0] y transposes_S10000x256_S256x10000_1_0 (ix2 k key) = _
  rw [transpose_ix2_apply y transposes_S10000x256_S256x10000_1_0 k key]

/-- One column of row sums, at row r: the sum over the 10000 rows key of y of exp((∑ₖ z(r,k)·y(key,k)) / τ). -/
theorem negTerm_apply (z y : FVec Ideal S10000x256 .f32) (tau : FVec Ideal S_ .f32) (r : Fin 10000) :
    negTerm z y tau (ix1 r)
      = ∑ key : Fin 10000, Ideal.exp (Ideal.div (∑ k : Fin 256, z (ix2 r k) * y (ix2 key k)) (tauAt tau)) := by
  have hred : S10000x10000.Reduces [1] S10000 := by decide
  unfold negTerm
  show Ideal.hostReduceAdd reducesTo_S10000x10000_S10000_d1 _
    (constant (F := Ideal) S_ .f32 0x00000000#32 (Shape.Idx.first h_S_)) (ix1 r) = _
  refine (Ideal.hostReduceAdd_single reducesTo_S10000x10000_S10000_d1 hred _ _ (ix1 r)).trans ?_
  rw [constant_apply, Ideal.ofBits_zero_f32, zero_add]
  exact Finset.sum_congr rfl fun key _ =>
    (congrArg _ (Cert.Lib.NegSimRow.lift_cols hred r key)).trans (expDiv_apply z y tau r key)

/-- THE REFERENCE'S ROW. For z, stu with real entries and a real τ ≠ 0, row r of the reference's column is the sum over
    the 10000 rows key of exp(∑ₖ (z(r,k)/τ)·z(key,k)) + exp(∑ₖ (z(r,k)/τ)·stu(key,k)). -/
theorem negRef_apply (z stu : FVec Ideal S10000x256 .f32) (tau : FVec Ideal S_ .f32)
    (hz : ∀ i, ∃ a : ℝ, z i = (a : EReal)) (hs : ∀ i, ∃ a : ℝ, stu i = (a : EReal))
    (ht : ∃ a : ℝ, tauAt tau = (a : EReal)) (ht0 : tauAt tau ≠ 0) (r : Fin 10000) :
    negRef z stu tau (ix1 r)
      = ∑ key : Fin 10000, (Ideal.exp (∑ k : Fin 256, Ideal.div (z (ix2 r k)) (tauAt tau) * z (ix2 key k))
          + Ideal.exp (∑ k : Fin 256, Ideal.div (z (ix2 r k)) (tauAt tau) * stu (ix2 key k))) := by
  unfold negRef
  rw [addf_apply, negTerm_apply, negTerm_apply, ← Finset.sum_add_distrib]
  refine Finset.sum_congr rfl fun key _ => ?_
  exact congrArg₂ (· + ·)
    (congrArg Ideal.exp (Cert.Lib.ScaledDot.sum_div_mul_fin (fun k => z (ix2 r k)) (fun k => z (ix2 key k)) _
      (fun k => hz _) (fun k => hz _) ht ht0).symm)
    (congrArg Ideal.exp (Cert.Lib.ScaledDot.sum_div_mul_fin (fun k => z (ix2 r k)) (fun k => stu (ix2 key k)) _
      (fun k => hz _) (fun k => hs _) ht ht0).symm)

/-- info: 'Cert.Lib.NegSimRef.negRef_apply' depends on axioms: [propext, Classical.choice, Quot.sound] -/
#guard_msgs in #print axioms negRef_apply

end Cert.Lib.NegSimRef

end
-- ==== Proof.NegSim1.lean ====
/-
  The negative row sums of the first loss: what the kernel's region 4 leaves, as a column, is the reference's column.

  Region 4 is handed the normalized rows z of the first view, the normalized rows stu of the second, and the queries
  z / τ. Its output's row r is the sum over all 10000 rows key of exp(∑ₖ (z(r,k)/τ)·z(key,k)) + exp(∑ₖ (z(r,k)/τ)·stu(key,k))
  (the region's value, for real entries); the reference's column of row sums of exp((z·zᵀ)/τ) + exp((z·stuᵀ)/τ) is the same
  sum, the factor 1/τ moved across the finite sums of products of reals. The host then reads the region's 10000 x 1 output as
  a vector of 10000 entries.
-/
import proofs.«175488_j3908420240157_2_alg».proof.Proof.Algebraic
import proofs.«175488_j3908420240157_2_alg».proof.Proof.KI.Value4Fin
import proofs.«175488_j3908420240157_2_alg».proof.Proof.LibNegSimRef

set_option maxRecDepth 65536

noncomputable section

open scoped BigOperators

namespace Cert.Proof.Parts

open Idealize.ShloMosaic Idealize.ShloMosaic.TcCoe Idealize.SL.Sem Idealize.ShloMosaic.ValueIdx

/-- An array divided by a scalar repeated over it, at an entry: the entry over the scalar. -/
theorem div_scalar_apply (x : FVec Ideal Cert.KernelIdeal.S10000x256 .f32) (tau : FVec Ideal Cert.KernelIdeal.S_ .f32) (i : Cert.KernelIdeal.S10000x256.Idx) :
    Host.divf (F := Ideal) x (broadcastInDim Cert.KernelIdeal.S10000x256 ![] Cert.KernelIdeal.Gen.bcast_S_S10000x256 tau) i = Ideal.div (x i) (tau ix0) := by
  show Ideal.div (x i) (broadcastInDim Cert.KernelIdeal.S10000x256 ![] Cert.KernelIdeal.Gen.bcast_S_S10000x256 tau i) = _
  rw [broadcastInDim_apply _ Cert.KernelIdeal.Gen.bcast_S_S10000x256 tau i ix0 (fun a => a.elim0)]

variable (m : (ℓ : Loc Cert.KernelIdeal.nD Cert.KernelIdeal.τ Cert.KernelIdeal.sig) → Buf (Elt Ideal) ℓ)

/-- THE NEGATIVE ROW SUMS AGREE. If region 4 is entered with the arrays z, stu and z / τ at its three windows — real
    entries, τ a real other than zero — the vector the host reads off its output is the reference's column for z, stu, τ. -/
theorem negsim1 (c : Dev Cert.KernelIdeal.nD) (z stu : FVec Ideal Cert.KernelIdeal.S10000x256 .f32) (tau : FVec Ideal Cert.KernelIdeal.S_ .f32)
    (hZ : Cert.KernelIdeal.Hand.W24 m (Cert.KernelIdeal.Hand.o0 m) (Cert.KernelIdeal.Hand.o1 m) (Cert.KernelIdeal.Hand.o2 m) (Cert.KernelIdeal.Hand.o3 m) c Cert.KernelIdeal.main_v194 = z) (hT : Cert.KernelIdeal.Hand.W24 m (Cert.KernelIdeal.Hand.o0 m) (Cert.KernelIdeal.Hand.o1 m) (Cert.KernelIdeal.Hand.o2 m) (Cert.KernelIdeal.Hand.o3 m) c Cert.KernelIdeal.main_v202 = stu)
    (hQ : Cert.KernelIdeal.Hand.W24 m (Cert.KernelIdeal.Hand.o0 m) (Cert.KernelIdeal.Hand.o1 m) (Cert.KernelIdeal.Hand.o2 m) (Cert.KernelIdeal.Hand.o3 m) c Cert.KernelIdeal.main_v204 = Host.divf (F := Ideal) z (broadcastInDim Cert.KernelIdeal.S10000x256 ![] Cert.KernelIdeal.Gen.bcast_S_S10000x256 tau))
    (hz : ∀ i, ∃ a : ℝ, z i = (a : EReal)) (hs : ∀ i, ∃ a : ℝ, stu i = (a : EReal))
    (ht : ∃ a : ℝ, tau ix0 = (a : EReal)) (ht0 : tau ix0 ≠ 0) :
    shapeCast Cert.KernelIdeal.S10000 (Cert.KernelIdeal.Hand.o4 m c) Cert.KernelIdeal.Gen.shapeCasts_S10000x1_S10000 = Cert.Lib.NegSimRef.negRef z stu tau := by
  have eQ : ∀ i, Cert.KernelIdeal.Hand.Q4 (Cert.KernelIdeal.Hand.Vof (Cert.KernelIdeal.Hand.W24 m (Cert.KernelIdeal.Hand.o0 m) (Cert.KernelIdeal.Hand.o1 m) (Cert.KernelIdeal.Hand.o2 m) (Cert.KernelIdeal.Hand.o3 m))) c i = Ideal.div (z i) (tau ix0) := fun i => by
    show (Cert.KernelIdeal.Hand.W24 m (Cert.KernelIdeal.Hand.o0 m) (Cert.KernelIdeal.Hand.o1 m) (Cert.KernelIdeal.Hand.o2 m) (Cert.KernelIdeal.Hand.o3 m) c Cert.KernelIdeal.main_v204 : FVec Ideal Cert.KernelIdeal.S10000x256 .f32) i = _
    rw [hQ, div_scalar_apply]
  have eZ : Cert.KernelIdeal.Hand.Z4 (Cert.KernelIdeal.Hand.Vof (Cert.KernelIdeal.Hand.W24 m (Cert.KernelIdeal.Hand.o0 m) (Cert.KernelIdeal.Hand.o1 m) (Cert.KernelIdeal.Hand.o2 m) (Cert.KernelIdeal.Hand.o3 m))) c = z := hZ
  have eT : Cert.KernelIdeal.Hand.T4 (Cert.KernelIdeal.Hand.Vof (Cert.KernelIdeal.Hand.W24 m (Cert.KernelIdeal.Hand.o0 m) (Cert.KernelIdeal.Hand.o1 m) (Cert.KernelIdeal.Hand.o2 m) (Cert.KernelIdeal.Hand.o3 m))) c = stu := hT
  have hR : Cert.KernelIdeal.Hand.Real4 (Cert.KernelIdeal.Hand.Vof (Cert.KernelIdeal.Hand.W24 m (Cert.KernelIdeal.Hand.o0 m) (Cert.KernelIdeal.Hand.o1 m) (Cert.KernelIdeal.Hand.o2 m) (Cert.KernelIdeal.Hand.o3 m))) c :=
    ⟨fun i => by rw [eQ]; exact Cert.Lib.ScaledDot.div_real (hz i) ht ht0, fun i => by rw [eZ]; exact hz i, fun i => by rw [eT]; exact hs i⟩
  funext j
  obtain ⟨r, rfl⟩ : ∃ r : Fin 10000, j = ix1 r := ⟨j 0, eq_ix1 j⟩
  rw [shapeCast_apply _ Cert.KernelIdeal.Gen.shapeCasts_S10000x1_S10000 (ix1 r) (ix2 r (0 : Fin 1))
    (by rw [Shape.rowMajor_val_two, Shape.rowMajor_val_one]; show r.val * 1 + 0 = r.val; omega)]
  show Cert.KernelIdeal.Hand.fin4 (F := Ideal) (U := Cert.KernelIdeal.Hand.UU Cert.KernelIdeal.nD Cert.KernelIdeal.τ) (Cert.KernelIdeal.Hand.W24 m (Cert.KernelIdeal.Hand.o0 m) (Cert.KernelIdeal.Hand.o1 m) (Cert.KernelIdeal.Hand.o2 m) (Cert.KernelIdeal.Hand.o3 m)) c (ix2 r (0 : Fin 1)) = _
  rw [Cert.KernelIdeal.Hand.fin4_apply (U := Cert.KernelIdeal.Hand.UU Cert.KernelIdeal.nD Cert.KernelIdeal.τ) (Cert.KernelIdeal.Hand.W24 m (Cert.KernelIdeal.Hand.o0 m) (Cert.KernelIdeal.Hand.o1 m) (Cert.KernelIdeal.Hand.o2 m) (Cert.KernelIdeal.Hand.o3 m)) c hR r,
    Cert.Lib.NegSimRef.negRef_apply z stu tau hz hs ht ht0 r]
  simp only [eQ, eZ, eT]

/-- info: 'Cert.Proof.Parts.negsim1' depends on axioms: [propext, Classical.choice, Quot.sound] -/
#guard_msgs in #print axioms negsim1

end Cert.Proof.Parts

end
-- ==== Proof.HB1C.lean ====
/-
  The negative row sums of the first loss agree, from the two programs' second-layer outputs agreeing.

  The kernel hands its region 4 the normalized rows of its two second-layer outputs and the first divided by the
  temperature; the reference normalizes its own two second-layer outputs the same way. Given that the outputs agree, that
  they have real entries and that the temperature is a real other than zero, the vector the kernel's host reads off region
  4's output is the reference's column of negative row sums.
-/
import proofs.«175488_j3908420240157_2_alg».proof.Proof.NegSim1
import proofs.«175488_j3908420240157_2_alg».proof.Proof.RefLoss
import proofs.«175488_j3908420240157_2_alg».proof.Proof.KI.LossChain
import proofs.«175488_j3908420240157_2_alg».proof.Proof.KI.RealZ1
import proofs.«175488_j3908420240157_2_alg».proof.Proof.PreReal

set_option maxRecDepth 65536

noncomputable section

namespace Cert.Proof.Parts

open Idealize.ShloMosaic Idealize.ShloMosaic.TcCoe Idealize.SL.Sem Idealize.ShloMosaic.ValueIdx

/-- The reference's column of negative row sums, read off its operations, is the column the row-sum lemmas are about. -/
theorem negR_eq_negRef (z stu : FVec Ideal Cert.ReferenceIdeal.S10000x256 .f32) (tau : FVec Ideal Cert.ReferenceIdeal.S_ .f32) :
    negR (F := Ideal) z stu tau = Cert.Lib.NegSimRef.negRef z stu tau := rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- THE NEGATIVE ROW SUMS OF THE FIRST LOSS AGREE. -/
theorem hB1 (hpre : Cert.Pre_KernelIdeal m) (hagree : Agree m m') (c : Dev Cert.KernelIdeal.nD)
    (e0 : StableHlo.after (Cert.ReferenceIdeal.OpsP.ops (F := Ideal)) (StableHlo.launchContents m' c) (Proc.devRef .tc Cert.ReferenceIdeal.main_v88) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v101)
    (e1 : StableHlo.after (Cert.ReferenceIdeal.OpsP.ops (F := Ideal)) (StableHlo.launchContents m' c) (Proc.devRef .tc Cert.ReferenceIdeal.main_v177) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v140)
    (hv1 : Cert.Lib.RealClosure.EntriesReal (Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v101 : FVec Ideal Cert.KernelIdeal.S10000x256 .f32))
    (hu1 : Cert.Lib.RealClosure.EntriesReal (Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v140 : FVec Ideal Cert.KernelIdeal.S10000x256 .f32)) :
    shapeCast Cert.KernelIdeal.S10000 (Cert.KernelIdeal.Hand.o4 m c) Cert.KernelIdeal.Gen.shapeCasts_S10000x1_S10000
      = negR (F := Ideal) (zR (StableHlo.after (Cert.ReferenceIdeal.OpsP.ops (F := Ideal)) (StableHlo.launchContents m' c) (Proc.devRef .tc Cert.ReferenceIdeal.main_v88))) (stuR (StableHlo.after (Cert.ReferenceIdeal.OpsP.ops (F := Ideal)) (StableHlo.launchContents m' c) (Proc.devRef .tc Cert.ReferenceIdeal.main_v177))) (m' ((c.tc : Thread Cert.ReferenceIdeal.nD Cert.ReferenceIdeal.τ).loc Cert.ReferenceIdeal.main_arg5)) := by
  obtain ⟨-, -, -, -, -, a5, -⟩ := hagree c
  rw [e0, e1, a5, Cert.KernelIdeal.Hand.W32_main_v101_W23 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c, Cert.KernelIdeal.Hand.W32_main_v140_W23 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c, negR_eq_negRef]
  have hz := Cert.KernelIdeal.Hand.z_real m c hv1
  have hs := Cert.KernelIdeal.Hand.stu_real m c hu1
  rw [Cert.KernelIdeal.Hand.W24_main_v194 m (Cert.KernelIdeal.Hand.o0 m) (Cert.KernelIdeal.Hand.o1 m) (Cert.KernelIdeal.Hand.o2 m) (Cert.KernelIdeal.Hand.o3 m) c] at hz
  rw [Cert.KernelIdeal.Hand.W24_main_v202 m (Cert.KernelIdeal.Hand.o0 m) (Cert.KernelIdeal.Hand.o1 m) (Cert.KernelIdeal.Hand.o2 m) (Cert.KernelIdeal.Hand.o3 m) c] at hs
  exact negsim1 m c (Cert.KernelIdeal.Hand.zK (Cert.KernelIdeal.Hand.W23 m (Cert.KernelIdeal.Hand.o0 m) (Cert.KernelIdeal.Hand.o1 m) (Cert.KernelIdeal.Hand.o2 m) (Cert.KernelIdeal.Hand.o3 m) c Cert.KernelIdeal.main_v101)) (Cert.KernelIdeal.Hand.stuK (Cert.KernelIdeal.Hand.W23 m (Cert.KernelIdeal.Hand.o0 m) (Cert.KernelIdeal.Hand.o1 m) (Cert.KernelIdeal.Hand.o2 m) (Cert.KernelIdeal.Hand.o3 m) c Cert.KernelIdeal.main_v140)) (m ((c.tc : Thread Cert.KernelIdeal.nD Cert.KernelIdeal.τ).loc Cert.KernelIdeal.main_arg5))
    (Cert.KernelIdeal.Hand.W24_main_v194 m (Cert.KernelIdeal.Hand.o0 m) (Cert.KernelIdeal.Hand.o1 m) (Cert.KernelIdeal.Hand.o2 m) (Cert.KernelIdeal.Hand.o3 m) c) (Cert.KernelIdeal.Hand.W24_main_v202 m (Cert.KernelIdeal.Hand.o0 m) (Cert.KernelIdeal.Hand.o1 m) (Cert.KernelIdeal.Hand.o2 m) (Cert.KernelIdeal.Hand.o3 m) c) (Cert.KernelIdeal.Hand.W24_main_v204 m (Cert.KernelIdeal.Hand.o0 m) (Cert.KernelIdeal.Hand.o1 m) (Cert.KernelIdeal.Hand.o2 m) (Cert.KernelIdeal.Hand.o3 m) c)
    hz hs (pre_real_arg5 m hpre c ix0) (pre_ne_zero_arg5 m hpre c ix0)

end Cert.Proof.Parts

end
-- ==== Proof.KI.Value3.lean ====
/-
  Region 3's result as ONE function of its three argument arrays, on the extended reals.

  The output array of region 3 has 10000 rows of 256 entries, written back in five blocks of 2000 rows. At the grid
  point t the body's payload, read at (p, q) of its block, is the three-pass split product of the block of x by the
  whole weight matrix, plus the bias row: for operands with real entries, the plain sum over k of x(2000 t + p, k) ·
  w(k, q), plus b(0, q). A block's coordinate is the block index times the block's extent plus the coordinate inside
  the block; the output's block at t sits at rows 2000 t …, where the block of x it was computed from sits; the
  weight matrix and the bias row are one block each. So every point writes back the restriction to its rows of ONE
  whole-array function G3, the five blocks cover the array, and the array after the region IS G3: at (r, col),
  the sum over k of x(r, k) · w(k, col), plus b(0, col).
-/
import proofs.«175488_j3908420240157_2_alg».proof.Proof.KI.Seg3
import proofs.«175488_j3908420240157_2_alg».proof.Proof.LibSplitProduct
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)

variable {U : Type} [URA U]

/-- Every access of the body is at zero offsets. -/
private theorem off00 : (![0, 0] : Fin 2 → Nat) = fun _ => 0 := funext fun a => by fin_cases a <;> rfl

/-! ## The payload at an index -/

/-- The body's payload at (p, q), for operands with real entries: the row of the x block times the column of the
    weight matrix, plus the bias row's entry. -/
theorem pay3_apply (v0 : FVec Ideal S2000x256 .f32) (v1 : FVec Ideal S256x256 .f32) (v16 : FVec Ideal S1x256 .f32)
    (h0 : ∀ i, ∃ r : ℝ, v0 i = (r : EReal)) (h1 : ∀ i, ∃ r : ℝ, v1 i = (r : EReal)) (p : Fin 2000) (q : Fin 256) :
    k3_pay1 (F := Ideal) v0 v1 v16 (ix2 p q) = (∑ k : Fin 256, v0 (ix2 p k) * v1 (ix2 k q)) + v16 (ix2 (0 : Fin 1) q) := by
  unfold k3_pay1
  refine (Cert.Lib.SplitProduct.split_bias_ix2 _ rfl rfl (fun _ _ => rfl) (fun _ _ => rfl) (fun _ _ => rfl) (fun _ _ => rfl)
    _ v1 ?_ h1 _ _ _ p q).trans ?_
  · rw [shapeCast_self]; exact h0
  · rw [shapeCast_self, shapeCast_self]

/-! ## The whole-array function -/

/-- The result array from the three argument arrays: at (r, col), the sum over k of x(r, k) · w(k, col), plus b(0, col). -/
def G3 (x : FVec Ideal S10000x256 .f32) (w : FVec Ideal S256x256 .f32) (b : FVec Ideal S1x256 .f32) : FVec Ideal S10000x256 .f32 :=
  fun i => (∑ k : Fin 256, x (ix2 (n0 := 10000) (i 0) k) * w (ix2 k (n1 := 256) (i 1))) + b (ix2 (0 : Fin 1) (n1 := 256) (i 1))

theorem G3_apply (x : FVec Ideal S10000x256 .f32) (w : FVec Ideal S256x256 .f32) (b : FVec Ideal S1x256 .f32) (r : Fin 10000) (col : Fin 256) :
    G3 x w b (ix2 r col) = (∑ k : Fin 256, x (ix2 r k) * w (ix2 k col)) + b (ix2 (0 : Fin 1) col) := rfl

/-! ## The windows' index maps, decided over the grid -/

/-- The block of x moves with the output's block along the rows; the weight matrix, the bias row and every window's
    column axis stay at block 0; the output's row block at point t is t. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of the block at point t is row 2000 t + p of the array. -/
def row3 (t : Fin cfg3.N) (p : Fin 2000) : Fin 10000 :=
  ⟨2000 * t.val + p.val, by
    have ht : t.val < 5 := lt_of_lt_of_eq t.isLt N_3
    have hp := p.isLt
    omega⟩

theorem row3_val (t : Fin cfg3.N) (p : Fin 2000) : (row3 t p).val = 2000 * t.val + p.val := rfl

-- the core's buffer contents when the region is entered
variable (V : (c : Dev nD) → (b : Ref sig .tc) → Buf (Elt Ideal) ((c : Thread nD τ).loc b))

/-! ## What a point writes back -/

/-- WHAT POINT t WRITES BACK is block t of G3 of the three arrays as the region finds them. -/
theorem flushed3_eq (c : Dev nD) (t : Fin cfg3.N)
    (hx : ∀ i, ∃ r : ℝ, (V c main_v101 : FVec Ideal S10000x256 .f32) i = (r : EReal))
    (hw : ∀ i, ∃ r : ℝ, (V c main_arg19 : FVec Ideal S256x256 .f32) i = (r : EReal)) :
    (dat3 (F := Ideal) (U := U) V c).flushed 3 t
      = ((cfg3.win 3).blk t).view.read (Elt Ideal) (G3 (V c main_v101) (V c main_arg19) (V c main_v141)) := by
  show (cfg3.win 3).cut (grid3.coords t) ((dat3 (F := Ideal) (U := U) V c).after 3 t) = _
  rw [after3_3]
  unfold out3_3
  rw [View.canon_unit_zero off00]
  simp only [View.ld_unit_zero (S := S2000x256) off00, View.ld_unit_zero (S := S256x256) off00, View.ld_unit_zero (S := S1x256) off00]
  obtain ⟨e00, e01, e10, e11, e20, e21, e30, e31⟩ := idx_facts3 t
  have hx' : ∀ i, ∃ r : ℝ, (iblk3 V c 0 t : FVec Ideal S2000x256 .f32) i = (r : EReal) := fun i => by
    unfold iblk3; rw [View.read_apply]; exact hx _
  have hw' : ∀ i, ∃ r : ℝ, (iblk3 V c 1 t : FVec Ideal S256x256 .f32) i = (r : EReal) := fun i => by
    unfold iblk3; rw [View.read_apply]; exact hw _
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (iblk3 V c 2 t) (ix2 p q)
      = G3 (V c main_v101) (V c main_arg19) (V c main_v141) (((cfg3.win 3).blk t).view.emb (ix2 p q))
  refine (pay3_apply _ _ _ hx' hw' p q).trans ?_
  -- the output block's index in the array
  have hO : ((cfg3.win 3).blk t).view.emb (ix2 p q) = ix2 (row3 t p) q := by
    funext a; apply Fin.ext
    match a with
    | ⟨0, _⟩ => show win3_3.index t (0 : Fin 2) * 2000 + 1 * p.val = 2000 * t.val + p.val; omega
    | ⟨1, _⟩ => show win3_3.index t (1 : Fin 2) * 256 + 1 * q.val = q.val; omega
  rw [hO, G3_apply]
  -- each input block read where the output's rectangle says
  have h0 : ∀ k : Fin 256, (iblk3 V c 0 t : FVec Ideal S2000x256 .f32) (ix2 p k) = (V c main_v101 : FVec Ideal S10000x256 .f32) (ix2 (row3 t p) k) := fun k => by
    unfold iblk3; rw [View.read_apply]
    show V c main_v101 _ = V c main_v101 _
    congr 1; funext a; apply Fin.ext
    match a with
    | ⟨0, _⟩ => show win3_0.index t (0 : Fin 2) * 2000 + 1 * p.val = 2000 * t.val + p.val; omega
    | ⟨1, _⟩ => show win3_0.index t (1 : Fin 2) * 256 + 1 * k.val = k.val; omega
  have h1 : ∀ k : Fin 256, (iblk3 V c 1 t : FVec Ideal S256x256 .f32) (ix2 k q) = (V c main_arg19 : FVec Ideal S256x256 .f32) (ix2 k q) := fun k => by
    unfold iblk3; rw [View.read_apply]
    show V c main_arg19 _ = V c main_arg19 _
    congr 1; funext a; apply Fin.ext
    match a with
    | ⟨0, _⟩ => show win3_1.index t (0 : Fin 2) * 256 + 1 * k.val = k.val; omega
    | ⟨1, _⟩ => show win3_1.index t (1 : Fin 2) * 256 + 1 * q.val = q.val; omega
  have h2 : (iblk3 V c 2 t : FVec Ideal S1x256 .f32) (ix2 (0 : Fin 1) q) = (V c main_v141 : FVec Ideal S1x256 .f32) (ix2 (0 : Fin 1) q) := by
    unfold iblk3; rw [View.read_apply]
    show V c main_v141 _ = V c main_v141 _
    congr 1; funext a; apply Fin.ext
    match a with
    | ⟨0, _⟩ => show win3_2.index t (0 : Fin 2) * 1 + 1 * (0 : Fin 1).val = (0 : Fin 1).val; omega
    | ⟨1, _⟩ => show win3_2.index t (1 : Fin 2) * 256 + 1 * q.val = q.val; omega
  rw [h2]
  exact congrArg (· + _) (Finset.sum_congr rfl fun k _ => by rw [h0 k, h1 k])

/-! ## The blocks cover the array -/

/-- An index of the array is in point t's block iff each coordinate is in the block's range on its axis. -/
theorem mem_blk3 (t : Fin cfg3.N) (i : S10000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v142).slice (win3_3.rect t)).set ↔ _
  rw [View.set_slice_whole, Rect.mem_set_unit]
  exact Iff.rfl

/-- Row r of the array lies in the block of the point r / 2000, which writes back (every point does). -/
theorem cover3 (i : S10000x256.Idx) : ∃ t : Fin cfg3.N, (cfg3.win 3).flush t = true ∧ i ∈ ((cfg3.win 3).blk t).view.set := by
  have hi0 : (i 0).val < 10000 := (i 0).isLt
  have hi1 : (i 1).val < 256 := (i 1).isLt
  have hN : cfg3.N = 5 := N_3
  let t : Fin cfg3.N := ⟨(i 0).val / 2000, by rw [hN]; omega⟩
  obtain ⟨-, -, -, -, -, -, e30, e31⟩ := idx_facts3 t
  have ht : t.val = (i 0).val / 2000 := rfl
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-! ## The array after the region -/

variable (Wpre : Dev nD → Valuation τ sig (Elt Ideal))

/-- The output array after region 3 IS G3 of the three arrays as the region finds them. -/
theorem fin3_eq (c : Dev nD)
    (hx : ∀ i, ∃ r : ℝ, (Vof Wpre c main_v101 : FVec Ideal S10000x256 .f32) i = (r : EReal))
    (hw : ∀ i, ∃ r : ℝ, (Vof Wpre c main_arg19 : FVec Ideal S256x256 .f32) i = (r : EReal)) :
    fin3 (F := Ideal) (U := U) Wpre c = G3 (Vof Wpre c main_v101) (Vof Wpre c main_arg19) (Vof Wpre c main_v141) := by
  unfold fin3
  exact (dat3 (F := Ideal) (U := U) (Vof Wpre) c).arrAt_eq_of_cover 3 _ (fun t _ => flushed3_eq (Vof Wpre) c t hx hw) cover3

/-- The three arrays region 3 reads, as the region finds them, at their literal shapes: x (main_v101), the weight
    matrix (main_arg19), the bias row (main_v141). -/
abbrev x3 (c : Dev nD) : FVec Ideal S10000x256 .f32 := Vof Wpre c main_v101
abbrev w3 (c : Dev nD) : FVec Ideal S256x256 .f32 := Vof Wpre c main_arg19
abbrev b3 (c : Dev nD) : FVec Ideal S1x256 .f32 := Vof Wpre c main_v141

/-- At (r, col): the sum over k of x(r, k) · w(k, col), plus b(0, col). -/
theorem fin3_apply (c : Dev nD)
    (hx : ∀ i, ∃ r : ℝ, x3 Wpre c i = (r : EReal)) (hw : ∀ i, ∃ r : ℝ, w3 Wpre c i = (r : EReal))
    (r : Fin 10000) (col : Fin 256) :
    (fin3 (F := Ideal) (U := U) Wpre c : FVec Ideal S10000x256 .f32) (ix2 r col)
      = (∑ k : Fin 256, x3 Wpre c (ix2 r k) * w3 Wpre c (ix2 k col)) + b3 Wpre c (ix2 (0 : Fin 1) col) := by
  rw [fin3_eq Wpre c hx hw]
  exact G3_apply _ _ _ r col

/-- info: 'Cert.KernelIdeal.Hand.fin3_apply' depends on axioms: [propext, Classical.choice, Quot.sound] -/
#guard_msgs in #print axioms fin3_apply

end Cert.KernelIdeal.Hand

end
-- ==== Proof.KI.Region3Out.lean ====
/-
  What region 3 leaves, from the launch memory and the first branch's second-layer output.

  Region 3 multiplies the first branch's second-layer output (the array main_v101, as the valuation region 3 is entered at
  holds it) by the projection's weights, an argument of @main that is as launched, and adds the projection's bias, which the
  host stretch just before it lays out as one row. So, for operands with real entries, its output array is the plain product
  plus the bias on every row.
-/
import proofs.«175488_j3908420240157_2_alg».proof.Proof.KI.Frame
import proofs.«175488_j3908420240157_2_alg».proof.Proof.KI.Value3

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

set_option maxHeartbeats 0 in
/-- The stretch before region 3 leaves the projection's bias, as one row of 256, in main_v141, whatever the buffers held. -/
theorem read_v141 {F : FTy → Type} [FloatOps F] (P : Valuation τ sig (Elt F)) :
    StableHlo.after hostOps3_4 P (Proc.devRef .tc main_v141)
      = shapeCast S1x256 (P (Proc.devRef .tc main_arg20)) shapeCasts_S256_S1x256 := by
  after_results_simp <;> rfl

variable (m : (ℓ : Loc nD τ sig) → Buf (Elt Ideal) ℓ)

/-- The projection's weights are as launched where region 3 is entered. -/
theorem W22_main_arg19 (c : Dev nD) : W22 m (o0 m) (o1 m) (o2 m) c main_arg19 = m ((c : Thread nD τ).loc main_arg19) :=
  (W22_of m (o0 m) (o1 m) (o2 m) c main_arg19 (by decide)).trans <|
  (W21_of m (o0 m) (o1 m) (o2 m) c main_arg19 (by decide)).trans <|
  (W20_of m (o0 m) (o1 m) (o2 m) c main_arg19 (by decide)).trans <|
  (W19_of m (o0 m) (o1 m) (o2 m) c main_arg19 (by decide)).trans <|
  (W18_of m (o0 m) (o1 m) (o2 m) c main_arg19 (by decide)).trans <|
  (W17_of m (o0 m) (o1 m) (o2 m) c main_arg19 (by decide)).trans <|
  (W16_of m (o0 m) (o1 m) c main_arg19 (by decide)).trans <|
  (W15_of m (o0 m) (o1 m) c main_arg19 (by decide)).trans <|
  (W14_of m (o0 m) (o1 m) c main_arg19 (by decide)).trans <|
  (W13_of m (o0 m) (o1 m) c main_arg19 (by decide)).trans <|
  (W12_of m (o0 m) (o1 m) c main_arg19 (by decide)).trans <|
  (W11_of m (o0 m) (o1 m) c main_arg19 (by decide)).trans <|
  (W10_of m (o0 m) c main_arg19 (by decide)).trans <|
  (W9_of m (o0 m) c main_arg19 (by decide)).trans <|
  (W8_of m (o0 m) c main_arg19 (by decide)).trans <|
  (W7_of m (o0 m) c main_arg19 (by decide)).trans <|
  (W6_of m (o0 m) c main_arg19 (by decide)).trans <|
  (W5_of m (o0 m) c main_arg19 (by decide)).trans <|
  (W4_of m (o0 m) c main_arg19 (by decide)).trans <|
  (W3_of m (o0 m) c main_arg19 (by decide)).trans <|
  (W2_of m (o0 m) c main_arg19 (by decide)).trans <|
  (W1_of m c main_arg19 (by decide)).trans rfl

/-- The projection's bias is as launched where the stretch before region 3 begins. -/
theorem W21_main_arg20 (c : Dev nD) : W21 m (o0 m) (o1 m) (o2 m) c main_arg20 = m ((c : Thread nD τ).loc main_arg20) :=
  (W21_of m (o0 m) (o1 m) (o2 m) c main_arg20 (by decide)).trans <|
  (W20_of m (o0 m) (o1 m) (o2 m) c main_arg20 (by decide)).trans <|
  (W19_of m (o0 m) (o1 m) (o2 m) c main_arg20 (by decide)).trans <|
  (W18_of m (o0 m) (o1 m) (o2 m) c main_arg20 (by decide)).trans <|
  (W17_of m (o0 m) (o1 m) (o2 m) c main_arg20 (by decide)).trans <|
  (W16_of m (o0 m) (o1 m) c main_arg20 (by decide)).trans <|
  (W15_of m (o0 m) (o1 m) c main_arg20 (by decide)).trans <|
  (W14_of m (o0 m) (o1 m) c main_arg20 (by decide)).trans <|
  (W13_of m (o0 m) (o1 m) c main_arg20 (by decide)).trans <|
  (W12_of m (o0 m) (o1 m) c main_arg20 (by decide)).trans <|
  (W11_of m (o0 m) (o1 m) c main_arg20 (by decide)).trans <|
  (W10_of m (o0 m) c main_arg20 (by decide)).trans <|
  (W9_of m (o0 m) c main_arg20 (by decide)).trans <|
  (W8_of m (o0 m) c main_arg20 (by decide)).trans <|
  (W7_of m (o0 m) c main_arg20 (by decide)).trans <|
  (W6_of m (o0 m) c main_arg20 (by decide)).trans <|
  (W5_of m (o0 m) c main_arg20 (by decide)).trans <|
  (W4_of m (o0 m) c main_arg20 (by decide)).trans <|
  (W3_of m (o0 m) c main_arg20 (by decide)).trans <|
  (W2_of m (o0 m) c main_arg20 (by decide)).trans <|
  (W1_of m c main_arg20 (by decide)).trans rfl

/-- The bias row, at the valuation region 3 is entered at. -/
theorem W22_main_v141 (c : Dev nD) :
    W22 m (o0 m) (o1 m) (o2 m) c main_v141 = shapeCast S1x256 (m ((c : Thread nD τ).loc main_arg20)) shapeCasts_S256_S1x256 :=
  (read_v141 (W21 m (o0 m) (o1 m) (o2 m) c)).trans
    (congrArg (shapeCast S1x256 · shapeCasts_S256_S1x256) (W21_main_arg20 m c))

/-- Region 3's output array: the product of the first branch's second-layer output, as region 3 finds it, with the
    projection's weights, plus the projection's bias on every row. -/
theorem o3_eq (c : Dev nD)
    (hreal : ∀ i, ∃ r : ℝ, (W22 m (o0 m) (o1 m) (o2 m) c main_v101 : FVec Ideal S10000x256 .f32) i = (r : EReal))
    (hW19 : ∀ i, ∃ r : ℝ, (m ((c : Thread nD τ).loc main_arg19) : FVec Ideal S256x256 .f32) i = (r : EReal)) :
    o3 m c = G3 (W22 m (o0 m) (o1 m) (o2 m) c main_v101) (m ((c : Thread nD τ).loc main_arg19))
      (shapeCast S1x256 (m ((c : Thread nD τ).loc main_arg20)) shapeCasts_S256_S1x256) := by
  have hw : ∀ i, ∃ r : ℝ, (Vof (W22 m (o0 m) (o1 m) (o2 m)) c main_arg19 : FVec Ideal S256x256 .f32) i = (r : EReal) := by
    intro i
    show ∃ r : ℝ, (W22 m (o0 m) (o1 m) (o2 m) c main_arg19 : FVec Ideal S256x256 .f32) i = (r : EReal)
    rw [W22_main_arg19]; exact hW19 i
  show fin3 (U := UU nD τ) (W22 m (o0 m) (o1 m) (o2 m)) c = _
  refine (fin3_eq (U := UU nD τ) (W22 m (o0 m) (o1 m) (o2 m)) c hreal hw).trans ?_
  show G3 (W22 m (o0 m) (o1 m) (o2 m) c main_v101) (W22 m (o0 m) (o1 m) (o2 m) c main_arg19) (W22 m (o0 m) (o1 m) (o2 m) c main_v141) = _
  rw [W22_main_arg19, W22_main_v141]

end Cert.KernelIdeal.Hand

end
-- ==== Proof.Qlin3C.lean ====
/-
  The projection of the first loss: what the kernel's region 3 leaves is the reference's projection.

  The reference multiplies the first branch's second-layer output by the projection's weights in one product on the host
  and adds the bias, laid out as a row and repeated down the rows; region 3's output is, entry by entry, the same sum of
  products plus the same bias entry (its value, for real entries).
-/
import proofs.«175488_j3908420240157_2_alg».proof.Proof.Algebraic
import proofs.«175488_j3908420240157_2_alg».proof.Proof.KI.Region3Out
import proofs.«175488_j3908420240157_2_alg».proof.Proof.LibMatProd
import proofs.«175488_j3908420240157_2_alg».proof.Proof.RefLoss
import proofs.«175488_j3908420240157_2_alg».proof.Proof.KI.LossChain
import proofs.«175488_j3908420240157_2_alg».proof.Proof.PreReal

set_option maxRecDepth 65536

noncomputable section

open scoped BigOperators

namespace Cert.Proof.Parts

open Idealize.ShloMosaic Idealize.ShloMosaic.TcCoe Idealize.SL.Sem Idealize.ShloMosaic.ValueIdx

/-- The host's product plus the bias repeated down the rows is the region's array over the bias laid out as one row. -/
theorem projection_eq (d : DotDims ⟨2, ![10000, 256]⟩ ⟨2, ![256, 256]⟩ ⟨2, ![10000, 256]⟩)
    (hr : d.contr.rank = 1) (hs : d.contr.size ⟨0, by omega⟩ = 256)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (X : FVec Ideal ⟨2, ![10000, 256]⟩ .f32) (A : FVec Ideal ⟨2, ![256, 256]⟩ .f32) (a : FVec Ideal ⟨1, ![256]⟩ .f32)
    (hsc : (⟨1, ![256]⟩ : Shape).ShapeCasts ⟨2, ![1, 256]⟩)
    (hb1 : (⟨1, ![256]⟩ : Shape).BroadcastsInDim ⟨2, ![1, 256]⟩ ![1])
    (hb2 : (⟨2, ![1, 256]⟩ : Shape).BroadcastsInDim ⟨2, ![10000, 256]⟩ ![0, 1]) :
    Cert.KernelIdeal.Hand.G3 X A (shapeCast ⟨2, ![1, 256]⟩ a hsc)
      = addf (F := Ideal) (Host.dotGeneral (F := Ideal) d none X A)
          (broadcastInDim ⟨2, ![10000, 256]⟩ ![0, 1] hb2 (broadcastInDim ⟨2, ![1, 256]⟩ ![1] hb1 a)) := by
  funext j
  obtain ⟨r, col, rfl⟩ : ∃ (r : Fin 10000) (col : Fin 256), j = ix2 r col := ⟨j 0, j 1, eq_ix2 j⟩
  rw [addf_apply, Cert.MatProd.hostDot_apply d hr hs hl0 hl1 hr0 hr1 X A (ix2 r col)]
  rw [broadcastInDim_apply ![0, 1] hb2 _ (ix2 r col) (ix2 (0 : Fin 1) col) (fun a => by match a with | ⟨0, _⟩ => rfl | ⟨1, _⟩ => rfl)]
  rw [broadcastInDim_apply ![1] hb1 _ (ix2 (0 : Fin 1) col) (ix1 col) (fun a => by match a with | ⟨0, _⟩ => rfl)]
  rw [Cert.KernelIdeal.Hand.G3_apply]
  rw [shapeCast_apply _ hsc (ix2 (0 : Fin 1) col) (ix1 col)
    (by rw [Shape.rowMajor_val_one, Shape.rowMajor_val_two]; show col.val = 0 * 256 + col.val; omega)]
  rfl

variable (m : (ℓ : Loc Cert.KernelIdeal.nD Cert.KernelIdeal.τ Cert.KernelIdeal.sig) → Buf (Elt Ideal) ℓ)

/-- REGION 3'S OUTPUT IS THE REFERENCE'S PROJECTION of the array region 3 finds at the first branch's second-layer output,
    with the projection's weights and bias as launched — for real entries. -/
theorem o3_projection (c : Dev Cert.KernelIdeal.nD)
    (hreal : ∀ i, ∃ r : ℝ, (Cert.KernelIdeal.Hand.W22 m (Cert.KernelIdeal.Hand.o0 m) (Cert.KernelIdeal.Hand.o1 m) (Cert.KernelIdeal.Hand.o2 m) c Cert.KernelIdeal.main_v101 : FVec Ideal Cert.KernelIdeal.S10000x256 .f32) i = (r : EReal))
    (hW19 : ∀ i, ∃ r : ℝ, (m ((c.tc : Thread Cert.KernelIdeal.nD Cert.KernelIdeal.τ).loc Cert.KernelIdeal.main_arg19) : FVec Ideal Cert.KernelIdeal.S256x256 .f32) i = (r : EReal)) :
    Cert.KernelIdeal.Hand.o3 m c
      = addf (F := Ideal)
          (Host.dotGeneral (F := Ideal) (φ₁ := .f32) (φ₂ := .f32) Cert.ReferenceIdeal.dot_S10000x256_S256x256_S10000x256_1_0_0_1_n_n none
            (Cert.KernelIdeal.Hand.W22 m (Cert.KernelIdeal.Hand.o0 m) (Cert.KernelIdeal.Hand.o1 m) (Cert.KernelIdeal.Hand.o2 m) c Cert.KernelIdeal.main_v101 : FVec Ideal Cert.KernelIdeal.S10000x256 .f32)
            (m ((c.tc : Thread Cert.KernelIdeal.nD Cert.KernelIdeal.τ).loc Cert.KernelIdeal.main_arg19) : FVec Ideal Cert.KernelIdeal.S256x256 .f32))
          (broadcastInDim Cert.ReferenceIdeal.S10000x256 ![0, 1] Cert.ReferenceIdeal.Gen.bcast_S1x256_S10000x256_0_1
            (broadcastInDim Cert.ReferenceIdeal.S1x256 ![1] Cert.ReferenceIdeal.Gen.bcast_S256_S1x256_1 (m ((c.tc : Thread Cert.KernelIdeal.nD Cert.KernelIdeal.τ).loc Cert.KernelIdeal.main_arg20) : FVec Ideal Cert.KernelIdeal.S256 .f32))) := by
  rw [Cert.KernelIdeal.Hand.o3_eq m c hreal hW19]
  exact projection_eq _ rfl rfl (fun _ _ => rfl) (fun _ _ => rfl) (fun _ _ => rfl) (fun _ _ => rfl) _ _ _ _ _ _

variable (m' : (ℓ : Loc Cert.ReferenceIdeal.nD Cert.ReferenceIdeal.τ Cert.ReferenceIdeal.sig) → Buf (Elt Ideal) ℓ)

set_option maxHeartbeats 1000000 in
/-- THE PROJECTIONS OF THE FIRST LOSS AGREE, from the first branch's second-layer outputs agreeing. -/
theorem hA1 (hpre : Cert.Pre_KernelIdeal m) (hagree : Agree m m') (c : Dev Cert.KernelIdeal.nD)
    (e0 : StableHlo.after (Cert.ReferenceIdeal.OpsP.ops (F := Ideal)) (StableHlo.launchContents m' c) (Proc.devRef .tc Cert.ReferenceIdeal.main_v88) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v101)
    (hv1 : Cert.Lib.RealClosure.EntriesReal (Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v101 : FVec Ideal Cert.KernelIdeal.S10000x256 .f32)) :
    Cert.KernelIdeal.Hand.o3 m c = qlinR (F := Ideal) (StableHlo.after (Cert.ReferenceIdeal.OpsP.ops (F := Ideal)) (StableHlo.launchContents m' c) (Proc.devRef .tc Cert.ReferenceIdeal.main_v88)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) := by
  obtain ⟨-, -, -, -, -, -, -, -, -, -, -, -, -, -, -, -, -, -, -, a19, a20⟩ := hagree c
  have e22 : Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v101 = Cert.KernelIdeal.Hand.W22 m (Cert.KernelIdeal.Hand.o0 m) (Cert.KernelIdeal.Hand.o1 m) (Cert.KernelIdeal.Hand.o2 m) c Cert.KernelIdeal.main_v101 :=
    (Cert.KernelIdeal.Hand.W32_main_v101_W23 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c).trans (Cert.KernelIdeal.Hand.W23_of m (Cert.KernelIdeal.Hand.o0 m) (Cert.KernelIdeal.Hand.o1 m) (Cert.KernelIdeal.Hand.o2 m) (Cert.KernelIdeal.Hand.o3 m) c Cert.KernelIdeal.main_v101 (by decide))
  have hreal : ∀ i, ∃ r : ℝ, (Cert.KernelIdeal.Hand.W22 m (Cert.KernelIdeal.Hand.o0 m) (Cert.KernelIdeal.Hand.o1 m) (Cert.KernelIdeal.Hand.o2 m) c Cert.KernelIdeal.main_v101 : FVec Ideal Cert.KernelIdeal.S10000x256 .f32) i = (r : EReal) := e22 ▸ hv1
  rw [e0, a19, a20, e22, o3_projection m c hreal (pre_real_arg19 m hpre c)]
  rfl

end Cert.Proof.Parts

end
-- ==== Proof.RefLoss2A.lean ====
/-
  The second contrastive loss and the total on the reference's side: the reference's last 120 operations, which repeat
  the first loss's on the two linear encoders' outputs with the second temperature and add the two losses.
-/
import proofs.«175488_j3908420240157_2_alg».proof.Proof.RefLoss

set_option maxRecDepth 65536

noncomputable section

namespace Cert.Proof.Parts

open Cert.ReferenceIdeal Cert.ReferenceIdeal.Gen Cert.ReferenceIdeal.OpsP
open Idealize.ShloMosaic Idealize.ShloMosaic.TcCoe Idealize.SL.Sem Idealize.ShloMosaic.StableHlo

variable {F : FTy → Type} [FloatOps F]

/-- The total: the two losses added. -/
def totalR (l1 l2 : (⟨S_, .f32⟩ : BufTy).Contents (Elt F)) : (⟨S_, .f32⟩ : BufTy).Contents (Elt F) := (addf : (⟨S_, .f32⟩ : BufTy).Contents (Elt F) → (⟨S_, .f32⟩ : BufTy).Contents (Elt F) → (⟨S_, .f32⟩ : BufTy).Contents (Elt F)) l1 l2

set_option maxHeartbeats 0 in
/-- The reference's operations 381 to 500. -/
abbrev loss2RefOps : List (HloOp τ sig (Elt F)) :=
  [ binary main_v276 main_arg19 main_v281 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    unary main_arg20 main_v282 (broadcastInDim S1x256 ![1] bcast_S256_S1x256_1 : (⟨S256, .f32⟩ : BufTy).Contents (Elt F) → (⟨S1x256, .f32⟩ : BufTy).Contents (Elt F)),
    unary main_v282 main_v283 (broadcastInDim S10000x256 ![0, 1] bcast_S1x256_S10000x256_0_1 : (⟨S1x256, .f32⟩ : BufTy).Contents (Elt F) → (⟨S10000x256, .f32⟩ : BufTy).Contents (Elt F)),
    binary main_v281 main_v283 main_v284 (addf : (⟨S10000x256, .f32⟩ : BufTy).Contents (Elt F) → (⟨S10000x256, .f32⟩ : BufTy).Contents (Elt F) → (⟨S10000x256, .f32⟩ : BufTy).Contents (Elt F)),
    binary main_v284 main_v284 main_v285 (mulf : (⟨S10000x256, .f32⟩ : BufTy).Contents (Elt F) → (⟨S10000x256, .f32⟩ : BufTy).Contents (Elt F) → (⟨S10000x256, .f32⟩ : BufTy).Contents (Elt F)),
    nullary main_cst_78 (constant S_ .f32 0x00000000#32),
    binary main_v285 main_cst_78 main_v286 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v286 main_v287 (broadcastInDim S10000x1 ![0] bcast_S10000_S10000x1_0 : (⟨S10000, .f32⟩ : BufTy).Contents (Elt F) → (⟨S10000x1, .f32⟩ : BufTy).Contents (Elt F)),
    unary main_v287 main_v288 (Host.sqrt : (⟨S10000x1, .f32⟩ : BufTy).Contents (Elt F) → (⟨S10000x1, .f32⟩ : BufTy).Contents (Elt F)),
    nullary main_cst_79 (constant S_ .f32 0x2B8CBCCC#32),
    unary main_cst_79 main_v289 (broadcastInDim S10000x1 ![] bcast_S_S10000x1 : (⟨S_, .f32⟩ : BufTy).Contents (Elt F) → (⟨S10000x1, .f32⟩ : BufTy).Contents (Elt F)),
    binary main_v288 main_v289 main_v290 (maximumf : (⟨S10000x1, .f32⟩ : BufTy).Contents (Elt F) → (⟨S10000x1, .f32⟩ : BufTy).Contents (Elt F) → (⟨S10000x1, .f32⟩ : BufTy).Contents (Elt F)),
    unary main_v290 main_v291 (broadcastInDim S10000x256 ![0, 1] bcast_S10000x1_S10000x256_0_1 : (⟨S10000x1, .f32⟩ : BufTy).Contents (Elt F) → (⟨S10000x256, .f32⟩ : BufTy).Contents (Elt F)),
    binary main_v284 main_v291 main_v292 (Host.divf : (⟨S10000x256, .f32⟩ : BufTy).Contents (Elt F) → (⟨S10000x256, .f32⟩ : BufTy).Contents (Elt F) → (⟨S10000x256, .f32⟩ : BufTy).Contents (Elt F)),
    binary main_v280 main_v280 main_v293 (mulf : (⟨S10000x256, .f32⟩ : BufTy).Contents (Elt F) → (⟨S10000x256, .f32⟩ : BufTy).Contents (Elt F) → (⟨S10000x256, .f32⟩ : BufTy).Contents (Elt F)),
    nullary main_cst_80 (constant S_ .f32 0x00000000#32),
    binary main_v293 main_cst_80 main_v294 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v294 main_v295 (broadcastInDim S10000x1 ![0] bcast_S10000_S10000x1_0 : (⟨S10000, .f32⟩ : BufTy).Contents (Elt F) → (⟨S10000x1, .f32⟩ : BufTy).Contents (Elt F)),
    unary main_v295 main_v296 (Host.sqrt : (⟨S10000x1, .f32⟩ : BufTy).Contents (Elt F) → (⟨S10000x1, .f32⟩ : BufTy).Contents (Elt F)),
    nullary main_cst_81 (constant S_ .f32 0x2B8CBCCC#32),
    unary main_cst_81 main_v297 (broadcastInDim S10000x1 ![] bcast_S_S10000x1 : (⟨S_, .f32⟩ : BufTy).Contents (Elt F) → (⟨S10000x1, .f32⟩ : BufTy).Contents (Elt F)),
    binary main_v296 main_v297 main_v298 (maximumf : (⟨S10000x1, .f32⟩ : BufTy).Contents (Elt F) → (⟨S10000x1, .f32⟩ : BufTy).Contents (Elt F) → (⟨S10000x1, .f32⟩ : BufTy).Contents (Elt F)),
    unary main_v298 main_v299 (broadcastInDim S10000x256 ![0, 1] bcast_S10000x1_S10000x256_0_1 : (⟨S10000x1, .f32⟩ : BufTy).Contents (Elt F) → (⟨S10000x256, .f32⟩ : BufTy).Contents (Elt F)),
    binary main_v280 main_v299 main_v300 (Host.divf : (⟨S10000x256, .f32⟩ : BufTy).Contents (Elt F) → (⟨S10000x256, .f32⟩ : BufTy).Contents (Elt F) → (⟨S10000x256, .f32⟩ : BufTy).Contents (Elt F)),
    nullary main_c_82 (constantI S_ 32 0#32),
    unary main_c_82 main_v301 (broadcastInDim S320000 ![] bcast_S_S320000 : (⟨S_, .i32⟩ : BufTy).Contents (Elt F) → (⟨S320000, .i32⟩ : BufTy).Contents (Elt F)),
    binary main_arg3 main_v301 main_v302 (cmpi .slt : (⟨S320000, .i32⟩ : BufTy).Contents (Elt F) → (⟨S320000, .i32⟩ : BufTy).Contents (Elt F) → (⟨S320000, .i1⟩ : BufTy).Contents (Elt F)),
    nullary main_c_83 (constantI S_ 32 10000#32),
    unary main_c_83 main_v303 (broadcastInDim S320000 ![] bcast_S_S320000 : (⟨S_, .i32⟩ : BufTy).Contents (Elt F) → (⟨S320000, .i32⟩ : BufTy).Contents (Elt F)),
    binary main_arg3 main_v303 main_v304 (addi : (⟨S320000, .i32⟩ : BufTy).Contents (Elt F) → (⟨S320000, .i32⟩ : BufTy).Contents (Elt F) → (⟨S320000, .i32⟩ : BufTy).Contents (Elt F)),
    ternary main_v302 main_v304 main_arg3 main_v305 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v305 main_v306 (broadcastInDim S320000x1 ![0] bcast_S320000_S320000x1_0 : (⟨S320000, .i32⟩ : BufTy).Contents (Elt F) → (⟨S320000x1, .i32⟩ : BufTy).Contents (Elt F)),
    binary main_v300 main_v306 main_v307 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    nullary main_c_84 (constantI S_ 32 0#32),
    unary main_c_84 main_v308 (broadcastInDim S320000 ![] bcast_S_S320000 : (⟨S_, .i32⟩ : BufTy).Contents (Elt F) → (⟨S320000, .i32⟩ : BufTy).Contents (Elt F)),
    binary main_arg4 main_v308 main_v309 (cmpi .slt : (⟨S320000, .i32⟩ : BufTy).Contents (Elt F) → (⟨S320000, .i32⟩ : BufTy).Contents (Elt F) → (⟨S320000, .i1⟩ : BufTy).Contents (Elt F)),
    nullary main_c_85 (constantI S_ 32 10000#32),
    unary main_c_85 main_v310 (broadcastInDim S320000 ![] bcast_S_S320000 : (⟨S_, .i32⟩ : BufTy).Contents (Elt F) → (⟨S320000, .i32⟩ : BufTy).Contents (Elt F)),
    binary main_arg4 main_v310 main_v311 (addi : (⟨S320000, .i32⟩ : BufTy).Contents (Elt F) → (⟨S320000, .i32⟩ : BufTy).Contents (Elt F) → (⟨S320000, .i32⟩ : BufTy).Contents (Elt F)),
    ternary main_v309 main_v311 main_arg4 main_v312 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v312 main_v313 (broadcastInDim S320000x1 ![0] bcast_S320000_S320000x1_0 : (⟨S320000, .i32⟩ : BufTy).Contents (Elt F) → (⟨S320000x1, .i32⟩ : BufTy).Contents (Elt F)),
    binary main_v292 main_v313 main_v314 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    binary main_v307 main_v314 main_v315 (mulf : (⟨S320000x256, .f32⟩ : BufTy).Contents (Elt F) → (⟨S320000x256, .f32⟩ : BufTy).Contents (Elt F) → (⟨S320000x256, .f32⟩ : BufTy).Contents (Elt F)),
    nullary main_cst_86 (constant S_ .f32 0x00000000#32),
    binary main_v315 main_cst_86 main_v316 ((fun x v => Host.reduceAdd x v reducesTo_S320000x256_S320000_d1 h_S_) : (⟨S320000x256, .f32⟩ : BufTy).Contents (Elt F) → (⟨S_, .f32⟩ : BufTy).Contents (Elt F) → (⟨S320000, .f32⟩ : BufTy).Contents (Elt F)),
    unary main_arg6 main_v317 (broadcastInDim S320000 ![] bcast_S_S320000 : (⟨S_, .f32⟩ : BufTy).Contents (Elt F) → (⟨S320000, .f32⟩ : BufTy).Contents (Elt F)),
    binary main_v316 main_v317 main_v318 (Host.divf : (⟨S320000, .f32⟩ : BufTy).Contents (Elt F) → (⟨S320000, .f32⟩ : BufTy).Contents (Elt F) → (⟨S320000, .f32⟩ : BufTy).Contents (Elt F)),
    nullary main_cst_87 (constant S_ .f32 0x3F800000#32),
    unary main_cst_87 main_v319 (broadcastInDim S320000 ![] bcast_S_S320000 : (⟨S_, .f32⟩ : BufTy).Contents (Elt F) → (⟨S320000, .f32⟩ : BufTy).Contents (Elt F)),
    nullary main_cst_88 (constant S_ .f32 0x00000000#32),
    unary main_cst_88 main_v320 (broadcastInDim S10000 ![] bcast_S_S10000 : (⟨S_, .f32⟩ : BufTy).Contents (Elt F) → (⟨S10000, .f32⟩ : BufTy).Contents (Elt F)),
    unary main_arg4 main_v321 (broadcastInDim S320000x1 ![0] bcast_S320000_S320000x1_0 : (⟨S320000, .i32⟩ : BufTy).Contents (Elt F) → (⟨S320000x1, .i32⟩ : BufTy).Contents (Elt F)),
    ternary main_v320 main_v321 main_v319 main_v322 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_89 (constant S_ .f32 0x3F800000#32),
    unary main_cst_89 main_v323 (broadcastInDim S10000 ![] bcast_S_S10000 : (⟨S_, .f32⟩ : BufTy).Contents (Elt F) → (⟨S10000, .f32⟩ : BufTy).Contents (Elt F)),
    binary main_v322 main_v323 main_v324 (maximumf : (⟨S10000, .f32⟩ : BufTy).Contents (Elt F) → (⟨S10000, .f32⟩ : BufTy).Contents (Elt F) → (⟨S10000, .f32⟩ : BufTy).Contents (Elt F)),
    nullary main_cst_90 (constant S_ .f32 0x00000000#32),
    unary main_cst_90 main_v325 (broadcastInDim S10000 ![] bcast_S_S10000 : (⟨S_, .f32⟩ : BufTy).Contents (Elt F) → (⟨S10000, .f32⟩ : BufTy).Contents (Elt F)),
    unary main_arg4 main_v326 (broadcastInDim S320000x1 ![0] bcast_S320000_S320000x1_0 : (⟨S320000, .i32⟩ : BufTy).Contents (Elt F) → (⟨S320000x1, .i32⟩ : BufTy).Contents (Elt F)),
    ternary main_v325 main_v326 main_v318 main_v327 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    binary main_v327 main_v324 main_v328 (Host.divf : (⟨S10000, .f32⟩ : BufTy).Contents (Elt F) → (⟨S10000, .f32⟩ : BufTy).Contents (Elt F) → (⟨S10000, .f32⟩ : BufTy).Contents (Elt F)),
    binary main_v276 main_v276 main_v329 (mulf : (⟨S10000x256, .f32⟩ : BufTy).Contents (Elt F) → (⟨S10000x256, .f32⟩ : BufTy).Contents (Elt F) → (⟨S10000x256, .f32⟩ : BufTy).Contents (Elt F)),
    nullary main_cst_91 (constant S_ .f32 0x00000000#32),
    binary main_v329 main_cst_91 main_v330 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v330 main_v331 (broadcastInDim S10000x1 ![0] bcast_S10000_S10000x1_0 : (⟨S10000, .f32⟩ : BufTy).Contents (Elt F) → (⟨S10000x1, .f32⟩ : BufTy).Contents (Elt F)),
    unary main_v331 main_v332 (Host.sqrt : (⟨S10000x1, .f32⟩ : BufTy).Contents (Elt F) → (⟨S10000x1, .f32⟩ : BufTy).Contents (Elt F)),
    nullary main_cst_92 (constant S_ .f32 0x2B8CBCCC#32),
    unary main_cst_92 main_v333 (broadcastInDim S10000x1 ![] bcast_S_S10000x1 : (⟨S_, .f32⟩ : BufTy).Contents (Elt F) → (⟨S10000x1, .f32⟩ : BufTy).Contents (Elt F)),
    binary main_v332 main_v333 main_v334 (maximumf : (⟨S10000x1, .f32⟩ : BufTy).Contents (Elt F) → (⟨S10000x1, .f32⟩ : BufTy).Contents (Elt F) → (⟨S10000x1, .f32⟩ : BufTy).Contents (Elt F)),
    unary main_v334 main_v335 (broadcastInDim S10000x256 ![0, 1] bcast_S10000x1_S10000x256_0_1 : (⟨S10000x1, .f32⟩ : BufTy).Contents (Elt F) → (⟨S10000x256, .f32⟩ : BufTy).Contents (Elt F)),
    binary main_v276 main_v335 main_v336 (Host.divf : (⟨S10000x256, .f32⟩ : BufTy).Contents (Elt F) → (⟨S10000x256, .f32⟩ : BufTy).Contents (Elt F) → (⟨S10000x256, .f32⟩ : BufTy).Contents (Elt F)),
    binary main_v280 main_v280 main_v337 (mulf : (⟨S10000x256, .f32⟩ : BufTy).Contents (Elt F) → (⟨S10000x256, .f32⟩ : BufTy).Contents (Elt F) → (⟨S10000x256, .f32⟩ : BufTy).Contents (Elt F)),
    nullary main_cst_93 (constant S_ .f32 0x00000000#32),
    binary main_v337 main_cst_93 main_v338 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    unary main_v338 main_v339 (broadcastInDim S10000x1 ![0] bcast_S10000_S10000x1_0 : (⟨S10000, .f32⟩ : BufTy).Contents (Elt F) → (⟨S10000x1, .f32⟩ : BufTy).Contents (Elt F)),
    unary main_v339 main_v340 (Host.sqrt : (⟨S10000x1, .f32⟩ : BufTy).Contents (Elt F) → (⟨S10000x1, .f32⟩ : BufTy).Contents (Elt F)),
    nullary main_cst_94 (constant S_ .f32 0x2B8CBCCC#32),
    unary main_cst_94 main_v341 (broadcastInDim S10000x1 ![] bcast_S_S10000x1 : (⟨S_, .f32⟩ : BufTy).Contents (Elt F) → (⟨S10000x1, .f32⟩ : BufTy).Contents (Elt F)),
    binary main_v340 main_v341 main_v342 (maximumf : (⟨S10000x1, .f32⟩ : BufTy).Contents (Elt F) → (⟨S10000x1, .f32⟩ : BufTy).Contents (Elt F) → (⟨S10000x1, .f32⟩ : BufTy).Contents (Elt F)),
    unary main_v342 main_v343 (broadcastInDim S10000x256 ![0, 1] bcast_S10000x1_S10000x256_0_1 : (⟨S10000x1, .f32⟩ : BufTy).Contents (Elt F) → (⟨S10000x256, .f32⟩ : BufTy).Contents (Elt F)),
    binary main_v280 main_v343 main_v344 (Host.divf : (⟨S10000x256, .f32⟩ : BufTy).Contents (Elt F) → (⟨S10000x256, .f32⟩ : BufTy).Contents (Elt F) → (⟨S10000x256, .f32⟩ : BufTy).Contents (Elt F)),
    unary main_v336 main_v345 ((transpose S256x10000 [1, 0] · transposes_S10000x256_S256x10000_1_0) : (⟨S10000x256, .f32⟩ : BufTy).Contents (Elt F) → (⟨S256x10000, .f32⟩ : BufTy).Contents (Elt F)),
    binary main_v336 main_v345 main_v346 ((fun l r => Host.dotGeneral dot_S10000x256_S256x10000_S10000x10000_1_0_0_1_n_n none l r) : (⟨S10000x256, .f32⟩ : BufTy).Contents (Elt F) → (⟨S256x10000, .f32⟩ : BufTy).Contents (Elt F) → (⟨S10000x10000, .f32⟩ : BufTy).Contents (Elt F)),
    unary main_arg6 main_v347 (broadcastInDim S10000x10000 ![] bcast_S_S10000x10000 : (⟨S_, .f32⟩ : BufTy).Contents (Elt F) → (⟨S10000x10000, .f32⟩ : BufTy).Contents (Elt F)),
    binary main_v346 main_v347 main_v348 (Host.divf : (⟨S10000x10000, .f32⟩ : BufTy).Contents (Elt F) → (⟨S10000x10000, .f32⟩ : BufTy).Contents (Elt F) → (⟨S10000x10000, .f32⟩ : BufTy).Contents (Elt F)),
    unary main_v348 main_v349 (Host.exp : (⟨S10000x10000, .f32⟩ : BufTy).Contents (Elt F) → (⟨S10000x10000, .f32⟩ : BufTy).Contents (Elt F)),
    nullary main_cst_95 (constant S_ .f32 0x00000000#32),
    binary main_v349 main_cst_95 main_v350 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    unary main_v344 main_v351 ((transpose S256x10000 [1, 0] · transposes_S10000x256_S256x10000_1_0) : (⟨S10000x256, .f32⟩ : BufTy).Contents (Elt F) → (⟨S256x10000, .f32⟩ : BufTy).Contents (Elt F)),
    binary main_v336 main_v351 main_v352 ((fun l r => Host.dotGeneral dot_S10000x256_S256x10000_S10000x10000_1_0_0_1_n_n none l r) : (⟨S10000x256, .f32⟩ : BufTy).Contents (Elt F) → (⟨S256x10000, .f32⟩ : BufTy).Contents (Elt F) → (⟨S10000x10000, .f32⟩ : BufTy).Contents (Elt F)),
    unary main_arg6 main_v353 (broadcastInDim S10000x10000 ![] bcast_S_S10000x10000 : (⟨S_, .f32⟩ : BufTy).Contents (Elt F) → (⟨S10000x10000, .f32⟩ : BufTy).Contents (Elt F)),
    binary main_v352 main_v353 main_v354 (Host.divf : (⟨S10000x10000, .f32⟩ : BufTy).Contents (Elt F) → (⟨S10000x10000, .f32⟩ : BufTy).Contents (Elt F) → (⟨S10000x10000, .f32⟩ : BufTy).Contents (Elt F)),
    unary main_v354 main_v355 (Host.exp : (⟨S10000x10000, .f32⟩ : BufTy).Contents (Elt F) → (⟨S10000x10000, .f32⟩ : BufTy).Contents (Elt F)),
    nullary main_cst_96 (constant S_ .f32 0x00000000#32),
    binary main_v355 main_cst_96 main_v356 ((fun x v => Host.reduceAdd x v reducesTo_S10000x10000_S10000_d1 h_S_) : (⟨S10000x10000, .f32⟩ : BufTy).Contents (Elt F) → (⟨S_, .f32⟩ : BufTy).Contents (Elt F) → (⟨S10000, .f32⟩ : BufTy).Contents (Elt F)),
    binary main_v350 main_v356 main_v357 (addf : (⟨S10000, .f32⟩ : BufTy).Contents (Elt F) → (⟨S10000, .f32⟩ : BufTy).Contents (Elt F) → (⟨S10000, .f32⟩ : BufTy).Contents (Elt F)),
    nullary main_c_97 (constantI S_ 32 0#32),
    unary main_c_97 main_v358 (broadcastInDim S320000 ![] bcast_S_S320000 : (⟨S_, .i32⟩ : BufTy).Contents (Elt F) → (⟨S320000, .i32⟩ : BufTy).Contents (Elt F)),
    binary main_arg4 main_v358 main_v359 (cmpi .slt : (⟨S320000, .i32⟩ : BufTy).Contents (Elt F) → (⟨S320000, .i32⟩ : BufTy).Contents (Elt F) → (⟨S320000, .i1⟩ : BufTy).Contents (Elt F)),
    nullary main_c_98 (constantI S_ 32 10000#32),
    unary main_c_98 main_v360 (broadcastInDim S320000 ![] bcast_S_S320000 : (⟨S_, .i32⟩ : BufTy).Contents (Elt F) → (⟨S320000, .i32⟩ : BufTy).Contents (Elt F)),
    binary main_arg4 main_v360 main_v361 (addi : (⟨S320000, .i32⟩ : BufTy).Contents (Elt F) → (⟨S320000, .i32⟩ : BufTy).Contents (Elt F) → (⟨S320000, .i32⟩ : BufTy).Contents (Elt F)),
    ternary main_v359 main_v361 main_arg4 main_v362 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v362 main_v363 (broadcastInDim S320000x1 ![0] bcast_S320000_S320000x1_0 : (⟨S320000, .i32⟩ : BufTy).Contents (Elt F) → (⟨S320000x1, .i32⟩ : BufTy).Contents (Elt F)),
    binary main_v357 main_v363 main_v364 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    unary main_v318 main_v365 (Host.exp : (⟨S320000, .f32⟩ : BufTy).Contents (Elt F) → (⟨S320000, .f32⟩ : BufTy).Contents (Elt F)),
    binary main_v364 main_v365 main_v366 (addf : (⟨S320000, .f32⟩ : BufTy).Contents (Elt F) → (⟨S320000, .f32⟩ : BufTy).Contents (Elt F) → (⟨S320000, .f32⟩ : BufTy).Contents (Elt F)),
    unary main_v366 main_v367 (Host.log : (⟨S320000, .f32⟩ : BufTy).Contents (Elt F) → (⟨S320000, .f32⟩ : BufTy).Contents (Elt F)),
    nullary main_cst_99 (constant S_ .f32 0x00000000#32),
    unary main_cst_99 main_v368 (broadcastInDim S10000 ![] bcast_S_S10000 : (⟨S_, .f32⟩ : BufTy).Contents (Elt F) → (⟨S10000, .f32⟩ : BufTy).Contents (Elt F)),
    unary main_arg4 main_v369 (broadcastInDim S320000x1 ![0] bcast_S320000_S320000x1_0 : (⟨S320000, .i32⟩ : BufTy).Contents (Elt F) → (⟨S320000x1, .i32⟩ : BufTy).Contents (Elt F)),
    ternary main_v368 main_v369 main_v367 main_v370 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    binary main_v370 main_v324 main_v371 (Host.divf : (⟨S10000, .f32⟩ : BufTy).Contents (Elt F) → (⟨S10000, .f32⟩ : BufTy).Contents (Elt F) → (⟨S10000, .f32⟩ : BufTy).Contents (Elt F)),
    unary main_v328 main_v372 (Host.negf : (⟨S10000, .f32⟩ : BufTy).Contents (Elt F) → (⟨S10000, .f32⟩ : BufTy).Contents (Elt F)),
    binary main_v372 main_v371 main_v373 (addf : (⟨S10000, .f32⟩ : BufTy).Contents (Elt F) → (⟨S10000, .f32⟩ : BufTy).Contents (Elt F) → (⟨S10000, .f32⟩ : BufTy).Contents (Elt F)),
    nullary main_cst_100 (constant S_ .f32 0x00000000#32),
    binary main_v373 main_cst_100 main_v374 ((fun x v => Host.reduceAdd x v reducesTo_S10000_S_d0 h_S_) : (⟨S10000, .f32⟩ : BufTy).Contents (Elt F) → (⟨S_, .f32⟩ : BufTy).Contents (Elt F) → (⟨S_, .f32⟩ : BufTy).Contents (Elt F)),
    nullary main_cst_101 (constant S_ .f32 0x461C4000#32),
    binary main_v374 main_cst_101 main_v375 (Host.divf : (⟨S_, .f32⟩ : BufTy).Contents (Elt F) → (⟨S_, .f32⟩ : BufTy).Contents (Elt F) → (⟨S_, .f32⟩ : BufTy).Contents (Elt F)),
    binary main_v272 main_v375 main_v376 totalR ]

set_option maxHeartbeats 0 in
theorem read_ref_v376 (Q : Valuation τ sig (Elt F)) :
    after loss2RefOps Q (Proc.devRef .tc main_v376)
      = totalR (Q (Proc.devRef .tc main_v272)) (lossR (negR (zR (Q (Proc.devRef .tc main_v276))) (stuR (Q (Proc.devRef .tc main_v280))) (Q (Proc.devRef .tc main_arg6))) (simR (Q (Proc.devRef .tc main_v280)) (qlinR (Q (Proc.devRef .tc main_v276)) (Q (Proc.devRef .tc main_arg19)) (Q (Proc.devRef .tc main_arg20))) (Q (Proc.devRef .tc main_arg6)) (Q (Proc.devRef .tc main_arg3)) (Q (Proc.devRef .tc main_arg4))) (denomR (Q (Proc.devRef .tc main_arg4))) (posR (Q (Proc.devRef .tc main_v280)) (qlinR (Q (Proc.devRef .tc main_v276)) (Q (Proc.devRef .tc main_arg19)) (Q (Proc.devRef .tc main_arg20))) (Q (Proc.devRef .tc main_arg6)) (Q (Proc.devRef .tc main_arg3)) (Q (Proc.devRef .tc main_arg4))) (Q (Proc.devRef .tc main_arg4))) := by
  after_results_simp <;> rfl

set_option maxHeartbeats 0 in
theorem ref_ops_split381 : (ops : List (HloOp τ sig (Elt F))) = ops.take 381 ++ loss2RefOps := by
  conv_lhs => rw [← List.take_append_drop 381 (ops : List (HloOp τ sig (Elt F)))]
  exact congrArg (ops.take 381 ++ ·) rfl

set_option maxHeartbeats 0 in
theorem ref_v272_kept381 : ∀ op ∈ ((loss2RefOps : List (HloOp τ sig (Elt Ideal)))), (Proc.devRef .tc main_v272 : DevRef τ sig) ∉ op.writes := by
  decide +kernel

set_option maxHeartbeats 0 in
theorem ref_v276_kept381 : ∀ op ∈ ((loss2RefOps : List (HloOp τ sig (Elt Ideal)))), (Proc.devRef .tc main_v276 : DevRef τ sig) ∉ op.writes := by
  decide +kernel

set_option maxHeartbeats 0 in
theorem ref_v280_kept381 : ∀ op ∈ ((loss2RefOps : List (HloOp τ sig (Elt Ideal)))), (Proc.devRef .tc main_v280 : DevRef τ sig) ∉ op.writes := by
  decide +kernel

set_option maxHeartbeats 0 in
/-- The reference's total loss, from its first loss, its two linear encoders' outputs and its arguments as launched. -/
theorem ref_main_v376 (m' : (ℓ : Loc nD τ sig) → Buf (Elt Ideal) ℓ) (d : Dev nD) :
    after (ops (F := Ideal)) (launchContents m' d) (Proc.devRef .tc main_v376)
      = totalR (after (ops (F := Ideal)) (launchContents m' d) (Proc.devRef .tc main_v272)) (lossR (negR (zR (after (ops (F := Ideal)) (launchContents m' d) (Proc.devRef .tc main_v276))) (stuR (after (ops (F := Ideal)) (launchContents m' d) (Proc.devRef .tc main_v280))) (m' ((d.tc : Thread nD τ).loc main_arg6))) (simR (after (ops (F := Ideal)) (launchContents m' d) (Proc.devRef .tc main_v280)) (qlinR (after (ops (F := Ideal)) (launchContents m' d) (Proc.devRef .tc main_v276)) (m' ((d.tc : Thread nD τ).loc main_arg19)) (m' ((d.tc : Thread nD τ).loc main_arg20))) (m' ((d.tc : Thread nD τ).loc main_arg6)) (m' ((d.tc : Thread nD τ).loc main_arg3)) (m' ((d.tc : Thread nD τ).loc main_arg4))) (denomR (m' ((d.tc : Thread nD τ).loc main_arg4))) (posR (after (ops (F := Ideal)) (launchContents m' d) (Proc.devRef .tc main_v280)) (qlinR (after (ops (F := Ideal)) (launchContents m' d) (Proc.devRef .tc main_v276)) (m' ((d.tc : Thread nD τ).loc main_arg19)) (m' ((d.tc : Thread nD τ).loc main_arg20))) (m' ((d.tc : Thread nD τ).loc main_arg6)) (m' ((d.tc : Thread nD τ).loc main_arg3)) (m' ((d.tc : Thread nD τ).loc main_arg4))) (m' ((d.tc : Thread nD τ).loc main_arg4))) := by
  have ev272 : (after (ops (F := Ideal)) (launchContents m' d) (Proc.devRef .tc main_v272)) = (after ((ops : List (HloOp τ sig (Elt Ideal))).take 381) (launchContents m' d)) (Proc.devRef .tc main_v272) := by
    conv_lhs => rw [ref_ops_split381 (F := Ideal), Cert.KernelIdeal.Hand.after_append]
    exact after_of_forall_not_mem _ _ ref_v272_kept381
  have ev276 : (after (ops (F := Ideal)) (launchContents m' d) (Proc.devRef .tc main_v276)) = (after ((ops : List (HloOp τ sig (Elt Ideal))).take 381) (launchContents m' d)) (Proc.devRef .tc main_v276) := by
    conv_lhs => rw [ref_ops_split381 (F := Ideal), Cert.KernelIdeal.Hand.after_append]
    exact after_of_forall_not_mem _ _ ref_v276_kept381
  have ev280 : (after (ops (F := Ideal)) (launchContents m' d) (Proc.devRef .tc main_v280)) = (after ((ops : List (HloOp τ sig (Elt Ideal))).take 381) (launchContents m' d)) (Proc.devRef .tc main_v280) := by
    conv_lhs => rw [ref_ops_split381 (F := Ideal), Cert.KernelIdeal.Hand.after_append]
    exact after_of_forall_not_mem _ _ ref_v280_kept381
  have e376 : (after (ops (F := Ideal)) (launchContents m' d) (Proc.devRef .tc main_v376)) = after loss2RefOps (after ((ops : List (HloOp τ sig (Elt Ideal))).take 381) (launchContents m' d)) (Proc.devRef .tc main_v376) := by
    conv_lhs => rw [ref_ops_split381 (F := Ideal), Cert.KernelIdeal.Hand.after_append]
  have q3 : (after ((ops : List (HloOp τ sig (Elt Ideal))).take 381) (launchContents m' d)) (Proc.devRef .tc main_arg3) = m' ((d.tc : Thread nD τ).loc main_arg3) := (ref_take_arg 381 _ main_arg3 (by decide)).trans rfl
  have q4 : (after ((ops : List (HloOp τ sig (Elt Ideal))).take 381) (launchContents m' d)) (Proc.devRef .tc main_arg4) = m' ((d.tc : Thread nD τ).loc main_arg4) := (ref_take_arg 381 _ main_arg4 (by decide)).trans rfl
  have q6 : (after ((ops : List (HloOp τ sig (Elt Ideal))).take 381) (launchContents m' d)) (Proc.devRef .tc main_arg6) = m' ((d.tc : Thread nD τ).loc main_arg6) := (ref_take_arg 381 _ main_arg6 (by decide)).trans rfl
  have q19 : (after ((ops : List (HloOp τ sig (Elt Ideal))).take 381) (launchContents m' d)) (Proc.devRef .tc main_arg19) = m' ((d.tc : Thread nD τ).loc main_arg19) := (ref_take_arg 381 _ main_arg19 (by decide)).trans rfl
  have q20 : (after ((ops : List (HloOp τ sig (Elt Ideal))).take 381) (launchContents m' d)) (Proc.devRef .tc main_arg20) = m' ((d.tc : Thread nD τ).loc main_arg20) := (ref_take_arg 381 _ main_arg20 (by decide)).trans rfl
  show (after (ops (F := Ideal)) (launchContents m' d) (Proc.devRef .tc main_v376)) = _
  rw [e376, read_ref_v376, ev272, ev276, ev280, q3, q4, q6, q19, q20]

/-- info: 'Cert.Proof.Parts.ref_main_v376' depends on axioms: [propext, Classical.choice, Quot.sound] -/
#guard_msgs in #print axioms ref_main_v376

end Cert.Proof.Parts

end
-- ==== Proof.KI.Loss2KA.lean ====
/-
  The second contrastive loss on the kernel's side: the host's part, before and after region 7, and the total.

  The second loss is the first with the two linear encoders' outputs in place of the graph layers' results and the
  second temperature: the same functions of other buffers. The last operation adds the two losses.
-/
import proofs.«175488_j3908420240157_2_alg».proof.Proof.KI.LossK

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

set_option maxHeartbeats 0 in
theorem read7_sim (P : Valuation τ sig (Elt F)) : StableHlo.after hostOps7 P (Proc.devRef .tc main_v266)
    = simK (P (Proc.devRef .tc main_v230)) (P (Proc.devRef .tc main_v232)) (P (Proc.devRef .tc main_arg6)) (P (Proc.devRef .tc main_arg3)) (P (Proc.devRef .tc main_arg4)) := by
  after_results_simp <;> rfl

set_option maxHeartbeats 0 in
theorem read7_denom (P : Valuation τ sig (Elt F)) : StableHlo.after hostOps7 P (Proc.devRef .tc main_v272)
    = denomK (P (Proc.devRef .tc main_arg4)) := by
  after_results_simp <;> rfl

set_option maxHeartbeats 0 in
theorem read7_pos (P : Valuation τ sig (Elt F)) : StableHlo.after hostOps7 P (Proc.devRef .tc main_v276)
    = posK (P (Proc.devRef .tc main_v230)) (P (Proc.devRef .tc main_v232)) (P (Proc.devRef .tc main_arg6)) (P (Proc.devRef .tc main_arg3)) (P (Proc.devRef .tc main_arg4)) := by
  after_results_simp <;> rfl

set_option maxHeartbeats 0 in
theorem read7_z (P : Valuation τ sig (Elt F)) : StableHlo.after hostOps7 P (Proc.devRef .tc main_v284)
    = zK (P (Proc.devRef .tc main_v229)) := by
  after_results_simp <;> rfl

set_option maxHeartbeats 0 in
theorem read7_stu (P : Valuation τ sig (Elt F)) : StableHlo.after hostOps7 P (Proc.devRef .tc main_v292)
    = stuK (P (Proc.devRef .tc main_v230)) := by
  after_results_simp <;> rfl

set_option maxHeartbeats 0 in
theorem read7_qp (P : Valuation τ sig (Elt F)) : StableHlo.after hostOps7 P (Proc.devRef .tc main_v294)
    = qpK (P (Proc.devRef .tc main_v229)) (P (Proc.devRef .tc main_arg6)) := by
  after_results_simp <;> rfl

set_option maxHeartbeats 0 in
theorem read8_total (P : Valuation τ sig (Elt F)) : StableHlo.after hostOps8 P (Proc.devRef .tc main_v315)
    = (addf : (⟨S_, .f32⟩ : BufTy).Contents (Elt F) → (⟨S_, .f32⟩ : BufTy).Contents (Elt F) → (⟨S_, .f32⟩ : BufTy).Contents (Elt F)) (P (Proc.devRef .tc main_v224)) (lossK (shapeCast _ (P (Proc.devRef .tc main_v295)) shapeCasts_S10000x1_S10000) (P (Proc.devRef .tc main_v266)) (P (Proc.devRef .tc main_v272)) (P (Proc.devRef .tc main_v276)) (P (Proc.devRef .tc main_arg4))) := by
  after_results_simp <;> rfl

end Cert.KernelIdeal.Hand

end
-- ==== Proof.KI.Loss2ChainA.lean ====
/-
  The total loss along the chain of valuations: what the chain's last valuation holds at the total, from the first loss,
  regions 6 and 7's outputs, the two linear encoders' outputs as the stretch before region 7 finds them, and the launch
  memory; and what the valuation region 7 is entered at holds at the three arrays the region reads.
-/
import proofs.«175488_j3908420240157_2_alg».proof.Proof.KI.Loss2KA
import proofs.«175488_j3908420240157_2_alg».proof.Proof.KI.LossChain

set_option maxRecDepth 8192

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)
  (o0 : (c : Dev nD) → Buf (Elt F) ((c : Thread nD τ).loc main_v3))
  (o1 : (c : Dev nD) → Buf (Elt F) ((c : Thread nD τ).loc main_v65))
  (o2 : (c : Dev nD) → Buf (Elt F) ((c : Thread nD τ).loc main_v104))
  (o3 : (c : Dev nD) → Buf (Elt F) ((c : Thread nD τ).loc main_v142))
  (o4 : (c : Dev nD) → Buf (Elt F) ((c : Thread nD τ).loc main_v205))
  (o5 : (c : Dev nD) → Buf (Elt F) ((c : Thread nD τ).loc main_v228))
  (o6 : (c : Dev nD) → Buf (Elt F) ((c : Thread nD τ).loc main_v232))
  (o7 : (c : Dev nD) → Buf (Elt F) ((c : Thread nD τ).loc main_v295))

theorem W29_main_v232 (c : Dev nD) : W29 m o0 o1 o2 o3 o4 o5 o6 c main_v232 = o6 c := by simp only [W29, Function.update_self]
theorem W31_main_v295 (c : Dev nD) : W31 m o0 o1 o2 o3 o4 o5 o6 o7 c main_v295 = o7 c := by simp only [W31, Function.update_self]

theorem W29_main_arg6 (c : Dev nD) : W29 m o0 o1 o2 o3 o4 o5 o6 c main_arg6 = m ((c : Thread nD τ).loc main_arg6) :=
  (W29_of m o0 o1 o2 o3 o4 o5 o6 c main_arg6 (by decide)).trans <|
  (W28_of m o0 o1 o2 o3 o4 o5 c main_arg6 (by decide)).trans <|
  (W27_of m o0 o1 o2 o3 o4 o5 c main_arg6 (by decide)).trans <|
  (W26_of m o0 o1 o2 o3 o4 c main_arg6 (by decide)).trans <|
  (W25_of m o0 o1 o2 o3 o4 c main_arg6 (by decide)).trans <|
  (W24_of m o0 o1 o2 o3 c main_arg6 (by decide)).trans <|
  (W23_of m o0 o1 o2 o3 c main_arg6 (by decide)).trans <|
  (W22_of m o0 o1 o2 c main_arg6 (by decide)).trans <|
  (W21_of m o0 o1 o2 c main_arg6 (by decide)).trans <|
  (W20_of m o0 o1 o2 c main_arg6 (by decide)).trans <|
  (W19_of m o0 o1 o2 c main_arg6 (by decide)).trans <|
  (W18_of m o0 o1 o2 c main_arg6 (by decide)).trans <|
  (W17_of m o0 o1 o2 c main_arg6 (by decide)).trans <|
  (W16_of m o0 o1 c main_arg6 (by decide)).trans <|
  (W15_of m o0 o1 c main_arg6 (by decide)).trans <|
  (W14_of m o0 o1 c main_arg6 (by decide)).trans <|
  (W13_of m o0 o1 c main_arg6 (by decide)).trans <|
  (W12_of m o0 o1 c main_arg6 (by decide)).trans <|
  (W11_of m o0 o1 c main_arg6 (by decide)).trans <|
  (W10_of m o0 c main_arg6 (by decide)).trans <|
  (W9_of m o0 c main_arg6 (by decide)).trans <|
  (W8_of m o0 c main_arg6 (by decide)).trans <|
  (W7_of m o0 c main_arg6 (by decide)).trans <|
  (W6_of m o0 c main_arg6 (by decide)).trans <|
  (W5_of m o0 c main_arg6 (by decide)).trans <|
  (W4_of m o0 c main_arg6 (by decide)).trans <|
  (W3_of m o0 c main_arg6 (by decide)).trans <|
  (W2_of m o0 c main_arg6 (by decide)).trans <|
  (W1_of m c main_arg6 (by decide)).trans rfl
theorem W29_main_arg3 (c : Dev nD) : W29 m o0 o1 o2 o3 o4 o5 o6 c main_arg3 = m ((c : Thread nD τ).loc main_arg3) :=
  (W29_of m o0 o1 o2 o3 o4 o5 o6 c main_arg3 (by decide)).trans <|
  (W28_of m o0 o1 o2 o3 o4 o5 c main_arg3 (by decide)).trans <|
  (W27_of m o0 o1 o2 o3 o4 o5 c main_arg3 (by decide)).trans <|
  (W26_of m o0 o1 o2 o3 o4 c main_arg3 (by decide)).trans <|
  (W25_of m o0 o1 o2 o3 o4 c main_arg3 (by decide)).trans <|
  (W24_of m o0 o1 o2 o3 c main_arg3 (by decide)).trans <|
  (W23_of m o0 o1 o2 o3 c main_arg3 (by decide)).trans <|
  (W22_of m o0 o1 o2 c main_arg3 (by decide)).trans <|
  (W21_of m o0 o1 o2 c main_arg3 (by decide)).trans <|
  (W20_of m o0 o1 o2 c main_arg3 (by decide)).trans <|
  (W19_of m o0 o1 o2 c main_arg3 (by decide)).trans <|
  (W18_of m o0 o1 o2 c main_arg3 (by decide)).trans <|
  (W17_of m o0 o1 o2 c main_arg3 (by decide)).trans <|
  (W16_of m o0 o1 c main_arg3 (by decide)).trans <|
  (W15_of m o0 o1 c main_arg3 (by decide)).trans <|
  (W14_of m o0 o1 c main_arg3 (by decide)).trans <|
  (W13_of m o0 o1 c main_arg3 (by decide)).trans <|
  (W12_of m o0 o1 c main_arg3 (by decide)).trans <|
  (W11_of m o0 o1 c main_arg3 (by decide)).trans <|
  (W10_of m o0 c main_arg3 (by decide)).trans <|
  (W9_of m o0 c main_arg3 (by decide)).trans <|
  (W8_of m o0 c main_arg3 (by decide)).trans <|
  (W7_of m o0 c main_arg3 (by decide)).trans <|
  (W6_of m o0 c main_arg3 (by decide)).trans <|
  (W5_of m o0 c main_arg3 (by decide)).trans <|
  (W4_of m o0 c main_arg3 (by decide)).trans <|
  (W3_of m o0 c main_arg3 (by decide)).trans <|
  (W2_of m o0 c main_arg3 (by decide)).trans <|
  (W1_of m c main_arg3 (by decide)).trans rfl
theorem W29_main_arg4 (c : Dev nD) : W29 m o0 o1 o2 o3 o4 o5 o6 c main_arg4 = m ((c : Thread nD τ).loc main_arg4) :=
  (W29_of m o0 o1 o2 o3 o4 o5 o6 c main_arg4 (by decide)).trans <|
  (W28_of m o0 o1 o2 o3 o4 o5 c main_arg4 (by decide)).trans <|
  (W27_of m o0 o1 o2 o3 o4 o5 c main_arg4 (by decide)).trans <|
  (W26_of m o0 o1 o2 o3 o4 c main_arg4 (by decide)).trans <|
  (W25_of m o0 o1 o2 o3 o4 c main_arg4 (by decide)).trans <|
  (W24_of m o0 o1 o2 o3 c main_arg4 (by decide)).trans <|
  (W23_of m o0 o1 o2 o3 c main_arg4 (by decide)).trans <|
  (W22_of m o0 o1 o2 c main_arg4 (by decide)).trans <|
  (W21_of m o0 o1 o2 c main_arg4 (by decide)).trans <|
  (W20_of m o0 o1 o2 c main_arg4 (by decide)).trans <|
  (W19_of m o0 o1 o2 c main_arg4 (by decide)).trans <|
  (W18_of m o0 o1 o2 c main_arg4 (by decide)).trans <|
  (W17_of m o0 o1 o2 c main_arg4 (by decide)).trans <|
  (W16_of m o0 o1 c main_arg4 (by decide)).trans <|
  (W15_of m o0 o1 c main_arg4 (by decide)).trans <|
  (W14_of m o0 o1 c main_arg4 (by decide)).trans <|
  (W13_of m o0 o1 c main_arg4 (by decide)).trans <|
  (W12_of m o0 o1 c main_arg4 (by decide)).trans <|
  (W11_of m o0 o1 c main_arg4 (by decide)).trans <|
  (W10_of m o0 c main_arg4 (by decide)).trans <|
  (W9_of m o0 c main_arg4 (by decide)).trans <|
  (W8_of m o0 c main_arg4 (by decide)).trans <|
  (W7_of m o0 c main_arg4 (by decide)).trans <|
  (W6_of m o0 c main_arg4 (by decide)).trans <|
  (W5_of m o0 c main_arg4 (by decide)).trans <|
  (W4_of m o0 c main_arg4 (by decide)).trans <|
  (W3_of m o0 c main_arg4 (by decide)).trans <|
  (W2_of m o0 c main_arg4 (by decide)).trans <|
  (W1_of m c main_arg4 (by decide)).trans rfl

/-- The two linear encoders' outputs are, at the end of the chain, what the stretch before region 7 finds. -/
theorem W32_main_v229_W29 (c : Dev nD) : W32 m o0 o1 o2 o3 o4 o5 o6 o7 c main_v229 = W29 m o0 o1 o2 o3 o4 o5 o6 c main_v229 :=
  (W32_of m o0 o1 o2 o3 o4 o5 o6 o7 c main_v229 (by decide)).trans <|
  (W31_of m o0 o1 o2 o3 o4 o5 o6 o7 c main_v229 (by decide)).trans <|
  (W30_of m o0 o1 o2 o3 o4 o5 o6 c main_v229 (by decide))
theorem W32_main_v230_W29 (c : Dev nD) : W32 m o0 o1 o2 o3 o4 o5 o6 o7 c main_v230 = W29 m o0 o1 o2 o3 o4 o5 o6 c main_v230 :=
  (W32_of m o0 o1 o2 o3 o4 o5 o6 o7 c main_v230 (by decide)).trans <|
  (W31_of m o0 o1 o2 o3 o4 o5 o6 o7 c main_v230 (by decide)).trans <|
  (W30_of m o0 o1 o2 o3 o4 o5 o6 c main_v230 (by decide))

/-- The first loss is untouched from the stretch after region 4 to the last stretch. -/
theorem W31_main_v224 (c : Dev nD) : W31 m o0 o1 o2 o3 o4 o5 o6 o7 c main_v224 = W26 m o0 o1 o2 o3 o4 c main_v224 :=
  (W31_of m o0 o1 o2 o3 o4 o5 o6 o7 c main_v224 (by decide)).trans <|
  (W30_of m o0 o1 o2 o3 o4 o5 o6 c main_v224 (by decide)).trans <|
  (W29_of m o0 o1 o2 o3 o4 o5 o6 c main_v224 (by decide)).trans <|
  (W28_of m o0 o1 o2 o3 o4 o5 c main_v224 (by decide)).trans <|
  (W27_of m o0 o1 o2 o3 o4 o5 c main_v224 (by decide))

/-- What region 7 reads, at the valuation it is entered at. -/
theorem W30_main_v284 (c : Dev nD) : W30 m o0 o1 o2 o3 o4 o5 o6 c main_v284 = zK (W29 m o0 o1 o2 o3 o4 o5 o6 c main_v229) := read7_z (W29 m o0 o1 o2 o3 o4 o5 o6 c)
theorem W30_main_v292 (c : Dev nD) : W30 m o0 o1 o2 o3 o4 o5 o6 c main_v292 = stuK (W29 m o0 o1 o2 o3 o4 o5 o6 c main_v230) := read7_stu (W29 m o0 o1 o2 o3 o4 o5 o6 c)
theorem W30_main_v294 (c : Dev nD) : W30 m o0 o1 o2 o3 o4 o5 o6 c main_v294 = qpK (W29 m o0 o1 o2 o3 o4 o5 o6 c main_v229) (m ((c : Thread nD τ).loc main_arg6)) := by
  refine (read7_qp (W29 m o0 o1 o2 o3 o4 o5 o6 c)).trans ?_
  show qpK (W29 m o0 o1 o2 o3 o4 o5 o6 c main_v229) (W29 m o0 o1 o2 o3 o4 o5 o6 c main_arg6) = _
  rw [W29_main_arg6]

/-- The total loss at the end of the chain. -/
theorem W32_main_v315 (c : Dev nD) :
    W32 m o0 o1 o2 o3 o4 o5 o6 o7 c main_v315
      = (addf : (⟨S_, .f32⟩ : BufTy).Contents (Elt F) → (⟨S_, .f32⟩ : BufTy).Contents (Elt F) → (⟨S_, .f32⟩ : BufTy).Contents (Elt F)) (W26 m o0 o1 o2 o3 o4 c main_v224)
          (lossK (shapeCast _ (o7 c) shapeCasts_S10000x1_S10000) (simK (W29 m o0 o1 o2 o3 o4 o5 o6 c main_v230) (o6 c) (m ((c : Thread nD τ).loc main_arg6)) (m ((c : Thread nD τ).loc main_arg3)) (m ((c : Thread nD τ).loc main_arg4))) (denomK (m ((c : Thread nD τ).loc main_arg4))) (posK (W29 m o0 o1 o2 o3 o4 o5 o6 c main_v230) (o6 c) (m ((c : Thread nD τ).loc main_arg6)) (m ((c : Thread nD τ).loc main_arg3)) (m ((c : Thread nD τ).loc main_arg4))) (m ((c : Thread nD τ).loc main_arg4))) := by
  refine (read8_total (W31 m o0 o1 o2 o3 o4 o5 o6 o7 c)).trans ?_
  have s : W31 m o0 o1 o2 o3 o4 o5 o6 o7 c main_v266 = simK (W29 m o0 o1 o2 o3 o4 o5 o6 c main_v230) (o6 c) (m ((c : Thread nD τ).loc main_arg6)) (m ((c : Thread nD τ).loc main_arg3)) (m ((c : Thread nD τ).loc main_arg4)) := by
    refine (W31_of m o0 o1 o2 o3 o4 o5 o6 o7 c main_v266 (by decide)).trans ((read7_sim (W29 m o0 o1 o2 o3 o4 o5 o6 c)).trans ?_)
    show simK (W29 m o0 o1 o2 o3 o4 o5 o6 c main_v230) (W29 m o0 o1 o2 o3 o4 o5 o6 c main_v232) (W29 m o0 o1 o2 o3 o4 o5 o6 c main_arg6) (W29 m o0 o1 o2 o3 o4 o5 o6 c main_arg3) (W29 m o0 o1 o2 o3 o4 o5 o6 c main_arg4) = _
    rw [W29_main_v232, W29_main_arg6, W29_main_arg3, W29_main_arg4]
  have dn : W31 m o0 o1 o2 o3 o4 o5 o6 o7 c main_v272 = denomK (m ((c : Thread nD τ).loc main_arg4)) := by
    refine (W31_of m o0 o1 o2 o3 o4 o5 o6 o7 c main_v272 (by decide)).trans ((read7_denom (W29 m o0 o1 o2 o3 o4 o5 o6 c)).trans ?_)
    show denomK (W29 m o0 o1 o2 o3 o4 o5 o6 c main_arg4) = _
    rw [W29_main_arg4]
  have p : W31 m o0 o1 o2 o3 o4 o5 o6 o7 c main_v276 = posK (W29 m o0 o1 o2 o3 o4 o5 o6 c main_v230) (o6 c) (m ((c : Thread nD τ).loc main_arg6)) (m ((c : Thread nD τ).loc main_arg3)) (m ((c : Thread nD τ).loc main_arg4)) := by
    refine (W31_of m o0 o1 o2 o3 o4 o5 o6 o7 c main_v276 (by decide)).trans ((read7_pos (W29 m o0 o1 o2 o3 o4 o5 o6 c)).trans ?_)
    show posK (W29 m o0 o1 o2 o3 o4 o5 o6 c main_v230) (W29 m o0 o1 o2 o3 o4 o5 o6 c main_v232) (W29 m o0 o1 o2 o3 o4 o5 o6 c main_arg6) (W29 m o0 o1 o2 o3 o4 o5 o6 c main_arg3) (W29 m o0 o1 o2 o3 o4 o5 o6 c main_arg4) = _
    rw [W29_main_v232, W29_main_arg6, W29_main_arg3, W29_main_arg4]
  have d4 : W31 m o0 o1 o2 o3 o4 o5 o6 o7 c main_arg4 = m ((c : Thread nD τ).loc main_arg4) :=
    (W31_of m o0 o1 o2 o3 o4 o5 o6 o7 c main_arg4 (by decide)).trans ((W30_of m o0 o1 o2 o3 o4 o5 o6 c main_arg4 (by decide)).trans (W29_main_arg4 m o0 o1 o2 o3 o4 o5 o6 c))
  show (addf : (⟨S_, .f32⟩ : BufTy).Contents (Elt F) → (⟨S_, .f32⟩ : BufTy).Contents (Elt F) → (⟨S_, .f32⟩ : BufTy).Contents (Elt F)) (W31 m o0 o1 o2 o3 o4 o5 o6 o7 c main_v224) (lossK (shapeCast _ (W31 m o0 o1 o2 o3 o4 o5 o6 o7 c main_v295) shapeCasts_S10000x1_S10000) (W31 m o0 o1 o2 o3 o4 o5 o6 o7 c main_v266) (W31 m o0 o1 o2 o3 o4 o5 o6 o7 c main_v272) (W31 m o0 o1 o2 o3 o4 o5 o6 o7 c main_v276) (W31 m o0 o1 o2 o3 o4 o5 o6 o7 c main_arg4)) = _
  rw [W31_main_v224, W31_main_v295, s, dn, p, d4]

end Cert.KernelIdeal.Hand

end
-- ==== Proof.LossA.lean ====
/-
  The total loss: the reference's is the kernel's.

  The total is the first loss plus the second, and the second is the first's computation on the two linear encoders'
  outputs with the second temperature. So the totals agree as soon as the first losses agree and, for the second, the
  same two agreements hold that the first needed: the projected queries (region 6) and the negative row sums (region 7).
-/
import proofs.«175488_j3908420240157_2_alg».proof.Proof.Algebraic
import proofs.«175488_j3908420240157_2_alg».proof.Proof.RefLoss2A
import proofs.«175488_j3908420240157_2_alg».proof.Proof.KI.Loss2ChainA

set_option maxRecDepth 65536

noncomputable section

namespace Cert.Proof.Parts

open Idealize.ShloMosaic Idealize.ShloMosaic.TcCoe Idealize.SL.Sem

set_option maxHeartbeats 0 in
/-- The total loss agrees, from: the first loss agreeing (hL1); the second linear encoder's outputs agreeing (e3); region
    6's output being the reference's second projected queries (hA2); region 7's output, as one vector, being the
    reference's second negative row sums (hB2). -/
theorem loss_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : Agree m m') (c : Dev Cert.KernelIdeal.nD)
    (hL1 : StableHlo.after (Cert.ReferenceIdeal.OpsP.ops (F := Ideal)) (StableHlo.launchContents m' c) (Proc.devRef .tc Cert.ReferenceIdeal.main_v272) = Cert.KernelIdeal.Hand.W26 m (Cert.KernelIdeal.Hand.o0 m) (Cert.KernelIdeal.Hand.o1 m) (Cert.KernelIdeal.Hand.o2 m) (Cert.KernelIdeal.Hand.o3 m) (Cert.KernelIdeal.Hand.o4 m) c Cert.KernelIdeal.main_v224)
    (e3 : StableHlo.after (Cert.ReferenceIdeal.OpsP.ops (F := Ideal)) (StableHlo.launchContents m' c) (Proc.devRef .tc Cert.ReferenceIdeal.main_v280) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v230)
    (hA2 : Cert.KernelIdeal.Hand.o6 m c = qlinR (StableHlo.after (Cert.ReferenceIdeal.OpsP.ops (F := Ideal)) (StableHlo.launchContents m' c) (Proc.devRef .tc Cert.ReferenceIdeal.main_v276)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)))
    (hB2 : shapeCast _ (Cert.KernelIdeal.Hand.o7 m c) Cert.KernelIdeal.Gen.shapeCasts_S10000x1_S10000
        = negR (zR (StableHlo.after (Cert.ReferenceIdeal.OpsP.ops (F := Ideal)) (StableHlo.launchContents m' c) (Proc.devRef .tc Cert.ReferenceIdeal.main_v276))) (stuR (StableHlo.after (Cert.ReferenceIdeal.OpsP.ops (F := Ideal)) (StableHlo.launchContents m' c) (Proc.devRef .tc Cert.ReferenceIdeal.main_v280))) (m' ((c.tc : Thread Cert.ReferenceIdeal.nD Cert.ReferenceIdeal.τ).loc Cert.ReferenceIdeal.main_arg6))) :
    StableHlo.after (Cert.ReferenceIdeal.OpsP.ops (F := Ideal)) (StableHlo.launchContents m' c) (Proc.devRef .tc Cert.ReferenceIdeal.main_v376) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v315 := by
  obtain ⟨-, -, -, a3, a4, -, a6, -, -, -, -, -, -, -, -, -, -, -, -, -, -⟩ := hagree c
  refine (ref_main_v376 m' c).trans ?_
  refine Eq.trans ?_ (Cert.KernelIdeal.Hand.W32_main_v315 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c).symm
  rw [hL1, hA2, hB2, ← Cert.KernelIdeal.Hand.W32_main_v230_W29 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c, ← e3, a3, a4, a6]
  rfl

/-- info: 'Cert.Proof.Parts.loss_agree' depends on axioms: [propext, Classical.choice, Quot.sound] -/
#guard_msgs in #print axioms loss_agree

end Cert.Proof.Parts

end
-- ==== Proof.KI.Value6.lean ====
/-
  Region 6's result as ONE function of its three argument arrays, on the extended reals.

  The output array of region 6 has 10000 rows of 256 entries, written back in five blocks of 2000 rows. At the grid
  point t the body's payload, read at (p, q) of its block, is the three-pass split product of the block of x by the
  whole weight matrix, plus the bias row: for operands with real entries, the plain sum over k of x(2000 t + p, k) ·
  w(k, q), plus b(0, q). A block's coordinate is the block index times the block's extent plus the coordinate inside
  the block; the output's block at t sits at rows 2000 t …, where the block of x it was computed from sits; the
  weight matrix and the bias row are one block each. So every point writes back the restriction to its rows of ONE
  whole-array function G6, the five blocks cover the array, and the array after the region IS G6: at (r, col),
  the sum over k of x(r, k) · w(k, col), plus b(0, col).
-/
import proofs.«175488_j3908420240157_2_alg».proof.Proof.KI.Seg6
import proofs.«175488_j3908420240157_2_alg».proof.Proof.LibSplitProduct
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.SL Idealize.SL.RA
open Idealize.ShloMosaic.Pipeline (Dat)

variable {U : Type} [URA U]

/-- Every access of the body is at zero offsets. -/
private theorem off00 : (![0, 0] : Fin 2 → Nat) = fun _ => 0 := funext fun a => by fin_cases a <;> rfl

/-! ## The payload at an index -/

/-- The body's payload at (p, q), for operands with real entries: the row of the x block times the column of the
    weight matrix, plus the bias row's entry. -/
theorem pay6_apply (v0 : FVec Ideal S2000x256 .f32) (v1 : FVec Ideal S256x256 .f32) (v16 : FVec Ideal S1x256 .f32)
    (h0 : ∀ i, ∃ r : ℝ, v0 i = (r : EReal)) (h1 : ∀ i, ∃ r : ℝ, v1 i = (r : EReal)) (p : Fin 2000) (q : Fin 256) :
    k6_pay1 (F := Ideal) v0 v1 v16 (ix2 p q) = (∑ k : Fin 256, v0 (ix2 p k) * v1 (ix2 k q)) + v16 (ix2 (0 : Fin 1) q) := by
  unfold k6_pay1
  refine (Cert.Lib.SplitProduct.split_bias_ix2 _ rfl rfl (fun _ _ => rfl) (fun _ _ => rfl) (fun _ _ => rfl) (fun _ _ => rfl)
    _ v1 ?_ h1 _ _ _ p q).trans ?_
  · rw [shapeCast_self]; exact h0
  · rw [shapeCast_self, shapeCast_self]

/-! ## The whole-array function -/

/-- The result array from the three argument arrays: at (r, col), the sum over k of x(r, k) · w(k, col), plus b(0, col). -/
def G6 (x : FVec Ideal S10000x256 .f32) (w : FVec Ideal S256x256 .f32) (b : FVec Ideal S1x256 .f32) : FVec Ideal S10000x256 .f32 :=
  fun i => (∑ k : Fin 256, x (ix2 (n0 := 10000) (i 0) k) * w (ix2 k (n1 := 256) (i 1))) + b (ix2 (0 : Fin 1) (n1 := 256) (i 1))

theorem G6_apply (x : FVec Ideal S10000x256 .f32) (w : FVec Ideal S256x256 .f32) (b : FVec Ideal S1x256 .f32) (r : Fin 10000) (col : Fin 256) :
    G6 x w b (ix2 r col) = (∑ k : Fin 256, x (ix2 r k) * w (ix2 k col)) + b (ix2 (0 : Fin 1) col) := rfl

/-! ## The windows' index maps, decided over the grid -/

/-- The block of x moves with the output's block along the rows; the weight matrix, the bias row and every window's
    column axis stay at block 0; the output's row block at point t is t. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row p of the block at point t is row 2000 t + p of the array. -/
def row6 (t : Fin cfg6.N) (p : Fin 2000) : Fin 10000 :=
  ⟨2000 * t.val + p.val, by
    have ht : t.val < 5 := lt_of_lt_of_eq t.isLt N_6
    have hp := p.isLt
    omega⟩

theorem row6_val (t : Fin cfg6.N) (p : Fin 2000) : (row6 t p).val = 2000 * t.val + p.val := rfl

-- the core's buffer contents when the region is entered
variable (V : (c : Dev nD) → (b : Ref sig .tc) → Buf (Elt Ideal) ((c : Thread nD τ).loc b))

/-! ## What a point writes back -/

/-- WHAT POINT t WRITES BACK is block t of G6 of the three arrays as the region finds them. -/
theorem flushed6_eq (c : Dev nD) (t : Fin cfg6.N)
    (hx : ∀ i, ∃ r : ℝ, (V c main_v229 : FVec Ideal S10000x256 .f32) i = (r : EReal))
    (hw : ∀ i, ∃ r : ℝ, (V c main_arg19 : FVec Ideal S256x256 .f32) i = (r : EReal)) :
    (dat6 (F := Ideal) (U := U) V c).flushed 3 t
      = ((cfg6.win 3).blk t).view.read (Elt Ideal) (G6 (V c main_v229) (V c main_arg19) (V c main_v231)) := by
  show (cfg6.win 3).cut (grid6.coords t) ((dat6 (F := Ideal) (U := U) V c).after 3 t) = _
  rw [after6_3]
  unfold out6_3
  rw [View.canon_unit_zero off00]
  simp only [View.ld_unit_zero (S := S2000x256) off00, View.ld_unit_zero (S := S256x256) off00, View.ld_unit_zero (S := S1x256) off00]
  obtain ⟨e00, e01, e10, e11, e20, e21, e30, e31⟩ := idx_facts6 t
  have hx' : ∀ i, ∃ r : ℝ, (iblk6 V c 0 t : FVec Ideal S2000x256 .f32) i = (r : EReal) := fun i => by
    unfold iblk6; rw [View.read_apply]; exact hx _
  have hw' : ∀ i, ∃ r : ℝ, (iblk6 V c 1 t : FVec Ideal S256x256 .f32) i = (r : EReal) := fun i => by
    unfold iblk6; rw [View.read_apply]; exact hw _
  funext j
  obtain ⟨p, q, rfl⟩ : ∃ (p : Fin 2000) (q : Fin 256), j = ix2 p q := ⟨j 0, j 1, eq_ix2 j⟩
  show k6_pay1 (F := Ideal) (iblk6 V c 0 t) (iblk6 V c 1 t) (iblk6 V c 2 t) (ix2 p q)
      = G6 (V c main_v229) (V c main_arg19) (V c main_v231) (((cfg6.win 3).blk t).view.emb (ix2 p q))
  refine (pay6_apply _ _ _ hx' hw' p q).trans ?_
  -- the output block's index in the array
  have hO : ((cfg6.win 3).blk t).view.emb (ix2 p q) = ix2 (row6 t p) q := by
    funext a; apply Fin.ext
    match a with
    | ⟨0, _⟩ => show win6_3.index t (0 : Fin 2) * 2000 + 1 * p.val = 2000 * t.val + p.val; omega
    | ⟨1, _⟩ => show win6_3.index t (1 : Fin 2) * 256 + 1 * q.val = q.val; omega
  rw [hO, G6_apply]
  -- each input block read where the output's rectangle says
  have h0 : ∀ k : Fin 256, (iblk6 V c 0 t : FVec Ideal S2000x256 .f32) (ix2 p k) = (V c main_v229 : FVec Ideal S10000x256 .f32) (ix2 (row6 t p) k) := fun k => by
    unfold iblk6; rw [View.read_apply]
    show V c main_v229 _ = V c main_v229 _
    congr 1; funext a; apply Fin.ext
    match a with
    | ⟨0, _⟩ => show win6_0.index t (0 : Fin 2) * 2000 + 1 * p.val = 2000 * t.val + p.val; omega
    | ⟨1, _⟩ => show win6_0.index t (1 : Fin 2) * 256 + 1 * k.val = k.val; omega
  have h1 : ∀ k : Fin 256, (iblk6 V c 1 t : FVec Ideal S256x256 .f32) (ix2 k q) = (V c main_arg19 : FVec Ideal S256x256 .f32) (ix2 k q) := fun k => by
    unfold iblk6; rw [View.read_apply]
    show V c main_arg19 _ = V c main_arg19 _
    congr 1; funext a; apply Fin.ext
    match a with
    | ⟨0, _⟩ => show win6_1.index t (0 : Fin 2) * 256 + 1 * k.val = k.val; omega
    | ⟨1, _⟩ => show win6_1.index t (1 : Fin 2) * 256 + 1 * q.val = q.val; omega
  have h2 : (iblk6 V c 2 t : FVec Ideal S1x256 .f32) (ix2 (0 : Fin 1) q) = (V c main_v231 : FVec Ideal S1x256 .f32) (ix2 (0 : Fin 1) q) := by
    unfold iblk6; rw [View.read_apply]
    show V c main_v231 _ = V c main_v231 _
    congr 1; funext a; apply Fin.ext
    match a with
    | ⟨0, _⟩ => show win6_2.index t (0 : Fin 2) * 1 + 1 * (0 : Fin 1).val = (0 : Fin 1).val; omega
    | ⟨1, _⟩ => show win6_2.index t (1 : Fin 2) * 256 + 1 * q.val = q.val; omega
  rw [h2]
  exact congrArg (· + _) (Finset.sum_congr rfl fun k _ => by rw [h0 k, h1 k])

/-! ## The blocks cover the array -/

/-- An index of the array is in point t's block iff each coordinate is in the block's range on its axis. -/
theorem mem_blk6 (t : Fin cfg6.N) (i : S10000x256.Idx) :
    i ∈ ((cfg6.win 3).blk t).view.set ↔ ∀ a : Fin 2, win6_3.index t a * S2000x256.size a ≤ (i a).val ∧ (i a).val < win6_3.index t a * S2000x256.size a + S2000x256.size a := by
  show i ∈ ((View.whole main_v232).slice (win6_3.rect t)).set ↔ _
  rw [View.set_slice_whole, Rect.mem_set_unit]
  exact Iff.rfl

/-- Row r of the array lies in the block of the point r / 2000, which writes back (every point does). -/
theorem cover6 (i : S10000x256.Idx) : ∃ t : Fin cfg6.N, (cfg6.win 3).flush t = true ∧ i ∈ ((cfg6.win 3).blk t).view.set := by
  have hi0 : (i 0).val < 10000 := (i 0).isLt
  have hi1 : (i 1).val < 256 := (i 1).isLt
  have hN : cfg6.N = 5 := N_6
  let t : Fin cfg6.N := ⟨(i 0).val / 2000, by rw [hN]; omega⟩
  obtain ⟨-, -, -, -, -, -, e30, e31⟩ := idx_facts6 t
  have ht : t.val = (i 0).val / 2000 := rfl
  refine ⟨t, flush6_3 t, ?_⟩
  rw [mem_blk6]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 256 ≤ (i 1).val ∧ (i 1).val < win6_3.index t (1 : Fin 2) * 256 + 256; omega

/-! ## The array after the region -/

variable (Wpre : Dev nD → Valuation τ sig (Elt Ideal))

/-- The output array after region 6 IS G6 of the three arrays as the region finds them. -/
theorem fin6_eq (c : Dev nD)
    (hx : ∀ i, ∃ r : ℝ, (Vof Wpre c main_v229 : FVec Ideal S10000x256 .f32) i = (r : EReal))
    (hw : ∀ i, ∃ r : ℝ, (Vof Wpre c main_arg19 : FVec Ideal S256x256 .f32) i = (r : EReal)) :
    fin6 (F := Ideal) (U := U) Wpre c = G6 (Vof Wpre c main_v229) (Vof Wpre c main_arg19) (Vof Wpre c main_v231) := by
  unfold fin6
  exact (dat6 (F := Ideal) (U := U) (Vof Wpre) c).arrAt_eq_of_cover 3 _ (fun t _ => flushed6_eq (Vof Wpre) c t hx hw) cover6

/-- The three arrays region 6 reads, as the region finds them, at their literal shapes: x (main_v229), the weight
    matrix (main_arg19), the bias row (main_v231). -/
abbrev x6 (c : Dev nD) : FVec Ideal S10000x256 .f32 := Vof Wpre c main_v229
abbrev w6 (c : Dev nD) : FVec Ideal S256x256 .f32 := Vof Wpre c main_arg19
abbrev b6 (c : Dev nD) : FVec Ideal S1x256 .f32 := Vof Wpre c main_v231

/-- At (r, col): the sum over k of x(r, k) · w(k, col), plus b(0, col). -/
theorem fin6_apply (c : Dev nD)
    (hx : ∀ i, ∃ r : ℝ, x6 Wpre c i = (r : EReal)) (hw : ∀ i, ∃ r : ℝ, w6 Wpre c i = (r : EReal))
    (r : Fin 10000) (col : Fin 256) :
    (fin6 (F := Ideal) (U := U) Wpre c : FVec Ideal S10000x256 .f32) (ix2 r col)
      = (∑ k : Fin 256, x6 Wpre c (ix2 r k) * w6 Wpre c (ix2 k col)) + b6 Wpre c (ix2 (0 : Fin 1) col) := by
  rw [fin6_eq Wpre c hx hw]
  exact G6_apply _ _ _ r col

/-- info: 'Cert.KernelIdeal.Hand.fin6_apply' depends on axioms: [propext, Classical.choice, Quot.sound] -/
#guard_msgs in #print axioms fin6_apply

end Cert.KernelIdeal.Hand

end
-- ==== Proof.KI.Region6OutC.lean ====
/-
  What region 6 leaves, from the launch memory and the second view's encoder output.

  Region 6 multiplies the first half, by columns, of region 5's result (the array main_v229, as the valuation region 6 is
  entered at holds it) by the projection's weights, an argument of @main that is as launched, and adds the projection's bias,
  which the host stretch just before it lays out as one row. So, for operands with real entries, its output array is the
  plain product plus the bias on every row.
-/
import proofs.«175488_j3908420240157_2_alg».proof.Proof.KI.Frame
import proofs.«175488_j3908420240157_2_alg».proof.Proof.KI.Value6

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-- The stretch before region 6 leaves the projection's bias, as one row of 256, in main_v231, whatever the buffers held. -/
theorem read_v231 {F : FTy → Type} [FloatOps F] (P : Valuation τ sig (Elt F)) :
    StableHlo.after hostOps6 P (Proc.devRef .tc main_v231)
      = shapeCast S1x256 (P (Proc.devRef .tc main_arg20)) shapeCasts_S256_S1x256 := by
  after_results_simp <;> rfl

/-- The same stretch leaves the first 256 columns of region 5's result in main_v229. -/
theorem read_v229 {F : FTy → Type} [FloatOps F] (P : Valuation τ sig (Elt F)) :
    StableHlo.after hostOps6 P (Proc.devRef .tc main_v229)
      = extractStridedSlice S10000x256 ![0, 0] (P (Proc.devRef .tc main_v228)) slices_S10000x512_S10000x256_0_0 := by
  after_results_simp <;> rfl

variable (m : (ℓ : Loc nD τ sig) → Buf (Elt Ideal) ℓ)

/-- Region 5's result is what that stretch reads at its array. -/
theorem W27_main_v228 (c : Dev nD) : W27 m (o0 m) (o1 m) (o2 m) (o3 m) (o4 m) (o5 m) c main_v228 = o5 m c := by
  simp only [W27, Function.update_self]

/-- The array region 6 multiplies: the first 256 columns of region 5's result. -/
theorem W28_main_v229 (c : Dev nD) :
    W28 m (o0 m) (o1 m) (o2 m) (o3 m) (o4 m) (o5 m) c main_v229 = extractStridedSlice S10000x256 ![0, 0] (o5 m c) slices_S10000x512_S10000x256_0_0 :=
  (read_v229 (W27 m (o0 m) (o1 m) (o2 m) (o3 m) (o4 m) (o5 m) c)).trans
    (congrArg (extractStridedSlice S10000x256 ![0, 0] · slices_S10000x512_S10000x256_0_0) (W27_main_v228 m c))

/-- The projection's weights are as launched where region 6 is entered. -/
theorem W28_main_arg19 (c : Dev nD) : W28 m (o0 m) (o1 m) (o2 m) (o3 m) (o4 m) (o5 m) c main_arg19 = m ((c : Thread nD τ).loc main_arg19) :=
  (W28_of m (o0 m) (o1 m) (o2 m) (o3 m) (o4 m) (o5 m) c main_arg19 (by decide)).trans <|
  (W27_of m (o0 m) (o1 m) (o2 m) (o3 m) (o4 m) (o5 m) c main_arg19 (by decide)).trans <|
  (W26_of m (o0 m) (o1 m) (o2 m) (o3 m) (o4 m) c main_arg19 (by decide)).trans <|
  (W25_of m (o0 m) (o1 m) (o2 m) (o3 m) (o4 m) c main_arg19 (by decide)).trans <|
  (W24_of m (o0 m) (o1 m) (o2 m) (o3 m) c main_arg19 (by decide)).trans <|
  (W23_of m (o0 m) (o1 m) (o2 m) (o3 m) c main_arg19 (by decide)).trans <|
  (W22_of m (o0 m) (o1 m) (o2 m) c main_arg19 (by decide)).trans <|
  (W21_of m (o0 m) (o1 m) (o2 m) c main_arg19 (by decide)).trans <|
  (W20_of m (o0 m) (o1 m) (o2 m) c main_arg19 (by decide)).trans <|
  (W19_of m (o0 m) (o1 m) (o2 m) c main_arg19 (by decide)).trans <|
  (W18_of m (o0 m) (o1 m) (o2 m) c main_arg19 (by decide)).trans <|
  (W17_of m (o0 m) (o1 m) (o2 m) c main_arg19 (by decide)).trans <|
  (W16_of m (o0 m) (o1 m) c main_arg19 (by decide)).trans <|
  (W15_of m (o0 m) (o1 m) c main_arg19 (by decide)).trans <|
  (W14_of m (o0 m) (o1 m) c main_arg19 (by decide)).trans <|
  (W13_of m (o0 m) (o1 m) c main_arg19 (by decide)).trans <|
  (W12_of m (o0 m) (o1 m) c main_arg19 (by decide)).trans <|
  (W11_of m (o0 m) (o1 m) c main_arg19 (by decide)).trans <|
  (W10_of m (o0 m) c main_arg19 (by decide)).trans <|
  (W9_of m (o0 m) c main_arg19 (by decide)).trans <|
  (W8_of m (o0 m) c main_arg19 (by decide)).trans <|
  (W7_of m (o0 m) c main_arg19 (by decide)).trans <|
  (W6_of m (o0 m) c main_arg19 (by decide)).trans <|
  (W5_of m (o0 m) c main_arg19 (by decide)).trans <|
  (W4_of m (o0 m) c main_arg19 (by decide)).trans <|
  (W3_of m (o0 m) c main_arg19 (by decide)).trans <|
  (W2_of m (o0 m) c main_arg19 (by decide)).trans <|
  (W1_of m c main_arg19 (by decide)).trans rfl

/-- The projection's bias is as launched where the stretch before region 6 begins. -/
theorem W27_main_arg20 (c : Dev nD) : W27 m (o0 m) (o1 m) (o2 m) (o3 m) (o4 m) (o5 m) c main_arg20 = m ((c : Thread nD τ).loc main_arg20) :=
  (W27_of m (o0 m) (o1 m) (o2 m) (o3 m) (o4 m) (o5 m) c main_arg20 (by decide)).trans <|
  (W26_of m (o0 m) (o1 m) (o2 m) (o3 m) (o4 m) c main_arg20 (by decide)).trans <|
  (W25_of m (o0 m) (o1 m) (o2 m) (o3 m) (o4 m) c main_arg20 (by decide)).trans <|
  (W24_of m (o0 m) (o1 m) (o2 m) (o3 m) c main_arg20 (by decide)).trans <|
  (W23_of m (o0 m) (o1 m) (o2 m) (o3 m) c main_arg20 (by decide)).trans <|
  (W22_of m (o0 m) (o1 m) (o2 m) c main_arg20 (by decide)).trans <|
  (W21_of m (o0 m) (o1 m) (o2 m) c main_arg20 (by decide)).trans <|
  (W20_of m (o0 m) (o1 m) (o2 m) c main_arg20 (by decide)).trans <|
  (W19_of m (o0 m) (o1 m) (o2 m) c main_arg20 (by decide)).trans <|
  (W18_of m (o0 m) (o1 m) (o2 m) c main_arg20 (by decide)).trans <|
  (W17_of m (o0 m) (o1 m) (o2 m) c main_arg20 (by decide)).trans <|
  (W16_of m (o0 m) (o1 m) c main_arg20 (by decide)).trans <|
  (W15_of m (o0 m) (o1 m) c main_arg20 (by decide)).trans <|
  (W14_of m (o0 m) (o1 m) c main_arg20 (by decide)).trans <|
  (W13_of m (o0 m) (o1 m) c main_arg20 (by decide)).trans <|
  (W12_of m (o0 m) (o1 m) c main_arg20 (by decide)).trans <|
  (W11_of m (o0 m) (o1 m) c main_arg20 (by decide)).trans <|
  (W10_of m (o0 m) c main_arg20 (by decide)).trans <|
  (W9_of m (o0 m) c main_arg20 (by decide)).trans <|
  (W8_of m (o0 m) c main_arg20 (by decide)).trans <|
  (W7_of m (o0 m) c main_arg20 (by decide)).trans <|
  (W6_of m (o0 m) c main_arg20 (by decide)).trans <|
  (W5_of m (o0 m) c main_arg20 (by decide)).trans <|
  (W4_of m (o0 m) c main_arg20 (by decide)).trans <|
  (W3_of m (o0 m) c main_arg20 (by decide)).trans <|
  (W2_of m (o0 m) c main_arg20 (by decide)).trans <|
  (W1_of m c main_arg20 (by decide)).trans rfl

/-- The bias row, at the valuation region 6 is entered at. -/
theorem W28_main_v231 (c : Dev nD) :
    W28 m (o0 m) (o1 m) (o2 m) (o3 m) (o4 m) (o5 m) c main_v231 = shapeCast S1x256 (m ((c : Thread nD τ).loc main_arg20)) shapeCasts_S256_S1x256 :=
  (read_v231 (W27 m (o0 m) (o1 m) (o2 m) (o3 m) (o4 m) (o5 m) c)).trans
    (congrArg (shapeCast S1x256 · shapeCasts_S256_S1x256) (W27_main_arg20 m c))

/-- Region 6's output array: the product of the second view's first encoder output, as region 6 finds it, with the
    projection's weights, plus the projection's bias on every row. -/
theorem o6_eq (c : Dev nD)
    (hreal : ∀ i, ∃ r : ℝ, (W28 m (o0 m) (o1 m) (o2 m) (o3 m) (o4 m) (o5 m) c main_v229 : FVec Ideal S10000x256 .f32) i = (r : EReal))
    (hW19 : ∀ i, ∃ r : ℝ, (m ((c : Thread nD τ).loc main_arg19) : FVec Ideal S256x256 .f32) i = (r : EReal)) :
    o6 m c = G6 (W28 m (o0 m) (o1 m) (o2 m) (o3 m) (o4 m) (o5 m) c main_v229) (m ((c : Thread nD τ).loc main_arg19))
      (shapeCast S1x256 (m ((c : Thread nD τ).loc main_arg20)) shapeCasts_S256_S1x256) := by
  have hw : ∀ i, ∃ r : ℝ, (Vof (W28 m (o0 m) (o1 m) (o2 m) (o3 m) (o4 m) (o5 m)) c main_arg19 : FVec Ideal S256x256 .f32) i = (r : EReal) := by
    intro i
    show ∃ r : ℝ, (W28 m (o0 m) (o1 m) (o2 m) (o3 m) (o4 m) (o5 m) c main_arg19 : FVec Ideal S256x256 .f32) i = (r : EReal)
    rw [W28_main_arg19]; exact hW19 i
  show fin6 (U := UU nD τ) (W28 m (o0 m) (o1 m) (o2 m) (o3 m) (o4 m) (o5 m)) c = _
  refine (fin6_eq (U := UU nD τ) (W28 m (o0 m) (o1 m) (o2 m) (o3 m) (o4 m) (o5 m)) c hreal hw).trans ?_
  show G6 (W28 m (o0 m) (o1 m) (o2 m) (o3 m) (o4 m) (o5 m) c main_v229) (W28 m (o0 m) (o1 m) (o2 m) (o3 m) (o4 m) (o5 m) c main_arg19) (W28 m (o0 m) (o1 m) (o2 m) (o3 m) (o4 m) (o5 m) c main_v231) = _
  rw [W28_main_arg19, W28_main_v231]

end Cert.KernelIdeal.Hand

end
-- ==== Proof.Qlin6C.lean ====
/-
  The projection of the second loss: what the kernel's region 6 leaves is the reference's projection of the second view's
  first encoder output — the same product plus bias, entry by entry (region 6's value, for real entries).
-/
import proofs.«175488_j3908420240157_2_alg».proof.Proof.Qlin3C
import proofs.«175488_j3908420240157_2_alg».proof.Proof.KI.Region6OutC
import proofs.«175488_j3908420240157_2_alg».proof.Proof.KI.Results

set_option maxRecDepth 65536

noncomputable section

open scoped BigOperators

namespace Cert.Proof.Parts

open Idealize.ShloMosaic Idealize.ShloMosaic.TcCoe Idealize.SL.Sem Idealize.ShloMosaic.ValueIdx

/-- Region 6's array over a bias laid out as one row is the host's product plus the bias repeated down the rows (the same
    entries as region 3's: one function of the three arrays). -/
theorem G6_eq_G3 (X : FVec Ideal Cert.KernelIdeal.S10000x256 .f32) (A : FVec Ideal Cert.KernelIdeal.S256x256 .f32) (b : FVec Ideal Cert.KernelIdeal.S1x256 .f32) :
    Cert.KernelIdeal.Hand.G6 X A b = Cert.KernelIdeal.Hand.G3 X A b := rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- THE PROJECTIONS OF THE SECOND LOSS AGREE, from the second view's first encoder outputs agreeing. -/
theorem hA2 (hpre : Cert.Pre_KernelIdeal m) (hagree : Agree m m') (c : Dev Cert.KernelIdeal.nD)
    (e2 : StableHlo.after (Cert.ReferenceIdeal.OpsP.ops (F := Ideal)) (StableHlo.launchContents m' c) (Proc.devRef .tc Cert.ReferenceIdeal.main_v276) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v229)
    (hv2 : Cert.Lib.RealClosure.EntriesReal (Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v229 : FVec Ideal Cert.KernelIdeal.S10000x256 .f32)) :
    Cert.KernelIdeal.Hand.o6 m c = qlinR (F := Ideal) (StableHlo.after (Cert.ReferenceIdeal.OpsP.ops (F := Ideal)) (StableHlo.launchContents m' c) (Proc.devRef .tc Cert.ReferenceIdeal.main_v276)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) := by
  obtain ⟨-, -, -, -, -, -, -, -, -, -, -, -, -, -, -, -, -, -, -, a19, a20⟩ := hagree c
  have e28 : Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v229 = Cert.KernelIdeal.Hand.W28 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) c Cert.KernelIdeal.main_v229 :=
    (Cert.KernelIdeal.Hand.W32_main_v229 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c).trans (Cert.KernelIdeal.Hand.W28_main_v229 m c).symm
  have hreal : ∀ i, ∃ r : ℝ, (Cert.KernelIdeal.Hand.W28 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) c Cert.KernelIdeal.main_v229 : FVec Ideal Cert.KernelIdeal.S10000x256 .f32) i = (r : EReal) := e28 ▸ hv2
  rw [e2, a19, a20, e28, Cert.KernelIdeal.Hand.o6_eq m c hreal (pre_real_arg19 m hpre c), G6_eq_G3]
  exact projection_eq _ rfl rfl (fun _ _ => rfl) (fun _ _ => rfl) (fun _ _ => rfl) (fun _ _ => rfl) _ _ _ _ _ _

end Cert.Proof.Parts

end
-- ==== Proof.KI.Value7.lean ====
/-
  Region 7 of the program (the row-sum kernel of custom_call 7): what the output array holds after the region, at the
  exact values, entry by entry.

  The region's output is a column of 10000 entries. For arrays q, z, stu of 10000 rows of 256 features with real
  entries, row r of the output is

      ∑ over the 10000 rows key of z and stu of  exp(∑ₖ q(r,k)·z(key,k)) + exp(∑ₖ q(r,k)·stu(key,k)).

  The steps, each a lemma of its own:

  * one point's arithmetic at an entry (\`pay2_apply7\`, \`acc7_apply\`): the cleared scratch is zero, and a point adds to
    the scratch, at row ρ of its block, the sum over the 2000 columns of its 2000 x 2000 block of exponentials — each
    three-pass product of blocks with real entries an exact sum over the features, the kernel's lane sum a finite sum;
  * the windows' blocks as rows of the arrays (\`idx7\`, decided over the 25 points; \`qb7_row\`, \`zb7_row\`, \`tb7_row\`): at
    the point number t = 5 i + j the block of q holds the rows 2000 i + ρ, the blocks of z and stu the rows 2000 j + col;
  * the accumulation over a row of the grid at an entry (\`S7_row\`): after the point j of the row i the scratch holds
    the sum of the addends of the points 0 … j of the row;
  * from the blocks to the array (\`out7\`, \`flushed7_eq\`, \`cover7\`, \`arrAt7_eq\`): the output window is written back at
    the last point of each row of the grid only, its five blocks tile the output, so the output's row r is the
    accumulation at the last point of the row r / 2000 of the grid, read at row r % 2000;
  * the regrouping (\`rowE7_eq\`, \`out7_apply\`): five blocks of 2000 rows of z and stu are all 10000 rows.
-/
import proofs.«175488_j3908420240157_2_alg».proof.Proof.KI.Body7
import proofs.«175488_j3908420240157_2_alg».proof.Proof.KI.Value4
import proofs.«175488_j3908420240157_2_alg».proof.Proof.LibNegSimRow
import proofs.«175488_j3908420240157_2_alg».proof.Proof.LibBlockSum
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA
open Idealize.ShloMosaic.Pipeline (Dat Cfg Window)

/-! ## One point's arithmetic, read at an entry -/

/-- The column of zeros the accumulation starts from at the first point of a row of the grid. -/
theorem pay2_apply7 (j : S2000x1.Idx) : k7_pay2 (F := Ideal) j = 0 := by
  unfold k7_pay2
  rw [shapeCast_self]
  exact Ideal.ofBits_zero_f32

/-- What one point adds to the scratch, at row ρ: for blocks with real entries, the column \`s\` the accumulation starts
    from plus the sum over the 2000 columns of exp(q·zᵀ) + exp(q·stuᵀ), each product an exact sum over the 256 features
    (in the three-pass split the low parts of real entries vanish). -/
theorem acc7_apply (x0 x1 x2 : Vec Ideal S2000x256 .f32) (s : Vec Ideal S2000x1 .f32)
    (h0 : ∀ i, ∃ r : ℝ, x0 i = (r : EReal)) (h1 : ∀ i, ∃ r : ℝ, x1 i = (r : EReal)) (h2 : ∀ i, ∃ r : ℝ, x2 i = (r : EReal))
    (ρ : Fin 2000) (u : Fin 1) :
    acc7 (F := Ideal) x0 x1 x2 s (ix2 ρ u)
      = s (ix2 ρ u) + ∑ col : Fin 2000, (Ideal.exp (∑ k : Fin 256, x0 (ix2 ρ k) * x1 (ix2 col k))
          + Ideal.exp (∑ k : Fin 256, x0 (ix2 ρ k) * x2 (ix2 col k))) := by
  unfold acc7 k7_pay1
  rw [shapeCast_self]
  refine (Cert.Lib.NegSimRow.rowsum_acc_ix2 _ s _ _ _ _ ρ u).trans ?_
  refine congrArg (s (ix2 ρ u) + ·) (Finset.sum_congr rfl fun col _ => ?_)
  unfold k7_pay3
  refine (Cert.Lib.NegSimRow.exp_pair_ix2 _ rfl rfl (fun _ _ => rfl) (fun _ _ => rfl) (fun _ _ => rfl) (fun _ _ => rfl)
    _ _ _ ?_ ?_ ?_ _ _ ρ col).trans ?_
  · rw [shapeCast_self]; exact h0
  · rw [shapeCast_self]; exact h1
  · rw [shapeCast_self]; exact h2
  · rw [shapeCast_self, shapeCast_self, shapeCast_self]

/-! ## The windows' blocks as rows of the arrays -/

variable {U : Type} [URA U]
-- the core's buffer contents when the region is entered
variable (V : (c : Dev nD) → (b : Ref sig .tc) → Buf (Elt Ideal) ((c : Thread nD τ).loc b))

/-- The printed index maps, decided over the grid: at the point number t = 5 i + j the blocks of q and of the output
    are the i-th, those of z and stu the j-th; no window moves along its columns. -/
theorem idx7 : ∀ t : Fin cfg7.N,
    win7_0.index t (0 : Fin 2) = t.val / 5 ∧ win7_0.index t (1 : Fin 2) = 0
    ∧ win7_1.index t (0 : Fin 2) = t.val % 5 ∧ win7_1.index t (1 : Fin 2) = 0
    ∧ win7_2.index t (0 : Fin 2) = t.val % 5 ∧ win7_2.index t (1 : Fin 2) = 0
    ∧ win7_3.index t (0 : Fin 2) = t.val / 5 ∧ win7_3.index t (1 : Fin 2) = 0 :=
  (by decide +kernel : ∀ t : Fin grid7.N, _)

/-- The q array, the z array and the stu array as the region finds them, and their rows. -/
abbrev Q7 (c : Dev nD) : S10000x256.Idx → EReal := V c main_v294
abbrev Z7 (c : Dev nD) : S10000x256.Idx → EReal := V c main_v284
abbrev T7 (c : Dev nD) : S10000x256.Idx → EReal := V c main_v292

/-- The three input blocks at a point, as arrays of 2000 rows of 256 features. -/
abbrev qb7 (c : Dev nD) (t : Fin cfg7.N) : Vec Ideal S2000x256 .f32 := iblk7 V c 0 t
abbrev zb7 (c : Dev nD) (t : Fin cfg7.N) : Vec Ideal S2000x256 .f32 := iblk7 V c 1 t
abbrev tb7 (c : Dev nD) (t : Fin cfg7.N) : Vec Ideal S2000x256 .f32 := iblk7 V c 2 t

/-- Row ρ of the block of q at the point t is row 2000 (t / 5) + ρ of the q array. -/
theorem iblk7_0_apply (c : Dev nD) (t : Fin cfg7.N) (ρ : Fin 2000) (k : Fin 256) (hr : 2000 * (t.val / 5) + ρ.val < 10000) :
    qb7 V c t (ix2 ρ k) = Q7 V c (ix2 ⟨2000 * (t.val / 5) + ρ.val, hr⟩ k) := by
  obtain ⟨e0, e1, -⟩ := idx7 t
  show V c main_v294 (((cfg7.win 0).blk t).view.emb (ix2 ρ k)) = _
  refine congrArg (V c main_v294) (funext fun a => Fin.ext ?_)
  match a with
  | ⟨0, _⟩ => show win7_0.index t (0 : Fin 2) * 2000 + 1 * ρ.val = 2000 * (t.val / 5) + ρ.val; omega
  | ⟨1, _⟩ => show win7_0.index t (1 : Fin 2) * 256 + 1 * k.val = k.val; omega

/-- Row col of the block of z at the point t is row 2000 (t % 5) + col of the z array. -/
theorem iblk7_1_apply (c : Dev nD) (t : Fin cfg7.N) (col : Fin 2000) (k : Fin 256) (hr : 2000 * (t.val % 5) + col.val < 10000) :
    zb7 V c t (ix2 col k) = Z7 V c (ix2 ⟨2000 * (t.val % 5) + col.val, hr⟩ k) := by
  obtain ⟨-, -, e0, e1, -⟩ := idx7 t
  show V c main_v284 (((cfg7.win 1).blk t).view.emb (ix2 col k)) = _
  refine congrArg (V c main_v284) (funext fun a => Fin.ext ?_)
  match a with
  | ⟨0, _⟩ => show win7_1.index t (0 : Fin 2) * 2000 + 1 * col.val = 2000 * (t.val % 5) + col.val; omega
  | ⟨1, _⟩ => show win7_1.index t (1 : Fin 2) * 256 + 1 * k.val = k.val; omega

/-- Row col of the block of stu at the point t is row 2000 (t % 5) + col of the stu array. -/
theorem iblk7_2_apply (c : Dev nD) (t : Fin cfg7.N) (col : Fin 2000) (k : Fin 256) (hr : 2000 * (t.val % 5) + col.val < 10000) :
    tb7 V c t (ix2 col k) = T7 V c (ix2 ⟨2000 * (t.val % 5) + col.val, hr⟩ k) := by
  obtain ⟨-, -, -, -, e0, e1, -⟩ := idx7 t
  show V c main_v292 (((cfg7.win 2).blk t).view.emb (ix2 col k)) = _
  refine congrArg (V c main_v292) (funext fun a => Fin.ext ?_)
  match a with
  | ⟨0, _⟩ => show win7_2.index t (0 : Fin 2) * 2000 + 1 * col.val = 2000 * (t.val % 5) + col.val; omega
  | ⟨1, _⟩ => show win7_2.index t (1 : Fin 2) * 256 + 1 * k.val = k.val; omega

/-! ## The accumulation over a row of the grid, at an entry -/

/-- The accumulation's value depends on the point's number only. -/
theorem S7_congr (c : Dev nD) {n n' : ℕ} (e : n = n') (h : n < cfg7.N) (h' : n' < cfg7.N) : S7 V c n h = S7 V c n' h' := by
  subst e; rfl

/-- What the point number n adds at row ρ of its block: the sum, over the 2000 rows col of the point's blocks of z and stu,
    of exp(q(ρ)·z(col)) + exp(q(ρ)·stu(col)), the products exact sums over the 256 features. Zero past the grid. -/
def rowE7 (c : Dev nD) (n : ℕ) (ρ : Fin 2000) : EReal :=
  if h : n < cfg7.N then
    ∑ col : Fin 2000, (Ideal.exp (∑ k : Fin 256, qb7 V c ⟨n, h⟩ (ix2 ρ k) * zb7 V c ⟨n, h⟩ (ix2 col k))
      + Ideal.exp (∑ k : Fin 256, qb7 V c ⟨n, h⟩ (ix2 ρ k) * tb7 V c ⟨n, h⟩ (ix2 col k)))
  else 0

/-- The three arrays have real entries. -/
def Real7 (c : Dev nD) : Prop :=
  (∀ i, ∃ r : ℝ, Q7 V c i = (r : EReal)) ∧ (∀ i, ∃ r : ℝ, Z7 V c i = (r : EReal)) ∧ (∀ i, ∃ r : ℝ, T7 V c i = (r : EReal))

/-- At the first point of a row of the grid the scratch holds that point's addend. -/
theorem S7_apply_reset (c : Dev nD) (hR : Real7 V c) (t : Fin cfg7.N) (h0 : t.val % 5 = 0) (ρ : Fin 2000) (u : Fin 1) :
    S7 V c t.val t.isLt (ix2 ρ u) = rowE7 V c t.val ρ := by
  rw [S7_reset V c t h0]
  refine (acc7_apply (qb7 V c t) (zb7 V c t) (tb7 V c t) _ (fun _ => hR.1 _) (fun _ => hR.2.1 _) (fun _ => hR.2.2 _) ρ u).trans ?_
  rw [pay2_apply7, zero_add]
  unfold rowE7; rw [dif_pos t.isLt]

/-- At a later point it holds what the point before left plus that point's addend. -/
theorem S7_apply_step (c : Dev nD) (hR : Real7 V c) (t : Fin cfg7.N) (h0 : ¬t.val % 5 = 0) (ρ : Fin 2000) (u : Fin 1) :
    S7 V c t.val t.isLt (ix2 ρ u)
      = S7 V c (t.val - 1) (Nat.lt_of_le_of_lt (Nat.sub_le _ _) t.isLt) (ix2 ρ u) + rowE7 V c t.val ρ := by
  rw [S7_step V c t h0]
  refine (acc7_apply (qb7 V c t) (zb7 V c t) (tb7 V c t) _ (fun _ => hR.1 _) (fun _ => hR.2.1 _) (fun _ => hR.2.2 _) ρ u).trans ?_
  unfold rowE7; rw [dif_pos t.isLt]

/-- So after the point j of the row i of the grid it holds the sum of the addends of the points 0 … j of the row. -/
theorem S7_row (c : Dev nD) (hR : Real7 V c) (i : ℕ) (hi : i < 5) (ρ : Fin 2000) (u : Fin 1) :
    ∀ (j : ℕ) (hj : j < 5) (h : 5 * i + j < cfg7.N),
      S7 V c (5 * i + j) h (ix2 ρ u) = ∑ s ∈ Finset.range (j + 1), rowE7 V c (5 * i + s) ρ
  | 0, _, h => by
    rw [Finset.sum_range_one]
    exact S7_apply_reset V c hR ⟨5 * i + 0, h⟩ (by show (5 * i + 0) % 5 = 0; omega) ρ u
  | j + 1, hj, h => by
    rw [Finset.sum_range_succ _ (j + 1), ← S7_row c hR i hi ρ u j (by omega) (Nat.lt_of_succ_lt h)]
    refine (S7_apply_step V c hR ⟨5 * i + (j + 1), h⟩ (by show ¬(5 * i + (j + 1)) % 5 = 0; omega) ρ u).trans ?_
    exact congrArg (· + rowE7 V c (5 * i + (j + 1)) ρ) (congrFun (S7_congr V c (by show 5 * i + (j + 1) - 1 = 5 * i + j; omega) _ _) _)

/-! ## From the blocks to the array -/

/-- What the output array ends holding: at row r, the accumulation at the last point of the row r / 2000 of the grid,
    read at the row r % 2000 of its block. -/
def out7 (c : Dev nD) : S10000x1.Idx → EReal := fun i =>
  S7 V c (5 * ((i 0).val / 2000) + 4) (lt_of_lt_of_eq (by have := idx2_lt0 i; omega) N_7.symm)
    (ix2 (⟨(i 0).val % 2000, Nat.mod_lt _ (by decide)⟩ : Fin 2000) (0 : Fin 1))

/-- An index of the output array is in the block of the point t iff each coordinate is in the block's range. -/
theorem mem_blk7 (t : Fin cfg7.N) (i : S10000x1.Idx) :
    i ∈ ((cfg7.win 3).blk t).view.set ↔ ∀ a : Fin 2, win7_3.index t a * S2000x1.size a ≤ (i a).val ∧ (i a).val < win7_3.index t a * S2000x1.size a + S2000x1.size a := by
  show i ∈ ((View.whole main_v295).slice (win7_3.rect t)).set ↔ _
  rw [View.set_slice_whole, Rect.mem_set_unit]
  exact Iff.rfl

/-- WHAT A POINT WRITES BACK (the last point of a row of the grid) is its block of \`out7\`. -/
theorem flushed7_eq (c : Dev nD) (t : Fin cfg7.N) (hf : (cfg7.win 3).flush t = true) :
    (dat7 (U := U) V c).flushed 3 t = ((cfg7.win 3).blk t).view.read (Elt Ideal) (out7 V c) := by
  have h4 : t.val % 5 = 4 := (flush7_3 t).mp hf
  obtain ⟨-, -, -, -, -, -, e0, e1⟩ := idx7 t
  show (cfg7.win 3).cut (grid7.coords t) ((dat7 (U := U) V c).after 3 t) = _
  rw [after7_3]
  funext j
  have hj0 : (j 0).val < 2000 := (j 0).isLt
  have hj1 : (j 1).val < 1 := (j 1).isLt
  have he0 : ((((cfg7.win 3).blk t).view.emb j) 0).val = win7_3.index t (0 : Fin 2) * 2000 + 1 * (j 0).val := rfl
  show S7 V c t.val t.isLt j = out7 V c (((cfg7.win 3).blk t).view.emb j)
  unfold out7
  have en : t.val = 5 * (((((cfg7.win 3).blk t).view.emb j) 0).val / 2000) + 4 := by rw [he0, e0]; omega
  refine (congrFun (S7_congr V c en _ _) j).trans (congrArg _ (funext fun a => Fin.ext ?_))
  match a with
  | ⟨0, _⟩ => show (j 0).val = ((((cfg7.win 3).blk t).view.emb j) 0).val % 2000; rw [he0, e0]; omega
  | ⟨1, _⟩ => show (j 1).val = 0; omega

/-- Every row of the output array is in the block of the last point of its row of the grid. -/
theorem cover7 (i : S10000x1.Idx) : ∃ t : Fin cfg7.N, (cfg7.win 3).flush t = true ∧ i ∈ ((cfg7.win 3).blk t).view.set := by
  have hi0 : (i 0).val < 10000 := idx2_lt0 i
  have hi1 : (i 1).val < 1 := idx2_lt1 i
  have hn : 5 * ((i 0).val / 2000) + 4 < cfg7.N := lt_of_lt_of_eq (by omega) N_7.symm
  obtain ⟨-, -, -, -, -, -, e0, e1⟩ := idx7 ⟨5 * ((i 0).val / 2000) + 4, hn⟩
  have e0' : win7_3.index ⟨5 * ((i 0).val / 2000) + 4, hn⟩ (0 : Fin 2) = (5 * ((i 0).val / 2000) + 4) / 5 := e0
  refine ⟨⟨5 * ((i 0).val / 2000) + 4, hn⟩, (flush7_3 _).mpr (by show (5 * ((i 0).val / 2000) + 4) % 5 = 4; omega), ?_⟩
  rw [mem_blk7]
  intro a
  match a with
  | ⟨0, _⟩ =>
    show win7_3.index ⟨5 * ((i 0).val / 2000) + 4, hn⟩ (0 : Fin 2) * 2000 ≤ (i 0).val
      ∧ (i 0).val < win7_3.index ⟨5 * ((i 0).val / 2000) + 4, hn⟩ (0 : Fin 2) * 2000 + 2000
    rw [e0']; omega
  | ⟨1, _⟩ =>
    show win7_3.index ⟨5 * ((i 0).val / 2000) + 4, hn⟩ (1 : Fin 2) * 1 ≤ (i 1).val
      ∧ (i 1).val < win7_3.index ⟨5 * ((i 0).val / 2000) + 4, hn⟩ (1 : Fin 2) * 1 + 1
    rw [e1]; omega

/-- THE OUTPUT ARRAY after the region: \`out7\`. -/
theorem arrAt7_eq (c : Dev nD) : (dat7 (U := U) V c).arrAt 3 cfg7.N = out7 V c :=
  (dat7 (U := U) V c).arrAt_eq_of_cover 3 (out7 V c) (fun t hf => flushed7_eq V c t hf) cover7

/-! ## The output's rows over the arrays' rows -/

/-- The blocks' rows as rows of the arrays, the array's row named by an equation. -/
theorem qb7_row (c : Dev nD) (t : Fin cfg7.N) (ρ : Fin 2000) (k : Fin 256) (r : Fin 10000) (e : r.val = 2000 * (t.val / 5) + ρ.val) :
    qb7 V c t (ix2 ρ k) = Q7 V c (ix2 r k) :=
  (iblk7_0_apply V c t ρ k (e ▸ r.isLt)).trans (congrArg (fun x => Q7 V c (ix2 x k)) (Fin.ext e.symm))
theorem zb7_row (c : Dev nD) (t : Fin cfg7.N) (col : Fin 2000) (k : Fin 256) (r : Fin 10000) (e : r.val = 2000 * (t.val % 5) + col.val) :
    zb7 V c t (ix2 col k) = Z7 V c (ix2 r k) :=
  (iblk7_1_apply V c t col k (e ▸ r.isLt)).trans (congrArg (fun x => Z7 V c (ix2 x k)) (Fin.ext e.symm))
theorem tb7_row (c : Dev nD) (t : Fin cfg7.N) (col : Fin 2000) (k : Fin 256) (r : Fin 10000) (e : r.val = 2000 * (t.val % 5) + col.val) :
    tb7 V c t (ix2 col k) = T7 V c (ix2 r k) :=
  (iblk7_2_apply V c t col k (e ▸ r.isLt)).trans (congrArg (fun x => T7 V c (ix2 x k)) (Fin.ext e.symm))

/-- The addend of the point s of the row i of the grid, at row ρ of its block, over the arrays: the sum over the 2000
    rows 2000 s + col of z and stu of exp(q(r)·z(key)) + exp(q(r)·stu(key)), r = 2000 i + ρ. -/
theorem rowE7_eq (c : Dev nD) (i : ℕ) (hi : i < 5) (s : Fin 5) (ρ : Fin 2000) (r : Fin 10000) (er : r.val = 2000 * i + ρ.val)
    (h : ∀ (t : Fin 5) (y : Fin 2000), 2000 * t.val + y.val < 10000) :
    rowE7 V c (5 * i + s.val) ρ
      = ∑ col : Fin 2000, (Ideal.exp (∑ k : Fin 256, Q7 V c (ix2 r k) * Z7 V c (ix2 ⟨2000 * s.val + col.val, h s col⟩ k))
          + Ideal.exp (∑ k : Fin 256, Q7 V c (ix2 r k) * T7 V c (ix2 ⟨2000 * s.val + col.val, h s col⟩ k))) := by
  have hs : s.val < 5 := s.isLt
  have hn : 5 * i + s.val < cfg7.N := lt_of_lt_of_eq (by omega) N_7.symm
  unfold rowE7
  rw [dif_pos hn]
  refine Finset.sum_congr rfl fun col _ => ?_
  have eq : ∀ k : Fin 256, qb7 V c ⟨5 * i + s.val, hn⟩ (ix2 ρ k) = Q7 V c (ix2 r k) := fun k =>
    qb7_row V c ⟨5 * i + s.val, hn⟩ ρ k r (by show r.val = 2000 * ((5 * i + s.val) / 5) + ρ.val; omega)
  have ez : ∀ k : Fin 256, zb7 V c ⟨5 * i + s.val, hn⟩ (ix2 col k) = Z7 V c (ix2 ⟨2000 * s.val + col.val, h s col⟩ k) := fun k =>
    zb7_row V c ⟨5 * i + s.val, hn⟩ col k _ (by show 2000 * s.val + col.val = 2000 * ((5 * i + s.val) % 5) + col.val; omega)
  have et : ∀ k : Fin 256, tb7 V c ⟨5 * i + s.val, hn⟩ (ix2 col k) = T7 V c (ix2 ⟨2000 * s.val + col.val, h s col⟩ k) := fun k =>
    tb7_row V c ⟨5 * i + s.val, hn⟩ col k _ (by show 2000 * s.val + col.val = 2000 * ((5 * i + s.val) % 5) + col.val; omega)
  simp only [eq, ez, et]

/-- THE VALUE. Row r of the output array after the region, for arrays with real entries: the sum over all 10000 rows
    key of z and stu of exp(q(r)·z(key)) + exp(q(r)·stu(key)), the products exact sums over the 256 features. -/
theorem out7_apply (c : Dev nD) (hR : Real7 V c) (r : Fin 10000) :
    (dat7 (U := U) V c).arrAt 3 cfg7.N (ix2 r (0 : Fin 1))
      = ∑ key : Fin 10000, (Ideal.exp (∑ k : Fin 256, Q7 V c (ix2 r k) * Z7 V c (ix2 key k))
          + Ideal.exp (∑ k : Fin 256, Q7 V c (ix2 r k) * T7 V c (ix2 key k))) := by
  have hr : r.val < 10000 := r.isLt
  have hb : ∀ (t : Fin 5) (y : Fin 2000), 2000 * t.val + y.val < 10000 := fun t y => by
    have := t.isLt; have := y.isLt; omega
  rw [arrAt7_eq]
  show S7 V c (5 * (r.val / 2000) + 4) _ (ix2 (⟨r.val % 2000, _⟩ : Fin 2000) (0 : Fin 1)) = _
  rw [S7_row V c hR (r.val / 2000) (by omega) _ _ 4 (by omega) _, Finset.sum_range]
  refine Eq.trans ?_ (sum_rows_5x2000 (fun key : Fin 10000 =>
    Ideal.exp (∑ k : Fin 256, Q7 V c (ix2 r k) * Z7 V c (ix2 key k)) + Ideal.exp (∑ k : Fin 256, Q7 V c (ix2 r k) * T7 V c (ix2 key k))) hb)
  exact Finset.sum_congr rfl fun s _ =>
    rowE7_eq V c (r.val / 2000) (by omega) s ⟨r.val % 2000, Nat.mod_lt _ (by decide)⟩ r
      (by show r.val = 2000 * (r.val / 2000) + r.val % 2000; omega) hb

/-- info: 'Cert.KernelIdeal.Hand.out7_apply' depends on axioms: [propext, Classical.choice, Quot.sound] -/
#guard_msgs in #print axioms out7_apply

end Cert.KernelIdeal.Hand

end
-- ==== Proof.KI.Value7Fin.lean ====
/-
  Region 7's value, stated at the segment's name for the output array: for an entry valuation whose q, z and stu arrays
  have real entries, row r of the array the region leaves in the output is the sum over the 10000 rows key of z and
  stu of exp(q(r)·z(key)) + exp(q(r)·stu(key)).
-/
import proofs.«175488_j3908420240157_2_alg».proof.Proof.KI.Seg7
import proofs.«175488_j3908420240157_2_alg».proof.Proof.KI.Value7

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA
open Idealize.ShloMosaic.Pipeline (Dat Cfg Window)

variable {U : Type} [URA U]
-- the core's unscoped buffers when the region is entered
variable (Wpre : Dev nD → Valuation τ sig (Elt Ideal))

/-- Row r of the output array after the region. -/
theorem fin7_apply (c : Dev nD) (hR : Real7 (Vof Wpre) c) (r : Fin 10000) :
    fin7 (F := Ideal) (U := U) Wpre c (ix2 r (0 : Fin 1))
      = ∑ key : Fin 10000, (Ideal.exp (∑ k : Fin 256, Q7 (Vof Wpre) c (ix2 r k) * Z7 (Vof Wpre) c (ix2 key k))
          + Ideal.exp (∑ k : Fin 256, Q7 (Vof Wpre) c (ix2 r k) * T7 (Vof Wpre) c (ix2 key k))) :=
  out7_apply (U := U) (Vof Wpre) c hR r

end Cert.KernelIdeal.Hand

end
-- ==== Proof.NegSim2C.lean ====
/-
  The negative row sums of the second loss: what the kernel's region 7 leaves, as a column, is the reference's column.

  Region 7 is handed the normalized rows z of the first view, the normalized rows stu of the second, and the queries
  z / τ. Its output's row r is the sum over all 10000 rows key of exp(∑ₖ (z(r,k)/τ)·z(key,k)) + exp(∑ₖ (z(r,k)/τ)·stu(key,k))
  (the region's value, for real entries); the reference's column of row sums of exp((z·zᵀ)/τ) + exp((z·stuᵀ)/τ) is the same
  sum, the factor 1/τ moved across the finite sums of products of reals. The host then reads the region's 10000 x 1 output as
  a vector of 10000 entries.
-/
import proofs.«175488_j3908420240157_2_alg».proof.Proof.Algebraic
import proofs.«175488_j3908420240157_2_alg».proof.Proof.NegSim1
import proofs.«175488_j3908420240157_2_alg».proof.Proof.KI.Value7Fin
import proofs.«175488_j3908420240157_2_alg».proof.Proof.LibNegSimRef

set_option maxRecDepth 65536

noncomputable section

open scoped BigOperators

namespace Cert.Proof.Parts

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- THE NEGATIVE ROW SUMS AGREE. If region 7 is entered with the arrays z, stu and z / τ at its three windows — real
    entries, τ a real other than zero — the vector the host reads off its output is the reference's column for z, stu, τ. -/
theorem negsim2 (c : Dev Cert.KernelIdeal.nD) (z stu : FVec Ideal Cert.KernelIdeal.S10000x256 .f32) (tau : FVec Ideal Cert.KernelIdeal.S_ .f32)
    (hZ : Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v284 = z) (hT : Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v292 = stu)
    (hQ : Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v294 = Host.divf (F := Ideal) z (broadcastInDim Cert.KernelIdeal.S10000x256 ![] Cert.KernelIdeal.Gen.bcast_S_S10000x256 tau))
    (hz : ∀ i, ∃ a : ℝ, z i = (a : EReal)) (hs : ∀ i, ∃ a : ℝ, stu i = (a : EReal))
    (ht : ∃ a : ℝ, tau ix0 = (a : EReal)) (ht0 : tau ix0 ≠ 0) :
    shapeCast Cert.KernelIdeal.S10000 (Cert.KernelIdeal.Hand.o7 m c) Cert.KernelIdeal.Gen.shapeCasts_S10000x1_S10000 = Cert.Lib.NegSimRef.negRef z stu tau := by
  have eQ : ∀ i, Cert.KernelIdeal.Hand.Q7 (Cert.KernelIdeal.Hand.Vof (Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m))) c i = Ideal.div (z i) (tau ix0) := fun i => by
    show (Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v294 : FVec Ideal Cert.KernelIdeal.S10000x256 .f32) i = _
    rw [hQ, div_scalar_apply]
  have eZ : Cert.KernelIdeal.Hand.Z7 (Cert.KernelIdeal.Hand.Vof (Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m))) c = z := hZ
  have eT : Cert.KernelIdeal.Hand.T7 (Cert.KernelIdeal.Hand.Vof (Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m))) c = stu := hT
  have hR : Cert.KernelIdeal.Hand.Real7 (Cert.KernelIdeal.Hand.Vof (Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m))) c :=
    ⟨fun i => by rw [eQ]; exact Cert.Lib.ScaledDot.div_real (hz i) ht ht0, fun i => by rw [eZ]; exact hz i, fun i => by rw [eT]; exact hs i⟩
  funext j
  obtain ⟨r, rfl⟩ : ∃ r : Fin 10000, j = ix1 r := ⟨j 0, eq_ix1 j⟩
  rw [shapeCast_apply _ Cert.KernelIdeal.Gen.shapeCasts_S10000x1_S10000 (ix1 r) (ix2 r (0 : Fin 1))
    (by rw [Shape.rowMajor_val_two, Shape.rowMajor_val_one]; show r.val * 1 + 0 = r.val; omega)]
  show Cert.KernelIdeal.Hand.fin7 (F := Ideal) (U := Cert.KernelIdeal.Hand.UU Cert.KernelIdeal.nD Cert.KernelIdeal.τ) (Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m)) c (ix2 r (0 : Fin 1)) = _
  rw [Cert.KernelIdeal.Hand.fin7_apply (U := Cert.KernelIdeal.Hand.UU Cert.KernelIdeal.nD Cert.KernelIdeal.τ) (Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m)) c hR r,
    Cert.Lib.NegSimRef.negRef_apply z stu tau hz hs ht ht0 r]
  simp only [eQ, eZ, eT]

/-- info: 'Cert.Proof.Parts.negsim2' depends on axioms: [propext, Classical.choice, Quot.sound] -/
#guard_msgs in #print axioms negsim2

end Cert.Proof.Parts

end
-- ==== Proof.HB2C.lean ====
/-
  The negative row sums of the second loss agree, from the second view's two encoder outputs agreeing: the twin of the first
  loss's statement at region 7 and the second temperature.
-/
import proofs.«175488_j3908420240157_2_alg».proof.Proof.NegSim2C
import proofs.«175488_j3908420240157_2_alg».proof.Proof.HB1C
import proofs.«175488_j3908420240157_2_alg».proof.Proof.KI.LossK

set_option maxRecDepth 65536

noncomputable section

namespace Cert.Proof.Parts

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

variable (m' : (ℓ : Loc Cert.ReferenceIdeal.nD Cert.ReferenceIdeal.τ Cert.ReferenceIdeal.sig) → Buf (Elt Ideal) ℓ)

set_option maxHeartbeats 1000000 in
/-- THE NEGATIVE ROW SUMS OF THE SECOND LOSS AGREE: with v2, u2 the second view's two encoder outputs as both programs hold
    them, region 7 entered at their normalized rows and the first's over the second temperature. -/
theorem hB2 (hpre : Cert.Pre_KernelIdeal m) (hagree : Agree m m') (c : Dev Cert.KernelIdeal.nD)
    (v2 u2 : FVec Ideal Cert.KernelIdeal.S10000x256 .f32)
    (hZ : Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v284 = Cert.KernelIdeal.Hand.zK (F := Ideal) v2) (hT : Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v292 = Cert.KernelIdeal.Hand.stuK (F := Ideal) u2)
    (hQ : Cert.KernelIdeal.Hand.W30 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v294 = Cert.KernelIdeal.Hand.qpK (F := Ideal) v2 (m ((c.tc : Thread Cert.KernelIdeal.nD Cert.KernelIdeal.τ).loc Cert.KernelIdeal.main_arg6)))
    (e2 : StableHlo.after (Cert.ReferenceIdeal.OpsP.ops (F := Ideal)) (StableHlo.launchContents m' c) (Proc.devRef .tc Cert.ReferenceIdeal.main_v276) = v2) (e3 : StableHlo.after (Cert.ReferenceIdeal.OpsP.ops (F := Ideal)) (StableHlo.launchContents m' c) (Proc.devRef .tc Cert.ReferenceIdeal.main_v280) = u2)
    (hz : ∀ i, ∃ a : ℝ, (Cert.KernelIdeal.Hand.zK (F := Ideal) v2 : FVec Ideal Cert.KernelIdeal.S10000x256 .f32) i = (a : EReal)) (hs : ∀ i, ∃ a : ℝ, (Cert.KernelIdeal.Hand.stuK (F := Ideal) u2 : FVec Ideal Cert.KernelIdeal.S10000x256 .f32) i = (a : EReal)) :
    shapeCast Cert.KernelIdeal.S10000 (Cert.KernelIdeal.Hand.o7 m c) Cert.KernelIdeal.Gen.shapeCasts_S10000x1_S10000
      = negR (F := Ideal) (zR (StableHlo.after (Cert.ReferenceIdeal.OpsP.ops (F := Ideal)) (StableHlo.launchContents m' c) (Proc.devRef .tc Cert.ReferenceIdeal.main_v276))) (stuR (StableHlo.after (Cert.ReferenceIdeal.OpsP.ops (F := Ideal)) (StableHlo.launchContents m' c) (Proc.devRef .tc Cert.ReferenceIdeal.main_v280))) (m' ((c.tc : Thread Cert.ReferenceIdeal.nD Cert.ReferenceIdeal.τ).loc Cert.ReferenceIdeal.main_arg6)) := by
  obtain ⟨-, -, -, -, -, -, a6, -⟩ := hagree c
  rw [e2, e3, a6, negR_eq_negRef]
  exact negsim2 m c (Cert.KernelIdeal.Hand.zK (F := Ideal) v2) (Cert.KernelIdeal.Hand.stuK (F := Ideal) u2) (m ((c.tc : Thread Cert.KernelIdeal.nD Cert.KernelIdeal.τ).loc Cert.KernelIdeal.main_arg6)) hZ hT hQ hz hs
    (pre_real_arg6 m hpre c ix0) (pre_ne_zero_arg6 m hpre c ix0)

end Cert.Proof.Parts

end
-- ==== Proof.HB2FinalC.lean ====
/-
  The negative row sums of the second loss agree, in closed form: from the second view's two encoder outputs agreeing
  between the programs (at the kernel's last valuation), with the realness of the two normalized arrays as hypotheses.
-/
import proofs.«175488_j3908420240157_2_alg».proof.Proof.HB2C
import proofs.«175488_j3908420240157_2_alg».proof.Proof.KI.Loss2ChainA

set_option maxRecDepth 65536

noncomputable section

namespace Cert.Proof.Parts

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 1000000 in
/-- THE NEGATIVE ROW SUMS OF THE SECOND LOSS AGREE. -/
theorem hB2' (hpre : Cert.Pre_KernelIdeal m) (hagree : Agree m m') (c : Dev Cert.KernelIdeal.nD)
    (e2 : StableHlo.after (Cert.ReferenceIdeal.OpsP.ops (F := Ideal)) (StableHlo.launchContents m' c) (Proc.devRef .tc Cert.ReferenceIdeal.main_v276) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v229)
    (e3 : StableHlo.after (Cert.ReferenceIdeal.OpsP.ops (F := Ideal)) (StableHlo.launchContents m' c) (Proc.devRef .tc Cert.ReferenceIdeal.main_v280) = Cert.KernelIdeal.Hand.W32 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c Cert.KernelIdeal.main_v230)
    (hz : ∀ i, ∃ a : ℝ, (Cert.KernelIdeal.Hand.zK (F := Ideal) (Cert.KernelIdeal.Hand.W29 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v229) : FVec Ideal Cert.KernelIdeal.S10000x256 .f32) i = (a : EReal))
    (hs : ∀ i, ∃ a : ℝ, (Cert.KernelIdeal.Hand.stuK (F := Ideal) (Cert.KernelIdeal.Hand.W29 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v230) : FVec Ideal Cert.KernelIdeal.S10000x256 .f32) i = (a : EReal)) :
    shapeCast Cert.KernelIdeal.S10000 (Cert.KernelIdeal.Hand.o7 m c) Cert.KernelIdeal.Gen.shapeCasts_S10000x1_S10000
      = negR (F := Ideal) (zR (StableHlo.after (Cert.ReferenceIdeal.OpsP.ops (F := Ideal)) (StableHlo.launchContents m' c) (Proc.devRef .tc Cert.ReferenceIdeal.main_v276))) (stuR (StableHlo.after (Cert.ReferenceIdeal.OpsP.ops (F := Ideal)) (StableHlo.launchContents m' c) (Proc.devRef .tc Cert.ReferenceIdeal.main_v280))) (m' ((c.tc : Thread Cert.ReferenceIdeal.nD Cert.ReferenceIdeal.τ).loc Cert.ReferenceIdeal.main_arg6)) :=
  hB2 m m' hpre hagree c (Cert.KernelIdeal.Hand.W29 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v229) (Cert.KernelIdeal.Hand.W29 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c Cert.KernelIdeal.main_v230)
    (Cert.KernelIdeal.Hand.W30_main_v284 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c) (Cert.KernelIdeal.Hand.W30_main_v292 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c) (Cert.KernelIdeal.Hand.W30_main_v294 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) c)
    (e2.trans (Cert.KernelIdeal.Hand.W32_main_v229_W29 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c)) (e3.trans (Cert.KernelIdeal.Hand.W32_main_v230_W29 m (Cert.KernelIdeal.Hand.o0 m) (Cert.KernelIdeal.Hand.o1 m) (Cert.KernelIdeal.Hand.o2 m) (Cert.KernelIdeal.Hand.o3 m) (Cert.KernelIdeal.Hand.o4 m) (Cert.KernelIdeal.Hand.o5 m) (Cert.KernelIdeal.Hand.o6 m) (Cert.KernelIdeal.Hand.o7 m) c)) hz hs

end Cert.Proof.Parts

end
-- ==== Proof.GraphValues.lean ====
/-
  The three equations through the graph layers, put together.
  An embedding is two graph-convolution layers. A layer is a product with a weight matrix, a scaling of the rows by the source
  degrees' inverse square roots, a gather of rows along the edges, a scatter-add to the destinations, a scaling by the destination
  degrees' inverse square roots and a bias. The kernel forms each product in a region, by three passes over operands with real
  entries, and scales before it gathers; the reference forms it on the host and scales after. So the first layer's outputs
  agree, hence — their entries being real — the second layer's, which are results 0 and 1. The loss runs the same host
  operations on both sides from the two embeddings, except that the projection is a region on one side and a host product on
  the other, and that the row sums of exp(z·k/τ) over all keys are accumulated block by block with τ divided into z beforehand
  on one side, and taken over the whole N × N product divided by τ on the other: equal for real z, k and real τ ≠ 0, which the
  precondition gives. The total is the sum of the two branches' losses on both sides.
-/
import proofs.«175488_j3908420240157_2_alg».proof.Proof.Values
import proofs.«175488_j3908420240157_2_alg».proof.Proof.Stage1v
import proofs.«175488_j3908420240157_2_alg».proof.Proof.Stage1u
import proofs.«175488_j3908420240157_2_alg».proof.Proof.Stage2v
import proofs.«175488_j3908420240157_2_alg».proof.Proof.Stage2u
import proofs.«175488_j3908420240157_2_alg».proof.Proof.KI.RealH0
import proofs.«175488_j3908420240157_2_alg».proof.Proof.KI.RealV1
import proofs.«175488_j3908420240157_2_alg».proof.Proof.KI.RealU1
import proofs.«175488_j3908420240157_2_alg».proof.Proof.KI.RealV2A
import proofs.«175488_j3908420240157_2_alg».proof.Proof.Loss1
import proofs.«175488_j3908420240157_2_alg».proof.Proof.HB1C
import proofs.«175488_j3908420240157_2_alg».proof.Proof.Qlin3C
import proofs.«175488_j3908420240157_2_alg».proof.Proof.LossA
import proofs.«175488_j3908420240157_2_alg».proof.Proof.Qlin6C
import proofs.«175488_j3908420240157_2_alg».proof.Proof.HB2FinalC

set_option maxRecDepth 65536

noncomputable section

namespace Cert.Proof.Parts

open Idealize.ShloMosaic Idealize.ShloMosaic.TcCoe Idealize.SL.Sem

set_option maxHeartbeats 0 in
/-- The two GCN embeddings and the loss agree. -/
theorem graph_values : GraphValuesAgree := fun m m' hpre hagree c => by
  -- the embeddings: first layers agree, their entries are real, so the second layers agree
  have e0 := v1_agree m m' hpre hagree c (h0v_agree m m' hpre hagree c) (Cert.KernelIdeal.Hand.h0v_real m hpre c)
  have e1 := u1_agree m m' hpre hagree c (h0u_agree m m' hpre hagree c) (Cert.KernelIdeal.Hand.h0u_real m hpre c)
  -- the linear encoders
  obtain ⟨e2, e3⟩ := values23 m m' hagree c (pre_real_arg0 m hpre c) (pre_real_arg15 m hpre c) (pre_real_arg17 m hpre c)
  -- the first branch's loss: the projection and the row sums are the reference's
  have hv1 := Cert.KernelIdeal.Hand.v1_real m hpre c
  have hu1 := Cert.KernelIdeal.Hand.u1_real m hpre c
  have hL1 := loss1_agree m m' hagree c e0 e1 (hA1 m m' hpre hagree c e0 hv1) (hB1 m m' hpre hagree c e0 e1 hv1 hu1)
  -- the second branch's, and the total
  exact ⟨e0, e1, loss_agree m m' hagree c hL1 e3 (hA2 m m' hpre hagree c e2 (Cert.KernelIdeal.Hand.v2_real m hpre c))
    (hB2' m m' hpre hagree c e2 e3 (Cert.KernelIdeal.Hand.z2_real m hpre c) (Cert.KernelIdeal.Hand.stu2_real m hpre c))⟩

/-- The five equations. -/
theorem values_agree : ValuesAgree := values_agree_of_graph graph_values

end Cert.Proof.Parts

end
-- ==== Proof.lean ====
/-
  The certificate of the kernel against its reference.
  The kernel's program is eight kernel regions among host operations: six tiled products x @ w + bias, each an f32 product
  emulated by three bf16 passes over the split x = hi + lo, and two reductions accumulating, over blocks of 2000 keys, the row
  sums of exp(q @ k^T); the reference is the same network written with whole-array products. Each of the three programs runs
  to the end from any memory satisfying the precondition and leaves its argument arrays unchanged (the two kernel programs
  region by region over the chain of buffer contents between @main's items; the reference as a straight-line fold); the
  idealized kernel is the kernel's sanctioned idealization (each bf16 round trip it removed is the identity on the extended
  reals); and the two idealized programs end with equal results: on operands with real entries a three-pass product is the
  product, scaling rows commutes with gathering them, block row sums add up to whole row sums, and a quotient by a nonzero real
  temperature moves across a sum of products — the precondition making every float input real and both temperatures nonzero.
-/
import proofs.«175488_j3908420240157_2_alg».proof.Defs
import proofs.«175488_j3908420240157_2_alg».proof.Proof.Gen.Kernel
import proofs.«175488_j3908420240157_2_alg».proof.Proof.Gen.KernelIdeal
import proofs.«175488_j3908420240157_2_alg».proof.Proof.Gen.ReferenceIdeal
import proofs.«175488_j3908420240157_2_alg».proof.Proof.Gen.Pre_finite_inputs
import proofs.«175488_j3908420240157_2_alg».proof.Proof.Preserves
import proofs.«175488_j3908420240157_2_alg».proof.Proof.RefFrame
import proofs.«175488_j3908420240157_2_alg».proof.Proof.KI.Frame
import proofs.«175488_j3908420240157_2_alg».proof.Proof.K.Frame
import proofs.«175488_j3908420240157_2_alg».proof.Proof.Algebraic
import proofs.«175488_j3908420240157_2_alg».proof.Proof.GraphValues
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Kernel.Hand.frame_K, Cert.KernelIdeal.Hand.frame_KI, Cert.Proof.Parts.frame_ref, Cert.Proof.Parts.preserves,
  -- the two idealized programs end with equal results: the five equations between their result arrays
  Cert.Proof.Parts.algebraic_of_values Cert.Proof.Parts.values_agree⟩

end Cert.Proof

end
